-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v222)) (v1 : (c : Dev Cert.KernelIdeal.nD) → Buf (Elt Ideal) ((c.tc : Thread Cert.KernelIdeal.nD Cert.KernelIdeal.τ).loc Cert.KernelIdeal.main_v207)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v222) = v0 c
          ∧ r.2.mem ((c.tc : Thread Cert.KernelIdeal.nD Cert.KernelIdeal.τ).loc Cert.KernelIdeal.main_v207) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1427) = v0 c
          ∧ r.2.mem ((c.tc : Thread Cert.ReferenceIdeal.nD Cert.ReferenceIdeal.τ).loc Cert.ReferenceIdeal.main_v1073) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S9x256x32 : Shape := ⟨3, ![9, 256, 32]⟩
abbrev S9x32x32 : Shape := ⟨3, ![9, 32, 32]⟩
abbrev S9x32x64 : Shape := ⟨3, ![9, 32, 64]⟩
abbrev S9x64x64 : Shape := ⟨3, ![9, 64, 64]⟩
abbrev S27x64x64 : Shape := ⟨3, ![27, 64, 64]⟩
abbrev S50000x9 : Shape := ⟨2, ![50000, 9]⟩
abbrev S122811x27 : Shape := ⟨2, ![122811, 27]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S9x256x32 : S_.BroadcastsInDim S9x256x32 (![] : Fin 0 → Fin S9x256x32.rank)
  reducesTo_S9x256x32_S_d0_1_2 : S9x256x32.ReducesTo [0, 1, 2] S_
  bcast_S_S9x32x32 : S_.BroadcastsInDim S9x32x32 (![] : Fin 0 → Fin S9x32x32.rank)
  reducesTo_S9x32x32_S_d0_1_2 : S9x32x32.ReducesTo [0, 1, 2] S_
  bcast_S_S9x32x64 : S_.BroadcastsInDim S9x32x64 (![] : Fin 0 → Fin S9x32x64.rank)
  reducesTo_S9x32x64_S_d0_1_2 : S9x32x64.ReducesTo [0, 1, 2] S_
  bcast_S_S9x64x64 : S_.BroadcastsInDim S9x64x64 (![] : Fin 0 → Fin S9x64x64.rank)
  reducesTo_S9x64x64_S_d0_1_2 : S9x64x64.ReducesTo [0, 1, 2] S_
  bcast_S_S27x64x64 : S_.BroadcastsInDim S27x64x64 (![] : Fin 0 → Fin S27x64x64.rank)
  reducesTo_S27x64x64_S_d0_1_2 : S27x64x64.ReducesTo [0, 1, 2] S_

variable [Facts]

def fn_part2 {F : FTy → Type} [FloatOps F] (main_arg7 : FVec F S9x32x64 .f32) (main_arg8 : FVec F S9x64x64 .f32) (main_arg9 : FVec F S27x64x64 .f32) (main_v33 : IVec S_ 1) : IVec S_ 1 :=
  let main_v34 : FVec F S9x32x64 .f32 := Host.absf main_arg7
  let main_cst_12 : FVec F S_ .f32 := constant S_ .f32 0x7F800000#32
  let main_v35 : FVec F S9x32x64 .f32 := broadcastInDim S9x32x64 ![] bcast_S_S9x32x64 main_cst_12
  let main_v36 : IVec S9x32x64 1 := cmpf .olt main_v34 main_v35
  let main_c_13 : IVec S_ 1 := constantI S_ 1 1#1
  let main_v37 : IVec S_ 1 := (fun x v => Host.reduce IntOp.andi x v reducesTo_S9x32x64_S_d0_1_2 h_S_) main_v36 main_c_13
  let main_v38 : IVec S_ 1 := andi main_v33 main_v37
  let main_v39 : FVec F S9x64x64 .f32 := Host.absf main_arg8
  let main_cst_14 : FVec F S_ .f32 := constant S_ .f32 0x7F800000#32
  let main_v40 : FVec F S9x64x64 .f32 := broadcastInDim S9x64x64 ![] bcast_S_S9x64x64 main_cst_14
  let main_v41 : IVec S9x64x64 1 := cmpf .olt main_v39 main_v40
  let main_c_15 : IVec S_ 1 := constantI S_ 1 1#1
  let main_v42 : IVec S_ 1 := (fun x v => Host.reduce IntOp.andi x v reducesTo_S9x64x64_S_d0_1_2 h_S_) main_v41 main_c_15
  let main_v43 : IVec S_ 1 := andi main_v38 main_v42
  let main_v44 : FVec F S27x64x64 .f32 := Host.absf main_arg9
  let main_cst_16 : FVec F S_ .f32 := constant S_ .f32 0x7F800000#32
  let main_v45 : FVec F S27x64x64 .f32 := broadcastInDim S27x64x64 ![] bcast_S_S27x64x64 main_cst_16
  let main_v46 : IVec S27x64x64 1 := cmpf .olt main_v44 main_v45
  let main_c_17 : IVec S_ 1 := constantI S_ 1 1#1
  let main_v47 : IVec S_ 1 := (fun x v => Host.reduce IntOp.andi x v reducesTo_S27x64x64_S_d0_1_2 h_S_) main_v46 main_c_17
  let main_v48 : IVec S_ 1 := andi main_v43 main_v47
  main_v48

def fn_part1 {F : FTy → Type} [FloatOps F] (main_arg4 : FVec F S9x32x32 .f32) (main_arg5 : FVec F S9x32x64 .f32) (main_arg6 : FVec F S9x64x64 .f32) (main_arg7 : FVec F S9x32x64 .f32) (main_arg8 : FVec F S9x64x64 .f32) (main_arg9 : FVec F S27x64x64 .f32) (main_v13 : IVec S_ 1) (main_v16 : IVec S9x256x32 1) : IVec S_ 1 :=
  let main_c_5 : IVec S_ 1 := constantI S_ 1 1#1
  let main_v17 : IVec S_ 1 := (fun x v => Host.reduce IntOp.andi x v reducesTo_S9x256x32_S_d0_1_2 h_S_) main_v16 main_c_5
  let main_v18 : IVec S_ 1 := andi main_v13 main_v17
  let main_v19 : FVec F S9x32x32 .f32 := Host.absf main_arg4
  let main_cst_6 : FVec F S_ .f32 := constant S_ .f32 0x7F800000#32
  let main_v20 : FVec F S9x32x32 .f32 := broadcastInDim S9x32x32 ![] bcast_S_S9x32x32 main_cst_6
  let main_v21 : IVec S9x32x32 1 := cmpf .olt main_v19 main_v20
  let main_c_7 : IVec S_ 1 := constantI S_ 1 1#1
  let main_v22 : IVec S_ 1 := (fun x v => Host.reduce IntOp.andi x v reducesTo_S9x32x32_S_d0_1_2 h_S_) main_v21 main_c_7
  let main_v23 : IVec S_ 1 := andi main_v18 main_v22
  let main_v24 : FVec F S9x32x64 .f32 := Host.absf main_arg5
  let main_cst_8 : FVec F S_ .f32 := constant S_ .f32 0x7F800000#32
  let main_v25 : FVec F S9x32x64 .f32 := broadcastInDim S9x32x64 ![] bcast_S_S9x32x64 main_cst_8
  let main_v26 : IVec S9x32x64 1 := cmpf .olt main_v24 main_v25
  let main_c_9 : IVec S_ 1 := constantI S_ 1 1#1
  let main_v27 : IVec S_ 1 := (fun x v => Host.reduce IntOp.andi x v reducesTo_S9x32x64_S_d0_1_2 h_S_) main_v26 main_c_9
  let main_v28 : IVec S_ 1 := andi main_v23 main_v27
  let main_v29 : FVec F S9x64x64 .f32 := Host.absf main_arg6
  let main_cst_10 : FVec F S_ .f32 := constant S_ .f32 0x7F800000#32
  let main_v30 : FVec F S9x64x64 .f32 := broadcastInDim S9x64x64 ![] bcast_S_S9x64x64 main_cst_10
  let main_v31 : IVec S9x64x64 1 := cmpf .olt main_v29 main_v30
  let main_c_11 : IVec S_ 1 := constantI S_ 1 1#1
  let main_v32 : IVec S_ 1 := (fun x v => Host.reduce IntOp.andi x v reducesTo_S9x64x64_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S50000x256 .f32) (main_arg1 : FVec F S9x256x32 .f32) (main_arg2 : FVec F S9x32x32 .f32) (main_arg3 : FVec F S9x256x32 .f32) (main_arg4 : FVec F S9x32x32 .f32) (main_arg5 : FVec F S9x32x64 .f32) (main_arg6 : FVec F S9x64x64 .f32) (main_arg7 : FVec F S9x32x64 .f32) (main_arg8 : FVec F S9x64x64 .f32) (main_arg9 : FVec F S27x64x64 .f32) (main_arg10 : IVec S50000x9 32) (main_arg11 : IVec S50000x9 32) (main_arg12 : IVec S122811x27 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S9x256x32 .f32 := Host.absf main_arg1
  let main_cst_0 : FVec F S_ .f32 := constant S_ .f32 0x7F800000#32
  let main_v5 : FVec F S9x256x32 .f32 := broadcastInDim S9x256x32 ![] bcast_S_S9x256x32 main_cst_0
  let main_v6 : IVec S9x256x32 1 := cmpf .olt main_v4 main_v5
  let main_c_1 : IVec S_ 1 := constantI S_ 1 1#1
  let main_v7 : IVec S_ 1 := (fun x v => Host.reduce IntOp.andi x v reducesTo_S9x256x32_S_d0_1_2 h_S_) main_v6 main_c_1
  let main_v8 : IVec S_ 1 := andi main_v3 main_v7
  let main_v9 : FVec F S9x32x32 .f32 := Host.absf main_arg2
  let main_cst_2 : FVec F S_ .f32 := constant S_ .f32 0x7F800000#32
  let main_v10 : FVec F S9x32x32 .f32 := broadcastInDim S9x32x32 ![] bcast_S_S9x32x32 main_cst_2
  let main_v11 : IVec S9x32x32 1 := cmpf .olt main_v9 main_v10
  let main_c_3 : IVec S_ 1 := constantI S_ 1 1#1
  let main_v12 : IVec S_ 1 := (fun x v => Host.reduce IntOp.andi x v reducesTo_S9x32x32_S_d0_1_2 h_S_) main_v11 main_c_3
  let main_v13 : IVec S_ 1 := andi main_v8 main_v12
  let main_v14 : FVec F S9x256x32 .f32 := Host.absf main_arg3
  let main_cst_4 : FVec F S_ .f32 := constant S_ .f32 0x7F800000#32
  let main_v15 : FVec F S9x256x32 .f32 := broadcastInDim S9x256x32 ![] bcast_S_S9x256x32 main_cst_4
  let main_v16 : IVec S9x256x32 1 := cmpf .olt main_v14 main_v15
  fn_part1 (F := F) main_arg4 main_arg5 main_arg6 main_arg7 main_arg8 main_arg9 main_v13 main_v16
-- ==== Kernel.lean ====
abbrev S50000x256 : Shape := ⟨2, ![50000, 256]⟩
abbrev S9x256x32 : Shape := ⟨3, ![9, 256, 32]⟩
abbrev S9x32x32 : Shape := ⟨3, ![9, 32, 32]⟩
abbrev S9x32x64 : Shape := ⟨3, ![9, 32, 64]⟩
abbrev S9x64x64 : Shape := ⟨3, ![9, 64, 64]⟩
abbrev S27x64x64 : Shape := ⟨3, ![27, 64, 64]⟩
abbrev S50000x9 : Shape := ⟨2, ![50000, 9]⟩
abbrev S122811x27 : Shape := ⟨2, ![122811, 27]⟩
abbrev S_ : Shape := ⟨0, ![]⟩
abbrev S1x256 : Shape := ⟨2, ![1, 256]⟩
abbrev S50001x256 : Shape := ⟨2, ![50001, 256]⟩
abbrev S9x50000 : Shape := ⟨2, ![9, 50000]⟩
abbrev S9x50000x1 : Shape := ⟨3, ![9, 50000, 1]⟩
abbrev S9x50000x256 : Shape := ⟨3, ![9, 50000, 256]⟩
abbrev S50000x32 : Shape := ⟨2, ![50000, 32]⟩
abbrev S9x2000x256 : Shape := ⟨3, ![9, 2000, 256]⟩
abbrev S2000x32 : Shape := ⟨2, ![2000, 32]⟩
abbrev S1x2000x256 : Shape := ⟨3, ![1, 2000, 256]⟩
abbrev S2000x256 : Shape := ⟨2, ![2000, 256]⟩
abbrev S1x256x32 : Shape := ⟨3, ![1, 256, 32]⟩
abbrev S256x32 : Shape := ⟨2, ![256, 32]⟩
abbrev S32 : Shape := ⟨1, ![32]⟩
abbrev S1x32 : Shape := ⟨2, ![1, 32]⟩
abbrev S50001x32 : Shape := ⟨2, ![50001, 32]⟩
abbrev S9x50000x32 : Shape := ⟨3, ![9, 50000, 32]⟩
abbrev S9x5000x32 : Shape := ⟨3, ![9, 5000, 32]⟩
abbrev S5000x32 : Shape := ⟨2, ![5000, 32]⟩
abbrev S1x5000x32 : Shape := ⟨3, ![1, 5000, 32]⟩
abbrev S1x32x32 : Shape := ⟨3, ![1, 32, 32]⟩
abbrev S32x32 : Shape := ⟨2, ![32, 32]⟩
abbrev S50000x64 : Shape := ⟨2, ![50000, 64]⟩
abbrev S5000x64 : Shape := ⟨2, ![5000, 64]⟩
abbrev S1x32x64 : Shape := ⟨3, ![1, 32, 64]⟩
abbrev S32x64 : Shape := ⟨2, ![32, 64]⟩
abbrev S64 : Shape := ⟨1, ![64]⟩
abbrev S1x64 : Shape := ⟨2, ![1, 64]⟩
abbrev S50001x64 : Shape := ⟨2, ![50001, 64]⟩
abbrev S9x50000x64 : Shape := ⟨3, ![9, 50000, 64]⟩
abbrev S9x5000x64 : Shape := ⟨3, ![9, 5000, 64]⟩
abbrev S1x5000x64 : Shape := ⟨3, ![1, 5000, 64]⟩
abbrev S1x64x64 : Shape := ⟨3, ![1, 64, 64]⟩
abbrev S64x64 : Shape := ⟨2, ![64, 64]⟩
abbrev S27x122811 : Shape := ⟨2, ![27, 122811]⟩
abbrev S27x122811x1 : Shape := ⟨3, ![27, 122811, 1]⟩
abbrev S27x122811x64 : Shape := ⟨3, ![27, 122811, 64]⟩
abbrev S27x124200x64 : Shape := ⟨3, ![27, 124200, 64]⟩
abbrev S124200x64 : Shape := ⟨2, ![124200, 64]⟩
abbrev S27x1800x64 : Shape := ⟨3, ![27, 1800, 64]⟩
abbrev S1800x64 : Shape := ⟨2, ![1800, 64]⟩
abbrev S1x1800x64 : Shape := ⟨3, ![1, 1800, 64]⟩
abbrev S122811x64 : Shape := ⟨2, ![122811, 64]⟩

abbrev nBuf : Space → Nat
  | .hbm => 465
  | .vmem => 45
  | .smem => 0
  | _ => 0

abbrev hbmTy0_0 (i : Nat) : BufTy := match i % 128 with
  | 0 => ⟨S50000x256, .f32⟩
  | 1 => ⟨S9x256x32, .f32⟩
  | 2 => ⟨S9x32x32, .f32⟩
  | 3 => ⟨S9x256x32, .f32⟩
  | 4 => ⟨S9x32x32, .f32⟩
  | 5 => ⟨S9x32x64, .f32⟩
  | 6 => ⟨S9x64x64, .f32⟩
  | 7 => ⟨S9x32x64, .f32⟩
  | 8 => ⟨S9x64x64, .f32⟩
  | 9 => ⟨S27x64x64, .f32⟩
  | 10 => ⟨S50000x9, .i32⟩
  | 11 => ⟨S50000x9, .i32⟩
  | 12 => ⟨S122811x27, .i32⟩
  | 13 => ⟨S50000x256, .bf16⟩
  | 14 => ⟨S_, .bf16⟩
  | 15 => ⟨S1x256, .bf16⟩
  | 16 => ⟨S50001x256, .bf16⟩
  | 17 => ⟨S9x50000, .i32⟩
  | 18 => ⟨S_, .i32⟩
  | 19 => ⟨S9x50000, .i32⟩
  | 20 => ⟨S9x50000, .i1⟩
  | 21 => ⟨S_, .i32⟩
  | 22 => ⟨S9x50000, .i32⟩
  | 23 => ⟨S9x50000, .i32⟩
  | 24 => ⟨S9x50000, .i32⟩
  | 25 => ⟨S9x50000x1, .i32⟩
  | 26 => ⟨S9x50000x256, .bf16⟩
  | 27 => ⟨S9x256x32, .bf16⟩
  | 28 => ⟨S50000x32, .f32⟩
  | 29 => ⟨S_, .f32⟩
  | 30 => ⟨S32, .f32⟩
  | 31 => ⟨S_, .f32⟩
  | 32 => ⟨S32, .f32⟩
  | 33 => ⟨S32, .f32⟩
  | 34 => ⟨S_, .i32⟩
  | 35 => ⟨S_, .f32⟩
  | 36 => ⟨S32, .f32⟩
  | 37 => ⟨S1x32, .f32⟩
  | 38 => ⟨S_, .f32⟩
  | 39 => ⟨S1x32, .f32⟩
  | 40 => ⟨S1x32, .f32⟩
  | 41 => ⟨S50000x32, .f32⟩
  | 42 => ⟨S50000x32, .f32⟩
  | 43 => ⟨S50000x32, .f32⟩
  | 44 => ⟨S_, .f32⟩
  | 45 => ⟨S_, .f32⟩
  | 46 => ⟨S_, .f32⟩
  | 47 => ⟨S_, .f32⟩
  | 48 => ⟨S32, .f32⟩
  | 49 => ⟨S32, .f32⟩
  | 50 => ⟨S32, .f32⟩
  | 51 => ⟨S_, .f32⟩
  | 52 => ⟨S_, .i1⟩
  | 53 => ⟨S_, .f32⟩
  | 54 => ⟨S_, .f32⟩
  | 55 => ⟨S32, .f32⟩
  | 56 => ⟨S32, .f32⟩
  | 57 => ⟨S1x32, .f32⟩
  | 58 => ⟨S50000x32, .f32⟩
  | 59 => ⟨S50000x32, .f32⟩
  | 60 => ⟨S_, .f32⟩
  | 61 => ⟨S32, .f32⟩
  | 62 => ⟨S32, .f32⟩
  | 63 => ⟨S32, .f32⟩
  | 64 => ⟨S1x32, .f32⟩
  | 65 => ⟨S50000x32, .f32⟩
  | 66 => ⟨S50000x32, .f32⟩
  | 67 => ⟨S50000x32, .bf16⟩
  | 68 => ⟨S_, .bf16⟩
  | 69 => ⟨S1x32, .bf16⟩
  | 70 => ⟨S50001x32, .bf16⟩
  | 71 => ⟨S9x50000, .i32⟩
  | 72 => ⟨S_, .i32⟩
  | 73 => ⟨S9x50000, .i32⟩
  | 74 => ⟨S9x50000, .i1⟩
  | 75 => ⟨S_, .i32⟩
  | 76 => ⟨S9x50000, .i32⟩
  | 77 => ⟨S9x50000, .i32⟩
  | 78 => ⟨S9x50000, .i32⟩
  | 79 => ⟨S9x50000x1, .i32⟩
  | 80 => ⟨S9x50000x32, .bf16⟩
  | 81 => ⟨S9x32x32, .bf16⟩
  | 82 => ⟨S50000x32, .f32⟩
  | 83 => ⟨S_, .f32⟩
  | 84 => ⟨S32, .f32⟩
  | 85 => ⟨S_, .f32⟩
  | 86 => ⟨S32, .f32⟩
  | 87 => ⟨S32, .f32⟩
  | 88 => ⟨S_, .i32⟩
  | 89 => ⟨S_, .f32⟩
  | 90 => ⟨S32, .f32⟩
  | 91 => ⟨S1x32, .f32⟩
  | 92 => ⟨S_, .f32⟩
  | 93 => ⟨S1x32, .f32⟩
  | 94 => ⟨S1x32, .f32⟩
  | 95 => ⟨S50000x32, .f32⟩
  | 96 => ⟨S50000x32, .f32⟩
  | 97 => ⟨S50000x32, .f32⟩
  | 98 => ⟨S_, .f32⟩
  | 99 => ⟨S_, .f32⟩
  | 100 => ⟨S_, .f32⟩
  | 101 => ⟨S_, .f32⟩
  | 102 => ⟨S32, .f32⟩
  | 103 => ⟨S32, .f32⟩
  | 104 => ⟨S32, .f32⟩
  | 105 => ⟨S_, .f32⟩
  | 106 => ⟨S_, .i1⟩
  | 107 => ⟨S_, .f32⟩
  | 108 => ⟨S_, .f32⟩
  | 109 => ⟨S32, .f32⟩
  | 110 => ⟨S32, .f32⟩
  | 111 => ⟨S1x32, .f32⟩
  | 112 => ⟨S50000x32, .f32⟩
  | 113 => ⟨S50000x32, .f32⟩
  | 114 => ⟨S_, .f32⟩
  | 115 => ⟨S32, .f32⟩
  | 116 => ⟨S32, .f32⟩
  | 117 => ⟨S32, .f32⟩
  | 118 => ⟨S1x32, .f32⟩
  | 119 => ⟨S50000x32, .f32⟩
  | 120 => ⟨S50000x32, .f32⟩
  | 121 => ⟨S_, .bf16⟩
  | 122 => ⟨S1x256, .bf16⟩
  | 123 => ⟨S50001x256, .bf16⟩
  | 124 => ⟨S9x50000, .i32⟩
  | 125 => ⟨S_, .i32⟩
  | 126 => ⟨S9x50000, .i32⟩
  | 127 => ⟨S9x50000, .i1⟩
  | _ => ⟨S50000x256, .f32⟩

abbrev hbmTy0_1 (i : Nat) : BufTy := match i % 128 with
  | 0 => ⟨S_, .i32⟩
  | 1 => ⟨S9x50000, .i32⟩
  | 2 => ⟨S9x50000, .i32⟩
  | 3 => ⟨S9x50000, .i32⟩
  | 4 => ⟨S9x50000x1, .i32⟩
  | 5 => ⟨S9x50000x256, .bf16⟩
  | 6 => ⟨S9x256x32, .bf16⟩
  | 7 => ⟨S50000x32, .f32⟩
  | 8 => ⟨S_, .f32⟩
  | 9 => ⟨S32, .f32⟩
  | 10 => ⟨S_, .f32⟩
  | 11 => ⟨S32, .f32⟩
  | 12 => ⟨S32, .f32⟩
  | 13 => ⟨S_, .i32⟩
  | 14 => ⟨S_, .f32⟩
  | 15 => ⟨S32, .f32⟩
  | 16 => ⟨S1x32, .f32⟩
  | 17 => ⟨S_, .f32⟩
  | 18 => ⟨S1x32, .f32⟩
  | 19 => ⟨S1x32, .f32⟩
  | 20 => ⟨S50000x32, .f32⟩
  | 21 => ⟨S50000x32, .f32⟩
  | 22 => ⟨S50000x32, .f32⟩
  | 23 => ⟨S_, .f32⟩
  | 24 => ⟨S_, .f32⟩
  | 25 => ⟨S_, .f32⟩
  | 26 => ⟨S_, .f32⟩
  | 27 => ⟨S32, .f32⟩
  | 28 => ⟨S32, .f32⟩
  | 29 => ⟨S32, .f32⟩
  | 30 => ⟨S_, .f32⟩
  | 31 => ⟨S_, .i1⟩
  | 32 => ⟨S_, .f32⟩
  | 33 => ⟨S_, .f32⟩
  | 34 => ⟨S32, .f32⟩
  | 35 => ⟨S32, .f32⟩
  | 36 => ⟨S1x32, .f32⟩
  | 37 => ⟨S50000x32, .f32⟩
  | 38 => ⟨S50000x32, .f32⟩
  | 39 => ⟨S_, .f32⟩
  | 40 => ⟨S32, .f32⟩
  | 41 => ⟨S32, .f32⟩
  | 42 => ⟨S32, .f32⟩
  | 43 => ⟨S1x32, .f32⟩
  | 44 => ⟨S50000x32, .f32⟩
  | 45 => ⟨S50000x32, .f32⟩
  | 46 => ⟨S50000x32, .bf16⟩
  | 47 => ⟨S_, .bf16⟩
  | 48 => ⟨S1x32, .bf16⟩
  | 49 => ⟨S50001x32, .bf16⟩
  | 50 => ⟨S9x50000, .i32⟩
  | 51 => ⟨S_, .i32⟩
  | 52 => ⟨S9x50000, .i32⟩
  | 53 => ⟨S9x50000, .i1⟩
  | 54 => ⟨S_, .i32⟩
  | 55 => ⟨S9x50000, .i32⟩
  | 56 => ⟨S9x50000, .i32⟩
  | 57 => ⟨S9x50000, .i32⟩
  | 58 => ⟨S9x50000x1, .i32⟩
  | 59 => ⟨S9x50000x32, .bf16⟩
  | 60 => ⟨S9x32x32, .bf16⟩
  | 61 => ⟨S50000x32, .f32⟩
  | 62 => ⟨S_, .f32⟩
  | 63 => ⟨S32, .f32⟩
  | 64 => ⟨S_, .f32⟩
  | 65 => ⟨S32, .f32⟩
  | 66 => ⟨S32, .f32⟩
  | 67 => ⟨S_, .i32⟩
  | 68 => ⟨S_, .f32⟩
  | 69 => ⟨S32, .f32⟩
  | 70 => ⟨S1x32, .f32⟩
  | 71 => ⟨S_, .f32⟩
  | 72 => ⟨S1x32, .f32⟩
  | 73 => ⟨S1x32, .f32⟩
  | 74 => ⟨S50000x32, .f32⟩
  | 75 => ⟨S50000x32, .f32⟩
  | 76 => ⟨S50000x32, .f32⟩
  | 77 => ⟨S_, .f32⟩
  | 78 => ⟨S_, .f32⟩
  | 79 => ⟨S_, .f32⟩
  | 80 => ⟨S_, .f32⟩
  | 81 => ⟨S32, .f32⟩
  | 82 => ⟨S32, .f32⟩
  | 83 => ⟨S32, .f32⟩
  | 84 => ⟨S_, .f32⟩
  | 85 => ⟨S_, .i1⟩
  | 86 => ⟨S_, .f32⟩
  | 87 => ⟨S_, .f32⟩
  | 88 => ⟨S32, .f32⟩
  | 89 => ⟨S32, .f32⟩
  | 90 => ⟨S1x32, .f32⟩
  | 91 => ⟨S50000x32, .f32⟩
  | 92 => ⟨S50000x32, .f32⟩
  | 93 => ⟨S_, .f32⟩
  | 94 => ⟨S32, .f32⟩
  | 95 => ⟨S32, .f32⟩
  | 96 => ⟨S32, .f32⟩
  | 97 => ⟨S1x32, .f32⟩
  | 98 => ⟨S50000x32, .f32⟩
  | 99 => ⟨S50000x32, .f32⟩
  | 100 => ⟨S50000x32, .f32⟩
  | 101 => ⟨S50000x32, .bf16⟩
  | 102 => ⟨S_, .bf16⟩
  | 103 => ⟨S1x32, .bf16⟩
  | 104 => ⟨S50001x32, .bf16⟩
  | 105 => ⟨S9x50000, .i32⟩
  | 106 => ⟨S_, .i32⟩
  | 107 => ⟨S9x50000, .i32⟩
  | 108 => ⟨S9x50000, .i1⟩
  | 109 => ⟨S_, .i32⟩
  | 110 => ⟨S9x50000, .i32⟩
  | 111 => ⟨S9x50000, .i32⟩
  | 112 => ⟨S9x50000, .i32⟩
  | 113 => ⟨S9x50000x1, .i32⟩
  | 114 => ⟨S9x50000x32, .bf16⟩
  | 115 => ⟨S9x32x64, .bf16⟩
  | 116 => ⟨S50000x64, .f32⟩
  | 117 => ⟨S_, .f32⟩
  | 118 => ⟨S64, .f32⟩
  | 119 => ⟨S_, .f32⟩
  | 120 => ⟨S64, .f32⟩
  | 121 => ⟨S64, .f32⟩
  | 122 => ⟨S_, .i32⟩
  | 123 => ⟨S_, .f32⟩
  | 124 => ⟨S64, .f32⟩
  | 125 => ⟨S1x64, .f32⟩
  | 126 => ⟨S_, .f32⟩
  | 127 => ⟨S1x64, .f32⟩
  | _ => ⟨S50000x256, .f32⟩

abbrev hbmTy0_2 (i : Nat) : BufTy := match i % 128 with
  | 0 => ⟨S1x64, .f32⟩
  | 1 => ⟨S50000x64, .f32⟩
  | 2 => ⟨S50000x64, .f32⟩
  | 3 => ⟨S50000x64, .f32⟩
  | 4 => ⟨S_, .f32⟩
  | 5 => ⟨S_, .f32⟩
  | 6 => ⟨S_, .f32⟩
  | 7 => ⟨S_, .f32⟩
  | 8 => ⟨S64, .f32⟩
  | 9 => ⟨S64, .f32⟩
  | 10 => ⟨S64, .f32⟩
  | 11 => ⟨S_, .f32⟩
  | 12 => ⟨S_, .i1⟩
  | 13 => ⟨S_, .f32⟩
  | 14 => ⟨S_, .f32⟩
  | 15 => ⟨S64, .f32⟩
  | 16 => ⟨S64, .f32⟩
  | 17 => ⟨S1x64, .f32⟩
  | 18 => ⟨S50000x64, .f32⟩
  | 19 => ⟨S50000x64, .f32⟩
  | 20 => ⟨S_, .f32⟩
  | 21 => ⟨S64, .f32⟩
  | 22 => ⟨S64, .f32⟩
  | 23 => ⟨S64, .f32⟩
  | 24 => ⟨S1x64, .f32⟩
  | 25 => ⟨S50000x64, .f32⟩
  | 26 => ⟨S50000x64, .f32⟩
  | 27 => ⟨S50000x64, .bf16⟩
  | 28 => ⟨S_, .bf16⟩
  | 29 => ⟨S1x64, .bf16⟩
  | 30 => ⟨S50001x64, .bf16⟩
  | 31 => ⟨S9x50000, .i32⟩
  | 32 => ⟨S_, .i32⟩
  | 33 => ⟨S9x50000, .i32⟩
  | 34 => ⟨S9x50000, .i1⟩
  | 35 => ⟨S_, .i32⟩
  | 36 => ⟨S9x50000, .i32⟩
  | 37 => ⟨S9x50000, .i32⟩
  | 38 => ⟨S9x50000, .i32⟩
  | 39 => ⟨S9x50000x1, .i32⟩
  | 40 => ⟨S9x50000x64, .bf16⟩
  | 41 => ⟨S9x64x64, .bf16⟩
  | 42 => ⟨S50000x64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S_, .f32⟩
  | 75 => ⟨S64, .f32⟩
  | 76 => ⟨S64, .f32⟩
  | 77 => ⟨S64, .f32⟩
  | 78 => ⟨S1x64, .f32⟩
  | 79 => ⟨S50000x64, .f32⟩
  | 80 => ⟨S50000x64, .f32⟩
  | 81 => ⟨S_, .bf16⟩
  | 82 => ⟨S1x32, .bf16⟩
  | 83 => ⟨S50001x32, .bf16⟩
  | 84 => ⟨S9x50000, .i32⟩
  | 85 => ⟨S_, .i32⟩
  | 86 => ⟨S9x50000, .i32⟩
  | 87 => ⟨S9x50000, .i1⟩
  | 88 => ⟨S_, .i32⟩
  | 89 => ⟨S9x50000, .i32⟩
  | 90 => ⟨S9x50000, .i32⟩
  | 91 => ⟨S9x50000, .i32⟩
  | 92 => ⟨S9x50000x1, .i32⟩
  | 93 => ⟨S9x50000x32, .bf16⟩
  | 94 => ⟨S9x32x64, .bf16⟩
  | 95 => ⟨S50000x64, .f32⟩
  | 96 => ⟨S_, .f32⟩
  | 97 => ⟨S64, .f32⟩
  | 98 => ⟨S_, .f32⟩
  | 99 => ⟨S64, .f32⟩
  | 100 => ⟨S64, .f32⟩
  | 101 => ⟨S_, .i32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S50000x64, .f32⟩
  | 109 => ⟨S50000x64, .f32⟩
  | 110 => ⟨S50000x64, .f32⟩
  | 111 => ⟨S_, .f32⟩
  | 112 => ⟨S_, .f32⟩
  | 113 => ⟨S_, .f32⟩
  | 114 => ⟨S_, .f32⟩
  | 115 => ⟨S64, .f32⟩
  | 116 => ⟨S64, .f32⟩
  | 117 => ⟨S64, .f32⟩
  | 118 => ⟨S_, .f32⟩
  | 119 => ⟨S_, .i1⟩
  | 120 => ⟨S_, .f32⟩
  | 121 => ⟨S_, .f32⟩
  | 122 => ⟨S64, .f32⟩
  | 123 => ⟨S64, .f32⟩
  | 124 => ⟨S1x64, .f32⟩
  | 125 => ⟨S50000x64, .f32⟩
  | 126 => ⟨S50000x64, .f32⟩
  | 127 => ⟨S_, .f32⟩
  | _ => ⟨S50000x256, .f32⟩

abbrev hbmTy0_3 (i : Nat) : BufTy := match i % 128 with
  | 0 => ⟨S64, .f32⟩
  | 1 => ⟨S64, .f32⟩
  | 2 => ⟨S64, .f32⟩
  | 3 => ⟨S1x64, .f32⟩
  | 4 => ⟨S50000x64, .f32⟩
  | 5 => ⟨S50000x64, .f32⟩
  | 6 => ⟨S50000x64, .bf16⟩
  | 7 => ⟨S_, .bf16⟩
  | 8 => ⟨S1x64, .bf16⟩
  | 9 => ⟨S50001x64, .bf16⟩
  | 10 => ⟨S9x50000, .i32⟩
  | 11 => ⟨S_, .i32⟩
  | 12 => ⟨S9x50000, .i32⟩
  | 13 => ⟨S9x50000, .i1⟩
  | 14 => ⟨S_, .i32⟩
  | 15 => ⟨S9x50000, .i32⟩
  | 16 => ⟨S9x50000, .i32⟩
  | 17 => ⟨S9x50000, .i32⟩
  | 18 => ⟨S9x50000x1, .i32⟩
  | 19 => ⟨S9x50000x64, .bf16⟩
  | 20 => ⟨S9x64x64, .bf16⟩
  | 21 => ⟨S50000x64, .f32⟩
  | 22 => ⟨S_, .f32⟩
  | 23 => ⟨S64, .f32⟩
  | 24 => ⟨S_, .f32⟩
  | 25 => ⟨S64, .f32⟩
  | 26 => ⟨S64, .f32⟩
  | 27 => ⟨S_, .i32⟩
  | 28 => ⟨S_, .f32⟩
  | 29 => ⟨S64, .f32⟩
  | 30 => ⟨S1x64, .f32⟩
  | 31 => ⟨S_, .f32⟩
  | 32 => ⟨S1x64, .f32⟩
  | 33 => ⟨S1x64, .f32⟩
  | 34 => ⟨S50000x64, .f32⟩
  | 35 => ⟨S50000x64, .f32⟩
  | 36 => ⟨S50000x64, .f32⟩
  | 37 => ⟨S_, .f32⟩
  | 38 => ⟨S_, .f32⟩
  | 39 => ⟨S_, .f32⟩
  | 40 => ⟨S_, .f32⟩
  | 41 => ⟨S64, .f32⟩
  | 42 => ⟨S64, .f32⟩
  | 43 => ⟨S64, .f32⟩
  | 44 => ⟨S_, .f32⟩
  | 45 => ⟨S_, .i1⟩
  | 46 => ⟨S_, .f32⟩
  | 47 => ⟨S_, .f32⟩
  | 48 => ⟨S64, .f32⟩
  | 49 => ⟨S64, .f32⟩
  | 50 => ⟨S1x64, .f32⟩
  | 51 => ⟨S50000x64, .f32⟩
  | 52 => ⟨S50000x64, .f32⟩
  | 53 => ⟨S_, .f32⟩
  | 54 => ⟨S64, .f32⟩
  | 55 => ⟨S64, .f32⟩
  | 56 => ⟨S64, .f32⟩
  | 57 => ⟨S1x64, .f32⟩
  | 58 => ⟨S50000x64, .f32⟩
  | 59 => ⟨S50000x64, .f32⟩
  | 60 => ⟨S50000x64, .f32⟩
  | 61 => ⟨S50000x64, .bf16⟩
  | 62 => ⟨S_, .bf16⟩
  | 63 => ⟨S1x64, .bf16⟩
  | 64 => ⟨S50001x64, .bf16⟩
  | 65 => ⟨S27x122811, .i32⟩
  | 66 => ⟨S_, .i32⟩
  | 67 => ⟨S27x122811, .i32⟩
  | 68 => ⟨S27x122811, .i1⟩
  | 69 => ⟨S_, .i32⟩
  | 70 => ⟨S27x122811, .i32⟩
  | 71 => ⟨S27x122811, .i32⟩
  | 72 => ⟨S27x122811, .i32⟩
  | 73 => ⟨S27x122811x1, .i32⟩
  | 74 => ⟨S27x122811x64, .bf16⟩
  | 75 => ⟨S27x64x64, .bf16⟩
  | 76 => ⟨S_, .i32⟩
  | 77 => ⟨S_, .bf16⟩
  | 78 => ⟨S27x124200x64, .bf16⟩
  | 79 => ⟨S124200x64, .f32⟩
  | 80 => ⟨S122811x64, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev bufTy : (tb : Table) → Fin (tcTables nBuf tb) → BufTy
  | .hbm, ⟨i, _⟩ => hbmTy i
  | .local _ .vmem, ⟨0, _⟩ => ⟨S9x2000x256, .bf16⟩
  | .local _ .vmem, ⟨1, _⟩ => ⟨S9x2000x256, .bf16⟩
  | .local _ .vmem, ⟨2, _⟩ => ⟨S9x256x32, .bf16⟩
  | .local _ .vmem, ⟨3, _⟩ => ⟨S2000x32, .f32⟩
  | .local _ .vmem, ⟨4, _⟩ => ⟨S2000x32, .f32⟩
  | .local _ .vmem, ⟨5, _⟩ => ⟨S9x5000x32, .bf16⟩
  | .local _ .vmem, ⟨6, _⟩ => ⟨S9x5000x32, .bf16⟩
  | .local _ .vmem, ⟨7, _⟩ => ⟨S9x32x32, .bf16⟩
  | .local _ .vmem, ⟨8, _⟩ => ⟨S5000x32, .f32⟩
  | .local _ .vmem, ⟨9, _⟩ => ⟨S5000x32, .f32⟩
  | .local _ .vmem, ⟨10, _⟩ => ⟨S9x2000x256, .bf16⟩
  | .local _ .vmem, ⟨11, _⟩ => ⟨S9x2000x256, .bf16⟩
  | .local _ .vmem, ⟨12, _⟩ => ⟨S9x256x32, .bf16⟩
  | .local _ .vmem, ⟨13, _⟩ => ⟨S2000x32, .f32⟩
  | .local _ .vmem, ⟨14, _⟩ => ⟨S2000x32, .f32⟩
  | .local _ .vmem, ⟨15, _⟩ => ⟨S9x5000x32, .bf16⟩
  | .local _ .vmem, ⟨16, _⟩ => ⟨S9x5000x32, .bf16⟩
  | .local _ .vmem, ⟨17, _⟩ => ⟨S9x32x32, .bf16⟩
  | .local _ .vmem, ⟨18, _⟩ => ⟨S5000x32, .f32⟩
  | .local _ .vmem, ⟨19, _⟩ => ⟨S5000x32, .f32⟩
  | .local _ .vmem, ⟨20, _⟩ => ⟨S9x5000x32, .bf16⟩
  | .local _ .vmem, ⟨21, _⟩ => ⟨S9x5000x32, .bf16⟩
  | .local _ .vmem, ⟨22, _⟩ => ⟨S9x32x64, .bf16⟩
  | .local _ .vmem, ⟨23, _⟩ => ⟨S5000x64, .f32⟩
  | .local _ .vmem, ⟨24, _⟩ => ⟨S5000x64, .f32⟩
  | .local _ .vmem, ⟨25, _⟩ => ⟨S9x5000x64, .bf16⟩
  | .local _ .vmem, ⟨26, _⟩ => ⟨S9x5000x64, .bf16⟩
  | .local _ .vmem, ⟨27, _⟩ => ⟨S9x64x64, .bf16⟩
  | .local _ .vmem, ⟨28, _⟩ => ⟨S5000x64, .f32⟩
  | .local _ .vmem, ⟨29, _⟩ => ⟨S5000x64, .f32⟩
  | .local _ .vmem, ⟨30, _⟩ => ⟨S9x5000x32, .bf16⟩
  | .local _ .vmem, ⟨31, _⟩ => ⟨S9x5000x32, .bf16⟩
  | .local _ .vmem, ⟨32, _⟩ => ⟨S9x32x64, .bf16⟩
  | .local _ .vmem, ⟨33, _⟩ => ⟨S5000x64, .f32⟩
  | .local _ .vmem, ⟨34, _⟩ => ⟨S5000x64, .f32⟩
  | .local _ .vmem, ⟨35, _⟩ => ⟨S9x5000x64, .bf16⟩
  | .local _ .vmem, ⟨36, _⟩ => ⟨S9x5000x64, .bf16⟩
  | .local _ .vmem, ⟨37, _⟩ => ⟨S9x64x64, .bf16⟩
  | .local _ .vmem, ⟨38, _⟩ => ⟨S5000x64, .f32⟩
  | .local _ .vmem, ⟨39, _⟩ => ⟨S5000x64, .f32⟩
  | .local _ .vmem, ⟨40, _⟩ => ⟨S27x1800x64, .bf16⟩
  | .local _ .vmem, ⟨41, _⟩ => ⟨S27x1800x64, .bf16⟩
  | .local _ .vmem, ⟨42, _⟩ => ⟨S27x64x64, .bf16⟩
  | .local _ .vmem, ⟨43, _⟩ => ⟨S1800x64, .f32⟩
  | .local _ .vmem, ⟨44, _⟩ => ⟨S1800x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_cst_3 : Ref sig .tc := ⟨.hbm, 51, rfl⟩
abbrev main_call0_v12 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_4 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_5 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_c_6 : Ref sig .tc := ⟨.hbm, 72, rfl⟩
abbrev main_v30 : Ref sig .tc := ⟨.hbm, 73, rfl⟩
abbrev main_v31 : Ref sig .tc := ⟨.hbm, 74, rfl⟩
abbrev main_c_7 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_8 : Ref sig .tc := ⟨.hbm, 83, rfl⟩
abbrev main_v39 : Ref sig .tc := ⟨.hbm, 84, rfl⟩
abbrev main_cst_9 : Ref sig .tc := ⟨.hbm, 85, rfl⟩
abbrev main_v40 : Ref sig .tc := ⟨.hbm, 86, rfl⟩
abbrev main_v41 : Ref sig .tc := ⟨.hbm, 87, rfl⟩
abbrev main_c_10 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_cst_1 : Ref sig .tc := ⟨.hbm, 99, rfl⟩
abbrev main_call1_v8 : Ref sig .tc := ⟨.hbm, 100, rfl⟩
abbrev main_call1_cst_2 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_cst_3 : Ref sig .tc := ⟨.hbm, 105, rfl⟩
abbrev main_call1_v12 : Ref sig .tc := ⟨.hbm, 106, rfl⟩
abbrev main_call1_cst_4 : Ref sig .tc := ⟨.hbm, 107, rfl⟩
abbrev main_call1_call0_v0 : Ref sig .tc := ⟨.hbm, 108, rfl⟩
abbrev main_call1_call0_v1 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_cst_11 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_cst_12 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_c_13 : Ref sig .tc := ⟨.hbm, 125, rfl⟩
abbrev main_v55 : Ref sig .tc := ⟨.hbm, 126, rfl⟩
abbrev main_v56 : Ref sig .tc := ⟨.hbm, 127, rfl⟩
abbrev main_c_14 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_15 : Ref sig .tc := ⟨.hbm, 136, rfl⟩
abbrev main_v64 : Ref sig .tc := ⟨.hbm, 137, rfl⟩
abbrev main_cst_16 : Ref sig .tc := ⟨.hbm, 138, rfl⟩
abbrev main_v65 : Ref sig .tc := ⟨.hbm, 139, rfl⟩
abbrev main_v66 : Ref sig .tc := ⟨.hbm, 140, rfl⟩
abbrev main_c_17 : Ref sig .tc := ⟨.hbm, 141, rfl⟩
abbrev main_call2_cst : Ref sig .tc := ⟨.hbm, 142, rfl⟩
abbrev main_call2_v0 : Ref sig .tc := ⟨.hbm, 143, rfl⟩
abbrev main_call2_v1 : Ref sig .tc := ⟨.hbm, 144, rfl⟩
abbrev main_call2_cst_0 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_v7 : Ref sig .tc := ⟨.hbm, 151, rfl⟩
abbrev main_call2_cst_1 : Ref sig .tc := ⟨.hbm, 152, rfl⟩
abbrev main_call2_v8 : Ref sig .tc := ⟨.hbm, 153, rfl⟩
abbrev main_call2_cst_2 : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_cst_3 : Ref sig .tc := ⟨.hbm, 158, rfl⟩
abbrev main_call2_v12 : Ref sig .tc := ⟨.hbm, 159, rfl⟩
abbrev main_call2_cst_4 : Ref sig .tc := ⟨.hbm, 160, rfl⟩
abbrev main_call2_call0_v0 : Ref sig .tc := ⟨.hbm, 161, rfl⟩
abbrev main_call2_call0_v1 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_cst_18 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_cst_19 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_c_20 : Ref sig .tc := ⟨.hbm, 179, rfl⟩
abbrev main_v81 : Ref sig .tc := ⟨.hbm, 180, rfl⟩
abbrev main_v82 : Ref sig .tc := ⟨.hbm, 181, rfl⟩
abbrev main_c_21 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_cst_22 : Ref sig .tc := ⟨.hbm, 190, rfl⟩
abbrev main_v90 : Ref sig .tc := ⟨.hbm, 191, rfl⟩
abbrev main_cst_23 : Ref sig .tc := ⟨.hbm, 192, rfl⟩
abbrev main_v91 : Ref sig .tc := ⟨.hbm, 193, rfl⟩
abbrev main_v92 : Ref sig .tc := ⟨.hbm, 194, rfl⟩
abbrev main_c_24 : Ref sig .tc := ⟨.hbm, 195, rfl⟩
abbrev main_call3_cst : Ref sig .tc := ⟨.hbm, 196, rfl⟩
abbrev main_call3_v0 : Ref sig .tc := ⟨.hbm, 197, rfl⟩
abbrev main_call3_v1 : Ref sig .tc := ⟨.hbm, 198, rfl⟩
abbrev main_call3_cst_0 : Ref sig .tc := ⟨.hbm, 199, rfl⟩
abbrev main_call3_v2 : Ref sig .tc := ⟨.hbm, 200, rfl⟩
abbrev main_call3_v3 : Ref sig .tc := ⟨.hbm, 201, rfl⟩
abbrev main_call3_v4 : Ref sig .tc := ⟨.hbm, 202, rfl⟩
abbrev main_call3_v5 : Ref sig .tc := ⟨.hbm, 203, rfl⟩
abbrev main_call3_v6 : Ref sig .tc := ⟨.hbm, 204, rfl⟩
abbrev main_call3_v7 : Ref sig .tc := ⟨.hbm, 205, rfl⟩
abbrev main_call3_cst_1 : Ref sig .tc := ⟨.hbm, 206, rfl⟩
abbrev main_call3_v8 : Ref sig .tc := ⟨.hbm, 207, rfl⟩
abbrev main_call3_cst_2 : Ref sig .tc := ⟨.hbm, 208, rfl⟩
abbrev main_call3_v9 : Ref sig .tc := ⟨.hbm, 209, rfl⟩
abbrev main_call3_v10 : Ref sig .tc := ⟨.hbm, 210, rfl⟩
abbrev main_call3_v11 : Ref sig .tc := ⟨.hbm, 211, rfl⟩
abbrev main_call3_cst_3 : Ref sig .tc := ⟨.hbm, 212, rfl⟩
abbrev main_call3_v12 : Ref sig .tc := ⟨.hbm, 213, rfl⟩
abbrev main_call3_cst_4 : Ref sig .tc := ⟨.hbm, 214, rfl⟩
abbrev main_call3_call0_v0 : Ref sig .tc := ⟨.hbm, 215, rfl⟩
abbrev main_call3_call0_v1 : Ref sig .tc := ⟨.hbm, 216, rfl⟩
abbrev main_v93 : Ref sig .tc := ⟨.hbm, 217, rfl⟩
abbrev main_v94 : Ref sig .tc := ⟨.hbm, 218, rfl⟩
abbrev main_v95 : Ref sig .tc := ⟨.hbm, 219, rfl⟩
abbrev main_v96 : Ref sig .tc := ⟨.hbm, 220, rfl⟩
abbrev main_cst_25 : Ref sig .tc := ⟨.hbm, 221, rfl⟩
abbrev main_v97 : Ref sig .tc := ⟨.hbm, 222, rfl⟩
abbrev main_v98 : Ref sig .tc := ⟨.hbm, 223, rfl⟩
abbrev main_v99 : Ref sig .tc := ⟨.hbm, 224, rfl⟩
abbrev main_v100 : Ref sig .tc := ⟨.hbm, 225, rfl⟩
abbrev main_v101 : Ref sig .tc := ⟨.hbm, 226, rfl⟩
abbrev main_v102 : Ref sig .tc := ⟨.hbm, 227, rfl⟩
abbrev main_v103 : Ref sig .tc := ⟨.hbm, 228, rfl⟩
abbrev main_v104 : Ref sig .tc := ⟨.hbm, 229, rfl⟩
abbrev main_cst_26 : Ref sig .tc := ⟨.hbm, 230, rfl⟩
abbrev main_v105 : Ref sig .tc := ⟨.hbm, 231, rfl⟩
abbrev main_v106 : Ref sig .tc := ⟨.hbm, 232, rfl⟩
abbrev main_v107 : Ref sig .tc := ⟨.hbm, 233, rfl⟩
abbrev main_c_27 : Ref sig .tc := ⟨.hbm, 234, rfl⟩
abbrev main_v108 : Ref sig .tc := ⟨.hbm, 235, rfl⟩
abbrev main_v109 : Ref sig .tc := ⟨.hbm, 236, rfl⟩
abbrev main_c_28 : Ref sig .tc := ⟨.hbm, 237, rfl⟩
abbrev main_v110 : Ref sig .tc := ⟨.hbm, 238, rfl⟩
abbrev main_v111 : Ref sig .tc := ⟨.hbm, 239, rfl⟩
abbrev main_v112 : Ref sig .tc := ⟨.hbm, 240, rfl⟩
abbrev main_v113 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_cst_29 : Ref sig .tc := ⟨.hbm, 245, rfl⟩
abbrev main_v117 : Ref sig .tc := ⟨.hbm, 246, rfl⟩
abbrev main_cst_30 : Ref sig .tc := ⟨.hbm, 247, rfl⟩
abbrev main_v118 : Ref sig .tc := ⟨.hbm, 248, rfl⟩
abbrev main_v119 : Ref sig .tc := ⟨.hbm, 249, rfl⟩
abbrev main_c_31 : Ref sig .tc := ⟨.hbm, 250, rfl⟩
abbrev main_call4_cst : Ref sig .tc := ⟨.hbm, 251, rfl⟩
abbrev main_call4_v0 : Ref sig .tc := ⟨.hbm, 252, rfl⟩
abbrev main_call4_v1 : Ref sig .tc := ⟨.hbm, 253, rfl⟩
abbrev main_call4_cst_0 : Ref sig .tc := ⟨.hbm, 254, rfl⟩
abbrev main_call4_v2 : Ref sig .tc := ⟨.hbm, 255, rfl⟩
abbrev main_call4_v3 : Ref sig .tc := ⟨.hbm, 256, rfl⟩
abbrev main_call4_v4 : Ref sig .tc := ⟨.hbm, 257, rfl⟩
abbrev main_call4_v5 : Ref sig .tc := ⟨.hbm, 258, rfl⟩
abbrev main_call4_v6 : Ref sig .tc := ⟨.hbm, 259, rfl⟩
abbrev main_call4_v7 : Ref sig .tc := ⟨.hbm, 260, rfl⟩
abbrev main_call4_cst_1 : Ref sig .tc := ⟨.hbm, 261, rfl⟩
abbrev main_call4_v8 : Ref sig .tc := ⟨.hbm, 262, rfl⟩
abbrev main_call4_cst_2 : Ref sig .tc := ⟨.hbm, 263, rfl⟩
abbrev main_call4_v9 : Ref sig .tc := ⟨.hbm, 264, rfl⟩
abbrev main_call4_v10 : Ref sig .tc := ⟨.hbm, 265, rfl⟩
abbrev main_call4_v11 : Ref sig .tc := ⟨.hbm, 266, rfl⟩
abbrev main_call4_cst_3 : Ref sig .tc := ⟨.hbm, 267, rfl⟩
abbrev main_call4_v12 : Ref sig .tc := ⟨.hbm, 268, rfl⟩
abbrev main_call4_cst_4 : Ref sig .tc := ⟨.hbm, 269, rfl⟩
abbrev main_call4_call0_v0 : Ref sig .tc := ⟨.hbm, 270, rfl⟩
abbrev main_call4_call0_v1 : Ref sig .tc := ⟨.hbm, 271, rfl⟩
abbrev main_v120 : Ref sig .tc := ⟨.hbm, 272, rfl⟩
abbrev main_v121 : Ref sig .tc := ⟨.hbm, 273, rfl⟩
abbrev main_v122 : Ref sig .tc := ⟨.hbm, 274, rfl⟩
abbrev main_v123 : Ref sig .tc := ⟨.hbm, 275, rfl⟩
abbrev main_cst_32 : Ref sig .tc := ⟨.hbm, 276, rfl⟩
abbrev main_v124 : Ref sig .tc := ⟨.hbm, 277, rfl⟩
abbrev main_v125 : Ref sig .tc := ⟨.hbm, 278, rfl⟩
abbrev main_v126 : Ref sig .tc := ⟨.hbm, 279, rfl⟩
abbrev main_v127 : Ref sig .tc := ⟨.hbm, 280, rfl⟩
abbrev main_v128 : Ref sig .tc := ⟨.hbm, 281, rfl⟩
abbrev main_v129 : Ref sig .tc := ⟨.hbm, 282, rfl⟩
abbrev main_v130 : Ref sig .tc := ⟨.hbm, 283, rfl⟩
abbrev main_cst_33 : Ref sig .tc := ⟨.hbm, 284, rfl⟩
abbrev main_v131 : Ref sig .tc := ⟨.hbm, 285, rfl⟩
abbrev main_v132 : Ref sig .tc := ⟨.hbm, 286, rfl⟩
abbrev main_v133 : Ref sig .tc := ⟨.hbm, 287, rfl⟩
abbrev main_c_34 : Ref sig .tc := ⟨.hbm, 288, rfl⟩
abbrev main_v134 : Ref sig .tc := ⟨.hbm, 289, rfl⟩
abbrev main_v135 : Ref sig .tc := ⟨.hbm, 290, rfl⟩
abbrev main_c_35 : Ref sig .tc := ⟨.hbm, 291, rfl⟩
abbrev main_v136 : Ref sig .tc := ⟨.hbm, 292, rfl⟩
abbrev main_v137 : Ref sig .tc := ⟨.hbm, 293, rfl⟩
abbrev main_v138 : Ref sig .tc := ⟨.hbm, 294, rfl⟩
abbrev main_v139 : Ref sig .tc := ⟨.hbm, 295, rfl⟩
abbrev main_v140 : Ref sig .tc := ⟨.hbm, 296, rfl⟩
abbrev main_v141 : Ref sig .tc := ⟨.hbm, 297, rfl⟩
abbrev main_v142 : Ref sig .tc := ⟨.hbm, 298, rfl⟩
abbrev main_cst_36 : Ref sig .tc := ⟨.hbm, 299, rfl⟩
abbrev main_v143 : Ref sig .tc := ⟨.hbm, 300, rfl⟩
abbrev main_cst_37 : Ref sig .tc := ⟨.hbm, 301, rfl⟩
abbrev main_v144 : Ref sig .tc := ⟨.hbm, 302, rfl⟩
abbrev main_v145 : Ref sig .tc := ⟨.hbm, 303, rfl⟩
abbrev main_c_38 : Ref sig .tc := ⟨.hbm, 304, rfl⟩
abbrev main_call5_cst : Ref sig .tc := ⟨.hbm, 305, rfl⟩
abbrev main_call5_v0 : Ref sig .tc := ⟨.hbm, 306, rfl⟩
abbrev main_call5_v1 : Ref sig .tc := ⟨.hbm, 307, rfl⟩
abbrev main_call5_cst_0 : Ref sig .tc := ⟨.hbm, 308, rfl⟩
abbrev main_call5_v2 : Ref sig .tc := ⟨.hbm, 309, rfl⟩
abbrev main_call5_v3 : Ref sig .tc := ⟨.hbm, 310, rfl⟩
abbrev main_call5_v4 : Ref sig .tc := ⟨.hbm, 311, rfl⟩
abbrev main_call5_v5 : Ref sig .tc := ⟨.hbm, 312, rfl⟩
abbrev main_call5_v6 : Ref sig .tc := ⟨.hbm, 313, rfl⟩
abbrev main_call5_v7 : Ref sig .tc := ⟨.hbm, 314, rfl⟩
abbrev main_call5_cst_1 : Ref sig .tc := ⟨.hbm, 315, rfl⟩
abbrev main_call5_v8 : Ref sig .tc := ⟨.hbm, 316, rfl⟩
abbrev main_call5_cst_2 : Ref sig .tc := ⟨.hbm, 317, rfl⟩
abbrev main_call5_v9 : Ref sig .tc := ⟨.hbm, 318, rfl⟩
abbrev main_call5_v10 : Ref sig .tc := ⟨.hbm, 319, rfl⟩
abbrev main_call5_v11 : Ref sig .tc := ⟨.hbm, 320, rfl⟩
abbrev main_call5_cst_3 : Ref sig .tc := ⟨.hbm, 321, rfl⟩
abbrev main_call5_v12 : Ref sig .tc := ⟨.hbm, 322, rfl⟩
abbrev main_call5_cst_4 : Ref sig .tc := ⟨.hbm, 323, rfl⟩
abbrev main_call5_call0_v0 : Ref sig .tc := ⟨.hbm, 324, rfl⟩
abbrev main_call5_call0_v1 : Ref sig .tc := ⟨.hbm, 325, rfl⟩
abbrev main_v146 : Ref sig .tc := ⟨.hbm, 326, rfl⟩
abbrev main_v147 : Ref sig .tc := ⟨.hbm, 327, rfl⟩
abbrev main_v148 : Ref sig .tc := ⟨.hbm, 328, rfl⟩
abbrev main_v149 : Ref sig .tc := ⟨.hbm, 329, rfl⟩
abbrev main_cst_39 : Ref sig .tc := ⟨.hbm, 330, rfl⟩
abbrev main_v150 : Ref sig .tc := ⟨.hbm, 331, rfl⟩
abbrev main_v151 : Ref sig .tc := ⟨.hbm, 332, rfl⟩
abbrev main_v152 : Ref sig .tc := ⟨.hbm, 333, rfl⟩
abbrev main_v153 : Ref sig .tc := ⟨.hbm, 334, rfl⟩
abbrev main_v154 : Ref sig .tc := ⟨.hbm, 335, rfl⟩
abbrev main_v155 : Ref sig .tc := ⟨.hbm, 336, rfl⟩
abbrev main_cst_40 : Ref sig .tc := ⟨.hbm, 337, rfl⟩
abbrev main_v156 : Ref sig .tc := ⟨.hbm, 338, rfl⟩
abbrev main_v157 : Ref sig .tc := ⟨.hbm, 339, rfl⟩
abbrev main_v158 : Ref sig .tc := ⟨.hbm, 340, rfl⟩
abbrev main_c_41 : Ref sig .tc := ⟨.hbm, 341, rfl⟩
abbrev main_v159 : Ref sig .tc := ⟨.hbm, 342, rfl⟩
abbrev main_v160 : Ref sig .tc := ⟨.hbm, 343, rfl⟩
abbrev main_c_42 : Ref sig .tc := ⟨.hbm, 344, rfl⟩
abbrev main_v161 : Ref sig .tc := ⟨.hbm, 345, rfl⟩
abbrev main_v162 : Ref sig .tc := ⟨.hbm, 346, rfl⟩
abbrev main_v163 : Ref sig .tc := ⟨.hbm, 347, rfl⟩
abbrev main_v164 : Ref sig .tc := ⟨.hbm, 348, rfl⟩
abbrev main_v165 : Ref sig .tc := ⟨.hbm, 349, rfl⟩
abbrev main_v166 : Ref sig .tc := ⟨.hbm, 350, rfl⟩
abbrev main_v167 : Ref sig .tc := ⟨.hbm, 351, rfl⟩
abbrev main_cst_43 : Ref sig .tc := ⟨.hbm, 352, rfl⟩
abbrev main_v168 : Ref sig .tc := ⟨.hbm, 353, rfl⟩
abbrev main_cst_44 : Ref sig .tc := ⟨.hbm, 354, rfl⟩
abbrev main_v169 : Ref sig .tc := ⟨.hbm, 355, rfl⟩
abbrev main_v170 : Ref sig .tc := ⟨.hbm, 356, rfl⟩
abbrev main_c_45 : Ref sig .tc := ⟨.hbm, 357, rfl⟩
abbrev main_call6_cst : Ref sig .tc := ⟨.hbm, 358, rfl⟩
abbrev main_call6_v0 : Ref sig .tc := ⟨.hbm, 359, rfl⟩
abbrev main_call6_v1 : Ref sig .tc := ⟨.hbm, 360, rfl⟩
abbrev main_call6_cst_0 : Ref sig .tc := ⟨.hbm, 361, rfl⟩
abbrev main_call6_v2 : Ref sig .tc := ⟨.hbm, 362, rfl⟩
abbrev main_call6_v3 : Ref sig .tc := ⟨.hbm, 363, rfl⟩
abbrev main_call6_v4 : Ref sig .tc := ⟨.hbm, 364, rfl⟩
abbrev main_call6_v5 : Ref sig .tc := ⟨.hbm, 365, rfl⟩
abbrev main_call6_v6 : Ref sig .tc := ⟨.hbm, 366, rfl⟩
abbrev main_call6_v7 : Ref sig .tc := ⟨.hbm, 367, rfl⟩
abbrev main_call6_cst_1 : Ref sig .tc := ⟨.hbm, 368, rfl⟩
abbrev main_call6_v8 : Ref sig .tc := ⟨.hbm, 369, rfl⟩
abbrev main_call6_cst_2 : Ref sig .tc := ⟨.hbm, 370, rfl⟩
abbrev main_call6_v9 : Ref sig .tc := ⟨.hbm, 371, rfl⟩
abbrev main_call6_v10 : Ref sig .tc := ⟨.hbm, 372, rfl⟩
abbrev main_call6_v11 : Ref sig .tc := ⟨.hbm, 373, rfl⟩
abbrev main_call6_cst_3 : Ref sig .tc := ⟨.hbm, 374, rfl⟩
abbrev main_call6_v12 : Ref sig .tc := ⟨.hbm, 375, rfl⟩
abbrev main_call6_cst_4 : Ref sig .tc := ⟨.hbm, 376, rfl⟩
abbrev main_call6_call0_v0 : Ref sig .tc := ⟨.hbm, 377, rfl⟩
abbrev main_call6_call0_v1 : Ref sig .tc := ⟨.hbm, 378, rfl⟩
abbrev main_v171 : Ref sig .tc := ⟨.hbm, 379, rfl⟩
abbrev main_v172 : Ref sig .tc := ⟨.hbm, 380, rfl⟩
abbrev main_v173 : Ref sig .tc := ⟨.hbm, 381, rfl⟩
abbrev main_v174 : Ref sig .tc := ⟨.hbm, 382, rfl⟩
abbrev main_cst_46 : Ref sig .tc := ⟨.hbm, 383, rfl⟩
abbrev main_v175 : Ref sig .tc := ⟨.hbm, 384, rfl⟩
abbrev main_v176 : Ref sig .tc := ⟨.hbm, 385, rfl⟩
abbrev main_v177 : Ref sig .tc := ⟨.hbm, 386, rfl⟩
abbrev main_v178 : Ref sig .tc := ⟨.hbm, 387, rfl⟩
abbrev main_v179 : Ref sig .tc := ⟨.hbm, 388, rfl⟩
abbrev main_v180 : Ref sig .tc := ⟨.hbm, 389, rfl⟩
abbrev main_v181 : Ref sig .tc := ⟨.hbm, 390, rfl⟩
abbrev main_cst_47 : Ref sig .tc := ⟨.hbm, 391, rfl⟩
abbrev main_v182 : Ref sig .tc := ⟨.hbm, 392, rfl⟩
abbrev main_v183 : Ref sig .tc := ⟨.hbm, 393, rfl⟩
abbrev main_v184 : Ref sig .tc := ⟨.hbm, 394, rfl⟩
abbrev main_c_48 : Ref sig .tc := ⟨.hbm, 395, rfl⟩
abbrev main_v185 : Ref sig .tc := ⟨.hbm, 396, rfl⟩
abbrev main_v186 : Ref sig .tc := ⟨.hbm, 397, rfl⟩
abbrev main_c_49 : Ref sig .tc := ⟨.hbm, 398, rfl⟩
abbrev main_v187 : Ref sig .tc := ⟨.hbm, 399, rfl⟩
abbrev main_v188 : Ref sig .tc := ⟨.hbm, 400, rfl⟩
abbrev main_v189 : Ref sig .tc := ⟨.hbm, 401, rfl⟩
abbrev main_v190 : Ref sig .tc := ⟨.hbm, 402, rfl⟩
abbrev main_v191 : Ref sig .tc := ⟨.hbm, 403, rfl⟩
abbrev main_v192 : Ref sig .tc := ⟨.hbm, 404, rfl⟩
abbrev main_v193 : Ref sig .tc := ⟨.hbm, 405, rfl⟩
abbrev main_cst_50 : Ref sig .tc := ⟨.hbm, 406, rfl⟩
abbrev main_v194 : Ref sig .tc := ⟨.hbm, 407, rfl⟩
abbrev main_cst_51 : Ref sig .tc := ⟨.hbm, 408, rfl⟩
abbrev main_v195 : Ref sig .tc := ⟨.hbm, 409, rfl⟩
abbrev main_v196 : Ref sig .tc := ⟨.hbm, 410, rfl⟩
abbrev main_c_52 : Ref sig .tc := ⟨.hbm, 411, rfl⟩
abbrev main_call7_cst : Ref sig .tc := ⟨.hbm, 412, rfl⟩
abbrev main_call7_v0 : Ref sig .tc := ⟨.hbm, 413, rfl⟩
abbrev main_call7_v1 : Ref sig .tc := ⟨.hbm, 414, rfl⟩
abbrev main_call7_cst_0 : Ref sig .tc := ⟨.hbm, 415, rfl⟩
abbrev main_call7_v2 : Ref sig .tc := ⟨.hbm, 416, rfl⟩
abbrev main_call7_v3 : Ref sig .tc := ⟨.hbm, 417, rfl⟩
abbrev main_call7_v4 : Ref sig .tc := ⟨.hbm, 418, rfl⟩
abbrev main_call7_v5 : Ref sig .tc := ⟨.hbm, 419, rfl⟩
abbrev main_call7_v6 : Ref sig .tc := ⟨.hbm, 420, rfl⟩
abbrev main_call7_v7 : Ref sig .tc := ⟨.hbm, 421, rfl⟩
abbrev main_call7_cst_1 : Ref sig .tc := ⟨.hbm, 422, rfl⟩
abbrev main_call7_v8 : Ref sig .tc := ⟨.hbm, 423, rfl⟩
abbrev main_call7_cst_2 : Ref sig .tc := ⟨.hbm, 424, rfl⟩
abbrev main_call7_v9 : Ref sig .tc := ⟨.hbm, 425, rfl⟩
abbrev main_call7_v10 : Ref sig .tc := ⟨.hbm, 426, rfl⟩
abbrev main_call7_v11 : Ref sig .tc := ⟨.hbm, 427, rfl⟩
abbrev main_call7_cst_3 : Ref sig .tc := ⟨.hbm, 428, rfl⟩
abbrev main_call7_v12 : Ref sig .tc := ⟨.hbm, 429, rfl⟩
abbrev main_call7_cst_4 : Ref sig .tc := ⟨.hbm, 430, rfl⟩
abbrev main_call7_call0_v0 : Ref sig .tc := ⟨.hbm, 431, rfl⟩
abbrev main_call7_call0_v1 : Ref sig .tc := ⟨.hbm, 432, rfl⟩
abbrev main_v197 : Ref sig .tc := ⟨.hbm, 433, rfl⟩
abbrev main_v198 : Ref sig .tc := ⟨.hbm, 434, rfl⟩
abbrev main_v199 : Ref sig .tc := ⟨.hbm, 435, rfl⟩
abbrev main_v200 : Ref sig .tc := ⟨.hbm, 436, rfl⟩
abbrev main_cst_53 : Ref sig .tc := ⟨.hbm, 437, rfl⟩
abbrev main_v201 : Ref sig .tc := ⟨.hbm, 438, rfl⟩
abbrev main_v202 : Ref sig .tc := ⟨.hbm, 439, rfl⟩
abbrev main_v203 : Ref sig .tc := ⟨.hbm, 440, rfl⟩
abbrev main_v204 : Ref sig .tc := ⟨.hbm, 441, rfl⟩
abbrev main_v205 : Ref sig .tc := ⟨.hbm, 442, rfl⟩
abbrev main_v206 : Ref sig .tc := ⟨.hbm, 443, rfl⟩
abbrev main_v207 : Ref sig .tc := ⟨.hbm, 444, rfl⟩
abbrev main_v208 : Ref sig .tc := ⟨.hbm, 445, rfl⟩
abbrev main_cst_54 : Ref sig .tc := ⟨.hbm, 446, rfl⟩
abbrev main_v209 : Ref sig .tc := ⟨.hbm, 447, rfl⟩
abbrev main_v210 : Ref sig .tc := ⟨.hbm, 448, rfl⟩
abbrev main_v211 : Ref sig .tc := ⟨.hbm, 449, rfl⟩
abbrev main_c_55 : Ref sig .tc := ⟨.hbm, 450, rfl⟩
abbrev main_v212 : Ref sig .tc := ⟨.hbm, 451, rfl⟩
abbrev main_v213 : Ref sig .tc := ⟨.hbm, 452, rfl⟩
abbrev main_c_56 : Ref sig .tc := ⟨.hbm, 453, rfl⟩
abbrev main_v214 : Ref sig .tc := ⟨.hbm, 454, rfl⟩
abbrev main_v215 : Ref sig .tc := ⟨.hbm, 455, rfl⟩
abbrev main_v216 : Ref sig .tc := ⟨.hbm, 456, rfl⟩
abbrev main_v217 : Ref sig .tc := ⟨.hbm, 457, rfl⟩
abbrev main_v218 : Ref sig .tc := ⟨.hbm, 458, rfl⟩
abbrev main_v219 : Ref sig .tc := ⟨.hbm, 459, rfl⟩
abbrev main_c_57 : Ref sig .tc := ⟨.hbm, 460, rfl⟩
abbrev main_call8_v0 : Ref sig .tc := ⟨.hbm, 461, rfl⟩
abbrev main_v220 : Ref sig .tc := ⟨.hbm, 462, rfl⟩
abbrev main_v221 : Ref sig .tc := ⟨.hbm, 463, rfl⟩
abbrev main_v222 : Ref sig .tc := ⟨.hbm, 464, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S9x2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S9x5000x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x32x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S9x2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x256x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S9x5000x32 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x32x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S9x5000x32 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S9x32x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S9x5000x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S9x64x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S9x5000x32 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S9x32x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S9x5000x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S9x64x64 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![69], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S27x1800x64 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S27x64x64 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1800x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  bitsLt_bf16_f32 : FTy.bits .bf16 < FTy.bits .f32
  bcast_S_S1x256 : S_.BroadcastsInDim S1x256 (![] : Fin 0 → Fin S1x256.rank)
  concatenates_S50000x256_S1x256_S50001x256_d0 : Shape.Concatenates [S50000x256, S1x256] S50001x256 0
  transposes_S50000x9_S9x50000_1_0 : S50000x9.Transposes [1, 0] S9x50000
  bcast_S_S9x50000 : S_.BroadcastsInDim S9x50000 (![] : Fin 0 → Fin S9x50000.rank)
  bcast_S9x50000_S9x50000x1_0_1 : S9x50000.BroadcastsInDim S9x50000x1 (![0, 1] : Fin 2 → Fin S9x50000x1.rank)
  inb_S9x2000x256_S1x2000x256_0_0_0 : ∀ a, (![0, 0, 0] : Fin 3 → Nat) a + S1x2000x256.size a ≤ S9x2000x256.size a
  h_S1x2000x256 : 0 < S1x2000x256.numel
  shapeCasts_S1x2000x256_S2000x256 : S1x2000x256.ShapeCasts S2000x256
  inb_S9x256x32_S1x256x32_0_0_0 : ∀ a, (![0, 0, 0] : Fin 3 → Nat) a + S1x256x32.size a ≤ S9x256x32.size a
  h_S1x256x32 : 0 < S1x256x32.numel
  shapeCasts_S1x256x32_S256x32 : S1x256x32.ShapeCasts S256x32
  inb_S9x2000x256_S1x2000x256_1_0_0 : ∀ a, (![1, 0, 0] : Fin 3 → Nat) a + S1x2000x256.size a ≤ S9x2000x256.size a
  inb_S9x256x32_S1x256x32_1_0_0 : ∀ a, (![1, 0, 0] : Fin 3 → Nat) a + S1x256x32.size a ≤ S9x256x32.size a
  inb_S9x2000x256_S1x2000x256_2_0_0 : ∀ a, (![2, 0, 0] : Fin 3 → Nat) a + S1x2000x256.size a ≤ S9x2000x256.size a
  inb_S9x256x32_S1x256x32_2_0_0 : ∀ a, (![2, 0, 0] : Fin 3 → Nat) a + S1x256x32.size a ≤ S9x256x32.size a
  inb_S9x2000x256_S1x2000x256_3_0_0 : ∀ a, (![3, 0, 0] : Fin 3 → Nat) a + S1x2000x256.size a ≤ S9x2000x256.size a
  inb_S9x256x32_S1x256x32_3_0_0 : ∀ a, (![3, 0, 0] : Fin 3 → Nat) a + S1x256x32.size a ≤ S9x256x32.size a
  inb_S9x2000x256_S1x2000x256_4_0_0 : ∀ a, (![4, 0, 0] : Fin 3 → Nat) a + S1x2000x256.size a ≤ S9x2000x256.size a
  inb_S9x256x32_S1x256x32_4_0_0 : ∀ a, (![4, 0, 0] : Fin 3 → Nat) a + S1x256x32.size a ≤ S9x256x32.size a
  inb_S9x2000x256_S1x2000x256_5_0_0 : ∀ a, (![5, 0, 0] : Fin 3 → Nat) a + S1x2000x256.size a ≤ S9x2000x256.size a
  inb_S9x256x32_S1x256x32_5_0_0 : ∀ a, (![5, 0, 0] : Fin 3 → Nat) a + S1x256x32.size a ≤ S9x256x32.size a
  inb_S9x2000x256_S1x2000x256_6_0_0 : ∀ a, (![6, 0, 0] : Fin 3 → Nat) a + S1x2000x256.size a ≤ S9x2000x256.size a
  inb_S9x256x32_S1x256x32_6_0_0 : ∀ a, (![6, 0, 0] : Fin 3 → Nat) a + S1x256x32.size a ≤ S9x256x32.size a
  inb_S9x2000x256_S1x2000x256_7_0_0 : ∀ a, (![7, 0, 0] : Fin 3 → Nat) a + S1x2000x256.size a ≤ S9x2000x256.size a
  inb_S9x256x32_S1x256x32_7_0_0 : ∀ a, (![7, 0, 0] : Fin 3 → Nat) a + S1x256x32.size a ≤ S9x256x32.size a
  inb_S9x2000x256_S1x2000x256_8_0_0 : ∀ a, (![8, 0, 0] : Fin 3 → Nat) a + S1x2000x256.size a ≤ S9x2000x256.size a
  inb_S9x256x32_S1x256x32_8_0_0 : ∀ a, (![8, 0, 0] : Fin 3 → Nat) a + S1x256x32.size a ≤ S9x256x32.size a
  inb_S2000x32_S2000x32_0_0 : ∀ a, (![0, 0] : Fin 2 → Nat) a + S2000x32.size a ≤ S2000x32.size a
  h_S2000x32 : 0 < S2000x32.numel
  reducesTo_S50000x32_S32_d0 : S50000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S50000x32_0_1 : S1x32.BroadcastsInDim S50000x32 (![0, 1] : Fin 2 → Fin S50000x32.rank)
  concatenates_S50000x32_S1x32_S50001x32_d0 : Shape.Concatenates [S50000x32, S1x32] S50001x32 0
  inb_S9x5000x32_S1x5000x32_0_0_0 : ∀ a, (![0, 0, 0] : Fin 3 → Nat) a + S1x5000x32.size a ≤ S9x5000x32.size a
  h_S1x5000x32 : 0 < S1x5000x32.numel
  shapeCasts_S1x5000x32_S5000x32 : S1x5000x32.ShapeCasts S5000x32
  inb_S9x32x32_S1x32x32_0_0_0 : ∀ a, (![0, 0, 0] : Fin 3 → Nat) a + S1x32x32.size a ≤ S9x32x32.size a
  h_S1x32x32 : 0 < S1x32x32.numel
  shapeCasts_S1x32x32_S32x32 : S1x32x32.ShapeCasts S32x32
  inb_S9x5000x32_S1x5000x32_1_0_0 : ∀ a, (![1, 0, 0] : Fin 3 → Nat) a + S1x5000x32.size a ≤ S9x5000x32.size a
  inb_S9x32x32_S1x32x32_1_0_0 : ∀ a, (![1, 0, 0] : Fin 3 → Nat) a + S1x32x32.size a ≤ S9x32x32.size a
  inb_S9x5000x32_S1x5000x32_2_0_0 : ∀ a, (![2, 0, 0] : Fin 3 → Nat) a + S1x5000x32.size a ≤ S9x5000x32.size a
  inb_S9x32x32_S1x32x32_2_0_0 : ∀ a, (![2, 0, 0] : Fin 3 → Nat) a + S1x32x32.size a ≤ S9x32x32.size a
  inb_S9x5000x32_S1x5000x32_3_0_0 : ∀ a, (![3, 0, 0] : Fin 3 → Nat) a + S1x5000x32.size a ≤ S9x5000x32.size a
  inb_S9x32x32_S1x32x32_3_0_0 : ∀ a, (![3, 0, 0] : Fin 3 → Nat) a + S1x32x32.size a ≤ S9x32x32.size a
  inb_S9x5000x32_S1x5000x32_4_0_0 : ∀ a, (![4, 0, 0] : Fin 3 → Nat) a + S1x5000x32.size a ≤ S9x5000x32.size a
  inb_S9x32x32_S1x32x32_4_0_0 : ∀ a, (![4, 0, 0] : Fin 3 → Nat) a + S1x32x32.size a ≤ S9x32x32.size a
  inb_S9x5000x32_S1x5000x32_5_0_0 : ∀ a, (![5, 0, 0] : Fin 3 → Nat) a + S1x5000x32.size a ≤ S9x5000x32.size a
  inb_S9x32x32_S1x32x32_5_0_0 : ∀ a, (![5, 0, 0] : Fin 3 → Nat) a + S1x32x32.size a ≤ S9x32x32.size a
  inb_S9x5000x32_S1x5000x32_6_0_0 : ∀ a, (![6, 0, 0] : Fin 3 → Nat) a + S1x5000x32.size a ≤ S9x5000x32.size a
  inb_S9x32x32_S1x32x32_6_0_0 : ∀ a, (![6, 0, 0] : Fin 3 → Nat) a + S1x32x32.size a ≤ S9x32x32.size a
  inb_S9x5000x32_S1x5000x32_7_0_0 : ∀ a, (![7, 0, 0] : Fin 3 → Nat) a + S1x5000x32.size a ≤ S9x5000x32.size a
  inb_S9x32x32_S1x32x32_7_0_0 : ∀ a, (![7, 0, 0] : Fin 3 → Nat) a + S1x32x32.size a ≤ S9x32x32.size a
  inb_S9x5000x32_S1x5000x32_8_0_0 : ∀ a, (![8, 0, 0] : Fin 3 → Nat) a + S1x5000x32.size a ≤ S9x5000x32.size a
  inb_S9x32x32_S1x32x32_8_0_0 : ∀ a, (![8, 0, 0] : Fin 3 → Nat) a + S1x32x32.size a ≤ S9x32x32.size a
  inb_S5000x32_S5000x32_0_0 : ∀ a, (![0, 0] : Fin 2 → Nat) a + S5000x32.size a ≤ S5000x32.size a
  h_S5000x32 : 0 < S5000x32.numel
  inb_S9x32x64_S1x32x64_0_0_0 : ∀ a, (![0, 0, 0] : Fin 3 → Nat) a + S1x32x64.size a ≤ S9x32x64.size a
  h_S1x32x64 : 0 < S1x32x64.numel
  shapeCasts_S1x32x64_S32x64 : S1x32x64.ShapeCasts S32x64
  inb_S9x32x64_S1x32x64_1_0_0 : ∀ a, (![1, 0, 0] : Fin 3 → Nat) a + S1x32x64.size a ≤ S9x32x64.size a
  inb_S9x32x64_S1x32x64_2_0_0 : ∀ a, (![2, 0, 0] : Fin 3 → Nat) a + S1x32x64.size a ≤ S9x32x64.size a
  inb_S9x32x64_S1x32x64_3_0_0 : ∀ a, (![3, 0, 0] : Fin 3 → Nat) a + S1x32x64.size a ≤ S9x32x64.size a
  inb_S9x32x64_S1x32x64_4_0_0 : ∀ a, (![4, 0, 0] : Fin 3 → Nat) a + S1x32x64.size a ≤ S9x32x64.size a
  inb_S9x32x64_S1x32x64_5_0_0 : ∀ a, (![5, 0, 0] : Fin 3 → Nat) a + S1x32x64.size a ≤ S9x32x64.size a
  inb_S9x32x64_S1x32x64_6_0_0 : ∀ a, (![6, 0, 0] : Fin 3 → Nat) a + S1x32x64.size a ≤ S9x32x64.size a
  inb_S9x32x64_S1x32x64_7_0_0 : ∀ a, (![7, 0, 0] : Fin 3 → Nat) a + S1x32x64.size a ≤ S9x32x64.size a
  inb_S9x32x64_S1x32x64_8_0_0 : ∀ a, (![8, 0, 0] : Fin 3 → Nat) a + S1x32x64.size a ≤ S9x32x64.size a
  inb_S5000x64_S5000x64_0_0 : ∀ a, (![0, 0] : Fin 2 → Nat) a + S5000x64.size a ≤ S5000x64.size a
  h_S5000x64 : 0 < S5000x64.numel
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  concatenates_S50000x64_S1x64_S50001x64_d0 : Shape.Concatenates [S50000x64, S1x64] S50001x64 0
  inb_S9x5000x64_S1x5000x64_0_0_0 : ∀ a, (![0, 0, 0] : Fin 3 → Nat) a + S1x5000x64.size a ≤ S9x5000x64.size a
  h_S1x5000x64 : 0 < S1x5000x64.numel
  shapeCasts_S1x5000x64_S5000x64 : S1x5000x64.ShapeCasts S5000x64
  inb_S9x64x64_S1x64x64_0_0_0 : ∀ a, (![0, 0, 0] : Fin 3 → Nat) a + S1x64x64.size a ≤ S9x64x64.size a
  h_S1x64x64 : 0 < S1x64x64.numel
  shapeCasts_S1x64x64_S64x64 : S1x64x64.ShapeCasts S64x64
  inb_S9x5000x64_S1x5000x64_1_0_0 : ∀ a, (![1, 0, 0] : Fin 3 → Nat) a + S1x5000x64.size a ≤ S9x5000x64.size a
  inb_S9x64x64_S1x64x64_1_0_0 : ∀ a, (![1, 0, 0] : Fin 3 → Nat) a + S1x64x64.size a ≤ S9x64x64.size a
  inb_S9x5000x64_S1x5000x64_2_0_0 : ∀ a, (![2, 0, 0] : Fin 3 → Nat) a + S1x5000x64.size a ≤ S9x5000x64.size a
  inb_S9x64x64_S1x64x64_2_0_0 : ∀ a, (![2, 0, 0] : Fin 3 → Nat) a + S1x64x64.size a ≤ S9x64x64.size a
  inb_S9x5000x64_S1x5000x64_3_0_0 : ∀ a, (![3, 0, 0] : Fin 3 → Nat) a + S1x5000x64.size a ≤ S9x5000x64.size a
  inb_S9x64x64_S1x64x64_3_0_0 : ∀ a, (![3, 0, 0] : Fin 3 → Nat) a + S1x64x64.size a ≤ S9x64x64.size a
  inb_S9x5000x64_S1x5000x64_4_0_0 : ∀ a, (![4, 0, 0] : Fin 3 → Nat) a + S1x5000x64.size a ≤ S9x5000x64.size a
  inb_S9x64x64_S1x64x64_4_0_0 : ∀ a, (![4, 0, 0] : Fin 3 → Nat) a + S1x64x64.size a ≤ S9x64x64.size a
  inb_S9x5000x64_S1x5000x64_5_0_0 : ∀ a, (![5, 0, 0] : Fin 3 → Nat) a + S1x5000x64.size a ≤ S9x5000x64.size a
  inb_S9x64x64_S1x64x64_5_0_0 : ∀ a, (![5, 0, 0] : Fin 3 → Nat) a + S1x64x64.size a ≤ S9x64x64.size a
  inb_S9x5000x64_S1x5000x64_6_0_0 : ∀ a, (![6, 0, 0] : Fin 3 → Nat) a + S1x5000x64.size a ≤ S9x5000x64.size a
  inb_S9x64x64_S1x64x64_6_0_0 : ∀ a, (![6, 0, 0] : Fin 3 → Nat) a + S1x64x64.size a ≤ S9x64x64.size a
  inb_S9x5000x64_S1x5000x64_7_0_0 : ∀ a, (![7, 0, 0] : Fin 3 → Nat) a + S1x5000x64.size a ≤ S9x5000x64.size a
  inb_S9x64x64_S1x64x64_7_0_0 : ∀ a, (![7, 0, 0] : Fin 3 → Nat) a + S1x64x64.size a ≤ S9x64x64.size a
  inb_S9x5000x64_S1x5000x64_8_0_0 : ∀ a, (![8, 0, 0] : Fin 3 → Nat) a + S1x5000x64.size a ≤ S9x5000x64.size a
  inb_S9x64x64_S1x64x64_8_0_0 : ∀ a, (![8, 0, 0] : Fin 3 → Nat) a + S1x64x64.size a ≤ S9x64x64.size a
  transposes_S122811x27_S27x122811_1_0 : S122811x27.Transposes [1, 0] S27x122811
  bcast_S_S27x122811 : S_.BroadcastsInDim S27x122811 (![] : Fin 0 → Fin S27x122811.rank)
  bcast_S27x122811_S27x122811x1_0_1 : S27x122811.BroadcastsInDim S27x122811x1 (![0, 1] : Fin 2 → Fin S27x122811x1.rank)
  pads_S27x122811x64_S27x124200x64_000_013890_000 : S27x122811x64.Pads (![0, 0, 0] : Fin 3 → Nat) ![0, 1389, 0] ![0, 0, 0] S27x124200x64
  inb_S27x1800x64_S1x1800x64_0_0_0 : ∀ a, (![0, 0, 0] : Fin 3 → Nat) a + S1x1800x64.size a ≤ S27x1800x64.size a
  h_S1x1800x64 : 0 < S1x1800x64.numel
  shapeCasts_S1x1800x64_S1800x64 : S1x1800x64.ShapeCasts S1800x64
  inb_S27x64x64_S1x64x64_0_0_0 : ∀ a, (![0, 0, 0] : Fin 3 → Nat) a + S1x64x64.size a ≤ S27x64x64.size a
  inb_S27x1800x64_S1x1800x64_1_0_0 : ∀ a, (![1, 0, 0] : Fin 3 → Nat) a + S1x1800x64.size a ≤ S27x1800x64.size a
  inb_S27x64x64_S1x64x64_1_0_0 : ∀ a, (![1, 0, 0] : Fin 3 → Nat) a + S1x64x64.size a ≤ S27x64x64.size a
  inb_S27x1800x64_S1x1800x64_2_0_0 : ∀ a, (![2, 0, 0] : Fin 3 → Nat) a + S1x1800x64.size a ≤ S27x1800x64.size a
  inb_S27x64x64_S1x64x64_2_0_0 : ∀ a, (![2, 0, 0] : Fin 3 → Nat) a + S1x64x64.size a ≤ S27x64x64.size a
  inb_S27x1800x64_S1x1800x64_3_0_0 : ∀ a, (![3, 0, 0] : Fin 3 → Nat) a + S1x1800x64.size a ≤ S27x1800x64.size a
  inb_S27x64x64_S1x64x64_3_0_0 : ∀ a, (![3, 0, 0] : Fin 3 → Nat) a + S1x64x64.size a ≤ S27x64x64.size a
  inb_S27x1800x64_S1x1800x64_4_0_0 : ∀ a, (![4, 0, 0] : Fin 3 → Nat) a + S1x1800x64.size a ≤ S27x1800x64.size a
  inb_S27x64x64_S1x64x64_4_0_0 : ∀ a, (![4, 0, 0] : Fin 3 → Nat) a + S1x64x64.size a ≤ S27x64x64.size a
  inb_S27x1800x64_S1x1800x64_5_0_0 : ∀ a, (![5, 0, 0] : Fin 3 → Nat) a + S1x1800x64.size a ≤ S27x1800x64.size a
  inb_S27x64x64_S1x64x64_5_0_0 : ∀ a, (![5, 0, 0] : Fin 3 → Nat) a + S1x64x64.size a ≤ S27x64x64.size a
  inb_S27x1800x64_S1x1800x64_6_0_0 : ∀ a, (![6, 0, 0] : Fin 3 → Nat) a + S1x1800x64.size a ≤ S27x1800x64.size a
  inb_S27x64x64_S1x64x64_6_0_0 : ∀ a, (![6, 0, 0] : Fin 3 → Nat) a + S1x64x64.size a ≤ S27x64x64.size a
  inb_S27x1800x64_S1x1800x64_7_0_0 : ∀ a, (![7, 0, 0] : Fin 3 → Nat) a + S1x1800x64.size a ≤ S27x1800x64.size a
  inb_S27x64x64_S1x64x64_7_0_0 : ∀ a, (![7, 0, 0] : Fin 3 → Nat) a + S1x64x64.size a ≤ S27x64x64.size a
  inb_S27x1800x64_S1x1800x64_8_0_0 : ∀ a, (![8, 0, 0] : Fin 3 → Nat) a + S1x1800x64.size a ≤ S27x1800x64.size a
  inb_S27x64x64_S1x64x64_8_0_0 : ∀ a, (![8, 0, 0] : Fin 3 → Nat) a + S1x64x64.size a ≤ S27x64x64.size a
  inb_S27x1800x64_S1x1800x64_9_0_0 : ∀ a, (![9, 0, 0] : Fin 3 → Nat) a + S1x1800x64.size a ≤ S27x1800x64.size a
  inb_S27x64x64_S1x64x64_9_0_0 : ∀ a, (![9, 0, 0] : Fin 3 → Nat) a + S1x64x64.size a ≤ S27x64x64.size a
  inb_S27x1800x64_S1x1800x64_10_0_0 : ∀ a, (![10, 0, 0] : Fin 3 → Nat) a + S1x1800x64.size a ≤ S27x1800x64.size a
  inb_S27x64x64_S1x64x64_10_0_0 : ∀ a, (![10, 0, 0] : Fin 3 → Nat) a + S1x64x64.size a ≤ S27x64x64.size a
  inb_S27x1800x64_S1x1800x64_11_0_0 : ∀ a, (![11, 0, 0] : Fin 3 → Nat) a + S1x1800x64.size a ≤ S27x1800x64.size a
  inb_S27x64x64_S1x64x64_11_0_0 : ∀ a, (![11, 0, 0] : Fin 3 → Nat) a + S1x64x64.size a ≤ S27x64x64.size a
  inb_S27x1800x64_S1x1800x64_12_0_0 : ∀ a, (![12, 0, 0] : Fin 3 → Nat) a + S1x1800x64.size a ≤ S27x1800x64.size a
  inb_S27x64x64_S1x64x64_12_0_0 : ∀ a, (![12, 0, 0] : Fin 3 → Nat) a + S1x64x64.size a ≤ S27x64x64.size a
  inb_S27x1800x64_S1x1800x64_13_0_0 : ∀ a, (![13, 0, 0] : Fin 3 → Nat) a + S1x1800x64.size a ≤ S27x1800x64.size a
  inb_S27x64x64_S1x64x64_13_0_0 : ∀ a, (![13, 0, 0] : Fin 3 → Nat) a + S1x64x64.size a ≤ S27x64x64.size a
  inb_S27x1800x64_S1x1800x64_14_0_0 : ∀ a, (![14, 0, 0] : Fin 3 → Nat) a + S1x1800x64.size a ≤ S27x1800x64.size a
  inb_S27x64x64_S1x64x64_14_0_0 : ∀ a, (![14, 0, 0] : Fin 3 → Nat) a + S1x64x64.size a ≤ S27x64x64.size a
  inb_S27x1800x64_S1x1800x64_15_0_0 : ∀ a, (![15, 0, 0] : Fin 3 → Nat) a + S1x1800x64.size a ≤ S27x1800x64.size a
  inb_S27x64x64_S1x64x64_15_0_0 : ∀ a, (![15, 0, 0] : Fin 3 → Nat) a + S1x64x64.size a ≤ S27x64x64.size a
  inb_S27x1800x64_S1x1800x64_16_0_0 : ∀ a, (![16, 0, 0] : Fin 3 → Nat) a + S1x1800x64.size a ≤ S27x1800x64.size a
  inb_S27x64x64_S1x64x64_16_0_0 : ∀ a, (![16, 0, 0] : Fin 3 → Nat) a + S1x64x64.size a ≤ S27x64x64.size a
  inb_S27x1800x64_S1x1800x64_17_0_0 : ∀ a, (![17, 0, 0] : Fin 3 → Nat) a + S1x1800x64.size a ≤ S27x1800x64.size a
  inb_S27x64x64_S1x64x64_17_0_0 : ∀ a, (![17, 0, 0] : Fin 3 → Nat) a + S1x64x64.size a ≤ S27x64x64.size a
  inb_S27x1800x64_S1x1800x64_18_0_0 : ∀ a, (![18, 0, 0] : Fin 3 → Nat) a + S1x1800x64.size a ≤ S27x1800x64.size a
  inb_S27x64x64_S1x64x64_18_0_0 : ∀ a, (![18, 0, 0] : Fin 3 → Nat) a + S1x64x64.size a ≤ S27x64x64.size a
  inb_S27x1800x64_S1x1800x64_19_0_0 : ∀ a, (![19, 0, 0] : Fin 3 → Nat) a + S1x1800x64.size a ≤ S27x1800x64.size a
  inb_S27x64x64_S1x64x64_19_0_0 : ∀ a, (![19, 0, 0] : Fin 3 → Nat) a + S1x64x64.size a ≤ S27x64x64.size a
  inb_S27x1800x64_S1x1800x64_20_0_0 : ∀ a, (![20, 0, 0] : Fin 3 → Nat) a + S1x1800x64.size a ≤ S27x1800x64.size a
  inb_S27x64x64_S1x64x64_20_0_0 : ∀ a, (![20, 0, 0] : Fin 3 → Nat) a + S1x64x64.size a ≤ S27x64x64.size a
  inb_S27x1800x64_S1x1800x64_21_0_0 : ∀ a, (![21, 0, 0] : Fin 3 → Nat) a + S1x1800x64.size a ≤ S27x1800x64.size a
  inb_S27x64x64_S1x64x64_21_0_0 : ∀ a, (![21, 0, 0] : Fin 3 → Nat) a + S1x64x64.size a ≤ S27x64x64.size a
  inb_S27x1800x64_S1x1800x64_22_0_0 : ∀ a, (![22, 0, 0] : Fin 3 → Nat) a + S1x1800x64.size a ≤ S27x1800x64.size a
  inb_S27x64x64_S1x64x64_22_0_0 : ∀ a, (![22, 0, 0] : Fin 3 → Nat) a + S1x64x64.size a ≤ S27x64x64.size a
  inb_S27x1800x64_S1x1800x64_23_0_0 : ∀ a, (![23, 0, 0] : Fin 3 → Nat) a + S1x1800x64.size a ≤ S27x1800x64.size a
  inb_S27x64x64_S1x64x64_23_0_0 : ∀ a, (![23, 0, 0] : Fin 3 → Nat) a + S1x64x64.size a ≤ S27x64x64.size a
  inb_S27x1800x64_S1x1800x64_24_0_0 : ∀ a, (![24, 0, 0] : Fin 3 → Nat) a + S1x1800x64.size a ≤ S27x1800x64.size a
  inb_S27x64x64_S1x64x64_24_0_0 : ∀ a, (![24, 0, 0] : Fin 3 → Nat) a + S1x64x64.size a ≤ S27x64x64.size a
  inb_S27x1800x64_S1x1800x64_25_0_0 : ∀ a, (![25, 0, 0] : Fin 3 → Nat) a + S1x1800x64.size a ≤ S27x1800x64.size a
  inb_S27x64x64_S1x64x64_25_0_0 : ∀ a, (![25, 0, 0] : Fin 3 → Nat) a + S1x64x64.size a ≤ S27x64x64.size a
  inb_S27x1800x64_S1x1800x64_26_0_0 : ∀ a, (![26, 0, 0] : Fin 3 → Nat) a + S1x1800x64.size a ≤ S27x1800x64.size a
  inb_S27x64x64_S1x64x64_26_0_0 : ∀ a, (![26, 0, 0] : Fin 3 → Nat) a + S1x64x64.size a ≤ S27x64x64.size a
  inb_S1800x64_S1800x64_0_0 : ∀ a, (![0, 0] : Fin 2 → Nat) a + S1800x64.size a ≤ S1800x64.size a
  h_S1800x64 : 0 < S1800x64.numel
  slices_S124200x64_S122811x64_0_0 : S124200x64.Slices ![0, 0] S122811x64
  gather_S50001x256_S9x50000x1_S9x50000x256_2_0_n_n_0_2_1256_wf : GatherDims.WF S50001x256 S9x50000x1 S9x50000x256 [2] [0] [] [0] [] 2 ![1, 256]
  dot_S2000x256_S256x32_S2000x32_1_0_0_1_n_n_wf : DotDims.WF S2000x256 S256x32 S2000x32 [1] [0] [0] [1] [] []
  gather_S50001x32_S9x50000x1_S9x50000x32_2_0_n_n_0_2_132_wf : GatherDims.WF S50001x32 S9x50000x1 S9x50000x32 [2] [0] [] [0] [] 2 ![1, 32]
  dot_S5000x32_S32x32_S5000x32_1_0_0_1_n_n_wf : DotDims.WF S5000x32 S32x32 S5000x32 [1] [0] [0] [1] [] []
  dot_S5000x32_S32x64_S5000x64_1_0_0_1_n_n_wf : DotDims.WF S5000x32 S32x64 S5000x64 [1] [0] [0] [1] [] []
  gather_S50001x64_S9x50000x1_S9x50000x64_2_0_n_n_0_2_164_wf : GatherDims.WF S50001x64 S9x50000x1 S9x50000x64 [2] [0] [] [0] [] 2 ![1, 64]
  dot_S5000x64_S64x64_S5000x64_1_0_0_1_n_n_wf : DotDims.WF S5000x64 S64x64 S5000x64 [1] [0] [0] [1] [] []
  gather_S50001x64_S27x122811x1_S27x122811x64_2_0_n_n_0_2_164_wf : GatherDims.WF S50001x64 S27x122811x1 S27x122811x64 [2] [0] [] [0] [] 2 ![1, 64]
  dot_S1800x64_S64x64_S1800x64_1_0_0_1_n_n_wf : DotDims.WF S1800x64 S64x64 S1800x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9x2000x256.size a ≤ S9x50000x256.size a
  hwx0_0 : ∀ i : grid0.Coords, EltTy.bits .bf16 = 32 ∨ (Rect.block (s := S9x50000x256) S9x2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x256x32.size a ≤ S9x256x32.size a
  hwx0_1 : ∀ i : grid0.Coords, EltTy.bits .bf16 = 32 ∨ (Rect.block (s := S9x256x32) S9x256x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S50000x32.size a
  hwx0_2 : ∀ i : grid0.Coords, EltTy.bits .f32 = 32 ∨ (Rect.block (s := S50000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9x5000x32.size a ≤ S9x50000x32.size a
  hwx1_0 : ∀ i : grid1.Coords, EltTy.bits .bf16 = 32 ∨ (Rect.block (s := S9x50000x32) S9x5000x32.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9x32x32.size a ≤ S9x32x32.size a
  hwx1_1 : ∀ i : grid1.Coords, EltTy.bits .bf16 = 32 ∨ (Rect.block (s := S9x32x32) S9x32x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S9x2000x256.size a ≤ S9x50000x256.size a
  hwx2_0 : ∀ i : grid2.Coords, EltTy.bits .bf16 = 32 ∨ (Rect.block (s := S9x50000x256) S9x2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S9x256x32.size a ≤ S9x256x32.size a
  hwx2_1 : ∀ i : grid2.Coords, EltTy.bits .bf16 = 32 ∨ (Rect.block (s := S9x256x32) S9x256x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S50000x32.size a
  hwx2_2 : ∀ i : grid2.Coords, EltTy.bits .f32 = 32 ∨ (Rect.block (s := S50000x32) S2000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S9x5000x32.size a ≤ S9x50000x32.size a
  hwx3_0 : ∀ i : grid3.Coords, EltTy.bits .bf16 = 32 ∨ (Rect.block (s := S9x50000x32) S9x5000x32.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S9x32x32.size a ≤ S9x32x32.size a
  hwx3_1 : ∀ i : grid3.Coords, EltTy.bits .bf16 = 32 ∨ (Rect.block (s := S9x32x32) S9x32x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S50000x32.size a
  hwx3_2 : ∀ i : grid3.Coords, EltTy.bits .f32 = 32 ∨ (Rect.block (s := S50000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S9x5000x32.size a ≤ S9x50000x32.size a
  hwx4_0 : ∀ i : grid4.Coords, EltTy.bits .bf16 = 32 ∨ (Rect.block (s := S9x50000x32) S9x5000x32.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S9x32x64.size a ≤ S9x32x64.size a
  hwx4_1 : ∀ i : grid4.Coords, EltTy.bits .bf16 = 32 ∨ (Rect.block (s := S9x32x64) S9x32x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S9x5000x64.size a ≤ S9x50000x64.size a
  hwx5_0 : ∀ i : grid5.Coords, EltTy.bits .bf16 = 32 ∨ (Rect.block (s := S9x50000x64) S9x5000x64.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S9x64x64.size a ≤ S9x64x64.size a
  hwx5_1 : ∀ i : grid5.Coords, EltTy.bits .bf16 = 32 ∨ (Rect.block (s := S9x64x64) S9x64x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S9x5000x32.size a ≤ S9x50000x32.size a
  hwx6_0 : ∀ i : grid6.Coords, EltTy.bits .bf16 = 32 ∨ (Rect.block (s := S9x50000x32) S9x5000x32.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S9x32x64.size a ≤ S9x32x64.size a
  hwx6_1 : ∀ i : grid6.Coords, EltTy.bits .bf16 = 32 ∨ (Rect.block (s := S9x32x64) S9x32x64.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S9x5000x64.size a ≤ S9x50000x64.size a
  hwx7_0 : ∀ i : grid7.Coords, EltTy.bits .bf16 = 32 ∨ (Rect.block (s := S9x50000x64) S9x5000x64.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S9x64x64.size a ≤ S9x64x64.size a
  hwx7_1 : ∀ i : grid7.Coords, EltTy.bits .bf16 = 32 ∨ (Rect.block (s := S9x64x64) S9x64x64.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S50000x64.size a
  hwx7_2 : ∀ i : grid7.Coords, EltTy.bits .f32 = 32 ∨ (Rect.block (s := S50000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S27x1800x64.size a ≤ S27x124200x64.size a
  hwx8_0 : ∀ i : grid8.Coords, EltTy.bits .bf16 = 32 ∨ (Rect.block (s := S27x124200x64) S27x1800x64.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S27x64x64.size a ≤ S27x64x64.size a
  hwx8_1 : ∀ i : grid8.Coords, EltTy.bits .bf16 = 32 ∨ (Rect.block (s := S27x64x64) S27x64x64.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1800x64.size a ≤ S124200x64.size a
  hwx8_2 : ∀ i : grid8.Coords, EltTy.bits .f32 = 32 ∨ (Rect.block (s := S124200x64) S1800x64.size (cc8_transform_2 i) (hinb8_2 i)).WholeWords (EltTy.packing .f32)

variable [Facts₀]

def gather_S50001x256_S9x50000x1_S9x50000x256_2_0_n_n_0_2_1256 : GatherDims S50001x256 S9x50000x1 S9x50000x256 where
  offsetDims := [2]
  collapsedSliceDims := [0]
  operandBatchingDims := []
  startIndicesBatchingDims := []
  startIndexMap := [0]
  indexVectorDim := 2
  sliceSizes := ![1, 256]
  wf := gather_S50001x256_S9x50000x1_S9x50000x256_2_0_n_n_0_2_1256_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf
def gather_S50001x32_S9x50000x1_S9x50000x32_2_0_n_n_0_2_132 : GatherDims S50001x32 S9x50000x1 S9x50000x32 where
  offsetDims := [2]
  collapsedSliceDims := [0]
  operandBatchingDims := []
  startIndicesBatchingDims := []
  startIndexMap := [0]
  indexVectorDim := 2
  sliceSizes := ![1, 32]
  wf := gather_S50001x32_S9x50000x1_S9x50000x32_2_0_n_n_0_2_132_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S50001x64_S9x50000x1_S9x50000x64_2_0_n_n_0_2_164 : GatherDims S50001x64 S9x50000x1 S9x50000x64 where
  offsetDims := [2]
  collapsedSliceDims := [0]
  operandBatchingDims := []
  startIndicesBatchingDims := []
  startIndexMap := [0]
  indexVectorDim := 2
  sliceSizes := ![1, 64]
  wf := gather_S50001x64_S9x50000x1_S9x50000x64_2_0_n_n_0_2_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50001x64_S27x122811x1_S27x122811x64_2_0_n_n_0_2_164 : GatherDims S50001x64 S27x122811x1 S27x122811x64 where
  offsetDims := [2]
  collapsedSliceDims := [0]
  operandBatchingDims := []
  startIndicesBatchingDims := []
  startIndexMap := [0]
  indexVectorDim := 2
  sliceSizes := ![1, 64]
  wf := gather_S50001x64_S27x122811x1_S27x122811x64_2_0_n_n_0_2_164_wf
def dot_S1800x64_S64x64_S1800x64_1_0_0_1_n_n : DotDims S1800x64 S64x64 S1800x64 where
  lhsContracting := [1]
  rhsContracting := [0]
  lhsNonContracting := [0]
  rhsNonContracting := [1]
  lhsBatch := []
  rhsBatch := []
  wf := dot_S1800x64_S64x64_S1800x64_1_0_0_1_n_n_wf

abbrev win0_0 : Pipeline.Window sig grid0 :=
  Pipeline.Window.ofSpec (Memref.whole main_v10) S9x2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S9x256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S9x5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S9x32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S9x2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S9x256x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S9x5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S9x32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v114) S9x5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v115) S9x32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v116) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v140) S9x5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v141) S9x64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v142) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v165) S9x5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v166) S9x32x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v167) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v191) S9x5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v192) S9x64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v193) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v220) S27x1800x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v219) S27x64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v221) S1800x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S50000x256 : Shape := ⟨2, ![50000, 256]⟩
abbrev S9x256x32 : Shape := ⟨3, ![9, 256, 32]⟩
abbrev S9x32x32 : Shape := ⟨3, ![9, 32, 32]⟩
abbrev S9x32x64 : Shape := ⟨3, ![9, 32, 64]⟩
abbrev S9x64x64 : Shape := ⟨3, ![9, 64, 64]⟩
abbrev S27x64x64 : Shape := ⟨3, ![27, 64, 64]⟩
abbrev S50000x9 : Shape := ⟨2, ![50000, 9]⟩
abbrev S122811x27 : Shape := ⟨2, ![122811, 27]⟩
abbrev S_ : Shape := ⟨0, ![]⟩
abbrev S1x256 : Shape := ⟨2, ![1, 256]⟩
abbrev S50001x256 : Shape := ⟨2, ![50001, 256]⟩
abbrev S50000x32 : Shape := ⟨2, ![50000, 32]⟩
abbrev S50000x1 : Shape := ⟨2, ![50000, 1]⟩
abbrev S50000 : Shape := ⟨1, ![50000]⟩
abbrev S1x256x32 : Shape := ⟨3, ![1, 256, 32]⟩
abbrev S256x32 : Shape := ⟨2, ![256, 32]⟩
abbrev S32 : Shape := ⟨1, ![32]⟩
abbrev S1x32 : Shape := ⟨2, ![1, 32]⟩
abbrev S50001x32 : Shape := ⟨2, ![50001, 32]⟩
abbrev S1x32x32 : Shape := ⟨3, ![1, 32, 32]⟩
abbrev S32x32 : Shape := ⟨2, ![32, 32]⟩
abbrev S50000x64 : Shape := ⟨2, ![50000, 64]⟩
abbrev S1x32x64 : Shape := ⟨3, ![1, 32, 64]⟩
abbrev S32x64 : Shape := ⟨2, ![32, 64]⟩
abbrev S64 : Shape := ⟨1, ![64]⟩
abbrev S1x64 : Shape := ⟨2, ![1, 64]⟩
abbrev S50001x64 : Shape := ⟨2, ![50001, 64]⟩
abbrev S1x64x64 : Shape := ⟨3, ![1, 64, 64]⟩
abbrev S64x64 : Shape := ⟨2, ![64, 64]⟩
abbrev S122811x64 : Shape := ⟨2, ![122811, 64]⟩
abbrev S122811x1 : Shape := ⟨2, ![122811, 1]⟩
abbrev S122811 : Shape := ⟨1, ![122811]⟩

abbrev nBuf : Space → Nat
  | .hbm => 1913
  | .vmem => 0
  | .smem => 0
  | _ => 0

abbrev hbmTy0_0 (i : Nat) : BufTy := match i % 128 with
  | 0 => ⟨S50000x256, .f32⟩
  | 1 => ⟨S9x256x32, .f32⟩
  | 2 => ⟨S9x32x32, .f32⟩
  | 3 => ⟨S9x256x32, .f32⟩
  | 4 => ⟨S9x32x32, .f32⟩
  | 5 => ⟨S9x32x64, .f32⟩
  | 6 => ⟨S9x64x64, .f32⟩
  | 7 => ⟨S9x32x64, .f32⟩
  | 8 => ⟨S9x64x64, .f32⟩
  | 9 => ⟨S27x64x64, .f32⟩
  | 10 => ⟨S50000x9, .i32⟩
  | 11 => ⟨S50000x9, .i32⟩
  | 12 => ⟨S122811x27, .i32⟩
  | 13 => ⟨S_, .f32⟩
  | 14 => ⟨S1x256, .f32⟩
  | 15 => ⟨S50001x256, .f32⟩
  | 16 => ⟨S_, .f32⟩
  | 17 => ⟨S50000x32, .f32⟩
  | 18 => ⟨S50000x1, .i32⟩
  | 19 => ⟨S50000, .i32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S50000x256, .f32⟩
  | 29 => ⟨S1x256x32, .f32⟩
  | 30 => ⟨S256x32, .f32⟩
  | 31 => ⟨S50000x32, .f32⟩
  | 32 => ⟨S50000x32, .f32⟩
  | 33 => ⟨S50000x1, .i32⟩
  | 34 => ⟨S50000, .i32⟩
  | 35 => ⟨S_, .i32⟩
  | 36 => ⟨S50000, .i32⟩
  | 37 => ⟨S50000, .i1⟩
  | 38 => ⟨S_, .i32⟩
  | 39 => ⟨S50000, .i32⟩
  | 40 => ⟨S50000, .i32⟩
  | 41 => ⟨S50000, .i32⟩
  | 42 => ⟨S50000x1, .i32⟩
  | 43 => ⟨S50000x256, .f32⟩
  | 44 => ⟨S1x256x32, .f32⟩
  | 45 => ⟨S256x32, .f32⟩
  | 46 => ⟨S50000x32, .f32⟩
  | 47 => ⟨S50000x32, .f32⟩
  | 48 => ⟨S50000x1, .i32⟩
  | 49 => ⟨S50000, .i32⟩
  | 50 => ⟨S_, .i32⟩
  | 51 => ⟨S50000, .i32⟩
  | 52 => ⟨S50000, .i1⟩
  | 53 => ⟨S_, .i32⟩
  | 54 => ⟨S50000, .i32⟩
  | 55 => ⟨S50000, .i32⟩
  | 56 => ⟨S50000, .i32⟩
  | 57 => ⟨S50000x1, .i32⟩
  | 58 => ⟨S50000x256, .f32⟩
  | 59 => ⟨S1x256x32, .f32⟩
  | 60 => ⟨S256x32, .f32⟩
  | 61 => ⟨S50000x32, .f32⟩
  | 62 => ⟨S50000x32, .f32⟩
  | 63 => ⟨S50000x1, .i32⟩
  | 64 => ⟨S50000, .i32⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S50000x256, .f32⟩
  | 74 => ⟨S1x256x32, .f32⟩
  | 75 => ⟨S256x32, .f32⟩
  | 76 => ⟨S50000x32, .f32⟩
  | 77 => ⟨S50000x32, .f32⟩
  | 78 => ⟨S50000x1, .i32⟩
  | 79 => ⟨S50000, .i32⟩
  | 80 => ⟨S_, .i32⟩
  | 81 => ⟨S50000, .i32⟩
  | 82 => ⟨S50000, .i1⟩
  | 83 => ⟨S_, .i32⟩
  | 84 => ⟨S50000, .i32⟩
  | 85 => ⟨S50000, .i32⟩
  | 86 => ⟨S50000, .i32⟩
  | 87 => ⟨S50000x1, .i32⟩
  | 88 => ⟨S50000x256, .f32⟩
  | 89 => ⟨S1x256x32, .f32⟩
  | 90 => ⟨S256x32, .f32⟩
  | 91 => ⟨S50000x32, .f32⟩
  | 92 => ⟨S50000x32, .f32⟩
  | 93 => ⟨S50000x1, .i32⟩
  | 94 => ⟨S50000, .i32⟩
  | 95 => ⟨S_, .i32⟩
  | 96 => ⟨S50000, .i32⟩
  | 97 => ⟨S50000, .i1⟩
  | 98 => ⟨S_, .i32⟩
  | 99 => ⟨S50000, .i32⟩
  | 100 => ⟨S50000, .i32⟩
  | 101 => ⟨S50000, .i32⟩
  | 102 => ⟨S50000x1, .i32⟩
  | 103 => ⟨S50000x256, .f32⟩
  | 104 => ⟨S1x256x32, .f32⟩
  | 105 => ⟨S256x32, .f32⟩
  | 106 => ⟨S50000x32, .f32⟩
  | 107 => ⟨S50000x32, .f32⟩
  | 108 => ⟨S50000x1, .i32⟩
  | 109 => ⟨S50000, .i32⟩
  | 110 => ⟨S_, .i32⟩
  | 111 => ⟨S50000, .i32⟩
  | 112 => ⟨S50000, .i1⟩
  | 113 => ⟨S_, .i32⟩
  | 114 => ⟨S50000, .i32⟩
  | 115 => ⟨S50000, .i32⟩
  | 116 => ⟨S50000, .i32⟩
  | 117 => ⟨S50000x1, .i32⟩
  | 118 => ⟨S50000x256, .f32⟩
  | 119 => ⟨S1x256x32, .f32⟩
  | 120 => ⟨S256x32, .f32⟩
  | 121 => ⟨S50000x32, .f32⟩
  | 122 => ⟨S50000x32, .f32⟩
  | 123 => ⟨S50000x1, .i32⟩
  | 124 => ⟨S50000, .i32⟩
  | 125 => ⟨S_, .i32⟩
  | 126 => ⟨S50000, .i32⟩
  | 127 => ⟨S50000, .i1⟩
  | _ => ⟨S50000x256, .f32⟩

abbrev hbmTy0_1 (i : Nat) : BufTy := match i % 128 with
  | 0 => ⟨S_, .i32⟩
  | 1 => ⟨S50000, .i32⟩
  | 2 => ⟨S50000, .i32⟩
  | 3 => ⟨S50000, .i32⟩
  | 4 => ⟨S50000x1, .i32⟩
  | 5 => ⟨S50000x256, .f32⟩
  | 6 => ⟨S1x256x32, .f32⟩
  | 7 => ⟨S256x32, .f32⟩
  | 8 => ⟨S50000x32, .f32⟩
  | 9 => ⟨S50000x32, .f32⟩
  | 10 => ⟨S50000x1, .i32⟩
  | 11 => ⟨S50000, .i32⟩
  | 12 => ⟨S_, .i32⟩
  | 13 => ⟨S50000, .i32⟩
  | 14 => ⟨S50000, .i1⟩
  | 15 => ⟨S_, .i32⟩
  | 16 => ⟨S50000, .i32⟩
  | 17 => ⟨S50000, .i32⟩
  | 18 => ⟨S50000, .i32⟩
  | 19 => ⟨S50000x1, .i32⟩
  | 20 => ⟨S50000x256, .f32⟩
  | 21 => ⟨S1x256x32, .f32⟩
  | 22 => ⟨S256x32, .f32⟩
  | 23 => ⟨S50000x32, .f32⟩
  | 24 => ⟨S50000x32, .f32⟩
  | 25 => ⟨S_, .f32⟩
  | 26 => ⟨S_, .f32⟩
  | 27 => ⟨S50000x32, .f32⟩
  | 28 => ⟨S50000x32, .i1⟩
  | 29 => ⟨S_, .f32⟩
  | 30 => ⟨S50000x32, .f32⟩
  | 31 => ⟨S50000x32, .f32⟩
  | 32 => ⟨S50000x32, .f32⟩
  | 33 => ⟨S_, .f32⟩
  | 34 => ⟨S32, .f32⟩
  | 35 => ⟨S_, .f32⟩
  | 36 => ⟨S32, .f32⟩
  | 37 => ⟨S32, .f32⟩
  | 38 => ⟨S_, .i32⟩
  | 39 => ⟨S_, .f32⟩
  | 40 => ⟨S32, .f32⟩
  | 41 => ⟨S1x32, .f32⟩
  | 42 => ⟨S_, .f32⟩
  | 43 => ⟨S1x32, .f32⟩
  | 44 => ⟨S1x32, .f32⟩
  | 45 => ⟨S50000x32, .f32⟩
  | 46 => ⟨S50000x32, .f32⟩
  | 47 => ⟨S50000x32, .f32⟩
  | 48 => ⟨S_, .f32⟩
  | 49 => ⟨S_, .f32⟩
  | 50 => ⟨S_, .f32⟩
  | 51 => ⟨S_, .f32⟩
  | 52 => ⟨S32, .f32⟩
  | 53 => ⟨S32, .f32⟩
  | 54 => ⟨S32, .f32⟩
  | 55 => ⟨S_, .f32⟩
  | 56 => ⟨S_, .i1⟩
  | 57 => ⟨S_, .f32⟩
  | 58 => ⟨S_, .f32⟩
  | 59 => ⟨S32, .f32⟩
  | 60 => ⟨S32, .f32⟩
  | 61 => ⟨S1x32, .f32⟩
  | 62 => ⟨S50000x32, .f32⟩
  | 63 => ⟨S50000x32, .f32⟩
  | 64 => ⟨S_, .f32⟩
  | 65 => ⟨S32, .f32⟩
  | 66 => ⟨S32, .f32⟩
  | 67 => ⟨S32, .f32⟩
  | 68 => ⟨S1x32, .f32⟩
  | 69 => ⟨S50000x32, .f32⟩
  | 70 => ⟨S50000x32, .f32⟩
  | 71 => ⟨S_, .f32⟩
  | 72 => ⟨S1x32, .f32⟩
  | 73 => ⟨S50001x32, .f32⟩
  | 74 => ⟨S_, .f32⟩
  | 75 => ⟨S50000x32, .f32⟩
  | 76 => ⟨S50000x1, .i32⟩
  | 77 => ⟨S50000, .i32⟩
  | 78 => ⟨S_, .i32⟩
  | 79 => ⟨S50000, .i32⟩
  | 80 => ⟨S50000, .i1⟩
  | 81 => ⟨S_, .i32⟩
  | 82 => ⟨S50000, .i32⟩
  | 83 => ⟨S50000, .i32⟩
  | 84 => ⟨S50000, .i32⟩
  | 85 => ⟨S50000x1, .i32⟩
  | 86 => ⟨S50000x32, .f32⟩
  | 87 => ⟨S1x32x32, .f32⟩
  | 88 => ⟨S32x32, .f32⟩
  | 89 => ⟨S50000x32, .f32⟩
  | 90 => ⟨S50000x32, .f32⟩
  | 91 => ⟨S50000x1, .i32⟩
  | 92 => ⟨S50000, .i32⟩
  | 93 => ⟨S_, .i32⟩
  | 94 => ⟨S50000, .i32⟩
  | 95 => ⟨S50000, .i1⟩
  | 96 => ⟨S_, .i32⟩
  | 97 => ⟨S50000, .i32⟩
  | 98 => ⟨S50000, .i32⟩
  | 99 => ⟨S50000, .i32⟩
  | 100 => ⟨S50000x1, .i32⟩
  | 101 => ⟨S50000x32, .f32⟩
  | 102 => ⟨S1x32x32, .f32⟩
  | 103 => ⟨S32x32, .f32⟩
  | 104 => ⟨S50000x32, .f32⟩
  | 105 => ⟨S50000x32, .f32⟩
  | 106 => ⟨S50000x1, .i32⟩
  | 107 => ⟨S50000, .i32⟩
  | 108 => ⟨S_, .i32⟩
  | 109 => ⟨S50000, .i32⟩
  | 110 => ⟨S50000, .i1⟩
  | 111 => ⟨S_, .i32⟩
  | 112 => ⟨S50000, .i32⟩
  | 113 => ⟨S50000, .i32⟩
  | 114 => ⟨S50000, .i32⟩
  | 115 => ⟨S50000x1, .i32⟩
  | 116 => ⟨S50000x32, .f32⟩
  | 117 => ⟨S1x32x32, .f32⟩
  | 118 => ⟨S32x32, .f32⟩
  | 119 => ⟨S50000x32, .f32⟩
  | 120 => ⟨S50000x32, .f32⟩
  | 121 => ⟨S50000x1, .i32⟩
  | 122 => ⟨S50000, .i32⟩
  | 123 => ⟨S_, .i32⟩
  | 124 => ⟨S50000, .i32⟩
  | 125 => ⟨S50000, .i1⟩
  | 126 => ⟨S_, .i32⟩
  | 127 => ⟨S50000, .i32⟩
  | _ => ⟨S50000x256, .f32⟩

abbrev hbmTy0_2 (i : Nat) : BufTy := match i % 128 with
  | 0 => ⟨S50000, .i32⟩
  | 1 => ⟨S50000, .i32⟩
  | 2 => ⟨S50000x1, .i32⟩
  | 3 => ⟨S50000x32, .f32⟩
  | 4 => ⟨S1x32x32, .f32⟩
  | 5 => ⟨S32x32, .f32⟩
  | 6 => ⟨S50000x32, .f32⟩
  | 7 => ⟨S50000x32, .f32⟩
  | 8 => ⟨S50000x1, .i32⟩
  | 9 => ⟨S50000, .i32⟩
  | 10 => ⟨S_, .i32⟩
  | 11 => ⟨S50000, .i32⟩
  | 12 => ⟨S50000, .i1⟩
  | 13 => ⟨S_, .i32⟩
  | 14 => ⟨S50000, .i32⟩
  | 15 => ⟨S50000, .i32⟩
  | 16 => ⟨S50000, .i32⟩
  | 17 => ⟨S50000x1, .i32⟩
  | 18 => ⟨S50000x32, .f32⟩
  | 19 => ⟨S1x32x32, .f32⟩
  | 20 => ⟨S32x32, .f32⟩
  | 21 => ⟨S50000x32, .f32⟩
  | 22 => ⟨S50000x32, .f32⟩
  | 23 => ⟨S50000x1, .i32⟩
  | 24 => ⟨S50000, .i32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S50000x32, .f32⟩
  | 34 => ⟨S1x32x32, .f32⟩
  | 35 => ⟨S32x32, .f32⟩
  | 36 => ⟨S50000x32, .f32⟩
  | 37 => ⟨S50000x32, .f32⟩
  | 38 => ⟨S50000x1, .i32⟩
  | 39 => ⟨S50000, .i32⟩
  | 40 => ⟨S_, .i32⟩
  | 41 => ⟨S50000, .i32⟩
  | 42 => ⟨S50000, .i1⟩
  | 43 => ⟨S_, .i32⟩
  | 44 => ⟨S50000, .i32⟩
  | 45 => ⟨S50000, .i32⟩
  | 46 => ⟨S50000, .i32⟩
  | 47 => ⟨S50000x1, .i32⟩
  | 48 => ⟨S50000x32, .f32⟩
  | 49 => ⟨S1x32x32, .f32⟩
  | 50 => ⟨S32x32, .f32⟩
  | 51 => ⟨S50000x32, .f32⟩
  | 52 => ⟨S50000x32, .f32⟩
  | 53 => ⟨S50000x1, .i32⟩
  | 54 => ⟨S50000, .i32⟩
  | 55 => ⟨S_, .i32⟩
  | 56 => ⟨S50000, .i32⟩
  | 57 => ⟨S50000, .i1⟩
  | 58 => ⟨S_, .i32⟩
  | 59 => ⟨S50000, .i32⟩
  | 60 => ⟨S50000, .i32⟩
  | 61 => ⟨S50000, .i32⟩
  | 62 => ⟨S50000x1, .i32⟩
  | 63 => ⟨S50000x32, .f32⟩
  | 64 => ⟨S1x32x32, .f32⟩
  | 65 => ⟨S32x32, .f32⟩
  | 66 => ⟨S50000x32, .f32⟩
  | 67 => ⟨S50000x32, .f32⟩
  | 68 => ⟨S50000x1, .i32⟩
  | 69 => ⟨S50000, .i32⟩
  | 70 => ⟨S_, .i32⟩
  | 71 => ⟨S50000, .i32⟩
  | 72 => ⟨S50000, .i1⟩
  | 73 => ⟨S_, .i32⟩
  | 74 => ⟨S50000, .i32⟩
  | 75 => ⟨S50000, .i32⟩
  | 76 => ⟨S50000, .i32⟩
  | 77 => ⟨S50000x1, .i32⟩
  | 78 => ⟨S50000x32, .f32⟩
  | 79 => ⟨S1x32x32, .f32⟩
  | 80 => ⟨S32x32, .f32⟩
  | 81 => ⟨S50000x32, .f32⟩
  | 82 => ⟨S50000x32, .f32⟩
  | 83 => ⟨S_, .f32⟩
  | 84 => ⟨S_, .f32⟩
  | 85 => ⟨S50000x32, .f32⟩
  | 86 => ⟨S50000x32, .i1⟩
  | 87 => ⟨S_, .f32⟩
  | 88 => ⟨S50000x32, .f32⟩
  | 89 => ⟨S50000x32, .f32⟩
  | 90 => ⟨S50000x32, .f32⟩
  | 91 => ⟨S_, .f32⟩
  | 92 => ⟨S32, .f32⟩
  | 93 => ⟨S_, .f32⟩
  | 94 => ⟨S32, .f32⟩
  | 95 => ⟨S32, .f32⟩
  | 96 => ⟨S_, .i32⟩
  | 97 => ⟨S_, .f32⟩
  | 98 => ⟨S32, .f32⟩
  | 99 => ⟨S1x32, .f32⟩
  | 100 => ⟨S_, .f32⟩
  | 101 => ⟨S1x32, .f32⟩
  | 102 => ⟨S1x32, .f32⟩
  | 103 => ⟨S50000x32, .f32⟩
  | 104 => ⟨S50000x32, .f32⟩
  | 105 => ⟨S50000x32, .f32⟩
  | 106 => ⟨S_, .f32⟩
  | 107 => ⟨S_, .f32⟩
  | 108 => ⟨S_, .f32⟩
  | 109 => ⟨S_, .f32⟩
  | 110 => ⟨S32, .f32⟩
  | 111 => ⟨S32, .f32⟩
  | 112 => ⟨S32, .f32⟩
  | 113 => ⟨S_, .f32⟩
  | 114 => ⟨S_, .i1⟩
  | 115 => ⟨S_, .f32⟩
  | 116 => ⟨S_, .f32⟩
  | 117 => ⟨S32, .f32⟩
  | 118 => ⟨S32, .f32⟩
  | 119 => ⟨S1x32, .f32⟩
  | 120 => ⟨S50000x32, .f32⟩
  | 121 => ⟨S50000x32, .f32⟩
  | 122 => ⟨S_, .f32⟩
  | 123 => ⟨S32, .f32⟩
  | 124 => ⟨S32, .f32⟩
  | 125 => ⟨S32, .f32⟩
  | 126 => ⟨S1x32, .f32⟩
  | 127 => ⟨S50000x32, .f32⟩
  | _ => ⟨S50000x256, .f32⟩

abbrev hbmTy0_3 (i : Nat) : BufTy := match i % 128 with
  | 0 => ⟨S50000x32, .f32⟩
  | 1 => ⟨S_, .f32⟩
  | 2 => ⟨S1x256, .f32⟩
  | 3 => ⟨S50001x256, .f32⟩
  | 4 => ⟨S_, .f32⟩
  | 5 => ⟨S50000x32, .f32⟩
  | 6 => ⟨S50000x1, .i32⟩
  | 7 => ⟨S50000, .i32⟩
  | 8 => ⟨S_, .i32⟩
  | 9 => ⟨S50000, .i32⟩
  | 10 => ⟨S50000, .i1⟩
  | 11 => ⟨S_, .i32⟩
  | 12 => ⟨S50000, .i32⟩
  | 13 => ⟨S50000, .i32⟩
  | 14 => ⟨S50000, .i32⟩
  | 15 => ⟨S50000x1, .i32⟩
  | 16 => ⟨S50000x256, .f32⟩
  | 17 => ⟨S1x256x32, .f32⟩
  | 18 => ⟨S256x32, .f32⟩
  | 19 => ⟨S50000x32, .f32⟩
  | 20 => ⟨S50000x32, .f32⟩
  | 21 => ⟨S50000x1, .i32⟩
  | 22 => ⟨S50000, .i32⟩
  | 23 => ⟨S_, .i32⟩
  | 24 => ⟨S50000, .i32⟩
  | 25 => ⟨S50000, .i1⟩
  | 26 => ⟨S_, .i32⟩
  | 27 => ⟨S50000, .i32⟩
  | 28 => ⟨S50000, .i32⟩
  | 29 => ⟨S50000, .i32⟩
  | 30 => ⟨S50000x1, .i32⟩
  | 31 => ⟨S50000x256, .f32⟩
  | 32 => ⟨S1x256x32, .f32⟩
  | 33 => ⟨S256x32, .f32⟩
  | 34 => ⟨S50000x32, .f32⟩
  | 35 => ⟨S50000x32, .f32⟩
  | 36 => ⟨S50000x1, .i32⟩
  | 37 => ⟨S50000, .i32⟩
  | 38 => ⟨S_, .i32⟩
  | 39 => ⟨S50000, .i32⟩
  | 40 => ⟨S50000, .i1⟩
  | 41 => ⟨S_, .i32⟩
  | 42 => ⟨S50000, .i32⟩
  | 43 => ⟨S50000, .i32⟩
  | 44 => ⟨S50000, .i32⟩
  | 45 => ⟨S50000x1, .i32⟩
  | 46 => ⟨S50000x256, .f32⟩
  | 47 => ⟨S1x256x32, .f32⟩
  | 48 => ⟨S256x32, .f32⟩
  | 49 => ⟨S50000x32, .f32⟩
  | 50 => ⟨S50000x32, .f32⟩
  | 51 => ⟨S50000x1, .i32⟩
  | 52 => ⟨S50000, .i32⟩
  | 53 => ⟨S_, .i32⟩
  | 54 => ⟨S50000, .i32⟩
  | 55 => ⟨S50000, .i1⟩
  | 56 => ⟨S_, .i32⟩
  | 57 => ⟨S50000, .i32⟩
  | 58 => ⟨S50000, .i32⟩
  | 59 => ⟨S50000, .i32⟩
  | 60 => ⟨S50000x1, .i32⟩
  | 61 => ⟨S50000x256, .f32⟩
  | 62 => ⟨S1x256x32, .f32⟩
  | 63 => ⟨S256x32, .f32⟩
  | 64 => ⟨S50000x32, .f32⟩
  | 65 => ⟨S50000x32, .f32⟩
  | 66 => ⟨S50000x1, .i32⟩
  | 67 => ⟨S50000, .i32⟩
  | 68 => ⟨S_, .i32⟩
  | 69 => ⟨S50000, .i32⟩
  | 70 => ⟨S50000, .i1⟩
  | 71 => ⟨S_, .i32⟩
  | 72 => ⟨S50000, .i32⟩
  | 73 => ⟨S50000, .i32⟩
  | 74 => ⟨S50000, .i32⟩
  | 75 => ⟨S50000x1, .i32⟩
  | 76 => ⟨S50000x256, .f32⟩
  | 77 => ⟨S1x256x32, .f32⟩
  | 78 => ⟨S256x32, .f32⟩
  | 79 => ⟨S50000x32, .f32⟩
  | 80 => ⟨S50000x32, .f32⟩
  | 81 => ⟨S50000x1, .i32⟩
  | 82 => ⟨S50000, .i32⟩
  | 83 => ⟨S_, .i32⟩
  | 84 => ⟨S50000, .i32⟩
  | 85 => ⟨S50000, .i1⟩
  | 86 => ⟨S_, .i32⟩
  | 87 => ⟨S50000, .i32⟩
  | 88 => ⟨S50000, .i32⟩
  | 89 => ⟨S50000, .i32⟩
  | 90 => ⟨S50000x1, .i32⟩
  | 91 => ⟨S50000x256, .f32⟩
  | 92 => ⟨S1x256x32, .f32⟩
  | 93 => ⟨S256x32, .f32⟩
  | 94 => ⟨S50000x32, .f32⟩
  | 95 => ⟨S50000x32, .f32⟩
  | 96 => ⟨S50000x1, .i32⟩
  | 97 => ⟨S50000, .i32⟩
  | 98 => ⟨S_, .i32⟩
  | 99 => ⟨S50000, .i32⟩
  | 100 => ⟨S50000, .i1⟩
  | 101 => ⟨S_, .i32⟩
  | 102 => ⟨S50000, .i32⟩
  | 103 => ⟨S50000, .i32⟩
  | 104 => ⟨S50000, .i32⟩
  | 105 => ⟨S50000x1, .i32⟩
  | 106 => ⟨S50000x256, .f32⟩
  | 107 => ⟨S1x256x32, .f32⟩
  | 108 => ⟨S256x32, .f32⟩
  | 109 => ⟨S50000x32, .f32⟩
  | 110 => ⟨S50000x32, .f32⟩
  | 111 => ⟨S50000x1, .i32⟩
  | 112 => ⟨S50000, .i32⟩
  | 113 => ⟨S_, .i32⟩
  | 114 => ⟨S50000, .i32⟩
  | 115 => ⟨S50000, .i1⟩
  | 116 => ⟨S_, .i32⟩
  | 117 => ⟨S50000, .i32⟩
  | 118 => ⟨S50000, .i32⟩
  | 119 => ⟨S50000, .i32⟩
  | 120 => ⟨S50000x1, .i32⟩
  | 121 => ⟨S50000x256, .f32⟩
  | 122 => ⟨S1x256x32, .f32⟩
  | 123 => ⟨S256x32, .f32⟩
  | 124 => ⟨S50000x32, .f32⟩
  | 125 => ⟨S50000x32, .f32⟩
  | 126 => ⟨S50000x1, .i32⟩
  | 127 => ⟨S50000, .i32⟩
  | _ => ⟨S50000x256, .f32⟩

abbrev hbmTy0_4 (i : Nat) : BufTy := match i % 128 with
  | 0 => ⟨S_, .i32⟩
  | 1 => ⟨S50000, .i32⟩
  | 2 => ⟨S50000, .i1⟩
  | 3 => ⟨S_, .i32⟩
  | 4 => ⟨S50000, .i32⟩
  | 5 => ⟨S50000, .i32⟩
  | 6 => ⟨S50000, .i32⟩
  | 7 => ⟨S50000x1, .i32⟩
  | 8 => ⟨S50000x256, .f32⟩
  | 9 => ⟨S1x256x32, .f32⟩
  | 10 => ⟨S256x32, .f32⟩
  | 11 => ⟨S50000x32, .f32⟩
  | 12 => ⟨S50000x32, .f32⟩
  | 13 => ⟨S_, .f32⟩
  | 14 => ⟨S_, .f32⟩
  | 15 => ⟨S50000x32, .f32⟩
  | 16 => ⟨S50000x32, .i1⟩
  | 17 => ⟨S_, .f32⟩
  | 18 => ⟨S50000x32, .f32⟩
  | 19 => ⟨S50000x32, .f32⟩
  | 20 => ⟨S50000x32, .f32⟩
  | 21 => ⟨S_, .f32⟩
  | 22 => ⟨S32, .f32⟩
  | 23 => ⟨S_, .f32⟩
  | 24 => ⟨S32, .f32⟩
  | 25 => ⟨S32, .f32⟩
  | 26 => ⟨S_, .i32⟩
  | 27 => ⟨S_, .f32⟩
  | 28 => ⟨S32, .f32⟩
  | 29 => ⟨S1x32, .f32⟩
  | 30 => ⟨S_, .f32⟩
  | 31 => ⟨S1x32, .f32⟩
  | 32 => ⟨S1x32, .f32⟩
  | 33 => ⟨S50000x32, .f32⟩
  | 34 => ⟨S50000x32, .f32⟩
  | 35 => ⟨S50000x32, .f32⟩
  | 36 => ⟨S_, .f32⟩
  | 37 => ⟨S_, .f32⟩
  | 38 => ⟨S_, .f32⟩
  | 39 => ⟨S_, .f32⟩
  | 40 => ⟨S32, .f32⟩
  | 41 => ⟨S32, .f32⟩
  | 42 => ⟨S32, .f32⟩
  | 43 => ⟨S_, .f32⟩
  | 44 => ⟨S_, .i1⟩
  | 45 => ⟨S_, .f32⟩
  | 46 => ⟨S_, .f32⟩
  | 47 => ⟨S32, .f32⟩
  | 48 => ⟨S32, .f32⟩
  | 49 => ⟨S1x32, .f32⟩
  | 50 => ⟨S50000x32, .f32⟩
  | 51 => ⟨S50000x32, .f32⟩
  | 52 => ⟨S_, .f32⟩
  | 53 => ⟨S32, .f32⟩
  | 54 => ⟨S32, .f32⟩
  | 55 => ⟨S32, .f32⟩
  | 56 => ⟨S1x32, .f32⟩
  | 57 => ⟨S50000x32, .f32⟩
  | 58 => ⟨S50000x32, .f32⟩
  | 59 => ⟨S_, .f32⟩
  | 60 => ⟨S1x32, .f32⟩
  | 61 => ⟨S50001x32, .f32⟩
  | 62 => ⟨S_, .f32⟩
  | 63 => ⟨S50000x32, .f32⟩
  | 64 => ⟨S50000x1, .i32⟩
  | 65 => ⟨S50000, .i32⟩
  | 66 => ⟨S_, .i32⟩
  | 67 => ⟨S50000, .i32⟩
  | 68 => ⟨S50000, .i1⟩
  | 69 => ⟨S_, .i32⟩
  | 70 => ⟨S50000, .i32⟩
  | 71 => ⟨S50000, .i32⟩
  | 72 => ⟨S50000, .i32⟩
  | 73 => ⟨S50000x1, .i32⟩
  | 74 => ⟨S50000x32, .f32⟩
  | 75 => ⟨S1x32x32, .f32⟩
  | 76 => ⟨S32x32, .f32⟩
  | 77 => ⟨S50000x32, .f32⟩
  | 78 => ⟨S50000x32, .f32⟩
  | 79 => ⟨S50000x1, .i32⟩
  | 80 => ⟨S50000, .i32⟩
  | 81 => ⟨S_, .i32⟩
  | 82 => ⟨S50000, .i32⟩
  | 83 => ⟨S50000, .i1⟩
  | 84 => ⟨S_, .i32⟩
  | 85 => ⟨S50000, .i32⟩
  | 86 => ⟨S50000, .i32⟩
  | 87 => ⟨S50000, .i32⟩
  | 88 => ⟨S50000x1, .i32⟩
  | 89 => ⟨S50000x32, .f32⟩
  | 90 => ⟨S1x32x32, .f32⟩
  | 91 => ⟨S32x32, .f32⟩
  | 92 => ⟨S50000x32, .f32⟩
  | 93 => ⟨S50000x32, .f32⟩
  | 94 => ⟨S50000x1, .i32⟩
  | 95 => ⟨S50000, .i32⟩
  | 96 => ⟨S_, .i32⟩
  | 97 => ⟨S50000, .i32⟩
  | 98 => ⟨S50000, .i1⟩
  | 99 => ⟨S_, .i32⟩
  | 100 => ⟨S50000, .i32⟩
  | 101 => ⟨S50000, .i32⟩
  | 102 => ⟨S50000, .i32⟩
  | 103 => ⟨S50000x1, .i32⟩
  | 104 => ⟨S50000x32, .f32⟩
  | 105 => ⟨S1x32x32, .f32⟩
  | 106 => ⟨S32x32, .f32⟩
  | 107 => ⟨S50000x32, .f32⟩
  | 108 => ⟨S50000x32, .f32⟩
  | 109 => ⟨S50000x1, .i32⟩
  | 110 => ⟨S50000, .i32⟩
  | 111 => ⟨S_, .i32⟩
  | 112 => ⟨S50000, .i32⟩
  | 113 => ⟨S50000, .i1⟩
  | 114 => ⟨S_, .i32⟩
  | 115 => ⟨S50000, .i32⟩
  | 116 => ⟨S50000, .i32⟩
  | 117 => ⟨S50000, .i32⟩
  | 118 => ⟨S50000x1, .i32⟩
  | 119 => ⟨S50000x32, .f32⟩
  | 120 => ⟨S1x32x32, .f32⟩
  | 121 => ⟨S32x32, .f32⟩
  | 122 => ⟨S50000x32, .f32⟩
  | 123 => ⟨S50000x32, .f32⟩
  | 124 => ⟨S50000x1, .i32⟩
  | 125 => ⟨S50000, .i32⟩
  | 126 => ⟨S_, .i32⟩
  | 127 => ⟨S50000, .i32⟩
  | _ => ⟨S50000x256, .f32⟩

abbrev hbmTy0_5 (i : Nat) : BufTy := match i % 128 with
  | 0 => ⟨S50000, .i1⟩
  | 1 => ⟨S_, .i32⟩
  | 2 => ⟨S50000, .i32⟩
  | 3 => ⟨S50000, .i32⟩
  | 4 => ⟨S50000, .i32⟩
  | 5 => ⟨S50000x1, .i32⟩
  | 6 => ⟨S50000x32, .f32⟩
  | 7 => ⟨S1x32x32, .f32⟩
  | 8 => ⟨S32x32, .f32⟩
  | 9 => ⟨S50000x32, .f32⟩
  | 10 => ⟨S50000x32, .f32⟩
  | 11 => ⟨S50000x1, .i32⟩
  | 12 => ⟨S50000, .i32⟩
  | 13 => ⟨S_, .i32⟩
  | 14 => ⟨S50000, .i32⟩
  | 15 => ⟨S50000, .i1⟩
  | 16 => ⟨S_, .i32⟩
  | 17 => ⟨S50000, .i32⟩
  | 18 => ⟨S50000, .i32⟩
  | 19 => ⟨S50000, .i32⟩
  | 20 => ⟨S50000x1, .i32⟩
  | 21 => ⟨S50000x32, .f32⟩
  | 22 => ⟨S1x32x32, .f32⟩
  | 23 => ⟨S32x32, .f32⟩
  | 24 => ⟨S50000x32, .f32⟩
  | 25 => ⟨S50000x32, .f32⟩
  | 26 => ⟨S50000x1, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x32, .f32⟩
  | 37 => ⟨S1x32x32, .f32⟩
  | 38 => ⟨S32x32, .f32⟩
  | 39 => ⟨S50000x32, .f32⟩
  | 40 => ⟨S50000x32, .f32⟩
  | 41 => ⟨S50000x1, .i32⟩
  | 42 => ⟨S50000, .i32⟩
  | 43 => ⟨S_, .i32⟩
  | 44 => ⟨S50000, .i32⟩
  | 45 => ⟨S50000, .i1⟩
  | 46 => ⟨S_, .i32⟩
  | 47 => ⟨S50000, .i32⟩
  | 48 => ⟨S50000, .i32⟩
  | 49 => ⟨S50000, .i32⟩
  | 50 => ⟨S50000x1, .i32⟩
  | 51 => ⟨S50000x32, .f32⟩
  | 52 => ⟨S1x32x32, .f32⟩
  | 53 => ⟨S32x32, .f32⟩
  | 54 => ⟨S50000x32, .f32⟩
  | 55 => ⟨S50000x32, .f32⟩
  | 56 => ⟨S50000x1, .i32⟩
  | 57 => ⟨S50000, .i32⟩
  | 58 => ⟨S_, .i32⟩
  | 59 => ⟨S50000, .i32⟩
  | 60 => ⟨S50000, .i1⟩
  | 61 => ⟨S_, .i32⟩
  | 62 => ⟨S50000, .i32⟩
  | 63 => ⟨S50000, .i32⟩
  | 64 => ⟨S50000, .i32⟩
  | 65 => ⟨S50000x1, .i32⟩
  | 66 => ⟨S50000x32, .f32⟩
  | 67 => ⟨S1x32x32, .f32⟩
  | 68 => ⟨S32x32, .f32⟩
  | 69 => ⟨S50000x32, .f32⟩
  | 70 => ⟨S50000x32, .f32⟩
  | 71 => ⟨S_, .f32⟩
  | 72 => ⟨S_, .f32⟩
  | 73 => ⟨S50000x32, .f32⟩
  | 74 => ⟨S50000x32, .i1⟩
  | 75 => ⟨S_, .f32⟩
  | 76 => ⟨S50000x32, .f32⟩
  | 77 => ⟨S50000x32, .f32⟩
  | 78 => ⟨S50000x32, .f32⟩
  | 79 => ⟨S_, .f32⟩
  | 80 => ⟨S32, .f32⟩
  | 81 => ⟨S_, .f32⟩
  | 82 => ⟨S32, .f32⟩
  | 83 => ⟨S32, .f32⟩
  | 84 => ⟨S_, .i32⟩
  | 85 => ⟨S_, .f32⟩
  | 86 => ⟨S32, .f32⟩
  | 87 => ⟨S1x32, .f32⟩
  | 88 => ⟨S_, .f32⟩
  | 89 => ⟨S1x32, .f32⟩
  | 90 => ⟨S1x32, .f32⟩
  | 91 => ⟨S50000x32, .f32⟩
  | 92 => ⟨S50000x32, .f32⟩
  | 93 => ⟨S50000x32, .f32⟩
  | 94 => ⟨S_, .f32⟩
  | 95 => ⟨S_, .f32⟩
  | 96 => ⟨S_, .f32⟩
  | 97 => ⟨S_, .f32⟩
  | 98 => ⟨S32, .f32⟩
  | 99 => ⟨S32, .f32⟩
  | 100 => ⟨S32, .f32⟩
  | 101 => ⟨S_, .f32⟩
  | 102 => ⟨S_, .i1⟩
  | 103 => ⟨S_, .f32⟩
  | 104 => ⟨S_, .f32⟩
  | 105 => ⟨S32, .f32⟩
  | 106 => ⟨S32, .f32⟩
  | 107 => ⟨S1x32, .f32⟩
  | 108 => ⟨S50000x32, .f32⟩
  | 109 => ⟨S50000x32, .f32⟩
  | 110 => ⟨S_, .f32⟩
  | 111 => ⟨S32, .f32⟩
  | 112 => ⟨S32, .f32⟩
  | 113 => ⟨S32, .f32⟩
  | 114 => ⟨S1x32, .f32⟩
  | 115 => ⟨S50000x32, .f32⟩
  | 116 => ⟨S50000x32, .f32⟩
  | 117 => ⟨S50000x32, .f32⟩
  | 118 => ⟨S_, .f32⟩
  | 119 => ⟨S1x32, .f32⟩
  | 120 => ⟨S50001x32, .f32⟩
  | 121 => ⟨S_, .f32⟩
  | 122 => ⟨S50000x64, .f32⟩
  | 123 => ⟨S50000x1, .i32⟩
  | 124 => ⟨S50000, .i32⟩
  | 125 => ⟨S_, .i32⟩
  | 126 => ⟨S50000, .i32⟩
  | 127 => ⟨S50000, .i1⟩
  | _ => ⟨S50000x256, .f32⟩

abbrev hbmTy0_6 (i : Nat) : BufTy := match i % 128 with
  | 0 => ⟨S_, .i32⟩
  | 1 => ⟨S50000, .i32⟩
  | 2 => ⟨S50000, .i32⟩
  | 3 => ⟨S50000, .i32⟩
  | 4 => ⟨S50000x1, .i32⟩
  | 5 => ⟨S50000x32, .f32⟩
  | 6 => ⟨S1x32x64, .f32⟩
  | 7 => ⟨S32x64, .f32⟩
  | 8 => ⟨S50000x64, .f32⟩
  | 9 => ⟨S50000x64, .f32⟩
  | 10 => ⟨S50000x1, .i32⟩
  | 11 => ⟨S50000, .i32⟩
  | 12 => ⟨S_, .i32⟩
  | 13 => ⟨S50000, .i32⟩
  | 14 => ⟨S50000, .i1⟩
  | 15 => ⟨S_, .i32⟩
  | 16 => ⟨S50000, .i32⟩
  | 17 => ⟨S50000, .i32⟩
  | 18 => ⟨S50000, .i32⟩
  | 19 => ⟨S50000x1, .i32⟩
  | 20 => ⟨S50000x32, .f32⟩
  | 21 => ⟨S1x32x64, .f32⟩
  | 22 => ⟨S32x64, .f32⟩
  | 23 => ⟨S50000x64, .f32⟩
  | 24 => ⟨S50000x64, .f32⟩
  | 25 => ⟨S50000x1, .i32⟩
  | 26 => ⟨S50000, .i32⟩
  | 27 => ⟨S_, .i32⟩
  | 28 => ⟨S50000, .i32⟩
  | 29 => ⟨S50000, .i1⟩
  | 30 => ⟨S_, .i32⟩
  | 31 => ⟨S50000, .i32⟩
  | 32 => ⟨S50000, .i32⟩
  | 33 => ⟨S50000, .i32⟩
  | 34 => ⟨S50000x1, .i32⟩
  | 35 => ⟨S50000x32, .f32⟩
  | 36 => ⟨S1x32x64, .f32⟩
  | 37 => ⟨S32x64, .f32⟩
  | 38 => ⟨S50000x64, .f32⟩
  | 39 => ⟨S50000x64, .f32⟩
  | 40 => ⟨S50000x1, .i32⟩
  | 41 => ⟨S50000, .i32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S50000x32, .f32⟩
  | 51 => ⟨S1x32x64, .f32⟩
  | 52 => ⟨S32x64, .f32⟩
  | 53 => ⟨S50000x64, .f32⟩
  | 54 => ⟨S50000x64, .f32⟩
  | 55 => ⟨S50000x1, .i32⟩
  | 56 => ⟨S50000, .i32⟩
  | 57 => ⟨S_, .i32⟩
  | 58 => ⟨S50000, .i32⟩
  | 59 => ⟨S50000, .i1⟩
  | 60 => ⟨S_, .i32⟩
  | 61 => ⟨S50000, .i32⟩
  | 62 => ⟨S50000, .i32⟩
  | 63 => ⟨S50000, .i32⟩
  | 64 => ⟨S50000x1, .i32⟩
  | 65 => ⟨S50000x32, .f32⟩
  | 66 => ⟨S1x32x64, .f32⟩
  | 67 => ⟨S32x64, .f32⟩
  | 68 => ⟨S50000x64, .f32⟩
  | 69 => ⟨S50000x64, .f32⟩
  | 70 => ⟨S50000x1, .i32⟩
  | 71 => ⟨S50000, .i32⟩
  | 72 => ⟨S_, .i32⟩
  | 73 => ⟨S50000, .i32⟩
  | 74 => ⟨S50000, .i1⟩
  | 75 => ⟨S_, .i32⟩
  | 76 => ⟨S50000, .i32⟩
  | 77 => ⟨S50000, .i32⟩
  | 78 => ⟨S50000, .i32⟩
  | 79 => ⟨S50000x1, .i32⟩
  | 80 => ⟨S50000x32, .f32⟩
  | 81 => ⟨S1x32x64, .f32⟩
  | 82 => ⟨S32x64, .f32⟩
  | 83 => ⟨S50000x64, .f32⟩
  | 84 => ⟨S50000x64, .f32⟩
  | 85 => ⟨S50000x1, .i32⟩
  | 86 => ⟨S50000, .i32⟩
  | 87 => ⟨S_, .i32⟩
  | 88 => ⟨S50000, .i32⟩
  | 89 => ⟨S50000, .i1⟩
  | 90 => ⟨S_, .i32⟩
  | 91 => ⟨S50000, .i32⟩
  | 92 => ⟨S50000, .i32⟩
  | 93 => ⟨S50000, .i32⟩
  | 94 => ⟨S50000x1, .i32⟩
  | 95 => ⟨S50000x32, .f32⟩
  | 96 => ⟨S1x32x64, .f32⟩
  | 97 => ⟨S32x64, .f32⟩
  | 98 => ⟨S50000x64, .f32⟩
  | 99 => ⟨S50000x64, .f32⟩
  | 100 => ⟨S50000x1, .i32⟩
  | 101 => ⟨S50000, .i32⟩
  | 102 => ⟨S_, .i32⟩
  | 103 => ⟨S50000, .i32⟩
  | 104 => ⟨S50000, .i1⟩
  | 105 => ⟨S_, .i32⟩
  | 106 => ⟨S50000, .i32⟩
  | 107 => ⟨S50000, .i32⟩
  | 108 => ⟨S50000, .i32⟩
  | 109 => ⟨S50000x1, .i32⟩
  | 110 => ⟨S50000x32, .f32⟩
  | 111 => ⟨S1x32x64, .f32⟩
  | 112 => ⟨S32x64, .f32⟩
  | 113 => ⟨S50000x64, .f32⟩
  | 114 => ⟨S50000x64, .f32⟩
  | 115 => ⟨S50000x1, .i32⟩
  | 116 => ⟨S50000, .i32⟩
  | 117 => ⟨S_, .i32⟩
  | 118 => ⟨S50000, .i32⟩
  | 119 => ⟨S50000, .i1⟩
  | 120 => ⟨S_, .i32⟩
  | 121 => ⟨S50000, .i32⟩
  | 122 => ⟨S50000, .i32⟩
  | 123 => ⟨S50000, .i32⟩
  | 124 => ⟨S50000x1, .i32⟩
  | 125 => ⟨S50000x32, .f32⟩
  | 126 => ⟨S1x32x64, .f32⟩
  | 127 => ⟨S32x64, .f32⟩
  | _ => ⟨S50000x256, .f32⟩

abbrev hbmTy0_7 (i : Nat) : BufTy := match i % 128 with
  | 0 => ⟨S50000x64, .f32⟩
  | 1 => ⟨S50000x64, .f32⟩
  | 2 => ⟨S_, .f32⟩
  | 3 => ⟨S_, .f32⟩
  | 4 => ⟨S50000x64, .f32⟩
  | 5 => ⟨S50000x64, .i1⟩
  | 6 => ⟨S_, .f32⟩
  | 7 => ⟨S50000x64, .f32⟩
  | 8 => ⟨S50000x64, .f32⟩
  | 9 => ⟨S50000x64, .f32⟩
  | 10 => ⟨S_, .f32⟩
  | 11 => ⟨S64, .f32⟩
  | 12 => ⟨S_, .f32⟩
  | 13 => ⟨S64, .f32⟩
  | 14 => ⟨S64, .f32⟩
  | 15 => ⟨S_, .i32⟩
  | 16 => ⟨S_, .f32⟩
  | 17 => ⟨S64, .f32⟩
  | 18 => ⟨S1x64, .f32⟩
  | 19 => ⟨S_, .f32⟩
  | 20 => ⟨S1x64, .f32⟩
  | 21 => ⟨S1x64, .f32⟩
  | 22 => ⟨S50000x64, .f32⟩
  | 23 => ⟨S50000x64, .f32⟩
  | 24 => ⟨S50000x64, .f32⟩
  | 25 => ⟨S_, .f32⟩
  | 26 => ⟨S_, .f32⟩
  | 27 => ⟨S_, .f32⟩
  | 28 => ⟨S_, .f32⟩
  | 29 => ⟨S64, .f32⟩
  | 30 => ⟨S64, .f32⟩
  | 31 => ⟨S64, .f32⟩
  | 32 => ⟨S_, .f32⟩
  | 33 => ⟨S_, .i1⟩
  | 34 => ⟨S_, .f32⟩
  | 35 => ⟨S_, .f32⟩
  | 36 => ⟨S64, .f32⟩
  | 37 => ⟨S64, .f32⟩
  | 38 => ⟨S1x64, .f32⟩
  | 39 => ⟨S50000x64, .f32⟩
  | 40 => ⟨S50000x64, .f32⟩
  | 41 => ⟨S_, .f32⟩
  | 42 => ⟨S64, .f32⟩
  | 43 => ⟨S64, .f32⟩
  | 44 => ⟨S64, .f32⟩
  | 45 => ⟨S1x64, .f32⟩
  | 46 => ⟨S50000x64, .f32⟩
  | 47 => ⟨S50000x64, .f32⟩
  | 48 => ⟨S_, .f32⟩
  | 49 => ⟨S1x64, .f32⟩
  | 50 => ⟨S50001x64, .f32⟩
  | 51 => ⟨S_, .f32⟩
  | 52 => ⟨S50000x64, .f32⟩
  | 53 => ⟨S50000x1, .i32⟩
  | 54 => ⟨S50000, .i32⟩
  | 55 => ⟨S_, .i32⟩
  | 56 => ⟨S50000, .i32⟩
  | 57 => ⟨S50000, .i1⟩
  | 58 => ⟨S_, .i32⟩
  | 59 => ⟨S50000, .i32⟩
  | 60 => ⟨S50000, .i32⟩
  | 61 => ⟨S50000, .i32⟩
  | 62 => ⟨S50000x1, .i32⟩
  | 63 => ⟨S50000x64, .f32⟩
  | 64 => ⟨S1x64x64, .f32⟩
  | 65 => ⟨S64x64, .f32⟩
  | 66 => ⟨S50000x64, .f32⟩
  | 67 => ⟨S50000x64, .f32⟩
  | 68 => ⟨S50000x1, .i32⟩
  | 69 => ⟨S50000, .i32⟩
  | 70 => ⟨S_, .i32⟩
  | 71 => ⟨S50000, .i32⟩
  | 72 => ⟨S50000, .i1⟩
  | 73 => ⟨S_, .i32⟩
  | 74 => ⟨S50000, .i32⟩
  | 75 => ⟨S50000, .i32⟩
  | 76 => ⟨S50000, .i32⟩
  | 77 => ⟨S50000x1, .i32⟩
  | 78 => ⟨S50000x64, .f32⟩
  | 79 => ⟨S1x64x64, .f32⟩
  | 80 => ⟨S64x64, .f32⟩
  | 81 => ⟨S50000x64, .f32⟩
  | 82 => ⟨S50000x64, .f32⟩
  | 83 => ⟨S50000x1, .i32⟩
  | 84 => ⟨S50000, .i32⟩
  | 85 => ⟨S_, .i32⟩
  | 86 => ⟨S50000, .i32⟩
  | 87 => ⟨S50000, .i1⟩
  | 88 => ⟨S_, .i32⟩
  | 89 => ⟨S50000, .i32⟩
  | 90 => ⟨S50000, .i32⟩
  | 91 => ⟨S50000, .i32⟩
  | 92 => ⟨S50000x1, .i32⟩
  | 93 => ⟨S50000x64, .f32⟩
  | 94 => ⟨S1x64x64, .f32⟩
  | 95 => ⟨S64x64, .f32⟩
  | 96 => ⟨S50000x64, .f32⟩
  | 97 => ⟨S50000x64, .f32⟩
  | 98 => ⟨S50000x1, .i32⟩
  | 99 => ⟨S50000, .i32⟩
  | 100 => ⟨S_, .i32⟩
  | 101 => ⟨S50000, .i32⟩
  | 102 => ⟨S50000, .i1⟩
  | 103 => ⟨S_, .i32⟩
  | 104 => ⟨S50000, .i32⟩
  | 105 => ⟨S50000, .i32⟩
  | 106 => ⟨S50000, .i32⟩
  | 107 => ⟨S50000x1, .i32⟩
  | 108 => ⟨S50000x64, .f32⟩
  | 109 => ⟨S1x64x64, .f32⟩
  | 110 => ⟨S64x64, .f32⟩
  | 111 => ⟨S50000x64, .f32⟩
  | 112 => ⟨S50000x64, .f32⟩
  | 113 => ⟨S50000x1, .i32⟩
  | 114 => ⟨S50000, .i32⟩
  | 115 => ⟨S_, .i32⟩
  | 116 => ⟨S50000, .i32⟩
  | 117 => ⟨S50000, .i1⟩
  | 118 => ⟨S_, .i32⟩
  | 119 => ⟨S50000, .i32⟩
  | 120 => ⟨S50000, .i32⟩
  | 121 => ⟨S50000, .i32⟩
  | 122 => ⟨S50000x1, .i32⟩
  | 123 => ⟨S50000x64, .f32⟩
  | 124 => ⟨S1x64x64, .f32⟩
  | 125 => ⟨S64x64, .f32⟩
  | 126 => ⟨S50000x64, .f32⟩
  | 127 => ⟨S50000x64, .f32⟩
  | _ => ⟨S50000x256, .f32⟩

abbrev hbmTy0_8 (i : Nat) : BufTy := match i % 128 with
  | 0 => ⟨S50000x1, .i32⟩
  | 1 => ⟨S50000, .i32⟩
  | 2 => ⟨S_, .i32⟩
  | 3 => ⟨S50000, .i32⟩
  | 4 => ⟨S50000, .i1⟩
  | 5 => ⟨S_, .i32⟩
  | 6 => ⟨S50000, .i32⟩
  | 7 => ⟨S50000, .i32⟩
  | 8 => ⟨S50000, .i32⟩
  | 9 => ⟨S50000x1, .i32⟩
  | 10 => ⟨S50000x64, .f32⟩
  | 11 => ⟨S1x64x64, .f32⟩
  | 12 => ⟨S64x64, .f32⟩
  | 13 => ⟨S50000x64, .f32⟩
  | 14 => ⟨S50000x64, .f32⟩
  | 15 => ⟨S50000x1, .i32⟩
  | 16 => ⟨S50000, .i32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x64, .f32⟩
  | 26 => ⟨S1x64x64, .f32⟩
  | 27 => ⟨S64x64, .f32⟩
  | 28 => ⟨S50000x64, .f32⟩
  | 29 => ⟨S50000x64, .f32⟩
  | 30 => ⟨S50000x1, .i32⟩
  | 31 => ⟨S50000, .i32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S50000x64, .f32⟩
  | 41 => ⟨S1x64x64, .f32⟩
  | 42 => ⟨S64x64, .f32⟩
  | 43 => ⟨S50000x64, .f32⟩
  | 44 => ⟨S50000x64, .f32⟩
  | 45 => ⟨S50000x1, .i32⟩
  | 46 => ⟨S50000, .i32⟩
  | 47 => ⟨S_, .i32⟩
  | 48 => ⟨S50000, .i32⟩
  | 49 => ⟨S50000, .i1⟩
  | 50 => ⟨S_, .i32⟩
  | 51 => ⟨S50000, .i32⟩
  | 52 => ⟨S50000, .i32⟩
  | 53 => ⟨S50000, .i32⟩
  | 54 => ⟨S50000x1, .i32⟩
  | 55 => ⟨S50000x64, .f32⟩
  | 56 => ⟨S1x64x64, .f32⟩
  | 57 => ⟨S64x64, .f32⟩
  | 58 => ⟨S50000x64, .f32⟩
  | 59 => ⟨S50000x64, .f32⟩
  | 60 => ⟨S_, .f32⟩
  | 61 => ⟨S_, .f32⟩
  | 62 => ⟨S50000x64, .f32⟩
  | 63 => ⟨S50000x64, .i1⟩
  | 64 => ⟨S_, .f32⟩
  | 65 => ⟨S50000x64, .f32⟩
  | 66 => ⟨S50000x64, .f32⟩
  | 67 => ⟨S50000x64, .f32⟩
  | 68 => ⟨S_, .f32⟩
  | 69 => ⟨S64, .f32⟩
  | 70 => ⟨S_, .f32⟩
  | 71 => ⟨S64, .f32⟩
  | 72 => ⟨S64, .f32⟩
  | 73 => ⟨S_, .i32⟩
  | 74 => ⟨S_, .f32⟩
  | 75 => ⟨S64, .f32⟩
  | 76 => ⟨S1x64, .f32⟩
  | 77 => ⟨S_, .f32⟩
  | 78 => ⟨S1x64, .f32⟩
  | 79 => ⟨S1x64, .f32⟩
  | 80 => ⟨S50000x64, .f32⟩
  | 81 => ⟨S50000x64, .f32⟩
  | 82 => ⟨S50000x64, .f32⟩
  | 83 => ⟨S_, .f32⟩
  | 84 => ⟨S_, .f32⟩
  | 85 => ⟨S_, .f32⟩
  | 86 => ⟨S_, .f32⟩
  | 87 => ⟨S64, .f32⟩
  | 88 => ⟨S64, .f32⟩
  | 89 => ⟨S64, .f32⟩
  | 90 => ⟨S_, .f32⟩
  | 91 => ⟨S_, .i1⟩
  | 92 => ⟨S_, .f32⟩
  | 93 => ⟨S_, .f32⟩
  | 94 => ⟨S64, .f32⟩
  | 95 => ⟨S64, .f32⟩
  | 96 => ⟨S1x64, .f32⟩
  | 97 => ⟨S50000x64, .f32⟩
  | 98 => ⟨S50000x64, .f32⟩
  | 99 => ⟨S_, .f32⟩
  | 100 => ⟨S64, .f32⟩
  | 101 => ⟨S64, .f32⟩
  | 102 => ⟨S64, .f32⟩
  | 103 => ⟨S1x64, .f32⟩
  | 104 => ⟨S50000x64, .f32⟩
  | 105 => ⟨S50000x64, .f32⟩
  | 106 => ⟨S_, .f32⟩
  | 107 => ⟨S1x32, .f32⟩
  | 108 => ⟨S50001x32, .f32⟩
  | 109 => ⟨S_, .f32⟩
  | 110 => ⟨S50000x64, .f32⟩
  | 111 => ⟨S50000x1, .i32⟩
  | 112 => ⟨S50000, .i32⟩
  | 113 => ⟨S_, .i32⟩
  | 114 => ⟨S50000, .i32⟩
  | 115 => ⟨S50000, .i1⟩
  | 116 => ⟨S_, .i32⟩
  | 117 => ⟨S50000, .i32⟩
  | 118 => ⟨S50000, .i32⟩
  | 119 => ⟨S50000, .i32⟩
  | 120 => ⟨S50000x1, .i32⟩
  | 121 => ⟨S50000x32, .f32⟩
  | 122 => ⟨S1x32x64, .f32⟩
  | 123 => ⟨S32x64, .f32⟩
  | 124 => ⟨S50000x64, .f32⟩
  | 125 => ⟨S50000x64, .f32⟩
  | 126 => ⟨S50000x1, .i32⟩
  | 127 => ⟨S50000, .i32⟩
  | _ => ⟨S50000x256, .f32⟩

abbrev hbmTy0_9 (i : Nat) : BufTy := match i % 128 with
  | 0 => ⟨S_, .i32⟩
  | 1 => ⟨S50000, .i32⟩
  | 2 => ⟨S50000, .i1⟩
  | 3 => ⟨S_, .i32⟩
  | 4 => ⟨S50000, .i32⟩
  | 5 => ⟨S50000, .i32⟩
  | 6 => ⟨S50000, .i32⟩
  | 7 => ⟨S50000x1, .i32⟩
  | 8 => ⟨S50000x32, .f32⟩
  | 9 => ⟨S1x32x64, .f32⟩
  | 10 => ⟨S32x64, .f32⟩
  | 11 => ⟨S50000x64, .f32⟩
  | 12 => ⟨S50000x64, .f32⟩
  | 13 => ⟨S50000x1, .i32⟩
  | 14 => ⟨S50000, .i32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x32, .f32⟩
  | 24 => ⟨S1x32x64, .f32⟩
  | 25 => ⟨S32x64, .f32⟩
  | 26 => ⟨S50000x64, .f32⟩
  | 27 => ⟨S50000x64, .f32⟩
  | 28 => ⟨S50000x1, .i32⟩
  | 29 => ⟨S50000, .i32⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S50000x32, .f32⟩
  | 39 => ⟨S1x32x64, .f32⟩
  | 40 => ⟨S32x64, .f32⟩
  | 41 => ⟨S50000x64, .f32⟩
  | 42 => ⟨S50000x64, .f32⟩
  | 43 => ⟨S50000x1, .i32⟩
  | 44 => ⟨S50000, .i32⟩
  | 45 => ⟨S_, .i32⟩
  | 46 => ⟨S50000, .i32⟩
  | 47 => ⟨S50000, .i1⟩
  | 48 => ⟨S_, .i32⟩
  | 49 => ⟨S50000, .i32⟩
  | 50 => ⟨S50000, .i32⟩
  | 51 => ⟨S50000, .i32⟩
  | 52 => ⟨S50000x1, .i32⟩
  | 53 => ⟨S50000x32, .f32⟩
  | 54 => ⟨S1x32x64, .f32⟩
  | 55 => ⟨S32x64, .f32⟩
  | 56 => ⟨S50000x64, .f32⟩
  | 57 => ⟨S50000x64, .f32⟩
  | 58 => ⟨S50000x1, .i32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S50000x32, .f32⟩
  | 69 => ⟨S1x32x64, .f32⟩
  | 70 => ⟨S32x64, .f32⟩
  | 71 => ⟨S50000x64, .f32⟩
  | 72 => ⟨S50000x64, .f32⟩
  | 73 => ⟨S50000x1, .i32⟩
  | 74 => ⟨S50000, .i32⟩
  | 75 => ⟨S_, .i32⟩
  | 76 => ⟨S50000, .i32⟩
  | 77 => ⟨S50000, .i1⟩
  | 78 => ⟨S_, .i32⟩
  | 79 => ⟨S50000, .i32⟩
  | 80 => ⟨S50000, .i32⟩
  | 81 => ⟨S50000, .i32⟩
  | 82 => ⟨S50000x1, .i32⟩
  | 83 => ⟨S50000x32, .f32⟩
  | 84 => ⟨S1x32x64, .f32⟩
  | 85 => ⟨S32x64, .f32⟩
  | 86 => ⟨S50000x64, .f32⟩
  | 87 => ⟨S50000x64, .f32⟩
  | 88 => ⟨S50000x1, .i32⟩
  | 89 => ⟨S50000, .i32⟩
  | 90 => ⟨S_, .i32⟩
  | 91 => ⟨S50000, .i32⟩
  | 92 => ⟨S50000, .i1⟩
  | 93 => ⟨S_, .i32⟩
  | 94 => ⟨S50000, .i32⟩
  | 95 => ⟨S50000, .i32⟩
  | 96 => ⟨S50000, .i32⟩
  | 97 => ⟨S50000x1, .i32⟩
  | 98 => ⟨S50000x32, .f32⟩
  | 99 => ⟨S1x32x64, .f32⟩
  | 100 => ⟨S32x64, .f32⟩
  | 101 => ⟨S50000x64, .f32⟩
  | 102 => ⟨S50000x64, .f32⟩
  | 103 => ⟨S50000x1, .i32⟩
  | 104 => ⟨S50000, .i32⟩
  | 105 => ⟨S_, .i32⟩
  | 106 => ⟨S50000, .i32⟩
  | 107 => ⟨S50000, .i1⟩
  | 108 => ⟨S_, .i32⟩
  | 109 => ⟨S50000, .i32⟩
  | 110 => ⟨S50000, .i32⟩
  | 111 => ⟨S50000, .i32⟩
  | 112 => ⟨S50000x1, .i32⟩
  | 113 => ⟨S50000x32, .f32⟩
  | 114 => ⟨S1x32x64, .f32⟩
  | 115 => ⟨S32x64, .f32⟩
  | 116 => ⟨S50000x64, .f32⟩
  | 117 => ⟨S50000x64, .f32⟩
  | 118 => ⟨S_, .f32⟩
  | 119 => ⟨S_, .f32⟩
  | 120 => ⟨S50000x64, .f32⟩
  | 121 => ⟨S50000x64, .i1⟩
  | 122 => ⟨S_, .f32⟩
  | 123 => ⟨S50000x64, .f32⟩
  | 124 => ⟨S50000x64, .f32⟩
  | 125 => ⟨S50000x64, .f32⟩
  | 126 => ⟨S_, .f32⟩
  | 127 => ⟨S64, .f32⟩
  | _ => ⟨S50000x256, .f32⟩

abbrev hbmTy0_10 (i : Nat) : BufTy := match i % 128 with
  | 0 => ⟨S_, .f32⟩
  | 1 => ⟨S64, .f32⟩
  | 2 => ⟨S64, .f32⟩
  | 3 => ⟨S_, .i32⟩
  | 4 => ⟨S_, .f32⟩
  | 5 => ⟨S64, .f32⟩
  | 6 => ⟨S1x64, .f32⟩
  | 7 => ⟨S_, .f32⟩
  | 8 => ⟨S1x64, .f32⟩
  | 9 => ⟨S1x64, .f32⟩
  | 10 => ⟨S50000x64, .f32⟩
  | 11 => ⟨S50000x64, .f32⟩
  | 12 => ⟨S50000x64, .f32⟩
  | 13 => ⟨S_, .f32⟩
  | 14 => ⟨S_, .f32⟩
  | 15 => ⟨S_, .f32⟩
  | 16 => ⟨S_, .f32⟩
  | 17 => ⟨S64, .f32⟩
  | 18 => ⟨S64, .f32⟩
  | 19 => ⟨S64, .f32⟩
  | 20 => ⟨S_, .f32⟩
  | 21 => ⟨S_, .i1⟩
  | 22 => ⟨S_, .f32⟩
  | 23 => ⟨S_, .f32⟩
  | 24 => ⟨S64, .f32⟩
  | 25 => ⟨S64, .f32⟩
  | 26 => ⟨S1x64, .f32⟩
  | 27 => ⟨S50000x64, .f32⟩
  | 28 => ⟨S50000x64, .f32⟩
  | 29 => ⟨S_, .f32⟩
  | 30 => ⟨S64, .f32⟩
  | 31 => ⟨S64, .f32⟩
  | 32 => ⟨S64, .f32⟩
  | 33 => ⟨S1x64, .f32⟩
  | 34 => ⟨S50000x64, .f32⟩
  | 35 => ⟨S50000x64, .f32⟩
  | 36 => ⟨S_, .f32⟩
  | 37 => ⟨S1x64, .f32⟩
  | 38 => ⟨S50001x64, .f32⟩
  | 39 => ⟨S_, .f32⟩
  | 40 => ⟨S50000x64, .f32⟩
  | 41 => ⟨S50000x1, .i32⟩
  | 42 => ⟨S50000, .i32⟩
  | 43 => ⟨S_, .i32⟩
  | 44 => ⟨S50000, .i32⟩
  | 45 => ⟨S50000, .i1⟩
  | 46 => ⟨S_, .i32⟩
  | 47 => ⟨S50000, .i32⟩
  | 48 => ⟨S50000, .i32⟩
  | 49 => ⟨S50000, .i32⟩
  | 50 => ⟨S50000x1, .i32⟩
  | 51 => ⟨S50000x64, .f32⟩
  | 52 => ⟨S1x64x64, .f32⟩
  | 53 => ⟨S64x64, .f32⟩
  | 54 => ⟨S50000x64, .f32⟩
  | 55 => ⟨S50000x64, .f32⟩
  | 56 => ⟨S50000x1, .i32⟩
  | 57 => ⟨S50000, .i32⟩
  | 58 => ⟨S_, .i32⟩
  | 59 => ⟨S50000, .i32⟩
  | 60 => ⟨S50000, .i1⟩
  | 61 => ⟨S_, .i32⟩
  | 62 => ⟨S50000, .i32⟩
  | 63 => ⟨S50000, .i32⟩
  | 64 => ⟨S50000, .i32⟩
  | 65 => ⟨S50000x1, .i32⟩
  | 66 => ⟨S50000x64, .f32⟩
  | 67 => ⟨S1x64x64, .f32⟩
  | 68 => ⟨S64x64, .f32⟩
  | 69 => ⟨S50000x64, .f32⟩
  | 70 => ⟨S50000x64, .f32⟩
  | 71 => ⟨S50000x1, .i32⟩
  | 72 => ⟨S50000, .i32⟩
  | 73 => ⟨S_, .i32⟩
  | 74 => ⟨S50000, .i32⟩
  | 75 => ⟨S50000, .i1⟩
  | 76 => ⟨S_, .i32⟩
  | 77 => ⟨S50000, .i32⟩
  | 78 => ⟨S50000, .i32⟩
  | 79 => ⟨S50000, .i32⟩
  | 80 => ⟨S50000x1, .i32⟩
  | 81 => ⟨S50000x64, .f32⟩
  | 82 => ⟨S1x64x64, .f32⟩
  | 83 => ⟨S64x64, .f32⟩
  | 84 => ⟨S50000x64, .f32⟩
  | 85 => ⟨S50000x64, .f32⟩
  | 86 => ⟨S50000x1, .i32⟩
  | 87 => ⟨S50000, .i32⟩
  | 88 => ⟨S_, .i32⟩
  | 89 => ⟨S50000, .i32⟩
  | 90 => ⟨S50000, .i1⟩
  | 91 => ⟨S_, .i32⟩
  | 92 => ⟨S50000, .i32⟩
  | 93 => ⟨S50000, .i32⟩
  | 94 => ⟨S50000, .i32⟩
  | 95 => ⟨S50000x1, .i32⟩
  | 96 => ⟨S50000x64, .f32⟩
  | 97 => ⟨S1x64x64, .f32⟩
  | 98 => ⟨S64x64, .f32⟩
  | 99 => ⟨S50000x64, .f32⟩
  | 100 => ⟨S50000x64, .f32⟩
  | 101 => ⟨S50000x1, .i32⟩
  | 102 => ⟨S50000, .i32⟩
  | 103 => ⟨S_, .i32⟩
  | 104 => ⟨S50000, .i32⟩
  | 105 => ⟨S50000, .i1⟩
  | 106 => ⟨S_, .i32⟩
  | 107 => ⟨S50000, .i32⟩
  | 108 => ⟨S50000, .i32⟩
  | 109 => ⟨S50000, .i32⟩
  | 110 => ⟨S50000x1, .i32⟩
  | 111 => ⟨S50000x64, .f32⟩
  | 112 => ⟨S1x64x64, .f32⟩
  | 113 => ⟨S64x64, .f32⟩
  | 114 => ⟨S50000x64, .f32⟩
  | 115 => ⟨S50000x64, .f32⟩
  | 116 => ⟨S50000x1, .i32⟩
  | 117 => ⟨S50000, .i32⟩
  | 118 => ⟨S_, .i32⟩
  | 119 => ⟨S50000, .i32⟩
  | 120 => ⟨S50000, .i1⟩
  | 121 => ⟨S_, .i32⟩
  | 122 => ⟨S50000, .i32⟩
  | 123 => ⟨S50000, .i32⟩
  | 124 => ⟨S50000, .i32⟩
  | 125 => ⟨S50000x1, .i32⟩
  | 126 => ⟨S50000x64, .f32⟩
  | 127 => ⟨S1x64x64, .f32⟩
  | _ => ⟨S50000x256, .f32⟩

abbrev hbmTy0_11 (i : Nat) : BufTy := match i % 128 with
  | 0 => ⟨S64x64, .f32⟩
  | 1 => ⟨S50000x64, .f32⟩
  | 2 => ⟨S50000x64, .f32⟩
  | 3 => ⟨S50000x1, .i32⟩
  | 4 => ⟨S50000, .i32⟩
  | 5 => ⟨S_, .i32⟩
  | 6 => ⟨S50000, .i32⟩
  | 7 => ⟨S50000, .i1⟩
  | 8 => ⟨S_, .i32⟩
  | 9 => ⟨S50000, .i32⟩
  | 10 => ⟨S50000, .i32⟩
  | 11 => ⟨S50000, .i32⟩
  | 12 => ⟨S50000x1, .i32⟩
  | 13 => ⟨S50000x64, .f32⟩
  | 14 => ⟨S1x64x64, .f32⟩
  | 15 => ⟨S64x64, .f32⟩
  | 16 => ⟨S50000x64, .f32⟩
  | 17 => ⟨S50000x64, .f32⟩
  | 18 => ⟨S50000x1, .i32⟩
  | 19 => ⟨S50000, .i32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S50000x64, .f32⟩
  | 29 => ⟨S1x64x64, .f32⟩
  | 30 => ⟨S64x64, .f32⟩
  | 31 => ⟨S50000x64, .f32⟩
  | 32 => ⟨S50000x64, .f32⟩
  | 33 => ⟨S50000x1, .i32⟩
  | 34 => ⟨S50000, .i32⟩
  | 35 => ⟨S_, .i32⟩
  | 36 => ⟨S50000, .i32⟩
  | 37 => ⟨S50000, .i1⟩
  | 38 => ⟨S_, .i32⟩
  | 39 => ⟨S50000, .i32⟩
  | 40 => ⟨S50000, .i32⟩
  | 41 => ⟨S50000, .i32⟩
  | 42 => ⟨S50000x1, .i32⟩
  | 43 => ⟨S50000x64, .f32⟩
  | 44 => ⟨S1x64x64, .f32⟩
  | 45 => ⟨S64x64, .f32⟩
  | 46 => ⟨S50000x64, .f32⟩
  | 47 => ⟨S50000x64, .f32⟩
  | 48 => ⟨S_, .f32⟩
  | 49 => ⟨S_, .f32⟩
  | 50 => ⟨S50000x64, .f32⟩
  | 51 => ⟨S50000x64, .i1⟩
  | 52 => ⟨S_, .f32⟩
  | 53 => ⟨S50000x64, .f32⟩
  | 54 => ⟨S50000x64, .f32⟩
  | 55 => ⟨S50000x64, .f32⟩
  | 56 => ⟨S_, .f32⟩
  | 57 => ⟨S64, .f32⟩
  | 58 => ⟨S_, .f32⟩
  | 59 => ⟨S64, .f32⟩
  | 60 => ⟨S64, .f32⟩
  | 61 => ⟨S_, .i32⟩
  | 62 => ⟨S_, .f32⟩
  | 63 => ⟨S64, .f32⟩
  | 64 => ⟨S1x64, .f32⟩
  | 65 => ⟨S_, .f32⟩
  | 66 => ⟨S1x64, .f32⟩
  | 67 => ⟨S1x64, .f32⟩
  | 68 => ⟨S50000x64, .f32⟩
  | 69 => ⟨S50000x64, .f32⟩
  | 70 => ⟨S50000x64, .f32⟩
  | 71 => ⟨S_, .f32⟩
  | 72 => ⟨S_, .f32⟩
  | 73 => ⟨S_, .f32⟩
  | 74 => ⟨S_, .f32⟩
  | 75 => ⟨S64, .f32⟩
  | 76 => ⟨S64, .f32⟩
  | 77 => ⟨S64, .f32⟩
  | 78 => ⟨S_, .f32⟩
  | 79 => ⟨S_, .i1⟩
  | 80 => ⟨S_, .f32⟩
  | 81 => ⟨S_, .f32⟩
  | 82 => ⟨S64, .f32⟩
  | 83 => ⟨S64, .f32⟩
  | 84 => ⟨S1x64, .f32⟩
  | 85 => ⟨S50000x64, .f32⟩
  | 86 => ⟨S50000x64, .f32⟩
  | 87 => ⟨S_, .f32⟩
  | 88 => ⟨S64, .f32⟩
  | 89 => ⟨S64, .f32⟩
  | 90 => ⟨S64, .f32⟩
  | 91 => ⟨S1x64, .f32⟩
  | 92 => ⟨S50000x64, .f32⟩
  | 93 => ⟨S50000x64, .f32⟩
  | 94 => ⟨S50000x64, .f32⟩
  | 95 => ⟨S_, .f32⟩
  | 96 => ⟨S1x64, .f32⟩
  | 97 => ⟨S50001x64, .f32⟩
  | 98 => ⟨S_, .f32⟩
  | 99 => ⟨S122811x64, .f32⟩
  | 100 => ⟨S122811x1, .i32⟩
  | 101 => ⟨S122811, .i32⟩
  | 102 => ⟨S_, .i32⟩
  | 103 => ⟨S122811, .i32⟩
  | 104 => ⟨S122811, .i1⟩
  | 105 => ⟨S_, .i32⟩
  | 106 => ⟨S122811, .i32⟩
  | 107 => ⟨S122811, .i32⟩
  | 108 => ⟨S122811, .i32⟩
  | 109 => ⟨S122811x1, .i32⟩
  | 110 => ⟨S122811x64, .f32⟩
  | 111 => ⟨S1x64x64, .f32⟩
  | 112 => ⟨S64x64, .f32⟩
  | 113 => ⟨S122811x64, .f32⟩
  | 114 => ⟨S122811x64, .f32⟩
  | 115 => ⟨S122811x1, .i32⟩
  | 116 => ⟨S122811, .i32⟩
  | 117 => ⟨S_, .i32⟩
  | 118 => ⟨S122811, .i32⟩
  | 119 => ⟨S122811, .i1⟩
  | 120 => ⟨S_, .i32⟩
  | 121 => ⟨S122811, .i32⟩
  | 122 => ⟨S122811, .i32⟩
  | 123 => ⟨S122811, .i32⟩
  | 124 => ⟨S122811x1, .i32⟩
  | 125 => ⟨S122811x64, .f32⟩
  | 126 => ⟨S1x64x64, .f32⟩
  | 127 => ⟨S64x64, .f32⟩
  | _ => ⟨S50000x256, .f32⟩

abbrev hbmTy0_12 (i : Nat) : BufTy := match i % 128 with
  | 0 => ⟨S122811x64, .f32⟩
  | 1 => ⟨S122811x64, .f32⟩
  | 2 => ⟨S122811x1, .i32⟩
  | 3 => ⟨S122811, .i32⟩
  | 4 => ⟨S_, .i32⟩
  | 5 => ⟨S122811, .i32⟩
  | 6 => ⟨S122811, .i1⟩
  | 7 => ⟨S_, .i32⟩
  | 8 => ⟨S122811, .i32⟩
  | 9 => ⟨S122811, .i32⟩
  | 10 => ⟨S122811, .i32⟩
  | 11 => ⟨S122811x1, .i32⟩
  | 12 => ⟨S122811x64, .f32⟩
  | 13 => ⟨S1x64x64, .f32⟩
  | 14 => ⟨S64x64, .f32⟩
  | 15 => ⟨S122811x64, .f32⟩
  | 16 => ⟨S122811x64, .f32⟩
  | 17 => ⟨S122811x1, .i32⟩
  | 18 => ⟨S122811, .i32⟩
  | 19 => ⟨S_, .i32⟩
  | 20 => ⟨S122811, .i32⟩
  | 21 => ⟨S122811, .i1⟩
  | 22 => ⟨S_, .i32⟩
  | 23 => ⟨S122811, .i32⟩
  | 24 => ⟨S122811, .i32⟩
  | 25 => ⟨S122811, .i32⟩
  | 26 => ⟨S122811x1, .i32⟩
  | 27 => ⟨S122811x64, .f32⟩
  | 28 => ⟨S1x64x64, .f32⟩
  | 29 => ⟨S64x64, .f32⟩
  | 30 => ⟨S122811x64, .f32⟩
  | 31 => ⟨S122811x64, .f32⟩
  | 32 => ⟨S122811x1, .i32⟩
  | 33 => ⟨S122811, .i32⟩
  | 34 => ⟨S_, .i32⟩
  | 35 => ⟨S122811, .i32⟩
  | 36 => ⟨S122811, .i1⟩
  | 37 => ⟨S_, .i32⟩
  | 38 => ⟨S122811, .i32⟩
  | 39 => ⟨S122811, .i32⟩
  | 40 => ⟨S122811, .i32⟩
  | 41 => ⟨S122811x1, .i32⟩
  | 42 => ⟨S122811x64, .f32⟩
  | 43 => ⟨S1x64x64, .f32⟩
  | 44 => ⟨S64x64, .f32⟩
  | 45 => ⟨S122811x64, .f32⟩
  | 46 => ⟨S122811x64, .f32⟩
  | 47 => ⟨S122811x1, .i32⟩
  | 48 => ⟨S122811, .i32⟩
  | 49 => ⟨S_, .i32⟩
  | 50 => ⟨S122811, .i32⟩
  | 51 => ⟨S122811, .i1⟩
  | 52 => ⟨S_, .i32⟩
  | 53 => ⟨S122811, .i32⟩
  | 54 => ⟨S122811, .i32⟩
  | 55 => ⟨S122811, .i32⟩
  | 56 => ⟨S122811x1, .i32⟩
  | 57 => ⟨S122811x64, .f32⟩
  | 58 => ⟨S1x64x64, .f32⟩
  | 59 => ⟨S64x64, .f32⟩
  | 60 => ⟨S122811x64, .f32⟩
  | 61 => ⟨S122811x64, .f32⟩
  | 62 => ⟨S122811x1, .i32⟩
  | 63 => ⟨S122811, .i32⟩
  | 64 => ⟨S_, .i32⟩
  | 65 => ⟨S122811, .i32⟩
  | 66 => ⟨S122811, .i1⟩
  | 67 => ⟨S_, .i32⟩
  | 68 => ⟨S122811, .i32⟩
  | 69 => ⟨S122811, .i32⟩
  | 70 => ⟨S122811, .i32⟩
  | 71 => ⟨S122811x1, .i32⟩
  | 72 => ⟨S122811x64, .f32⟩
  | 73 => ⟨S1x64x64, .f32⟩
  | 74 => ⟨S64x64, .f32⟩
  | 75 => ⟨S122811x64, .f32⟩
  | 76 => ⟨S122811x64, .f32⟩
  | 77 => ⟨S122811x1, .i32⟩
  | 78 => ⟨S122811, .i32⟩
  | 79 => ⟨S_, .i32⟩
  | 80 => ⟨S122811, .i32⟩
  | 81 => ⟨S122811, .i1⟩
  | 82 => ⟨S_, .i32⟩
  | 83 => ⟨S122811, .i32⟩
  | 84 => ⟨S122811, .i32⟩
  | 85 => ⟨S122811, .i32⟩
  | 86 => ⟨S122811x1, .i32⟩
  | 87 => ⟨S122811x64, .f32⟩
  | 88 => ⟨S1x64x64, .f32⟩
  | 89 => ⟨S64x64, .f32⟩
  | 90 => ⟨S122811x64, .f32⟩
  | 91 => ⟨S122811x64, .f32⟩
  | 92 => ⟨S122811x1, .i32⟩
  | 93 => ⟨S122811, .i32⟩
  | 94 => ⟨S_, .i32⟩
  | 95 => ⟨S122811, .i32⟩
  | 96 => ⟨S122811, .i1⟩
  | 97 => ⟨S_, .i32⟩
  | 98 => ⟨S122811, .i32⟩
  | 99 => ⟨S122811, .i32⟩
  | 100 => ⟨S122811, .i32⟩
  | 101 => ⟨S122811x1, .i32⟩
  | 102 => ⟨S122811x64, .f32⟩
  | 103 => ⟨S1x64x64, .f32⟩
  | 104 => ⟨S64x64, .f32⟩
  | 105 => ⟨S122811x64, .f32⟩
  | 106 => ⟨S122811x64, .f32⟩
  | 107 => ⟨S122811x1, .i32⟩
  | 108 => ⟨S122811, .i32⟩
  | 109 => ⟨S_, .i32⟩
  | 110 => ⟨S122811, .i32⟩
  | 111 => ⟨S122811, .i1⟩
  | 112 => ⟨S_, .i32⟩
  | 113 => ⟨S122811, .i32⟩
  | 114 => ⟨S122811, .i32⟩
  | 115 => ⟨S122811, .i32⟩
  | 116 => ⟨S122811x1, .i32⟩
  | 117 => ⟨S122811x64, .f32⟩
  | 118 => ⟨S1x64x64, .f32⟩
  | 119 => ⟨S64x64, .f32⟩
  | 120 => ⟨S122811x64, .f32⟩
  | 121 => ⟨S122811x64, .f32⟩
  | 122 => ⟨S122811x1, .i32⟩
  | 123 => ⟨S122811, .i32⟩
  | 124 => ⟨S_, .i32⟩
  | 125 => ⟨S122811, .i32⟩
  | 126 => ⟨S122811, .i1⟩
  | 127 => ⟨S_, .i32⟩
  | _ => ⟨S50000x256, .f32⟩

abbrev hbmTy0_13 (i : Nat) : BufTy := match i % 128 with
  | 0 => ⟨S122811, .i32⟩
  | 1 => ⟨S122811, .i32⟩
  | 2 => ⟨S122811, .i32⟩
  | 3 => ⟨S122811x1, .i32⟩
  | 4 => ⟨S122811x64, .f32⟩
  | 5 => ⟨S1x64x64, .f32⟩
  | 6 => ⟨S64x64, .f32⟩
  | 7 => ⟨S122811x64, .f32⟩
  | 8 => ⟨S122811x64, .f32⟩
  | 9 => ⟨S122811x1, .i32⟩
  | 10 => ⟨S122811, .i32⟩
  | 11 => ⟨S_, .i32⟩
  | 12 => ⟨S122811, .i32⟩
  | 13 => ⟨S122811, .i1⟩
  | 14 => ⟨S_, .i32⟩
  | 15 => ⟨S122811, .i32⟩
  | 16 => ⟨S122811, .i32⟩
  | 17 => ⟨S122811, .i32⟩
  | 18 => ⟨S122811x1, .i32⟩
  | 19 => ⟨S122811x64, .f32⟩
  | 20 => ⟨S1x64x64, .f32⟩
  | 21 => ⟨S64x64, .f32⟩
  | 22 => ⟨S122811x64, .f32⟩
  | 23 => ⟨S122811x64, .f32⟩
  | 24 => ⟨S122811x1, .i32⟩
  | 25 => ⟨S122811, .i32⟩
  | 26 => ⟨S_, .i32⟩
  | 27 => ⟨S122811, .i32⟩
  | 28 => ⟨S122811, .i1⟩
  | 29 => ⟨S_, .i32⟩
  | 30 => ⟨S122811, .i32⟩
  | 31 => ⟨S122811, .i32⟩
  | 32 => ⟨S122811, .i32⟩
  | 33 => ⟨S122811x1, .i32⟩
  | 34 => ⟨S122811x64, .f32⟩
  | 35 => ⟨S1x64x64, .f32⟩
  | 36 => ⟨S64x64, .f32⟩
  | 37 => ⟨S122811x64, .f32⟩
  | 38 => ⟨S122811x64, .f32⟩
  | 39 => ⟨S122811x1, .i32⟩
  | 40 => ⟨S122811, .i32⟩
  | 41 => ⟨S_, .i32⟩
  | 42 => ⟨S122811, .i32⟩
  | 43 => ⟨S122811, .i1⟩
  | 44 => ⟨S_, .i32⟩
  | 45 => ⟨S122811, .i32⟩
  | 46 => ⟨S122811, .i32⟩
  | 47 => ⟨S122811, .i32⟩
  | 48 => ⟨S122811x1, .i32⟩
  | 49 => ⟨S122811x64, .f32⟩
  | 50 => ⟨S1x64x64, .f32⟩
  | 51 => ⟨S64x64, .f32⟩
  | 52 => ⟨S122811x64, .f32⟩
  | 53 => ⟨S122811x64, .f32⟩
  | 54 => ⟨S122811x1, .i32⟩
  | 55 => ⟨S122811, .i32⟩
  | 56 => ⟨S_, .i32⟩
  | 57 => ⟨S122811, .i32⟩
  | 58 => ⟨S122811, .i1⟩
  | 59 => ⟨S_, .i32⟩
  | 60 => ⟨S122811, .i32⟩
  | 61 => ⟨S122811, .i32⟩
  | 62 => ⟨S122811, .i32⟩
  | 63 => ⟨S122811x1, .i32⟩
  | 64 => ⟨S122811x64, .f32⟩
  | 65 => ⟨S1x64x64, .f32⟩
  | 66 => ⟨S64x64, .f32⟩
  | 67 => ⟨S122811x64, .f32⟩
  | 68 => ⟨S122811x64, .f32⟩
  | 69 => ⟨S122811x1, .i32⟩
  | 70 => ⟨S122811, .i32⟩
  | 71 => ⟨S_, .i32⟩
  | 72 => ⟨S122811, .i32⟩
  | 73 => ⟨S122811, .i1⟩
  | 74 => ⟨S_, .i32⟩
  | 75 => ⟨S122811, .i32⟩
  | 76 => ⟨S122811, .i32⟩
  | 77 => ⟨S122811, .i32⟩
  | 78 => ⟨S122811x1, .i32⟩
  | 79 => ⟨S122811x64, .f32⟩
  | 80 => ⟨S1x64x64, .f32⟩
  | 81 => ⟨S64x64, .f32⟩
  | 82 => ⟨S122811x64, .f32⟩
  | 83 => ⟨S122811x64, .f32⟩
  | 84 => ⟨S122811x1, .i32⟩
  | 85 => ⟨S122811, .i32⟩
  | 86 => ⟨S_, .i32⟩
  | 87 => ⟨S122811, .i32⟩
  | 88 => ⟨S122811, .i1⟩
  | 89 => ⟨S_, .i32⟩
  | 90 => ⟨S122811, .i32⟩
  | 91 => ⟨S122811, .i32⟩
  | 92 => ⟨S122811, .i32⟩
  | 93 => ⟨S122811x1, .i32⟩
  | 94 => ⟨S122811x64, .f32⟩
  | 95 => ⟨S1x64x64, .f32⟩
  | 96 => ⟨S64x64, .f32⟩
  | 97 => ⟨S122811x64, .f32⟩
  | 98 => ⟨S122811x64, .f32⟩
  | 99 => ⟨S122811x1, .i32⟩
  | 100 => ⟨S122811, .i32⟩
  | 101 => ⟨S_, .i32⟩
  | 102 => ⟨S122811, .i32⟩
  | 103 => ⟨S122811, .i1⟩
  | 104 => ⟨S_, .i32⟩
  | 105 => ⟨S122811, .i32⟩
  | 106 => ⟨S122811, .i32⟩
  | 107 => ⟨S122811, .i32⟩
  | 108 => ⟨S122811x1, .i32⟩
  | 109 => ⟨S122811x64, .f32⟩
  | 110 => ⟨S1x64x64, .f32⟩
  | 111 => ⟨S64x64, .f32⟩
  | 112 => ⟨S122811x64, .f32⟩
  | 113 => ⟨S122811x64, .f32⟩
  | 114 => ⟨S122811x1, .i32⟩
  | 115 => ⟨S122811, .i32⟩
  | 116 => ⟨S_, .i32⟩
  | 117 => ⟨S122811, .i32⟩
  | 118 => ⟨S122811, .i1⟩
  | 119 => ⟨S_, .i32⟩
  | 120 => ⟨S122811, .i32⟩
  | 121 => ⟨S122811, .i32⟩
  | 122 => ⟨S122811, .i32⟩
  | 123 => ⟨S122811x1, .i32⟩
  | 124 => ⟨S122811x64, .f32⟩
  | 125 => ⟨S1x64x64, .f32⟩
  | 126 => ⟨S64x64, .f32⟩
  | 127 => ⟨S122811x64, .f32⟩
  | _ => ⟨S50000x256, .f32⟩

abbrev hbmTy0_14 (i : Nat) : BufTy := match i % 128 with
  | 0 => ⟨S122811x64, .f32⟩
  | 1 => ⟨S122811x1, .i32⟩
  | 2 => ⟨S122811, .i32⟩
  | 3 => ⟨S_, .i32⟩
  | 4 => ⟨S122811, .i32⟩
  | 5 => ⟨S122811, .i1⟩
  | 6 => ⟨S_, .i32⟩
  | 7 => ⟨S122811, .i32⟩
  | 8 => ⟨S122811, .i32⟩
  | 9 => ⟨S122811, .i32⟩
  | 10 => ⟨S122811x1, .i32⟩
  | 11 => ⟨S122811x64, .f32⟩
  | 12 => ⟨S1x64x64, .f32⟩
  | 13 => ⟨S64x64, .f32⟩
  | 14 => ⟨S122811x64, .f32⟩
  | 15 => ⟨S122811x64, .f32⟩
  | 16 => ⟨S122811x1, .i32⟩
  | 17 => ⟨S122811, .i32⟩
  | 18 => ⟨S_, .i32⟩
  | 19 => ⟨S122811, .i32⟩
  | 20 => ⟨S122811, .i1⟩
  | 21 => ⟨S_, .i32⟩
  | 22 => ⟨S122811, .i32⟩
  | 23 => ⟨S122811, .i32⟩
  | 24 => ⟨S122811, .i32⟩
  | 25 => ⟨S122811x1, .i32⟩
  | 26 => ⟨S122811x64, .f32⟩
  | 27 => ⟨S1x64x64, .f32⟩
  | 28 => ⟨S64x64, .f32⟩
  | 29 => ⟨S122811x64, .f32⟩
  | 30 => ⟨S122811x64, .f32⟩
  | 31 => ⟨S122811x1, .i32⟩
  | 32 => ⟨S122811, .i32⟩
  | 33 => ⟨S_, .i32⟩
  | 34 => ⟨S122811, .i32⟩
  | 35 => ⟨S122811, .i1⟩
  | 36 => ⟨S_, .i32⟩
  | 37 => ⟨S122811, .i32⟩
  | 38 => ⟨S122811, .i32⟩
  | 39 => ⟨S122811, .i32⟩
  | 40 => ⟨S122811x1, .i32⟩
  | 41 => ⟨S122811x64, .f32⟩
  | 42 => ⟨S1x64x64, .f32⟩
  | 43 => ⟨S64x64, .f32⟩
  | 44 => ⟨S122811x64, .f32⟩
  | 45 => ⟨S122811x64, .f32⟩
  | 46 => ⟨S122811x1, .i32⟩
  | 47 => ⟨S122811, .i32⟩
  | 48 => ⟨S_, .i32⟩
  | 49 => ⟨S122811, .i32⟩
  | 50 => ⟨S122811, .i1⟩
  | 51 => ⟨S_, .i32⟩
  | 52 => ⟨S122811, .i32⟩
  | 53 => ⟨S122811, .i32⟩
  | 54 => ⟨S122811, .i32⟩
  | 55 => ⟨S122811x1, .i32⟩
  | 56 => ⟨S122811x64, .f32⟩
  | 57 => ⟨S1x64x64, .f32⟩
  | 58 => ⟨S64x64, .f32⟩
  | 59 => ⟨S122811x64, .f32⟩
  | 60 => ⟨S122811x64, .f32⟩
  | 61 => ⟨S122811x1, .i32⟩
  | 62 => ⟨S122811, .i32⟩
  | 63 => ⟨S_, .i32⟩
  | 64 => ⟨S122811, .i32⟩
  | 65 => ⟨S122811, .i1⟩
  | 66 => ⟨S_, .i32⟩
  | 67 => ⟨S122811, .i32⟩
  | 68 => ⟨S122811, .i32⟩
  | 69 => ⟨S122811, .i32⟩
  | 70 => ⟨S122811x1, .i32⟩
  | 71 => ⟨S122811x64, .f32⟩
  | 72 => ⟨S1x64x64, .f32⟩
  | 73 => ⟨S64x64, .f32⟩
  | 74 => ⟨S122811x64, .f32⟩
  | 75 => ⟨S122811x64, .f32⟩
  | 76 => ⟨S122811x1, .i32⟩
  | 77 => ⟨S122811, .i32⟩
  | 78 => ⟨S_, .i32⟩
  | 79 => ⟨S122811, .i32⟩
  | 80 => ⟨S122811, .i1⟩
  | 81 => ⟨S_, .i32⟩
  | 82 => ⟨S122811, .i32⟩
  | 83 => ⟨S122811, .i32⟩
  | 84 => ⟨S122811, .i32⟩
  | 85 => ⟨S122811x1, .i32⟩
  | 86 => ⟨S122811x64, .f32⟩
  | 87 => ⟨S1x64x64, .f32⟩
  | 88 => ⟨S64x64, .f32⟩
  | 89 => ⟨S122811x64, .f32⟩
  | 90 => ⟨S122811x64, .f32⟩
  | 91 => ⟨S122811x1, .i32⟩
  | 92 => ⟨S122811, .i32⟩
  | 93 => ⟨S_, .i32⟩
  | 94 => ⟨S122811, .i32⟩
  | 95 => ⟨S122811, .i1⟩
  | 96 => ⟨S_, .i32⟩
  | 97 => ⟨S122811, .i32⟩
  | 98 => ⟨S122811, .i32⟩
  | 99 => ⟨S122811, .i32⟩
  | 100 => ⟨S122811x1, .i32⟩
  | 101 => ⟨S122811x64, .f32⟩
  | 102 => ⟨S1x64x64, .f32⟩
  | 103 => ⟨S64x64, .f32⟩
  | 104 => ⟨S122811x64, .f32⟩
  | 105 => ⟨S122811x64, .f32⟩
  | 106 => ⟨S122811x1, .i32⟩
  | 107 => ⟨S122811, .i32⟩
  | 108 => ⟨S_, .i32⟩
  | 109 => ⟨S122811, .i32⟩
  | 110 => ⟨S122811, .i1⟩
  | 111 => ⟨S_, .i32⟩
  | 112 => ⟨S122811, .i32⟩
  | 113 => ⟨S122811, .i32⟩
  | 114 => ⟨S122811, .i32⟩
  | 115 => ⟨S122811x1, .i32⟩
  | 116 => ⟨S122811x64, .f32⟩
  | 117 => ⟨S1x64x64, .f32⟩
  | 118 => ⟨S64x64, .f32⟩
  | 119 => ⟨S122811x64, .f32⟩
  | 120 => ⟨S122811x64, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_6 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_8 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_10 : Ref sig .tc := ⟨.hbm, 95, rfl⟩
abbrev main_v70 : Ref sig .tc := ⟨.hbm, 96, rfl⟩
abbrev main_v71 : Ref sig .tc := ⟨.hbm, 97, rfl⟩
abbrev main_c_11 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_12 : Ref sig .tc := ⟨.hbm, 110, rfl⟩
abbrev main_v83 : Ref sig .tc := ⟨.hbm, 111, rfl⟩
abbrev main_v84 : Ref sig .tc := ⟨.hbm, 112, rfl⟩
abbrev main_c_13 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_14 : Ref sig .tc := ⟨.hbm, 125, rfl⟩
abbrev main_v96 : Ref sig .tc := ⟨.hbm, 126, rfl⟩
abbrev main_v97 : Ref sig .tc := ⟨.hbm, 127, rfl⟩
abbrev main_c_15 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_c_16 : Ref sig .tc := ⟨.hbm, 140, rfl⟩
abbrev main_v109 : Ref sig .tc := ⟨.hbm, 141, rfl⟩
abbrev main_v110 : Ref sig .tc := ⟨.hbm, 142, rfl⟩
abbrev main_c_17 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_18 : Ref sig .tc := ⟨.hbm, 153, rfl⟩
abbrev main_call0_cst : Ref sig .tc := ⟨.hbm, 154, rfl⟩
abbrev main_call0_v0 : Ref sig .tc := ⟨.hbm, 155, rfl⟩
abbrev main_call0_v1 : Ref sig .tc := ⟨.hbm, 156, rfl⟩
abbrev main_call0_v2 : Ref sig .tc := ⟨.hbm, 157, rfl⟩
abbrev main_call0_v3 : Ref sig .tc := ⟨.hbm, 158, rfl⟩
abbrev main_call0_v4 : Ref sig .tc := ⟨.hbm, 159, rfl⟩
abbrev main_v120 : Ref sig .tc := ⟨.hbm, 160, rfl⟩
abbrev main_cst_19 : Ref sig .tc := ⟨.hbm, 161, rfl⟩
abbrev main_v121 : Ref sig .tc := ⟨.hbm, 162, rfl⟩
abbrev main_cst_20 : Ref sig .tc := ⟨.hbm, 163, rfl⟩
abbrev main_v122 : Ref sig .tc := ⟨.hbm, 164, rfl⟩
abbrev main_v123 : Ref sig .tc := ⟨.hbm, 165, rfl⟩
abbrev main_c_21 : Ref sig .tc := ⟨.hbm, 166, rfl⟩
abbrev main_call1_cst : Ref sig .tc := ⟨.hbm, 167, rfl⟩
abbrev main_call1_v0 : Ref sig .tc := ⟨.hbm, 168, rfl⟩
abbrev main_call1_v1 : Ref sig .tc := ⟨.hbm, 169, rfl⟩
abbrev main_call1_cst_0 : Ref sig .tc := ⟨.hbm, 170, rfl⟩
abbrev main_call1_v2 : Ref sig .tc := ⟨.hbm, 171, rfl⟩
abbrev main_call1_v3 : Ref sig .tc := ⟨.hbm, 172, rfl⟩
abbrev main_call1_v4 : Ref sig .tc := ⟨.hbm, 173, rfl⟩
abbrev main_call1_v5 : Ref sig .tc := ⟨.hbm, 174, rfl⟩
abbrev main_call1_v6 : Ref sig .tc := ⟨.hbm, 175, rfl⟩
abbrev main_call1_v7 : Ref sig .tc := ⟨.hbm, 176, rfl⟩
abbrev main_call1_cst_1 : Ref sig .tc := ⟨.hbm, 177, rfl⟩
abbrev main_call1_v8 : Ref sig .tc := ⟨.hbm, 178, rfl⟩
abbrev main_call1_cst_2 : Ref sig .tc := ⟨.hbm, 179, rfl⟩
abbrev main_call1_v9 : Ref sig .tc := ⟨.hbm, 180, rfl⟩
abbrev main_call1_v10 : Ref sig .tc := ⟨.hbm, 181, rfl⟩
abbrev main_call1_v11 : Ref sig .tc := ⟨.hbm, 182, rfl⟩
abbrev main_call1_cst_3 : Ref sig .tc := ⟨.hbm, 183, rfl⟩
abbrev main_call1_v12 : Ref sig .tc := ⟨.hbm, 184, rfl⟩
abbrev main_call1_cst_4 : Ref sig .tc := ⟨.hbm, 185, rfl⟩
abbrev main_call1_call0_v0 : Ref sig .tc := ⟨.hbm, 186, rfl⟩
abbrev main_call1_call0_v1 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_cst_22 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_cst_23 : Ref sig .tc := ⟨.hbm, 199, rfl⟩
abbrev main_v134 : Ref sig .tc := ⟨.hbm, 200, rfl⟩
abbrev main_v135 : Ref sig .tc := ⟨.hbm, 201, rfl⟩
abbrev main_cst_24 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_c_25 : Ref sig .tc := ⟨.hbm, 206, rfl⟩
abbrev main_v139 : Ref sig .tc := ⟨.hbm, 207, rfl⟩
abbrev main_v140 : Ref sig .tc := ⟨.hbm, 208, rfl⟩
abbrev main_c_26 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_c_27 : Ref sig .tc := ⟨.hbm, 221, rfl⟩
abbrev main_v152 : Ref sig .tc := ⟨.hbm, 222, rfl⟩
abbrev main_v153 : Ref sig .tc := ⟨.hbm, 223, rfl⟩
abbrev main_c_28 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_c_29 : Ref sig .tc := ⟨.hbm, 236, rfl⟩
abbrev main_v165 : Ref sig .tc := ⟨.hbm, 237, rfl⟩
abbrev main_v166 : Ref sig .tc := ⟨.hbm, 238, rfl⟩
abbrev main_c_30 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_c_31 : Ref sig .tc := ⟨.hbm, 251, rfl⟩
abbrev main_v178 : Ref sig .tc := ⟨.hbm, 252, rfl⟩
abbrev main_v179 : Ref sig .tc := ⟨.hbm, 253, rfl⟩
abbrev main_c_32 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_c_33 : Ref sig .tc := ⟨.hbm, 266, rfl⟩
abbrev main_v191 : Ref sig .tc := ⟨.hbm, 267, rfl⟩
abbrev main_v192 : Ref sig .tc := ⟨.hbm, 268, rfl⟩
abbrev main_c_34 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_c_35 : Ref sig .tc := ⟨.hbm, 281, rfl⟩
abbrev main_v204 : Ref sig .tc := ⟨.hbm, 282, rfl⟩
abbrev main_v205 : Ref sig .tc := ⟨.hbm, 283, rfl⟩
abbrev main_c_36 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_c_37 : Ref sig .tc := ⟨.hbm, 296, rfl⟩
abbrev main_v217 : Ref sig .tc := ⟨.hbm, 297, rfl⟩
abbrev main_v218 : Ref sig .tc := ⟨.hbm, 298, rfl⟩
abbrev main_c_38 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_c_39 : Ref sig .tc := ⟨.hbm, 311, rfl⟩
abbrev main_v230 : Ref sig .tc := ⟨.hbm, 312, rfl⟩
abbrev main_v231 : Ref sig .tc := ⟨.hbm, 313, rfl⟩
abbrev main_c_40 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_c_41 : Ref sig .tc := ⟨.hbm, 326, rfl⟩
abbrev main_v243 : Ref sig .tc := ⟨.hbm, 327, rfl⟩
abbrev main_v244 : Ref sig .tc := ⟨.hbm, 328, rfl⟩
abbrev main_c_42 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_cst_43 : Ref sig .tc := ⟨.hbm, 339, rfl⟩
abbrev main_call2_cst : Ref sig .tc := ⟨.hbm, 340, rfl⟩
abbrev main_call2_v0 : Ref sig .tc := ⟨.hbm, 341, rfl⟩
abbrev main_call2_v1 : Ref sig .tc := ⟨.hbm, 342, rfl⟩
abbrev main_call2_v2 : Ref sig .tc := ⟨.hbm, 343, rfl⟩
abbrev main_call2_v3 : Ref sig .tc := ⟨.hbm, 344, rfl⟩
abbrev main_call2_v4 : Ref sig .tc := ⟨.hbm, 345, rfl⟩
abbrev main_v254 : Ref sig .tc := ⟨.hbm, 346, rfl⟩
abbrev main_cst_44 : Ref sig .tc := ⟨.hbm, 347, rfl⟩
abbrev main_v255 : Ref sig .tc := ⟨.hbm, 348, rfl⟩
abbrev main_cst_45 : Ref sig .tc := ⟨.hbm, 349, rfl⟩
abbrev main_v256 : Ref sig .tc := ⟨.hbm, 350, rfl⟩
abbrev main_v257 : Ref sig .tc := ⟨.hbm, 351, rfl⟩
abbrev main_c_46 : Ref sig .tc := ⟨.hbm, 352, rfl⟩
abbrev main_call3_cst : Ref sig .tc := ⟨.hbm, 353, rfl⟩
abbrev main_call3_v0 : Ref sig .tc := ⟨.hbm, 354, rfl⟩
abbrev main_call3_v1 : Ref sig .tc := ⟨.hbm, 355, rfl⟩
abbrev main_call3_cst_0 : Ref sig .tc := ⟨.hbm, 356, rfl⟩
abbrev main_call3_v2 : Ref sig .tc := ⟨.hbm, 357, rfl⟩
abbrev main_call3_v3 : Ref sig .tc := ⟨.hbm, 358, rfl⟩
abbrev main_call3_v4 : Ref sig .tc := ⟨.hbm, 359, rfl⟩
abbrev main_call3_v5 : Ref sig .tc := ⟨.hbm, 360, rfl⟩
abbrev main_call3_v6 : Ref sig .tc := ⟨.hbm, 361, rfl⟩
abbrev main_call3_v7 : Ref sig .tc := ⟨.hbm, 362, rfl⟩
abbrev main_call3_cst_1 : Ref sig .tc := ⟨.hbm, 363, rfl⟩
abbrev main_call3_v8 : Ref sig .tc := ⟨.hbm, 364, rfl⟩
abbrev main_call3_cst_2 : Ref sig .tc := ⟨.hbm, 365, rfl⟩
abbrev main_call3_v9 : Ref sig .tc := ⟨.hbm, 366, rfl⟩
abbrev main_call3_v10 : Ref sig .tc := ⟨.hbm, 367, rfl⟩
abbrev main_call3_v11 : Ref sig .tc := ⟨.hbm, 368, rfl⟩
abbrev main_call3_cst_3 : Ref sig .tc := ⟨.hbm, 369, rfl⟩
abbrev main_call3_v12 : Ref sig .tc := ⟨.hbm, 370, rfl⟩
abbrev main_call3_cst_4 : Ref sig .tc := ⟨.hbm, 371, rfl⟩
abbrev main_call3_call0_v0 : Ref sig .tc := ⟨.hbm, 372, rfl⟩
abbrev main_call3_call0_v1 : Ref sig .tc := ⟨.hbm, 373, rfl⟩
abbrev main_v258 : Ref sig .tc := ⟨.hbm, 374, rfl⟩
abbrev main_v259 : Ref sig .tc := ⟨.hbm, 375, rfl⟩
abbrev main_v260 : Ref sig .tc := ⟨.hbm, 376, rfl⟩
abbrev main_v261 : Ref sig .tc := ⟨.hbm, 377, rfl⟩
abbrev main_cst_47 : Ref sig .tc := ⟨.hbm, 378, rfl⟩
abbrev main_v262 : Ref sig .tc := ⟨.hbm, 379, rfl⟩
abbrev main_v263 : Ref sig .tc := ⟨.hbm, 380, rfl⟩
abbrev main_v264 : Ref sig .tc := ⟨.hbm, 381, rfl⟩
abbrev main_v265 : Ref sig .tc := ⟨.hbm, 382, rfl⟩
abbrev main_v266 : Ref sig .tc := ⟨.hbm, 383, rfl⟩
abbrev main_v267 : Ref sig .tc := ⟨.hbm, 384, rfl⟩
abbrev main_cst_48 : Ref sig .tc := ⟨.hbm, 385, rfl⟩
abbrev main_v268 : Ref sig .tc := ⟨.hbm, 386, rfl⟩
abbrev main_v269 : Ref sig .tc := ⟨.hbm, 387, rfl⟩
abbrev main_cst_49 : Ref sig .tc := ⟨.hbm, 388, rfl⟩
abbrev main_v270 : Ref sig .tc := ⟨.hbm, 389, rfl⟩
abbrev main_v271 : Ref sig .tc := ⟨.hbm, 390, rfl⟩
abbrev main_v272 : Ref sig .tc := ⟨.hbm, 391, rfl⟩
abbrev main_c_50 : Ref sig .tc := ⟨.hbm, 392, rfl⟩
abbrev main_v273 : Ref sig .tc := ⟨.hbm, 393, rfl⟩
abbrev main_v274 : Ref sig .tc := ⟨.hbm, 394, rfl⟩
abbrev main_c_51 : Ref sig .tc := ⟨.hbm, 395, rfl⟩
abbrev main_v275 : Ref sig .tc := ⟨.hbm, 396, rfl⟩
abbrev main_v276 : Ref sig .tc := ⟨.hbm, 397, rfl⟩
abbrev main_v277 : Ref sig .tc := ⟨.hbm, 398, rfl⟩
abbrev main_v278 : Ref sig .tc := ⟨.hbm, 399, rfl⟩
abbrev main_v279 : Ref sig .tc := ⟨.hbm, 400, rfl⟩
abbrev main_v280 : Ref sig .tc := ⟨.hbm, 401, rfl⟩
abbrev main_v281 : Ref sig .tc := ⟨.hbm, 402, rfl⟩
abbrev main_v282 : Ref sig .tc := ⟨.hbm, 403, rfl⟩
abbrev main_v283 : Ref sig .tc := ⟨.hbm, 404, rfl⟩
abbrev main_v284 : Ref sig .tc := ⟨.hbm, 405, rfl⟩
abbrev main_v285 : Ref sig .tc := ⟨.hbm, 406, rfl⟩
abbrev main_c_52 : Ref sig .tc := ⟨.hbm, 407, rfl⟩
abbrev main_v286 : Ref sig .tc := ⟨.hbm, 408, rfl⟩
abbrev main_v287 : Ref sig .tc := ⟨.hbm, 409, rfl⟩
abbrev main_c_53 : Ref sig .tc := ⟨.hbm, 410, rfl⟩
abbrev main_v288 : Ref sig .tc := ⟨.hbm, 411, rfl⟩
abbrev main_v289 : Ref sig .tc := ⟨.hbm, 412, rfl⟩
abbrev main_v290 : Ref sig .tc := ⟨.hbm, 413, rfl⟩
abbrev main_v291 : Ref sig .tc := ⟨.hbm, 414, rfl⟩
abbrev main_v292 : Ref sig .tc := ⟨.hbm, 415, rfl⟩
abbrev main_v293 : Ref sig .tc := ⟨.hbm, 416, rfl⟩
abbrev main_v294 : Ref sig .tc := ⟨.hbm, 417, rfl⟩
abbrev main_v295 : Ref sig .tc := ⟨.hbm, 418, rfl⟩
abbrev main_v296 : Ref sig .tc := ⟨.hbm, 419, rfl⟩
abbrev main_v297 : Ref sig .tc := ⟨.hbm, 420, rfl⟩
abbrev main_v298 : Ref sig .tc := ⟨.hbm, 421, rfl⟩
abbrev main_c_54 : Ref sig .tc := ⟨.hbm, 422, rfl⟩
abbrev main_v299 : Ref sig .tc := ⟨.hbm, 423, rfl⟩
abbrev main_v300 : Ref sig .tc := ⟨.hbm, 424, rfl⟩
abbrev main_c_55 : Ref sig .tc := ⟨.hbm, 425, rfl⟩
abbrev main_v301 : Ref sig .tc := ⟨.hbm, 426, rfl⟩
abbrev main_v302 : Ref sig .tc := ⟨.hbm, 427, rfl⟩
abbrev main_v303 : Ref sig .tc := ⟨.hbm, 428, rfl⟩
abbrev main_v304 : Ref sig .tc := ⟨.hbm, 429, rfl⟩
abbrev main_v305 : Ref sig .tc := ⟨.hbm, 430, rfl⟩
abbrev main_v306 : Ref sig .tc := ⟨.hbm, 431, rfl⟩
abbrev main_v307 : Ref sig .tc := ⟨.hbm, 432, rfl⟩
abbrev main_v308 : Ref sig .tc := ⟨.hbm, 433, rfl⟩
abbrev main_v309 : Ref sig .tc := ⟨.hbm, 434, rfl⟩
abbrev main_v310 : Ref sig .tc := ⟨.hbm, 435, rfl⟩
abbrev main_v311 : Ref sig .tc := ⟨.hbm, 436, rfl⟩
abbrev main_c_56 : Ref sig .tc := ⟨.hbm, 437, rfl⟩
abbrev main_v312 : Ref sig .tc := ⟨.hbm, 438, rfl⟩
abbrev main_v313 : Ref sig .tc := ⟨.hbm, 439, rfl⟩
abbrev main_c_57 : Ref sig .tc := ⟨.hbm, 440, rfl⟩
abbrev main_v314 : Ref sig .tc := ⟨.hbm, 441, rfl⟩
abbrev main_v315 : Ref sig .tc := ⟨.hbm, 442, rfl⟩
abbrev main_v316 : Ref sig .tc := ⟨.hbm, 443, rfl⟩
abbrev main_v317 : Ref sig .tc := ⟨.hbm, 444, rfl⟩
abbrev main_v318 : Ref sig .tc := ⟨.hbm, 445, rfl⟩
abbrev main_v319 : Ref sig .tc := ⟨.hbm, 446, rfl⟩
abbrev main_v320 : Ref sig .tc := ⟨.hbm, 447, rfl⟩
abbrev main_v321 : Ref sig .tc := ⟨.hbm, 448, rfl⟩
abbrev main_v322 : Ref sig .tc := ⟨.hbm, 449, rfl⟩
abbrev main_v323 : Ref sig .tc := ⟨.hbm, 450, rfl⟩
abbrev main_v324 : Ref sig .tc := ⟨.hbm, 451, rfl⟩
abbrev main_c_58 : Ref sig .tc := ⟨.hbm, 452, rfl⟩
abbrev main_v325 : Ref sig .tc := ⟨.hbm, 453, rfl⟩
abbrev main_v326 : Ref sig .tc := ⟨.hbm, 454, rfl⟩
abbrev main_c_59 : Ref sig .tc := ⟨.hbm, 455, rfl⟩
abbrev main_v327 : Ref sig .tc := ⟨.hbm, 456, rfl⟩
abbrev main_v328 : Ref sig .tc := ⟨.hbm, 457, rfl⟩
abbrev main_v329 : Ref sig .tc := ⟨.hbm, 458, rfl⟩
abbrev main_v330 : Ref sig .tc := ⟨.hbm, 459, rfl⟩
abbrev main_v331 : Ref sig .tc := ⟨.hbm, 460, rfl⟩
abbrev main_v332 : Ref sig .tc := ⟨.hbm, 461, rfl⟩
abbrev main_v333 : Ref sig .tc := ⟨.hbm, 462, rfl⟩
abbrev main_v334 : Ref sig .tc := ⟨.hbm, 463, rfl⟩
abbrev main_v335 : Ref sig .tc := ⟨.hbm, 464, rfl⟩
abbrev main_v336 : Ref sig .tc := ⟨.hbm, 465, rfl⟩
abbrev main_v337 : Ref sig .tc := ⟨.hbm, 466, rfl⟩
abbrev main_c_60 : Ref sig .tc := ⟨.hbm, 467, rfl⟩
abbrev main_v338 : Ref sig .tc := ⟨.hbm, 468, rfl⟩
abbrev main_v339 : Ref sig .tc := ⟨.hbm, 469, rfl⟩
abbrev main_c_61 : Ref sig .tc := ⟨.hbm, 470, rfl⟩
abbrev main_v340 : Ref sig .tc := ⟨.hbm, 471, rfl⟩
abbrev main_v341 : Ref sig .tc := ⟨.hbm, 472, rfl⟩
abbrev main_v342 : Ref sig .tc := ⟨.hbm, 473, rfl⟩
abbrev main_v343 : Ref sig .tc := ⟨.hbm, 474, rfl⟩
abbrev main_v344 : Ref sig .tc := ⟨.hbm, 475, rfl⟩
abbrev main_v345 : Ref sig .tc := ⟨.hbm, 476, rfl⟩
abbrev main_v346 : Ref sig .tc := ⟨.hbm, 477, rfl⟩
abbrev main_v347 : Ref sig .tc := ⟨.hbm, 478, rfl⟩
abbrev main_v348 : Ref sig .tc := ⟨.hbm, 479, rfl⟩
abbrev main_v349 : Ref sig .tc := ⟨.hbm, 480, rfl⟩
abbrev main_v350 : Ref sig .tc := ⟨.hbm, 481, rfl⟩
abbrev main_c_62 : Ref sig .tc := ⟨.hbm, 482, rfl⟩
abbrev main_v351 : Ref sig .tc := ⟨.hbm, 483, rfl⟩
abbrev main_v352 : Ref sig .tc := ⟨.hbm, 484, rfl⟩
abbrev main_c_63 : Ref sig .tc := ⟨.hbm, 485, rfl⟩
abbrev main_v353 : Ref sig .tc := ⟨.hbm, 486, rfl⟩
abbrev main_v354 : Ref sig .tc := ⟨.hbm, 487, rfl⟩
abbrev main_v355 : Ref sig .tc := ⟨.hbm, 488, rfl⟩
abbrev main_v356 : Ref sig .tc := ⟨.hbm, 489, rfl⟩
abbrev main_v357 : Ref sig .tc := ⟨.hbm, 490, rfl⟩
abbrev main_v358 : Ref sig .tc := ⟨.hbm, 491, rfl⟩
abbrev main_v359 : Ref sig .tc := ⟨.hbm, 492, rfl⟩
abbrev main_v360 : Ref sig .tc := ⟨.hbm, 493, rfl⟩
abbrev main_v361 : Ref sig .tc := ⟨.hbm, 494, rfl⟩
abbrev main_v362 : Ref sig .tc := ⟨.hbm, 495, rfl⟩
abbrev main_v363 : Ref sig .tc := ⟨.hbm, 496, rfl⟩
abbrev main_c_64 : Ref sig .tc := ⟨.hbm, 497, rfl⟩
abbrev main_v364 : Ref sig .tc := ⟨.hbm, 498, rfl⟩
abbrev main_v365 : Ref sig .tc := ⟨.hbm, 499, rfl⟩
abbrev main_c_65 : Ref sig .tc := ⟨.hbm, 500, rfl⟩
abbrev main_v366 : Ref sig .tc := ⟨.hbm, 501, rfl⟩
abbrev main_v367 : Ref sig .tc := ⟨.hbm, 502, rfl⟩
abbrev main_v368 : Ref sig .tc := ⟨.hbm, 503, rfl⟩
abbrev main_v369 : Ref sig .tc := ⟨.hbm, 504, rfl⟩
abbrev main_v370 : Ref sig .tc := ⟨.hbm, 505, rfl⟩
abbrev main_v371 : Ref sig .tc := ⟨.hbm, 506, rfl⟩
abbrev main_v372 : Ref sig .tc := ⟨.hbm, 507, rfl⟩
abbrev main_v373 : Ref sig .tc := ⟨.hbm, 508, rfl⟩
abbrev main_v374 : Ref sig .tc := ⟨.hbm, 509, rfl⟩
abbrev main_v375 : Ref sig .tc := ⟨.hbm, 510, rfl⟩
abbrev main_v376 : Ref sig .tc := ⟨.hbm, 511, rfl⟩
abbrev main_c_66 : Ref sig .tc := ⟨.hbm, 512, rfl⟩
abbrev main_v377 : Ref sig .tc := ⟨.hbm, 513, rfl⟩
abbrev main_v378 : Ref sig .tc := ⟨.hbm, 514, rfl⟩
abbrev main_c_67 : Ref sig .tc := ⟨.hbm, 515, rfl⟩
abbrev main_v379 : Ref sig .tc := ⟨.hbm, 516, rfl⟩
abbrev main_v380 : Ref sig .tc := ⟨.hbm, 517, rfl⟩
abbrev main_v381 : Ref sig .tc := ⟨.hbm, 518, rfl⟩
abbrev main_v382 : Ref sig .tc := ⟨.hbm, 519, rfl⟩
abbrev main_v383 : Ref sig .tc := ⟨.hbm, 520, rfl⟩
abbrev main_v384 : Ref sig .tc := ⟨.hbm, 521, rfl⟩
abbrev main_v385 : Ref sig .tc := ⟨.hbm, 522, rfl⟩
abbrev main_v386 : Ref sig .tc := ⟨.hbm, 523, rfl⟩
abbrev main_v387 : Ref sig .tc := ⟨.hbm, 524, rfl⟩
abbrev main_cst_68 : Ref sig .tc := ⟨.hbm, 525, rfl⟩
abbrev main_call4_cst : Ref sig .tc := ⟨.hbm, 526, rfl⟩
abbrev main_call4_v0 : Ref sig .tc := ⟨.hbm, 527, rfl⟩
abbrev main_call4_v1 : Ref sig .tc := ⟨.hbm, 528, rfl⟩
abbrev main_call4_v2 : Ref sig .tc := ⟨.hbm, 529, rfl⟩
abbrev main_call4_v3 : Ref sig .tc := ⟨.hbm, 530, rfl⟩
abbrev main_call4_v4 : Ref sig .tc := ⟨.hbm, 531, rfl⟩
abbrev main_v388 : Ref sig .tc := ⟨.hbm, 532, rfl⟩
abbrev main_cst_69 : Ref sig .tc := ⟨.hbm, 533, rfl⟩
abbrev main_v389 : Ref sig .tc := ⟨.hbm, 534, rfl⟩
abbrev main_cst_70 : Ref sig .tc := ⟨.hbm, 535, rfl⟩
abbrev main_v390 : Ref sig .tc := ⟨.hbm, 536, rfl⟩
abbrev main_v391 : Ref sig .tc := ⟨.hbm, 537, rfl⟩
abbrev main_c_71 : Ref sig .tc := ⟨.hbm, 538, rfl⟩
abbrev main_call5_cst : Ref sig .tc := ⟨.hbm, 539, rfl⟩
abbrev main_call5_v0 : Ref sig .tc := ⟨.hbm, 540, rfl⟩
abbrev main_call5_v1 : Ref sig .tc := ⟨.hbm, 541, rfl⟩
abbrev main_call5_cst_0 : Ref sig .tc := ⟨.hbm, 542, rfl⟩
abbrev main_call5_v2 : Ref sig .tc := ⟨.hbm, 543, rfl⟩
abbrev main_call5_v3 : Ref sig .tc := ⟨.hbm, 544, rfl⟩
abbrev main_call5_v4 : Ref sig .tc := ⟨.hbm, 545, rfl⟩
abbrev main_call5_v5 : Ref sig .tc := ⟨.hbm, 546, rfl⟩
abbrev main_call5_v6 : Ref sig .tc := ⟨.hbm, 547, rfl⟩
abbrev main_call5_v7 : Ref sig .tc := ⟨.hbm, 548, rfl⟩
abbrev main_call5_cst_1 : Ref sig .tc := ⟨.hbm, 549, rfl⟩
abbrev main_call5_v8 : Ref sig .tc := ⟨.hbm, 550, rfl⟩
abbrev main_call5_cst_2 : Ref sig .tc := ⟨.hbm, 551, rfl⟩
abbrev main_call5_v9 : Ref sig .tc := ⟨.hbm, 552, rfl⟩
abbrev main_call5_v10 : Ref sig .tc := ⟨.hbm, 553, rfl⟩
abbrev main_call5_v11 : Ref sig .tc := ⟨.hbm, 554, rfl⟩
abbrev main_call5_cst_3 : Ref sig .tc := ⟨.hbm, 555, rfl⟩
abbrev main_call5_v12 : Ref sig .tc := ⟨.hbm, 556, rfl⟩
abbrev main_call5_cst_4 : Ref sig .tc := ⟨.hbm, 557, rfl⟩
abbrev main_call5_call0_v0 : Ref sig .tc := ⟨.hbm, 558, rfl⟩
abbrev main_call5_call0_v1 : Ref sig .tc := ⟨.hbm, 559, rfl⟩
abbrev main_v392 : Ref sig .tc := ⟨.hbm, 560, rfl⟩
abbrev main_v393 : Ref sig .tc := ⟨.hbm, 561, rfl⟩
abbrev main_v394 : Ref sig .tc := ⟨.hbm, 562, rfl⟩
abbrev main_v395 : Ref sig .tc := ⟨.hbm, 563, rfl⟩
abbrev main_cst_72 : Ref sig .tc := ⟨.hbm, 564, rfl⟩
abbrev main_v396 : Ref sig .tc := ⟨.hbm, 565, rfl⟩
abbrev main_v397 : Ref sig .tc := ⟨.hbm, 566, rfl⟩
abbrev main_v398 : Ref sig .tc := ⟨.hbm, 567, rfl⟩
abbrev main_v399 : Ref sig .tc := ⟨.hbm, 568, rfl⟩
abbrev main_v400 : Ref sig .tc := ⟨.hbm, 569, rfl⟩
abbrev main_v401 : Ref sig .tc := ⟨.hbm, 570, rfl⟩
abbrev main_cst_73 : Ref sig .tc := ⟨.hbm, 571, rfl⟩
abbrev main_v402 : Ref sig .tc := ⟨.hbm, 572, rfl⟩
abbrev main_v403 : Ref sig .tc := ⟨.hbm, 573, rfl⟩
abbrev main_cst_74 : Ref sig .tc := ⟨.hbm, 574, rfl⟩
abbrev main_v404 : Ref sig .tc := ⟨.hbm, 575, rfl⟩
abbrev main_v405 : Ref sig .tc := ⟨.hbm, 576, rfl⟩
abbrev main_v406 : Ref sig .tc := ⟨.hbm, 577, rfl⟩
abbrev main_c_75 : Ref sig .tc := ⟨.hbm, 578, rfl⟩
abbrev main_v407 : Ref sig .tc := ⟨.hbm, 579, rfl⟩
abbrev main_v408 : Ref sig .tc := ⟨.hbm, 580, rfl⟩
abbrev main_c_76 : Ref sig .tc := ⟨.hbm, 581, rfl⟩
abbrev main_v409 : Ref sig .tc := ⟨.hbm, 582, rfl⟩
abbrev main_v410 : Ref sig .tc := ⟨.hbm, 583, rfl⟩
abbrev main_v411 : Ref sig .tc := ⟨.hbm, 584, rfl⟩
abbrev main_v412 : Ref sig .tc := ⟨.hbm, 585, rfl⟩
abbrev main_v413 : Ref sig .tc := ⟨.hbm, 586, rfl⟩
abbrev main_v414 : Ref sig .tc := ⟨.hbm, 587, rfl⟩
abbrev main_v415 : Ref sig .tc := ⟨.hbm, 588, rfl⟩
abbrev main_v416 : Ref sig .tc := ⟨.hbm, 589, rfl⟩
abbrev main_v417 : Ref sig .tc := ⟨.hbm, 590, rfl⟩
abbrev main_v418 : Ref sig .tc := ⟨.hbm, 591, rfl⟩
abbrev main_v419 : Ref sig .tc := ⟨.hbm, 592, rfl⟩
abbrev main_c_77 : Ref sig .tc := ⟨.hbm, 593, rfl⟩
abbrev main_v420 : Ref sig .tc := ⟨.hbm, 594, rfl⟩
abbrev main_v421 : Ref sig .tc := ⟨.hbm, 595, rfl⟩
abbrev main_c_78 : Ref sig .tc := ⟨.hbm, 596, rfl⟩
abbrev main_v422 : Ref sig .tc := ⟨.hbm, 597, rfl⟩
abbrev main_v423 : Ref sig .tc := ⟨.hbm, 598, rfl⟩
abbrev main_v424 : Ref sig .tc := ⟨.hbm, 599, rfl⟩
abbrev main_v425 : Ref sig .tc := ⟨.hbm, 600, rfl⟩
abbrev main_v426 : Ref sig .tc := ⟨.hbm, 601, rfl⟩
abbrev main_v427 : Ref sig .tc := ⟨.hbm, 602, rfl⟩
abbrev main_v428 : Ref sig .tc := ⟨.hbm, 603, rfl⟩
abbrev main_v429 : Ref sig .tc := ⟨.hbm, 604, rfl⟩
abbrev main_v430 : Ref sig .tc := ⟨.hbm, 605, rfl⟩
abbrev main_v431 : Ref sig .tc := ⟨.hbm, 606, rfl⟩
abbrev main_v432 : Ref sig .tc := ⟨.hbm, 607, rfl⟩
abbrev main_c_79 : Ref sig .tc := ⟨.hbm, 608, rfl⟩
abbrev main_v433 : Ref sig .tc := ⟨.hbm, 609, rfl⟩
abbrev main_v434 : Ref sig .tc := ⟨.hbm, 610, rfl⟩
abbrev main_c_80 : Ref sig .tc := ⟨.hbm, 611, rfl⟩
abbrev main_v435 : Ref sig .tc := ⟨.hbm, 612, rfl⟩
abbrev main_v436 : Ref sig .tc := ⟨.hbm, 613, rfl⟩
abbrev main_v437 : Ref sig .tc := ⟨.hbm, 614, rfl⟩
abbrev main_v438 : Ref sig .tc := ⟨.hbm, 615, rfl⟩
abbrev main_v439 : Ref sig .tc := ⟨.hbm, 616, rfl⟩
abbrev main_v440 : Ref sig .tc := ⟨.hbm, 617, rfl⟩
abbrev main_v441 : Ref sig .tc := ⟨.hbm, 618, rfl⟩
abbrev main_v442 : Ref sig .tc := ⟨.hbm, 619, rfl⟩
abbrev main_v443 : Ref sig .tc := ⟨.hbm, 620, rfl⟩
abbrev main_v444 : Ref sig .tc := ⟨.hbm, 621, rfl⟩
abbrev main_v445 : Ref sig .tc := ⟨.hbm, 622, rfl⟩
abbrev main_c_81 : Ref sig .tc := ⟨.hbm, 623, rfl⟩
abbrev main_v446 : Ref sig .tc := ⟨.hbm, 624, rfl⟩
abbrev main_v447 : Ref sig .tc := ⟨.hbm, 625, rfl⟩
abbrev main_c_82 : Ref sig .tc := ⟨.hbm, 626, rfl⟩
abbrev main_v448 : Ref sig .tc := ⟨.hbm, 627, rfl⟩
abbrev main_v449 : Ref sig .tc := ⟨.hbm, 628, rfl⟩
abbrev main_v450 : Ref sig .tc := ⟨.hbm, 629, rfl⟩
abbrev main_v451 : Ref sig .tc := ⟨.hbm, 630, rfl⟩
abbrev main_v452 : Ref sig .tc := ⟨.hbm, 631, rfl⟩
abbrev main_v453 : Ref sig .tc := ⟨.hbm, 632, rfl⟩
abbrev main_v454 : Ref sig .tc := ⟨.hbm, 633, rfl⟩
abbrev main_v455 : Ref sig .tc := ⟨.hbm, 634, rfl⟩
abbrev main_v456 : Ref sig .tc := ⟨.hbm, 635, rfl⟩
abbrev main_v457 : Ref sig .tc := ⟨.hbm, 636, rfl⟩
abbrev main_v458 : Ref sig .tc := ⟨.hbm, 637, rfl⟩
abbrev main_c_83 : Ref sig .tc := ⟨.hbm, 638, rfl⟩
abbrev main_v459 : Ref sig .tc := ⟨.hbm, 639, rfl⟩
abbrev main_v460 : Ref sig .tc := ⟨.hbm, 640, rfl⟩
abbrev main_c_84 : Ref sig .tc := ⟨.hbm, 641, rfl⟩
abbrev main_v461 : Ref sig .tc := ⟨.hbm, 642, rfl⟩
abbrev main_v462 : Ref sig .tc := ⟨.hbm, 643, rfl⟩
abbrev main_v463 : Ref sig .tc := ⟨.hbm, 644, rfl⟩
abbrev main_v464 : Ref sig .tc := ⟨.hbm, 645, rfl⟩
abbrev main_v465 : Ref sig .tc := ⟨.hbm, 646, rfl⟩
abbrev main_v466 : Ref sig .tc := ⟨.hbm, 647, rfl⟩
abbrev main_v467 : Ref sig .tc := ⟨.hbm, 648, rfl⟩
abbrev main_v468 : Ref sig .tc := ⟨.hbm, 649, rfl⟩
abbrev main_v469 : Ref sig .tc := ⟨.hbm, 650, rfl⟩
abbrev main_v470 : Ref sig .tc := ⟨.hbm, 651, rfl⟩
abbrev main_v471 : Ref sig .tc := ⟨.hbm, 652, rfl⟩
abbrev main_c_85 : Ref sig .tc := ⟨.hbm, 653, rfl⟩
abbrev main_v472 : Ref sig .tc := ⟨.hbm, 654, rfl⟩
abbrev main_v473 : Ref sig .tc := ⟨.hbm, 655, rfl⟩
abbrev main_c_86 : Ref sig .tc := ⟨.hbm, 656, rfl⟩
abbrev main_v474 : Ref sig .tc := ⟨.hbm, 657, rfl⟩
abbrev main_v475 : Ref sig .tc := ⟨.hbm, 658, rfl⟩
abbrev main_v476 : Ref sig .tc := ⟨.hbm, 659, rfl⟩
abbrev main_v477 : Ref sig .tc := ⟨.hbm, 660, rfl⟩
abbrev main_v478 : Ref sig .tc := ⟨.hbm, 661, rfl⟩
abbrev main_v479 : Ref sig .tc := ⟨.hbm, 662, rfl⟩
abbrev main_v480 : Ref sig .tc := ⟨.hbm, 663, rfl⟩
abbrev main_v481 : Ref sig .tc := ⟨.hbm, 664, rfl⟩
abbrev main_v482 : Ref sig .tc := ⟨.hbm, 665, rfl⟩
abbrev main_v483 : Ref sig .tc := ⟨.hbm, 666, rfl⟩
abbrev main_v484 : Ref sig .tc := ⟨.hbm, 667, rfl⟩
abbrev main_c_87 : Ref sig .tc := ⟨.hbm, 668, rfl⟩
abbrev main_v485 : Ref sig .tc := ⟨.hbm, 669, rfl⟩
abbrev main_v486 : Ref sig .tc := ⟨.hbm, 670, rfl⟩
abbrev main_c_88 : Ref sig .tc := ⟨.hbm, 671, rfl⟩
abbrev main_v487 : Ref sig .tc := ⟨.hbm, 672, rfl⟩
abbrev main_v488 : Ref sig .tc := ⟨.hbm, 673, rfl⟩
abbrev main_v489 : Ref sig .tc := ⟨.hbm, 674, rfl⟩
abbrev main_v490 : Ref sig .tc := ⟨.hbm, 675, rfl⟩
abbrev main_v491 : Ref sig .tc := ⟨.hbm, 676, rfl⟩
abbrev main_v492 : Ref sig .tc := ⟨.hbm, 677, rfl⟩
abbrev main_v493 : Ref sig .tc := ⟨.hbm, 678, rfl⟩
abbrev main_v494 : Ref sig .tc := ⟨.hbm, 679, rfl⟩
abbrev main_v495 : Ref sig .tc := ⟨.hbm, 680, rfl⟩
abbrev main_v496 : Ref sig .tc := ⟨.hbm, 681, rfl⟩
abbrev main_v497 : Ref sig .tc := ⟨.hbm, 682, rfl⟩
abbrev main_c_89 : Ref sig .tc := ⟨.hbm, 683, rfl⟩
abbrev main_v498 : Ref sig .tc := ⟨.hbm, 684, rfl⟩
abbrev main_v499 : Ref sig .tc := ⟨.hbm, 685, rfl⟩
abbrev main_c_90 : Ref sig .tc := ⟨.hbm, 686, rfl⟩
abbrev main_v500 : Ref sig .tc := ⟨.hbm, 687, rfl⟩
abbrev main_v501 : Ref sig .tc := ⟨.hbm, 688, rfl⟩
abbrev main_v502 : Ref sig .tc := ⟨.hbm, 689, rfl⟩
abbrev main_v503 : Ref sig .tc := ⟨.hbm, 690, rfl⟩
abbrev main_v504 : Ref sig .tc := ⟨.hbm, 691, rfl⟩
abbrev main_v505 : Ref sig .tc := ⟨.hbm, 692, rfl⟩
abbrev main_v506 : Ref sig .tc := ⟨.hbm, 693, rfl⟩
abbrev main_v507 : Ref sig .tc := ⟨.hbm, 694, rfl⟩
abbrev main_v508 : Ref sig .tc := ⟨.hbm, 695, rfl⟩
abbrev main_v509 : Ref sig .tc := ⟨.hbm, 696, rfl⟩
abbrev main_v510 : Ref sig .tc := ⟨.hbm, 697, rfl⟩
abbrev main_c_91 : Ref sig .tc := ⟨.hbm, 698, rfl⟩
abbrev main_v511 : Ref sig .tc := ⟨.hbm, 699, rfl⟩
abbrev main_v512 : Ref sig .tc := ⟨.hbm, 700, rfl⟩
abbrev main_c_92 : Ref sig .tc := ⟨.hbm, 701, rfl⟩
abbrev main_v513 : Ref sig .tc := ⟨.hbm, 702, rfl⟩
abbrev main_v514 : Ref sig .tc := ⟨.hbm, 703, rfl⟩
abbrev main_v515 : Ref sig .tc := ⟨.hbm, 704, rfl⟩
abbrev main_v516 : Ref sig .tc := ⟨.hbm, 705, rfl⟩
abbrev main_v517 : Ref sig .tc := ⟨.hbm, 706, rfl⟩
abbrev main_v518 : Ref sig .tc := ⟨.hbm, 707, rfl⟩
abbrev main_v519 : Ref sig .tc := ⟨.hbm, 708, rfl⟩
abbrev main_v520 : Ref sig .tc := ⟨.hbm, 709, rfl⟩
abbrev main_v521 : Ref sig .tc := ⟨.hbm, 710, rfl⟩
abbrev main_cst_93 : Ref sig .tc := ⟨.hbm, 711, rfl⟩
abbrev main_call6_cst : Ref sig .tc := ⟨.hbm, 712, rfl⟩
abbrev main_call6_v0 : Ref sig .tc := ⟨.hbm, 713, rfl⟩
abbrev main_call6_v1 : Ref sig .tc := ⟨.hbm, 714, rfl⟩
abbrev main_call6_v2 : Ref sig .tc := ⟨.hbm, 715, rfl⟩
abbrev main_call6_v3 : Ref sig .tc := ⟨.hbm, 716, rfl⟩
abbrev main_call6_v4 : Ref sig .tc := ⟨.hbm, 717, rfl⟩
abbrev main_v522 : Ref sig .tc := ⟨.hbm, 718, rfl⟩
abbrev main_cst_94 : Ref sig .tc := ⟨.hbm, 719, rfl⟩
abbrev main_v523 : Ref sig .tc := ⟨.hbm, 720, rfl⟩
abbrev main_cst_95 : Ref sig .tc := ⟨.hbm, 721, rfl⟩
abbrev main_v524 : Ref sig .tc := ⟨.hbm, 722, rfl⟩
abbrev main_v525 : Ref sig .tc := ⟨.hbm, 723, rfl⟩
abbrev main_c_96 : Ref sig .tc := ⟨.hbm, 724, rfl⟩
abbrev main_call7_cst : Ref sig .tc := ⟨.hbm, 725, rfl⟩
abbrev main_call7_v0 : Ref sig .tc := ⟨.hbm, 726, rfl⟩
abbrev main_call7_v1 : Ref sig .tc := ⟨.hbm, 727, rfl⟩
abbrev main_call7_cst_0 : Ref sig .tc := ⟨.hbm, 728, rfl⟩
abbrev main_call7_v2 : Ref sig .tc := ⟨.hbm, 729, rfl⟩
abbrev main_call7_v3 : Ref sig .tc := ⟨.hbm, 730, rfl⟩
abbrev main_call7_v4 : Ref sig .tc := ⟨.hbm, 731, rfl⟩
abbrev main_call7_v5 : Ref sig .tc := ⟨.hbm, 732, rfl⟩
abbrev main_call7_v6 : Ref sig .tc := ⟨.hbm, 733, rfl⟩
abbrev main_call7_v7 : Ref sig .tc := ⟨.hbm, 734, rfl⟩
abbrev main_call7_cst_1 : Ref sig .tc := ⟨.hbm, 735, rfl⟩
abbrev main_call7_v8 : Ref sig .tc := ⟨.hbm, 736, rfl⟩
abbrev main_call7_cst_2 : Ref sig .tc := ⟨.hbm, 737, rfl⟩
abbrev main_call7_v9 : Ref sig .tc := ⟨.hbm, 738, rfl⟩
abbrev main_call7_v10 : Ref sig .tc := ⟨.hbm, 739, rfl⟩
abbrev main_call7_v11 : Ref sig .tc := ⟨.hbm, 740, rfl⟩
abbrev main_call7_cst_3 : Ref sig .tc := ⟨.hbm, 741, rfl⟩
abbrev main_call7_v12 : Ref sig .tc := ⟨.hbm, 742, rfl⟩
abbrev main_call7_cst_4 : Ref sig .tc := ⟨.hbm, 743, rfl⟩
abbrev main_call7_call0_v0 : Ref sig .tc := ⟨.hbm, 744, rfl⟩
abbrev main_call7_call0_v1 : Ref sig .tc := ⟨.hbm, 745, rfl⟩
abbrev main_v526 : Ref sig .tc := ⟨.hbm, 746, rfl⟩
abbrev main_v527 : Ref sig .tc := ⟨.hbm, 747, rfl⟩
abbrev main_v528 : Ref sig .tc := ⟨.hbm, 748, rfl⟩
abbrev main_v529 : Ref sig .tc := ⟨.hbm, 749, rfl⟩
abbrev main_cst_97 : Ref sig .tc := ⟨.hbm, 750, rfl⟩
abbrev main_v530 : Ref sig .tc := ⟨.hbm, 751, rfl⟩
abbrev main_v531 : Ref sig .tc := ⟨.hbm, 752, rfl⟩
abbrev main_v532 : Ref sig .tc := ⟨.hbm, 753, rfl⟩
abbrev main_v533 : Ref sig .tc := ⟨.hbm, 754, rfl⟩
abbrev main_v534 : Ref sig .tc := ⟨.hbm, 755, rfl⟩
abbrev main_v535 : Ref sig .tc := ⟨.hbm, 756, rfl⟩
abbrev main_v536 : Ref sig .tc := ⟨.hbm, 757, rfl⟩
abbrev main_cst_98 : Ref sig .tc := ⟨.hbm, 758, rfl⟩
abbrev main_v537 : Ref sig .tc := ⟨.hbm, 759, rfl⟩
abbrev main_v538 : Ref sig .tc := ⟨.hbm, 760, rfl⟩
abbrev main_cst_99 : Ref sig .tc := ⟨.hbm, 761, rfl⟩
abbrev main_v539 : Ref sig .tc := ⟨.hbm, 762, rfl⟩
abbrev main_v540 : Ref sig .tc := ⟨.hbm, 763, rfl⟩
abbrev main_v541 : Ref sig .tc := ⟨.hbm, 764, rfl⟩
abbrev main_c_100 : Ref sig .tc := ⟨.hbm, 765, rfl⟩
abbrev main_v542 : Ref sig .tc := ⟨.hbm, 766, rfl⟩
abbrev main_v543 : Ref sig .tc := ⟨.hbm, 767, rfl⟩
abbrev main_c_101 : Ref sig .tc := ⟨.hbm, 768, rfl⟩
abbrev main_v544 : Ref sig .tc := ⟨.hbm, 769, rfl⟩
abbrev main_v545 : Ref sig .tc := ⟨.hbm, 770, rfl⟩
abbrev main_v546 : Ref sig .tc := ⟨.hbm, 771, rfl⟩
abbrev main_v547 : Ref sig .tc := ⟨.hbm, 772, rfl⟩
abbrev main_v548 : Ref sig .tc := ⟨.hbm, 773, rfl⟩
abbrev main_v549 : Ref sig .tc := ⟨.hbm, 774, rfl⟩
abbrev main_v550 : Ref sig .tc := ⟨.hbm, 775, rfl⟩
abbrev main_v551 : Ref sig .tc := ⟨.hbm, 776, rfl⟩
abbrev main_v552 : Ref sig .tc := ⟨.hbm, 777, rfl⟩
abbrev main_v553 : Ref sig .tc := ⟨.hbm, 778, rfl⟩
abbrev main_v554 : Ref sig .tc := ⟨.hbm, 779, rfl⟩
abbrev main_c_102 : Ref sig .tc := ⟨.hbm, 780, rfl⟩
abbrev main_v555 : Ref sig .tc := ⟨.hbm, 781, rfl⟩
abbrev main_v556 : Ref sig .tc := ⟨.hbm, 782, rfl⟩
abbrev main_c_103 : Ref sig .tc := ⟨.hbm, 783, rfl⟩
abbrev main_v557 : Ref sig .tc := ⟨.hbm, 784, rfl⟩
abbrev main_v558 : Ref sig .tc := ⟨.hbm, 785, rfl⟩
abbrev main_v559 : Ref sig .tc := ⟨.hbm, 786, rfl⟩
abbrev main_v560 : Ref sig .tc := ⟨.hbm, 787, rfl⟩
abbrev main_v561 : Ref sig .tc := ⟨.hbm, 788, rfl⟩
abbrev main_v562 : Ref sig .tc := ⟨.hbm, 789, rfl⟩
abbrev main_v563 : Ref sig .tc := ⟨.hbm, 790, rfl⟩
abbrev main_v564 : Ref sig .tc := ⟨.hbm, 791, rfl⟩
abbrev main_v565 : Ref sig .tc := ⟨.hbm, 792, rfl⟩
abbrev main_v566 : Ref sig .tc := ⟨.hbm, 793, rfl⟩
abbrev main_v567 : Ref sig .tc := ⟨.hbm, 794, rfl⟩
abbrev main_c_104 : Ref sig .tc := ⟨.hbm, 795, rfl⟩
abbrev main_v568 : Ref sig .tc := ⟨.hbm, 796, rfl⟩
abbrev main_v569 : Ref sig .tc := ⟨.hbm, 797, rfl⟩
abbrev main_c_105 : Ref sig .tc := ⟨.hbm, 798, rfl⟩
abbrev main_v570 : Ref sig .tc := ⟨.hbm, 799, rfl⟩
abbrev main_v571 : Ref sig .tc := ⟨.hbm, 800, rfl⟩
abbrev main_v572 : Ref sig .tc := ⟨.hbm, 801, rfl⟩
abbrev main_v573 : Ref sig .tc := ⟨.hbm, 802, rfl⟩
abbrev main_v574 : Ref sig .tc := ⟨.hbm, 803, rfl⟩
abbrev main_v575 : Ref sig .tc := ⟨.hbm, 804, rfl⟩
abbrev main_v576 : Ref sig .tc := ⟨.hbm, 805, rfl⟩
abbrev main_v577 : Ref sig .tc := ⟨.hbm, 806, rfl⟩
abbrev main_v578 : Ref sig .tc := ⟨.hbm, 807, rfl⟩
abbrev main_v579 : Ref sig .tc := ⟨.hbm, 808, rfl⟩
abbrev main_v580 : Ref sig .tc := ⟨.hbm, 809, rfl⟩
abbrev main_c_106 : Ref sig .tc := ⟨.hbm, 810, rfl⟩
abbrev main_v581 : Ref sig .tc := ⟨.hbm, 811, rfl⟩
abbrev main_v582 : Ref sig .tc := ⟨.hbm, 812, rfl⟩
abbrev main_c_107 : Ref sig .tc := ⟨.hbm, 813, rfl⟩
abbrev main_v583 : Ref sig .tc := ⟨.hbm, 814, rfl⟩
abbrev main_v584 : Ref sig .tc := ⟨.hbm, 815, rfl⟩
abbrev main_v585 : Ref sig .tc := ⟨.hbm, 816, rfl⟩
abbrev main_v586 : Ref sig .tc := ⟨.hbm, 817, rfl⟩
abbrev main_v587 : Ref sig .tc := ⟨.hbm, 818, rfl⟩
abbrev main_v588 : Ref sig .tc := ⟨.hbm, 819, rfl⟩
abbrev main_v589 : Ref sig .tc := ⟨.hbm, 820, rfl⟩
abbrev main_v590 : Ref sig .tc := ⟨.hbm, 821, rfl⟩
abbrev main_v591 : Ref sig .tc := ⟨.hbm, 822, rfl⟩
abbrev main_v592 : Ref sig .tc := ⟨.hbm, 823, rfl⟩
abbrev main_v593 : Ref sig .tc := ⟨.hbm, 824, rfl⟩
abbrev main_c_108 : Ref sig .tc := ⟨.hbm, 825, rfl⟩
abbrev main_v594 : Ref sig .tc := ⟨.hbm, 826, rfl⟩
abbrev main_v595 : Ref sig .tc := ⟨.hbm, 827, rfl⟩
abbrev main_c_109 : Ref sig .tc := ⟨.hbm, 828, rfl⟩
abbrev main_v596 : Ref sig .tc := ⟨.hbm, 829, rfl⟩
abbrev main_v597 : Ref sig .tc := ⟨.hbm, 830, rfl⟩
abbrev main_v598 : Ref sig .tc := ⟨.hbm, 831, rfl⟩
abbrev main_v599 : Ref sig .tc := ⟨.hbm, 832, rfl⟩
abbrev main_v600 : Ref sig .tc := ⟨.hbm, 833, rfl⟩
abbrev main_v601 : Ref sig .tc := ⟨.hbm, 834, rfl⟩
abbrev main_v602 : Ref sig .tc := ⟨.hbm, 835, rfl⟩
abbrev main_v603 : Ref sig .tc := ⟨.hbm, 836, rfl⟩
abbrev main_v604 : Ref sig .tc := ⟨.hbm, 837, rfl⟩
abbrev main_v605 : Ref sig .tc := ⟨.hbm, 838, rfl⟩
abbrev main_v606 : Ref sig .tc := ⟨.hbm, 839, rfl⟩
abbrev main_c_110 : Ref sig .tc := ⟨.hbm, 840, rfl⟩
abbrev main_v607 : Ref sig .tc := ⟨.hbm, 841, rfl⟩
abbrev main_v608 : Ref sig .tc := ⟨.hbm, 842, rfl⟩
abbrev main_c_111 : Ref sig .tc := ⟨.hbm, 843, rfl⟩
abbrev main_v609 : Ref sig .tc := ⟨.hbm, 844, rfl⟩
abbrev main_v610 : Ref sig .tc := ⟨.hbm, 845, rfl⟩
abbrev main_v611 : Ref sig .tc := ⟨.hbm, 846, rfl⟩
abbrev main_v612 : Ref sig .tc := ⟨.hbm, 847, rfl⟩
abbrev main_v613 : Ref sig .tc := ⟨.hbm, 848, rfl⟩
abbrev main_v614 : Ref sig .tc := ⟨.hbm, 849, rfl⟩
abbrev main_v615 : Ref sig .tc := ⟨.hbm, 850, rfl⟩
abbrev main_v616 : Ref sig .tc := ⟨.hbm, 851, rfl⟩
abbrev main_v617 : Ref sig .tc := ⟨.hbm, 852, rfl⟩
abbrev main_v618 : Ref sig .tc := ⟨.hbm, 853, rfl⟩
abbrev main_v619 : Ref sig .tc := ⟨.hbm, 854, rfl⟩
abbrev main_c_112 : Ref sig .tc := ⟨.hbm, 855, rfl⟩
abbrev main_v620 : Ref sig .tc := ⟨.hbm, 856, rfl⟩
abbrev main_v621 : Ref sig .tc := ⟨.hbm, 857, rfl⟩
abbrev main_c_113 : Ref sig .tc := ⟨.hbm, 858, rfl⟩
abbrev main_v622 : Ref sig .tc := ⟨.hbm, 859, rfl⟩
abbrev main_v623 : Ref sig .tc := ⟨.hbm, 860, rfl⟩
abbrev main_v624 : Ref sig .tc := ⟨.hbm, 861, rfl⟩
abbrev main_v625 : Ref sig .tc := ⟨.hbm, 862, rfl⟩
abbrev main_v626 : Ref sig .tc := ⟨.hbm, 863, rfl⟩
abbrev main_v627 : Ref sig .tc := ⟨.hbm, 864, rfl⟩
abbrev main_v628 : Ref sig .tc := ⟨.hbm, 865, rfl⟩
abbrev main_v629 : Ref sig .tc := ⟨.hbm, 866, rfl⟩
abbrev main_v630 : Ref sig .tc := ⟨.hbm, 867, rfl⟩
abbrev main_v631 : Ref sig .tc := ⟨.hbm, 868, rfl⟩
abbrev main_v632 : Ref sig .tc := ⟨.hbm, 869, rfl⟩
abbrev main_c_114 : Ref sig .tc := ⟨.hbm, 870, rfl⟩
abbrev main_v633 : Ref sig .tc := ⟨.hbm, 871, rfl⟩
abbrev main_v634 : Ref sig .tc := ⟨.hbm, 872, rfl⟩
abbrev main_c_115 : Ref sig .tc := ⟨.hbm, 873, rfl⟩
abbrev main_v635 : Ref sig .tc := ⟨.hbm, 874, rfl⟩
abbrev main_v636 : Ref sig .tc := ⟨.hbm, 875, rfl⟩
abbrev main_v637 : Ref sig .tc := ⟨.hbm, 876, rfl⟩
abbrev main_v638 : Ref sig .tc := ⟨.hbm, 877, rfl⟩
abbrev main_v639 : Ref sig .tc := ⟨.hbm, 878, rfl⟩
abbrev main_v640 : Ref sig .tc := ⟨.hbm, 879, rfl⟩
abbrev main_v641 : Ref sig .tc := ⟨.hbm, 880, rfl⟩
abbrev main_v642 : Ref sig .tc := ⟨.hbm, 881, rfl⟩
abbrev main_v643 : Ref sig .tc := ⟨.hbm, 882, rfl⟩
abbrev main_v644 : Ref sig .tc := ⟨.hbm, 883, rfl⟩
abbrev main_v645 : Ref sig .tc := ⟨.hbm, 884, rfl⟩
abbrev main_c_116 : Ref sig .tc := ⟨.hbm, 885, rfl⟩
abbrev main_v646 : Ref sig .tc := ⟨.hbm, 886, rfl⟩
abbrev main_v647 : Ref sig .tc := ⟨.hbm, 887, rfl⟩
abbrev main_c_117 : Ref sig .tc := ⟨.hbm, 888, rfl⟩
abbrev main_v648 : Ref sig .tc := ⟨.hbm, 889, rfl⟩
abbrev main_v649 : Ref sig .tc := ⟨.hbm, 890, rfl⟩
abbrev main_v650 : Ref sig .tc := ⟨.hbm, 891, rfl⟩
abbrev main_v651 : Ref sig .tc := ⟨.hbm, 892, rfl⟩
abbrev main_v652 : Ref sig .tc := ⟨.hbm, 893, rfl⟩
abbrev main_v653 : Ref sig .tc := ⟨.hbm, 894, rfl⟩
abbrev main_v654 : Ref sig .tc := ⟨.hbm, 895, rfl⟩
abbrev main_v655 : Ref sig .tc := ⟨.hbm, 896, rfl⟩
abbrev main_v656 : Ref sig .tc := ⟨.hbm, 897, rfl⟩
abbrev main_cst_118 : Ref sig .tc := ⟨.hbm, 898, rfl⟩
abbrev main_call8_cst : Ref sig .tc := ⟨.hbm, 899, rfl⟩
abbrev main_call8_v0 : Ref sig .tc := ⟨.hbm, 900, rfl⟩
abbrev main_call8_v1 : Ref sig .tc := ⟨.hbm, 901, rfl⟩
abbrev main_call8_v2 : Ref sig .tc := ⟨.hbm, 902, rfl⟩
abbrev main_call8_v3 : Ref sig .tc := ⟨.hbm, 903, rfl⟩
abbrev main_call8_v4 : Ref sig .tc := ⟨.hbm, 904, rfl⟩
abbrev main_v657 : Ref sig .tc := ⟨.hbm, 905, rfl⟩
abbrev main_cst_119 : Ref sig .tc := ⟨.hbm, 906, rfl⟩
abbrev main_v658 : Ref sig .tc := ⟨.hbm, 907, rfl⟩
abbrev main_cst_120 : Ref sig .tc := ⟨.hbm, 908, rfl⟩
abbrev main_v659 : Ref sig .tc := ⟨.hbm, 909, rfl⟩
abbrev main_v660 : Ref sig .tc := ⟨.hbm, 910, rfl⟩
abbrev main_c_121 : Ref sig .tc := ⟨.hbm, 911, rfl⟩
abbrev main_call9_cst : Ref sig .tc := ⟨.hbm, 912, rfl⟩
abbrev main_call9_v0 : Ref sig .tc := ⟨.hbm, 913, rfl⟩
abbrev main_call9_v1 : Ref sig .tc := ⟨.hbm, 914, rfl⟩
abbrev main_call9_cst_0 : Ref sig .tc := ⟨.hbm, 915, rfl⟩
abbrev main_call9_v2 : Ref sig .tc := ⟨.hbm, 916, rfl⟩
abbrev main_call9_v3 : Ref sig .tc := ⟨.hbm, 917, rfl⟩
abbrev main_call9_v4 : Ref sig .tc := ⟨.hbm, 918, rfl⟩
abbrev main_call9_v5 : Ref sig .tc := ⟨.hbm, 919, rfl⟩
abbrev main_call9_v6 : Ref sig .tc := ⟨.hbm, 920, rfl⟩
abbrev main_call9_v7 : Ref sig .tc := ⟨.hbm, 921, rfl⟩
abbrev main_call9_cst_1 : Ref sig .tc := ⟨.hbm, 922, rfl⟩
abbrev main_call9_v8 : Ref sig .tc := ⟨.hbm, 923, rfl⟩
abbrev main_call9_cst_2 : Ref sig .tc := ⟨.hbm, 924, rfl⟩
abbrev main_call9_v9 : Ref sig .tc := ⟨.hbm, 925, rfl⟩
abbrev main_call9_v10 : Ref sig .tc := ⟨.hbm, 926, rfl⟩
abbrev main_call9_v11 : Ref sig .tc := ⟨.hbm, 927, rfl⟩
abbrev main_call9_cst_3 : Ref sig .tc := ⟨.hbm, 928, rfl⟩
abbrev main_call9_v12 : Ref sig .tc := ⟨.hbm, 929, rfl⟩
abbrev main_call9_cst_4 : Ref sig .tc := ⟨.hbm, 930, rfl⟩
abbrev main_call9_call0_v0 : Ref sig .tc := ⟨.hbm, 931, rfl⟩
abbrev main_call9_call0_v1 : Ref sig .tc := ⟨.hbm, 932, rfl⟩
abbrev main_v661 : Ref sig .tc := ⟨.hbm, 933, rfl⟩
abbrev main_v662 : Ref sig .tc := ⟨.hbm, 934, rfl⟩
abbrev main_v663 : Ref sig .tc := ⟨.hbm, 935, rfl⟩
abbrev main_v664 : Ref sig .tc := ⟨.hbm, 936, rfl⟩
abbrev main_cst_122 : Ref sig .tc := ⟨.hbm, 937, rfl⟩
abbrev main_v665 : Ref sig .tc := ⟨.hbm, 938, rfl⟩
abbrev main_v666 : Ref sig .tc := ⟨.hbm, 939, rfl⟩
abbrev main_v667 : Ref sig .tc := ⟨.hbm, 940, rfl⟩
abbrev main_v668 : Ref sig .tc := ⟨.hbm, 941, rfl⟩
abbrev main_v669 : Ref sig .tc := ⟨.hbm, 942, rfl⟩
abbrev main_v670 : Ref sig .tc := ⟨.hbm, 943, rfl⟩
abbrev main_cst_123 : Ref sig .tc := ⟨.hbm, 944, rfl⟩
abbrev main_v671 : Ref sig .tc := ⟨.hbm, 945, rfl⟩
abbrev main_v672 : Ref sig .tc := ⟨.hbm, 946, rfl⟩
abbrev main_cst_124 : Ref sig .tc := ⟨.hbm, 947, rfl⟩
abbrev main_v673 : Ref sig .tc := ⟨.hbm, 948, rfl⟩
abbrev main_v674 : Ref sig .tc := ⟨.hbm, 949, rfl⟩
abbrev main_v675 : Ref sig .tc := ⟨.hbm, 950, rfl⟩
abbrev main_c_125 : Ref sig .tc := ⟨.hbm, 951, rfl⟩
abbrev main_v676 : Ref sig .tc := ⟨.hbm, 952, rfl⟩
abbrev main_v677 : Ref sig .tc := ⟨.hbm, 953, rfl⟩
abbrev main_c_126 : Ref sig .tc := ⟨.hbm, 954, rfl⟩
abbrev main_v678 : Ref sig .tc := ⟨.hbm, 955, rfl⟩
abbrev main_v679 : Ref sig .tc := ⟨.hbm, 956, rfl⟩
abbrev main_v680 : Ref sig .tc := ⟨.hbm, 957, rfl⟩
abbrev main_v681 : Ref sig .tc := ⟨.hbm, 958, rfl⟩
abbrev main_v682 : Ref sig .tc := ⟨.hbm, 959, rfl⟩
abbrev main_v683 : Ref sig .tc := ⟨.hbm, 960, rfl⟩
abbrev main_v684 : Ref sig .tc := ⟨.hbm, 961, rfl⟩
abbrev main_v685 : Ref sig .tc := ⟨.hbm, 962, rfl⟩
abbrev main_v686 : Ref sig .tc := ⟨.hbm, 963, rfl⟩
abbrev main_v687 : Ref sig .tc := ⟨.hbm, 964, rfl⟩
abbrev main_v688 : Ref sig .tc := ⟨.hbm, 965, rfl⟩
abbrev main_c_127 : Ref sig .tc := ⟨.hbm, 966, rfl⟩
abbrev main_v689 : Ref sig .tc := ⟨.hbm, 967, rfl⟩
abbrev main_v690 : Ref sig .tc := ⟨.hbm, 968, rfl⟩
abbrev main_c_128 : Ref sig .tc := ⟨.hbm, 969, rfl⟩
abbrev main_v691 : Ref sig .tc := ⟨.hbm, 970, rfl⟩
abbrev main_v692 : Ref sig .tc := ⟨.hbm, 971, rfl⟩
abbrev main_v693 : Ref sig .tc := ⟨.hbm, 972, rfl⟩
abbrev main_v694 : Ref sig .tc := ⟨.hbm, 973, rfl⟩
abbrev main_v695 : Ref sig .tc := ⟨.hbm, 974, rfl⟩
abbrev main_v696 : Ref sig .tc := ⟨.hbm, 975, rfl⟩
abbrev main_v697 : Ref sig .tc := ⟨.hbm, 976, rfl⟩
abbrev main_v698 : Ref sig .tc := ⟨.hbm, 977, rfl⟩
abbrev main_v699 : Ref sig .tc := ⟨.hbm, 978, rfl⟩
abbrev main_v700 : Ref sig .tc := ⟨.hbm, 979, rfl⟩
abbrev main_v701 : Ref sig .tc := ⟨.hbm, 980, rfl⟩
abbrev main_c_129 : Ref sig .tc := ⟨.hbm, 981, rfl⟩
abbrev main_v702 : Ref sig .tc := ⟨.hbm, 982, rfl⟩
abbrev main_v703 : Ref sig .tc := ⟨.hbm, 983, rfl⟩
abbrev main_c_130 : Ref sig .tc := ⟨.hbm, 984, rfl⟩
abbrev main_v704 : Ref sig .tc := ⟨.hbm, 985, rfl⟩
abbrev main_v705 : Ref sig .tc := ⟨.hbm, 986, rfl⟩
abbrev main_v706 : Ref sig .tc := ⟨.hbm, 987, rfl⟩
abbrev main_v707 : Ref sig .tc := ⟨.hbm, 988, rfl⟩
abbrev main_v708 : Ref sig .tc := ⟨.hbm, 989, rfl⟩
abbrev main_v709 : Ref sig .tc := ⟨.hbm, 990, rfl⟩
abbrev main_v710 : Ref sig .tc := ⟨.hbm, 991, rfl⟩
abbrev main_v711 : Ref sig .tc := ⟨.hbm, 992, rfl⟩
abbrev main_v712 : Ref sig .tc := ⟨.hbm, 993, rfl⟩
abbrev main_v713 : Ref sig .tc := ⟨.hbm, 994, rfl⟩
abbrev main_v714 : Ref sig .tc := ⟨.hbm, 995, rfl⟩
abbrev main_c_131 : Ref sig .tc := ⟨.hbm, 996, rfl⟩
abbrev main_v715 : Ref sig .tc := ⟨.hbm, 997, rfl⟩
abbrev main_v716 : Ref sig .tc := ⟨.hbm, 998, rfl⟩
abbrev main_c_132 : Ref sig .tc := ⟨.hbm, 999, rfl⟩
abbrev main_v717 : Ref sig .tc := ⟨.hbm, 1000, rfl⟩
abbrev main_v718 : Ref sig .tc := ⟨.hbm, 1001, rfl⟩
abbrev main_v719 : Ref sig .tc := ⟨.hbm, 1002, rfl⟩
abbrev main_v720 : Ref sig .tc := ⟨.hbm, 1003, rfl⟩
abbrev main_v721 : Ref sig .tc := ⟨.hbm, 1004, rfl⟩
abbrev main_v722 : Ref sig .tc := ⟨.hbm, 1005, rfl⟩
abbrev main_v723 : Ref sig .tc := ⟨.hbm, 1006, rfl⟩
abbrev main_v724 : Ref sig .tc := ⟨.hbm, 1007, rfl⟩
abbrev main_v725 : Ref sig .tc := ⟨.hbm, 1008, rfl⟩
abbrev main_v726 : Ref sig .tc := ⟨.hbm, 1009, rfl⟩
abbrev main_v727 : Ref sig .tc := ⟨.hbm, 1010, rfl⟩
abbrev main_c_133 : Ref sig .tc := ⟨.hbm, 1011, rfl⟩
abbrev main_v728 : Ref sig .tc := ⟨.hbm, 1012, rfl⟩
abbrev main_v729 : Ref sig .tc := ⟨.hbm, 1013, rfl⟩
abbrev main_c_134 : Ref sig .tc := ⟨.hbm, 1014, rfl⟩
abbrev main_v730 : Ref sig .tc := ⟨.hbm, 1015, rfl⟩
abbrev main_v731 : Ref sig .tc := ⟨.hbm, 1016, rfl⟩
abbrev main_v732 : Ref sig .tc := ⟨.hbm, 1017, rfl⟩
abbrev main_v733 : Ref sig .tc := ⟨.hbm, 1018, rfl⟩
abbrev main_v734 : Ref sig .tc := ⟨.hbm, 1019, rfl⟩
abbrev main_v735 : Ref sig .tc := ⟨.hbm, 1020, rfl⟩
abbrev main_v736 : Ref sig .tc := ⟨.hbm, 1021, rfl⟩
abbrev main_v737 : Ref sig .tc := ⟨.hbm, 1022, rfl⟩
abbrev main_v738 : Ref sig .tc := ⟨.hbm, 1023, rfl⟩
abbrev main_v739 : Ref sig .tc := ⟨.hbm, 1024, rfl⟩
abbrev main_v740 : Ref sig .tc := ⟨.hbm, 1025, rfl⟩
abbrev main_c_135 : Ref sig .tc := ⟨.hbm, 1026, rfl⟩
abbrev main_v741 : Ref sig .tc := ⟨.hbm, 1027, rfl⟩
abbrev main_v742 : Ref sig .tc := ⟨.hbm, 1028, rfl⟩
abbrev main_c_136 : Ref sig .tc := ⟨.hbm, 1029, rfl⟩
abbrev main_v743 : Ref sig .tc := ⟨.hbm, 1030, rfl⟩
abbrev main_v744 : Ref sig .tc := ⟨.hbm, 1031, rfl⟩
abbrev main_v745 : Ref sig .tc := ⟨.hbm, 1032, rfl⟩
abbrev main_v746 : Ref sig .tc := ⟨.hbm, 1033, rfl⟩
abbrev main_v747 : Ref sig .tc := ⟨.hbm, 1034, rfl⟩
abbrev main_v748 : Ref sig .tc := ⟨.hbm, 1035, rfl⟩
abbrev main_v749 : Ref sig .tc := ⟨.hbm, 1036, rfl⟩
abbrev main_v750 : Ref sig .tc := ⟨.hbm, 1037, rfl⟩
abbrev main_v751 : Ref sig .tc := ⟨.hbm, 1038, rfl⟩
abbrev main_v752 : Ref sig .tc := ⟨.hbm, 1039, rfl⟩
abbrev main_v753 : Ref sig .tc := ⟨.hbm, 1040, rfl⟩
abbrev main_c_137 : Ref sig .tc := ⟨.hbm, 1041, rfl⟩
abbrev main_v754 : Ref sig .tc := ⟨.hbm, 1042, rfl⟩
abbrev main_v755 : Ref sig .tc := ⟨.hbm, 1043, rfl⟩
abbrev main_c_138 : Ref sig .tc := ⟨.hbm, 1044, rfl⟩
abbrev main_v756 : Ref sig .tc := ⟨.hbm, 1045, rfl⟩
abbrev main_v757 : Ref sig .tc := ⟨.hbm, 1046, rfl⟩
abbrev main_v758 : Ref sig .tc := ⟨.hbm, 1047, rfl⟩
abbrev main_v759 : Ref sig .tc := ⟨.hbm, 1048, rfl⟩
abbrev main_v760 : Ref sig .tc := ⟨.hbm, 1049, rfl⟩
abbrev main_v761 : Ref sig .tc := ⟨.hbm, 1050, rfl⟩
abbrev main_v762 : Ref sig .tc := ⟨.hbm, 1051, rfl⟩
abbrev main_v763 : Ref sig .tc := ⟨.hbm, 1052, rfl⟩
abbrev main_v764 : Ref sig .tc := ⟨.hbm, 1053, rfl⟩
abbrev main_v765 : Ref sig .tc := ⟨.hbm, 1054, rfl⟩
abbrev main_v766 : Ref sig .tc := ⟨.hbm, 1055, rfl⟩
abbrev main_c_139 : Ref sig .tc := ⟨.hbm, 1056, rfl⟩
abbrev main_v767 : Ref sig .tc := ⟨.hbm, 1057, rfl⟩
abbrev main_v768 : Ref sig .tc := ⟨.hbm, 1058, rfl⟩
abbrev main_c_140 : Ref sig .tc := ⟨.hbm, 1059, rfl⟩
abbrev main_v769 : Ref sig .tc := ⟨.hbm, 1060, rfl⟩
abbrev main_v770 : Ref sig .tc := ⟨.hbm, 1061, rfl⟩
abbrev main_v771 : Ref sig .tc := ⟨.hbm, 1062, rfl⟩
abbrev main_v772 : Ref sig .tc := ⟨.hbm, 1063, rfl⟩
abbrev main_v773 : Ref sig .tc := ⟨.hbm, 1064, rfl⟩
abbrev main_v774 : Ref sig .tc := ⟨.hbm, 1065, rfl⟩
abbrev main_v775 : Ref sig .tc := ⟨.hbm, 1066, rfl⟩
abbrev main_v776 : Ref sig .tc := ⟨.hbm, 1067, rfl⟩
abbrev main_v777 : Ref sig .tc := ⟨.hbm, 1068, rfl⟩
abbrev main_v778 : Ref sig .tc := ⟨.hbm, 1069, rfl⟩
abbrev main_v779 : Ref sig .tc := ⟨.hbm, 1070, rfl⟩
abbrev main_c_141 : Ref sig .tc := ⟨.hbm, 1071, rfl⟩
abbrev main_v780 : Ref sig .tc := ⟨.hbm, 1072, rfl⟩
abbrev main_v781 : Ref sig .tc := ⟨.hbm, 1073, rfl⟩
abbrev main_c_142 : Ref sig .tc := ⟨.hbm, 1074, rfl⟩
abbrev main_v782 : Ref sig .tc := ⟨.hbm, 1075, rfl⟩
abbrev main_v783 : Ref sig .tc := ⟨.hbm, 1076, rfl⟩
abbrev main_v784 : Ref sig .tc := ⟨.hbm, 1077, rfl⟩
abbrev main_v785 : Ref sig .tc := ⟨.hbm, 1078, rfl⟩
abbrev main_v786 : Ref sig .tc := ⟨.hbm, 1079, rfl⟩
abbrev main_v787 : Ref sig .tc := ⟨.hbm, 1080, rfl⟩
abbrev main_v788 : Ref sig .tc := ⟨.hbm, 1081, rfl⟩
abbrev main_v789 : Ref sig .tc := ⟨.hbm, 1082, rfl⟩
abbrev main_v790 : Ref sig .tc := ⟨.hbm, 1083, rfl⟩
abbrev main_cst_143 : Ref sig .tc := ⟨.hbm, 1084, rfl⟩
abbrev main_call10_cst : Ref sig .tc := ⟨.hbm, 1085, rfl⟩
abbrev main_call10_v0 : Ref sig .tc := ⟨.hbm, 1086, rfl⟩
abbrev main_call10_v1 : Ref sig .tc := ⟨.hbm, 1087, rfl⟩
abbrev main_call10_v2 : Ref sig .tc := ⟨.hbm, 1088, rfl⟩
abbrev main_call10_v3 : Ref sig .tc := ⟨.hbm, 1089, rfl⟩
abbrev main_call10_v4 : Ref sig .tc := ⟨.hbm, 1090, rfl⟩
abbrev main_v791 : Ref sig .tc := ⟨.hbm, 1091, rfl⟩
abbrev main_cst_144 : Ref sig .tc := ⟨.hbm, 1092, rfl⟩
abbrev main_v792 : Ref sig .tc := ⟨.hbm, 1093, rfl⟩
abbrev main_cst_145 : Ref sig .tc := ⟨.hbm, 1094, rfl⟩
abbrev main_v793 : Ref sig .tc := ⟨.hbm, 1095, rfl⟩
abbrev main_v794 : Ref sig .tc := ⟨.hbm, 1096, rfl⟩
abbrev main_c_146 : Ref sig .tc := ⟨.hbm, 1097, rfl⟩
abbrev main_call11_cst : Ref sig .tc := ⟨.hbm, 1098, rfl⟩
abbrev main_call11_v0 : Ref sig .tc := ⟨.hbm, 1099, rfl⟩
abbrev main_call11_v1 : Ref sig .tc := ⟨.hbm, 1100, rfl⟩
abbrev main_call11_cst_0 : Ref sig .tc := ⟨.hbm, 1101, rfl⟩
abbrev main_call11_v2 : Ref sig .tc := ⟨.hbm, 1102, rfl⟩
abbrev main_call11_v3 : Ref sig .tc := ⟨.hbm, 1103, rfl⟩
abbrev main_call11_v4 : Ref sig .tc := ⟨.hbm, 1104, rfl⟩
abbrev main_call11_v5 : Ref sig .tc := ⟨.hbm, 1105, rfl⟩
abbrev main_call11_v6 : Ref sig .tc := ⟨.hbm, 1106, rfl⟩
abbrev main_call11_v7 : Ref sig .tc := ⟨.hbm, 1107, rfl⟩
abbrev main_call11_cst_1 : Ref sig .tc := ⟨.hbm, 1108, rfl⟩
abbrev main_call11_v8 : Ref sig .tc := ⟨.hbm, 1109, rfl⟩
abbrev main_call11_cst_2 : Ref sig .tc := ⟨.hbm, 1110, rfl⟩
abbrev main_call11_v9 : Ref sig .tc := ⟨.hbm, 1111, rfl⟩
abbrev main_call11_v10 : Ref sig .tc := ⟨.hbm, 1112, rfl⟩
abbrev main_call11_v11 : Ref sig .tc := ⟨.hbm, 1113, rfl⟩
abbrev main_call11_cst_3 : Ref sig .tc := ⟨.hbm, 1114, rfl⟩
abbrev main_call11_v12 : Ref sig .tc := ⟨.hbm, 1115, rfl⟩
abbrev main_call11_cst_4 : Ref sig .tc := ⟨.hbm, 1116, rfl⟩
abbrev main_call11_call0_v0 : Ref sig .tc := ⟨.hbm, 1117, rfl⟩
abbrev main_call11_call0_v1 : Ref sig .tc := ⟨.hbm, 1118, rfl⟩
abbrev main_v795 : Ref sig .tc := ⟨.hbm, 1119, rfl⟩
abbrev main_v796 : Ref sig .tc := ⟨.hbm, 1120, rfl⟩
abbrev main_v797 : Ref sig .tc := ⟨.hbm, 1121, rfl⟩
abbrev main_v798 : Ref sig .tc := ⟨.hbm, 1122, rfl⟩
abbrev main_cst_147 : Ref sig .tc := ⟨.hbm, 1123, rfl⟩
abbrev main_v799 : Ref sig .tc := ⟨.hbm, 1124, rfl⟩
abbrev main_v800 : Ref sig .tc := ⟨.hbm, 1125, rfl⟩
abbrev main_v801 : Ref sig .tc := ⟨.hbm, 1126, rfl⟩
abbrev main_v802 : Ref sig .tc := ⟨.hbm, 1127, rfl⟩
abbrev main_v803 : Ref sig .tc := ⟨.hbm, 1128, rfl⟩
abbrev main_v804 : Ref sig .tc := ⟨.hbm, 1129, rfl⟩
abbrev main_cst_148 : Ref sig .tc := ⟨.hbm, 1130, rfl⟩
abbrev main_v805 : Ref sig .tc := ⟨.hbm, 1131, rfl⟩
abbrev main_v806 : Ref sig .tc := ⟨.hbm, 1132, rfl⟩
abbrev main_cst_149 : Ref sig .tc := ⟨.hbm, 1133, rfl⟩
abbrev main_v807 : Ref sig .tc := ⟨.hbm, 1134, rfl⟩
abbrev main_v808 : Ref sig .tc := ⟨.hbm, 1135, rfl⟩
abbrev main_v809 : Ref sig .tc := ⟨.hbm, 1136, rfl⟩
abbrev main_c_150 : Ref sig .tc := ⟨.hbm, 1137, rfl⟩
abbrev main_v810 : Ref sig .tc := ⟨.hbm, 1138, rfl⟩
abbrev main_v811 : Ref sig .tc := ⟨.hbm, 1139, rfl⟩
abbrev main_c_151 : Ref sig .tc := ⟨.hbm, 1140, rfl⟩
abbrev main_v812 : Ref sig .tc := ⟨.hbm, 1141, rfl⟩
abbrev main_v813 : Ref sig .tc := ⟨.hbm, 1142, rfl⟩
abbrev main_v814 : Ref sig .tc := ⟨.hbm, 1143, rfl⟩
abbrev main_v815 : Ref sig .tc := ⟨.hbm, 1144, rfl⟩
abbrev main_v816 : Ref sig .tc := ⟨.hbm, 1145, rfl⟩
abbrev main_v817 : Ref sig .tc := ⟨.hbm, 1146, rfl⟩
abbrev main_v818 : Ref sig .tc := ⟨.hbm, 1147, rfl⟩
abbrev main_v819 : Ref sig .tc := ⟨.hbm, 1148, rfl⟩
abbrev main_v820 : Ref sig .tc := ⟨.hbm, 1149, rfl⟩
abbrev main_v821 : Ref sig .tc := ⟨.hbm, 1150, rfl⟩
abbrev main_v822 : Ref sig .tc := ⟨.hbm, 1151, rfl⟩
abbrev main_c_152 : Ref sig .tc := ⟨.hbm, 1152, rfl⟩
abbrev main_v823 : Ref sig .tc := ⟨.hbm, 1153, rfl⟩
abbrev main_v824 : Ref sig .tc := ⟨.hbm, 1154, rfl⟩
abbrev main_c_153 : Ref sig .tc := ⟨.hbm, 1155, rfl⟩
abbrev main_v825 : Ref sig .tc := ⟨.hbm, 1156, rfl⟩
abbrev main_v826 : Ref sig .tc := ⟨.hbm, 1157, rfl⟩
abbrev main_v827 : Ref sig .tc := ⟨.hbm, 1158, rfl⟩
abbrev main_v828 : Ref sig .tc := ⟨.hbm, 1159, rfl⟩
abbrev main_v829 : Ref sig .tc := ⟨.hbm, 1160, rfl⟩
abbrev main_v830 : Ref sig .tc := ⟨.hbm, 1161, rfl⟩
abbrev main_v831 : Ref sig .tc := ⟨.hbm, 1162, rfl⟩
abbrev main_v832 : Ref sig .tc := ⟨.hbm, 1163, rfl⟩
abbrev main_v833 : Ref sig .tc := ⟨.hbm, 1164, rfl⟩
abbrev main_v834 : Ref sig .tc := ⟨.hbm, 1165, rfl⟩
abbrev main_v835 : Ref sig .tc := ⟨.hbm, 1166, rfl⟩
abbrev main_c_154 : Ref sig .tc := ⟨.hbm, 1167, rfl⟩
abbrev main_v836 : Ref sig .tc := ⟨.hbm, 1168, rfl⟩
abbrev main_v837 : Ref sig .tc := ⟨.hbm, 1169, rfl⟩
abbrev main_c_155 : Ref sig .tc := ⟨.hbm, 1170, rfl⟩
abbrev main_v838 : Ref sig .tc := ⟨.hbm, 1171, rfl⟩
abbrev main_v839 : Ref sig .tc := ⟨.hbm, 1172, rfl⟩
abbrev main_v840 : Ref sig .tc := ⟨.hbm, 1173, rfl⟩
abbrev main_v841 : Ref sig .tc := ⟨.hbm, 1174, rfl⟩
abbrev main_v842 : Ref sig .tc := ⟨.hbm, 1175, rfl⟩
abbrev main_v843 : Ref sig .tc := ⟨.hbm, 1176, rfl⟩
abbrev main_v844 : Ref sig .tc := ⟨.hbm, 1177, rfl⟩
abbrev main_v845 : Ref sig .tc := ⟨.hbm, 1178, rfl⟩
abbrev main_v846 : Ref sig .tc := ⟨.hbm, 1179, rfl⟩
abbrev main_v847 : Ref sig .tc := ⟨.hbm, 1180, rfl⟩
abbrev main_v848 : Ref sig .tc := ⟨.hbm, 1181, rfl⟩
abbrev main_c_156 : Ref sig .tc := ⟨.hbm, 1182, rfl⟩
abbrev main_v849 : Ref sig .tc := ⟨.hbm, 1183, rfl⟩
abbrev main_v850 : Ref sig .tc := ⟨.hbm, 1184, rfl⟩
abbrev main_c_157 : Ref sig .tc := ⟨.hbm, 1185, rfl⟩
abbrev main_v851 : Ref sig .tc := ⟨.hbm, 1186, rfl⟩
abbrev main_v852 : Ref sig .tc := ⟨.hbm, 1187, rfl⟩
abbrev main_v853 : Ref sig .tc := ⟨.hbm, 1188, rfl⟩
abbrev main_v854 : Ref sig .tc := ⟨.hbm, 1189, rfl⟩
abbrev main_v855 : Ref sig .tc := ⟨.hbm, 1190, rfl⟩
abbrev main_v856 : Ref sig .tc := ⟨.hbm, 1191, rfl⟩
abbrev main_v857 : Ref sig .tc := ⟨.hbm, 1192, rfl⟩
abbrev main_v858 : Ref sig .tc := ⟨.hbm, 1193, rfl⟩
abbrev main_v859 : Ref sig .tc := ⟨.hbm, 1194, rfl⟩
abbrev main_v860 : Ref sig .tc := ⟨.hbm, 1195, rfl⟩
abbrev main_v861 : Ref sig .tc := ⟨.hbm, 1196, rfl⟩
abbrev main_c_158 : Ref sig .tc := ⟨.hbm, 1197, rfl⟩
abbrev main_v862 : Ref sig .tc := ⟨.hbm, 1198, rfl⟩
abbrev main_v863 : Ref sig .tc := ⟨.hbm, 1199, rfl⟩
abbrev main_c_159 : Ref sig .tc := ⟨.hbm, 1200, rfl⟩
abbrev main_v864 : Ref sig .tc := ⟨.hbm, 1201, rfl⟩
abbrev main_v865 : Ref sig .tc := ⟨.hbm, 1202, rfl⟩
abbrev main_v866 : Ref sig .tc := ⟨.hbm, 1203, rfl⟩
abbrev main_v867 : Ref sig .tc := ⟨.hbm, 1204, rfl⟩
abbrev main_v868 : Ref sig .tc := ⟨.hbm, 1205, rfl⟩
abbrev main_v869 : Ref sig .tc := ⟨.hbm, 1206, rfl⟩
abbrev main_v870 : Ref sig .tc := ⟨.hbm, 1207, rfl⟩
abbrev main_v871 : Ref sig .tc := ⟨.hbm, 1208, rfl⟩
abbrev main_v872 : Ref sig .tc := ⟨.hbm, 1209, rfl⟩
abbrev main_v873 : Ref sig .tc := ⟨.hbm, 1210, rfl⟩
abbrev main_v874 : Ref sig .tc := ⟨.hbm, 1211, rfl⟩
abbrev main_c_160 : Ref sig .tc := ⟨.hbm, 1212, rfl⟩
abbrev main_v875 : Ref sig .tc := ⟨.hbm, 1213, rfl⟩
abbrev main_v876 : Ref sig .tc := ⟨.hbm, 1214, rfl⟩
abbrev main_c_161 : Ref sig .tc := ⟨.hbm, 1215, rfl⟩
abbrev main_v877 : Ref sig .tc := ⟨.hbm, 1216, rfl⟩
abbrev main_v878 : Ref sig .tc := ⟨.hbm, 1217, rfl⟩
abbrev main_v879 : Ref sig .tc := ⟨.hbm, 1218, rfl⟩
abbrev main_v880 : Ref sig .tc := ⟨.hbm, 1219, rfl⟩
abbrev main_v881 : Ref sig .tc := ⟨.hbm, 1220, rfl⟩
abbrev main_v882 : Ref sig .tc := ⟨.hbm, 1221, rfl⟩
abbrev main_v883 : Ref sig .tc := ⟨.hbm, 1222, rfl⟩
abbrev main_v884 : Ref sig .tc := ⟨.hbm, 1223, rfl⟩
abbrev main_v885 : Ref sig .tc := ⟨.hbm, 1224, rfl⟩
abbrev main_v886 : Ref sig .tc := ⟨.hbm, 1225, rfl⟩
abbrev main_v887 : Ref sig .tc := ⟨.hbm, 1226, rfl⟩
abbrev main_c_162 : Ref sig .tc := ⟨.hbm, 1227, rfl⟩
abbrev main_v888 : Ref sig .tc := ⟨.hbm, 1228, rfl⟩
abbrev main_v889 : Ref sig .tc := ⟨.hbm, 1229, rfl⟩
abbrev main_c_163 : Ref sig .tc := ⟨.hbm, 1230, rfl⟩
abbrev main_v890 : Ref sig .tc := ⟨.hbm, 1231, rfl⟩
abbrev main_v891 : Ref sig .tc := ⟨.hbm, 1232, rfl⟩
abbrev main_v892 : Ref sig .tc := ⟨.hbm, 1233, rfl⟩
abbrev main_v893 : Ref sig .tc := ⟨.hbm, 1234, rfl⟩
abbrev main_v894 : Ref sig .tc := ⟨.hbm, 1235, rfl⟩
abbrev main_v895 : Ref sig .tc := ⟨.hbm, 1236, rfl⟩
abbrev main_v896 : Ref sig .tc := ⟨.hbm, 1237, rfl⟩
abbrev main_v897 : Ref sig .tc := ⟨.hbm, 1238, rfl⟩
abbrev main_v898 : Ref sig .tc := ⟨.hbm, 1239, rfl⟩
abbrev main_v899 : Ref sig .tc := ⟨.hbm, 1240, rfl⟩
abbrev main_v900 : Ref sig .tc := ⟨.hbm, 1241, rfl⟩
abbrev main_c_164 : Ref sig .tc := ⟨.hbm, 1242, rfl⟩
abbrev main_v901 : Ref sig .tc := ⟨.hbm, 1243, rfl⟩
abbrev main_v902 : Ref sig .tc := ⟨.hbm, 1244, rfl⟩
abbrev main_c_165 : Ref sig .tc := ⟨.hbm, 1245, rfl⟩
abbrev main_v903 : Ref sig .tc := ⟨.hbm, 1246, rfl⟩
abbrev main_v904 : Ref sig .tc := ⟨.hbm, 1247, rfl⟩
abbrev main_v905 : Ref sig .tc := ⟨.hbm, 1248, rfl⟩
abbrev main_v906 : Ref sig .tc := ⟨.hbm, 1249, rfl⟩
abbrev main_v907 : Ref sig .tc := ⟨.hbm, 1250, rfl⟩
abbrev main_v908 : Ref sig .tc := ⟨.hbm, 1251, rfl⟩
abbrev main_v909 : Ref sig .tc := ⟨.hbm, 1252, rfl⟩
abbrev main_v910 : Ref sig .tc := ⟨.hbm, 1253, rfl⟩
abbrev main_v911 : Ref sig .tc := ⟨.hbm, 1254, rfl⟩
abbrev main_v912 : Ref sig .tc := ⟨.hbm, 1255, rfl⟩
abbrev main_v913 : Ref sig .tc := ⟨.hbm, 1256, rfl⟩
abbrev main_c_166 : Ref sig .tc := ⟨.hbm, 1257, rfl⟩
abbrev main_v914 : Ref sig .tc := ⟨.hbm, 1258, rfl⟩
abbrev main_v915 : Ref sig .tc := ⟨.hbm, 1259, rfl⟩
abbrev main_c_167 : Ref sig .tc := ⟨.hbm, 1260, rfl⟩
abbrev main_v916 : Ref sig .tc := ⟨.hbm, 1261, rfl⟩
abbrev main_v917 : Ref sig .tc := ⟨.hbm, 1262, rfl⟩
abbrev main_v918 : Ref sig .tc := ⟨.hbm, 1263, rfl⟩
abbrev main_v919 : Ref sig .tc := ⟨.hbm, 1264, rfl⟩
abbrev main_v920 : Ref sig .tc := ⟨.hbm, 1265, rfl⟩
abbrev main_v921 : Ref sig .tc := ⟨.hbm, 1266, rfl⟩
abbrev main_v922 : Ref sig .tc := ⟨.hbm, 1267, rfl⟩
abbrev main_v923 : Ref sig .tc := ⟨.hbm, 1268, rfl⟩
abbrev main_v924 : Ref sig .tc := ⟨.hbm, 1269, rfl⟩
abbrev main_cst_168 : Ref sig .tc := ⟨.hbm, 1270, rfl⟩
abbrev main_call12_cst : Ref sig .tc := ⟨.hbm, 1271, rfl⟩
abbrev main_call12_v0 : Ref sig .tc := ⟨.hbm, 1272, rfl⟩
abbrev main_call12_v1 : Ref sig .tc := ⟨.hbm, 1273, rfl⟩
abbrev main_call12_v2 : Ref sig .tc := ⟨.hbm, 1274, rfl⟩
abbrev main_call12_v3 : Ref sig .tc := ⟨.hbm, 1275, rfl⟩
abbrev main_call12_v4 : Ref sig .tc := ⟨.hbm, 1276, rfl⟩
abbrev main_v925 : Ref sig .tc := ⟨.hbm, 1277, rfl⟩
abbrev main_cst_169 : Ref sig .tc := ⟨.hbm, 1278, rfl⟩
abbrev main_v926 : Ref sig .tc := ⟨.hbm, 1279, rfl⟩
abbrev main_cst_170 : Ref sig .tc := ⟨.hbm, 1280, rfl⟩
abbrev main_v927 : Ref sig .tc := ⟨.hbm, 1281, rfl⟩
abbrev main_v928 : Ref sig .tc := ⟨.hbm, 1282, rfl⟩
abbrev main_c_171 : Ref sig .tc := ⟨.hbm, 1283, rfl⟩
abbrev main_call13_cst : Ref sig .tc := ⟨.hbm, 1284, rfl⟩
abbrev main_call13_v0 : Ref sig .tc := ⟨.hbm, 1285, rfl⟩
abbrev main_call13_v1 : Ref sig .tc := ⟨.hbm, 1286, rfl⟩
abbrev main_call13_cst_0 : Ref sig .tc := ⟨.hbm, 1287, rfl⟩
abbrev main_call13_v2 : Ref sig .tc := ⟨.hbm, 1288, rfl⟩
abbrev main_call13_v3 : Ref sig .tc := ⟨.hbm, 1289, rfl⟩
abbrev main_call13_v4 : Ref sig .tc := ⟨.hbm, 1290, rfl⟩
abbrev main_call13_v5 : Ref sig .tc := ⟨.hbm, 1291, rfl⟩
abbrev main_call13_v6 : Ref sig .tc := ⟨.hbm, 1292, rfl⟩
abbrev main_call13_v7 : Ref sig .tc := ⟨.hbm, 1293, rfl⟩
abbrev main_call13_cst_1 : Ref sig .tc := ⟨.hbm, 1294, rfl⟩
abbrev main_call13_v8 : Ref sig .tc := ⟨.hbm, 1295, rfl⟩
abbrev main_call13_cst_2 : Ref sig .tc := ⟨.hbm, 1296, rfl⟩
abbrev main_call13_v9 : Ref sig .tc := ⟨.hbm, 1297, rfl⟩
abbrev main_call13_v10 : Ref sig .tc := ⟨.hbm, 1298, rfl⟩
abbrev main_call13_v11 : Ref sig .tc := ⟨.hbm, 1299, rfl⟩
abbrev main_call13_cst_3 : Ref sig .tc := ⟨.hbm, 1300, rfl⟩
abbrev main_call13_v12 : Ref sig .tc := ⟨.hbm, 1301, rfl⟩
abbrev main_call13_cst_4 : Ref sig .tc := ⟨.hbm, 1302, rfl⟩
abbrev main_call13_call0_v0 : Ref sig .tc := ⟨.hbm, 1303, rfl⟩
abbrev main_call13_call0_v1 : Ref sig .tc := ⟨.hbm, 1304, rfl⟩
abbrev main_v929 : Ref sig .tc := ⟨.hbm, 1305, rfl⟩
abbrev main_v930 : Ref sig .tc := ⟨.hbm, 1306, rfl⟩
abbrev main_v931 : Ref sig .tc := ⟨.hbm, 1307, rfl⟩
abbrev main_v932 : Ref sig .tc := ⟨.hbm, 1308, rfl⟩
abbrev main_cst_172 : Ref sig .tc := ⟨.hbm, 1309, rfl⟩
abbrev main_v933 : Ref sig .tc := ⟨.hbm, 1310, rfl⟩
abbrev main_v934 : Ref sig .tc := ⟨.hbm, 1311, rfl⟩
abbrev main_v935 : Ref sig .tc := ⟨.hbm, 1312, rfl⟩
abbrev main_v936 : Ref sig .tc := ⟨.hbm, 1313, rfl⟩
abbrev main_v937 : Ref sig .tc := ⟨.hbm, 1314, rfl⟩
abbrev main_v938 : Ref sig .tc := ⟨.hbm, 1315, rfl⟩
abbrev main_cst_173 : Ref sig .tc := ⟨.hbm, 1316, rfl⟩
abbrev main_v939 : Ref sig .tc := ⟨.hbm, 1317, rfl⟩
abbrev main_v940 : Ref sig .tc := ⟨.hbm, 1318, rfl⟩
abbrev main_cst_174 : Ref sig .tc := ⟨.hbm, 1319, rfl⟩
abbrev main_v941 : Ref sig .tc := ⟨.hbm, 1320, rfl⟩
abbrev main_v942 : Ref sig .tc := ⟨.hbm, 1321, rfl⟩
abbrev main_v943 : Ref sig .tc := ⟨.hbm, 1322, rfl⟩
abbrev main_c_175 : Ref sig .tc := ⟨.hbm, 1323, rfl⟩
abbrev main_v944 : Ref sig .tc := ⟨.hbm, 1324, rfl⟩
abbrev main_v945 : Ref sig .tc := ⟨.hbm, 1325, rfl⟩
abbrev main_c_176 : Ref sig .tc := ⟨.hbm, 1326, rfl⟩
abbrev main_v946 : Ref sig .tc := ⟨.hbm, 1327, rfl⟩
abbrev main_v947 : Ref sig .tc := ⟨.hbm, 1328, rfl⟩
abbrev main_v948 : Ref sig .tc := ⟨.hbm, 1329, rfl⟩
abbrev main_v949 : Ref sig .tc := ⟨.hbm, 1330, rfl⟩
abbrev main_v950 : Ref sig .tc := ⟨.hbm, 1331, rfl⟩
abbrev main_v951 : Ref sig .tc := ⟨.hbm, 1332, rfl⟩
abbrev main_v952 : Ref sig .tc := ⟨.hbm, 1333, rfl⟩
abbrev main_v953 : Ref sig .tc := ⟨.hbm, 1334, rfl⟩
abbrev main_v954 : Ref sig .tc := ⟨.hbm, 1335, rfl⟩
abbrev main_v955 : Ref sig .tc := ⟨.hbm, 1336, rfl⟩
abbrev main_v956 : Ref sig .tc := ⟨.hbm, 1337, rfl⟩
abbrev main_c_177 : Ref sig .tc := ⟨.hbm, 1338, rfl⟩
abbrev main_v957 : Ref sig .tc := ⟨.hbm, 1339, rfl⟩
abbrev main_v958 : Ref sig .tc := ⟨.hbm, 1340, rfl⟩
abbrev main_c_178 : Ref sig .tc := ⟨.hbm, 1341, rfl⟩
abbrev main_v959 : Ref sig .tc := ⟨.hbm, 1342, rfl⟩
abbrev main_v960 : Ref sig .tc := ⟨.hbm, 1343, rfl⟩
abbrev main_v961 : Ref sig .tc := ⟨.hbm, 1344, rfl⟩
abbrev main_v962 : Ref sig .tc := ⟨.hbm, 1345, rfl⟩
abbrev main_v963 : Ref sig .tc := ⟨.hbm, 1346, rfl⟩
abbrev main_v964 : Ref sig .tc := ⟨.hbm, 1347, rfl⟩
abbrev main_v965 : Ref sig .tc := ⟨.hbm, 1348, rfl⟩
abbrev main_v966 : Ref sig .tc := ⟨.hbm, 1349, rfl⟩
abbrev main_v967 : Ref sig .tc := ⟨.hbm, 1350, rfl⟩
abbrev main_v968 : Ref sig .tc := ⟨.hbm, 1351, rfl⟩
abbrev main_v969 : Ref sig .tc := ⟨.hbm, 1352, rfl⟩
abbrev main_c_179 : Ref sig .tc := ⟨.hbm, 1353, rfl⟩
abbrev main_v970 : Ref sig .tc := ⟨.hbm, 1354, rfl⟩
abbrev main_v971 : Ref sig .tc := ⟨.hbm, 1355, rfl⟩
abbrev main_c_180 : Ref sig .tc := ⟨.hbm, 1356, rfl⟩
abbrev main_v972 : Ref sig .tc := ⟨.hbm, 1357, rfl⟩
abbrev main_v973 : Ref sig .tc := ⟨.hbm, 1358, rfl⟩
abbrev main_v974 : Ref sig .tc := ⟨.hbm, 1359, rfl⟩
abbrev main_v975 : Ref sig .tc := ⟨.hbm, 1360, rfl⟩
abbrev main_v976 : Ref sig .tc := ⟨.hbm, 1361, rfl⟩
abbrev main_v977 : Ref sig .tc := ⟨.hbm, 1362, rfl⟩
abbrev main_v978 : Ref sig .tc := ⟨.hbm, 1363, rfl⟩
abbrev main_v979 : Ref sig .tc := ⟨.hbm, 1364, rfl⟩
abbrev main_v980 : Ref sig .tc := ⟨.hbm, 1365, rfl⟩
abbrev main_v981 : Ref sig .tc := ⟨.hbm, 1366, rfl⟩
abbrev main_v982 : Ref sig .tc := ⟨.hbm, 1367, rfl⟩
abbrev main_c_181 : Ref sig .tc := ⟨.hbm, 1368, rfl⟩
abbrev main_v983 : Ref sig .tc := ⟨.hbm, 1369, rfl⟩
abbrev main_v984 : Ref sig .tc := ⟨.hbm, 1370, rfl⟩
abbrev main_c_182 : Ref sig .tc := ⟨.hbm, 1371, rfl⟩
abbrev main_v985 : Ref sig .tc := ⟨.hbm, 1372, rfl⟩
abbrev main_v986 : Ref sig .tc := ⟨.hbm, 1373, rfl⟩
abbrev main_v987 : Ref sig .tc := ⟨.hbm, 1374, rfl⟩
abbrev main_v988 : Ref sig .tc := ⟨.hbm, 1375, rfl⟩
abbrev main_v989 : Ref sig .tc := ⟨.hbm, 1376, rfl⟩
abbrev main_v990 : Ref sig .tc := ⟨.hbm, 1377, rfl⟩
abbrev main_v991 : Ref sig .tc := ⟨.hbm, 1378, rfl⟩
abbrev main_v992 : Ref sig .tc := ⟨.hbm, 1379, rfl⟩
abbrev main_v993 : Ref sig .tc := ⟨.hbm, 1380, rfl⟩
abbrev main_v994 : Ref sig .tc := ⟨.hbm, 1381, rfl⟩
abbrev main_v995 : Ref sig .tc := ⟨.hbm, 1382, rfl⟩
abbrev main_c_183 : Ref sig .tc := ⟨.hbm, 1383, rfl⟩
abbrev main_v996 : Ref sig .tc := ⟨.hbm, 1384, rfl⟩
abbrev main_v997 : Ref sig .tc := ⟨.hbm, 1385, rfl⟩
abbrev main_c_184 : Ref sig .tc := ⟨.hbm, 1386, rfl⟩
abbrev main_v998 : Ref sig .tc := ⟨.hbm, 1387, rfl⟩
abbrev main_v999 : Ref sig .tc := ⟨.hbm, 1388, rfl⟩
abbrev main_v1000 : Ref sig .tc := ⟨.hbm, 1389, rfl⟩
abbrev main_v1001 : Ref sig .tc := ⟨.hbm, 1390, rfl⟩
abbrev main_v1002 : Ref sig .tc := ⟨.hbm, 1391, rfl⟩
abbrev main_v1003 : Ref sig .tc := ⟨.hbm, 1392, rfl⟩
abbrev main_v1004 : Ref sig .tc := ⟨.hbm, 1393, rfl⟩
abbrev main_v1005 : Ref sig .tc := ⟨.hbm, 1394, rfl⟩
abbrev main_v1006 : Ref sig .tc := ⟨.hbm, 1395, rfl⟩
abbrev main_v1007 : Ref sig .tc := ⟨.hbm, 1396, rfl⟩
abbrev main_v1008 : Ref sig .tc := ⟨.hbm, 1397, rfl⟩
abbrev main_c_185 : Ref sig .tc := ⟨.hbm, 1398, rfl⟩
abbrev main_v1009 : Ref sig .tc := ⟨.hbm, 1399, rfl⟩
abbrev main_v1010 : Ref sig .tc := ⟨.hbm, 1400, rfl⟩
abbrev main_c_186 : Ref sig .tc := ⟨.hbm, 1401, rfl⟩
abbrev main_v1011 : Ref sig .tc := ⟨.hbm, 1402, rfl⟩
abbrev main_v1012 : Ref sig .tc := ⟨.hbm, 1403, rfl⟩
abbrev main_v1013 : Ref sig .tc := ⟨.hbm, 1404, rfl⟩
abbrev main_v1014 : Ref sig .tc := ⟨.hbm, 1405, rfl⟩
abbrev main_v1015 : Ref sig .tc := ⟨.hbm, 1406, rfl⟩
abbrev main_v1016 : Ref sig .tc := ⟨.hbm, 1407, rfl⟩
abbrev main_v1017 : Ref sig .tc := ⟨.hbm, 1408, rfl⟩
abbrev main_v1018 : Ref sig .tc := ⟨.hbm, 1409, rfl⟩
abbrev main_v1019 : Ref sig .tc := ⟨.hbm, 1410, rfl⟩
abbrev main_v1020 : Ref sig .tc := ⟨.hbm, 1411, rfl⟩
abbrev main_v1021 : Ref sig .tc := ⟨.hbm, 1412, rfl⟩
abbrev main_c_187 : Ref sig .tc := ⟨.hbm, 1413, rfl⟩
abbrev main_v1022 : Ref sig .tc := ⟨.hbm, 1414, rfl⟩
abbrev main_v1023 : Ref sig .tc := ⟨.hbm, 1415, rfl⟩
abbrev main_c_188 : Ref sig .tc := ⟨.hbm, 1416, rfl⟩
abbrev main_v1024 : Ref sig .tc := ⟨.hbm, 1417, rfl⟩
abbrev main_v1025 : Ref sig .tc := ⟨.hbm, 1418, rfl⟩
abbrev main_v1026 : Ref sig .tc := ⟨.hbm, 1419, rfl⟩
abbrev main_v1027 : Ref sig .tc := ⟨.hbm, 1420, rfl⟩
abbrev main_v1028 : Ref sig .tc := ⟨.hbm, 1421, rfl⟩
abbrev main_v1029 : Ref sig .tc := ⟨.hbm, 1422, rfl⟩
abbrev main_v1030 : Ref sig .tc := ⟨.hbm, 1423, rfl⟩
abbrev main_v1031 : Ref sig .tc := ⟨.hbm, 1424, rfl⟩
abbrev main_v1032 : Ref sig .tc := ⟨.hbm, 1425, rfl⟩
abbrev main_v1033 : Ref sig .tc := ⟨.hbm, 1426, rfl⟩
abbrev main_v1034 : Ref sig .tc := ⟨.hbm, 1427, rfl⟩
abbrev main_c_189 : Ref sig .tc := ⟨.hbm, 1428, rfl⟩
abbrev main_v1035 : Ref sig .tc := ⟨.hbm, 1429, rfl⟩
abbrev main_v1036 : Ref sig .tc := ⟨.hbm, 1430, rfl⟩
abbrev main_c_190 : Ref sig .tc := ⟨.hbm, 1431, rfl⟩
abbrev main_v1037 : Ref sig .tc := ⟨.hbm, 1432, rfl⟩
abbrev main_v1038 : Ref sig .tc := ⟨.hbm, 1433, rfl⟩
abbrev main_v1039 : Ref sig .tc := ⟨.hbm, 1434, rfl⟩
abbrev main_v1040 : Ref sig .tc := ⟨.hbm, 1435, rfl⟩
abbrev main_v1041 : Ref sig .tc := ⟨.hbm, 1436, rfl⟩
abbrev main_v1042 : Ref sig .tc := ⟨.hbm, 1437, rfl⟩
abbrev main_v1043 : Ref sig .tc := ⟨.hbm, 1438, rfl⟩
abbrev main_v1044 : Ref sig .tc := ⟨.hbm, 1439, rfl⟩
abbrev main_v1045 : Ref sig .tc := ⟨.hbm, 1440, rfl⟩
abbrev main_v1046 : Ref sig .tc := ⟨.hbm, 1441, rfl⟩
abbrev main_v1047 : Ref sig .tc := ⟨.hbm, 1442, rfl⟩
abbrev main_c_191 : Ref sig .tc := ⟨.hbm, 1443, rfl⟩
abbrev main_v1048 : Ref sig .tc := ⟨.hbm, 1444, rfl⟩
abbrev main_v1049 : Ref sig .tc := ⟨.hbm, 1445, rfl⟩
abbrev main_c_192 : Ref sig .tc := ⟨.hbm, 1446, rfl⟩
abbrev main_v1050 : Ref sig .tc := ⟨.hbm, 1447, rfl⟩
abbrev main_v1051 : Ref sig .tc := ⟨.hbm, 1448, rfl⟩
abbrev main_v1052 : Ref sig .tc := ⟨.hbm, 1449, rfl⟩
abbrev main_v1053 : Ref sig .tc := ⟨.hbm, 1450, rfl⟩
abbrev main_v1054 : Ref sig .tc := ⟨.hbm, 1451, rfl⟩
abbrev main_v1055 : Ref sig .tc := ⟨.hbm, 1452, rfl⟩
abbrev main_v1056 : Ref sig .tc := ⟨.hbm, 1453, rfl⟩
abbrev main_v1057 : Ref sig .tc := ⟨.hbm, 1454, rfl⟩
abbrev main_v1058 : Ref sig .tc := ⟨.hbm, 1455, rfl⟩
abbrev main_cst_193 : Ref sig .tc := ⟨.hbm, 1456, rfl⟩
abbrev main_call14_cst : Ref sig .tc := ⟨.hbm, 1457, rfl⟩
abbrev main_call14_v0 : Ref sig .tc := ⟨.hbm, 1458, rfl⟩
abbrev main_call14_v1 : Ref sig .tc := ⟨.hbm, 1459, rfl⟩
abbrev main_call14_v2 : Ref sig .tc := ⟨.hbm, 1460, rfl⟩
abbrev main_call14_v3 : Ref sig .tc := ⟨.hbm, 1461, rfl⟩
abbrev main_call14_v4 : Ref sig .tc := ⟨.hbm, 1462, rfl⟩
abbrev main_v1059 : Ref sig .tc := ⟨.hbm, 1463, rfl⟩
abbrev main_cst_194 : Ref sig .tc := ⟨.hbm, 1464, rfl⟩
abbrev main_v1060 : Ref sig .tc := ⟨.hbm, 1465, rfl⟩
abbrev main_cst_195 : Ref sig .tc := ⟨.hbm, 1466, rfl⟩
abbrev main_v1061 : Ref sig .tc := ⟨.hbm, 1467, rfl⟩
abbrev main_v1062 : Ref sig .tc := ⟨.hbm, 1468, rfl⟩
abbrev main_c_196 : Ref sig .tc := ⟨.hbm, 1469, rfl⟩
abbrev main_call15_cst : Ref sig .tc := ⟨.hbm, 1470, rfl⟩
abbrev main_call15_v0 : Ref sig .tc := ⟨.hbm, 1471, rfl⟩
abbrev main_call15_v1 : Ref sig .tc := ⟨.hbm, 1472, rfl⟩
abbrev main_call15_cst_0 : Ref sig .tc := ⟨.hbm, 1473, rfl⟩
abbrev main_call15_v2 : Ref sig .tc := ⟨.hbm, 1474, rfl⟩
abbrev main_call15_v3 : Ref sig .tc := ⟨.hbm, 1475, rfl⟩
abbrev main_call15_v4 : Ref sig .tc := ⟨.hbm, 1476, rfl⟩
abbrev main_call15_v5 : Ref sig .tc := ⟨.hbm, 1477, rfl⟩
abbrev main_call15_v6 : Ref sig .tc := ⟨.hbm, 1478, rfl⟩
abbrev main_call15_v7 : Ref sig .tc := ⟨.hbm, 1479, rfl⟩
abbrev main_call15_cst_1 : Ref sig .tc := ⟨.hbm, 1480, rfl⟩
abbrev main_call15_v8 : Ref sig .tc := ⟨.hbm, 1481, rfl⟩
abbrev main_call15_cst_2 : Ref sig .tc := ⟨.hbm, 1482, rfl⟩
abbrev main_call15_v9 : Ref sig .tc := ⟨.hbm, 1483, rfl⟩
abbrev main_call15_v10 : Ref sig .tc := ⟨.hbm, 1484, rfl⟩
abbrev main_call15_v11 : Ref sig .tc := ⟨.hbm, 1485, rfl⟩
abbrev main_call15_cst_3 : Ref sig .tc := ⟨.hbm, 1486, rfl⟩
abbrev main_call15_v12 : Ref sig .tc := ⟨.hbm, 1487, rfl⟩
abbrev main_call15_cst_4 : Ref sig .tc := ⟨.hbm, 1488, rfl⟩
abbrev main_call15_call0_v0 : Ref sig .tc := ⟨.hbm, 1489, rfl⟩
abbrev main_call15_call0_v1 : Ref sig .tc := ⟨.hbm, 1490, rfl⟩
abbrev main_v1063 : Ref sig .tc := ⟨.hbm, 1491, rfl⟩
abbrev main_v1064 : Ref sig .tc := ⟨.hbm, 1492, rfl⟩
abbrev main_v1065 : Ref sig .tc := ⟨.hbm, 1493, rfl⟩
abbrev main_v1066 : Ref sig .tc := ⟨.hbm, 1494, rfl⟩
abbrev main_cst_197 : Ref sig .tc := ⟨.hbm, 1495, rfl⟩
abbrev main_v1067 : Ref sig .tc := ⟨.hbm, 1496, rfl⟩
abbrev main_v1068 : Ref sig .tc := ⟨.hbm, 1497, rfl⟩
abbrev main_v1069 : Ref sig .tc := ⟨.hbm, 1498, rfl⟩
abbrev main_v1070 : Ref sig .tc := ⟨.hbm, 1499, rfl⟩
abbrev main_v1071 : Ref sig .tc := ⟨.hbm, 1500, rfl⟩
abbrev main_v1072 : Ref sig .tc := ⟨.hbm, 1501, rfl⟩
abbrev main_v1073 : Ref sig .tc := ⟨.hbm, 1502, rfl⟩
abbrev main_cst_198 : Ref sig .tc := ⟨.hbm, 1503, rfl⟩
abbrev main_v1074 : Ref sig .tc := ⟨.hbm, 1504, rfl⟩
abbrev main_v1075 : Ref sig .tc := ⟨.hbm, 1505, rfl⟩
abbrev main_cst_199 : Ref sig .tc := ⟨.hbm, 1506, rfl⟩
abbrev main_v1076 : Ref sig .tc := ⟨.hbm, 1507, rfl⟩
abbrev main_v1077 : Ref sig .tc := ⟨.hbm, 1508, rfl⟩
abbrev main_v1078 : Ref sig .tc := ⟨.hbm, 1509, rfl⟩
abbrev main_c_200 : Ref sig .tc := ⟨.hbm, 1510, rfl⟩
abbrev main_v1079 : Ref sig .tc := ⟨.hbm, 1511, rfl⟩
abbrev main_v1080 : Ref sig .tc := ⟨.hbm, 1512, rfl⟩
abbrev main_c_201 : Ref sig .tc := ⟨.hbm, 1513, rfl⟩
abbrev main_v1081 : Ref sig .tc := ⟨.hbm, 1514, rfl⟩
abbrev main_v1082 : Ref sig .tc := ⟨.hbm, 1515, rfl⟩
abbrev main_v1083 : Ref sig .tc := ⟨.hbm, 1516, rfl⟩
abbrev main_v1084 : Ref sig .tc := ⟨.hbm, 1517, rfl⟩
abbrev main_v1085 : Ref sig .tc := ⟨.hbm, 1518, rfl⟩
abbrev main_v1086 : Ref sig .tc := ⟨.hbm, 1519, rfl⟩
abbrev main_v1087 : Ref sig .tc := ⟨.hbm, 1520, rfl⟩
abbrev main_v1088 : Ref sig .tc := ⟨.hbm, 1521, rfl⟩
abbrev main_v1089 : Ref sig .tc := ⟨.hbm, 1522, rfl⟩
abbrev main_v1090 : Ref sig .tc := ⟨.hbm, 1523, rfl⟩
abbrev main_v1091 : Ref sig .tc := ⟨.hbm, 1524, rfl⟩
abbrev main_c_202 : Ref sig .tc := ⟨.hbm, 1525, rfl⟩
abbrev main_v1092 : Ref sig .tc := ⟨.hbm, 1526, rfl⟩
abbrev main_v1093 : Ref sig .tc := ⟨.hbm, 1527, rfl⟩
abbrev main_c_203 : Ref sig .tc := ⟨.hbm, 1528, rfl⟩
abbrev main_v1094 : Ref sig .tc := ⟨.hbm, 1529, rfl⟩
abbrev main_v1095 : Ref sig .tc := ⟨.hbm, 1530, rfl⟩
abbrev main_v1096 : Ref sig .tc := ⟨.hbm, 1531, rfl⟩
abbrev main_v1097 : Ref sig .tc := ⟨.hbm, 1532, rfl⟩
abbrev main_v1098 : Ref sig .tc := ⟨.hbm, 1533, rfl⟩
abbrev main_v1099 : Ref sig .tc := ⟨.hbm, 1534, rfl⟩
abbrev main_v1100 : Ref sig .tc := ⟨.hbm, 1535, rfl⟩
abbrev main_v1101 : Ref sig .tc := ⟨.hbm, 1536, rfl⟩
abbrev main_v1102 : Ref sig .tc := ⟨.hbm, 1537, rfl⟩
abbrev main_v1103 : Ref sig .tc := ⟨.hbm, 1538, rfl⟩
abbrev main_v1104 : Ref sig .tc := ⟨.hbm, 1539, rfl⟩
abbrev main_c_204 : Ref sig .tc := ⟨.hbm, 1540, rfl⟩
abbrev main_v1105 : Ref sig .tc := ⟨.hbm, 1541, rfl⟩
abbrev main_v1106 : Ref sig .tc := ⟨.hbm, 1542, rfl⟩
abbrev main_c_205 : Ref sig .tc := ⟨.hbm, 1543, rfl⟩
abbrev main_v1107 : Ref sig .tc := ⟨.hbm, 1544, rfl⟩
abbrev main_v1108 : Ref sig .tc := ⟨.hbm, 1545, rfl⟩
abbrev main_v1109 : Ref sig .tc := ⟨.hbm, 1546, rfl⟩
abbrev main_v1110 : Ref sig .tc := ⟨.hbm, 1547, rfl⟩
abbrev main_v1111 : Ref sig .tc := ⟨.hbm, 1548, rfl⟩
abbrev main_v1112 : Ref sig .tc := ⟨.hbm, 1549, rfl⟩
abbrev main_v1113 : Ref sig .tc := ⟨.hbm, 1550, rfl⟩
abbrev main_v1114 : Ref sig .tc := ⟨.hbm, 1551, rfl⟩
abbrev main_v1115 : Ref sig .tc := ⟨.hbm, 1552, rfl⟩
abbrev main_v1116 : Ref sig .tc := ⟨.hbm, 1553, rfl⟩
abbrev main_v1117 : Ref sig .tc := ⟨.hbm, 1554, rfl⟩
abbrev main_c_206 : Ref sig .tc := ⟨.hbm, 1555, rfl⟩
abbrev main_v1118 : Ref sig .tc := ⟨.hbm, 1556, rfl⟩
abbrev main_v1119 : Ref sig .tc := ⟨.hbm, 1557, rfl⟩
abbrev main_c_207 : Ref sig .tc := ⟨.hbm, 1558, rfl⟩
abbrev main_v1120 : Ref sig .tc := ⟨.hbm, 1559, rfl⟩
abbrev main_v1121 : Ref sig .tc := ⟨.hbm, 1560, rfl⟩
abbrev main_v1122 : Ref sig .tc := ⟨.hbm, 1561, rfl⟩
abbrev main_v1123 : Ref sig .tc := ⟨.hbm, 1562, rfl⟩
abbrev main_v1124 : Ref sig .tc := ⟨.hbm, 1563, rfl⟩
abbrev main_v1125 : Ref sig .tc := ⟨.hbm, 1564, rfl⟩
abbrev main_v1126 : Ref sig .tc := ⟨.hbm, 1565, rfl⟩
abbrev main_v1127 : Ref sig .tc := ⟨.hbm, 1566, rfl⟩
abbrev main_v1128 : Ref sig .tc := ⟨.hbm, 1567, rfl⟩
abbrev main_v1129 : Ref sig .tc := ⟨.hbm, 1568, rfl⟩
abbrev main_v1130 : Ref sig .tc := ⟨.hbm, 1569, rfl⟩
abbrev main_c_208 : Ref sig .tc := ⟨.hbm, 1570, rfl⟩
abbrev main_v1131 : Ref sig .tc := ⟨.hbm, 1571, rfl⟩
abbrev main_v1132 : Ref sig .tc := ⟨.hbm, 1572, rfl⟩
abbrev main_c_209 : Ref sig .tc := ⟨.hbm, 1573, rfl⟩
abbrev main_v1133 : Ref sig .tc := ⟨.hbm, 1574, rfl⟩
abbrev main_v1134 : Ref sig .tc := ⟨.hbm, 1575, rfl⟩
abbrev main_v1135 : Ref sig .tc := ⟨.hbm, 1576, rfl⟩
abbrev main_v1136 : Ref sig .tc := ⟨.hbm, 1577, rfl⟩
abbrev main_v1137 : Ref sig .tc := ⟨.hbm, 1578, rfl⟩
abbrev main_v1138 : Ref sig .tc := ⟨.hbm, 1579, rfl⟩
abbrev main_v1139 : Ref sig .tc := ⟨.hbm, 1580, rfl⟩
abbrev main_v1140 : Ref sig .tc := ⟨.hbm, 1581, rfl⟩
abbrev main_v1141 : Ref sig .tc := ⟨.hbm, 1582, rfl⟩
abbrev main_v1142 : Ref sig .tc := ⟨.hbm, 1583, rfl⟩
abbrev main_v1143 : Ref sig .tc := ⟨.hbm, 1584, rfl⟩
abbrev main_c_210 : Ref sig .tc := ⟨.hbm, 1585, rfl⟩
abbrev main_v1144 : Ref sig .tc := ⟨.hbm, 1586, rfl⟩
abbrev main_v1145 : Ref sig .tc := ⟨.hbm, 1587, rfl⟩
abbrev main_c_211 : Ref sig .tc := ⟨.hbm, 1588, rfl⟩
abbrev main_v1146 : Ref sig .tc := ⟨.hbm, 1589, rfl⟩
abbrev main_v1147 : Ref sig .tc := ⟨.hbm, 1590, rfl⟩
abbrev main_v1148 : Ref sig .tc := ⟨.hbm, 1591, rfl⟩
abbrev main_v1149 : Ref sig .tc := ⟨.hbm, 1592, rfl⟩
abbrev main_v1150 : Ref sig .tc := ⟨.hbm, 1593, rfl⟩
abbrev main_v1151 : Ref sig .tc := ⟨.hbm, 1594, rfl⟩
abbrev main_v1152 : Ref sig .tc := ⟨.hbm, 1595, rfl⟩
abbrev main_v1153 : Ref sig .tc := ⟨.hbm, 1596, rfl⟩
abbrev main_v1154 : Ref sig .tc := ⟨.hbm, 1597, rfl⟩
abbrev main_v1155 : Ref sig .tc := ⟨.hbm, 1598, rfl⟩
abbrev main_v1156 : Ref sig .tc := ⟨.hbm, 1599, rfl⟩
abbrev main_c_212 : Ref sig .tc := ⟨.hbm, 1600, rfl⟩
abbrev main_v1157 : Ref sig .tc := ⟨.hbm, 1601, rfl⟩
abbrev main_v1158 : Ref sig .tc := ⟨.hbm, 1602, rfl⟩
abbrev main_c_213 : Ref sig .tc := ⟨.hbm, 1603, rfl⟩
abbrev main_v1159 : Ref sig .tc := ⟨.hbm, 1604, rfl⟩
abbrev main_v1160 : Ref sig .tc := ⟨.hbm, 1605, rfl⟩
abbrev main_v1161 : Ref sig .tc := ⟨.hbm, 1606, rfl⟩
abbrev main_v1162 : Ref sig .tc := ⟨.hbm, 1607, rfl⟩
abbrev main_v1163 : Ref sig .tc := ⟨.hbm, 1608, rfl⟩
abbrev main_v1164 : Ref sig .tc := ⟨.hbm, 1609, rfl⟩
abbrev main_v1165 : Ref sig .tc := ⟨.hbm, 1610, rfl⟩
abbrev main_v1166 : Ref sig .tc := ⟨.hbm, 1611, rfl⟩
abbrev main_v1167 : Ref sig .tc := ⟨.hbm, 1612, rfl⟩
abbrev main_v1168 : Ref sig .tc := ⟨.hbm, 1613, rfl⟩
abbrev main_v1169 : Ref sig .tc := ⟨.hbm, 1614, rfl⟩
abbrev main_c_214 : Ref sig .tc := ⟨.hbm, 1615, rfl⟩
abbrev main_v1170 : Ref sig .tc := ⟨.hbm, 1616, rfl⟩
abbrev main_v1171 : Ref sig .tc := ⟨.hbm, 1617, rfl⟩
abbrev main_c_215 : Ref sig .tc := ⟨.hbm, 1618, rfl⟩
abbrev main_v1172 : Ref sig .tc := ⟨.hbm, 1619, rfl⟩
abbrev main_v1173 : Ref sig .tc := ⟨.hbm, 1620, rfl⟩
abbrev main_v1174 : Ref sig .tc := ⟨.hbm, 1621, rfl⟩
abbrev main_v1175 : Ref sig .tc := ⟨.hbm, 1622, rfl⟩
abbrev main_v1176 : Ref sig .tc := ⟨.hbm, 1623, rfl⟩
abbrev main_v1177 : Ref sig .tc := ⟨.hbm, 1624, rfl⟩
abbrev main_v1178 : Ref sig .tc := ⟨.hbm, 1625, rfl⟩
abbrev main_v1179 : Ref sig .tc := ⟨.hbm, 1626, rfl⟩
abbrev main_v1180 : Ref sig .tc := ⟨.hbm, 1627, rfl⟩
abbrev main_v1181 : Ref sig .tc := ⟨.hbm, 1628, rfl⟩
abbrev main_v1182 : Ref sig .tc := ⟨.hbm, 1629, rfl⟩
abbrev main_c_216 : Ref sig .tc := ⟨.hbm, 1630, rfl⟩
abbrev main_v1183 : Ref sig .tc := ⟨.hbm, 1631, rfl⟩
abbrev main_v1184 : Ref sig .tc := ⟨.hbm, 1632, rfl⟩
abbrev main_c_217 : Ref sig .tc := ⟨.hbm, 1633, rfl⟩
abbrev main_v1185 : Ref sig .tc := ⟨.hbm, 1634, rfl⟩
abbrev main_v1186 : Ref sig .tc := ⟨.hbm, 1635, rfl⟩
abbrev main_v1187 : Ref sig .tc := ⟨.hbm, 1636, rfl⟩
abbrev main_v1188 : Ref sig .tc := ⟨.hbm, 1637, rfl⟩
abbrev main_v1189 : Ref sig .tc := ⟨.hbm, 1638, rfl⟩
abbrev main_v1190 : Ref sig .tc := ⟨.hbm, 1639, rfl⟩
abbrev main_v1191 : Ref sig .tc := ⟨.hbm, 1640, rfl⟩
abbrev main_v1192 : Ref sig .tc := ⟨.hbm, 1641, rfl⟩
abbrev main_v1193 : Ref sig .tc := ⟨.hbm, 1642, rfl⟩
abbrev main_v1194 : Ref sig .tc := ⟨.hbm, 1643, rfl⟩
abbrev main_v1195 : Ref sig .tc := ⟨.hbm, 1644, rfl⟩
abbrev main_c_218 : Ref sig .tc := ⟨.hbm, 1645, rfl⟩
abbrev main_v1196 : Ref sig .tc := ⟨.hbm, 1646, rfl⟩
abbrev main_v1197 : Ref sig .tc := ⟨.hbm, 1647, rfl⟩
abbrev main_c_219 : Ref sig .tc := ⟨.hbm, 1648, rfl⟩
abbrev main_v1198 : Ref sig .tc := ⟨.hbm, 1649, rfl⟩
abbrev main_v1199 : Ref sig .tc := ⟨.hbm, 1650, rfl⟩
abbrev main_v1200 : Ref sig .tc := ⟨.hbm, 1651, rfl⟩
abbrev main_v1201 : Ref sig .tc := ⟨.hbm, 1652, rfl⟩
abbrev main_v1202 : Ref sig .tc := ⟨.hbm, 1653, rfl⟩
abbrev main_v1203 : Ref sig .tc := ⟨.hbm, 1654, rfl⟩
abbrev main_v1204 : Ref sig .tc := ⟨.hbm, 1655, rfl⟩
abbrev main_v1205 : Ref sig .tc := ⟨.hbm, 1656, rfl⟩
abbrev main_v1206 : Ref sig .tc := ⟨.hbm, 1657, rfl⟩
abbrev main_v1207 : Ref sig .tc := ⟨.hbm, 1658, rfl⟩
abbrev main_v1208 : Ref sig .tc := ⟨.hbm, 1659, rfl⟩
abbrev main_c_220 : Ref sig .tc := ⟨.hbm, 1660, rfl⟩
abbrev main_v1209 : Ref sig .tc := ⟨.hbm, 1661, rfl⟩
abbrev main_v1210 : Ref sig .tc := ⟨.hbm, 1662, rfl⟩
abbrev main_c_221 : Ref sig .tc := ⟨.hbm, 1663, rfl⟩
abbrev main_v1211 : Ref sig .tc := ⟨.hbm, 1664, rfl⟩
abbrev main_v1212 : Ref sig .tc := ⟨.hbm, 1665, rfl⟩
abbrev main_v1213 : Ref sig .tc := ⟨.hbm, 1666, rfl⟩
abbrev main_v1214 : Ref sig .tc := ⟨.hbm, 1667, rfl⟩
abbrev main_v1215 : Ref sig .tc := ⟨.hbm, 1668, rfl⟩
abbrev main_v1216 : Ref sig .tc := ⟨.hbm, 1669, rfl⟩
abbrev main_v1217 : Ref sig .tc := ⟨.hbm, 1670, rfl⟩
abbrev main_v1218 : Ref sig .tc := ⟨.hbm, 1671, rfl⟩
abbrev main_v1219 : Ref sig .tc := ⟨.hbm, 1672, rfl⟩
abbrev main_v1220 : Ref sig .tc := ⟨.hbm, 1673, rfl⟩
abbrev main_v1221 : Ref sig .tc := ⟨.hbm, 1674, rfl⟩
abbrev main_c_222 : Ref sig .tc := ⟨.hbm, 1675, rfl⟩
abbrev main_v1222 : Ref sig .tc := ⟨.hbm, 1676, rfl⟩
abbrev main_v1223 : Ref sig .tc := ⟨.hbm, 1677, rfl⟩
abbrev main_c_223 : Ref sig .tc := ⟨.hbm, 1678, rfl⟩
abbrev main_v1224 : Ref sig .tc := ⟨.hbm, 1679, rfl⟩
abbrev main_v1225 : Ref sig .tc := ⟨.hbm, 1680, rfl⟩
abbrev main_v1226 : Ref sig .tc := ⟨.hbm, 1681, rfl⟩
abbrev main_v1227 : Ref sig .tc := ⟨.hbm, 1682, rfl⟩
abbrev main_v1228 : Ref sig .tc := ⟨.hbm, 1683, rfl⟩
abbrev main_v1229 : Ref sig .tc := ⟨.hbm, 1684, rfl⟩
abbrev main_v1230 : Ref sig .tc := ⟨.hbm, 1685, rfl⟩
abbrev main_v1231 : Ref sig .tc := ⟨.hbm, 1686, rfl⟩
abbrev main_v1232 : Ref sig .tc := ⟨.hbm, 1687, rfl⟩
abbrev main_v1233 : Ref sig .tc := ⟨.hbm, 1688, rfl⟩
abbrev main_v1234 : Ref sig .tc := ⟨.hbm, 1689, rfl⟩
abbrev main_c_224 : Ref sig .tc := ⟨.hbm, 1690, rfl⟩
abbrev main_v1235 : Ref sig .tc := ⟨.hbm, 1691, rfl⟩
abbrev main_v1236 : Ref sig .tc := ⟨.hbm, 1692, rfl⟩
abbrev main_c_225 : Ref sig .tc := ⟨.hbm, 1693, rfl⟩
abbrev main_v1237 : Ref sig .tc := ⟨.hbm, 1694, rfl⟩
abbrev main_v1238 : Ref sig .tc := ⟨.hbm, 1695, rfl⟩
abbrev main_v1239 : Ref sig .tc := ⟨.hbm, 1696, rfl⟩
abbrev main_v1240 : Ref sig .tc := ⟨.hbm, 1697, rfl⟩
abbrev main_v1241 : Ref sig .tc := ⟨.hbm, 1698, rfl⟩
abbrev main_v1242 : Ref sig .tc := ⟨.hbm, 1699, rfl⟩
abbrev main_v1243 : Ref sig .tc := ⟨.hbm, 1700, rfl⟩
abbrev main_v1244 : Ref sig .tc := ⟨.hbm, 1701, rfl⟩
abbrev main_v1245 : Ref sig .tc := ⟨.hbm, 1702, rfl⟩
abbrev main_v1246 : Ref sig .tc := ⟨.hbm, 1703, rfl⟩
abbrev main_v1247 : Ref sig .tc := ⟨.hbm, 1704, rfl⟩
abbrev main_c_226 : Ref sig .tc := ⟨.hbm, 1705, rfl⟩
abbrev main_v1248 : Ref sig .tc := ⟨.hbm, 1706, rfl⟩
abbrev main_v1249 : Ref sig .tc := ⟨.hbm, 1707, rfl⟩
abbrev main_c_227 : Ref sig .tc := ⟨.hbm, 1708, rfl⟩
abbrev main_v1250 : Ref sig .tc := ⟨.hbm, 1709, rfl⟩
abbrev main_v1251 : Ref sig .tc := ⟨.hbm, 1710, rfl⟩
abbrev main_v1252 : Ref sig .tc := ⟨.hbm, 1711, rfl⟩
abbrev main_v1253 : Ref sig .tc := ⟨.hbm, 1712, rfl⟩
abbrev main_v1254 : Ref sig .tc := ⟨.hbm, 1713, rfl⟩
abbrev main_v1255 : Ref sig .tc := ⟨.hbm, 1714, rfl⟩
abbrev main_v1256 : Ref sig .tc := ⟨.hbm, 1715, rfl⟩
abbrev main_v1257 : Ref sig .tc := ⟨.hbm, 1716, rfl⟩
abbrev main_v1258 : Ref sig .tc := ⟨.hbm, 1717, rfl⟩
abbrev main_v1259 : Ref sig .tc := ⟨.hbm, 1718, rfl⟩
abbrev main_v1260 : Ref sig .tc := ⟨.hbm, 1719, rfl⟩
abbrev main_c_228 : Ref sig .tc := ⟨.hbm, 1720, rfl⟩
abbrev main_v1261 : Ref sig .tc := ⟨.hbm, 1721, rfl⟩
abbrev main_v1262 : Ref sig .tc := ⟨.hbm, 1722, rfl⟩
abbrev main_c_229 : Ref sig .tc := ⟨.hbm, 1723, rfl⟩
abbrev main_v1263 : Ref sig .tc := ⟨.hbm, 1724, rfl⟩
abbrev main_v1264 : Ref sig .tc := ⟨.hbm, 1725, rfl⟩
abbrev main_v1265 : Ref sig .tc := ⟨.hbm, 1726, rfl⟩
abbrev main_v1266 : Ref sig .tc := ⟨.hbm, 1727, rfl⟩
abbrev main_v1267 : Ref sig .tc := ⟨.hbm, 1728, rfl⟩
abbrev main_v1268 : Ref sig .tc := ⟨.hbm, 1729, rfl⟩
abbrev main_v1269 : Ref sig .tc := ⟨.hbm, 1730, rfl⟩
abbrev main_v1270 : Ref sig .tc := ⟨.hbm, 1731, rfl⟩
abbrev main_v1271 : Ref sig .tc := ⟨.hbm, 1732, rfl⟩
abbrev main_v1272 : Ref sig .tc := ⟨.hbm, 1733, rfl⟩
abbrev main_v1273 : Ref sig .tc := ⟨.hbm, 1734, rfl⟩
abbrev main_c_230 : Ref sig .tc := ⟨.hbm, 1735, rfl⟩
abbrev main_v1274 : Ref sig .tc := ⟨.hbm, 1736, rfl⟩
abbrev main_v1275 : Ref sig .tc := ⟨.hbm, 1737, rfl⟩
abbrev main_c_231 : Ref sig .tc := ⟨.hbm, 1738, rfl⟩
abbrev main_v1276 : Ref sig .tc := ⟨.hbm, 1739, rfl⟩
abbrev main_v1277 : Ref sig .tc := ⟨.hbm, 1740, rfl⟩
abbrev main_v1278 : Ref sig .tc := ⟨.hbm, 1741, rfl⟩
abbrev main_v1279 : Ref sig .tc := ⟨.hbm, 1742, rfl⟩
abbrev main_v1280 : Ref sig .tc := ⟨.hbm, 1743, rfl⟩
abbrev main_v1281 : Ref sig .tc := ⟨.hbm, 1744, rfl⟩
abbrev main_v1282 : Ref sig .tc := ⟨.hbm, 1745, rfl⟩
abbrev main_v1283 : Ref sig .tc := ⟨.hbm, 1746, rfl⟩
abbrev main_v1284 : Ref sig .tc := ⟨.hbm, 1747, rfl⟩
abbrev main_v1285 : Ref sig .tc := ⟨.hbm, 1748, rfl⟩
abbrev main_v1286 : Ref sig .tc := ⟨.hbm, 1749, rfl⟩
abbrev main_c_232 : Ref sig .tc := ⟨.hbm, 1750, rfl⟩
abbrev main_v1287 : Ref sig .tc := ⟨.hbm, 1751, rfl⟩
abbrev main_v1288 : Ref sig .tc := ⟨.hbm, 1752, rfl⟩
abbrev main_c_233 : Ref sig .tc := ⟨.hbm, 1753, rfl⟩
abbrev main_v1289 : Ref sig .tc := ⟨.hbm, 1754, rfl⟩
abbrev main_v1290 : Ref sig .tc := ⟨.hbm, 1755, rfl⟩
abbrev main_v1291 : Ref sig .tc := ⟨.hbm, 1756, rfl⟩
abbrev main_v1292 : Ref sig .tc := ⟨.hbm, 1757, rfl⟩
abbrev main_v1293 : Ref sig .tc := ⟨.hbm, 1758, rfl⟩
abbrev main_v1294 : Ref sig .tc := ⟨.hbm, 1759, rfl⟩
abbrev main_v1295 : Ref sig .tc := ⟨.hbm, 1760, rfl⟩
abbrev main_v1296 : Ref sig .tc := ⟨.hbm, 1761, rfl⟩
abbrev main_v1297 : Ref sig .tc := ⟨.hbm, 1762, rfl⟩
abbrev main_v1298 : Ref sig .tc := ⟨.hbm, 1763, rfl⟩
abbrev main_v1299 : Ref sig .tc := ⟨.hbm, 1764, rfl⟩
abbrev main_c_234 : Ref sig .tc := ⟨.hbm, 1765, rfl⟩
abbrev main_v1300 : Ref sig .tc := ⟨.hbm, 1766, rfl⟩
abbrev main_v1301 : Ref sig .tc := ⟨.hbm, 1767, rfl⟩
abbrev main_c_235 : Ref sig .tc := ⟨.hbm, 1768, rfl⟩
abbrev main_v1302 : Ref sig .tc := ⟨.hbm, 1769, rfl⟩
abbrev main_v1303 : Ref sig .tc := ⟨.hbm, 1770, rfl⟩
abbrev main_v1304 : Ref sig .tc := ⟨.hbm, 1771, rfl⟩
abbrev main_v1305 : Ref sig .tc := ⟨.hbm, 1772, rfl⟩
abbrev main_v1306 : Ref sig .tc := ⟨.hbm, 1773, rfl⟩
abbrev main_v1307 : Ref sig .tc := ⟨.hbm, 1774, rfl⟩
abbrev main_v1308 : Ref sig .tc := ⟨.hbm, 1775, rfl⟩
abbrev main_v1309 : Ref sig .tc := ⟨.hbm, 1776, rfl⟩
abbrev main_v1310 : Ref sig .tc := ⟨.hbm, 1777, rfl⟩
abbrev main_v1311 : Ref sig .tc := ⟨.hbm, 1778, rfl⟩
abbrev main_v1312 : Ref sig .tc := ⟨.hbm, 1779, rfl⟩
abbrev main_c_236 : Ref sig .tc := ⟨.hbm, 1780, rfl⟩
abbrev main_v1313 : Ref sig .tc := ⟨.hbm, 1781, rfl⟩
abbrev main_v1314 : Ref sig .tc := ⟨.hbm, 1782, rfl⟩
abbrev main_c_237 : Ref sig .tc := ⟨.hbm, 1783, rfl⟩
abbrev main_v1315 : Ref sig .tc := ⟨.hbm, 1784, rfl⟩
abbrev main_v1316 : Ref sig .tc := ⟨.hbm, 1785, rfl⟩
abbrev main_v1317 : Ref sig .tc := ⟨.hbm, 1786, rfl⟩
abbrev main_v1318 : Ref sig .tc := ⟨.hbm, 1787, rfl⟩
abbrev main_v1319 : Ref sig .tc := ⟨.hbm, 1788, rfl⟩
abbrev main_v1320 : Ref sig .tc := ⟨.hbm, 1789, rfl⟩
abbrev main_v1321 : Ref sig .tc := ⟨.hbm, 1790, rfl⟩
abbrev main_v1322 : Ref sig .tc := ⟨.hbm, 1791, rfl⟩
abbrev main_v1323 : Ref sig .tc := ⟨.hbm, 1792, rfl⟩
abbrev main_v1324 : Ref sig .tc := ⟨.hbm, 1793, rfl⟩
abbrev main_v1325 : Ref sig .tc := ⟨.hbm, 1794, rfl⟩
abbrev main_c_238 : Ref sig .tc := ⟨.hbm, 1795, rfl⟩
abbrev main_v1326 : Ref sig .tc := ⟨.hbm, 1796, rfl⟩
abbrev main_v1327 : Ref sig .tc := ⟨.hbm, 1797, rfl⟩
abbrev main_c_239 : Ref sig .tc := ⟨.hbm, 1798, rfl⟩
abbrev main_v1328 : Ref sig .tc := ⟨.hbm, 1799, rfl⟩
abbrev main_v1329 : Ref sig .tc := ⟨.hbm, 1800, rfl⟩
abbrev main_v1330 : Ref sig .tc := ⟨.hbm, 1801, rfl⟩
abbrev main_v1331 : Ref sig .tc := ⟨.hbm, 1802, rfl⟩
abbrev main_v1332 : Ref sig .tc := ⟨.hbm, 1803, rfl⟩
abbrev main_v1333 : Ref sig .tc := ⟨.hbm, 1804, rfl⟩
abbrev main_v1334 : Ref sig .tc := ⟨.hbm, 1805, rfl⟩
abbrev main_v1335 : Ref sig .tc := ⟨.hbm, 1806, rfl⟩
abbrev main_v1336 : Ref sig .tc := ⟨.hbm, 1807, rfl⟩
abbrev main_v1337 : Ref sig .tc := ⟨.hbm, 1808, rfl⟩
abbrev main_v1338 : Ref sig .tc := ⟨.hbm, 1809, rfl⟩
abbrev main_c_240 : Ref sig .tc := ⟨.hbm, 1810, rfl⟩
abbrev main_v1339 : Ref sig .tc := ⟨.hbm, 1811, rfl⟩
abbrev main_v1340 : Ref sig .tc := ⟨.hbm, 1812, rfl⟩
abbrev main_c_241 : Ref sig .tc := ⟨.hbm, 1813, rfl⟩
abbrev main_v1341 : Ref sig .tc := ⟨.hbm, 1814, rfl⟩
abbrev main_v1342 : Ref sig .tc := ⟨.hbm, 1815, rfl⟩
abbrev main_v1343 : Ref sig .tc := ⟨.hbm, 1816, rfl⟩
abbrev main_v1344 : Ref sig .tc := ⟨.hbm, 1817, rfl⟩
abbrev main_v1345 : Ref sig .tc := ⟨.hbm, 1818, rfl⟩
abbrev main_v1346 : Ref sig .tc := ⟨.hbm, 1819, rfl⟩
abbrev main_v1347 : Ref sig .tc := ⟨.hbm, 1820, rfl⟩
abbrev main_v1348 : Ref sig .tc := ⟨.hbm, 1821, rfl⟩
abbrev main_v1349 : Ref sig .tc := ⟨.hbm, 1822, rfl⟩
abbrev main_v1350 : Ref sig .tc := ⟨.hbm, 1823, rfl⟩
abbrev main_v1351 : Ref sig .tc := ⟨.hbm, 1824, rfl⟩
abbrev main_c_242 : Ref sig .tc := ⟨.hbm, 1825, rfl⟩
abbrev main_v1352 : Ref sig .tc := ⟨.hbm, 1826, rfl⟩
abbrev main_v1353 : Ref sig .tc := ⟨.hbm, 1827, rfl⟩
abbrev main_c_243 : Ref sig .tc := ⟨.hbm, 1828, rfl⟩
abbrev main_v1354 : Ref sig .tc := ⟨.hbm, 1829, rfl⟩
abbrev main_v1355 : Ref sig .tc := ⟨.hbm, 1830, rfl⟩
abbrev main_v1356 : Ref sig .tc := ⟨.hbm, 1831, rfl⟩
abbrev main_v1357 : Ref sig .tc := ⟨.hbm, 1832, rfl⟩
abbrev main_v1358 : Ref sig .tc := ⟨.hbm, 1833, rfl⟩
abbrev main_v1359 : Ref sig .tc := ⟨.hbm, 1834, rfl⟩
abbrev main_v1360 : Ref sig .tc := ⟨.hbm, 1835, rfl⟩
abbrev main_v1361 : Ref sig .tc := ⟨.hbm, 1836, rfl⟩
abbrev main_v1362 : Ref sig .tc := ⟨.hbm, 1837, rfl⟩
abbrev main_v1363 : Ref sig .tc := ⟨.hbm, 1838, rfl⟩
abbrev main_v1364 : Ref sig .tc := ⟨.hbm, 1839, rfl⟩
abbrev main_c_244 : Ref sig .tc := ⟨.hbm, 1840, rfl⟩
abbrev main_v1365 : Ref sig .tc := ⟨.hbm, 1841, rfl⟩
abbrev main_v1366 : Ref sig .tc := ⟨.hbm, 1842, rfl⟩
abbrev main_c_245 : Ref sig .tc := ⟨.hbm, 1843, rfl⟩
abbrev main_v1367 : Ref sig .tc := ⟨.hbm, 1844, rfl⟩
abbrev main_v1368 : Ref sig .tc := ⟨.hbm, 1845, rfl⟩
abbrev main_v1369 : Ref sig .tc := ⟨.hbm, 1846, rfl⟩
abbrev main_v1370 : Ref sig .tc := ⟨.hbm, 1847, rfl⟩
abbrev main_v1371 : Ref sig .tc := ⟨.hbm, 1848, rfl⟩
abbrev main_v1372 : Ref sig .tc := ⟨.hbm, 1849, rfl⟩
abbrev main_v1373 : Ref sig .tc := ⟨.hbm, 1850, rfl⟩
abbrev main_v1374 : Ref sig .tc := ⟨.hbm, 1851, rfl⟩
abbrev main_v1375 : Ref sig .tc := ⟨.hbm, 1852, rfl⟩
abbrev main_v1376 : Ref sig .tc := ⟨.hbm, 1853, rfl⟩
abbrev main_v1377 : Ref sig .tc := ⟨.hbm, 1854, rfl⟩
abbrev main_c_246 : Ref sig .tc := ⟨.hbm, 1855, rfl⟩
abbrev main_v1378 : Ref sig .tc := ⟨.hbm, 1856, rfl⟩
abbrev main_v1379 : Ref sig .tc := ⟨.hbm, 1857, rfl⟩
abbrev main_c_247 : Ref sig .tc := ⟨.hbm, 1858, rfl⟩
abbrev main_v1380 : Ref sig .tc := ⟨.hbm, 1859, rfl⟩
abbrev main_v1381 : Ref sig .tc := ⟨.hbm, 1860, rfl⟩
abbrev main_v1382 : Ref sig .tc := ⟨.hbm, 1861, rfl⟩
abbrev main_v1383 : Ref sig .tc := ⟨.hbm, 1862, rfl⟩
abbrev main_v1384 : Ref sig .tc := ⟨.hbm, 1863, rfl⟩
abbrev main_v1385 : Ref sig .tc := ⟨.hbm, 1864, rfl⟩
abbrev main_v1386 : Ref sig .tc := ⟨.hbm, 1865, rfl⟩
abbrev main_v1387 : Ref sig .tc := ⟨.hbm, 1866, rfl⟩
abbrev main_v1388 : Ref sig .tc := ⟨.hbm, 1867, rfl⟩
abbrev main_v1389 : Ref sig .tc := ⟨.hbm, 1868, rfl⟩
abbrev main_v1390 : Ref sig .tc := ⟨.hbm, 1869, rfl⟩
abbrev main_c_248 : Ref sig .tc := ⟨.hbm, 1870, rfl⟩
abbrev main_v1391 : Ref sig .tc := ⟨.hbm, 1871, rfl⟩
abbrev main_v1392 : Ref sig .tc := ⟨.hbm, 1872, rfl⟩
abbrev main_c_249 : Ref sig .tc := ⟨.hbm, 1873, rfl⟩
abbrev main_v1393 : Ref sig .tc := ⟨.hbm, 1874, rfl⟩
abbrev main_v1394 : Ref sig .tc := ⟨.hbm, 1875, rfl⟩
abbrev main_v1395 : Ref sig .tc := ⟨.hbm, 1876, rfl⟩
abbrev main_v1396 : Ref sig .tc := ⟨.hbm, 1877, rfl⟩
abbrev main_v1397 : Ref sig .tc := ⟨.hbm, 1878, rfl⟩
abbrev main_v1398 : Ref sig .tc := ⟨.hbm, 1879, rfl⟩
abbrev main_v1399 : Ref sig .tc := ⟨.hbm, 1880, rfl⟩
abbrev main_v1400 : Ref sig .tc := ⟨.hbm, 1881, rfl⟩
abbrev main_v1401 : Ref sig .tc := ⟨.hbm, 1882, rfl⟩
abbrev main_v1402 : Ref sig .tc := ⟨.hbm, 1883, rfl⟩
abbrev main_v1403 : Ref sig .tc := ⟨.hbm, 1884, rfl⟩
abbrev main_c_250 : Ref sig .tc := ⟨.hbm, 1885, rfl⟩
abbrev main_v1404 : Ref sig .tc := ⟨.hbm, 1886, rfl⟩
abbrev main_v1405 : Ref sig .tc := ⟨.hbm, 1887, rfl⟩
abbrev main_c_251 : Ref sig .tc := ⟨.hbm, 1888, rfl⟩
abbrev main_v1406 : Ref sig .tc := ⟨.hbm, 1889, rfl⟩
abbrev main_v1407 : Ref sig .tc := ⟨.hbm, 1890, rfl⟩
abbrev main_v1408 : Ref sig .tc := ⟨.hbm, 1891, rfl⟩
abbrev main_v1409 : Ref sig .tc := ⟨.hbm, 1892, rfl⟩
abbrev main_v1410 : Ref sig .tc := ⟨.hbm, 1893, rfl⟩
abbrev main_v1411 : Ref sig .tc := ⟨.hbm, 1894, rfl⟩
abbrev main_v1412 : Ref sig .tc := ⟨.hbm, 1895, rfl⟩
abbrev main_v1413 : Ref sig .tc := ⟨.hbm, 1896, rfl⟩
abbrev main_v1414 : Ref sig .tc := ⟨.hbm, 1897, rfl⟩
abbrev main_v1415 : Ref sig .tc := ⟨.hbm, 1898, rfl⟩
abbrev main_v1416 : Ref sig .tc := ⟨.hbm, 1899, rfl⟩
abbrev main_c_252 : Ref sig .tc := ⟨.hbm, 1900, rfl⟩
abbrev main_v1417 : Ref sig .tc := ⟨.hbm, 1901, rfl⟩
abbrev main_v1418 : Ref sig .tc := ⟨.hbm, 1902, rfl⟩
abbrev main_c_253 : Ref sig .tc := ⟨.hbm, 1903, rfl⟩
abbrev main_v1419 : Ref sig .tc := ⟨.hbm, 1904, rfl⟩
abbrev main_v1420 : Ref sig .tc := ⟨.hbm, 1905, rfl⟩
abbrev main_v1421 : Ref sig .tc := ⟨.hbm, 1906, rfl⟩
abbrev main_v1422 : Ref sig .tc := ⟨.hbm, 1907, rfl⟩
abbrev main_v1423 : Ref sig .tc := ⟨.hbm, 1908, rfl⟩
abbrev main_v1424 : Ref sig .tc := ⟨.hbm, 1909, rfl⟩
abbrev main_v1425 : Ref sig .tc := ⟨.hbm, 1910, rfl⟩
abbrev main_v1426 : Ref sig .tc := ⟨.hbm, 1911, rfl⟩
abbrev main_v1427 : Ref sig .tc := ⟨.hbm, 1912, rfl⟩

abbrev nD : Nat := 1
abbrev τ : Topo := Topo.v7x

variable {F : FTy → Type} [FloatOps F]

class Facts₀ : Prop where
  bcast_S_S1x256 : S_.BroadcastsInDim S1x256 (![] : Fin 0 → Fin S1x256.rank)
  concatenates_S50000x256_S1x256_S50001x256_d0 : Shape.Concatenates [S50000x256, S1x256] S50001x256 0
  bcast_S_S50000x32 : S_.BroadcastsInDim S50000x32 (![] : Fin 0 → Fin S50000x32.rank)
  slices_S50000x9_S50000x1_0_0 : S50000x9.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S9x256x32_S1x256x32_0_0_0 : S9x256x32.Slices ![0, 0, 0] S1x256x32
  shapeCasts_S1x256x32_S256x32 : S1x256x32.ShapeCasts S256x32
  slices_S50000x9_S50000x1_0_1 : S50000x9.Slices ![0, 1] S50000x1
  slices_S9x256x32_S1x256x32_1_0_0 : S9x256x32.Slices ![1, 0, 0] S1x256x32
  slices_S50000x9_S50000x1_0_2 : S50000x9.Slices ![0, 2] S50000x1
  slices_S9x256x32_S1x256x32_2_0_0 : S9x256x32.Slices ![2, 0, 0] S1x256x32
  slices_S50000x9_S50000x1_0_3 : S50000x9.Slices ![0, 3] S50000x1
  slices_S9x256x32_S1x256x32_3_0_0 : S9x256x32.Slices ![3, 0, 0] S1x256x32
  slices_S50000x9_S50000x1_0_4 : S50000x9.Slices ![0, 4] S50000x1
  slices_S9x256x32_S1x256x32_4_0_0 : S9x256x32.Slices ![4, 0, 0] S1x256x32
  slices_S50000x9_S50000x1_0_5 : S50000x9.Slices ![0, 5] S50000x1
  slices_S9x256x32_S1x256x32_5_0_0 : S9x256x32.Slices ![5, 0, 0] S1x256x32
  slices_S50000x9_S50000x1_0_6 : S50000x9.Slices ![0, 6] S50000x1
  slices_S9x256x32_S1x256x32_6_0_0 : S9x256x32.Slices ![6, 0, 0] S1x256x32
  slices_S50000x9_S50000x1_0_7 : S50000x9.Slices ![0, 7] S50000x1
  slices_S9x256x32_S1x256x32_7_0_0 : S9x256x32.Slices ![7, 0, 0] S1x256x32
  slices_S50000x9_S50000x1_0_8 : S50000x9.Slices ![0, 8] S50000x1
  slices_S9x256x32_S1x256x32_8_0_0 : S9x256x32.Slices ![8, 0, 0] S1x256x32
  reducesTo_S50000x32_S32_d0 : S50000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S50000x32_0_1 : S1x32.BroadcastsInDim S50000x32 (![0, 1] : Fin 2 → Fin S50000x32.rank)
  concatenates_S50000x32_S1x32_S50001x32_d0 : Shape.Concatenates [S50000x32, S1x32] S50001x32 0
  slices_S9x32x32_S1x32x32_0_0_0 : S9x32x32.Slices ![0, 0, 0] S1x32x32
  shapeCasts_S1x32x32_S32x32 : S1x32x32.ShapeCasts S32x32
  slices_S9x32x32_S1x32x32_1_0_0 : S9x32x32.Slices ![1, 0, 0] S1x32x32
  slices_S9x32x32_S1x32x32_2_0_0 : S9x32x32.Slices ![2, 0, 0] S1x32x32
  slices_S9x32x32_S1x32x32_3_0_0 : S9x32x32.Slices ![3, 0, 0] S1x32x32
  slices_S9x32x32_S1x32x32_4_0_0 : S9x32x32.Slices ![4, 0, 0] S1x32x32
  slices_S9x32x32_S1x32x32_5_0_0 : S9x32x32.Slices ![5, 0, 0] S1x32x32
  slices_S9x32x32_S1x32x32_6_0_0 : S9x32x32.Slices ![6, 0, 0] S1x32x32
  slices_S9x32x32_S1x32x32_7_0_0 : S9x32x32.Slices ![7, 0, 0] S1x32x32
  slices_S9x32x32_S1x32x32_8_0_0 : S9x32x32.Slices ![8, 0, 0] S1x32x32
  bcast_S_S50000x64 : S_.BroadcastsInDim S50000x64 (![] : Fin 0 → Fin S50000x64.rank)
  slices_S9x32x64_S1x32x64_0_0_0 : S9x32x64.Slices ![0, 0, 0] S1x32x64
  shapeCasts_S1x32x64_S32x64 : S1x32x64.ShapeCasts S32x64
  slices_S9x32x64_S1x32x64_1_0_0 : S9x32x64.Slices ![1, 0, 0] S1x32x64
  slices_S9x32x64_S1x32x64_2_0_0 : S9x32x64.Slices ![2, 0, 0] S1x32x64
  slices_S9x32x64_S1x32x64_3_0_0 : S9x32x64.Slices ![3, 0, 0] S1x32x64
  slices_S9x32x64_S1x32x64_4_0_0 : S9x32x64.Slices ![4, 0, 0] S1x32x64
  slices_S9x32x64_S1x32x64_5_0_0 : S9x32x64.Slices ![5, 0, 0] S1x32x64
  slices_S9x32x64_S1x32x64_6_0_0 : S9x32x64.Slices ![6, 0, 0] S1x32x64
  slices_S9x32x64_S1x32x64_7_0_0 : S9x32x64.Slices ![7, 0, 0] S1x32x64
  slices_S9x32x64_S1x32x64_8_0_0 : S9x32x64.Slices ![8, 0, 0] S1x32x64
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  concatenates_S50000x64_S1x64_S50001x64_d0 : Shape.Concatenates [S50000x64, S1x64] S50001x64 0
  slices_S9x64x64_S1x64x64_0_0_0 : S9x64x64.Slices ![0, 0, 0] S1x64x64
  shapeCasts_S1x64x64_S64x64 : S1x64x64.ShapeCasts S64x64
  slices_S9x64x64_S1x64x64_1_0_0 : S9x64x64.Slices ![1, 0, 0] S1x64x64
  slices_S9x64x64_S1x64x64_2_0_0 : S9x64x64.Slices ![2, 0, 0] S1x64x64
  slices_S9x64x64_S1x64x64_3_0_0 : S9x64x64.Slices ![3, 0, 0] S1x64x64
  slices_S9x64x64_S1x64x64_4_0_0 : S9x64x64.Slices ![4, 0, 0] S1x64x64
  slices_S9x64x64_S1x64x64_5_0_0 : S9x64x64.Slices ![5, 0, 0] S1x64x64
  slices_S9x64x64_S1x64x64_6_0_0 : S9x64x64.Slices ![6, 0, 0] S1x64x64
  slices_S9x64x64_S1x64x64_7_0_0 : S9x64x64.Slices ![7, 0, 0] S1x64x64
  slices_S9x64x64_S1x64x64_8_0_0 : S9x64x64.Slices ![8, 0, 0] S1x64x64
  bcast_S_S122811x64 : S_.BroadcastsInDim S122811x64 (![] : Fin 0 → Fin S122811x64.rank)
  slices_S122811x27_S122811x1_0_0 : S122811x27.Slices ![0, 0] S122811x1
  shapeCasts_S122811x1_S122811 : S122811x1.ShapeCasts S122811
  bcast_S_S122811 : S_.BroadcastsInDim S122811 (![] : Fin 0 → Fin S122811.rank)
  bcast_S122811_S122811x1_0 : S122811.BroadcastsInDim S122811x1 (![0] : Fin 1 → Fin S122811x1.rank)
  slices_S27x64x64_S1x64x64_0_0_0 : S27x64x64.Slices ![0, 0, 0] S1x64x64
  slices_S122811x27_S122811x1_0_1 : S122811x27.Slices ![0, 1] S122811x1
  slices_S27x64x64_S1x64x64_1_0_0 : S27x64x64.Slices ![1, 0, 0] S1x64x64
  slices_S122811x27_S122811x1_0_2 : S122811x27.Slices ![0, 2] S122811x1
  slices_S27x64x64_S1x64x64_2_0_0 : S27x64x64.Slices ![2, 0, 0] S1x64x64
  slices_S122811x27_S122811x1_0_3 : S122811x27.Slices ![0, 3] S122811x1
  slices_S27x64x64_S1x64x64_3_0_0 : S27x64x64.Slices ![3, 0, 0] S1x64x64
  slices_S122811x27_S122811x1_0_4 : S122811x27.Slices ![0, 4] S122811x1
  slices_S27x64x64_S1x64x64_4_0_0 : S27x64x64.Slices ![4, 0, 0] S1x64x64
  slices_S122811x27_S122811x1_0_5 : S122811x27.Slices ![0, 5] S122811x1
  slices_S27x64x64_S1x64x64_5_0_0 : S27x64x64.Slices ![5, 0, 0] S1x64x64
  slices_S122811x27_S122811x1_0_6 : S122811x27.Slices ![0, 6] S122811x1
  slices_S27x64x64_S1x64x64_6_0_0 : S27x64x64.Slices ![6, 0, 0] S1x64x64
  slices_S122811x27_S122811x1_0_7 : S122811x27.Slices ![0, 7] S122811x1
  slices_S27x64x64_S1x64x64_7_0_0 : S27x64x64.Slices ![7, 0, 0] S1x64x64
  slices_S122811x27_S122811x1_0_8 : S122811x27.Slices ![0, 8] S122811x1
  slices_S27x64x64_S1x64x64_8_0_0 : S27x64x64.Slices ![8, 0, 0] S1x64x64
  slices_S122811x27_S122811x1_0_9 : S122811x27.Slices ![0, 9] S122811x1
  slices_S27x64x64_S1x64x64_9_0_0 : S27x64x64.Slices ![9, 0, 0] S1x64x64
  slices_S122811x27_S122811x1_0_10 : S122811x27.Slices ![0, 10] S122811x1
  slices_S27x64x64_S1x64x64_10_0_0 : S27x64x64.Slices ![10, 0, 0] S1x64x64
  slices_S122811x27_S122811x1_0_11 : S122811x27.Slices ![0, 11] S122811x1
  slices_S27x64x64_S1x64x64_11_0_0 : S27x64x64.Slices ![11, 0, 0] S1x64x64
  slices_S122811x27_S122811x1_0_12 : S122811x27.Slices ![0, 12] S122811x1
  slices_S27x64x64_S1x64x64_12_0_0 : S27x64x64.Slices ![12, 0, 0] S1x64x64
  slices_S122811x27_S122811x1_0_13 : S122811x27.Slices ![0, 13] S122811x1
  slices_S27x64x64_S1x64x64_13_0_0 : S27x64x64.Slices ![13, 0, 0] S1x64x64
  slices_S122811x27_S122811x1_0_14 : S122811x27.Slices ![0, 14] S122811x1
  slices_S27x64x64_S1x64x64_14_0_0 : S27x64x64.Slices ![14, 0, 0] S1x64x64
  slices_S122811x27_S122811x1_0_15 : S122811x27.Slices ![0, 15] S122811x1
  slices_S27x64x64_S1x64x64_15_0_0 : S27x64x64.Slices ![15, 0, 0] S1x64x64
  slices_S122811x27_S122811x1_0_16 : S122811x27.Slices ![0, 16] S122811x1
  slices_S27x64x64_S1x64x64_16_0_0 : S27x64x64.Slices ![16, 0, 0] S1x64x64
  slices_S122811x27_S122811x1_0_17 : S122811x27.Slices ![0, 17] S122811x1
  slices_S27x64x64_S1x64x64_17_0_0 : S27x64x64.Slices ![17, 0, 0] S1x64x64
  slices_S122811x27_S122811x1_0_18 : S122811x27.Slices ![0, 18] S122811x1
  slices_S27x64x64_S1x64x64_18_0_0 : S27x64x64.Slices ![18, 0, 0] S1x64x64
  slices_S122811x27_S122811x1_0_19 : S122811x27.Slices ![0, 19] S122811x1
  slices_S27x64x64_S1x64x64_19_0_0 : S27x64x64.Slices ![19, 0, 0] S1x64x64
  slices_S122811x27_S122811x1_0_20 : S122811x27.Slices ![0, 20] S122811x1
  slices_S27x64x64_S1x64x64_20_0_0 : S27x64x64.Slices ![20, 0, 0] S1x64x64
  slices_S122811x27_S122811x1_0_21 : S122811x27.Slices ![0, 21] S122811x1
  slices_S27x64x64_S1x64x64_21_0_0 : S27x64x64.Slices ![21, 0, 0] S1x64x64
  slices_S122811x27_S122811x1_0_22 : S122811x27.Slices ![0, 22] S122811x1
  slices_S27x64x64_S1x64x64_22_0_0 : S27x64x64.Slices ![22, 0, 0] S1x64x64
  slices_S122811x27_S122811x1_0_23 : S122811x27.Slices ![0, 23] S122811x1
  slices_S27x64x64_S1x64x64_23_0_0 : S27x64x64.Slices ![23, 0, 0] S1x64x64
  slices_S122811x27_S122811x1_0_24 : S122811x27.Slices ![0, 24] S122811x1
  slices_S27x64x64_S1x64x64_24_0_0 : S27x64x64.Slices ![24, 0, 0] S1x64x64
  slices_S122811x27_S122811x1_0_25 : S122811x27.Slices ![0, 25] S122811x1
  slices_S27x64x64_S1x64x64_25_0_0 : S27x64x64.Slices ![25, 0, 0] S1x64x64
  slices_S122811x27_S122811x1_0_26 : S122811x27.Slices ![0, 26] S122811x1
  slices_S27x64x64_S1x64x64_26_0_0 : S27x64x64.Slices ![26, 0, 0] S1x64x64
  gather_S50001x256_S50000x1_S50000x256_1_0_n_n_0_1_1256_wf : GatherDims.WF S50001x256 S50000x1 S50000x256 [1] [0] [] [0] [] 1 ![1, 256]
  dot_S50000x256_S256x32_S50000x32_1_0_0_1_n_n_wf : DotDims.WF S50000x256 S256x32 S50000x32 [1] [0] [0] [1] [] []
  gather_S50001x32_S50000x1_S50000x32_1_0_n_n_0_1_132_wf : GatherDims.WF S50001x32 S50000x1 S50000x32 [1] [0] [] [0] [] 1 ![1, 32]
  dot_S50000x32_S32x32_S50000x32_1_0_0_1_n_n_wf : DotDims.WF S50000x32 S32x32 S50000x32 [1] [0] [0] [1] [] []
  dot_S50000x32_S32x64_S50000x64_1_0_0_1_n_n_wf : DotDims.WF S50000x32 S32x64 S50000x64 [1] [0] [0] [1] [] []
  gather_S50001x64_S50000x1_S50000x64_1_0_n_n_0_1_164_wf : GatherDims.WF S50001x64 S50000x1 S50000x64 [1] [0] [] [0] [] 1 ![1, 64]
  dot_S50000x64_S64x64_S50000x64_1_0_0_1_n_n_wf : DotDims.WF S50000x64 S64x64 S50000x64 [1] [0] [0] [1] [] []
  gather_S50001x64_S122811x1_S122811x64_1_0_n_n_0_1_164_wf : GatherDims.WF S50001x64 S122811x1 S122811x64 [1] [0] [] [0] [] 1 ![1, 64]
  dot_S122811x64_S64x64_S122811x64_1_0_0_1_n_n_wf : DotDims.WF S122811x64 S64x64 S122811x64 [1] [0] [0] [1] [] []

variable [Facts₀]

def gather_S50001x256_S50000x1_S50000x256_1_0_n_n_0_1_1256 : GatherDims S50001x256 S50000x1 S50000x256 where
  offsetDims := [1]
  collapsedSliceDims := [0]
  operandBatchingDims := []
  startIndicesBatchingDims := []
  startIndexMap := [0]
  indexVectorDim := 1
  sliceSizes := ![1, 256]
  wf := gather_S50001x256_S50000x1_S50000x256_1_0_n_n_0_1_1256_wf
def dot_S50000x256_S256x32_S50000x32_1_0_0_1_n_n : DotDims S50000x256 S256x32 S50000x32 where
  lhsContracting := [1]
  rhsContracting := [0]
  lhsNonContracting := [0]
  rhsNonContracting := [1]
  lhsBatch := []
  rhsBatch := []
  wf := dot_S50000x256_S256x32_S50000x32_1_0_0_1_n_n_wf
def gather_S50001x32_S50000x1_S50000x32_1_0_n_n_0_1_132 : GatherDims S50001x32 S50000x1 S50000x32 where
  offsetDims := [1]
  collapsedSliceDims := [0]
  operandBatchingDims := []
  startIndicesBatchingDims := []
  startIndexMap := [0]
  indexVectorDim := 1
  sliceSizes := ![1, 32]
  wf := gather_S50001x32_S50000x1_S50000x32_1_0_n_n_0_1_132_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50001x64_S50000x1_S50000x64_1_0_n_n_0_1_164 : GatherDims S50001x64 S50000x1 S50000x64 where
  offsetDims := [1]
  collapsedSliceDims := [0]
  operandBatchingDims := []
  startIndicesBatchingDims := []
  startIndexMap := [0]
  indexVectorDim := 1
  sliceSizes := ![1, 64]
  wf := gather_S50001x64_S50000x1_S50000x64_1_0_n_n_0_1_164_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50001x64_S122811x1_S122811x64_1_0_n_n_0_1_164 : GatherDims S50001x64 S122811x1 S122811x64 where
  offsetDims := [1]
  collapsedSliceDims := [0]
  operandBatchingDims := []
  startIndicesBatchingDims := []
  startIndexMap := [0]
  indexVectorDim := 1
  sliceSizes := ![1, 64]
  wf := gather_S50001x64_S122811x1_S122811x64_1_0_n_n_0_1_164_wf
def dot_S122811x64_S64x64_S122811x64_1_0_0_1_n_n : DotDims S122811x64 S64x64 S122811x64 where
  lhsContracting := [1]
  rhsContracting := [0]
  lhsNonContracting := [0]
  rhsNonContracting := [1]
  lhsBatch := []
  rhsBatch := []
  wf := dot_S122811x64_S64x64_S122811x64_1_0_0_1_n_n_wf

class Facts : Prop extends Facts₀ where

variable [Facts]
-- ==== Proof.Spec.lean ====
/-
  The mathematics the two programs share, over the extended reals.

  A sparse convolution with K taps sends a feature table x (one row per voxel, plus a last all-zero row) to
      out[i, o] = z + Σ_{k<K} Σ_c x[nbr(i,k), c] · W[k, c, o],
  the taps added one after the other in the order k = 0, 1, …, K-1 onto the initial value z (the word of +0).
  Both programs add the taps in exactly that order and association, so no law of addition is needed to compare
  them: `acc9` and `acc27` are that left-nested sum. The leaky rectifier is x ↦ x if x ≥ 0, else s · x, with
  s the f32 literal nearest 0.01, the same word in both programs.
-/
import Idealize.ShloMosaic.PureOps.Ideal
import Idealize.ShloMosaic.PureOps.Ideal.Laws
import Idealize.ShloMosaic.Lib.ValueIdx

noncomputable section

namespace Cert.SparseConv

open Idealize.ShloMosaic

/-- The word of +0.0 read as an extended real (never evaluated: both programs start their sums from it). -/
abbrev z0 : EReal := Ideal.ofBits .f32 0x00000000#32

/-- Nine taps added in order onto `z0`, left-nested. -/
def acc9 (f : Fin 9 → EReal) : EReal :=
  ((((((((z0 + f 0) + f 1) + f 2) + f 3) + f 4) + f 5) + f 6) + f 7) + f 8

/-- Twenty-seven taps added in order onto `z0`, left-nested. -/
def acc27 (f : Fin 27 → EReal) : EReal :=
  ((((((((((((((((((((((((((z0 + f 0) + f 1) + f 2) + f 3) + f 4) + f 5) + f 6) + f 7) + f 8) + f 9) + f 10) + f 11)
    + f 12) + f 13) + f 14) + f 15) + f 16) + f 17) + f 18) + f 19) + f 20) + f 21) + f 22) + f 23) + f 24) + f 25) + f 26

/-- The leaky rectifier: x where x ≥ 0, the slope literal times x elsewhere. -/
def lrelu (x : EReal) : EReal :=
  Scalar.select (FloatOps.cmpf (F := Ideal) (φ := .f32) .oge x z0) x (Ideal.ofBits .f32 0x3C23D70A#32 * x)

end Cert.SparseConv

end
-- ==== Proof.Region0Body.lean ====
/-
  Region 0 (the first 9-tap convolution, 256 → 32 channels, rows tiled by 2000): what one grid point's body
  leaves in its output block, read at an index.

  The body holds a block x0 of the gathered taps (9 × 2000 × 256) and the weights x1 (9 × 256 × 32). For tap k it
  multiplies the k-th 2000 × 256 slice of x0 by the k-th 256 × 32 slice of x1 on the matrix unit into a zero
  accumulator, adds the nine products in order onto zero, and applies the leaky rectifier. At row p and channel q
  this is  lrelu (acc9 fun k => Σ_c x0[k, p, c] · x1[k, c, q]).
-/
import proofs.«141681_j16750372455151_2_alg».proof.Proof.Gen.KernelIdeal.Frame
import proofs.«141681_j16750372455151_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Conv0

open Idealize.ShloMosaic Idealize.ShloMosaic.TcCoe Idealize.ShloMosaic.ValueIdx
open Cert.KernelIdeal Cert.KernelIdeal.Gen Cert.SparseConv

/-- The matrix product's dimension record: rows × contraction times contraction × columns. -/
abbrev D := dot_S2000x256_S256x32_S2000x32_1_0_0_1_n_n

theorem lhs_row (j : S2000x32.Idx) (s : D.contr.Idx) : (D.lhsIdx j s 0).val = (j 0).val := by
  unfold DotDims.lhsIdx
  rw [dif_neg (show ¬(0 : Fin S2000x256.rank) ∈ D.lhsBatch by decide), dif_pos (show (0 : Fin S2000x256.rank) ∈ D.lhsNonContracting by decide)]
  rfl
theorem lhs_contr (j : S2000x32.Idx) (s : D.contr.Idx) : (D.lhsIdx j s 1).val = (s ⟨0, by decide⟩).val :=
  D.lhsIdx_val_of_single rfl j s
theorem rhs_contr (j : S2000x32.Idx) (s : D.contr.Idx) : (D.rhsIdx j s 0).val = (s ⟨0, by decide⟩).val :=
  D.rhsIdx_val_of_single rfl j s
theorem rhs_col (j : S2000x32.Idx) (s : D.contr.Idx) : (D.rhsIdx j s 1).val = (j 1).val := by
  unfold DotDims.rhsIdx
  rw [dif_neg (show ¬(1 : Fin S256x32.rank) ∈ D.rhsBatch by decide), dif_pos (show (1 : Fin S256x32.rank) ∈ D.rhsNonContracting by decide)]
  rfl

/-- ONE TAP: a 1 × 2000 × 256 slice times a 1 × 256 × 32 slice into a zero accumulator, at (p, q), is the sum over
    the 256 input channels. -/
theorem tap (g : Vec Ideal S1x2000x256 .bf16) (w : Vec Ideal S1x256x32 .bf16) (p : Fin 2000) (q : Fin 32) :
    (matmul (F := Ideal) (φ₁ := .bf16) (φ₂ := .bf16) D none (shapeCast S2000x256 g shapeCasts_S1x2000x256_S2000x256) (shapeCast S256x32 w shapeCasts_S1x256x32_S256x32)
      (constant S2000x32 .f32 0x00000000#32) (ix2 p q) : EReal)
    = ∑ c : Fin 256, (g (ix3 (0 : Fin 1) p c) : EReal) * (w (ix3 (0 : Fin 1) c q) : EReal) := by
  refine (Ideal.matmul_constant_zero_apply D none _ _ (ix2 p q)).trans ?_
  rw [← Equiv.sum_comp (contrEquiv1 D 256 rfl rfl).symm]
  refine Finset.sum_congr rfl fun c _ => ?_
  have hc := contrEquiv1_symm_val D 256 rfl rfl c
  have el : D.lhsIdx (ix2 p q) ((contrEquiv1 D 256 rfl rfl).symm c) = ix2 p c := funext fun a => Fin.ext (by
    match a with
    | ⟨0, _⟩ => exact lhs_row _ _
    | ⟨1, _⟩ => exact (lhs_contr _ _).trans hc)
  have er : D.rhsIdx (ix2 p q) ((contrEquiv1 D 256 rfl rfl).symm c) = ix2 c q := funext fun a => Fin.ext (by
    match a with
    | ⟨0, _⟩ => exact (rhs_contr _ _).trans hc
    | ⟨1, _⟩ => exact rhs_col _ _)
  rw [el, er, shapeCast_1ab_ab_apply, shapeCast_1ab_ab_apply]

/-- Tap k's slice of the gathered block, loaded through its rectangle, read at (0, p, c). -/
theorem ld_g (x0 : Vec Ideal S9x2000x256 .bf16) (k : Fin 9) (inb) (p : Fin 2000) (c : Fin 256) :
    View.ld x0 (Rect.unit (s := S9x2000x256) ![k.val, 0, 0] S1x2000x256.size inb) (ix3 (0 : Fin 1) p c) = x0 (ix3 k p c) := by
  show x0 ((Rect.unit (s := S9x2000x256) ![k.val, 0, 0] S1x2000x256.size inb).idx (ix3 (0 : Fin 1) p c)) = _
  congr 1
  funext a
  match a with
  | ⟨0, _⟩ => exact Fin.ext (by show k.val + 1 * 0 = k.val; omega)
  | ⟨1, _⟩ => exact Fin.ext (by show 0 + 1 * p.val = p.val; omega)
  | ⟨2, _⟩ => exact Fin.ext (by show 0 + 1 * c.val = c.val; omega)

/-- Tap k's slice of the weights, loaded through its rectangle, read at (0, c, q). -/
theorem ld_w (x1 : Vec Ideal S9x256x32 .bf16) (k : Fin 9) (inb) (c : Fin 256) (q : Fin 32) :
    View.ld x1 (Rect.unit (s := S9x256x32) ![k.val, 0, 0] S1x256x32.size inb) (ix3 (0 : Fin 1) c q) = x1 (ix3 k c q) := by
  show x1 ((Rect.unit (s := S9x256x32) ![k.val, 0, 0] S1x256x32.size inb).idx (ix3 (0 : Fin 1) c q)) = _
  congr 1
  funext a
  match a with
  | ⟨0, _⟩ => exact Fin.ext (by show k.val + 1 * 0 = k.val; omega)
  | ⟨1, _⟩ => exact Fin.ext (by show 0 + 1 * c.val = c.val; omega)
  | ⟨2, _⟩ => exact Fin.ext (by show 0 + 1 * q.val = q.val; omega)

/-- Tap k of the block at (p, q): the product of the loaded slices is the sum over the input channels of the
    block's own entries. -/
theorem tap_ld (x0 : Vec Ideal S9x2000x256 .bf16) (x1 : Vec Ideal S9x256x32 .bf16) (k : Fin 9) (inb0) (inb1)
    (p : Fin 2000) (q : Fin 32) :
    (matmul (F := Ideal) (φ₁ := .bf16) (φ₂ := .bf16) D none
      (shapeCast S2000x256 (View.ld x0 (Rect.unit (s := S9x2000x256) ![k.val, 0, 0] S1x2000x256.size inb0)) shapeCasts_S1x2000x256_S2000x256)
      (shapeCast S256x32 (View.ld x1 (Rect.unit (s := S9x256x32) ![k.val, 0, 0] S1x256x32.size inb1)) shapeCasts_S1x256x32_S256x32)
      (constant S2000x32 .f32 0x00000000#32) (ix2 p q) : EReal)
    = ∑ c : Fin 256, (x0 (ix3 k p c) : EReal) * (x1 (ix3 k c q) : EReal) := by
  refine (tap _ _ p q).trans (Finset.sum_congr rfl fun c _ => ?_)
  rw [ld_g x0 k inb0 p c, ld_w x1 k inb1 c q]

/-- The conv's value at (p, q) from a block of taps and the weights. -/
def blockVal (x0 : Vec Ideal S9x2000x256 .bf16) (x1 : Vec Ideal S9x256x32 .bf16) (p : Fin 2000) (q : Fin 32) : EReal :=
  lrelu (acc9 fun k => ∑ c : Fin 256, (x0 (ix3 k p c) : EReal) * (x1 (ix3 k c q) : EReal))

/-- The rectifier as the body spells it — compare with zero, multiply by the slope, select — at an index. -/
theorem lrelu_apply (A : FVec Ideal S2000x32 .f32) (i : S2000x32.Idx) :
    select (cmpf .oge A (broadcast S2000x32 (FloatOps.ofBits .f32 0x00000000#32))) A
      (mulf (broadcast S2000x32 (FloatOps.ofBits .f32 0x3C23D70A#32)) A) i = lrelu (A i) := rfl

/-- Nine arrays added in order onto the broadcast zero, at an index. -/
theorem acc9_apply (m0 m1 m2 m3 m4 m5 m6 m7 m8 : FVec Ideal S2000x32 .f32) (i : S2000x32.Idx) :
    addf (addf (addf (addf (addf (addf (addf (addf (addf (broadcast S2000x32 (FloatOps.ofBits .f32 0x00000000#32)) m0) m1) m2) m3) m4) m5) m6) m7) m8 i
      = acc9 ![m0 i, m1 i, m2 i, m3 i, m4 i, m5 i, m6 i, m7 i, m8 i] := rfl

theorem hz2 : (![0, 0] : Fin 2 → Nat) = fun _ => 0 := funext fun a => by fin_cases a <;> rfl

/-- WHAT THE BODY LEAVES in its output block, at (p, q). -/
theorem out_apply (x0 : Vec Ideal S9x2000x256 .bf16) (x1 : Vec Ideal S9x256x32 .bf16) (p : Fin 2000) (q : Fin 32) :
    out0_2 (F := Ideal) x0 x1 (ix2 p q) = blockVal x0 x1 p q := by
  unfold out0_2
  rw [View.canon_unit_zero hz2]
  unfold k0_pay1 k0_pay4 k0_pay2 k0_pay3
  dsimp only
  refine (lrelu_apply _ (ix2 p q)).trans (congrArg lrelu ?_)
  refine (acc9_apply _ _ _ _ _ _ _ _ _ (ix2 p q)).trans (congrArg acc9 (funext fun k => ?_))
  fin_cases k
  · exact tap_ld x0 x1 0 _ _ p q
  · exact tap_ld x0 x1 1 _ _ p q
  · exact tap_ld x0 x1 2 _ _ p q
  · exact tap_ld x0 x1 3 _ _ p q
  · exact tap_ld x0 x1 4 _ _ p q
  · exact tap_ld x0 x1 5 _ _ p q
  · exact tap_ld x0 x1 6 _ _ p q
  · exact tap_ld x0 x1 7 _ _ p q
  · exact tap_ld x0 x1 8 _ _ p q

end Cert.KernelIdeal.Conv0

end
-- ==== Proof.Region0Array.lean ====
/-
  Region 0: from what each grid point writes back to the whole output array.

  The grid has 25 points; point t stages rows 2000·t … 2000·t + 1999 of the gathered taps (all nine taps, all 256
  channels), the whole weight table, and writes back rows 2000·t … 2000·t + 1999 of the output. So the block a
  point writes is the restriction to its rows of ONE function of the two arrays as the region finds them,
      conv G Wt (i, o) = lrelu (acc9 fun k => Σ_c G[k, i, c] · Wt[k, c, o]),
  the 25 row ranges tile the 50000 rows, and the output array ends at that function.
-/
import proofs.«141681_j16750372455151_2_alg».proof.Proof.Region0Body

set_option maxRecDepth 16384

noncomputable section

namespace Cert.KernelIdeal.Conv0

open Idealize.ShloMosaic Idealize.ShloMosaic.TcCoe Idealize.ShloMosaic.ValueIdx
open Idealize.ShloMosaic.Pipeline (Dat)
open Cert.KernelIdeal Cert.KernelIdeal.Gen Cert.SparseConv

variable (V : (c : Dev nD) → (b : Ref sig .tc) → Buf (Elt Ideal) ((c : Thread nD τ).loc b))

/-- The convolution as one function of the gathered taps and the weights. -/
def conv (G : Vec Ideal S9x50000x256 .bf16) (Wt : Vec Ideal S9x256x32 .bf16) : Vec Ideal S50000x32 .f32 :=
  fun i => lrelu (acc9 fun k => ∑ ch : Fin 256, (G (ix3 k (i 0) ch) : EReal) * (Wt (ix3 k ch (i 1)) : EReal))

/-- The three index maps over the 25 grid points: the taps' block moves with the output's along the rows and sits
    at zero elsewhere; the weights' block never moves. -/
theorem idx_facts : ∀ t : Fin cfg0.N,
    win0_0.index t (0 : Fin 3) = 0 ∧ win0_0.index t (1 : Fin 3) = win0_2.index t (0 : Fin 2) ∧ win0_0.index t (2 : Fin 3) = 0
    ∧ win0_1.index t (0 : Fin 3) = 0 ∧ win0_1.index t (1 : Fin 3) = 0 ∧ win0_1.index t (2 : Fin 3) = 0
    ∧ win0_2.index t (0 : Fin 2) ≤ 24 ∧ win0_2.index t (1 : Fin 2) = 0 :=
  (by decide +kernel : ∀ t : Fin grid0.N, _)

/-- Every block of rows is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- WHAT POINT t WRITES BACK is its rows of `conv` of the arrays as the region finds them. -/
theorem flushed_eq (c : Dev nD) (t : Fin cfg0.N) :
    (dat0 V c).flushed 2 t = ((cfg0.win 2).blk t).view.read (Elt Ideal) (conv (V c main_v10) (V c main_v11)) := by
  show (cfg0.win 2).cut (grid0.coords t) ((dat0 V c).after 2 t) = _
  rw [after0_2]
  obtain ⟨e0, e1, e2, e3, e4, e5, e6, e7⟩ := idx_facts t
  funext j
  obtain ⟨p, q, rfl⟩ : ∃ (p : Fin 2000) (q : Fin 32), j = ix2 p q := ⟨j 0, j 1, eq_ix2 j⟩
  show out0_2 (iblk0 V c 0 t) (iblk0 V c 1 t) (ix2 p q)
    = conv (V c main_v10) (V c main_v11) (((cfg0.win 2).blk t).view.emb (ix2 p q))
  refine (out_apply _ _ p q).trans ?_
  unfold blockVal conv
  refine congrArg lrelu (congrArg acc9 (funext fun k => Finset.sum_congr rfl fun ch _ => ?_))
  have hg : iblk0 V c 0 t (ix3 k p ch) = V c main_v10 (ix3 k ((((cfg0.win 2).blk t).view.emb (ix2 p q)) 0) ch) := by
    show V c main_v10 (((cfg0.win 0).blk t).view.emb (ix3 k p ch)) = _
    congr 1; funext a; apply Fin.ext
    match a with
    | ⟨0, _⟩ => show win0_0.index t (0 : Fin 3) * 9 + 1 * k.val = k.val; omega
    | ⟨1, _⟩ => show win0_0.index t (1 : Fin 3) * 2000 + 1 * p.val = win0_2.index t (0 : Fin 2) * 2000 + 1 * p.val; omega
    | ⟨2, _⟩ => show win0_0.index t (2 : Fin 3) * 256 + 1 * ch.val = ch.val; omega
  have hw : iblk0 V c 1 t (ix3 k ch q) = V c main_v11 (ix3 k ch ((((cfg0.win 2).blk t).view.emb (ix2 p q)) 1)) := by
    show V c main_v11 (((cfg0.win 1).blk t).view.emb (ix3 k ch q)) = _
    congr 1; funext a; apply Fin.ext
    match a with
    | ⟨0, _⟩ => show win0_1.index t (0 : Fin 3) * 9 + 1 * k.val = k.val; omega
    | ⟨1, _⟩ => show win0_1.index t (1 : Fin 3) * 256 + 1 * ch.val = ch.val; omega
    | ⟨2, _⟩ => show win0_1.index t (2 : Fin 3) * 32 + 1 * q.val = win0_2.index t (1 : Fin 2) * 32 + 1 * q.val; omega
  rw [hg, hw]

/-- An index is in point t's block iff its row is in the point's 2000 rows (and its channel among the 32). -/
theorem mem_blk (t : Fin cfg0.N) (i : S50000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v12).slice (win0_2.rect t)).set ↔ _
  rw [View.set_slice_whole, Rect.mem_set_unit]
  exact Iff.rfl

/-- The 25 blocks of 2000 rows tile the 50000 rows: row r is in the block of point r / 2000. -/
theorem cover (i : S50000x32.Idx) : ∃ t : Fin cfg0.N, (cfg0.win 2).flush t = true ∧ i ∈ ((cfg0.win 2).blk t).view.set := by
  have hi0 : (i 0).val < 50000 := (i 0).isLt
  have hi1 : (i 1).val < 32 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 32 ≤ (i 1).val ∧ (i 1).val < win0_2.index t (1 : Fin 2) * 32 + 32; omega

/-- THE OUTPUT ARRAY after the region: `conv` of the gathered taps and the weights as the region finds them. -/
theorem final (c : Dev nD) : (dat0 V c).arrAt 2 cfg0.N = conv (V c main_v10) (V c main_v11) :=
  (dat0 V c).arrAt_eq_of_cover 2 _ (fun t _ => flushed_eq V c t) cover

end Cert.KernelIdeal.Conv0

end
-- ==== Proof.KernelChain0.lean ====
/-
  The first convolution of the idealized kernel, from the launch memory to the array region 0 leaves.

  Before the region the host pads the features with one all-zero row, wraps negative neighbour indices around
  the 50001 rows, gathers for each of the nine taps and each voxel the row its neighbour index names (clamped into
  the table), and narrows the weights to bf16 (no change over the extended reals). The region then leaves
  `conv` of those two arrays in its output array.
-/
import proofs.«141681_j16750372455151_2_alg».proof.Proof.Region0Array
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The neighbour table transposed to taps × voxels, negative entries wrapped around the 50001 rows. -/
def wrapT9 (nbr : IVec S50000x9 32) : IVec S9x50000 32 :=
  select (cmpi .slt (transpose S9x50000 [1, 0] nbr transposes_S50000x9_S9x50000_1_0) (broadcastInDim S9x50000 ![] bcast_S_S9x50000 (constantI S_ 32 0#32)))
    (addi (transpose S9x50000 [1, 0] nbr transposes_S50000x9_S9x50000_1_0) (broadcastInDim S9x50000 ![] bcast_S_S9x50000 (constantI S_ 32 50001#32)))
    (transpose S9x50000 [1, 0] nbr transposes_S50000x9_S9x50000_1_0)

/-- The 256-channel features padded with a zero row, gathered per tap and voxel. -/
def taps256 (x : FVec Ideal S50000x256 .f32) (nbr : IVec S50000x9 32) : FVec Ideal S9x50000x256 .bf16 :=
  Host.gather gather_S50001x256_S9x50000x1_S9x50000x256_2_0_n_n_0_2_1256
    (concatenate S50001x256 0 [⟨S50000x256, truncf (F := Ideal) .bf16 x bitsLt_bf16_f32⟩,
      ⟨S1x256, broadcastInDim S1x256 ![] bcast_S_S1x256 (constant (F := Ideal) S_ .bf16 0x0000#16)⟩] concatenates_S50000x256_S1x256_S50001x256_d0)
    (broadcastInDim S9x50000x1 ![0, 1] bcast_S9x50000_S9x50000x1_0_1 (wrapT9 nbr))

/-- What region 0 finds in its taps array. -/
theorem V1_taps (c : Dev nD) :
    (V1 m ρ c main_v10 : S9x50000x256.Idx → EReal)
      = taps256 (m ((c : Thread nD τ).loc main_arg0)) (m ((c : Thread nD τ).loc main_arg10)) := by
  dsimp only [V1, W1, hostOps0]
  after_results
  rfl

/-- What region 0 finds in its weights array. -/
theorem V1_w (c : Dev nD) :
    (V1 m ρ c main_v11 : S9x256x32.Idx → EReal) = truncf (F := Ideal) .bf16 (m ((c : Thread nD τ).loc main_arg1)) bitsLt_bf16_f32 := by
  dsimp only [V1, W1, hostOps0]
  after_results

/-- THE FIRST CONVOLUTION's array after region 0. -/
theorem W2_out (c : Dev nD) :
    (W2 m ρ c (Proc.devRef .tc main_v12) : S50000x32.Idx → EReal)
      = Conv0.conv (taps256 (m ((c : Thread nD τ).loc main_arg0)) (m ((c : Thread nD τ).loc main_arg10)))
          (truncf (F := Ideal) .bf16 (m ((c : Thread nD τ).loc main_arg1)) bitsLt_bf16_f32) := by
  refine (W2_arr m ρ c 2).trans ?_
  rw [Conv0.final (V1 m ρ) c]
  exact congrArg₂ Conv0.conv (V1_taps m ρ c) (V1_w m ρ c)

end Cert.KernelIdeal.Chain

end
-- ==== Proof.HostFns.lean ====
/-
  The host-side functions both programs apply between convolutions, as terms over the extended reals: the leaky
  rectifier and the batch normalisation (mean and variance over the 50000 voxels, per channel). Both programs lower
  the same jax functions to the same sequence of host operations, so these terms stand for either side's.
-/
import proofs.«141681_j16750372455151_2_alg».proof.Proof.Gen.ReferenceIdeal
import Idealize.ShloMosaic.PureOps.Ideal

noncomputable section

namespace Cert.ReferenceIdeal.Fns

open Cert.ReferenceIdeal Cert.ReferenceIdeal.Gen Idealize.ShloMosaic Idealize.ShloMosaic.TcCoe Idealize.SL.Sem

/-- The leaky rectifier on a 50000 × 32 array, as jax's `leaky_relu` spells it: compare with zero, multiply by the
    slope, select. -/
def lrelu32 (a : FVec Ideal S50000x32 .f32) : FVec Ideal S50000x32 .f32 :=
  select (cmpf .oge a (broadcastInDim S50000x32 ![] bcast_S_S50000x32 (constant (F := Ideal) S_ .f32 0x00000000#32))) a
    (mulf (broadcastInDim S50000x32 ![] bcast_S_S50000x32 (id (constant (F := Ideal) S_ .f32 0x3C23D70A#32))) a)

/-- The mean over the 50000 rows, per channel. -/
def mean32 (a : FVec Ideal S50000x32 .f32) : FVec Ideal S32 .f32 :=
  Host.divf (Host.reduceAdd a (constant (F := Ideal) S_ .f32 0x00000000#32) reducesTo_S50000x32_S32_d0 h_S_)
    (broadcastInDim S32 ![] bcast_S_S32 (constant (F := Ideal) S_ .f32 0x47435000#32))

/-- The variance over the 50000 rows, per channel, as jnp's `var` spells it (mean of squared deviations, divided by
    50000 − 0, guarded by 50000 − 0 > 0). -/
def var32 (a : FVec Ideal S50000x32 .f32) : FVec Ideal S32 .f32 :=
  (fun p x y => select (broadcastInDim S32 ![] bcast_S_S32 p) x y)
    (cmpf .ogt (subf (constant (F := Ideal) S_ .f32 0x47435000#32) (sitofp (F := Ideal) .f32 (constantI S_ 32 0#32))) (constant (F := Ideal) S_ .f32 0x00000000#32))
    (Host.divf
      (Host.reduceAdd
        (mulf
          (subf a (broadcastInDim S50000x32 ![0, 1] bcast_S1x32_S50000x32_0_1
            (Host.divf (broadcastInDim S1x32 ![1] bcast_S32_S1x32_1 (Host.reduceAdd a (constant (F := Ideal) S_ .f32 0x00000000#32) reducesTo_S50000x32_S32_d0 h_S_))
              (broadcastInDim S1x32 ![] bcast_S_S1x32 (constant (F := Ideal) S_ .f32 0x47435000#32)))))
          (subf a (broadcastInDim S50000x32 ![0, 1] bcast_S1x32_S50000x32_0_1
            (Host.divf (broadcastInDim S1x32 ![1] bcast_S32_S1x32_1 (Host.reduceAdd a (constant (F := Ideal) S_ .f32 0x00000000#32) reducesTo_S50000x32_S32_d0 h_S_))
              (broadcastInDim S1x32 ![] bcast_S_S1x32 (constant (F := Ideal) S_ .f32 0x47435000#32))))))
        (constant (F := Ideal) S_ .f32 0x00000000#32) reducesTo_S50000x32_S32_d0 h_S_)
      (broadcastInDim S32 ![] bcast_S_S32 (subf (constant (F := Ideal) S_ .f32 0x47435000#32) (sitofp (F := Ideal) .f32 (constantI S_ 32 0#32)))))
    (broadcastInDim S32 ![] bcast_S_S32 (id (constant (F := Ideal) S_ .f32 0x7FC00000#32)))

/-- Batch normalisation: centre by the mean, scale by the reciprocal square root of the variance plus epsilon. -/
def bn32 (a : FVec Ideal S50000x32 .f32) : FVec Ideal S50000x32 .f32 :=
  mulf (subf a (broadcastInDim S50000x32 ![0, 1] bcast_S1x32_S50000x32_0_1 (broadcastInDim S1x32 ![1] bcast_S32_S1x32_1 (mean32 a))))
    (broadcastInDim S50000x32 ![0, 1] bcast_S1x32_S50000x32_0_1 (broadcastInDim S1x32 ![1] bcast_S32_S1x32_1
      (Host.rsqrt (addf (var32 a) (broadcastInDim S32 ![] bcast_S_S32 (constant (F := Ideal) S_ .f32 0x3727C5AC#32))))))

/-- The leaky rectifier on a 50000 × 64 array, as jax's `leaky_relu` spells it: compare with zero, multiply by the
    slope, select. -/
def lrelu64 (a : FVec Ideal S50000x64 .f32) : FVec Ideal S50000x64 .f32 :=
  select (cmpf .oge a (broadcastInDim S50000x64 ![] bcast_S_S50000x64 (constant (F := Ideal) S_ .f32 0x00000000#32))) a
    (mulf (broadcastInDim S50000x64 ![] bcast_S_S50000x64 (id (constant (F := Ideal) S_ .f32 0x3C23D70A#32))) a)

/-- The mean over the 50000 rows, per channel. -/
def mean64 (a : FVec Ideal S50000x64 .f32) : FVec Ideal S64 .f32 :=
  Host.divf (Host.reduceAdd a (constant (F := Ideal) S_ .f32 0x00000000#32) reducesTo_S50000x64_S64_d0 h_S_)
    (broadcastInDim S64 ![] bcast_S_S64 (constant (F := Ideal) S_ .f32 0x47435000#32))

/-- The variance over the 50000 rows, per channel, as jnp's `var` spells it (mean of squared deviations, divided by
    50000 − 0, guarded by 50000 − 0 > 0). -/
def var64 (a : FVec Ideal S50000x64 .f32) : FVec Ideal S64 .f32 :=
  (fun p x y => select (broadcastInDim S64 ![] bcast_S_S64 p) x y)
    (cmpf .ogt (subf (constant (F := Ideal) S_ .f32 0x47435000#32) (sitofp (F := Ideal) .f32 (constantI S_ 32 0#32))) (constant (F := Ideal) S_ .f32 0x00000000#32))
    (Host.divf
      (Host.reduceAdd
        (mulf
          (subf a (broadcastInDim S50000x64 ![0, 1] bcast_S1x64_S50000x64_0_1
            (Host.divf (broadcastInDim S1x64 ![1] bcast_S64_S1x64_1 (Host.reduceAdd a (constant (F := Ideal) S_ .f32 0x00000000#32) reducesTo_S50000x64_S64_d0 h_S_))
              (broadcastInDim S1x64 ![] bcast_S_S1x64 (constant (F := Ideal) S_ .f32 0x47435000#32)))))
          (subf a (broadcastInDim S50000x64 ![0, 1] bcast_S1x64_S50000x64_0_1
            (Host.divf (broadcastInDim S1x64 ![1] bcast_S64_S1x64_1 (Host.reduceAdd a (constant (F := Ideal) S_ .f32 0x00000000#32) reducesTo_S50000x64_S64_d0 h_S_))
              (broadcastInDim S1x64 ![] bcast_S_S1x64 (constant (F := Ideal) S_ .f32 0x47435000#32))))))
        (constant (F := Ideal) S_ .f32 0x00000000#32) reducesTo_S50000x64_S64_d0 h_S_)
      (broadcastInDim S64 ![] bcast_S_S64 (subf (constant (F := Ideal) S_ .f32 0x47435000#32) (sitofp (F := Ideal) .f32 (constantI S_ 32 0#32)))))
    (broadcastInDim S64 ![] bcast_S_S64 (id (constant (F := Ideal) S_ .f32 0x7FC00000#32)))

/-- Batch normalisation: centre by the mean, scale by the reciprocal square root of the variance plus epsilon. -/
def bn64 (a : FVec Ideal S50000x64 .f32) : FVec Ideal S50000x64 .f32 :=
  mulf (subf a (broadcastInDim S50000x64 ![0, 1] bcast_S1x64_S50000x64_0_1 (broadcastInDim S1x64 ![1] bcast_S64_S1x64_1 (mean64 a))))
    (broadcastInDim S50000x64 ![0, 1] bcast_S1x64_S50000x64_0_1 (broadcastInDim S1x64 ![1] bcast_S64_S1x64_1
      (Host.rsqrt (addf (var64 a) (broadcastInDim S64 ![] bcast_S_S64 (constant (F := Ideal) S_ .f32 0x3727C5AC#32))))))

end Cert.ReferenceIdeal.Fns

end
-- ==== Proof.KDefs.lean ====
/-
  The kernel's host-side gathers for every channel count, and the pooling stage's: what each stretch of host
  operations between two regions computes is stated over these.
-/
import proofs.«141681_j16750372455151_2_alg».proof.Proof.KernelChain0
import proofs.«141681_j16750372455151_2_alg».proof.Proof.HostFns
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

/-- A 32-channel bf16 table padded with a zero row, gathered per tap and voxel (the neighbour table transposed and
    wrapped, each start index clamped into the 50001 rows). -/
def tapsB32 (xb : FVec Ideal S50000x32 .bf16) (nbr : IVec S50000x9 32) : FVec Ideal S9x50000x32 .bf16 :=
  Host.gather gather_S50001x32_S9x50000x1_S9x50000x32_2_0_n_n_0_2_132
    (concatenate S50001x32 0 [⟨S50000x32, xb⟩,
      ⟨S1x32, broadcastInDim S1x32 ![] bcast_S_S1x32 (constant (F := Ideal) S_ .bf16 0x0000#16)⟩] concatenates_S50000x32_S1x32_S50001x32_d0)
    (broadcastInDim S9x50000x1 ![0, 1] bcast_S9x50000_S9x50000x1_0_1 (wrapT9 nbr))

/-- A 64-channel bf16 table padded with a zero row, gathered per tap and voxel (the neighbour table transposed and
    wrapped, each start index clamped into the 50001 rows). -/
def tapsB64 (xb : FVec Ideal S50000x64 .bf16) (nbr : IVec S50000x9 32) : FVec Ideal S9x50000x64 .bf16 :=
  Host.gather gather_S50001x64_S9x50000x1_S9x50000x64_2_0_n_n_0_2_164
    (concatenate S50001x64 0 [⟨S50000x64, xb⟩,
      ⟨S1x64, broadcastInDim S1x64 ![] bcast_S_S1x64 (constant (F := Ideal) S_ .bf16 0x0000#16)⟩] concatenates_S50000x64_S1x64_S50001x64_d0)
    (broadcastInDim S9x50000x1 ![0, 1] bcast_S9x50000_S9x50000x1_0_1 (wrapT9 nbr))

/-- A 256-channel bf16 table padded with a zero row, gathered per tap and voxel (the neighbour table transposed and
    wrapped, each start index clamped into the 50001 rows). -/
def tapsB256 (xb : FVec Ideal S50000x256 .bf16) (nbr : IVec S50000x9 32) : FVec Ideal S9x50000x256 .bf16 :=
  Host.gather gather_S50001x256_S9x50000x1_S9x50000x256_2_0_n_n_0_2_1256
    (concatenate S50001x256 0 [⟨S50000x256, xb⟩,
      ⟨S1x256, broadcastInDim S1x256 ![] bcast_S_S1x256 (constant (F := Ideal) S_ .bf16 0x0000#16)⟩] concatenates_S50000x256_S1x256_S50001x256_d0)
    (broadcastInDim S9x50000x1 ![0, 1] bcast_S9x50000_S9x50000x1_0_1 (wrapT9 nbr))

/-- The first gather is the 256-channel one on the narrowed features. -/
theorem taps256_eq (x : FVec Ideal S50000x256 .f32) (nbr : IVec S50000x9 32) :
    taps256 x nbr = tapsB256 (truncf (F := Ideal) .bf16 x bitsLt_bf16_f32) nbr := rfl

/-- The pooling stage's neighbour table (122811 output voxels × 27 taps) transposed, negative entries wrapped. -/
def wrapT27 (nbr : IVec S122811x27 32) : IVec S27x122811 32 :=
  select (cmpi .slt (transpose S27x122811 [1, 0] nbr transposes_S122811x27_S27x122811_1_0) (broadcastInDim S27x122811 ![] bcast_S_S27x122811 (constantI S_ 32 0#32)))
    (addi (transpose S27x122811 [1, 0] nbr transposes_S122811x27_S27x122811_1_0) (broadcastInDim S27x122811 ![] bcast_S_S27x122811 (constantI S_ 32 50001#32)))
    (transpose S27x122811 [1, 0] nbr transposes_S122811x27_S27x122811_1_0)

/-- The pooling stage's gathered taps, padded with 1389 zero rows per tap up to 69 tiles of 1800 rows. -/
def tapsP (xb : FVec Ideal S50000x64 .bf16) (nbr : IVec S122811x27 32) : FVec Ideal S27x124200x64 .bf16 :=
  pad S27x124200x64 ![0, 0, 0] ![0, 1389, 0] ![0, 0, 0]
    (Host.gather gather_S50001x64_S27x122811x1_S27x122811x64_2_0_n_n_0_2_164
      (concatenate S50001x64 0 [⟨S50000x64, xb⟩,
        ⟨S1x64, broadcastInDim S1x64 ![] bcast_S_S1x64 (constant (F := Ideal) S_ .bf16 0x0000#16)⟩] concatenates_S50000x64_S1x64_S50001x64_d0)
      (broadcastInDim S27x122811x1 ![0, 1] bcast_S27x122811_S27x122811x1_0_1 (wrapT27 nbr)))
    (sitofp (F := Ideal) .bf16 (constantI S_ 32 0#32)) pads_S27x122811x64_S27x124200x64_000_013890_000 h_S_

end Cert.KernelIdeal.Chain

end
-- ==== Proof.KStretch1.lean ====
/-
  What the stretch of host operations after region 0 computes, from ANY contents U of the buffers at the region's exit:
  the batch normalisation of the region's output, the next convolution's padded table gathered per tap, the next
  weights narrowed — each the operations' composed term.
-/
import proofs.«141681_j16750372455151_2_alg».proof.Proof.KDefs
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

theorem s1_taps (U : Valuation τ sig (Elt Ideal)) :
    (after hostOps1_2 (after hostOps1_1 (after hostOps1 U)) (Proc.devRef .tc main_v36) : S9x50000x32.Idx → EReal)
      = tapsB32 (truncf (F := Ideal) .bf16 (bn32 (U (Proc.devRef .tc main_v12))) bitsLt_bf16_f32) (U (Proc.devRef .tc main_arg11)) := by
  after_results_simp <;> rfl
theorem s1_w (U : Valuation τ sig (Elt Ideal)) :
    (after hostOps1_2 (after hostOps1_1 (after hostOps1 U)) (Proc.devRef .tc main_v37) : S9x32x32.Idx → EReal)
      = (truncf (F := Ideal) .bf16 (U (Proc.devRef .tc main_arg2)) bitsLt_bf16_f32) := by
  after_results_simp <;> rfl
theorem s1_keep_v0 (U : Valuation τ sig (Elt Ideal)) :
    (after hostOps1_2 (after hostOps1_1 (after hostOps1 U)) (Proc.devRef .tc main_v0) : S50000x256.Idx → EReal)
      = (U (Proc.devRef .tc main_v0)) := by
  after_results_simp <;> rfl

end Cert.KernelIdeal.Chain

end
-- ==== Proof.KStretch2.lean ====
/-
  What the stretch of host operations after region 1 computes, from ANY contents U of the buffers at the region's exit:
  the batch normalisation of the region's output, the next convolution's padded table gathered per tap, the next
  weights narrowed — each the operations' composed term.
-/
import proofs.«141681_j16750372455151_2_alg».proof.Proof.KDefs
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

theorem s2_taps (U : Valuation τ sig (Elt Ideal)) :
    (after hostOps2_2 (after hostOps2_1 (after hostOps2 U)) (Proc.devRef .tc main_v61) : S9x50000x256.Idx → EReal)
      = tapsB256 (U (Proc.devRef .tc main_v0)) (U (Proc.devRef .tc main_arg11)) := by
  after_results_simp <;> rfl
theorem s2_w (U : Valuation τ sig (Elt Ideal)) :
    (after hostOps2_2 (after hostOps2_1 (after hostOps2 U)) (Proc.devRef .tc main_v62) : S9x256x32.Idx → EReal)
      = (truncf (F := Ideal) .bf16 (U (Proc.devRef .tc main_arg3)) bitsLt_bf16_f32) := by
  after_results_simp <;> rfl
theorem s2_s (U : Valuation τ sig (Elt Ideal)) :
    (after hostOps2_2 (after hostOps2_1 (after hostOps2 U)) (Proc.devRef .tc main_v51) : S50000x32.Idx → EReal)
      = bn32 (U (Proc.devRef .tc main_v38)) := by
  after_results_simp <;> rfl

end Cert.KernelIdeal.Chain

end
-- ==== Proof.KStretch3.lean ====
/-
  What the stretch of host operations after region 2 computes, from ANY contents U of the buffers at the region's exit:
  the batch normalisation of the region's output, the next convolution's padded table gathered per tap, the next
  weights narrowed — each the operations' composed term.
-/
import proofs.«141681_j16750372455151_2_alg».proof.Proof.KDefs
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

theorem s3_taps (U : Valuation τ sig (Elt Ideal)) :
    (after hostOps3_2 (after hostOps3_1 (after hostOps3 U)) (Proc.devRef .tc main_v87) : S9x50000x32.Idx → EReal)
      = tapsB32 (truncf (F := Ideal) .bf16 (bn32 (U (Proc.devRef .tc main_v63))) bitsLt_bf16_f32) (U (Proc.devRef .tc main_arg10)) := by
  after_results_simp <;> rfl
theorem s3_w (U : Valuation τ sig (Elt Ideal)) :
    (after hostOps3_2 (after hostOps3_1 (after hostOps3 U)) (Proc.devRef .tc main_v88) : S9x32x32.Idx → EReal)
      = (truncf (F := Ideal) .bf16 (U (Proc.devRef .tc main_arg4)) bitsLt_bf16_f32) := by
  after_results_simp <;> rfl
theorem s3_keep (U : Valuation τ sig (Elt Ideal)) :
    (after hostOps3_2 (after hostOps3_1 (after hostOps3 U)) (Proc.devRef .tc main_v51) : S50000x32.Idx → EReal)
      = (U (Proc.devRef .tc main_v51)) := by
  after_results_simp <;> rfl

end Cert.KernelIdeal.Chain

end
-- ==== Proof.KStretch4.lean ====
/-
  What the stretch of host operations after region 3 computes, from ANY contents U of the buffers at the region's exit:
  the batch normalisation of the region's output, the next convolution's padded table gathered per tap, the next
  weights narrowed — each the operations' composed term.
-/
import proofs.«141681_j16750372455151_2_alg».proof.Proof.KDefs
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

theorem s4_taps (U : Valuation τ sig (Elt Ideal)) :
    (after hostOps4_2 (after hostOps4_1 (after hostOps4 U)) (Proc.devRef .tc main_v114) : S9x50000x32.Idx → EReal)
      = tapsB32 (truncf (F := Ideal) .bf16 (addf (bn32 (U (Proc.devRef .tc main_v89))) (U (Proc.devRef .tc main_v51))) bitsLt_bf16_f32) (U (Proc.devRef .tc main_arg11)) := by
  after_results_simp <;> rfl
theorem s4_w (U : Valuation τ sig (Elt Ideal)) :
    (after hostOps4_2 (after hostOps4_1 (after hostOps4 U)) (Proc.devRef .tc main_v115) : S9x32x64.Idx → EReal)
      = (truncf (F := Ideal) .bf16 (U (Proc.devRef .tc main_arg5)) bitsLt_bf16_f32) := by
  after_results_simp <;> rfl
theorem s4_x (U : Valuation τ sig (Elt Ideal)) :
    (after hostOps4_2 (after hostOps4_1 (after hostOps4 U)) (Proc.devRef .tc main_v104) : S50000x32.Idx → EReal)
      = (truncf (F := Ideal) .bf16 (addf (bn32 (U (Proc.devRef .tc main_v89))) (U (Proc.devRef .tc main_v51))) bitsLt_bf16_f32) := by
  after_results_simp <;> rfl

end Cert.KernelIdeal.Chain

end
-- ==== Proof.KKeepBase.lean ====
/-
  Buffers a line of host operations leaves alone.

  A buffer that no operation of a line writes holds after the line what it held before. For a list of buffers this is
  checked operation by operation: the one buffer the operation writes is none of them.
-/
import proofs.«141681_j16750372455151_2_alg».proof.Proof.Gen.KernelIdeal.Frame
import Idealize.ShloMosaic.Lib.StableHlo.Run
import Idealize.ShloMosaic.PureOps.Ideal

noncomputable section

namespace Cert.KernelIdeal.Keep

open Cert.KernelIdeal Cert.KernelIdeal.Gen Idealize.ShloMosaic Idealize.ShloMosaic.TcCoe Idealize.SL.Sem Idealize.ShloMosaic.StableHlo

/-- The thirteen argument buffers. -/
abbrev kargRefs : List (Ref sig .tc) :=
  [main_arg0, main_arg1, main_arg2, main_arg3, main_arg4, main_arg5, main_arg6, main_arg7, main_arg8, main_arg9,
    main_arg10, main_arg11, main_arg12]

/-- Two lines one after the other: the second runs from what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- If no operation of the line writes any buffer of the list, every buffer of the list keeps its contents. -/
theorem after_keeps {Val : EltTy → Type} {ops : List (HloOp τ sig Val)} {bs : List (Ref sig .tc)}
    (h : ops.Forall fun op => ∀ b ∈ bs, (Proc.devRef .tc b : DevRef τ sig) ∉ op.writes) (V : Valuation τ sig Val) :
    ∀ b ∈ bs, after ops V (Proc.devRef .tc b) = V (Proc.devRef .tc b) :=
  fun b hb => after_of_forall_not_mem ops V fun op hop => (List.forall_iff_forall_mem.mp h op hop) b hb

/-- The argument buffers are the first thirteen of the device's buffers. -/
theorem arg_idx_lt : ∀ b ∈ kargRefs, b.idx.val < 13 := by
  intro b hb
  simp only [kargRefs, List.mem_cons, List.mem_singleton, List.not_mem_nil, or_false] at hb
  rcases hb with rfl | rfl | rfl | rfl | rfl | rfl | rfl | rfl | rfl | rfl | rfl | rfl | rfl <;> decide

/-- A buffer among the first thirteen is none of the later ones. -/
theorem ne_of_idx_ge {b y : Ref sig .tc} (hb : b.idx.val < 13) (hy : 13 ≤ y.idx.val) :
    (Proc.devRef .tc b : DevRef τ sig) ≠ Proc.devRef .tc y :=
  devRef_ne_of_ne (fun e => by subst e; omega)

end Cert.KernelIdeal.Keep

end
-- ==== Proof.KKeep1.lean ====
/-
  The argument buffers through the kernel's host stretches: every host operation writes a buffer that comes after
  the thirteen arguments, so each stretch leaves the arguments as it found them.
-/
import proofs.«141681_j16750372455151_2_alg».proof.Proof.KKeepBase

set_option maxRecDepth 16384

noncomputable section

namespace Cert.KernelIdeal.Keep

open Cert.KernelIdeal Cert.KernelIdeal.Gen Idealize.ShloMosaic Idealize.ShloMosaic.TcCoe Idealize.SL.Sem Idealize.ShloMosaic.StableHlo

theorem keeps_hostOps0 (V : Valuation τ sig (Elt Ideal)) :
    ∀ b ∈ kargRefs, after (hostOps0 (F := Ideal)) V (Proc.devRef .tc b) = V (Proc.devRef .tc b) :=
  after_keeps (by
    simp only [hostOps0, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps1 (V : Valuation τ sig (Elt Ideal)) :
    ∀ b ∈ kargRefs, after (hostOps1 (F := Ideal)) V (Proc.devRef .tc b) = V (Proc.devRef .tc b) :=
  after_keeps (by
    simp only [hostOps1, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps1_1 (V : Valuation τ sig (Elt Ideal)) :
    ∀ b ∈ kargRefs, after (hostOps1_1 (F := Ideal)) V (Proc.devRef .tc b) = V (Proc.devRef .tc b) :=
  after_keeps (by
    simp only [hostOps1_1, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps1_2 (V : Valuation τ sig (Elt Ideal)) :
    ∀ b ∈ kargRefs, after (hostOps1_2 (F := Ideal)) V (Proc.devRef .tc b) = V (Proc.devRef .tc b) :=
  after_keeps (by
    simp only [hostOps1_2, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps2 (V : Valuation τ sig (Elt Ideal)) :
    ∀ b ∈ kargRefs, after (hostOps2 (F := Ideal)) V (Proc.devRef .tc b) = V (Proc.devRef .tc b) :=
  after_keeps (by
    simp only [hostOps2, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps2_1 (V : Valuation τ sig (Elt Ideal)) :
    ∀ b ∈ kargRefs, after (hostOps2_1 (F := Ideal)) V (Proc.devRef .tc b) = V (Proc.devRef .tc b) :=
  after_keeps (by
    simp only [hostOps2_1, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps2_2 (V : Valuation τ sig (Elt Ideal)) :
    ∀ b ∈ kargRefs, after (hostOps2_2 (F := Ideal)) V (Proc.devRef .tc b) = V (Proc.devRef .tc b) :=
  after_keeps (by
    simp only [hostOps2_2, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps3 (V : Valuation τ sig (Elt Ideal)) :
    ∀ b ∈ kargRefs, after (hostOps3 (F := Ideal)) V (Proc.devRef .tc b) = V (Proc.devRef .tc b) :=
  after_keeps (by
    simp only [hostOps3, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps3_1 (V : Valuation τ sig (Elt Ideal)) :
    ∀ b ∈ kargRefs, after (hostOps3_1 (F := Ideal)) V (Proc.devRef .tc b) = V (Proc.devRef .tc b) :=
  after_keeps (by
    simp only [hostOps3_1, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps3_2 (V : Valuation τ sig (Elt Ideal)) :
    ∀ b ∈ kargRefs, after (hostOps3_2 (F := Ideal)) V (Proc.devRef .tc b) = V (Proc.devRef .tc b) :=
  after_keeps (by
    simp only [hostOps3_2, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps4 (V : Valuation τ sig (Elt Ideal)) :
    ∀ b ∈ kargRefs, after (hostOps4 (F := Ideal)) V (Proc.devRef .tc b) = V (Proc.devRef .tc b) :=
  after_keeps (by
    simp only [hostOps4, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps4_1 (V : Valuation τ sig (Elt Ideal)) :
    ∀ b ∈ kargRefs, after (hostOps4_1 (F := Ideal)) V (Proc.devRef .tc b) = V (Proc.devRef .tc b) :=
  after_keeps (by
    simp only [hostOps4_1, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps4_2 (V : Valuation τ sig (Elt Ideal)) :
    ∀ b ∈ kargRefs, after (hostOps4_2 (F := Ideal)) V (Proc.devRef .tc b) = V (Proc.devRef .tc b) :=
  after_keeps (by
    simp only [hostOps4_2, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps5 (V : Valuation τ sig (Elt Ideal)) :
    ∀ b ∈ kargRefs, after (hostOps5 (F := Ideal)) V (Proc.devRef .tc b) = V (Proc.devRef .tc b) :=
  after_keeps (by
    simp only [hostOps5, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

end Cert.KernelIdeal.Keep

end
-- ==== Proof.KKeep2.lean ====
/-
  The argument buffers through the kernel's host stretches: every host operation writes a buffer that comes after
  the thirteen arguments, so each stretch leaves the arguments as it found them.
-/
import proofs.«141681_j16750372455151_2_alg».proof.Proof.KKeepBase

set_option maxRecDepth 16384

noncomputable section

namespace Cert.KernelIdeal.Keep

open Cert.KernelIdeal Cert.KernelIdeal.Gen Idealize.ShloMosaic Idealize.ShloMosaic.TcCoe Idealize.SL.Sem Idealize.ShloMosaic.StableHlo

theorem keeps_hostOps5_1 (V : Valuation τ sig (Elt Ideal)) :
    ∀ b ∈ kargRefs, after (hostOps5_1 (F := Ideal)) V (Proc.devRef .tc b) = V (Proc.devRef .tc b) :=
  after_keeps (by
    simp only [hostOps5_1, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps5_2 (V : Valuation τ sig (Elt Ideal)) :
    ∀ b ∈ kargRefs, after (hostOps5_2 (F := Ideal)) V (Proc.devRef .tc b) = V (Proc.devRef .tc b) :=
  after_keeps (by
    simp only [hostOps5_2, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps6 (V : Valuation τ sig (Elt Ideal)) :
    ∀ b ∈ kargRefs, after (hostOps6 (F := Ideal)) V (Proc.devRef .tc b) = V (Proc.devRef .tc b) :=
  after_keeps (by
    simp only [hostOps6, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps6_1 (V : Valuation τ sig (Elt Ideal)) :
    ∀ b ∈ kargRefs, after (hostOps6_1 (F := Ideal)) V (Proc.devRef .tc b) = V (Proc.devRef .tc b) :=
  after_keeps (by
    simp only [hostOps6_1, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps6_2 (V : Valuation τ sig (Elt Ideal)) :
    ∀ b ∈ kargRefs, after (hostOps6_2 (F := Ideal)) V (Proc.devRef .tc b) = V (Proc.devRef .tc b) :=
  after_keeps (by
    simp only [hostOps6_2, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps7 (V : Valuation τ sig (Elt Ideal)) :
    ∀ b ∈ kargRefs, after (hostOps7 (F := Ideal)) V (Proc.devRef .tc b) = V (Proc.devRef .tc b) :=
  after_keeps (by
    simp only [hostOps7, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps7_1 (V : Valuation τ sig (Elt Ideal)) :
    ∀ b ∈ kargRefs, after (hostOps7_1 (F := Ideal)) V (Proc.devRef .tc b) = V (Proc.devRef .tc b) :=
  after_keeps (by
    simp only [hostOps7_1, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps7_2 (V : Valuation τ sig (Elt Ideal)) :
    ∀ b ∈ kargRefs, after (hostOps7_2 (F := Ideal)) V (Proc.devRef .tc b) = V (Proc.devRef .tc b) :=
  after_keeps (by
    simp only [hostOps7_2, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps8 (V : Valuation τ sig (Elt Ideal)) :
    ∀ b ∈ kargRefs, after (hostOps8 (F := Ideal)) V (Proc.devRef .tc b) = V (Proc.devRef .tc b) :=
  after_keeps (by
    simp only [hostOps8, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps8_1 (V : Valuation τ sig (Elt Ideal)) :
    ∀ b ∈ kargRefs, after (hostOps8_1 (F := Ideal)) V (Proc.devRef .tc b) = V (Proc.devRef .tc b) :=
  after_keeps (by
    simp only [hostOps8_1, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps8_2 (V : Valuation τ sig (Elt Ideal)) :
    ∀ b ∈ kargRefs, after (hostOps8_2 (F := Ideal)) V (Proc.devRef .tc b) = V (Proc.devRef .tc b) :=
  after_keeps (by
    simp only [hostOps8_2, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps8_3 (V : Valuation τ sig (Elt Ideal)) :
    ∀ b ∈ kargRefs, after (hostOps8_3 (F := Ideal)) V (Proc.devRef .tc b) = V (Proc.devRef .tc b) :=
  after_keeps (by
    simp only [hostOps8_3, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

theorem keeps_hostOps9 (V : Valuation τ sig (Elt Ideal)) :
    ∀ b ∈ kargRefs, after (hostOps9 (F := Ideal)) V (Proc.devRef .tc b) = V (Proc.devRef .tc b) :=
  after_keeps (by
    simp only [hostOps9, List.Forall, nullary_writes, unary_writes, binary_writes, ternary_writes, quaternary_writes, reshape_writes, binaryIndexed_writes, Finset.mem_singleton]
    repeat' apply And.intro
    all_goals exact fun b hb => ne_of_idx_ge (arg_idx_lt b hb) (by decide)) V

end Cert.KernelIdeal.Keep

end
-- ==== Proof.Region1Body.lean ====
/-
  Region 1 (the first 9-tap convolution, 32 → 32 channels, rows tiled by 5000): what one grid point's body
  leaves in its output block, read at an index.

  The body holds a block x0 of the gathered taps (9 × 5000 × 32) and the weights x1 (9 × 32 × 32). For tap k it
  multiplies the k-th 5000 × 32 slice of x0 by the k-th 32 × 32 slice of x1 on the matrix unit into a zero
  accumulator, adds the nine products in order onto zero, and applies the leaky rectifier. At row p and channel q
  this is  lrelu (acc9 fun k => Σ_c x0[k, p, c] · x1[k, c, q]).
-/
import proofs.«141681_j16750372455151_2_alg».proof.Proof.Gen.KernelIdeal.Frame
import proofs.«141681_j16750372455151_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Conv1

open Idealize.ShloMosaic Idealize.ShloMosaic.TcCoe Idealize.ShloMosaic.ValueIdx
open Cert.KernelIdeal Cert.KernelIdeal.Gen Cert.SparseConv

/-- The matrix product's dimension record: rows × contraction times contraction × columns. -/
abbrev D := dot_S5000x32_S32x32_S5000x32_1_0_0_1_n_n

theorem lhs_row (j : S5000x32.Idx) (s : D.contr.Idx) : (D.lhsIdx j s 0).val = (j 0).val := by
  unfold DotDims.lhsIdx
  rw [dif_neg (show ¬(0 : Fin S5000x32.rank) ∈ D.lhsBatch by decide), dif_pos (show (0 : Fin S5000x32.rank) ∈ D.lhsNonContracting by decide)]
  rfl
theorem lhs_contr (j : S5000x32.Idx) (s : D.contr.Idx) : (D.lhsIdx j s 1).val = (s ⟨0, by decide⟩).val :=
  D.lhsIdx_val_of_single rfl j s
theorem rhs_contr (j : S5000x32.Idx) (s : D.contr.Idx) : (D.rhsIdx j s 0).val = (s ⟨0, by decide⟩).val :=
  D.rhsIdx_val_of_single rfl j s
theorem rhs_col (j : S5000x32.Idx) (s : D.contr.Idx) : (D.rhsIdx j s 1).val = (j 1).val := by
  unfold DotDims.rhsIdx
  rw [dif_neg (show ¬(1 : Fin S32x32.rank) ∈ D.rhsBatch by decide), dif_pos (show (1 : Fin S32x32.rank) ∈ D.rhsNonContracting by decide)]
  rfl

/-- ONE TAP: a 1 × 5000 × 32 slice times a 1 × 32 × 32 slice into a zero accumulator, at (p, q), is the sum over
    the 32 input channels. -/
theorem tap (g : Vec Ideal S1x5000x32 .bf16) (w : Vec Ideal S1x32x32 .bf16) (p : Fin 5000) (q : Fin 32) :
    (matmul (F := Ideal) (φ₁ := .bf16) (φ₂ := .bf16) D none (shapeCast S5000x32 g shapeCasts_S1x5000x32_S5000x32) (shapeCast S32x32 w shapeCasts_S1x32x32_S32x32)
      (constant S5000x32 .f32 0x00000000#32) (ix2 p q) : EReal)
    = ∑ c : Fin 32, (g (ix3 (0 : Fin 1) p c) : EReal) * (w (ix3 (0 : Fin 1) c q) : EReal) := by
  refine (Ideal.matmul_constant_zero_apply D none _ _ (ix2 p q)).trans ?_
  rw [← Equiv.sum_comp (contrEquiv1 D 32 rfl rfl).symm]
  refine Finset.sum_congr rfl fun c _ => ?_
  have hc := contrEquiv1_symm_val D 32 rfl rfl c
  have el : D.lhsIdx (ix2 p q) ((contrEquiv1 D 32 rfl rfl).symm c) = ix2 p c := funext fun a => Fin.ext (by
    match a with
    | ⟨0, _⟩ => exact lhs_row _ _
    | ⟨1, _⟩ => exact (lhs_contr _ _).trans hc)
  have er : D.rhsIdx (ix2 p q) ((contrEquiv1 D 32 rfl rfl).symm c) = ix2 c q := funext fun a => Fin.ext (by
    match a with
    | ⟨0, _⟩ => exact (rhs_contr _ _).trans hc
    | ⟨1, _⟩ => exact rhs_col _ _)
  rw [el, er, shapeCast_1ab_ab_apply, shapeCast_1ab_ab_apply]

/-- Tap k's slice of the gathered block, loaded through its rectangle, read at (0, p, c). -/
theorem ld_g (x0 : Vec Ideal S9x5000x32 .bf16) (k : Fin 9) (inb) (p : Fin 5000) (c : Fin 32) :
    View.ld x0 (Rect.unit (s := S9x5000x32) ![k.val, 0, 0] S1x5000x32.size inb) (ix3 (0 : Fin 1) p c) = x0 (ix3 k p c) := by
  show x0 ((Rect.unit (s := S9x5000x32) ![k.val, 0, 0] S1x5000x32.size inb).idx (ix3 (0 : Fin 1) p c)) = _
  congr 1
  funext a
  match a with
  | ⟨0, _⟩ => exact Fin.ext (by show k.val + 1 * 0 = k.val; omega)
  | ⟨1, _⟩ => exact Fin.ext (by show 0 + 1 * p.val = p.val; omega)
  | ⟨2, _⟩ => exact Fin.ext (by show 0 + 1 * c.val = c.val; omega)

/-- Tap k's slice of the weights, loaded through its rectangle, read at (0, c, q). -/
theorem ld_w (x1 : Vec Ideal S9x32x32 .bf16) (k : Fin 9) (inb) (c : Fin 32) (q : Fin 32) :
    View.ld x1 (Rect.unit (s := S9x32x32) ![k.val, 0, 0] S1x32x32.size inb) (ix3 (0 : Fin 1) c q) = x1 (ix3 k c q) := by
  show x1 ((Rect.unit (s := S9x32x32) ![k.val, 0, 0] S1x32x32.size inb).idx (ix3 (0 : Fin 1) c q)) = _
  congr 1
  funext a
  match a with
  | ⟨0, _⟩ => exact Fin.ext (by show k.val + 1 * 0 = k.val; omega)
  | ⟨1, _⟩ => exact Fin.ext (by show 0 + 1 * c.val = c.val; omega)
  | ⟨2, _⟩ => exact Fin.ext (by show 0 + 1 * q.val = q.val; omega)

/-- Tap k of the block at (p, q): the product of the loaded slices is the sum over the input channels of the
    block's own entries. -/
theorem tap_ld (x0 : Vec Ideal S9x5000x32 .bf16) (x1 : Vec Ideal S9x32x32 .bf16) (k : Fin 9) (inb0) (inb1)
    (p : Fin 5000) (q : Fin 32) :
    (matmul (F := Ideal) (φ₁ := .bf16) (φ₂ := .bf16) D none
      (shapeCast S5000x32 (View.ld x0 (Rect.unit (s := S9x5000x32) ![k.val, 0, 0] S1x5000x32.size inb0)) shapeCasts_S1x5000x32_S5000x32)
      (shapeCast S32x32 (View.ld x1 (Rect.unit (s := S9x32x32) ![k.val, 0, 0] S1x32x32.size inb1)) shapeCasts_S1x32x32_S32x32)
      (constant S5000x32 .f32 0x00000000#32) (ix2 p q) : EReal)
    = ∑ c : Fin 32, (x0 (ix3 k p c) : EReal) * (x1 (ix3 k c q) : EReal) := by
  refine (tap _ _ p q).trans (Finset.sum_congr rfl fun c _ => ?_)
  rw [ld_g x0 k inb0 p c, ld_w x1 k inb1 c q]

/-- The conv's value at (p, q) from a block of taps and the weights. -/
def blockVal (x0 : Vec Ideal S9x5000x32 .bf16) (x1 : Vec Ideal S9x32x32 .bf16) (p : Fin 5000) (q : Fin 32) : EReal :=
  lrelu (acc9 fun k => ∑ c : Fin 32, (x0 (ix3 k p c) : EReal) * (x1 (ix3 k c q) : EReal))

/-- The rectifier as the body spells it — compare with zero, multiply by the slope, select — at an index. -/
theorem lrelu_apply (A : FVec Ideal S5000x32 .f32) (i : S5000x32.Idx) :
    select (cmpf .oge A (broadcast S5000x32 (FloatOps.ofBits .f32 0x00000000#32))) A
      (mulf (broadcast S5000x32 (FloatOps.ofBits .f32 0x3C23D70A#32)) A) i = lrelu (A i) := rfl

/-- Nine arrays added in order onto the broadcast zero, at an index. -/
theorem acc9_apply (m0 m1 m2 m3 m4 m5 m6 m7 m8 : FVec Ideal S5000x32 .f32) (i : S5000x32.Idx) :
    addf (addf (addf (addf (addf (addf (addf (addf (addf (broadcast S5000x32 (FloatOps.ofBits .f32 0x00000000#32)) m0) m1) m2) m3) m4) m5) m6) m7) m8 i
      = acc9 ![m0 i, m1 i, m2 i, m3 i, m4 i, m5 i, m6 i, m7 i, m8 i] := rfl

theorem hz2 : (![0, 0] : Fin 2 → Nat) = fun _ => 0 := funext fun a => by fin_cases a <;> rfl

/-- WHAT THE BODY LEAVES in its output block, at (p, q). -/
theorem out_apply (x0 : Vec Ideal S9x5000x32 .bf16) (x1 : Vec Ideal S9x32x32 .bf16) (p : Fin 5000) (q : Fin 32) :
    out1_2 (F := Ideal) x0 x1 (ix2 p q) = blockVal x0 x1 p q := by
  unfold out1_2
  rw [View.canon_unit_zero hz2]
  unfold k1_pay1 k1_pay4 k1_pay2 k1_pay3
  dsimp only
  refine (lrelu_apply _ (ix2 p q)).trans (congrArg lrelu ?_)
  refine (acc9_apply _ _ _ _ _ _ _ _ _ (ix2 p q)).trans (congrArg acc9 (funext fun k => ?_))
  fin_cases k
  · exact tap_ld x0 x1 0 _ _ p q
  · exact tap_ld x0 x1 1 _ _ p q
  · exact tap_ld x0 x1 2 _ _ p q
  · exact tap_ld x0 x1 3 _ _ p q
  · exact tap_ld x0 x1 4 _ _ p q
  · exact tap_ld x0 x1 5 _ _ p q
  · exact tap_ld x0 x1 6 _ _ p q
  · exact tap_ld x0 x1 7 _ _ p q
  · exact tap_ld x0 x1 8 _ _ p q

end Cert.KernelIdeal.Conv1

end
-- ==== Proof.Region1Array.lean ====
/-
  Region 1: from what each grid point writes back to the whole output array.

  The grid has 10 points; point t stages rows 5000·t … 5000·t + 4999 of the gathered taps (all nine taps, all 32
  channels), the whole weight table, and writes back rows 5000·t … 5000·t + 4999 of the output. So the block a
  point writes is the restriction to its rows of ONE function of the two arrays as the region finds them,
      conv G Wt (i, o) = lrelu (acc9 fun k => Σ_c G[k, i, c] · Wt[k, c, o]),
  the 10 row ranges tile the 50000 rows, and the output array ends at that function.
-/
import proofs.«141681_j16750372455151_2_alg».proof.Proof.Region1Body

set_option maxRecDepth 16384

noncomputable section

namespace Cert.KernelIdeal.Conv1

open Idealize.ShloMosaic Idealize.ShloMosaic.TcCoe Idealize.ShloMosaic.ValueIdx
open Idealize.ShloMosaic.Pipeline (Dat)
open Cert.KernelIdeal Cert.KernelIdeal.Gen Cert.SparseConv

variable (V : (c : Dev nD) → (b : Ref sig .tc) → Buf (Elt Ideal) ((c : Thread nD τ).loc b))

/-- The convolution as one function of the gathered taps and the weights. -/
def conv (G : Vec Ideal S9x50000x32 .bf16) (Wt : Vec Ideal S9x32x32 .bf16) : Vec Ideal S50000x32 .f32 :=
  fun i => lrelu (acc9 fun k => ∑ ch : Fin 32, (G (ix3 k (i 0) ch) : EReal) * (Wt (ix3 k ch (i 1)) : EReal))

/-- The three index maps over the 10 grid points: the taps' block moves with the output's along the rows and sits
    at zero elsewhere; the weights' block never moves. -/
theorem idx_facts : ∀ t : Fin cfg1.N,
    win1_0.index t (0 : Fin 3) = 0 ∧ win1_0.index t (1 : Fin 3) = win1_2.index t (0 : Fin 2) ∧ win1_0.index t (2 : Fin 3) = 0
    ∧ win1_1.index t (0 : Fin 3) = 0 ∧ win1_1.index t (1 : Fin 3) = 0 ∧ win1_1.index t (2 : Fin 3) = 0
    ∧ win1_2.index t (0 : Fin 2) ≤ 9 ∧ win1_2.index t (1 : Fin 2) = 0 :=
  (by decide +kernel : ∀ t : Fin grid1.N, _)

/-- Every block of rows is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- WHAT POINT t WRITES BACK is its rows of `conv` of the arrays as the region finds them. -/
theorem flushed_eq (c : Dev nD) (t : Fin cfg1.N) :
    (dat1 V c).flushed 2 t = ((cfg1.win 2).blk t).view.read (Elt Ideal) (conv (V c main_v36) (V c main_v37)) := by
  show (cfg1.win 2).cut (grid1.coords t) ((dat1 V c).after 2 t) = _
  rw [after1_2]
  obtain ⟨e0, e1, e2, e3, e4, e5, e6, e7⟩ := idx_facts t
  funext j
  obtain ⟨p, q, rfl⟩ : ∃ (p : Fin 5000) (q : Fin 32), j = ix2 p q := ⟨j 0, j 1, eq_ix2 j⟩
  show out1_2 (iblk1 V c 0 t) (iblk1 V c 1 t) (ix2 p q)
    = conv (V c main_v36) (V c main_v37) (((cfg1.win 2).blk t).view.emb (ix2 p q))
  refine (out_apply _ _ p q).trans ?_
  unfold blockVal conv
  refine congrArg lrelu (congrArg acc9 (funext fun k => Finset.sum_congr rfl fun ch _ => ?_))
  have hg : iblk1 V c 0 t (ix3 k p ch) = V c main_v36 (ix3 k ((((cfg1.win 2).blk t).view.emb (ix2 p q)) 0) ch) := by
    show V c main_v36 (((cfg1.win 0).blk t).view.emb (ix3 k p ch)) = _
    congr 1; funext a; apply Fin.ext
    match a with
    | ⟨0, _⟩ => show win1_0.index t (0 : Fin 3) * 9 + 1 * k.val = k.val; omega
    | ⟨1, _⟩ => show win1_0.index t (1 : Fin 3) * 5000 + 1 * p.val = win1_2.index t (0 : Fin 2) * 5000 + 1 * p.val; omega
    | ⟨2, _⟩ => show win1_0.index t (2 : Fin 3) * 32 + 1 * ch.val = ch.val; omega
  have hw : iblk1 V c 1 t (ix3 k ch q) = V c main_v37 (ix3 k ch ((((cfg1.win 2).blk t).view.emb (ix2 p q)) 1)) := by
    show V c main_v37 (((cfg1.win 1).blk t).view.emb (ix3 k ch q)) = _
    congr 1; funext a; apply Fin.ext
    match a with
    | ⟨0, _⟩ => show win1_1.index t (0 : Fin 3) * 9 + 1 * k.val = k.val; omega
    | ⟨1, _⟩ => show win1_1.index t (1 : Fin 3) * 32 + 1 * ch.val = ch.val; omega
    | ⟨2, _⟩ => show win1_1.index t (2 : Fin 3) * 32 + 1 * q.val = win1_2.index t (1 : Fin 2) * 32 + 1 * q.val; omega
  rw [hg, hw]

/-- An index is in point t's block iff its row is in the point's 5000 rows (and its channel among the 32). -/
theorem mem_blk (t : Fin cfg1.N) (i : S50000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v38).slice (win1_2.rect t)).set ↔ _
  rw [View.set_slice_whole, Rect.mem_set_unit]
  exact Iff.rfl

/-- The 25 blocks of 5000 rows tile the 50000 rows: row r is in the block of point r / 5000. -/
theorem cover (i : S50000x32.Idx) : ∃ t : Fin cfg1.N, (cfg1.win 2).flush t = true ∧ i ∈ ((cfg1.win 2).blk t).view.set := by
  have hi0 : (i 0).val < 50000 := (i 0).isLt
  have hi1 : (i 1).val < 32 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- THE OUTPUT ARRAY after the region: `conv` of the gathered taps and the weights as the region finds them. -/
theorem final (c : Dev nD) : (dat1 V c).arrAt 2 cfg1.N = conv (V c main_v36) (V c main_v37) :=
  (dat1 V c).arrAt_eq_of_cover 2 _ (fun t _ => flushed_eq V c t) cover

end Cert.KernelIdeal.Conv1

end
-- ==== Proof.Region2Body.lean ====
/-
  Region 2 (the first 9-tap convolution, 256 → 32 channels, rows tiled by 2000): what one grid point's body
  leaves in its output block, read at an index.

  The body holds a block x0 of the gathered taps (9 × 2000 × 256) and the weights x1 (9 × 256 × 32). For tap k it
  multiplies the k-th 2000 × 256 slice of x0 by the k-th 256 × 32 slice of x1 on the matrix unit into a zero
  accumulator, adds the nine products in order onto zero, and applies the leaky rectifier. At row p and channel q
  this is  lrelu (acc9 fun k => Σ_c x0[k, p, c] · x1[k, c, q]).
-/
import proofs.«141681_j16750372455151_2_alg».proof.Proof.Gen.KernelIdeal.Frame
import proofs.«141681_j16750372455151_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Conv2

open Idealize.ShloMosaic Idealize.ShloMosaic.TcCoe Idealize.ShloMosaic.ValueIdx
open Cert.KernelIdeal Cert.KernelIdeal.Gen Cert.SparseConv

/-- The matrix product's dimension record: rows × contraction times contraction × columns. -/
abbrev D := dot_S2000x256_S256x32_S2000x32_1_0_0_1_n_n

theorem lhs_row (j : S2000x32.Idx) (s : D.contr.Idx) : (D.lhsIdx j s 0).val = (j 0).val := by
  unfold DotDims.lhsIdx
  rw [dif_neg (show ¬(0 : Fin S2000x256.rank) ∈ D.lhsBatch by decide), dif_pos (show (0 : Fin S2000x256.rank) ∈ D.lhsNonContracting by decide)]
  rfl
theorem lhs_contr (j : S2000x32.Idx) (s : D.contr.Idx) : (D.lhsIdx j s 1).val = (s ⟨0, by decide⟩).val :=
  D.lhsIdx_val_of_single rfl j s
theorem rhs_contr (j : S2000x32.Idx) (s : D.contr.Idx) : (D.rhsIdx j s 0).val = (s ⟨0, by decide⟩).val :=
  D.rhsIdx_val_of_single rfl j s
theorem rhs_col (j : S2000x32.Idx) (s : D.contr.Idx) : (D.rhsIdx j s 1).val = (j 1).val := by
  unfold DotDims.rhsIdx
  rw [dif_neg (show ¬(1 : Fin S256x32.rank) ∈ D.rhsBatch by decide), dif_pos (show (1 : Fin S256x32.rank) ∈ D.rhsNonContracting by decide)]
  rfl

/-- ONE TAP: a 1 × 2000 × 256 slice times a 1 × 256 × 32 slice into a zero accumulator, at (p, q), is the sum over
    the 256 input channels. -/
theorem tap (g : Vec Ideal S1x2000x256 .bf16) (w : Vec Ideal S1x256x32 .bf16) (p : Fin 2000) (q : Fin 32) :
    (matmul (F := Ideal) (φ₁ := .bf16) (φ₂ := .bf16) D none (shapeCast S2000x256 g shapeCasts_S1x2000x256_S2000x256) (shapeCast S256x32 w shapeCasts_S1x256x32_S256x32)
      (constant S2000x32 .f32 0x00000000#32) (ix2 p q) : EReal)
    = ∑ c : Fin 256, (g (ix3 (0 : Fin 1) p c) : EReal) * (w (ix3 (0 : Fin 1) c q) : EReal) := by
  refine (Ideal.matmul_constant_zero_apply D none _ _ (ix2 p q)).trans ?_
  rw [← Equiv.sum_comp (contrEquiv1 D 256 rfl rfl).symm]
  refine Finset.sum_congr rfl fun c _ => ?_
  have hc := contrEquiv1_symm_val D 256 rfl rfl c
  have el : D.lhsIdx (ix2 p q) ((contrEquiv1 D 256 rfl rfl).symm c) = ix2 p c := funext fun a => Fin.ext (by
    match a with
    | ⟨0, _⟩ => exact lhs_row _ _
    | ⟨1, _⟩ => exact (lhs_contr _ _).trans hc)
  have er : D.rhsIdx (ix2 p q) ((contrEquiv1 D 256 rfl rfl).symm c) = ix2 c q := funext fun a => Fin.ext (by
    match a with
    | ⟨0, _⟩ => exact (rhs_contr _ _).trans hc
    | ⟨1, _⟩ => exact rhs_col _ _)
  rw [el, er, shapeCast_1ab_ab_apply, shapeCast_1ab_ab_apply]

/-- Tap k's slice of the gathered block, loaded through its rectangle, read at (0, p, c). -/
theorem ld_g (x0 : Vec Ideal S9x2000x256 .bf16) (k : Fin 9) (inb) (p : Fin 2000) (c : Fin 256) :
    View.ld x0 (Rect.unit (s := S9x2000x256) ![k.val, 0, 0] S1x2000x256.size inb) (ix3 (0 : Fin 1) p c) = x0 (ix3 k p c) := by
  show x0 ((Rect.unit (s := S9x2000x256) ![k.val, 0, 0] S1x2000x256.size inb).idx (ix3 (0 : Fin 1) p c)) = _
  congr 1
  funext a
  match a with
  | ⟨0, _⟩ => exact Fin.ext (by show k.val + 1 * 0 = k.val; omega)
  | ⟨1, _⟩ => exact Fin.ext (by show 0 + 1 * p.val = p.val; omega)
  | ⟨2, _⟩ => exact Fin.ext (by show 0 + 1 * c.val = c.val; omega)

/-- Tap k's slice of the weights, loaded through its rectangle, read at (0, c, q). -/
theorem ld_w (x1 : Vec Ideal S9x256x32 .bf16) (k : Fin 9) (inb) (c : Fin 256) (q : Fin 32) :
    View.ld x1 (Rect.unit (s := S9x256x32) ![k.val, 0, 0] S1x256x32.size inb) (ix3 (0 : Fin 1) c q) = x1 (ix3 k c q) := by
  show x1 ((Rect.unit (s := S9x256x32) ![k.val, 0, 0] S1x256x32.size inb).idx (ix3 (0 : Fin 1) c q)) = _
  congr 1
  funext a
  match a with
  | ⟨0, _⟩ => exact Fin.ext (by show k.val + 1 * 0 = k.val; omega)
  | ⟨1, _⟩ => exact Fin.ext (by show 0 + 1 * c.val = c.val; omega)
  | ⟨2, _⟩ => exact Fin.ext (by show 0 + 1 * q.val = q.val; omega)

/-- Tap k of the block at (p, q): the product of the loaded slices is the sum over the input channels of the
    block's own entries. -/
theorem tap_ld (x0 : Vec Ideal S9x2000x256 .bf16) (x1 : Vec Ideal S9x256x32 .bf16) (k : Fin 9) (inb0) (inb1)
    (p : Fin 2000) (q : Fin 32) :
    (matmul (F := Ideal) (φ₁ := .bf16) (φ₂ := .bf16) D none
      (shapeCast S2000x256 (View.ld x0 (Rect.unit (s := S9x2000x256) ![k.val, 0, 0] S1x2000x256.size inb0)) shapeCasts_S1x2000x256_S2000x256)
      (shapeCast S256x32 (View.ld x1 (Rect.unit (s := S9x256x32) ![k.val, 0, 0] S1x256x32.size inb1)) shapeCasts_S1x256x32_S256x32)
      (constant S2000x32 .f32 0x00000000#32) (ix2 p q) : EReal)
    = ∑ c : Fin 256, (x0 (ix3 k p c) : EReal) * (x1 (ix3 k c q) : EReal) := by
  refine (tap _ _ p q).trans (Finset.sum_congr rfl fun c _ => ?_)
  rw [ld_g x0 k inb0 p c, ld_w x1 k inb1 c q]

/-- The conv's value at (p, q) from a block of taps and the weights. -/
def blockVal (x0 : Vec Ideal S9x2000x256 .bf16) (x1 : Vec Ideal S9x256x32 .bf16) (p : Fin 2000) (q : Fin 32) : EReal :=
  lrelu (acc9 fun k => ∑ c : Fin 256, (x0 (ix3 k p c) : EReal) * (x1 (ix3 k c q) : EReal))

/-- The rectifier as the body spells it — compare with zero, multiply by the slope, select — at an index. -/
theorem lrelu_apply (A : FVec Ideal S2000x32 .f32) (i : S2000x32.Idx) :
    select (cmpf .oge A (broadcast S2000x32 (FloatOps.ofBits .f32 0x00000000#32))) A
      (mulf (broadcast S2000x32 (FloatOps.ofBits .f32 0x3C23D70A#32)) A) i = lrelu (A i) := rfl

/-- Nine arrays added in order onto the broadcast zero, at an index. -/
theorem acc9_apply (m0 m1 m2 m3 m4 m5 m6 m7 m8 : FVec Ideal S2000x32 .f32) (i : S2000x32.Idx) :
    addf (addf (addf (addf (addf (addf (addf (addf (addf (broadcast S2000x32 (FloatOps.ofBits .f32 0x00000000#32)) m0) m1) m2) m3) m4) m5) m6) m7) m8 i
      = acc9 ![m0 i, m1 i, m2 i, m3 i, m4 i, m5 i, m6 i, m7 i, m8 i] := rfl

theorem hz2 : (![0, 0] : Fin 2 → Nat) = fun _ => 0 := funext fun a => by fin_cases a <;> rfl

/-- WHAT THE BODY LEAVES in its output block, at (p, q). -/
theorem out_apply (x0 : Vec Ideal S9x2000x256 .bf16) (x1 : Vec Ideal S9x256x32 .bf16) (p : Fin 2000) (q : Fin 32) :
    out2_2 (F := Ideal) x0 x1 (ix2 p q) = blockVal x0 x1 p q := by
  unfold out2_2
  rw [View.canon_unit_zero hz2]
  unfold k2_pay1 k2_pay4 k2_pay2 k2_pay3
  dsimp only
  refine (lrelu_apply _ (ix2 p q)).trans (congrArg lrelu ?_)
  refine (acc9_apply _ _ _ _ _ _ _ _ _ (ix2 p q)).trans (congrArg acc9 (funext fun k => ?_))
  fin_cases k
  · exact tap_ld x0 x1 0 _ _ p q
  · exact tap_ld x0 x1 1 _ _ p q
  · exact tap_ld x0 x1 2 _ _ p q
  · exact tap_ld x0 x1 3 _ _ p q
  · exact tap_ld x0 x1 4 _ _ p q
  · exact tap_ld x0 x1 5 _ _ p q
  · exact tap_ld x0 x1 6 _ _ p q
  · exact tap_ld x0 x1 7 _ _ p q
  · exact tap_ld x0 x1 8 _ _ p q

end Cert.KernelIdeal.Conv2

end
-- ==== Proof.Region2Array.lean ====
/-
  Region 2: from what each grid point writes back to the whole output array.

  The grid has 25 points; point t stages rows 2000·t … 2000·t + 1999 of the gathered taps (all nine taps, all 256
  channels), the whole weight table, and writes back rows 2000·t … 2000·t + 1999 of the output. So the block a
  point writes is the restriction to its rows of ONE function of the two arrays as the region finds them,
      conv G Wt (i, o) = lrelu (acc9 fun k => Σ_c G[k, i, c] · Wt[k, c, o]),
  the 25 row ranges tile the 50000 rows, and the output array ends at that function.
-/
import proofs.«141681_j16750372455151_2_alg».proof.Proof.Region2Body

set_option maxRecDepth 16384

noncomputable section

namespace Cert.KernelIdeal.Conv2

open Idealize.ShloMosaic Idealize.ShloMosaic.TcCoe Idealize.ShloMosaic.ValueIdx
open Idealize.ShloMosaic.Pipeline (Dat)
open Cert.KernelIdeal Cert.KernelIdeal.Gen Cert.SparseConv

variable (V : (c : Dev nD) → (b : Ref sig .tc) → Buf (Elt Ideal) ((c : Thread nD τ).loc b))

/-- The convolution as one function of the gathered taps and the weights. -/
def conv (G : Vec Ideal S9x50000x256 .bf16) (Wt : Vec Ideal S9x256x32 .bf16) : Vec Ideal S50000x32 .f32 :=
  fun i => lrelu (acc9 fun k => ∑ ch : Fin 256, (G (ix3 k (i 0) ch) : EReal) * (Wt (ix3 k ch (i 1)) : EReal))

/-- The three index maps over the 25 grid points: the taps' block moves with the output's along the rows and sits
    at zero elsewhere; the weights' block never moves. -/
theorem idx_facts : ∀ t : Fin cfg2.N,
    win2_0.index t (0 : Fin 3) = 0 ∧ win2_0.index t (1 : Fin 3) = win2_2.index t (0 : Fin 2) ∧ win2_0.index t (2 : Fin 3) = 0
    ∧ win2_1.index t (0 : Fin 3) = 0 ∧ win2_1.index t (1 : Fin 3) = 0 ∧ win2_1.index t (2 : Fin 3) = 0
    ∧ win2_2.index t (0 : Fin 2) ≤ 24 ∧ win2_2.index t (1 : Fin 2) = 0 :=
  (by decide +kernel : ∀ t : Fin grid2.N, _)

/-- Every block of rows is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- WHAT POINT t WRITES BACK is its rows of `conv` of the arrays as the region finds them. -/
theorem flushed_eq (c : Dev nD) (t : Fin cfg2.N) :
    (dat2 V c).flushed 2 t = ((cfg2.win 2).blk t).view.read (Elt Ideal) (conv (V c main_v61) (V c main_v62)) := by
  show (cfg2.win 2).cut (grid2.coords t) ((dat2 V c).after 2 t) = _
  rw [after2_2]
  obtain ⟨e0, e1, e2, e3, e4, e5, e6, e7⟩ := idx_facts t
  funext j
  obtain ⟨p, q, rfl⟩ : ∃ (p : Fin 2000) (q : Fin 32), j = ix2 p q := ⟨j 0, j 1, eq_ix2 j⟩
  show out2_2 (iblk2 V c 0 t) (iblk2 V c 1 t) (ix2 p q)
    = conv (V c main_v61) (V c main_v62) (((cfg2.win 2).blk t).view.emb (ix2 p q))
  refine (out_apply _ _ p q).trans ?_
  unfold blockVal conv
  refine congrArg lrelu (congrArg acc9 (funext fun k => Finset.sum_congr rfl fun ch _ => ?_))
  have hg : iblk2 V c 0 t (ix3 k p ch) = V c main_v61 (ix3 k ((((cfg2.win 2).blk t).view.emb (ix2 p q)) 0) ch) := by
    show V c main_v61 (((cfg2.win 0).blk t).view.emb (ix3 k p ch)) = _
    congr 1; funext a; apply Fin.ext
    match a with
    | ⟨0, _⟩ => show win2_0.index t (0 : Fin 3) * 9 + 1 * k.val = k.val; omega
    | ⟨1, _⟩ => show win2_0.index t (1 : Fin 3) * 2000 + 1 * p.val = win2_2.index t (0 : Fin 2) * 2000 + 1 * p.val; omega
    | ⟨2, _⟩ => show win2_0.index t (2 : Fin 3) * 256 + 1 * ch.val = ch.val; omega
  have hw : iblk2 V c 1 t (ix3 k ch q) = V c main_v62 (ix3 k ch ((((cfg2.win 2).blk t).view.emb (ix2 p q)) 1)) := by
    show V c main_v62 (((cfg2.win 1).blk t).view.emb (ix3 k ch q)) = _
    congr 1; funext a; apply Fin.ext
    match a with
    | ⟨0, _⟩ => show win2_1.index t (0 : Fin 3) * 9 + 1 * k.val = k.val; omega
    | ⟨1, _⟩ => show win2_1.index t (1 : Fin 3) * 256 + 1 * ch.val = ch.val; omega
    | ⟨2, _⟩ => show win2_1.index t (2 : Fin 3) * 32 + 1 * q.val = win2_2.index t (1 : Fin 2) * 32 + 1 * q.val; omega
  rw [hg, hw]

/-- An index is in point t's block iff its row is in the point's 2000 rows (and its channel among the 32). -/
theorem mem_blk (t : Fin cfg2.N) (i : S50000x32.Idx) :
    i ∈ ((cfg2.win 2).blk t).view.set ↔ ∀ a : Fin 2, win2_2.index t a * S2000x32.size a ≤ (i a).val ∧ (i a).val < win2_2.index t a * S2000x32.size a + S2000x32.size a := by
  show i ∈ ((View.whole main_v63).slice (win2_2.rect t)).set ↔ _
  rw [View.set_slice_whole, Rect.mem_set_unit]
  exact Iff.rfl

/-- The 25 blocks of 2000 rows tile the 50000 rows: row r is in the block of point r / 2000. -/
theorem cover (i : S50000x32.Idx) : ∃ t : Fin cfg2.N, (cfg2.win 2).flush t = true ∧ i ∈ ((cfg2.win 2).blk t).view.set := by
  have hi0 : (i 0).val < 50000 := (i 0).isLt
  have hi1 : (i 1).val < 32 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 32 ≤ (i 1).val ∧ (i 1).val < win2_2.index t (1 : Fin 2) * 32 + 32; omega

/-- THE OUTPUT ARRAY after the region: `conv` of the gathered taps and the weights as the region finds them. -/
theorem final (c : Dev nD) : (dat2 V c).arrAt 2 cfg2.N = conv (V c main_v61) (V c main_v62) :=
  (dat2 V c).arrAt_eq_of_cover 2 _ (fun t _ => flushed_eq V c t) cover

end Cert.KernelIdeal.Conv2

end
-- ==== Proof.Region3Body.lean ====
/-
  Region 3 (the first 9-tap convolution, 32 → 32 channels, rows tiled by 5000): what one grid point's body
  leaves in its output block, read at an index.

  The body holds a block x0 of the gathered taps (9 × 5000 × 32) and the weights x1 (9 × 32 × 32). For tap k it
  multiplies the k-th 5000 × 32 slice of x0 by the k-th 32 × 32 slice of x1 on the matrix unit into a zero
  accumulator, adds the nine products in order onto zero, and applies the leaky rectifier. At row p and channel q
  this is  lrelu (acc9 fun k => Σ_c x0[k, p, c] · x1[k, c, q]).
-/
import proofs.«141681_j16750372455151_2_alg».proof.Proof.Gen.KernelIdeal.Frame
import proofs.«141681_j16750372455151_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Conv3

open Idealize.ShloMosaic Idealize.ShloMosaic.TcCoe Idealize.ShloMosaic.ValueIdx
open Cert.KernelIdeal Cert.KernelIdeal.Gen Cert.SparseConv

/-- The matrix product's dimension record: rows × contraction times contraction × columns. -/
abbrev D := dot_S5000x32_S32x32_S5000x32_1_0_0_1_n_n

theorem lhs_row (j : S5000x32.Idx) (s : D.contr.Idx) : (D.lhsIdx j s 0).val = (j 0).val := by
  unfold DotDims.lhsIdx
  rw [dif_neg (show ¬(0 : Fin S5000x32.rank) ∈ D.lhsBatch by decide), dif_pos (show (0 : Fin S5000x32.rank) ∈ D.lhsNonContracting by decide)]
  rfl
theorem lhs_contr (j : S5000x32.Idx) (s : D.contr.Idx) : (D.lhsIdx j s 1).val = (s ⟨0, by decide⟩).val :=
  D.lhsIdx_val_of_single rfl j s
theorem rhs_contr (j : S5000x32.Idx) (s : D.contr.Idx) : (D.rhsIdx j s 0).val = (s ⟨0, by decide⟩).val :=
  D.rhsIdx_val_of_single rfl j s
theorem rhs_col (j : S5000x32.Idx) (s : D.contr.Idx) : (D.rhsIdx j s 1).val = (j 1).val := by
  unfold DotDims.rhsIdx
  rw [dif_neg (show ¬(1 : Fin S32x32.rank) ∈ D.rhsBatch by decide), dif_pos (show (1 : Fin S32x32.rank) ∈ D.rhsNonContracting by decide)]
  rfl

/-- ONE TAP: a 1 × 5000 × 32 slice times a 1 × 32 × 32 slice into a zero accumulator, at (p, q), is the sum over
    the 32 input channels. -/
theorem tap (g : Vec Ideal S1x5000x32 .bf16) (w : Vec Ideal S1x32x32 .bf16) (p : Fin 5000) (q : Fin 32) :
    (matmul (F := Ideal) (φ₁ := .bf16) (φ₂ := .bf16) D none (shapeCast S5000x32 g shapeCasts_S1x5000x32_S5000x32) (shapeCast S32x32 w shapeCasts_S1x32x32_S32x32)
      (constant S5000x32 .f32 0x00000000#32) (ix2 p q) : EReal)
    = ∑ c : Fin 32, (g (ix3 (0 : Fin 1) p c) : EReal) * (w (ix3 (0 : Fin 1) c q) : EReal) := by
  refine (Ideal.matmul_constant_zero_apply D none _ _ (ix2 p q)).trans ?_
  rw [← Equiv.sum_comp (contrEquiv1 D 32 rfl rfl).symm]
  refine Finset.sum_congr rfl fun c _ => ?_
  have hc := contrEquiv1_symm_val D 32 rfl rfl c
  have el : D.lhsIdx (ix2 p q) ((contrEquiv1 D 32 rfl rfl).symm c) = ix2 p c := funext fun a => Fin.ext (by
    match a with
    | ⟨0, _⟩ => exact lhs_row _ _
    | ⟨1, _⟩ => exact (lhs_contr _ _).trans hc)
  have er : D.rhsIdx (ix2 p q) ((contrEquiv1 D 32 rfl rfl).symm c) = ix2 c q := funext fun a => Fin.ext (by
    match a with
    | ⟨0, _⟩ => exact (rhs_contr _ _).trans hc
    | ⟨1, _⟩ => exact rhs_col _ _)
  rw [el, er, shapeCast_1ab_ab_apply, shapeCast_1ab_ab_apply]

/-- Tap k's slice of the gathered block, loaded through its rectangle, read at (0, p, c). -/
theorem ld_g (x0 : Vec Ideal S9x5000x32 .bf16) (k : Fin 9) (inb) (p : Fin 5000) (c : Fin 32) :
    View.ld x0 (Rect.unit (s := S9x5000x32) ![k.val, 0, 0] S1x5000x32.size inb) (ix3 (0 : Fin 1) p c) = x0 (ix3 k p c) := by
  show x0 ((Rect.unit (s := S9x5000x32) ![k.val, 0, 0] S1x5000x32.size inb).idx (ix3 (0 : Fin 1) p c)) = _
  congr 1
  funext a
  match a with
  | ⟨0, _⟩ => exact Fin.ext (by show k.val + 1 * 0 = k.val; omega)
  | ⟨1, _⟩ => exact Fin.ext (by show 0 + 1 * p.val = p.val; omega)
  | ⟨2, _⟩ => exact Fin.ext (by show 0 + 1 * c.val = c.val; omega)

/-- Tap k's slice of the weights, loaded through its rectangle, read at (0, c, q). -/
theorem ld_w (x1 : Vec Ideal S9x32x32 .bf16) (k : Fin 9) (inb) (c : Fin 32) (q : Fin 32) :
    View.ld x1 (Rect.unit (s := S9x32x32) ![k.val, 0, 0] S1x32x32.size inb) (ix3 (0 : Fin 1) c q) = x1 (ix3 k c q) := by
  show x1 ((Rect.unit (s := S9x32x32) ![k.val, 0, 0] S1x32x32.size inb).idx (ix3 (0 : Fin 1) c q)) = _
  congr 1
  funext a
  match a with
  | ⟨0, _⟩ => exact Fin.ext (by show k.val + 1 * 0 = k.val; omega)
  | ⟨1, _⟩ => exact Fin.ext (by show 0 + 1 * c.val = c.val; omega)
  | ⟨2, _⟩ => exact Fin.ext (by show 0 + 1 * q.val = q.val; omega)

/-- Tap k of the block at (p, q): the product of the loaded slices is the sum over the input channels of the
    block's own entries. -/
theorem tap_ld (x0 : Vec Ideal S9x5000x32 .bf16) (x1 : Vec Ideal S9x32x32 .bf16) (k : Fin 9) (inb0) (inb1)
    (p : Fin 5000) (q : Fin 32) :
    (matmul (F := Ideal) (φ₁ := .bf16) (φ₂ := .bf16) D none
      (shapeCast S5000x32 (View.ld x0 (Rect.unit (s := S9x5000x32) ![k.val, 0, 0] S1x5000x32.size inb0)) shapeCasts_S1x5000x32_S5000x32)
      (shapeCast S32x32 (View.ld x1 (Rect.unit (s := S9x32x32) ![k.val, 0, 0] S1x32x32.size inb1)) shapeCasts_S1x32x32_S32x32)
      (constant S5000x32 .f32 0x00000000#32) (ix2 p q) : EReal)
    = ∑ c : Fin 32, (x0 (ix3 k p c) : EReal) * (x1 (ix3 k c q) : EReal) := by
  refine (tap _ _ p q).trans (Finset.sum_congr rfl fun c _ => ?_)
  rw [ld_g x0 k inb0 p c, ld_w x1 k inb1 c q]

/-- The conv's value at (p, q) from a block of taps and the weights. -/
def blockVal (x0 : Vec Ideal S9x5000x32 .bf16) (x1 : Vec Ideal S9x32x32 .bf16) (p : Fin 5000) (q : Fin 32) : EReal :=
  lrelu (acc9 fun k => ∑ c : Fin 32, (x0 (ix3 k p c) : EReal) * (x1 (ix3 k c q) : EReal))

/-- The rectifier as the body spells it — compare with zero, multiply by the slope, select — at an index. -/
theorem lrelu_apply (A : FVec Ideal S5000x32 .f32) (i : S5000x32.Idx) :
    select (cmpf .oge A (broadcast S5000x32 (FloatOps.ofBits .f32 0x00000000#32))) A
      (mulf (broadcast S5000x32 (FloatOps.ofBits .f32 0x3C23D70A#32)) A) i = lrelu (A i) := rfl

/-- Nine arrays added in order onto the broadcast zero, at an index. -/
theorem acc9_apply (m0 m1 m2 m3 m4 m5 m6 m7 m8 : FVec Ideal S5000x32 .f32) (i : S5000x32.Idx) :
    addf (addf (addf (addf (addf (addf (addf (addf (addf (broadcast S5000x32 (FloatOps.ofBits .f32 0x00000000#32)) m0) m1) m2) m3) m4) m5) m6) m7) m8 i
      = acc9 ![m0 i, m1 i, m2 i, m3 i, m4 i, m5 i, m6 i, m7 i, m8 i] := rfl

theorem hz2 : (![0, 0] : Fin 2 → Nat) = fun _ => 0 := funext fun a => by fin_cases a <;> rfl

/-- WHAT THE BODY LEAVES in its output block, at (p, q). -/
theorem out_apply (x0 : Vec Ideal S9x5000x32 .bf16) (x1 : Vec Ideal S9x32x32 .bf16) (p : Fin 5000) (q : Fin 32) :
    out3_2 (F := Ideal) x0 x1 (ix2 p q) = blockVal x0 x1 p q := by
  unfold out3_2
  rw [View.canon_unit_zero hz2]
  unfold k3_pay1 k3_pay4 k3_pay2 k3_pay3
  dsimp only
  refine (lrelu_apply _ (ix2 p q)).trans (congrArg lrelu ?_)
  refine (acc9_apply _ _ _ _ _ _ _ _ _ (ix2 p q)).trans (congrArg acc9 (funext fun k => ?_))
  fin_cases k
  · exact tap_ld x0 x1 0 _ _ p q
  · exact tap_ld x0 x1 1 _ _ p q
  · exact tap_ld x0 x1 2 _ _ p q
  · exact tap_ld x0 x1 3 _ _ p q
  · exact tap_ld x0 x1 4 _ _ p q
  · exact tap_ld x0 x1 5 _ _ p q
  · exact tap_ld x0 x1 6 _ _ p q
  · exact tap_ld x0 x1 7 _ _ p q
  · exact tap_ld x0 x1 8 _ _ p q

end Cert.KernelIdeal.Conv3

end
-- ==== Proof.Region3Array.lean ====
/-
  Region 3: from what each grid point writes back to the whole output array.

  The grid has 10 points; point t stages rows 5000·t … 5000·t + 4999 of the gathered taps (all nine taps, all 32
  channels), the whole weight table, and writes back rows 5000·t … 5000·t + 4999 of the output. So the block a
  point writes is the restriction to its rows of ONE function of the two arrays as the region finds them,
      conv G Wt (i, o) = lrelu (acc9 fun k => Σ_c G[k, i, c] · Wt[k, c, o]),
  the 10 row ranges tile the 50000 rows, and the output array ends at that function.
-/
import proofs.«141681_j16750372455151_2_alg».proof.Proof.Region3Body

set_option maxRecDepth 16384

noncomputable section

namespace Cert.KernelIdeal.Conv3

open Idealize.ShloMosaic Idealize.ShloMosaic.TcCoe Idealize.ShloMosaic.ValueIdx
open Idealize.ShloMosaic.Pipeline (Dat)
open Cert.KernelIdeal Cert.KernelIdeal.Gen Cert.SparseConv

variable (V : (c : Dev nD) → (b : Ref sig .tc) → Buf (Elt Ideal) ((c : Thread nD τ).loc b))

/-- The convolution as one function of the gathered taps and the weights. -/
def conv (G : Vec Ideal S9x50000x32 .bf16) (Wt : Vec Ideal S9x32x32 .bf16) : Vec Ideal S50000x32 .f32 :=
  fun i => lrelu (acc9 fun k => ∑ ch : Fin 32, (G (ix3 k (i 0) ch) : EReal) * (Wt (ix3 k ch (i 1)) : EReal))

/-- The three index maps over the 10 grid points: the taps' block moves with the output's along the rows and sits
    at zero elsewhere; the weights' block never moves. -/
theorem idx_facts : ∀ t : Fin cfg3.N,
    win3_0.index t (0 : Fin 3) = 0 ∧ win3_0.index t (1 : Fin 3) = win3_2.index t (0 : Fin 2) ∧ win3_0.index t (2 : Fin 3) = 0
    ∧ win3_1.index t (0 : Fin 3) = 0 ∧ win3_1.index t (1 : Fin 3) = 0 ∧ win3_1.index t (2 : Fin 3) = 0
    ∧ win3_2.index t (0 : Fin 2) ≤ 9 ∧ win3_2.index t (1 : Fin 2) = 0 :=
  (by decide +kernel : ∀ t : Fin grid3.N, _)

/-- Every block of rows is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- WHAT POINT t WRITES BACK is its rows of `conv` of the arrays as the region finds them. -/
theorem flushed_eq (c : Dev nD) (t : Fin cfg3.N) :
    (dat3 V c).flushed 2 t = ((cfg3.win 2).blk t).view.read (Elt Ideal) (conv (V c main_v87) (V c main_v88)) := by
  show (cfg3.win 2).cut (grid3.coords t) ((dat3 V c).after 2 t) = _
  rw [after3_2]
  obtain ⟨e0, e1, e2, e3, e4, e5, e6, e7⟩ := idx_facts t
  funext j
  obtain ⟨p, q, rfl⟩ : ∃ (p : Fin 5000) (q : Fin 32), j = ix2 p q := ⟨j 0, j 1, eq_ix2 j⟩
  show out3_2 (iblk3 V c 0 t) (iblk3 V c 1 t) (ix2 p q)
    = conv (V c main_v87) (V c main_v88) (((cfg3.win 2).blk t).view.emb (ix2 p q))
  refine (out_apply _ _ p q).trans ?_
  unfold blockVal conv
  refine congrArg lrelu (congrArg acc9 (funext fun k => Finset.sum_congr rfl fun ch _ => ?_))
  have hg : iblk3 V c 0 t (ix3 k p ch) = V c main_v87 (ix3 k ((((cfg3.win 2).blk t).view.emb (ix2 p q)) 0) ch) := by
    show V c main_v87 (((cfg3.win 0).blk t).view.emb (ix3 k p ch)) = _
    congr 1; funext a; apply Fin.ext
    match a with
    | ⟨0, _⟩ => show win3_0.index t (0 : Fin 3) * 9 + 1 * k.val = k.val; omega
    | ⟨1, _⟩ => show win3_0.index t (1 : Fin 3) * 5000 + 1 * p.val = win3_2.index t (0 : Fin 2) * 5000 + 1 * p.val; omega
    | ⟨2, _⟩ => show win3_0.index t (2 : Fin 3) * 32 + 1 * ch.val = ch.val; omega
  have hw : iblk3 V c 1 t (ix3 k ch q) = V c main_v88 (ix3 k ch ((((cfg3.win 2).blk t).view.emb (ix2 p q)) 1)) := by
    show V c main_v88 (((cfg3.win 1).blk t).view.emb (ix3 k ch q)) = _
    congr 1; funext a; apply Fin.ext
    match a with
    | ⟨0, _⟩ => show win3_1.index t (0 : Fin 3) * 9 + 1 * k.val = k.val; omega
    | ⟨1, _⟩ => show win3_1.index t (1 : Fin 3) * 32 + 1 * ch.val = ch.val; omega
    | ⟨2, _⟩ => show win3_1.index t (2 : Fin 3) * 32 + 1 * q.val = win3_2.index t (1 : Fin 2) * 32 + 1 * q.val; omega
  rw [hg, hw]

/-- An index is in point t's block iff its row is in the point's 5000 rows (and its channel among the 32). -/
theorem mem_blk (t : Fin cfg3.N) (i : S50000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v89).slice (win3_2.rect t)).set ↔ _
  rw [View.set_slice_whole, Rect.mem_set_unit]
  exact Iff.rfl

/-- The 25 blocks of 5000 rows tile the 50000 rows: row r is in the block of point r / 5000. -/
theorem cover (i : S50000x32.Idx) : ∃ t : Fin cfg3.N, (cfg3.win 2).flush t = true ∧ i ∈ ((cfg3.win 2).blk t).view.set := by
  have hi0 : (i 0).val < 50000 := (i 0).isLt
  have hi1 : (i 1).val < 32 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- THE OUTPUT ARRAY after the region: `conv` of the gathered taps and the weights as the region finds them. -/
theorem final (c : Dev nD) : (dat3 V c).arrAt 2 cfg3.N = conv (V c main_v87) (V c main_v88) :=
  (dat3 V c).arrAt_eq_of_cover 2 _ (fun t _ => flushed_eq V c t) cover

end Cert.KernelIdeal.Conv3

end
-- ==== Proof.KChainA.lean ====
/-
  The idealized kernel's values along its run, first half: from the launch memory through the first four
  convolutions. At each region's entry the host stretch has batch-normalised the previous convolution, padded it,
  gathered it by the next neighbour table and narrowed the next weights; at each region's exit the output array holds
  the convolution of those. The arguments are untouched throughout.
-/
import proofs.«141681_j16750372455151_2_alg».proof.Proof.KernelChain0
import proofs.«141681_j16750372455151_2_alg».proof.Proof.KStretch1
import proofs.«141681_j16750372455151_2_alg».proof.Proof.KStretch2
import proofs.«141681_j16750372455151_2_alg».proof.Proof.KStretch3
import proofs.«141681_j16750372455151_2_alg».proof.Proof.KStretch4
import proofs.«141681_j16750372455151_2_alg».proof.Proof.KKeep1
import proofs.«141681_j16750372455151_2_alg».proof.Proof.KKeep2
import proofs.«141681_j16750372455151_2_alg».proof.Proof.Region1Array
import proofs.«141681_j16750372455151_2_alg».proof.Proof.Region2Array
import proofs.«141681_j16750372455151_2_alg».proof.Proof.Region3Array

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

variable (m : (ℓ : Loc nD τ sig) → Buf (Elt Ideal) ℓ) (ρ : Dev nD → PrngReg)

/-! ## The values, as terms of the arguments on a core -/

abbrev tr {s : Shape} (x : FVec Ideal s .f32) : FVec Ideal s .bf16 := truncf (F := Ideal) .bf16 x bitsLt_bf16_f32

def kc1 (c : Dev nD) : FVec Ideal S50000x32 .f32 := Conv0.conv (taps256 (m ((c : Thread nD τ).loc main_arg0)) (m ((c : Thread nD τ).loc main_arg10))) (tr (m ((c : Thread nD τ).loc main_arg1)))
def ks1 (c : Dev nD) : FVec Ideal S50000x32 .f32 := bn32 (kc1 m c)
def kc2 (c : Dev nD) : FVec Ideal S50000x32 .f32 := Conv1.conv (tapsB32 (tr (ks1 m c)) (m ((c : Thread nD τ).loc main_arg11))) (tr (m ((c : Thread nD τ).loc main_arg2)))
def ks2 (c : Dev nD) : FVec Ideal S50000x32 .f32 := bn32 (kc2 m c)
def kc3 (c : Dev nD) : FVec Ideal S50000x32 .f32 := Conv2.conv (tapsB256 (tr (m ((c : Thread nD τ).loc main_arg0))) (m ((c : Thread nD τ).loc main_arg11))) (tr (m ((c : Thread nD τ).loc main_arg3)))
def kr1 (c : Dev nD) : FVec Ideal S50000x32 .f32 := bn32 (kc3 m c)
def kc4 (c : Dev nD) : FVec Ideal S50000x32 .f32 := Conv3.conv (tapsB32 (tr (kr1 m c)) (m ((c : Thread nD τ).loc main_arg10))) (tr (m ((c : Thread nD τ).loc main_arg4)))
def kr2 (c : Dev nD) : FVec Ideal S50000x32 .f32 := bn32 (kc4 m c)
def kx1 (c : Dev nD) : FVec Ideal S50000x32 .f32 := addf (kr2 m c) (ks2 m c)

/-! ## The arguments along the run -/

theorem A0 (c : Dev nD) : ∀ b ∈ Keep.kargRefs, W0 m ρ c (Proc.devRef .tc b) = m ((c : Thread nD τ).loc b) := fun _ _ => rfl
theorem A1 (c : Dev nD) : ∀ b ∈ Keep.kargRefs, W1 m ρ c (Proc.devRef .tc b) = m ((c : Thread nD τ).loc b) :=
  fun b hb => (Keep.keeps_hostOps0 _ b hb).trans (A0 m ρ c b hb)
theorem arrIdx0 : ∀ w : Fin cfg0.W, 13 ≤ (Pipeline.arrRef spec0 w).idx.val := by decide
theorem reg0_keep (c : Dev nD) : ∀ b ∈ Keep.kargRefs, W2 m ρ c (Proc.devRef .tc b) = W1 m ρ c (Proc.devRef .tc b) :=
  fun b hb => W2_of_ne m ρ c b (fun w e => by have h1 := Keep.arg_idx_lt b hb; have h2 := arrIdx0 w; rw [e] at h2; omega)
theorem A2 (c : Dev nD) : ∀ b ∈ Keep.kargRefs, W2 m ρ c (Proc.devRef .tc b) = m ((c : Thread nD τ).loc b) :=
  fun b hb => (reg0_keep m ρ c b hb).trans (A1 m ρ c b hb)

theorem A5 (c : Dev nD) : ∀ b ∈ Keep.kargRefs, W5 m ρ c (Proc.devRef .tc b) = m ((c : Thread nD τ).loc b) :=
  fun b hb => ((Keep.keeps_hostOps1_2 _ b hb).trans ((Keep.keeps_hostOps1_1 _ b hb).trans (Keep.keeps_hostOps1 _ b hb))).trans (A2 m ρ c b hb)

theorem arrIdx1 : ∀ w : Fin cfg1.W, 13 ≤ (Pipeline.arrRef spec1 w).idx.val := by decide
theorem reg1_keep (c : Dev nD) : ∀ b ∈ Keep.kargRefs, W6 m ρ c (Proc.devRef .tc b) = W5 m ρ c (Proc.devRef .tc b) :=
  fun b hb => W6_of_ne m ρ c b (fun w e => by have h1 := Keep.arg_idx_lt b hb; have h2 := arrIdx1 w; rw [e] at h2; omega)
theorem A6 (c : Dev nD) : ∀ b ∈ Keep.kargRefs, W6 m ρ c (Proc.devRef .tc b) = m ((c : Thread nD τ).loc b) :=
  fun b hb => (reg1_keep m ρ c b hb).trans (A5 m ρ c b hb)

theorem A9 (c : Dev nD) : ∀ b ∈ Keep.kargRefs, W9 m ρ c (Proc.devRef .tc b) = m ((c : Thread nD τ).loc b) :=
  fun b hb => ((Keep.keeps_hostOps2_2 _ b hb).trans ((Keep.keeps_hostOps2_1 _ b hb).trans (Keep.keeps_hostOps2 _ b hb))).trans (A6 m ρ c b hb)

theorem arrIdx2 : ∀ w : Fin cfg2.W, 13 ≤ (Pipeline.arrRef spec2 w).idx.val := by decide
theorem reg2_keep (c : Dev nD) : ∀ b ∈ Keep.kargRefs, W10 m ρ c (Proc.devRef .tc b) = W9 m ρ c (Proc.devRef .tc b) :=
  fun b hb => W10_of_ne m ρ c b (fun w e => by have h1 := Keep.arg_idx_lt b hb; have h2 := arrIdx2 w; rw [e] at h2; omega)
theorem A10 (c : Dev nD) : ∀ b ∈ Keep.kargRefs, W10 m ρ c (Proc.devRef .tc b) = m ((c : Thread nD τ).loc b) :=
  fun b hb => (reg2_keep m ρ c b hb).trans (A9 m ρ c b hb)

theorem A13 (c : Dev nD) : ∀ b ∈ Keep.kargRefs, W13 m ρ c (Proc.devRef .tc b) = m ((c : Thread nD τ).loc b) :=
  fun b hb => ((Keep.keeps_hostOps3_2 _ b hb).trans ((Keep.keeps_hostOps3_1 _ b hb).trans (Keep.keeps_hostOps3 _ b hb))).trans (A10 m ρ c b hb)

theorem arrIdx3 : ∀ w : Fin cfg3.W, 13 ≤ (Pipeline.arrRef spec3 w).idx.val := by decide
theorem reg3_keep (c : Dev nD) : ∀ b ∈ Keep.kargRefs, W14 m ρ c (Proc.devRef .tc b) = W13 m ρ c (Proc.devRef .tc b) :=
  fun b hb => W14_of_ne m ρ c b (fun w e => by have h1 := Keep.arg_idx_lt b hb; have h2 := arrIdx3 w; rw [e] at h2; omega)
theorem A14 (c : Dev nD) : ∀ b ∈ Keep.kargRefs, W14 m ρ c (Proc.devRef .tc b) = m ((c : Thread nD τ).loc b) :=
  fun b hb => (reg3_keep m ρ c b hb).trans (A13 m ρ c b hb)

/-! ## The first convolution's output, and the narrowed features, at region 0's exit -/

theorem T2 (c : Dev nD) : (W2 m ρ c (Proc.devRef .tc main_v12) : S50000x32.Idx → EReal) = kc1 m c := W2_out m ρ c

theorem v0_at1 (c : Dev nD) : (W1 m ρ c (Proc.devRef .tc main_v0) : S50000x256.Idx → EReal) = tr (m ((c : Thread nD τ).loc main_arg0)) := by
  dsimp only [W1, hostOps0]
  after_results
  all_goals rfl
theorem v0_at2 (c : Dev nD) : (W2 m ρ c (Proc.devRef .tc main_v0) : S50000x256.Idx → EReal) = tr (m ((c : Thread nD τ).loc main_arg0)) :=
  (W2_of_ne m ρ c main_v0 (by decide)).trans (v0_at1 m ρ c)

/-! ## Region 1: the second convolution -/

theorem T5_taps (c : Dev nD) : (V5 m ρ c main_v36 : S9x50000x32.Idx → EReal) = tapsB32 (tr (ks1 m c)) (m ((c : Thread nD τ).loc main_arg11)) := by
  refine (s1_taps (W2 m ρ c)).trans ?_
  rw [T2 m ρ c, A2 m ρ c main_arg11 (by simp [Keep.kargRefs])]
  rfl
theorem T5_w (c : Dev nD) : (V5 m ρ c main_v37 : S9x32x32.Idx → EReal) = tr (m ((c : Thread nD τ).loc main_arg2)) := by
  refine (s1_w (W2 m ρ c)).trans ?_
  rw [A2 m ρ c main_arg2 (by simp [Keep.kargRefs])]
theorem T6 (c : Dev nD) : (W6 m ρ c (Proc.devRef .tc main_v38) : S50000x32.Idx → EReal) = kc2 m c := by
  refine (W6_arr m ρ c 2).trans ?_
  rw [Conv1.final (V5 m ρ) c]
  exact congrArg₂ Conv1.conv (T5_taps m ρ c) (T5_w m ρ c)
theorem v0_at6 (c : Dev nD) : (W6 m ρ c (Proc.devRef .tc main_v0) : S50000x256.Idx → EReal) = tr (m ((c : Thread nD τ).loc main_arg0)) :=
  (W6_of_ne m ρ c main_v0 (by decide)).trans ((s1_keep_v0 (W2 m ρ c)).trans (v0_at2 m ρ c))

/-! ## Region 2: the third convolution -/

theorem T9_taps (c : Dev nD) : (V9 m ρ c main_v61 : S9x50000x256.Idx → EReal) = tapsB256 (tr (m ((c : Thread nD τ).loc main_arg0))) (m ((c : Thread nD τ).loc main_arg11)) := by
  refine (s2_taps (W6 m ρ c)).trans ?_
  rw [v0_at6 m ρ c, A6 m ρ c main_arg11 (by simp [Keep.kargRefs])]
theorem T9_w (c : Dev nD) : (V9 m ρ c main_v62 : S9x256x32.Idx → EReal) = tr (m ((c : Thread nD τ).loc main_arg3)) := by
  refine (s2_w (W6 m ρ c)).trans ?_
  rw [A6 m ρ c main_arg3 (by simp [Keep.kargRefs])]
theorem T9_s (c : Dev nD) : (W9 m ρ c (Proc.devRef .tc main_v51) : S50000x32.Idx → EReal) = ks2 m c := by
  refine (s2_s (W6 m ρ c)).trans ?_
  rw [T6 m ρ c]
  rfl
theorem T10 (c : Dev nD) : (W10 m ρ c (Proc.devRef .tc main_v63) : S50000x32.Idx → EReal) = kc3 m c := by
  refine (W10_arr m ρ c 2).trans ?_
  rw [Conv2.final (V9 m ρ) c]
  exact congrArg₂ Conv2.conv (T9_taps m ρ c) (T9_w m ρ c)
theorem T10_s (c : Dev nD) : (W10 m ρ c (Proc.devRef .tc main_v51) : S50000x32.Idx → EReal) = ks2 m c :=
  (W10_of_ne m ρ c main_v51 (by decide)).trans (T9_s m ρ c)

/-! ## Region 3: the fourth convolution -/

theorem T13_taps (c : Dev nD) : (V13 m ρ c main_v87 : S9x50000x32.Idx → EReal) = tapsB32 (tr (kr1 m c)) (m ((c : Thread nD τ).loc main_arg10)) := by
  refine (s3_taps (W10 m ρ c)).trans ?_
  rw [T10 m ρ c, A10 m ρ c main_arg10 (by simp [Keep.kargRefs])]
  rfl
theorem T13_w (c : Dev nD) : (V13 m ρ c main_v88 : S9x32x32.Idx → EReal) = tr (m ((c : Thread nD τ).loc main_arg4)) := by
  refine (s3_w (W10 m ρ c)).trans ?_
  rw [A10 m ρ c main_arg4 (by simp [Keep.kargRefs])]
theorem T13_s (c : Dev nD) : (W13 m ρ c (Proc.devRef .tc main_v51) : S50000x32.Idx → EReal) = ks2 m c :=
  (s3_keep (W10 m ρ c)).trans (T10_s m ρ c)
theorem T14 (c : Dev nD) : (W14 m ρ c (Proc.devRef .tc main_v89) : S50000x32.Idx → EReal) = kc4 m c := by
  refine (W14_arr m ρ c 2).trans ?_
  rw [Conv3.final (V13 m ρ) c]
  exact congrArg₂ Conv3.conv (T13_taps m ρ c) (T13_w m ρ c)
theorem T14_s (c : Dev nD) : (W14 m ρ c (Proc.devRef .tc main_v51) : S50000x32.Idx → EReal) = ks2 m c :=
  (W14_of_ne m ρ c main_v51 (by decide)).trans (T13_s m ρ c)

end Cert.KernelIdeal.Chain

end
-- ==== Proof.KStretch5.lean ====
/-
  What the stretch of host operations after region 4 computes, from ANY contents U of the buffers at the region's exit:
  the batch normalisation of the region's output, the next convolution's padded table gathered per tap, the next
  weights narrowed — each the operations' composed term.
-/
import proofs.«141681_j16750372455151_2_alg».proof.Proof.KDefs
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

theorem s5_taps (U : Valuation τ sig (Elt Ideal)) :
    (after hostOps5_2 (after hostOps5_1 (after hostOps5 U)) (Proc.devRef .tc main_v140) : S9x50000x64.Idx → EReal)
      = tapsB64 (truncf (F := Ideal) .bf16 (bn64 (U (Proc.devRef .tc main_v116))) bitsLt_bf16_f32) (U (Proc.devRef .tc main_arg10)) := by
  after_results_simp <;> rfl
theorem s5_w (U : Valuation τ sig (Elt Ideal)) :
    (after hostOps5_2 (after hostOps5_1 (after hostOps5 U)) (Proc.devRef .tc main_v141) : S9x64x64.Idx → EReal)
      = (truncf (F := Ideal) .bf16 (U (Proc.devRef .tc main_arg6)) bitsLt_bf16_f32) := by
  after_results_simp <;> rfl
theorem s5_keep (U : Valuation τ sig (Elt Ideal)) :
    (after hostOps5_2 (after hostOps5_1 (after hostOps5 U)) (Proc.devRef .tc main_v104) : S50000x32.Idx → EReal)
      = (U (Proc.devRef .tc main_v104)) := by
  after_results_simp <;> rfl

end Cert.KernelIdeal.Chain

end
-- ==== Proof.KStretch6.lean ====
/-
  What the stretch of host operations after region 5 computes, from ANY contents U of the buffers at the region's exit:
  the batch normalisation of the region's output, the next convolution's padded table gathered per tap, the next
  weights narrowed — each the operations' composed term.
-/
import proofs.«141681_j16750372455151_2_alg».proof.Proof.KDefs
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

theorem s6_taps (U : Valuation τ sig (Elt Ideal)) :
    (after hostOps6_2 (after hostOps6_1 (after hostOps6 U)) (Proc.devRef .tc main_v165) : S9x50000x32.Idx → EReal)
      = tapsB32 (U (Proc.devRef .tc main_v104)) (U (Proc.devRef .tc main_arg10)) := by
  after_results_simp <;> rfl
theorem s6_w (U : Valuation τ sig (Elt Ideal)) :
    (after hostOps6_2 (after hostOps6_1 (after hostOps6 U)) (Proc.devRef .tc main_v166) : S9x32x64.Idx → EReal)
      = (truncf (F := Ideal) .bf16 (U (Proc.devRef .tc main_arg7)) bitsLt_bf16_f32) := by
  after_results_simp <;> rfl
theorem s6_s (U : Valuation τ sig (Elt Ideal)) :
    (after hostOps6_2 (after hostOps6_1 (after hostOps6 U)) (Proc.devRef .tc main_v155) : S50000x64.Idx → EReal)
      = bn64 (U (Proc.devRef .tc main_v142)) := by
  after_results_simp <;> rfl

end Cert.KernelIdeal.Chain

end
-- ==== Proof.KStretch7.lean ====
/-
  What the stretch of host operations after region 6 computes, from ANY contents U of the buffers at the region's exit:
  the batch normalisation of the region's output, the next convolution's padded table gathered per tap, the next
  weights narrowed — each the operations' composed term.
-/
import proofs.«141681_j16750372455151_2_alg».proof.Proof.KDefs
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

theorem s7_taps (U : Valuation τ sig (Elt Ideal)) :
    (after hostOps7_2 (after hostOps7_1 (after hostOps7 U)) (Proc.devRef .tc main_v191) : S9x50000x64.Idx → EReal)
      = tapsB64 (truncf (F := Ideal) .bf16 (bn64 (U (Proc.devRef .tc main_v167))) bitsLt_bf16_f32) (U (Proc.devRef .tc main_arg11)) := by
  after_results_simp <;> rfl
theorem s7_w (U : Valuation τ sig (Elt Ideal)) :
    (after hostOps7_2 (after hostOps7_1 (after hostOps7 U)) (Proc.devRef .tc main_v192) : S9x64x64.Idx → EReal)
      = (truncf (F := Ideal) .bf16 (U (Proc.devRef .tc main_arg8)) bitsLt_bf16_f32) := by
  after_results_simp <;> rfl
theorem s7_keep (U : Valuation τ sig (Elt Ideal)) :
    (after hostOps7_2 (after hostOps7_1 (after hostOps7 U)) (Proc.devRef .tc main_v155) : S50000x64.Idx → EReal)
      = (U (Proc.devRef .tc main_v155)) := by
  after_results_simp <;> rfl

end Cert.KernelIdeal.Chain

end
-- ==== Proof.Region4Body.lean ====
/-
  Region 4 (the first 9-tap convolution, 32 → 64 channels, rows tiled by 5000): what one grid point's body
  leaves in its output block, read at an index.

  The body holds a block x0 of the gathered taps (9 × 5000 × 32) and the weights x1 (9 × 32 × 64). For tap k it
  multiplies the k-th 5000 × 32 slice of x0 by the k-th 32 × 64 slice of x1 on the matrix unit into a zero
  accumulator, adds the nine products in order onto zero, and applies the leaky rectifier. At row p and channel q
  this is  lrelu (acc9 fun k => Σ_c x0[k, p, c] · x1[k, c, q]).
-/
import proofs.«141681_j16750372455151_2_alg».proof.Proof.Gen.KernelIdeal.Frame
import proofs.«141681_j16750372455151_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Conv4

open Idealize.ShloMosaic Idealize.ShloMosaic.TcCoe Idealize.ShloMosaic.ValueIdx
open Cert.KernelIdeal Cert.KernelIdeal.Gen Cert.SparseConv

/-- The matrix product's dimension record: rows × contraction times contraction × columns. -/
abbrev D := dot_S5000x32_S32x64_S5000x64_1_0_0_1_n_n

theorem lhs_row (j : S5000x64.Idx) (s : D.contr.Idx) : (D.lhsIdx j s 0).val = (j 0).val := by
  unfold DotDims.lhsIdx
  rw [dif_neg (show ¬(0 : Fin S5000x32.rank) ∈ D.lhsBatch by decide), dif_pos (show (0 : Fin S5000x32.rank) ∈ D.lhsNonContracting by decide)]
  rfl
theorem lhs_contr (j : S5000x64.Idx) (s : D.contr.Idx) : (D.lhsIdx j s 1).val = (s ⟨0, by decide⟩).val :=
  D.lhsIdx_val_of_single rfl j s
theorem rhs_contr (j : S5000x64.Idx) (s : D.contr.Idx) : (D.rhsIdx j s 0).val = (s ⟨0, by decide⟩).val :=
  D.rhsIdx_val_of_single rfl j s
theorem rhs_col (j : S5000x64.Idx) (s : D.contr.Idx) : (D.rhsIdx j s 1).val = (j 1).val := by
  unfold DotDims.rhsIdx
  rw [dif_neg (show ¬(1 : Fin S32x64.rank) ∈ D.rhsBatch by decide), dif_pos (show (1 : Fin S32x64.rank) ∈ D.rhsNonContracting by decide)]
  rfl

/-- ONE TAP: a 1 × 5000 × 32 slice times a 1 × 32 × 64 slice into a zero accumulator, at (p, q), is the sum over
    the 32 input channels. -/
theorem tap (g : Vec Ideal S1x5000x32 .bf16) (w : Vec Ideal S1x32x64 .bf16) (p : Fin 5000) (q : Fin 64) :
    (matmul (F := Ideal) (φ₁ := .bf16) (φ₂ := .bf16) D none (shapeCast S5000x32 g shapeCasts_S1x5000x32_S5000x32) (shapeCast S32x64 w shapeCasts_S1x32x64_S32x64)
      (constant S5000x64 .f32 0x00000000#32) (ix2 p q) : EReal)
    = ∑ c : Fin 32, (g (ix3 (0 : Fin 1) p c) : EReal) * (w (ix3 (0 : Fin 1) c q) : EReal) := by
  refine (Ideal.matmul_constant_zero_apply D none _ _ (ix2 p q)).trans ?_
  rw [← Equiv.sum_comp (contrEquiv1 D 32 rfl rfl).symm]
  refine Finset.sum_congr rfl fun c _ => ?_
  have hc := contrEquiv1_symm_val D 32 rfl rfl c
  have el : D.lhsIdx (ix2 p q) ((contrEquiv1 D 32 rfl rfl).symm c) = ix2 p c := funext fun a => Fin.ext (by
    match a with
    | ⟨0, _⟩ => exact lhs_row _ _
    | ⟨1, _⟩ => exact (lhs_contr _ _).trans hc)
  have er : D.rhsIdx (ix2 p q) ((contrEquiv1 D 32 rfl rfl).symm c) = ix2 c q := funext fun a => Fin.ext (by
    match a with
    | ⟨0, _⟩ => exact (rhs_contr _ _).trans hc
    | ⟨1, _⟩ => exact rhs_col _ _)
  rw [el, er, shapeCast_1ab_ab_apply, shapeCast_1ab_ab_apply]

/-- Tap k's slice of the gathered block, loaded through its rectangle, read at (0, p, c). -/
theorem ld_g (x0 : Vec Ideal S9x5000x32 .bf16) (k : Fin 9) (inb) (p : Fin 5000) (c : Fin 32) :
    View.ld x0 (Rect.unit (s := S9x5000x32) ![k.val, 0, 0] S1x5000x32.size inb) (ix3 (0 : Fin 1) p c) = x0 (ix3 k p c) := by
  show x0 ((Rect.unit (s := S9x5000x32) ![k.val, 0, 0] S1x5000x32.size inb).idx (ix3 (0 : Fin 1) p c)) = _
  congr 1
  funext a
  match a with
  | ⟨0, _⟩ => exact Fin.ext (by show k.val + 1 * 0 = k.val; omega)
  | ⟨1, _⟩ => exact Fin.ext (by show 0 + 1 * p.val = p.val; omega)
  | ⟨2, _⟩ => exact Fin.ext (by show 0 + 1 * c.val = c.val; omega)

/-- Tap k's slice of the weights, loaded through its rectangle, read at (0, c, q). -/
theorem ld_w (x1 : Vec Ideal S9x32x64 .bf16) (k : Fin 9) (inb) (c : Fin 32) (q : Fin 64) :
    View.ld x1 (Rect.unit (s := S9x32x64) ![k.val, 0, 0] S1x32x64.size inb) (ix3 (0 : Fin 1) c q) = x1 (ix3 k c q) := by
  show x1 ((Rect.unit (s := S9x32x64) ![k.val, 0, 0] S1x32x64.size inb).idx (ix3 (0 : Fin 1) c q)) = _
  congr 1
  funext a
  match a with
  | ⟨0, _⟩ => exact Fin.ext (by show k.val + 1 * 0 = k.val; omega)
  | ⟨1, _⟩ => exact Fin.ext (by show 0 + 1 * c.val = c.val; omega)
  | ⟨2, _⟩ => exact Fin.ext (by show 0 + 1 * q.val = q.val; omega)

/-- Tap k of the block at (p, q): the product of the loaded slices is the sum over the input channels of the
    block's own entries. -/
theorem tap_ld (x0 : Vec Ideal S9x5000x32 .bf16) (x1 : Vec Ideal S9x32x64 .bf16) (k : Fin 9) (inb0) (inb1)
    (p : Fin 5000) (q : Fin 64) :
    (matmul (F := Ideal) (φ₁ := .bf16) (φ₂ := .bf16) D none
      (shapeCast S5000x32 (View.ld x0 (Rect.unit (s := S9x5000x32) ![k.val, 0, 0] S1x5000x32.size inb0)) shapeCasts_S1x5000x32_S5000x32)
      (shapeCast S32x64 (View.ld x1 (Rect.unit (s := S9x32x64) ![k.val, 0, 0] S1x32x64.size inb1)) shapeCasts_S1x32x64_S32x64)
      (constant S5000x64 .f32 0x00000000#32) (ix2 p q) : EReal)
    = ∑ c : Fin 32, (x0 (ix3 k p c) : EReal) * (x1 (ix3 k c q) : EReal) := by
  refine (tap _ _ p q).trans (Finset.sum_congr rfl fun c _ => ?_)
  rw [ld_g x0 k inb0 p c, ld_w x1 k inb1 c q]

/-- The conv's value at (p, q) from a block of taps and the weights. -/
def blockVal (x0 : Vec Ideal S9x5000x32 .bf16) (x1 : Vec Ideal S9x32x64 .bf16) (p : Fin 5000) (q : Fin 64) : EReal :=
  lrelu (acc9 fun k => ∑ c : Fin 32, (x0 (ix3 k p c) : EReal) * (x1 (ix3 k c q) : EReal))

/-- The rectifier as the body spells it — compare with zero, multiply by the slope, select — at an index. -/
theorem lrelu_apply (A : FVec Ideal S5000x64 .f32) (i : S5000x64.Idx) :
    select (cmpf .oge A (broadcast S5000x64 (FloatOps.ofBits .f32 0x00000000#32))) A
      (mulf (broadcast S5000x64 (FloatOps.ofBits .f32 0x3C23D70A#32)) A) i = lrelu (A i) := rfl

/-- Nine arrays added in order onto the broadcast zero, at an index. -/
theorem acc9_apply (m0 m1 m2 m3 m4 m5 m6 m7 m8 : FVec Ideal S5000x64 .f32) (i : S5000x64.Idx) :
    addf (addf (addf (addf (addf (addf (addf (addf (addf (broadcast S5000x64 (FloatOps.ofBits .f32 0x00000000#32)) m0) m1) m2) m3) m4) m5) m6) m7) m8 i
      = acc9 ![m0 i, m1 i, m2 i, m3 i, m4 i, m5 i, m6 i, m7 i, m8 i] := rfl

theorem hz2 : (![0, 0] : Fin 2 → Nat) = fun _ => 0 := funext fun a => by fin_cases a <;> rfl

/-- WHAT THE BODY LEAVES in its output block, at (p, q). -/
theorem out_apply (x0 : Vec Ideal S9x5000x32 .bf16) (x1 : Vec Ideal S9x32x64 .bf16) (p : Fin 5000) (q : Fin 64) :
    out4_2 (F := Ideal) x0 x1 (ix2 p q) = blockVal x0 x1 p q := by
  unfold out4_2
  rw [View.canon_unit_zero hz2]
  unfold k4_pay1 k4_pay4 k4_pay2 k4_pay3
  dsimp only
  refine (lrelu_apply _ (ix2 p q)).trans (congrArg lrelu ?_)
  refine (acc9_apply _ _ _ _ _ _ _ _ _ (ix2 p q)).trans (congrArg acc9 (funext fun k => ?_))
  fin_cases k
  · exact tap_ld x0 x1 0 _ _ p q
  · exact tap_ld x0 x1 1 _ _ p q
  · exact tap_ld x0 x1 2 _ _ p q
  · exact tap_ld x0 x1 3 _ _ p q
  · exact tap_ld x0 x1 4 _ _ p q
  · exact tap_ld x0 x1 5 _ _ p q
  · exact tap_ld x0 x1 6 _ _ p q
  · exact tap_ld x0 x1 7 _ _ p q
  · exact tap_ld x0 x1 8 _ _ p q

end Cert.KernelIdeal.Conv4

end
-- ==== Proof.Region4Array.lean ====
/-
  Region 4: from what each grid point writes back to the whole output array.

  The grid has 10 points; point t stages rows 5000·t … 5000·t + 4999 of the gathered taps (all nine taps, all 32
  channels), the whole weight table, and writes back rows 5000·t … 5000·t + 4999 of the output. So the block a
  point writes is the restriction to its rows of ONE function of the two arrays as the region finds them,
      conv G Wt (i, o) = lrelu (acc9 fun k => Σ_c G[k, i, c] · Wt[k, c, o]),
  the 10 row ranges tile the 50000 rows, and the output array ends at that function.
-/
import proofs.«141681_j16750372455151_2_alg».proof.Proof.Region4Body

set_option maxRecDepth 16384

noncomputable section

namespace Cert.KernelIdeal.Conv4

open Idealize.ShloMosaic Idealize.ShloMosaic.TcCoe Idealize.ShloMosaic.ValueIdx
open Idealize.ShloMosaic.Pipeline (Dat)
open Cert.KernelIdeal Cert.KernelIdeal.Gen Cert.SparseConv

variable (V : (c : Dev nD) → (b : Ref sig .tc) → Buf (Elt Ideal) ((c : Thread nD τ).loc b))

/-- The convolution as one function of the gathered taps and the weights. -/
def conv (G : Vec Ideal S9x50000x32 .bf16) (Wt : Vec Ideal S9x32x64 .bf16) : Vec Ideal S50000x64 .f32 :=
  fun i => lrelu (acc9 fun k => ∑ ch : Fin 32, (G (ix3 k (i 0) ch) : EReal) * (Wt (ix3 k ch (i 1)) : EReal))

/-- The three index maps over the 10 grid points: the taps' block moves with the output's along the rows and sits
    at zero elsewhere; the weights' block never moves. -/
theorem idx_facts : ∀ t : Fin cfg4.N,
    win4_0.index t (0 : Fin 3) = 0 ∧ win4_0.index t (1 : Fin 3) = win4_2.index t (0 : Fin 2) ∧ win4_0.index t (2 : Fin 3) = 0
    ∧ win4_1.index t (0 : Fin 3) = 0 ∧ win4_1.index t (1 : Fin 3) = 0 ∧ win4_1.index t (2 : Fin 3) = 0
    ∧ win4_2.index t (0 : Fin 2) ≤ 9 ∧ win4_2.index t (1 : Fin 2) = 0 :=
  (by decide +kernel : ∀ t : Fin grid4.N, _)

/-- Every block of rows is some point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-- WHAT POINT t WRITES BACK is its rows of `conv` of the arrays as the region finds them. -/
theorem flushed_eq (c : Dev nD) (t : Fin cfg4.N) :
    (dat4 V c).flushed 2 t = ((cfg4.win 2).blk t).view.read (Elt Ideal) (conv (V c main_v114) (V c main_v115)) := by
  show (cfg4.win 2).cut (grid4.coords t) ((dat4 V c).after 2 t) = _
  rw [after4_2]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  show out4_2 (iblk4 V c 0 t) (iblk4 V c 1 t) (ix2 p q)
    = conv (V c main_v114) (V c main_v115) (((cfg4.win 2).blk t).view.emb (ix2 p q))
  refine (out_apply _ _ p q).trans ?_
  unfold blockVal conv
  refine congrArg lrelu (congrArg acc9 (funext fun k => Finset.sum_congr rfl fun ch _ => ?_))
  have hg : iblk4 V c 0 t (ix3 k p ch) = V c main_v114 (ix3 k ((((cfg4.win 2).blk t).view.emb (ix2 p q)) 0) ch) := by
    show V c main_v114 (((cfg4.win 0).blk t).view.emb (ix3 k p ch)) = _
    congr 1; funext a; apply Fin.ext
    match a with
    | ⟨0, _⟩ => show win4_0.index t (0 : Fin 3) * 9 + 1 * k.val = k.val; omega
    | ⟨1, _⟩ => show win4_0.index t (1 : Fin 3) * 5000 + 1 * p.val = win4_2.index t (0 : Fin 2) * 5000 + 1 * p.val; omega
    | ⟨2, _⟩ => show win4_0.index t (2 : Fin 3) * 32 + 1 * ch.val = ch.val; omega
  have hw : iblk4 V c 1 t (ix3 k ch q) = V c main_v115 (ix3 k ch ((((cfg4.win 2).blk t).view.emb (ix2 p q)) 1)) := by
    show V c main_v115 (((cfg4.win 1).blk t).view.emb (ix3 k ch q)) = _
    congr 1; funext a; apply Fin.ext
    match a with
    | ⟨0, _⟩ => show win4_1.index t (0 : Fin 3) * 9 + 1 * k.val = k.val; omega
    | ⟨1, _⟩ => show win4_1.index t (1 : Fin 3) * 32 + 1 * ch.val = ch.val; omega
    | ⟨2, _⟩ => show win4_1.index t (2 : Fin 3) * 64 + 1 * q.val = win4_2.index t (1 : Fin 2) * 64 + 1 * q.val; omega
  rw [hg, hw]

/-- An index is in point t's block iff its row is in the point's 5000 rows (and its channel among the 64). -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v116).slice (win4_2.rect t)).set ↔ _
  rw [View.set_slice_whole, Rect.mem_set_unit]
  exact Iff.rfl

/-- The 25 blocks of 5000 rows tile the 50000 rows: row r is in the block of point r / 5000. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- THE OUTPUT ARRAY after the region: `conv` of the gathered taps and the weights as the region finds them. -/
theorem final (c : Dev nD) : (dat4 V c).arrAt 2 cfg4.N = conv (V c main_v114) (V c main_v115) :=
  (dat4 V c).arrAt_eq_of_cover 2 _ (fun t _ => flushed_eq V c t) cover

end Cert.KernelIdeal.Conv4

end
-- ==== Proof.Region5Body.lean ====
/-
  Region 5 (the first 9-tap convolution, 64 → 64 channels, rows tiled by 5000): what one grid point's body
  leaves in its output block, read at an index.

  The body holds a block x0 of the gathered taps (9 × 5000 × 64) and the weights x1 (9 × 64 × 64). For tap k it
  multiplies the k-th 5000 × 64 slice of x0 by the k-th 64 × 64 slice of x1 on the matrix unit into a zero
  accumulator, adds the nine products in order onto zero, and applies the leaky rectifier. At row p and channel q
  this is  lrelu (acc9 fun k => Σ_c x0[k, p, c] · x1[k, c, q]).
-/
import proofs.«141681_j16750372455151_2_alg».proof.Proof.Gen.KernelIdeal.Frame
import proofs.«141681_j16750372455151_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Conv5

open Idealize.ShloMosaic Idealize.ShloMosaic.TcCoe Idealize.ShloMosaic.ValueIdx
open Cert.KernelIdeal Cert.KernelIdeal.Gen Cert.SparseConv

/-- The matrix product's dimension record: rows × contraction times contraction × columns. -/
abbrev D := dot_S5000x64_S64x64_S5000x64_1_0_0_1_n_n

theorem lhs_row (j : S5000x64.Idx) (s : D.contr.Idx) : (D.lhsIdx j s 0).val = (j 0).val := by
  unfold DotDims.lhsIdx
  rw [dif_neg (show ¬(0 : Fin S5000x64.rank) ∈ D.lhsBatch by decide), dif_pos (show (0 : Fin S5000x64.rank) ∈ D.lhsNonContracting by decide)]
  rfl
theorem lhs_contr (j : S5000x64.Idx) (s : D.contr.Idx) : (D.lhsIdx j s 1).val = (s ⟨0, by decide⟩).val :=
  D.lhsIdx_val_of_single rfl j s
theorem rhs_contr (j : S5000x64.Idx) (s : D.contr.Idx) : (D.rhsIdx j s 0).val = (s ⟨0, by decide⟩).val :=
  D.rhsIdx_val_of_single rfl j s
theorem rhs_col (j : S5000x64.Idx) (s : D.contr.Idx) : (D.rhsIdx j s 1).val = (j 1).val := by
  unfold DotDims.rhsIdx
  rw [dif_neg (show ¬(1 : Fin S64x64.rank) ∈ D.rhsBatch by decide), dif_pos (show (1 : Fin S64x64.rank) ∈ D.rhsNonContracting by decide)]
  rfl

/-- ONE TAP: a 1 × 5000 × 64 slice times a 1 × 64 × 64 slice into a zero accumulator, at (p, q), is the sum over
    the 64 input channels. -/
theorem tap (g : Vec Ideal S1x5000x64 .bf16) (w : Vec Ideal S1x64x64 .bf16) (p : Fin 5000) (q : Fin 64) :
    (matmul (F := Ideal) (φ₁ := .bf16) (φ₂ := .bf16) D none (shapeCast S5000x64 g shapeCasts_S1x5000x64_S5000x64) (shapeCast S64x64 w shapeCasts_S1x64x64_S64x64)
      (constant S5000x64 .f32 0x00000000#32) (ix2 p q) : EReal)
    = ∑ c : Fin 64, (g (ix3 (0 : Fin 1) p c) : EReal) * (w (ix3 (0 : Fin 1) c q) : EReal) := by
  refine (Ideal.matmul_constant_zero_apply D none _ _ (ix2 p q)).trans ?_
  rw [← Equiv.sum_comp (contrEquiv1 D 64 rfl rfl).symm]
  refine Finset.sum_congr rfl fun c _ => ?_
  have hc := contrEquiv1_symm_val D 64 rfl rfl c
  have el : D.lhsIdx (ix2 p q) ((contrEquiv1 D 64 rfl rfl).symm c) = ix2 p c := funext fun a => Fin.ext (by
    match a with
    | ⟨0, _⟩ => exact lhs_row _ _
    | ⟨1, _⟩ => exact (lhs_contr _ _).trans hc)
  have er : D.rhsIdx (ix2 p q) ((contrEquiv1 D 64 rfl rfl).symm c) = ix2 c q := funext fun a => Fin.ext (by
    match a with
    | ⟨0, _⟩ => exact (rhs_contr _ _).trans hc
    | ⟨1, _⟩ => exact rhs_col _ _)
  rw [el, er, shapeCast_1ab_ab_apply, shapeCast_1ab_ab_apply]

/-- Tap k's slice of the gathered block, loaded through its rectangle, read at (0, p, c). -/
theorem ld_g (x0 : Vec Ideal S9x5000x64 .bf16) (k : Fin 9) (inb) (p : Fin 5000) (c : Fin 64) :
    View.ld x0 (Rect.unit (s := S9x5000x64) ![k.val, 0, 0] S1x5000x64.size inb) (ix3 (0 : Fin 1) p c) = x0 (ix3 k p c) := by
  show x0 ((Rect.unit (s := S9x5000x64) ![k.val, 0, 0] S1x5000x64.size inb).idx (ix3 (0 : Fin 1) p c)) = _
  congr 1
  funext a
  match a with
  | ⟨0, _⟩ => exact Fin.ext (by show k.val + 1 * 0 = k.val; omega)
  | ⟨1, _⟩ => exact Fin.ext (by show 0 + 1 * p.val = p.val; omega)
  | ⟨2, _⟩ => exact Fin.ext (by show 0 + 1 * c.val = c.val; omega)

/-- Tap k's slice of the weights, loaded through its rectangle, read at (0, c, q). -/
theorem ld_w (x1 : Vec Ideal S9x64x64 .bf16) (k : Fin 9) (inb) (c : Fin 64) (q : Fin 64) :
    View.ld x1 (Rect.unit (s := S9x64x64) ![k.val, 0, 0] S1x64x64.size inb) (ix3 (0 : Fin 1) c q) = x1 (ix3 k c q) := by
  show x1 ((Rect.unit (s := S9x64x64) ![k.val, 0, 0] S1x64x64.size inb).idx (ix3 (0 : Fin 1) c q)) = _
  congr 1
  funext a
  match a with
  | ⟨0, _⟩ => exact Fin.ext (by show k.val + 1 * 0 = k.val; omega)
  | ⟨1, _⟩ => exact Fin.ext (by show 0 + 1 * c.val = c.val; omega)
  | ⟨2, _⟩ => exact Fin.ext (by show 0 + 1 * q.val = q.val; omega)

/-- Tap k of the block at (p, q): the product of the loaded slices is the sum over the input channels of the
    block's own entries. -/
theorem tap_ld (x0 : Vec Ideal S9x5000x64 .bf16) (x1 : Vec Ideal S9x64x64 .bf16) (k : Fin 9) (inb0) (inb1)
    (p : Fin 5000) (q : Fin 64) :
    (matmul (F := Ideal) (φ₁ := .bf16) (φ₂ := .bf16) D none
      (shapeCast S5000x64 (View.ld x0 (Rect.unit (s := S9x5000x64) ![k.val, 0, 0] S1x5000x64.size inb0)) shapeCasts_S1x5000x64_S5000x64)
      (shapeCast S64x64 (View.ld x1 (Rect.unit (s := S9x64x64) ![k.val, 0, 0] S1x64x64.size inb1)) shapeCasts_S1x64x64_S64x64)
      (constant S5000x64 .f32 0x00000000#32) (ix2 p q) : EReal)
    = ∑ c : Fin 64, (x0 (ix3 k p c) : EReal) * (x1 (ix3 k c q) : EReal) := by
  refine (tap _ _ p q).trans (Finset.sum_congr rfl fun c _ => ?_)
  rw [ld_g x0 k inb0 p c, ld_w x1 k inb1 c q]

/-- The conv's value at (p, q) from a block of taps and the weights. -/
def blockVal (x0 : Vec Ideal S9x5000x64 .bf16) (x1 : Vec Ideal S9x64x64 .bf16) (p : Fin 5000) (q : Fin 64) : EReal :=
  lrelu (acc9 fun k => ∑ c : Fin 64, (x0 (ix3 k p c) : EReal) * (x1 (ix3 k c q) : EReal))

/-- The rectifier as the body spells it — compare with zero, multiply by the slope, select — at an index. -/
theorem lrelu_apply (A : FVec Ideal S5000x64 .f32) (i : S5000x64.Idx) :
    select (cmpf .oge A (broadcast S5000x64 (FloatOps.ofBits .f32 0x00000000#32))) A
      (mulf (broadcast S5000x64 (FloatOps.ofBits .f32 0x3C23D70A#32)) A) i = lrelu (A i) := rfl

/-- Nine arrays added in order onto the broadcast zero, at an index. -/
theorem acc9_apply (m0 m1 m2 m3 m4 m5 m6 m7 m8 : FVec Ideal S5000x64 .f32) (i : S5000x64.Idx) :
    addf (addf (addf (addf (addf (addf (addf (addf (addf (broadcast S5000x64 (FloatOps.ofBits .f32 0x00000000#32)) m0) m1) m2) m3) m4) m5) m6) m7) m8 i
      = acc9 ![m0 i, m1 i, m2 i, m3 i, m4 i, m5 i, m6 i, m7 i, m8 i] := rfl

theorem hz2 : (![0, 0] : Fin 2 → Nat) = fun _ => 0 := funext fun a => by fin_cases a <;> rfl

/-- WHAT THE BODY LEAVES in its output block, at (p, q). -/
theorem out_apply (x0 : Vec Ideal S9x5000x64 .bf16) (x1 : Vec Ideal S9x64x64 .bf16) (p : Fin 5000) (q : Fin 64) :
    out5_2 (F := Ideal) x0 x1 (ix2 p q) = blockVal x0 x1 p q := by
  unfold out5_2
  rw [View.canon_unit_zero hz2]
  unfold k5_pay1 k5_pay4 k5_pay2 k5_pay3
  dsimp only
  refine (lrelu_apply _ (ix2 p q)).trans (congrArg lrelu ?_)
  refine (acc9_apply _ _ _ _ _ _ _ _ _ (ix2 p q)).trans (congrArg acc9 (funext fun k => ?_))
  fin_cases k
  · exact tap_ld x0 x1 0 _ _ p q
  · exact tap_ld x0 x1 1 _ _ p q
  · exact tap_ld x0 x1 2 _ _ p q
  · exact tap_ld x0 x1 3 _ _ p q
  · exact tap_ld x0 x1 4 _ _ p q
  · exact tap_ld x0 x1 5 _ _ p q
  · exact tap_ld x0 x1 6 _ _ p q
  · exact tap_ld x0 x1 7 _ _ p q
  · exact tap_ld x0 x1 8 _ _ p q

end Cert.KernelIdeal.Conv5

end
-- ==== Proof.Region5Array.lean ====
/-
  Region 5: from what each grid point writes back to the whole output array.

  The grid has 10 points; point t stages rows 5000·t … 5000·t + 4999 of the gathered taps (all nine taps, all 64
  channels), the whole weight table, and writes back rows 5000·t … 5000·t + 4999 of the output. So the block a
  point writes is the restriction to its rows of ONE function of the two arrays as the region finds them,
      conv G Wt (i, o) = lrelu (acc9 fun k => Σ_c G[k, i, c] · Wt[k, c, o]),
  the 10 row ranges tile the 50000 rows, and the output array ends at that function.
-/
import proofs.«141681_j16750372455151_2_alg».proof.Proof.Region5Body

set_option maxRecDepth 16384

noncomputable section

namespace Cert.KernelIdeal.Conv5

open Idealize.ShloMosaic Idealize.ShloMosaic.TcCoe Idealize.ShloMosaic.ValueIdx
open Idealize.ShloMosaic.Pipeline (Dat)
open Cert.KernelIdeal Cert.KernelIdeal.Gen Cert.SparseConv

variable (V : (c : Dev nD) → (b : Ref sig .tc) → Buf (Elt Ideal) ((c : Thread nD τ).loc b))

/-- The convolution as one function of the gathered taps and the weights. -/
def conv (G : Vec Ideal S9x50000x64 .bf16) (Wt : Vec Ideal S9x64x64 .bf16) : Vec Ideal S50000x64 .f32 :=
  fun i => lrelu (acc9 fun k => ∑ ch : Fin 64, (G (ix3 k (i 0) ch) : EReal) * (Wt (ix3 k ch (i 1)) : EReal))

/-- The three index maps over the 10 grid points: the taps' block moves with the output's along the rows and sits
    at zero elsewhere; the weights' block never moves. -/
theorem idx_facts : ∀ t : Fin cfg5.N,
    win5_0.index t (0 : Fin 3) = 0 ∧ win5_0.index t (1 : Fin 3) = win5_2.index t (0 : Fin 2) ∧ win5_0.index t (2 : Fin 3) = 0
    ∧ win5_1.index t (0 : Fin 3) = 0 ∧ win5_1.index t (1 : Fin 3) = 0 ∧ win5_1.index t (2 : Fin 3) = 0
    ∧ win5_2.index t (0 : Fin 2) ≤ 9 ∧ win5_2.index t (1 : Fin 2) = 0 :=
  (by decide +kernel : ∀ t : Fin grid5.N, _)

/-- Every block of rows is some point's. -/
theorem idx_onto : ∀ q0 : Fin 10, ∃ t : Fin cfg5.N, win5_2.index t = ![q0.val, 0] :=
  (by decide +kernel : ∀ q0 : Fin 10, ∃ t : Fin grid5.N, win5_2.index t = ![q0.val, 0])

/-- WHAT POINT t WRITES BACK is its rows of `conv` of the arrays as the region finds them. -/
theorem flushed_eq (c : Dev nD) (t : Fin cfg5.N) :
    (dat5 V c).flushed 2 t = ((cfg5.win 2).blk t).view.read (Elt Ideal) (conv (V c main_v140) (V c main_v141)) := by
  show (cfg5.win 2).cut (grid5.coords t) ((dat5 V c).after 2 t) = _
  rw [after5_2]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  show out5_2 (iblk5 V c 0 t) (iblk5 V c 1 t) (ix2 p q)
    = conv (V c main_v140) (V c main_v141) (((cfg5.win 2).blk t).view.emb (ix2 p q))
  refine (out_apply _ _ p q).trans ?_
  unfold blockVal conv
  refine congrArg lrelu (congrArg acc9 (funext fun k => Finset.sum_congr rfl fun ch _ => ?_))
  have hg : iblk5 V c 0 t (ix3 k p ch) = V c main_v140 (ix3 k ((((cfg5.win 2).blk t).view.emb (ix2 p q)) 0) ch) := by
    show V c main_v140 (((cfg5.win 0).blk t).view.emb (ix3 k p ch)) = _
    congr 1; funext a; apply Fin.ext
    match a with
    | ⟨0, _⟩ => show win5_0.index t (0 : Fin 3) * 9 + 1 * k.val = k.val; omega
    | ⟨1, _⟩ => show win5_0.index t (1 : Fin 3) * 5000 + 1 * p.val = win5_2.index t (0 : Fin 2) * 5000 + 1 * p.val; omega
    | ⟨2, _⟩ => show win5_0.index t (2 : Fin 3) * 64 + 1 * ch.val = ch.val; omega
  have hw : iblk5 V c 1 t (ix3 k ch q) = V c main_v141 (ix3 k ch ((((cfg5.win 2).blk t).view.emb (ix2 p q)) 1)) := by
    show V c main_v141 (((cfg5.win 1).blk t).view.emb (ix3 k ch q)) = _
    congr 1; funext a; apply Fin.ext
    match a with
    | ⟨0, _⟩ => show win5_1.index t (0 : Fin 3) * 9 + 1 * k.val = k.val; omega
    | ⟨1, _⟩ => show win5_1.index t (1 : Fin 3) * 64 + 1 * ch.val = ch.val; omega
    | ⟨2, _⟩ => show win5_1.index t (2 : Fin 3) * 64 + 1 * q.val = win5_2.index t (1 : Fin 2) * 64 + 1 * q.val; omega
  rw [hg, hw]

/-- An index is in point t's block iff its row is in the point's 5000 rows (and its channel among the 64). -/
theorem mem_blk (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v142).slice (win5_2.rect t)).set ↔ _
  rw [View.set_slice_whole, Rect.mem_set_unit]
  exact Iff.rfl

/-- The 25 blocks of 5000 rows tile the 50000 rows: row r is in the block of point r / 5000. -/
theorem cover (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- THE OUTPUT ARRAY after the region: `conv` of the gathered taps and the weights as the region finds them. -/
theorem final (c : Dev nD) : (dat5 V c).arrAt 2 cfg5.N = conv (V c main_v140) (V c main_v141) :=
  (dat5 V c).arrAt_eq_of_cover 2 _ (fun t _ => flushed_eq V c t) cover

end Cert.KernelIdeal.Conv5

end
-- ==== Proof.Region6Body.lean ====
/-
  Region 6 (the first 9-tap convolution, 32 → 64 channels, rows tiled by 5000): what one grid point's body
  leaves in its output block, read at an index.

  The body holds a block x0 of the gathered taps (9 × 5000 × 32) and the weights x1 (9 × 32 × 64). For tap k it
  multiplies the k-th 5000 × 32 slice of x0 by the k-th 32 × 64 slice of x1 on the matrix unit into a zero
  accumulator, adds the nine products in order onto zero, and applies the leaky rectifier. At row p and channel q
  this is  lrelu (acc9 fun k => Σ_c x0[k, p, c] · x1[k, c, q]).
-/
import proofs.«141681_j16750372455151_2_alg».proof.Proof.Gen.KernelIdeal.Frame
import proofs.«141681_j16750372455151_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Conv6

open Idealize.ShloMosaic Idealize.ShloMosaic.TcCoe Idealize.ShloMosaic.ValueIdx
open Cert.KernelIdeal Cert.KernelIdeal.Gen Cert.SparseConv

/-- The matrix product's dimension record: rows × contraction times contraction × columns. -/
abbrev D := dot_S5000x32_S32x64_S5000x64_1_0_0_1_n_n

theorem lhs_row (j : S5000x64.Idx) (s : D.contr.Idx) : (D.lhsIdx j s 0).val = (j 0).val := by
  unfold DotDims.lhsIdx
  rw [dif_neg (show ¬(0 : Fin S5000x32.rank) ∈ D.lhsBatch by decide), dif_pos (show (0 : Fin S5000x32.rank) ∈ D.lhsNonContracting by decide)]
  rfl
theorem lhs_contr (j : S5000x64.Idx) (s : D.contr.Idx) : (D.lhsIdx j s 1).val = (s ⟨0, by decide⟩).val :=
  D.lhsIdx_val_of_single rfl j s
theorem rhs_contr (j : S5000x64.Idx) (s : D.contr.Idx) : (D.rhsIdx j s 0).val = (s ⟨0, by decide⟩).val :=
  D.rhsIdx_val_of_single rfl j s
theorem rhs_col (j : S5000x64.Idx) (s : D.contr.Idx) : (D.rhsIdx j s 1).val = (j 1).val := by
  unfold DotDims.rhsIdx
  rw [dif_neg (show ¬(1 : Fin S32x64.rank) ∈ D.rhsBatch by decide), dif_pos (show (1 : Fin S32x64.rank) ∈ D.rhsNonContracting by decide)]
  rfl

/-- ONE TAP: a 1 × 5000 × 32 slice times a 1 × 32 × 64 slice into a zero accumulator, at (p, q), is the sum over
    the 32 input channels. -/
theorem tap (g : Vec Ideal S1x5000x32 .bf16) (w : Vec Ideal S1x32x64 .bf16) (p : Fin 5000) (q : Fin 64) :
    (matmul (F := Ideal) (φ₁ := .bf16) (φ₂ := .bf16) D none (shapeCast S5000x32 g shapeCasts_S1x5000x32_S5000x32) (shapeCast S32x64 w shapeCasts_S1x32x64_S32x64)
      (constant S5000x64 .f32 0x00000000#32) (ix2 p q) : EReal)
    = ∑ c : Fin 32, (g (ix3 (0 : Fin 1) p c) : EReal) * (w (ix3 (0 : Fin 1) c q) : EReal) := by
  refine (Ideal.matmul_constant_zero_apply D none _ _ (ix2 p q)).trans ?_
  rw [← Equiv.sum_comp (contrEquiv1 D 32 rfl rfl).symm]
  refine Finset.sum_congr rfl fun c _ => ?_
  have hc := contrEquiv1_symm_val D 32 rfl rfl c
  have el : D.lhsIdx (ix2 p q) ((contrEquiv1 D 32 rfl rfl).symm c) = ix2 p c := funext fun a => Fin.ext (by
    match a with
    | ⟨0, _⟩ => exact lhs_row _ _
    | ⟨1, _⟩ => exact (lhs_contr _ _).trans hc)
  have er : D.rhsIdx (ix2 p q) ((contrEquiv1 D 32 rfl rfl).symm c) = ix2 c q := funext fun a => Fin.ext (by
    match a with
    | ⟨0, _⟩ => exact (rhs_contr _ _).trans hc
    | ⟨1, _⟩ => exact rhs_col _ _)
  rw [el, er, shapeCast_1ab_ab_apply, shapeCast_1ab_ab_apply]

/-- Tap k's slice of the gathered block, loaded through its rectangle, read at (0, p, c). -/
theorem ld_g (x0 : Vec Ideal S9x5000x32 .bf16) (k : Fin 9) (inb) (p : Fin 5000) (c : Fin 32) :
    View.ld x0 (Rect.unit (s := S9x5000x32) ![k.val, 0, 0] S1x5000x32.size inb) (ix3 (0 : Fin 1) p c) = x0 (ix3 k p c) := by
  show x0 ((Rect.unit (s := S9x5000x32) ![k.val, 0, 0] S1x5000x32.size inb).idx (ix3 (0 : Fin 1) p c)) = _
  congr 1
  funext a
  match a with
  | ⟨0, _⟩ => exact Fin.ext (by show k.val + 1 * 0 = k.val; omega)
  | ⟨1, _⟩ => exact Fin.ext (by show 0 + 1 * p.val = p.val; omega)
  | ⟨2, _⟩ => exact Fin.ext (by show 0 + 1 * c.val = c.val; omega)

/-- Tap k's slice of the weights, loaded through its rectangle, read at (0, c, q). -/
theorem ld_w (x1 : Vec Ideal S9x32x64 .bf16) (k : Fin 9) (inb) (c : Fin 32) (q : Fin 64) :
    View.ld x1 (Rect.unit (s := S9x32x64) ![k.val, 0, 0] S1x32x64.size inb) (ix3 (0 : Fin 1) c q) = x1 (ix3 k c q) := by
  show x1 ((Rect.unit (s := S9x32x64) ![k.val, 0, 0] S1x32x64.size inb).idx (ix3 (0 : Fin 1) c q)) = _
  congr 1
  funext a
  match a with
  | ⟨0, _⟩ => exact Fin.ext (by show k.val + 1 * 0 = k.val; omega)
  | ⟨1, _⟩ => exact Fin.ext (by show 0 + 1 * c.val = c.val; omega)
  | ⟨2, _⟩ => exact Fin.ext (by show 0 + 1 * q.val = q.val; omega)

/-- Tap k of the block at (p, q): the product of the loaded slices is the sum over the input channels of the
    block's own entries. -/
theorem tap_ld (x0 : Vec Ideal S9x5000x32 .bf16) (x1 : Vec Ideal S9x32x64 .bf16) (k : Fin 9) (inb0) (inb1)
    (p : Fin 5000) (q : Fin 64) :
    (matmul (F := Ideal) (φ₁ := .bf16) (φ₂ := .bf16) D none
      (shapeCast S5000x32 (View.ld x0 (Rect.unit (s := S9x5000x32) ![k.val, 0, 0] S1x5000x32.size inb0)) shapeCasts_S1x5000x32_S5000x32)
      (shapeCast S32x64 (View.ld x1 (Rect.unit (s := S9x32x64) ![k.val, 0, 0] S1x32x64.size inb1)) shapeCasts_S1x32x64_S32x64)
      (constant S5000x64 .f32 0x00000000#32) (ix2 p q) : EReal)
    = ∑ c : Fin 32, (x0 (ix3 k p c) : EReal) * (x1 (ix3 k c q) : EReal) := by
  refine (tap _ _ p q).trans (Finset.sum_congr rfl fun c _ => ?_)
  rw [ld_g x0 k inb0 p c, ld_w x1 k inb1 c q]

/-- The conv's value at (p, q) from a block of taps and the weights. -/
def blockVal (x0 : Vec Ideal S9x5000x32 .bf16) (x1 : Vec Ideal S9x32x64 .bf16) (p : Fin 5000) (q : Fin 64) : EReal :=
  lrelu (acc9 fun k => ∑ c : Fin 32, (x0 (ix3 k p c) : EReal) * (x1 (ix3 k c q) : EReal))

/-- The rectifier as the body spells it — compare with zero, multiply by the slope, select — at an index. -/
theorem lrelu_apply (A : FVec Ideal S5000x64 .f32) (i : S5000x64.Idx) :
    select (cmpf .oge A (broadcast S5000x64 (FloatOps.ofBits .f32 0x00000000#32))) A
      (mulf (broadcast S5000x64 (FloatOps.ofBits .f32 0x3C23D70A#32)) A) i = lrelu (A i) := rfl

/-- Nine arrays added in order onto the broadcast zero, at an index. -/
theorem acc9_apply (m0 m1 m2 m3 m4 m5 m6 m7 m8 : FVec Ideal S5000x64 .f32) (i : S5000x64.Idx) :
    addf (addf (addf (addf (addf (addf (addf (addf (addf (broadcast S5000x64 (FloatOps.ofBits .f32 0x00000000#32)) m0) m1) m2) m3) m4) m5) m6) m7) m8 i
      = acc9 ![m0 i, m1 i, m2 i, m3 i, m4 i, m5 i, m6 i, m7 i, m8 i] := rfl

theorem hz2 : (![0, 0] : Fin 2 → Nat) = fun _ => 0 := funext fun a => by fin_cases a <;> rfl

/-- WHAT THE BODY LEAVES in its output block, at (p, q). -/
theorem out_apply (x0 : Vec Ideal S9x5000x32 .bf16) (x1 : Vec Ideal S9x32x64 .bf16) (p : Fin 5000) (q : Fin 64) :
    out6_2 (F := Ideal) x0 x1 (ix2 p q) = blockVal x0 x1 p q := by
  unfold out6_2
  rw [View.canon_unit_zero hz2]
  unfold k6_pay1 k6_pay4 k6_pay2 k6_pay3
  dsimp only
  refine (lrelu_apply _ (ix2 p q)).trans (congrArg lrelu ?_)
  refine (acc9_apply _ _ _ _ _ _ _ _ _ (ix2 p q)).trans (congrArg acc9 (funext fun k => ?_))
  fin_cases k
  · exact tap_ld x0 x1 0 _ _ p q
  · exact tap_ld x0 x1 1 _ _ p q
  · exact tap_ld x0 x1 2 _ _ p q
  · exact tap_ld x0 x1 3 _ _ p q
  · exact tap_ld x0 x1 4 _ _ p q
  · exact tap_ld x0 x1 5 _ _ p q
  · exact tap_ld x0 x1 6 _ _ p q
  · exact tap_ld x0 x1 7 _ _ p q
  · exact tap_ld x0 x1 8 _ _ p q

end Cert.KernelIdeal.Conv6

end
-- ==== Proof.Region6Array.lean ====
/-
  Region 6: from what each grid point writes back to the whole output array.

  The grid has 10 points; point t stages rows 5000·t … 5000·t + 4999 of the gathered taps (all nine taps, all 32
  channels), the whole weight table, and writes back rows 5000·t … 5000·t + 4999 of the output. So the block a
  point writes is the restriction to its rows of ONE function of the two arrays as the region finds them,
      conv G Wt (i, o) = lrelu (acc9 fun k => Σ_c G[k, i, c] · Wt[k, c, o]),
  the 10 row ranges tile the 50000 rows, and the output array ends at that function.
-/
import proofs.«141681_j16750372455151_2_alg».proof.Proof.Region6Body

set_option maxRecDepth 16384

noncomputable section

namespace Cert.KernelIdeal.Conv6

open Idealize.ShloMosaic Idealize.ShloMosaic.TcCoe Idealize.ShloMosaic.ValueIdx
open Idealize.ShloMosaic.Pipeline (Dat)
open Cert.KernelIdeal Cert.KernelIdeal.Gen Cert.SparseConv

variable (V : (c : Dev nD) → (b : Ref sig .tc) → Buf (Elt Ideal) ((c : Thread nD τ).loc b))

/-- The convolution as one function of the gathered taps and the weights. -/
def conv (G : Vec Ideal S9x50000x32 .bf16) (Wt : Vec Ideal S9x32x64 .bf16) : Vec Ideal S50000x64 .f32 :=
  fun i => lrelu (acc9 fun k => ∑ ch : Fin 32, (G (ix3 k (i 0) ch) : EReal) * (Wt (ix3 k ch (i 1)) : EReal))

/-- The three index maps over the 10 grid points: the taps' block moves with the output's along the rows and sits
    at zero elsewhere; the weights' block never moves. -/
theorem idx_facts : ∀ t : Fin cfg6.N,
    win6_0.index t (0 : Fin 3) = 0 ∧ win6_0.index t (1 : Fin 3) = win6_2.index t (0 : Fin 2) ∧ win6_0.index t (2 : Fin 3) = 0
    ∧ win6_1.index t (0 : Fin 3) = 0 ∧ win6_1.index t (1 : Fin 3) = 0 ∧ win6_1.index t (2 : Fin 3) = 0
    ∧ win6_2.index t (0 : Fin 2) ≤ 9 ∧ win6_2.index t (1 : Fin 2) = 0 :=
  (by decide +kernel : ∀ t : Fin grid6.N, _)

/-- Every block of rows is some point's. -/
theorem idx_onto : ∀ q0 : Fin 10, ∃ t : Fin cfg6.N, win6_2.index t = ![q0.val, 0] :=
  (by decide +kernel : ∀ q0 : Fin 10, ∃ t : Fin grid6.N, win6_2.index t = ![q0.val, 0])

/-- WHAT POINT t WRITES BACK is its rows of `conv` of the arrays as the region finds them. -/
theorem flushed_eq (c : Dev nD) (t : Fin cfg6.N) :
    (dat6 V c).flushed 2 t = ((cfg6.win 2).blk t).view.read (Elt Ideal) (conv (V c main_v165) (V c main_v166)) := by
  show (cfg6.win 2).cut (grid6.coords t) ((dat6 V c).after 2 t) = _
  rw [after6_2]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  show out6_2 (iblk6 V c 0 t) (iblk6 V c 1 t) (ix2 p q)
    = conv (V c main_v165) (V c main_v166) (((cfg6.win 2).blk t).view.emb (ix2 p q))
  refine (out_apply _ _ p q).trans ?_
  unfold blockVal conv
  refine congrArg lrelu (congrArg acc9 (funext fun k => Finset.sum_congr rfl fun ch _ => ?_))
  have hg : iblk6 V c 0 t (ix3 k p ch) = V c main_v165 (ix3 k ((((cfg6.win 2).blk t).view.emb (ix2 p q)) 0) ch) := by
    show V c main_v165 (((cfg6.win 0).blk t).view.emb (ix3 k p ch)) = _
    congr 1; funext a; apply Fin.ext
    match a with
    | ⟨0, _⟩ => show win6_0.index t (0 : Fin 3) * 9 + 1 * k.val = k.val; omega
    | ⟨1, _⟩ => show win6_0.index t (1 : Fin 3) * 5000 + 1 * p.val = win6_2.index t (0 : Fin 2) * 5000 + 1 * p.val; omega
    | ⟨2, _⟩ => show win6_0.index t (2 : Fin 3) * 32 + 1 * ch.val = ch.val; omega
  have hw : iblk6 V c 1 t (ix3 k ch q) = V c main_v166 (ix3 k ch ((((cfg6.win 2).blk t).view.emb (ix2 p q)) 1)) := by
    show V c main_v166 (((cfg6.win 1).blk t).view.emb (ix3 k ch q)) = _
    congr 1; funext a; apply Fin.ext
    match a with
    | ⟨0, _⟩ => show win6_1.index t (0 : Fin 3) * 9 + 1 * k.val = k.val; omega
    | ⟨1, _⟩ => show win6_1.index t (1 : Fin 3) * 32 + 1 * ch.val = ch.val; omega
    | ⟨2, _⟩ => show win6_1.index t (2 : Fin 3) * 64 + 1 * q.val = win6_2.index t (1 : Fin 2) * 64 + 1 * q.val; omega
  rw [hg, hw]

/-- An index is in point t's block iff its row is in the point's 5000 rows (and its channel among the 64). -/
theorem mem_blk (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v167).slice (win6_2.rect t)).set ↔ _
  rw [View.set_slice_whole, Rect.mem_set_unit]
  exact Iff.rfl

/-- The 25 blocks of 5000 rows tile the 50000 rows: row r is in the block of point r / 5000. -/
theorem cover (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht⟩ := idx_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- THE OUTPUT ARRAY after the region: `conv` of the gathered taps and the weights as the region finds them. -/
theorem final (c : Dev nD) : (dat6 V c).arrAt 2 cfg6.N = conv (V c main_v165) (V c main_v166) :=
  (dat6 V c).arrAt_eq_of_cover 2 _ (fun t _ => flushed_eq V c t) cover

end Cert.KernelIdeal.Conv6

end
-- ==== Proof.Region7Body.lean ====
/-
  Region 7 (the first 9-tap convolution, 64 → 64 channels, rows tiled by 5000): what one grid point's body
  leaves in its output block, read at an index.

  The body holds a block x0 of the gathered taps (9 × 5000 × 64) and the weights x1 (9 × 64 × 64). For tap k it
  multiplies the k-th 5000 × 64 slice of x0 by the k-th 64 × 64 slice of x1 on the matrix unit into a zero
  accumulator, adds the nine products in order onto zero, and applies the leaky rectifier. At row p and channel q
  this is  lrelu (acc9 fun k => Σ_c x0[k, p, c] · x1[k, c, q]).
-/
import proofs.«141681_j16750372455151_2_alg».proof.Proof.Gen.KernelIdeal.Frame
import proofs.«141681_j16750372455151_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Conv7

open Idealize.ShloMosaic Idealize.ShloMosaic.TcCoe Idealize.ShloMosaic.ValueIdx
open Cert.KernelIdeal Cert.KernelIdeal.Gen Cert.SparseConv

/-- The matrix product's dimension record: rows × contraction times contraction × columns. -/
abbrev D := dot_S5000x64_S64x64_S5000x64_1_0_0_1_n_n

theorem lhs_row (j : S5000x64.Idx) (s : D.contr.Idx) : (D.lhsIdx j s 0).val = (j 0).val := by
  unfold DotDims.lhsIdx
  rw [dif_neg (show ¬(0 : Fin S5000x64.rank) ∈ D.lhsBatch by decide), dif_pos (show (0 : Fin S5000x64.rank) ∈ D.lhsNonContracting by decide)]
  rfl
theorem lhs_contr (j : S5000x64.Idx) (s : D.contr.Idx) : (D.lhsIdx j s 1).val = (s ⟨0, by decide⟩).val :=
  D.lhsIdx_val_of_single rfl j s
theorem rhs_contr (j : S5000x64.Idx) (s : D.contr.Idx) : (D.rhsIdx j s 0).val = (s ⟨0, by decide⟩).val :=
  D.rhsIdx_val_of_single rfl j s
theorem rhs_col (j : S5000x64.Idx) (s : D.contr.Idx) : (D.rhsIdx j s 1).val = (j 1).val := by
  unfold DotDims.rhsIdx
  rw [dif_neg (show ¬(1 : Fin S64x64.rank) ∈ D.rhsBatch by decide), dif_pos (show (1 : Fin S64x64.rank) ∈ D.rhsNonContracting by decide)]
  rfl

/-- ONE TAP: a 1 × 5000 × 64 slice times a 1 × 64 × 64 slice into a zero accumulator, at (p, q), is the sum over
    the 64 input channels. -/
theorem tap (g : Vec Ideal S1x5000x64 .bf16) (w : Vec Ideal S1x64x64 .bf16) (p : Fin 5000) (q : Fin 64) :
    (matmul (F := Ideal) (φ₁ := .bf16) (φ₂ := .bf16) D none (shapeCast S5000x64 g shapeCasts_S1x5000x64_S5000x64) (shapeCast S64x64 w shapeCasts_S1x64x64_S64x64)
      (constant S5000x64 .f32 0x00000000#32) (ix2 p q) : EReal)
    = ∑ c : Fin 64, (g (ix3 (0 : Fin 1) p c) : EReal) * (w (ix3 (0 : Fin 1) c q) : EReal) := by
  refine (Ideal.matmul_constant_zero_apply D none _ _ (ix2 p q)).trans ?_
  rw [← Equiv.sum_comp (contrEquiv1 D 64 rfl rfl).symm]
  refine Finset.sum_congr rfl fun c _ => ?_
  have hc := contrEquiv1_symm_val D 64 rfl rfl c
  have el : D.lhsIdx (ix2 p q) ((contrEquiv1 D 64 rfl rfl).symm c) = ix2 p c := funext fun a => Fin.ext (by
    match a with
    | ⟨0, _⟩ => exact lhs_row _ _
    | ⟨1, _⟩ => exact (lhs_contr _ _).trans hc)
  have er : D.rhsIdx (ix2 p q) ((contrEquiv1 D 64 rfl rfl).symm c) = ix2 c q := funext fun a => Fin.ext (by
    match a with
    | ⟨0, _⟩ => exact (rhs_contr _ _).trans hc
    | ⟨1, _⟩ => exact rhs_col _ _)
  rw [el, er, shapeCast_1ab_ab_apply, shapeCast_1ab_ab_apply]

/-- Tap k's slice of the gathered block, loaded through its rectangle, read at (0, p, c). -/
theorem ld_g (x0 : Vec Ideal S9x5000x64 .bf16) (k : Fin 9) (inb) (p : Fin 5000) (c : Fin 64) :
    View.ld x0 (Rect.unit (s := S9x5000x64) ![k.val, 0, 0] S1x5000x64.size inb) (ix3 (0 : Fin 1) p c) = x0 (ix3 k p c) := by
  show x0 ((Rect.unit (s := S9x5000x64) ![k.val, 0, 0] S1x5000x64.size inb).idx (ix3 (0 : Fin 1) p c)) = _
  congr 1
  funext a
  match a with
  | ⟨0, _⟩ => exact Fin.ext (by show k.val + 1 * 0 = k.val; omega)
  | ⟨1, _⟩ => exact Fin.ext (by show 0 + 1 * p.val = p.val; omega)
  | ⟨2, _⟩ => exact Fin.ext (by show 0 + 1 * c.val = c.val; omega)

/-- Tap k's slice of the weights, loaded through its rectangle, read at (0, c, q). -/
theorem ld_w (x1 : Vec Ideal S9x64x64 .bf16) (k : Fin 9) (inb) (c : Fin 64) (q : Fin 64) :
    View.ld x1 (Rect.unit (s := S9x64x64) ![k.val, 0, 0] S1x64x64.size inb) (ix3 (0 : Fin 1) c q) = x1 (ix3 k c q) := by
  show x1 ((Rect.unit (s := S9x64x64) ![k.val, 0, 0] S1x64x64.size inb).idx (ix3 (0 : Fin 1) c q)) = _
  congr 1
  funext a
  match a with
  | ⟨0, _⟩ => exact Fin.ext (by show k.val + 1 * 0 = k.val; omega)
  | ⟨1, _⟩ => exact Fin.ext (by show 0 + 1 * c.val = c.val; omega)
  | ⟨2, _⟩ => exact Fin.ext (by show 0 + 1 * q.val = q.val; omega)

/-- Tap k of the block at (p, q): the product of the loaded slices is the sum over the input channels of the
    block's own entries. -/
theorem tap_ld (x0 : Vec Ideal S9x5000x64 .bf16) (x1 : Vec Ideal S9x64x64 .bf16) (k : Fin 9) (inb0) (inb1)
    (p : Fin 5000) (q : Fin 64) :
    (matmul (F := Ideal) (φ₁ := .bf16) (φ₂ := .bf16) D none
      (shapeCast S5000x64 (View.ld x0 (Rect.unit (s := S9x5000x64) ![k.val, 0, 0] S1x5000x64.size inb0)) shapeCasts_S1x5000x64_S5000x64)
      (shapeCast S64x64 (View.ld x1 (Rect.unit (s := S9x64x64) ![k.val, 0, 0] S1x64x64.size inb1)) shapeCasts_S1x64x64_S64x64)
      (constant S5000x64 .f32 0x00000000#32) (ix2 p q) : EReal)
    = ∑ c : Fin 64, (x0 (ix3 k p c) : EReal) * (x1 (ix3 k c q) : EReal) := by
  refine (tap _ _ p q).trans (Finset.sum_congr rfl fun c _ => ?_)
  rw [ld_g x0 k inb0 p c, ld_w x1 k inb1 c q]

/-- The conv's value at (p, q) from a block of taps and the weights. -/
def blockVal (x0 : Vec Ideal S9x5000x64 .bf16) (x1 : Vec Ideal S9x64x64 .bf16) (p : Fin 5000) (q : Fin 64) : EReal :=
  lrelu (acc9 fun k => ∑ c : Fin 64, (x0 (ix3 k p c) : EReal) * (x1 (ix3 k c q) : EReal))

/-- The rectifier as the body spells it — compare with zero, multiply by the slope, select — at an index. -/
theorem lrelu_apply (A : FVec Ideal S5000x64 .f32) (i : S5000x64.Idx) :
    select (cmpf .oge A (broadcast S5000x64 (FloatOps.ofBits .f32 0x00000000#32))) A
      (mulf (broadcast S5000x64 (FloatOps.ofBits .f32 0x3C23D70A#32)) A) i = lrelu (A i) := rfl

/-- Nine arrays added in order onto the broadcast zero, at an index. -/
theorem acc9_apply (m0 m1 m2 m3 m4 m5 m6 m7 m8 : FVec Ideal S5000x64 .f32) (i : S5000x64.Idx) :
    addf (addf (addf (addf (addf (addf (addf (addf (addf (broadcast S5000x64 (FloatOps.ofBits .f32 0x00000000#32)) m0) m1) m2) m3) m4) m5) m6) m7) m8 i
      = acc9 ![m0 i, m1 i, m2 i, m3 i, m4 i, m5 i, m6 i, m7 i, m8 i] := rfl

theorem hz2 : (![0, 0] : Fin 2 → Nat) = fun _ => 0 := funext fun a => by fin_cases a <;> rfl

/-- WHAT THE BODY LEAVES in its output block, at (p, q). -/
theorem out_apply (x0 : Vec Ideal S9x5000x64 .bf16) (x1 : Vec Ideal S9x64x64 .bf16) (p : Fin 5000) (q : Fin 64) :
    out7_2 (F := Ideal) x0 x1 (ix2 p q) = blockVal x0 x1 p q := by
  unfold out7_2
  rw [View.canon_unit_zero hz2]
  unfold k7_pay1 k7_pay4 k7_pay2 k7_pay3
  dsimp only
  refine (lrelu_apply _ (ix2 p q)).trans (congrArg lrelu ?_)
  refine (acc9_apply _ _ _ _ _ _ _ _ _ (ix2 p q)).trans (congrArg acc9 (funext fun k => ?_))
  fin_cases k
  · exact tap_ld x0 x1 0 _ _ p q
  · exact tap_ld x0 x1 1 _ _ p q
  · exact tap_ld x0 x1 2 _ _ p q
  · exact tap_ld x0 x1 3 _ _ p q
  · exact tap_ld x0 x1 4 _ _ p q
  · exact tap_ld x0 x1 5 _ _ p q
  · exact tap_ld x0 x1 6 _ _ p q
  · exact tap_ld x0 x1 7 _ _ p q
  · exact tap_ld x0 x1 8 _ _ p q

end Cert.KernelIdeal.Conv7

end
-- ==== Proof.Region7Array.lean ====
/-
  Region 7: from what each grid point writes back to the whole output array.

  The grid has 10 points; point t stages rows 5000·t … 5000·t + 4999 of the gathered taps (all nine taps, all 64
  channels), the whole weight table, and writes back rows 5000·t … 5000·t + 4999 of the output. So the block a
  point writes is the restriction to its rows of ONE function of the two arrays as the region finds them,
      conv G Wt (i, o) = lrelu (acc9 fun k => Σ_c G[k, i, c] · Wt[k, c, o]),
  the 10 row ranges tile the 50000 rows, and the output array ends at that function.
-/
import proofs.«141681_j16750372455151_2_alg».proof.Proof.Region7Body

set_option maxRecDepth 16384

noncomputable section

namespace Cert.KernelIdeal.Conv7

open Idealize.ShloMosaic Idealize.ShloMosaic.TcCoe Idealize.ShloMosaic.ValueIdx
open Idealize.ShloMosaic.Pipeline (Dat)
open Cert.KernelIdeal Cert.KernelIdeal.Gen Cert.SparseConv

variable (V : (c : Dev nD) → (b : Ref sig .tc) → Buf (Elt Ideal) ((c : Thread nD τ).loc b))

/-- The convolution as one function of the gathered taps and the weights. -/
def conv (G : Vec Ideal S9x50000x64 .bf16) (Wt : Vec Ideal S9x64x64 .bf16) : Vec Ideal S50000x64 .f32 :=
  fun i => lrelu (acc9 fun k => ∑ ch : Fin 64, (G (ix3 k (i 0) ch) : EReal) * (Wt (ix3 k ch (i 1)) : EReal))

/-- The three index maps over the 10 grid points: the taps' block moves with the output's along the rows and sits
    at zero elsewhere; the weights' block never moves. -/
theorem idx_facts : ∀ t : Fin cfg7.N,
    win7_0.index t (0 : Fin 3) = 0 ∧ win7_0.index t (1 : Fin 3) = win7_2.index t (0 : Fin 2) ∧ win7_0.index t (2 : Fin 3) = 0
    ∧ win7_1.index t (0 : Fin 3) = 0 ∧ win7_1.index t (1 : Fin 3) = 0 ∧ win7_1.index t (2 : Fin 3) = 0
    ∧ win7_2.index t (0 : Fin 2) ≤ 9 ∧ win7_2.index t (1 : Fin 2) = 0 :=
  (by decide +kernel : ∀ t : Fin grid7.N, _)

/-- Every block of rows is some point's. -/
theorem idx_onto : ∀ q0 : Fin 10, ∃ t : Fin cfg7.N, win7_2.index t = ![q0.val, 0] :=
  (by decide +kernel : ∀ q0 : Fin 10, ∃ t : Fin grid7.N, win7_2.index t = ![q0.val, 0])

/-- WHAT POINT t WRITES BACK is its rows of `conv` of the arrays as the region finds them. -/
theorem flushed_eq (c : Dev nD) (t : Fin cfg7.N) :
    (dat7 V c).flushed 2 t = ((cfg7.win 2).blk t).view.read (Elt Ideal) (conv (V c main_v191) (V c main_v192)) := by
  show (cfg7.win 2).cut (grid7.coords t) ((dat7 V c).after 2 t) = _
  rw [after7_2]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  show out7_2 (iblk7 V c 0 t) (iblk7 V c 1 t) (ix2 p q)
    = conv (V c main_v191) (V c main_v192) (((cfg7.win 2).blk t).view.emb (ix2 p q))
  refine (out_apply _ _ p q).trans ?_
  unfold blockVal conv
  refine congrArg lrelu (congrArg acc9 (funext fun k => Finset.sum_congr rfl fun ch _ => ?_))
  have hg : iblk7 V c 0 t (ix3 k p ch) = V c main_v191 (ix3 k ((((cfg7.win 2).blk t).view.emb (ix2 p q)) 0) ch) := by
    show V c main_v191 (((cfg7.win 0).blk t).view.emb (ix3 k p ch)) = _
    congr 1; funext a; apply Fin.ext
    match a with
    | ⟨0, _⟩ => show win7_0.index t (0 : Fin 3) * 9 + 1 * k.val = k.val; omega
    | ⟨1, _⟩ => show win7_0.index t (1 : Fin 3) * 5000 + 1 * p.val = win7_2.index t (0 : Fin 2) * 5000 + 1 * p.val; omega
    | ⟨2, _⟩ => show win7_0.index t (2 : Fin 3) * 64 + 1 * ch.val = ch.val; omega
  have hw : iblk7 V c 1 t (ix3 k ch q) = V c main_v192 (ix3 k ch ((((cfg7.win 2).blk t).view.emb (ix2 p q)) 1)) := by
    show V c main_v192 (((cfg7.win 1).blk t).view.emb (ix3 k ch q)) = _
    congr 1; funext a; apply Fin.ext
    match a with
    | ⟨0, _⟩ => show win7_1.index t (0 : Fin 3) * 9 + 1 * k.val = k.val; omega
    | ⟨1, _⟩ => show win7_1.index t (1 : Fin 3) * 64 + 1 * ch.val = ch.val; omega
    | ⟨2, _⟩ => show win7_1.index t (2 : Fin 3) * 64 + 1 * q.val = win7_2.index t (1 : Fin 2) * 64 + 1 * q.val; omega
  rw [hg, hw]

/-- An index is in point t's block iff its row is in the point's 5000 rows (and its channel among the 64). -/
theorem mem_blk (t : Fin cfg7.N) (i : S50000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v193).slice (win7_2.rect t)).set ↔ _
  rw [View.set_slice_whole, Rect.mem_set_unit]
  exact Iff.rfl

/-- The 25 blocks of 5000 rows tile the 50000 rows: row r is in the block of point r / 5000. -/
theorem cover (i : S50000x64.Idx) : ∃ t : Fin cfg7.N, (cfg7.win 2).flush t = true ∧ i ∈ ((cfg7.win 2).blk t).view.set := by
  have hi0 : (i 0).val < 50000 := (i 0).isLt
  have hi1 : (i 1).val < 64 := (i 1).isLt
  obtain ⟨t, ht⟩ := idx_onto ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- THE OUTPUT ARRAY after the region: `conv` of the gathered taps and the weights as the region finds them. -/
theorem final (c : Dev nD) : (dat7 V c).arrAt 2 cfg7.N = conv (V c main_v191) (V c main_v192) :=
  (dat7 V c).arrAt_eq_of_cover 2 _ (fun t _ => flushed_eq V c t) cover

end Cert.KernelIdeal.Conv7

end
-- ==== Proof.KChainB.lean ====
/-
  The idealized kernel's values along its run, second half: the four 64-channel convolutions of the second residual
  stage, each batch-normalised, the two branches summed.
-/
import proofs.«141681_j16750372455151_2_alg».proof.Proof.KChainA
import proofs.«141681_j16750372455151_2_alg».proof.Proof.KStretch5
import proofs.«141681_j16750372455151_2_alg».proof.Proof.KStretch6
import proofs.«141681_j16750372455151_2_alg».proof.Proof.KStretch7
import proofs.«141681_j16750372455151_2_alg».proof.Proof.Region4Array
import proofs.«141681_j16750372455151_2_alg».proof.Proof.Region5Array
import proofs.«141681_j16750372455151_2_alg».proof.Proof.Region6Array
import proofs.«141681_j16750372455151_2_alg».proof.Proof.Region7Array

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

variable (m : (ℓ : Loc nD τ sig) → Buf (Elt Ideal) ℓ) (ρ : Dev nD → PrngReg)

def kc5 (c : Dev nD) : FVec Ideal S50000x64 .f32 := Conv4.conv (tapsB32 (tr (kx1 m c)) (m ((c : Thread nD τ).loc main_arg11))) (tr (m ((c : Thread nD τ).loc main_arg5)))
def ks3 (c : Dev nD) : FVec Ideal S50000x64 .f32 := bn64 (kc5 m c)
def kc6 (c : Dev nD) : FVec Ideal S50000x64 .f32 := Conv5.conv (tapsB64 (tr (ks3 m c)) (m ((c : Thread nD τ).loc main_arg10))) (tr (m ((c : Thread nD τ).loc main_arg6)))
def ks4 (c : Dev nD) : FVec Ideal S50000x64 .f32 := bn64 (kc6 m c)
def kc7 (c : Dev nD) : FVec Ideal S50000x64 .f32 := Conv6.conv (tapsB32 (tr (kx1 m c)) (m ((c : Thread nD τ).loc main_arg10))) (tr (m ((c : Thread nD τ).loc main_arg7)))
def kr3 (c : Dev nD) : FVec Ideal S50000x64 .f32 := bn64 (kc7 m c)
def kc8 (c : Dev nD) : FVec Ideal S50000x64 .f32 := Conv7.conv (tapsB64 (tr (kr3 m c)) (m ((c : Thread nD τ).loc main_arg11))) (tr (m ((c : Thread nD τ).loc main_arg8)))
def kr4 (c : Dev nD) : FVec Ideal S50000x64 .f32 := bn64 (kc8 m c)
def kA (c : Dev nD) : FVec Ideal S50000x64 .f32 := addf (kr4 m c) (ks4 m c)

theorem A17 (c : Dev nD) : ∀ b ∈ Keep.kargRefs, W17 m ρ c (Proc.devRef .tc b) = m ((c : Thread nD τ).loc b) :=
  fun b hb => ((Keep.keeps_hostOps4_2 _ b hb).trans ((Keep.keeps_hostOps4_1 _ b hb).trans (Keep.keeps_hostOps4 _ b hb))).trans (A14 m ρ c b hb)

theorem arrIdx4 : ∀ w : Fin cfg4.W, 13 ≤ (Pipeline.arrRef spec4 w).idx.val := by decide
theorem reg4_keep (c : Dev nD) : ∀ b ∈ Keep.kargRefs, W18 m ρ c (Proc.devRef .tc b) = W17 m ρ c (Proc.devRef .tc b) :=
  fun b hb => W18_of_ne m ρ c b (fun w e => by have h1 := Keep.arg_idx_lt b hb; have h2 := arrIdx4 w; rw [e] at h2; omega)
theorem A18 (c : Dev nD) : ∀ b ∈ Keep.kargRefs, W18 m ρ c (Proc.devRef .tc b) = m ((c : Thread nD τ).loc b) :=
  fun b hb => (reg4_keep m ρ c b hb).trans (A17 m ρ c b hb)

theorem A21 (c : Dev nD) : ∀ b ∈ Keep.kargRefs, W21 m ρ c (Proc.devRef .tc b) = m ((c : Thread nD τ).loc b) :=
  fun b hb => ((Keep.keeps_hostOps5_2 _ b hb).trans ((Keep.keeps_hostOps5_1 _ b hb).trans (Keep.keeps_hostOps5 _ b hb))).trans (A18 m ρ c b hb)

theorem arrIdx5 : ∀ w : Fin cfg5.W, 13 ≤ (Pipeline.arrRef spec5 w).idx.val := by decide
theorem reg5_keep (c : Dev nD) : ∀ b ∈ Keep.kargRefs, W22 m ρ c (Proc.devRef .tc b) = W21 m ρ c (Proc.devRef .tc b) :=
  fun b hb => W22_of_ne m ρ c b (fun w e => by have h1 := Keep.arg_idx_lt b hb; have h2 := arrIdx5 w; rw [e] at h2; omega)
theorem A22 (c : Dev nD) : ∀ b ∈ Keep.kargRefs, W22 m ρ c (Proc.devRef .tc b) = m ((c : Thread nD τ).loc b) :=
  fun b hb => (reg5_keep m ρ c b hb).trans (A21 m ρ c b hb)

theorem A25 (c : Dev nD) : ∀ b ∈ Keep.kargRefs, W25 m ρ c (Proc.devRef .tc b) = m ((c : Thread nD τ).loc b) :=
  fun b hb => ((Keep.keeps_hostOps6_2 _ b hb).trans ((Keep.keeps_hostOps6_1 _ b hb).trans (Keep.keeps_hostOps6 _ b hb))).trans (A22 m ρ c b hb)

theorem arrIdx6 : ∀ w : Fin cfg6.W, 13 ≤ (Pipeline.arrRef spec6 w).idx.val := by decide
theorem reg6_keep (c : Dev nD) : ∀ b ∈ Keep.kargRefs, W26 m ρ c (Proc.devRef .tc b) = W25 m ρ c (Proc.devRef .tc b) :=
  fun b hb => W26_of_ne m ρ c b (fun w e => by have h1 := Keep.arg_idx_lt b hb; have h2 := arrIdx6 w; rw [e] at h2; omega)
theorem A26 (c : Dev nD) : ∀ b ∈ Keep.kargRefs, W26 m ρ c (Proc.devRef .tc b) = m ((c : Thread nD τ).loc b) :=
  fun b hb => (reg6_keep m ρ c b hb).trans (A25 m ρ c b hb)

theorem A29 (c : Dev nD) : ∀ b ∈ Keep.kargRefs, W29 m ρ c (Proc.devRef .tc b) = m ((c : Thread nD τ).loc b) :=
  fun b hb => ((Keep.keeps_hostOps7_2 _ b hb).trans ((Keep.keeps_hostOps7_1 _ b hb).trans (Keep.keeps_hostOps7 _ b hb))).trans (A26 m ρ c b hb)

theorem arrIdx7 : ∀ w : Fin cfg7.W, 13 ≤ (Pipeline.arrRef spec7 w).idx.val := by decide
theorem reg7_keep (c : Dev nD) : ∀ b ∈ Keep.kargRefs, W30 m ρ c (Proc.devRef .tc b) = W29 m ρ c (Proc.devRef .tc b) :=
  fun b hb => W30_of_ne m ρ c b (fun w e => by have h1 := Keep.arg_idx_lt b hb; have h2 := arrIdx7 w; rw [e] at h2; omega)
theorem A30 (c : Dev nD) : ∀ b ∈ Keep.kargRefs, W30 m ρ c (Proc.devRef .tc b) = m ((c : Thread nD τ).loc b) :=
  fun b hb => (reg7_keep m ρ c b hb).trans (A29 m ρ c b hb)

/-! ## Region 4: the fifth convolution, on the first residual sum -/

theorem T17_taps (c : Dev nD) : (V17 m ρ c main_v114 : S9x50000x32.Idx → EReal) = tapsB32 (tr (kx1 m c)) (m ((c : Thread nD τ).loc main_arg11)) := by
  refine (s4_taps (W14 m ρ c)).trans ?_
  rw [T14 m ρ c, T14_s m ρ c, A14 m ρ c main_arg11 (by simp [Keep.kargRefs])]
  rfl
theorem T17_w (c : Dev nD) : (V17 m ρ c main_v115 : S9x32x64.Idx → EReal) = tr (m ((c : Thread nD τ).loc main_arg5)) := by
  refine (s4_w (W14 m ρ c)).trans ?_
  rw [A14 m ρ c main_arg5 (by simp [Keep.kargRefs])]
theorem T17_x (c : Dev nD) : (W17 m ρ c (Proc.devRef .tc main_v104) : S50000x32.Idx → EReal) = tr (kx1 m c) := by
  refine (s4_x (W14 m ρ c)).trans ?_
  rw [T14 m ρ c, T14_s m ρ c]
  rfl
theorem T18 (c : Dev nD) : (W18 m ρ c (Proc.devRef .tc main_v116) : S50000x64.Idx → EReal) = kc5 m c := by
  refine (W18_arr m ρ c 2).trans ?_
  rw [Conv4.final (V17 m ρ) c]
  exact congrArg₂ Conv4.conv (T17_taps m ρ c) (T17_w m ρ c)
theorem T18_x (c : Dev nD) : (W18 m ρ c (Proc.devRef .tc main_v104) : S50000x32.Idx → EReal) = tr (kx1 m c) :=
  (W18_of_ne m ρ c main_v104 (by decide)).trans (T17_x m ρ c)

/-! ## Region 5: the sixth convolution -/

theorem T21_taps (c : Dev nD) : (V21 m ρ c main_v140 : S9x50000x64.Idx → EReal) = tapsB64 (tr (ks3 m c)) (m ((c : Thread nD τ).loc main_arg10)) := by
  refine (s5_taps (W18 m ρ c)).trans ?_
  rw [T18 m ρ c, A18 m ρ c main_arg10 (by simp [Keep.kargRefs])]
  rfl
theorem T21_w (c : Dev nD) : (V21 m ρ c main_v141 : S9x64x64.Idx → EReal) = tr (m ((c : Thread nD τ).loc main_arg6)) := by
  refine (s5_w (W18 m ρ c)).trans ?_
  rw [A18 m ρ c main_arg6 (by simp [Keep.kargRefs])]
theorem T21_x (c : Dev nD) : (W21 m ρ c (Proc.devRef .tc main_v104) : S50000x32.Idx → EReal) = tr (kx1 m c) :=
  (s5_keep (W18 m ρ c)).trans (T18_x m ρ c)
theorem T22 (c : Dev nD) : (W22 m ρ c (Proc.devRef .tc main_v142) : S50000x64.Idx → EReal) = kc6 m c := by
  refine (W22_arr m ρ c 2).trans ?_
  rw [Conv5.final (V21 m ρ) c]
  exact congrArg₂ Conv5.conv (T21_taps m ρ c) (T21_w m ρ c)
theorem T22_x (c : Dev nD) : (W22 m ρ c (Proc.devRef .tc main_v104) : S50000x32.Idx → EReal) = tr (kx1 m c) :=
  (W22_of_ne m ρ c main_v104 (by decide)).trans (T21_x m ρ c)

/-! ## Region 6: the seventh convolution, again on the first residual sum -/

theorem T25_taps (c : Dev nD) : (V25 m ρ c main_v165 : S9x50000x32.Idx → EReal) = tapsB32 (tr (kx1 m c)) (m ((c : Thread nD τ).loc main_arg10)) := by
  refine (s6_taps (W22 m ρ c)).trans ?_
  rw [T22_x m ρ c, A22 m ρ c main_arg10 (by simp [Keep.kargRefs])]
theorem T25_w (c : Dev nD) : (V25 m ρ c main_v166 : S9x32x64.Idx → EReal) = tr (m ((c : Thread nD τ).loc main_arg7)) := by
  refine (s6_w (W22 m ρ c)).trans ?_
  rw [A22 m ρ c main_arg7 (by simp [Keep.kargRefs])]
theorem T25_s (c : Dev nD) : (W25 m ρ c (Proc.devRef .tc main_v155) : S50000x64.Idx → EReal) = ks4 m c := by
  refine (s6_s (W22 m ρ c)).trans ?_
  rw [T22 m ρ c]
  rfl
theorem T26 (c : Dev nD) : (W26 m ρ c (Proc.devRef .tc main_v167) : S50000x64.Idx → EReal) = kc7 m c := by
  refine (W26_arr m ρ c 2).trans ?_
  rw [Conv6.final (V25 m ρ) c]
  exact congrArg₂ Conv6.conv (T25_taps m ρ c) (T25_w m ρ c)
theorem T26_s (c : Dev nD) : (W26 m ρ c (Proc.devRef .tc main_v155) : S50000x64.Idx → EReal) = ks4 m c :=
  (W26_of_ne m ρ c main_v155 (by decide)).trans (T25_s m ρ c)

/-! ## Region 7: the eighth convolution -/

theorem T29_taps (c : Dev nD) : (V29 m ρ c main_v191 : S9x50000x64.Idx → EReal) = tapsB64 (tr (kr3 m c)) (m ((c : Thread nD τ).loc main_arg11)) := by
  refine (s7_taps (W26 m ρ c)).trans ?_
  rw [T26 m ρ c, A26 m ρ c main_arg11 (by simp [Keep.kargRefs])]
  rfl
theorem T29_w (c : Dev nD) : (V29 m ρ c main_v192 : S9x64x64.Idx → EReal) = tr (m ((c : Thread nD τ).loc main_arg8)) := by
  refine (s7_w (W26 m ρ c)).trans ?_
  rw [A26 m ρ c main_arg8 (by simp [Keep.kargRefs])]
theorem T29_s (c : Dev nD) : (W29 m ρ c (Proc.devRef .tc main_v155) : S50000x64.Idx → EReal) = ks4 m c :=
  (s7_keep (W26 m ρ c)).trans (T26_s m ρ c)
theorem T30 (c : Dev nD) : (W30 m ρ c (Proc.devRef .tc main_v193) : S50000x64.Idx → EReal) = kc8 m c := by
  refine (W30_arr m ρ c 2).trans ?_
  rw [Conv7.final (V29 m ρ) c]
  exact congrArg₂ Conv7.conv (T29_taps m ρ c) (T29_w m ρ c)
theorem T30_s (c : Dev nD) : (W30 m ρ c (Proc.devRef .tc main_v155) : S50000x64.Idx → EReal) = ks4 m c :=
  (W30_of_ne m ρ c main_v155 (by decide)).trans (T29_s m ρ c)

end Cert.KernelIdeal.Chain

end
-- ==== Proof.KDefsP.lean ====
/-
  The pooling stage's gather in two steps: the gather itself, then its padding up to a whole number of tiles.
-/
import proofs.«141681_j16750372455151_2_alg».proof.Proof.KDefs
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

/-- The pooling stage's gathered taps (27 taps × 122811 output voxels × 64 channels). -/
def gP (xb : FVec Ideal S50000x64 .bf16) (nbr : IVec S122811x27 32) : FVec Ideal S27x122811x64 .bf16 :=
  Host.gather gather_S50001x64_S27x122811x1_S27x122811x64_2_0_n_n_0_2_164
    (concatenate S50001x64 0 [⟨S50000x64, xb⟩,
      ⟨S1x64, broadcastInDim S1x64 ![] bcast_S_S1x64 (constant (F := Ideal) S_ .bf16 0x0000#16)⟩] concatenates_S50000x64_S1x64_S50001x64_d0)
    (broadcastInDim S27x122811x1 ![0, 1] bcast_S27x122811_S27x122811x1_0_1 (wrapT27 nbr))

/-- The same padded with 1389 rows of the padding value per tap, up to 69 tiles of 1800 rows. -/
def tapsPad (xb : FVec Ideal S50000x64 .bf16) (nbr : IVec S122811x27 32) : FVec Ideal S27x124200x64 .bf16 :=
  pad S27x124200x64 ![0, 0, 0] ![0, 1389, 0] ![0, 0, 0] (gP xb nbr)
    (sitofp (F := Ideal) .bf16 (constantI S_ 32 0#32)) pads_S27x122811x64_S27x124200x64_000_013890_000 h_S_

end Cert.KernelIdeal.Chain

end
-- ==== Proof.KStretch8.lean ====
/-
  What the host operations after region 7 compute, from ANY contents U at the region's exit: the last batch
  normalisation and the second residual sum, the pooling stage's gather and its padding, the narrowed pooling
  weights; and after region 8, the cut back to the 122811 output voxels.
-/
import proofs.«141681_j16750372455151_2_alg».proof.Proof.KDefsP
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

theorem s8_g (U : Valuation τ sig (Elt Ideal)) :
    (after hostOps8_2 (after hostOps8_1 (after hostOps8 U)) (Proc.devRef .tc main_v218) : S27x122811x64.Idx → EReal)
      = gP (truncf (F := Ideal) .bf16 (addf (bn64 (U (Proc.devRef .tc main_v193))) (U (Proc.devRef .tc main_v155))) bitsLt_bf16_f32) (U (Proc.devRef .tc main_arg12)) := by
  after_results_simp <;> rfl
theorem s8_w (U : Valuation τ sig (Elt Ideal)) :
    (after hostOps8_2 (after hostOps8_1 (after hostOps8 U)) (Proc.devRef .tc main_v219) : S27x64x64.Idx → EReal)
      = (truncf (F := Ideal) .bf16 (U (Proc.devRef .tc main_arg9)) bitsLt_bf16_f32) := by
  after_results_simp <;> rfl
theorem s8_a (U : Valuation τ sig (Elt Ideal)) :
    (after hostOps8_2 (after hostOps8_1 (after hostOps8 U)) (Proc.devRef .tc main_v207) : S50000x64.Idx → EReal)
      = addf (bn64 (U (Proc.devRef .tc main_v193))) (U (Proc.devRef .tc main_v155)) := by
  after_results_simp <;> rfl
theorem s8_c (U : Valuation τ sig (Elt Ideal)) :
    (after hostOps8_2 (after hostOps8_1 (after hostOps8 U)) (Proc.devRef .tc main_c_57) : S_.Idx → BitVec 32) = constantI S_ 32 0#32 := by
  after_results_simp <;> rfl
theorem s8_pad (U : Valuation τ sig (Elt Ideal)) :
    (after hostOps8_3 U (Proc.devRef .tc main_v220) : S27x124200x64.Idx → EReal)
      = pad S27x124200x64 ![0, 0, 0] ![0, 1389, 0] ![0, 0, 0] (U (Proc.devRef .tc main_v218))
          (sitofp (F := Ideal) .bf16 (U (Proc.devRef .tc main_c_57))) pads_S27x122811x64_S27x124200x64_000_013890_000 h_S_ := by
  after_results_simp <;> rfl
theorem s8_w' (U : Valuation τ sig (Elt Ideal)) : after hostOps8_3 U (Proc.devRef .tc main_v219) = U (Proc.devRef .tc main_v219) := by
  after_results_simp <;> rfl
theorem s8_a' (U : Valuation τ sig (Elt Ideal)) : after hostOps8_3 U (Proc.devRef .tc main_v207) = U (Proc.devRef .tc main_v207) := by
  after_results_simp <;> rfl
theorem s9_out (U : Valuation τ sig (Elt Ideal)) :
    (after hostOps9 U (Proc.devRef .tc main_v222) : S122811x64.Idx → EReal)
      = extractStridedSlice S122811x64 ![0, 0] (U (Proc.devRef .tc main_v221)) slices_S124200x64_S122811x64_0_0 := by
  after_results_simp <;> rfl
theorem s9_a (U : Valuation τ sig (Elt Ideal)) : after hostOps9 U (Proc.devRef .tc main_v207) = U (Proc.devRef .tc main_v207) := by
  after_results_simp <;> rfl

end Cert.KernelIdeal.Chain

end
-- ==== Proof.Region8Body.lean ====
/-
  Region 8 (the first 27-tap convolution, 64 → 64 channels, rows tiled by 1800): what one grid point's body
  leaves in its output block, read at an index.

  The body holds a block x0 of the gathered taps (27 × 1800 × 64) and the weights x1 (27 × 64 × 64). For tap k it
  multiplies the k-th 1800 × 64 slice of x0 by the k-th 64 × 64 slice of x1 on the matrix unit into a zero
  accumulator, adds the twenty-seven products in order onto zero, and applies the leaky rectifier. At row p and channel q
  this is  (acc27 fun k => Σ_c x0[k, p, c] · x1[k, c, q]).
-/
import proofs.«141681_j16750372455151_2_alg».proof.Proof.Gen.KernelIdeal.Frame
import proofs.«141681_j16750372455151_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Conv8

open Idealize.ShloMosaic Idealize.ShloMosaic.TcCoe Idealize.ShloMosaic.ValueIdx
open Cert.KernelIdeal Cert.KernelIdeal.Gen Cert.SparseConv

/-- The matrix product's dimension record: rows × contraction times contraction × columns. -/
abbrev D := dot_S1800x64_S64x64_S1800x64_1_0_0_1_n_n

theorem lhs_row (j : S1800x64.Idx) (s : D.contr.Idx) : (D.lhsIdx j s 0).val = (j 0).val := by
  unfold DotDims.lhsIdx
  rw [dif_neg (show ¬(0 : Fin S1800x64.rank) ∈ D.lhsBatch by decide), dif_pos (show (0 : Fin S1800x64.rank) ∈ D.lhsNonContracting by decide)]
  rfl
theorem lhs_contr (j : S1800x64.Idx) (s : D.contr.Idx) : (D.lhsIdx j s 1).val = (s ⟨0, by decide⟩).val :=
  D.lhsIdx_val_of_single rfl j s
theorem rhs_contr (j : S1800x64.Idx) (s : D.contr.Idx) : (D.rhsIdx j s 0).val = (s ⟨0, by decide⟩).val :=
  D.rhsIdx_val_of_single rfl j s
theorem rhs_col (j : S1800x64.Idx) (s : D.contr.Idx) : (D.rhsIdx j s 1).val = (j 1).val := by
  unfold DotDims.rhsIdx
  rw [dif_neg (show ¬(1 : Fin S64x64.rank) ∈ D.rhsBatch by decide), dif_pos (show (1 : Fin S64x64.rank) ∈ D.rhsNonContracting by decide)]
  rfl

/-- ONE TAP: a 1 × 1800 × 64 slice times a 1 × 64 × 64 slice into a zero accumulator, at (p, q), is the sum over
    the 64 input channels. -/
theorem tap (g : Vec Ideal S1x1800x64 .bf16) (w : Vec Ideal S1x64x64 .bf16) (p : Fin 1800) (q : Fin 64) :
    (matmul (F := Ideal) (φ₁ := .bf16) (φ₂ := .bf16) D none (shapeCast S1800x64 g shapeCasts_S1x1800x64_S1800x64) (shapeCast S64x64 w shapeCasts_S1x64x64_S64x64)
      (constant S1800x64 .f32 0x00000000#32) (ix2 p q) : EReal)
    = ∑ c : Fin 64, (g (ix3 (0 : Fin 1) p c) : EReal) * (w (ix3 (0 : Fin 1) c q) : EReal) := by
  refine (Ideal.matmul_constant_zero_apply D none _ _ (ix2 p q)).trans ?_
  rw [← Equiv.sum_comp (contrEquiv1 D 64 rfl rfl).symm]
  refine Finset.sum_congr rfl fun c _ => ?_
  have hc := contrEquiv1_symm_val D 64 rfl rfl c
  have el : D.lhsIdx (ix2 p q) ((contrEquiv1 D 64 rfl rfl).symm c) = ix2 p c := funext fun a => Fin.ext (by
    match a with
    | ⟨0, _⟩ => exact lhs_row _ _
    | ⟨1, _⟩ => exact (lhs_contr _ _).trans hc)
  have er : D.rhsIdx (ix2 p q) ((contrEquiv1 D 64 rfl rfl).symm c) = ix2 c q := funext fun a => Fin.ext (by
    match a with
    | ⟨0, _⟩ => exact (rhs_contr _ _).trans hc
    | ⟨1, _⟩ => exact rhs_col _ _)
  rw [el, er, shapeCast_1ab_ab_apply, shapeCast_1ab_ab_apply]

/-- Tap k's slice of the gathered block, loaded through its rectangle, read at (0, p, c). -/
theorem ld_g (x0 : Vec Ideal S27x1800x64 .bf16) (k : Fin 27) (inb) (p : Fin 1800) (c : Fin 64) :
    View.ld x0 (Rect.unit (s := S27x1800x64) ![k.val, 0, 0] S1x1800x64.size inb) (ix3 (0 : Fin 1) p c) = x0 (ix3 k p c) := by
  show x0 ((Rect.unit (s := S27x1800x64) ![k.val, 0, 0] S1x1800x64.size inb).idx (ix3 (0 : Fin 1) p c)) = _
  congr 1
  funext a
  match a with
  | ⟨0, _⟩ => exact Fin.ext (by show k.val + 1 * 0 = k.val; omega)
  | ⟨1, _⟩ => exact Fin.ext (by show 0 + 1 * p.val = p.val; omega)
  | ⟨2, _⟩ => exact Fin.ext (by show 0 + 1 * c.val = c.val; omega)

/-- Tap k's slice of the weights, loaded through its rectangle, read at (0, c, q). -/
theorem ld_w (x1 : Vec Ideal S27x64x64 .bf16) (k : Fin 27) (inb) (c : Fin 64) (q : Fin 64) :
    View.ld x1 (Rect.unit (s := S27x64x64) ![k.val, 0, 0] S1x64x64.size inb) (ix3 (0 : Fin 1) c q) = x1 (ix3 k c q) := by
  show x1 ((Rect.unit (s := S27x64x64) ![k.val, 0, 0] S1x64x64.size inb).idx (ix3 (0 : Fin 1) c q)) = _
  congr 1
  funext a
  match a with
  | ⟨0, _⟩ => exact Fin.ext (by show k.val + 1 * 0 = k.val; omega)
  | ⟨1, _⟩ => exact Fin.ext (by show 0 + 1 * c.val = c.val; omega)
  | ⟨2, _⟩ => exact Fin.ext (by show 0 + 1 * q.val = q.val; omega)

/-- Tap k of the block at (p, q): the product of the loaded slices is the sum over the input channels of the
    block's own entries. -/
theorem tap_ld (x0 : Vec Ideal S27x1800x64 .bf16) (x1 : Vec Ideal S27x64x64 .bf16) (k : Fin 27) (inb0) (inb1)
    (p : Fin 1800) (q : Fin 64) :
    (matmul (F := Ideal) (φ₁ := .bf16) (φ₂ := .bf16) D none
      (shapeCast S1800x64 (View.ld x0 (Rect.unit (s := S27x1800x64) ![k.val, 0, 0] S1x1800x64.size inb0)) shapeCasts_S1x1800x64_S1800x64)
      (shapeCast S64x64 (View.ld x1 (Rect.unit (s := S27x64x64) ![k.val, 0, 0] S1x64x64.size inb1)) shapeCasts_S1x64x64_S64x64)
      (constant S1800x64 .f32 0x00000000#32) (ix2 p q) : EReal)
    = ∑ c : Fin 64, (x0 (ix3 k p c) : EReal) * (x1 (ix3 k c q) : EReal) := by
  refine (tap _ _ p q).trans (Finset.sum_congr rfl fun c _ => ?_)
  rw [ld_g x0 k inb0 p c, ld_w x1 k inb1 c q]

/-- The conv's value at (p, q) from a block of taps and the weights. -/
def blockVal (x0 : Vec Ideal S27x1800x64 .bf16) (x1 : Vec Ideal S27x64x64 .bf16) (p : Fin 1800) (q : Fin 64) : EReal :=
  acc27 fun k => ∑ c : Fin 64, (x0 (ix3 k p c) : EReal) * (x1 (ix3 k c q) : EReal)

/-- Twenty-seven arrays added in order onto the broadcast zero, at an index. -/
theorem acc27_apply (m0 m1 m2 m3 m4 m5 m6 m7 m8 m9 m10 m11 m12 m13 m14 m15 m16 m17 m18 m19 m20 m21 m22 m23 m24 m25 m26 : FVec Ideal S1800x64 .f32) (i : S1800x64.Idx) :
    addf (addf (addf (addf (addf (addf (addf (addf (addf (addf (addf (addf (addf (addf (addf (addf (addf (addf (addf (addf (addf (addf (addf (addf (addf (addf (addf
      (broadcast S1800x64 (FloatOps.ofBits .f32 0x00000000#32)) m0) m1) m2) m3) m4) m5) m6) m7) m8) m9) m10) m11) m12) m13) m14) m15) m16) m17) m18) m19) m20) m21) m22) m23) m24) m25) m26 i
      = acc27 ![m0 i, m1 i, m2 i, m3 i, m4 i, m5 i, m6 i, m7 i, m8 i, m9 i, m10 i, m11 i, m12 i, m13 i, m14 i, m15 i, m16 i, m17 i, m18 i,
          m19 i, m20 i, m21 i, m22 i, m23 i, m24 i, m25 i, m26 i] := rfl

theorem hz2 : (![0, 0] : Fin 2 → Nat) = fun _ => 0 := funext fun a => by fin_cases a <;> rfl

/-- WHAT THE BODY LEAVES in its output block, at (p, q). -/
theorem out_apply (x0 : Vec Ideal S27x1800x64 .bf16) (x1 : Vec Ideal S27x64x64 .bf16) (p : Fin 1800) (q : Fin 64) :
    out8_2 (F := Ideal) x0 x1 (ix2 p q) = blockVal x0 x1 p q := by
  unfold out8_2
  rw [View.canon_unit_zero hz2]
  unfold k8_pay10 k8_pay9 k8_pay8 k8_pay7 k8_pay6 k8_pay5 k8_pay4 k8_pay3 k8_pay2 k8_pay1
  dsimp only
  unfold blockVal
  refine (acc27_apply _ _ _ _ _ _ _ _ _ _ _ _ _ _ _ _ _ _ _ _ _ _ _ _ _ _ _ (ix2 p q)).trans (congrArg acc27 (funext fun k => ?_))
  fin_cases k
  · exact tap_ld x0 x1 0 _ _ p q
  · exact tap_ld x0 x1 1 _ _ p q
  · exact tap_ld x0 x1 2 _ _ p q
  · exact tap_ld x0 x1 3 _ _ p q
  · exact tap_ld x0 x1 4 _ _ p q
  · exact tap_ld x0 x1 5 _ _ p q
  · exact tap_ld x0 x1 6 _ _ p q
  · exact tap_ld x0 x1 7 _ _ p q
  · exact tap_ld x0 x1 8 _ _ p q
  · exact tap_ld x0 x1 9 _ _ p q
  · exact tap_ld x0 x1 10 _ _ p q
  · exact tap_ld x0 x1 11 _ _ p q
  · exact tap_ld x0 x1 12 _ _ p q
  · exact tap_ld x0 x1 13 _ _ p q
  · exact tap_ld x0 x1 14 _ _ p q
  · exact tap_ld x0 x1 15 _ _ p q
  · exact tap_ld x0 x1 16 _ _ p q
  · exact tap_ld x0 x1 17 _ _ p q
  · exact tap_ld x0 x1 18 _ _ p q
  · exact tap_ld x0 x1 19 _ _ p q
  · exact tap_ld x0 x1 20 _ _ p q
  · exact tap_ld x0 x1 21 _ _ p q
  · exact tap_ld x0 x1 22 _ _ p q
  · exact tap_ld x0 x1 23 _ _ p q
  · exact tap_ld x0 x1 24 _ _ p q
  · exact tap_ld x0 x1 25 _ _ p q
  · exact tap_ld x0 x1 26 _ _ p q

end Cert.KernelIdeal.Conv8

end
-- ==== Proof.Region8Array.lean ====
/-
  Region 8: from what each grid point writes back to the whole output array.

  The grid has 69 points; point t stages rows 1800·t … 1800·t + 1799 of the gathered taps (all twenty-seven taps, all 64
  channels), the whole weight table, and writes back rows 1800·t … 1800·t + 1799 of the output. So the block a
  point writes is the restriction to its rows of ONE function of the two arrays as the region finds them,
      conv G Wt (i, o) = (acc27 fun k => Σ_c G[k, i, c] · Wt[k, c, o]),
  the 69 row ranges tile the 124200 rows (the 122811 output voxels padded up to 69 tiles), and the output array ends at that function.
-/
import proofs.«141681_j16750372455151_2_alg».proof.Proof.Region8Body

set_option maxRecDepth 16384

noncomputable section

namespace Cert.KernelIdeal.Conv8

open Idealize.ShloMosaic Idealize.ShloMosaic.TcCoe Idealize.ShloMosaic.ValueIdx
open Idealize.ShloMosaic.Pipeline (Dat)
open Cert.KernelIdeal Cert.KernelIdeal.Gen Cert.SparseConv

variable (V : (c : Dev nD) → (b : Ref sig .tc) → Buf (Elt Ideal) ((c : Thread nD τ).loc b))

/-- The convolution as one function of the gathered taps and the weights. -/
def conv (G : Vec Ideal S27x124200x64 .bf16) (Wt : Vec Ideal S27x64x64 .bf16) : Vec Ideal S124200x64 .f32 :=
  fun i => (acc27 fun k => ∑ ch : Fin 64, (G (ix3 k (i 0) ch) : EReal) * (Wt (ix3 k ch (i 1)) : EReal))

/-- The three index maps over the 69 grid points: the taps' block moves with the output's along the rows and sits
    at zero elsewhere; the weights' block never moves. -/
theorem idx_facts : ∀ t : Fin cfg8.N,
    win8_0.index t (0 : Fin 3) = 0 ∧ win8_0.index t (1 : Fin 3) = win8_2.index t (0 : Fin 2) ∧ win8_0.index t (2 : Fin 3) = 0
    ∧ win8_1.index t (0 : Fin 3) = 0 ∧ win8_1.index t (1 : Fin 3) = 0 ∧ win8_1.index t (2 : Fin 3) = 0
    ∧ win8_2.index t (0 : Fin 2) ≤ 68 ∧ win8_2.index t (1 : Fin 2) = 0 :=
  (by decide +kernel : ∀ t : Fin grid8.N, _)

/-- Every block of rows is some point's. -/
theorem idx_onto : ∀ q0 : Fin 69, ∃ t : Fin cfg8.N, win8_2.index t = ![q0.val, 0] :=
  (by decide +kernel : ∀ q0 : Fin 69, ∃ t : Fin grid8.N, win8_2.index t = ![q0.val, 0])

/-- WHAT POINT t WRITES BACK is its rows of `conv` of the arrays as the region finds them. -/
theorem flushed_eq (c : Dev nD) (t : Fin cfg8.N) :
    (dat8 V c).flushed 2 t = ((cfg8.win 2).blk t).view.read (Elt Ideal) (conv (V c main_v220) (V c main_v219)) := by
  show (cfg8.win 2).cut (grid8.coords t) ((dat8 V c).after 2 t) = _
  rw [after8_2]
  obtain ⟨e0, e1, e2, e3, e4, e5, e6, e7⟩ := idx_facts t
  funext j
  obtain ⟨p, q, rfl⟩ : ∃ (p : Fin 1800) (q : Fin 64), j = ix2 p q := ⟨j 0, j 1, eq_ix2 j⟩
  show out8_2 (iblk8 V c 0 t) (iblk8 V c 1 t) (ix2 p q)
    = conv (V c main_v220) (V c main_v219) (((cfg8.win 2).blk t).view.emb (ix2 p q))
  refine (out_apply _ _ p q).trans ?_
  unfold blockVal conv
  refine congrArg acc27 (funext fun k => Finset.sum_congr rfl fun ch _ => ?_)
  have hg : iblk8 V c 0 t (ix3 k p ch) = V c main_v220 (ix3 k ((((cfg8.win 2).blk t).view.emb (ix2 p q)) 0) ch) := by
    show V c main_v220 (((cfg8.win 0).blk t).view.emb (ix3 k p ch)) = _
    congr 1; funext a; apply Fin.ext
    match a with
    | ⟨0, _⟩ => show win8_0.index t (0 : Fin 3) * 27 + 1 * k.val = k.val; omega
    | ⟨1, _⟩ => show win8_0.index t (1 : Fin 3) * 1800 + 1 * p.val = win8_2.index t (0 : Fin 2) * 1800 + 1 * p.val; omega
    | ⟨2, _⟩ => show win8_0.index t (2 : Fin 3) * 64 + 1 * ch.val = ch.val; omega
  have hw : iblk8 V c 1 t (ix3 k ch q) = V c main_v219 (ix3 k ch ((((cfg8.win 2).blk t).view.emb (ix2 p q)) 1)) := by
    show V c main_v219 (((cfg8.win 1).blk t).view.emb (ix3 k ch q)) = _
    congr 1; funext a; apply Fin.ext
    match a with
    | ⟨0, _⟩ => show win8_1.index t (0 : Fin 3) * 27 + 1 * k.val = k.val; omega
    | ⟨1, _⟩ => show win8_1.index t (1 : Fin 3) * 64 + 1 * ch.val = ch.val; omega
    | ⟨2, _⟩ => show win8_1.index t (2 : Fin 3) * 64 + 1 * q.val = win8_2.index t (1 : Fin 2) * 64 + 1 * q.val; omega
  rw [hg, hw]

/-- An index is in point t's block iff its row is in the point's 1800 rows (and its channel among the 64). -/
theorem mem_blk (t : Fin cfg8.N) (i : S124200x64.Idx) :
    i ∈ ((cfg8.win 2).blk t).view.set ↔ ∀ a : Fin 2, win8_2.index t a * S1800x64.size a ≤ (i a).val ∧ (i a).val < win8_2.index t a * S1800x64.size a + S1800x64.size a := by
  show i ∈ ((View.whole main_v221).slice (win8_2.rect t)).set ↔ _
  rw [View.set_slice_whole, Rect.mem_set_unit]
  exact Iff.rfl

/-- The 69 blocks of 1800 rows tile the 124200 rows (the 122811 output voxels padded up to 69 tiles): row r is in the block of point r / 1800. -/
theorem cover (i : S124200x64.Idx) : ∃ t : Fin cfg8.N, (cfg8.win 2).flush t = true ∧ i ∈ ((cfg8.win 2).blk t).view.set := by
  have hi0 : (i 0).val < 124200 := (i 0).isLt
  have hi1 : (i 1).val < 64 := (i 1).isLt
  obtain ⟨t, ht⟩ := idx_onto ⟨(i 0).val / 1800, by omega⟩
  have q0 : win8_2.index t (0 : Fin 2) = (i 0).val / 1800 := congrFun ht 0
  have q1 : win8_2.index t (1 : Fin 2) = 0 := congrFun ht 1
  refine ⟨t, flush8_2 t, ?_⟩
  rw [mem_blk]
  intro a
  match a with
  | ⟨0, _⟩ => show win8_2.index t (0 : Fin 2) * 1800 ≤ (i 0).val ∧ (i 0).val < win8_2.index t (0 : Fin 2) * 1800 + 1800; omega
  | ⟨1, _⟩ => show win8_2.index t (1 : Fin 2) * 64 ≤ (i 1).val ∧ (i 1).val < win8_2.index t (1 : Fin 2) * 64 + 64; omega

/-- THE OUTPUT ARRAY after the region: `conv` of the gathered taps and the weights as the region finds them. -/
theorem final (c : Dev nD) : (dat8 V c).arrAt 2 cfg8.N = conv (V c main_v220) (V c main_v219) :=
  (dat8 V c).arrAt_eq_of_cover 2 _ (fun t _ => flushed_eq V c t) cover

end Cert.KernelIdeal.Conv8

end
-- ==== Proof.KChainC.lean ====
/-
  The idealized kernel's values along its run, the end: the pooling stage on the second residual sum, and the two
  results.
-/
import proofs.«141681_j16750372455151_2_alg».proof.Proof.KChainB
import proofs.«141681_j16750372455151_2_alg».proof.Proof.KStretch8
import proofs.«141681_j16750372455151_2_alg».proof.Proof.Region8Array

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Fns (bn32 bn64)

variable (m : (ℓ : Loc nD τ sig) → Buf (Elt Ideal) ℓ) (ρ : Dev nD → PrngReg)

def kc9 (c : Dev nD) : FVec Ideal S124200x64 .f32 := Conv8.conv (tapsPad (tr (kA m c)) (m ((c : Thread nD τ).loc main_arg12))) (tr (m ((c : Thread nD τ).loc main_arg9)))
def kB (c : Dev nD) : FVec Ideal S122811x64 .f32 := extractStridedSlice S122811x64 ![0, 0] (kc9 m c) slices_S124200x64_S122811x64_0_0

theorem A33 (c : Dev nD) : ∀ b ∈ Keep.kargRefs, W33 m ρ c (Proc.devRef .tc b) = m ((c : Thread nD τ).loc b) :=
  fun b hb => ((Keep.keeps_hostOps8_2 _ b hb).trans ((Keep.keeps_hostOps8_1 _ b hb).trans (Keep.keeps_hostOps8 _ b hb))).trans (A30 m ρ c b hb)
theorem A34 (c : Dev nD) : ∀ b ∈ Keep.kargRefs, W34 m ρ c (Proc.devRef .tc b) = m ((c : Thread nD τ).loc b) :=
  fun b hb => (Keep.keeps_hostOps8_3 _ b hb).trans (A33 m ρ c b hb)
theorem arrIdx8 : ∀ w : Fin cfg8.W, 13 ≤ (Pipeline.arrRef spec8 w).idx.val := by decide
theorem reg8_keep (c : Dev nD) : ∀ b ∈ Keep.kargRefs, W35 m ρ c (Proc.devRef .tc b) = W34 m ρ c (Proc.devRef .tc b) :=
  fun b hb => W35_of_ne m ρ c b (fun w e => by have h1 := Keep.arg_idx_lt b hb; have h2 := arrIdx8 w; rw [e] at h2; omega)
theorem A35 (c : Dev nD) : ∀ b ∈ Keep.kargRefs, W35 m ρ c (Proc.devRef .tc b) = m ((c : Thread nD τ).loc b) :=
  fun b hb => (reg8_keep m ρ c b hb).trans (A34 m ρ c b hb)

theorem A36 (c : Dev nD) : ∀ b ∈ Keep.kargRefs, W36 m ρ c (Proc.devRef .tc b) = m ((c : Thread nD τ).loc b) :=
  fun b hb => (Keep.keeps_hostOps9 _ b hb).trans (A35 m ρ c b hb)

theorem T33_a (c : Dev nD) : (W33 m ρ c (Proc.devRef .tc main_v207) : S50000x64.Idx → EReal) = kA m c := by
  refine (s8_a (W30 m ρ c)).trans ?_
  rw [T30 m ρ c, T30_s m ρ c]
  rfl
theorem T34_a (c : Dev nD) : (W34 m ρ c (Proc.devRef .tc main_v207) : S50000x64.Idx → EReal) = kA m c :=
  (s8_a' (W33 m ρ c)).trans (T33_a m ρ c)
theorem T34_taps (c : Dev nD) : (V34 m ρ c main_v220 : S27x124200x64.Idx → EReal) = tapsPad (tr (kA m c)) (m ((c : Thread nD τ).loc main_arg12)) := by
  refine (s8_pad (W33 m ρ c)).trans ?_
  have hg : (W33 m ρ c (Proc.devRef .tc main_v218) : S27x122811x64.Idx → EReal)
      = gP (tr (kA m c)) (m ((c : Thread nD τ).loc main_arg12)) := by
    refine (s8_g (W30 m ρ c)).trans ?_
    rw [T30 m ρ c, T30_s m ρ c, A30 m ρ c main_arg12 (by simp [Keep.kargRefs])]
    rfl
  have hc : (W33 m ρ c (Proc.devRef .tc main_c_57) : S_.Idx → BitVec 32) = constantI S_ 32 0#32 := s8_c (W30 m ρ c)
  rw [hg, hc]
  rfl
theorem T34_w (c : Dev nD) : (V34 m ρ c main_v219 : S27x64x64.Idx → EReal) = tr (m ((c : Thread nD τ).loc main_arg9)) := by
  refine (s8_w' (W33 m ρ c)).trans ((s8_w (W30 m ρ c)).trans ?_)
  rw [A30 m ρ c main_arg9 (by simp [Keep.kargRefs])]
theorem T35 (c : Dev nD) : (W35 m ρ c (Proc.devRef .tc main_v221) : S124200x64.Idx → EReal) = kc9 m c := by
  refine (W35_arr m ρ c 2).trans ?_
  rw [Conv8.final (V34 m ρ) c]
  exact congrArg₂ Conv8.conv (T34_taps m ρ c) (T34_w m ρ c)
theorem T35_a (c : Dev nD) : (W35 m ρ c (Proc.devRef .tc main_v207) : S50000x64.Idx → EReal) = kA m c :=
  (W35_of_ne m ρ c main_v207 (by decide)).trans (T34_a m ρ c)

/-- THE KERNEL'S FIRST RESULT: the pooled features. -/
theorem result0 (c : Dev nD) : (W36 m ρ c (Proc.devRef .tc main_v222) : S122811x64.Idx → EReal) = kB m c := by
  refine (s9_out (W35 m ρ c)).trans ?_
  rw [T35 m ρ c]
  rfl
/-- THE KERNEL'S SECOND RESULT: the second residual sum. -/
theorem result1 (c : Dev nD) : (W36 m ρ c (Proc.devRef .tc main_v207) : S50000x64.Idx → EReal) = kA m c :=
  (s9_a (W35 m ρ c)).trans (T35_a m ρ c)

end Cert.KernelIdeal.Chain

end
-- ==== Proof.RefRunA.lean ====
/-
  The reference's run, first part: its @main as a list of host operations, window by window.

  The reference is a straight line of 1685 host statements, printed in windows of sixty. Each window is restated
  here as the list of its operations, in order, the functions jax outlined (the leaky rectifier, the variance, the
  selects inside them) unfolded at their calls over the call's own buffers; the window IS the sequencing of that
  list, by definition.
-/
import proofs.«141681_j16750372455151_2_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Statements 1–60: the padded features, the zero accumulator, taps 0–2 and the index side of tap 3. -/
abbrev r0 : List (HloOp τ sig (Elt F)) :=
  [ nullary main_cst (constant S_ .f32 0x00000000#32),
    unary main_cst main_v0 (broadcastInDim S1x256 ![] bcast_S_S1x256),
    binary main_arg0 main_v0 main_v1 (fun a b => concatenate S50001x256 0 [⟨S50000x256, a⟩, ⟨S1x256, b⟩] concatenates_S50000x256_S1x256_S50001x256_d0),
    nullary main_cst_0 (constant S_ .f32 0x00000000#32),
    unary main_cst_0 main_v2 (broadcastInDim S50000x32 ![] bcast_S_S50000x32),
    -- tap 0
    unary main_arg10 main_v3 (extractStridedSlice S50000x1 ![0, 0] · slices_S50000x9_S50000x1_0_0),
    reshape main_v3 main_v4 rfl shapeCasts_S50000x1_S50000,
    nullary main_c (constantI S_ 32 0#32),
    unary main_c main_v5 (broadcastInDim S50000 ![] bcast_S_S50000),
    binary main_v4 main_v5 main_v6 (cmpi .slt),
    nullary main_c_1 (constantI S_ 32 50001#32),
    unary main_c_1 main_v7 (broadcastInDim S50000 ![] bcast_S_S50000),
    binary main_v4 main_v7 main_v8 addi,
    ternary main_v6 main_v8 main_v4 main_v9 select,
    unary main_v9 main_v10 (broadcastInDim S50000x1 ![0] bcast_S50000_S50000x1_0),
    binary main_v1 main_v10 main_v11 (fun x i => Host.gather gather_S50001x256_S50000x1_S50000x256_1_0_n_n_0_1_1256 x i),
    unary main_arg1 main_v12 (extractStridedSlice S1x256x32 ![0, 0, 0] · slices_S9x256x32_S1x256x32_0_0_0),
    reshape main_v12 main_v13 rfl shapeCasts_S1x256x32_S256x32,
    binary main_v11 main_v13 main_v14 (fun l r => Host.dotGeneral dot_S50000x256_S256x32_S50000x32_1_0_0_1_n_n none l r),
    binary main_v2 main_v14 main_v15 addf,
    -- tap 1
    unary main_arg10 main_v16 (extractStridedSlice S50000x1 ![0, 1] · slices_S50000x9_S50000x1_0_1),
    reshape main_v16 main_v17 rfl shapeCasts_S50000x1_S50000,
    nullary main_c_2 (constantI S_ 32 0#32),
    unary main_c_2 main_v18 (broadcastInDim S50000 ![] bcast_S_S50000),
    binary main_v17 main_v18 main_v19 (cmpi .slt),
    nullary main_c_3 (constantI S_ 32 50001#32),
    unary main_c_3 main_v20 (broadcastInDim S50000 ![] bcast_S_S50000),
    binary main_v17 main_v20 main_v21 addi,
    ternary main_v19 main_v21 main_v17 main_v22 select,
    unary main_v22 main_v23 (broadcastInDim S50000x1 ![0] bcast_S50000_S50000x1_0),
    binary main_v1 main_v23 main_v24 (fun x i => Host.gather gather_S50001x256_S50000x1_S50000x256_1_0_n_n_0_1_1256 x i),
    unary main_arg1 main_v25 (extractStridedSlice S1x256x32 ![1, 0, 0] · slices_S9x256x32_S1x256x32_1_0_0),
    reshape main_v25 main_v26 rfl shapeCasts_S1x256x32_S256x32,
    binary main_v24 main_v26 main_v27 (fun l r => Host.dotGeneral dot_S50000x256_S256x32_S50000x32_1_0_0_1_n_n none l r),
    binary main_v15 main_v27 main_v28 addf,
    -- tap 2
    unary main_arg10 main_v29 (extractStridedSlice S50000x1 ![0, 2] · slices_S50000x9_S50000x1_0_2),
    reshape main_v29 main_v30 rfl shapeCasts_S50000x1_S50000,
    nullary main_c_4 (constantI S_ 32 0#32),
    unary main_c_4 main_v31 (broadcastInDim S50000 ![] bcast_S_S50000),
    binary main_v30 main_v31 main_v32 (cmpi .slt),
    nullary main_c_5 (constantI S_ 32 50001#32),
    unary main_c_5 main_v33 (broadcastInDim S50000 ![] bcast_S_S50000),
    binary main_v30 main_v33 main_v34 addi,
    ternary main_v32 main_v34 main_v30 main_v35 select,
    unary main_v35 main_v36 (broadcastInDim S50000x1 ![0] bcast_S50000_S50000x1_0),
    binary main_v1 main_v36 main_v37 (fun x i => Host.gather gather_S50001x256_S50000x1_S50000x256_1_0_n_n_0_1_1256 x i),
    unary main_arg1 main_v38 (extractStridedSlice S1x256x32 ![2, 0, 0] · slices_S9x256x32_S1x256x32_2_0_0),
    reshape main_v38 main_v39 rfl shapeCasts_S1x256x32_S256x32,
    binary main_v37 main_v39 main_v40 (fun l r => Host.dotGeneral dot_S50000x256_S256x32_S50000x32_1_0_0_1_n_n none l r),
    binary main_v28 main_v40 main_v41 addf,
    -- tap 3, its index side
    unary main_arg10 main_v42 (extractStridedSlice S50000x1 ![0, 3] · slices_S50000x9_S50000x1_0_3),
    reshape main_v42 main_v43 rfl shapeCasts_S50000x1_S50000,
    nullary main_c_6 (constantI S_ 32 0#32),
    unary main_c_6 main_v44 (broadcastInDim S50000 ![] bcast_S_S50000),
    binary main_v43 main_v44 main_v45 (cmpi .slt),
    nullary main_c_7 (constantI S_ 32 50001#32),
    unary main_c_7 main_v46 (broadcastInDim S50000 ![] bcast_S_S50000),
    binary main_v43 main_v46 main_v47 addi,
    ternary main_v45 main_v47 main_v43 main_v48 select,
    unary main_v48 main_v49 (broadcastInDim S50000x1 ![0] bcast_S50000_S50000x1_0) ]

theorem part0_eq (d : Dev nD) : main_part0 (F := F) d = seq r0 := rfl

/-- Statements 61–120: the product side of tap 3, taps 4–6 and the index side of tap 7. -/
abbrev r1 : List (HloOp τ sig (Elt F)) :=
  [ binary main_v1 main_v49 main_v50 (fun x i => Host.gather gather_S50001x256_S50000x1_S50000x256_1_0_n_n_0_1_1256 x i),
    unary main_arg1 main_v51 (extractStridedSlice S1x256x32 ![3, 0, 0] · slices_S9x256x32_S1x256x32_3_0_0),
    reshape main_v51 main_v52 rfl shapeCasts_S1x256x32_S256x32,
    binary main_v50 main_v52 main_v53 (fun l r => Host.dotGeneral dot_S50000x256_S256x32_S50000x32_1_0_0_1_n_n none l r),
    binary main_v41 main_v53 main_v54 addf,
    -- tap 4
    unary main_arg10 main_v55 (extractStridedSlice S50000x1 ![0, 4] · slices_S50000x9_S50000x1_0_4),
    reshape main_v55 main_v56 rfl shapeCasts_S50000x1_S50000,
    nullary main_c_8 (constantI S_ 32 0#32),
    unary main_c_8 main_v57 (broadcastInDim S50000 ![] bcast_S_S50000),
    binary main_v56 main_v57 main_v58 (cmpi .slt),
    nullary main_c_9 (constantI S_ 32 50001#32),
    unary main_c_9 main_v59 (broadcastInDim S50000 ![] bcast_S_S50000),
    binary main_v56 main_v59 main_v60 addi,
    ternary main_v58 main_v60 main_v56 main_v61 select,
    unary main_v61 main_v62 (broadcastInDim S50000x1 ![0] bcast_S50000_S50000x1_0),
    binary main_v1 main_v62 main_v63 (fun x i => Host.gather gather_S50001x256_S50000x1_S50000x256_1_0_n_n_0_1_1256 x i),
    unary main_arg1 main_v64 (extractStridedSlice S1x256x32 ![4, 0, 0] · slices_S9x256x32_S1x256x32_4_0_0),
    reshape main_v64 main_v65 rfl shapeCasts_S1x256x32_S256x32,
    binary main_v63 main_v65 main_v66 (fun l r => Host.dotGeneral dot_S50000x256_S256x32_S50000x32_1_0_0_1_n_n none l r),
    binary main_v54 main_v66 main_v67 addf,
    -- tap 5
    unary main_arg10 main_v68 (extractStridedSlice S50000x1 ![0, 5] · slices_S50000x9_S50000x1_0_5),
    reshape main_v68 main_v69 rfl shapeCasts_S50000x1_S50000,
    nullary main_c_10 (constantI S_ 32 0#32),
    unary main_c_10 main_v70 (broadcastInDim S50000 ![] bcast_S_S50000),
    binary main_v69 main_v70 main_v71 (cmpi .slt),
    nullary main_c_11 (constantI S_ 32 50001#32),
    unary main_c_11 main_v72 (broadcastInDim S50000 ![] bcast_S_S50000),
    binary main_v69 main_v72 main_v73 addi,
    ternary main_v71 main_v73 main_v69 main_v74 select,
    unary main_v74 main_v75 (broadcastInDim S50000x1 ![0] bcast_S50000_S50000x1_0),
    binary main_v1 main_v75 main_v76 (fun x i => Host.gather gather_S50001x256_S50000x1_S50000x256_1_0_n_n_0_1_1256 x i),
    unary main_arg1 main_v77 (extractStridedSlice S1x256x32 ![5, 0, 0] · slices_S9x256x32_S1x256x32_5_0_0),
    reshape main_v77 main_v78 rfl shapeCasts_S1x256x32_S256x32,
    binary main_v76 main_v78 main_v79 (fun l r => Host.dotGeneral dot_S50000x256_S256x32_S50000x32_1_0_0_1_n_n none l r),
    binary main_v67 main_v79 main_v80 addf,
    -- tap 6
    unary main_arg10 main_v81 (extractStridedSlice S50000x1 ![0, 6] · slices_S50000x9_S50000x1_0_6),
    reshape main_v81 main_v82 rfl shapeCasts_S50000x1_S50000,
    nullary main_c_12 (constantI S_ 32 0#32),
    unary main_c_12 main_v83 (broadcastInDim S50000 ![] bcast_S_S50000),
    binary main_v82 main_v83 main_v84 (cmpi .slt),
    nullary main_c_13 (constantI S_ 32 50001#32),
    unary main_c_13 main_v85 (broadcastInDim S50000 ![] bcast_S_S50000),
    binary main_v82 main_v85 main_v86 addi,
    ternary main_v84 main_v86 main_v82 main_v87 select,
    unary main_v87 main_v88 (broadcastInDim S50000x1 ![0] bcast_S50000_S50000x1_0),
    binary main_v1 main_v88 main_v89 (fun x i => Host.gather gather_S50001x256_S50000x1_S50000x256_1_0_n_n_0_1_1256 x i),
    unary main_arg1 main_v90 (extractStridedSlice S1x256x32 ![6, 0, 0] · slices_S9x256x32_S1x256x32_6_0_0),
    reshape main_v90 main_v91 rfl shapeCasts_S1x256x32_S256x32,
    binary main_v89 main_v91 main_v92 (fun l r => Host.dotGeneral dot_S50000x256_S256x32_S50000x32_1_0_0_1_n_n none l r),
    binary main_v80 main_v92 main_v93 addf,
    -- tap 7, its index side
    unary main_arg10 main_v94 (extractStridedSlice S50000x1 ![0, 7] · slices_S50000x9_S50000x1_0_7),
    reshape main_v94 main_v95 rfl shapeCasts_S50000x1_S50000,
    nullary main_c_14 (constantI S_ 32 0#32),
    unary main_c_14 main_v96 (broadcastInDim S50000 ![] bcast_S_S50000),
    binary main_v95 main_v96 main_v97 (cmpi .slt),
    nullary main_c_15 (constantI S_ 32 50001#32),
    unary main_c_15 main_v98 (broadcastInDim S50000 ![] bcast_S_S50000),
    binary main_v95 main_v98 main_v99 addi,
    ternary main_v97 main_v99 main_v95 main_v100 select,
    unary main_v100 main_v101 (broadcastInDim S50000x1 ![0] bcast_S50000_S50000x1_0) ]

theorem part1_eq (d : Dev nD) : main_part1 (F := F) d = seq r1 := rfl

/-- Statements 121–159: the product side of tap 7, tap 8, the leaky rectifier and the batch normalisation. -/
abbrev r2a : List (HloOp τ sig (Elt F)) :=
  [ binary main_v1 main_v101 main_v102 (fun x i => Host.gather gather_S50001x256_S50000x1_S50000x256_1_0_n_n_0_1_1256 x i),
    unary main_arg1 main_v103 (extractStridedSlice S1x256x32 ![7, 0, 0] · slices_S9x256x32_S1x256x32_7_0_0),
    reshape main_v103 main_v104 rfl shapeCasts_S1x256x32_S256x32,
    binary main_v102 main_v104 main_v105 (fun l r => Host.dotGeneral dot_S50000x256_S256x32_S50000x32_1_0_0_1_n_n none l r),
    binary main_v93 main_v105 main_v106 addf,
    -- tap 8
    unary main_arg10 main_v107 (extractStridedSlice S50000x1 ![0, 8] · slices_S50000x9_S50000x1_0_8),
    reshape main_v107 main_v108 rfl shapeCasts_S50000x1_S50000,
    nullary main_c_16 (constantI S_ 32 0#32),
    unary main_c_16 main_v109 (broadcastInDim S50000 ![] bcast_S_S50000),
    binary main_v108 main_v109 main_v110 (cmpi .slt),
    nullary main_c_17 (constantI S_ 32 50001#32),
    unary main_c_17 main_v111 (broadcastInDim S50000 ![] bcast_S_S50000),
    binary main_v108 main_v111 main_v112 addi,
    ternary main_v110 main_v112 main_v108 main_v113 select,
    unary main_v113 main_v114 (broadcastInDim S50000x1 ![0] bcast_S50000_S50000x1_0),
    binary main_v1 main_v114 main_v115 (fun x i => Host.gather gather_S50001x256_S50000x1_S50000x256_1_0_n_n_0_1_1256 x i),
    unary main_arg1 main_v116 (extractStridedSlice S1x256x32 ![8, 0, 0] · slices_S9x256x32_S1x256x32_8_0_0),
    reshape main_v116 main_v117 rfl shapeCasts_S1x256x32_S256x32,
    binary main_v115 main_v117 main_v118 (fun l r => Host.dotGeneral dot_S50000x256_S256x32_S50000x32_1_0_0_1_n_n none l r),
    binary main_v106 main_v118 main_v119 addf,
    -- the leaky rectifier
    nullary main_cst_18 (constant S_ .f32 0x3C23D70A#32),
    TRef.nullary main_call0.cst (constant S_ .f32 0x00000000#32),
    TRef.unary main_call0.cst main_call0.v0 (broadcastInDim S50000x32 ![] bcast_S_S50000x32),
    TRef.binary (.of main_v119) main_call0.v0 main_call0.v1 (cmpf .oge),
    TRef.unary (.of main_cst_18) main_call0.v2 id,
    TRef.unary main_call0.v2 main_call0.v3 (broadcastInDim S50000x32 ![] bcast_S_S50000x32),
    TRef.binary main_call0.v3 (.of main_v119) main_call0.v4 mulf,
    TRef.ternary main_call0.v1 (.of main_v119) main_call0.v4 main_call0.call0.v0 select,
    -- the mean
    nullary main_cst_19 (constant S_ .f32 0x00000000#32),
    binary main_v120 main_cst_19 main_v121 (fun x v => Host.reduceAdd x v reducesTo_S50000x32_S32_d0 h_S_),
    nullary main_cst_20 (constant S_ .f32 0x47435000#32),
    unary main_cst_20 main_v122 (broadcastInDim S32 ![] bcast_S_S32),
    binary main_v121 main_v122 main_v123 Host.divf,
    nullary main_c_21 (constantI S_ 32 0#32),
    -- the variance
    TRef.nullary main_call1.cst (constant S_ .f32 0x00000000#32),
    TRef.binary (.of main_v120) main_call1.cst main_call1.v0 (fun x v => Host.reduceAdd x v reducesTo_S50000x32_S32_d0 h_S_),
    TRef.unary main_call1.v0 main_call1.v1 (broadcastInDim S1x32 ![1] bcast_S32_S1x32_1),
    TRef.nullary main_call1.cst_0 (constant S_ .f32 0x47435000#32),
    TRef.unary main_call1.cst_0 main_call1.v2 (broadcastInDim S1x32 ![] bcast_S_S1x32),
    TRef.binary main_call1.v1 main_call1.v2 main_call1.v3 Host.divf,
    TRef.unary main_call1.v3 main_call1.v4 (broadcastInDim S50000x32 ![0, 1] bcast_S1x32_S50000x32_0_1),
    TRef.binary (.of main_v120) main_call1.v4 main_call1.v5 subf,
    TRef.binary main_call1.v5 main_call1.v5 main_call1.v6 mulf,
    TRef.unary (.of main_c_21) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x32_S32_d0 h_S_),
    TRef.unary main_call1.v8 main_call1.v10 (broadcastInDim S32 ![] bcast_S_S32),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S32 ![] bcast_S_S32),
    TRef.ternary main_call1.v12 main_call1.v11 main_call1.call0.v1 main_call1.call0.v2 (fun p a b => select (broadcastInDim S32 ![] bcast_S_S32 p) a b),
    -- centre and scale
    unary main_v123 main_v125 (broadcastInDim S1x32 ![1] bcast_S32_S1x32_1),
    unary main_v125 main_v126 (broadcastInDim S50000x32 ![0, 1] bcast_S1x32_S50000x32_0_1),
    binary main_v120 main_v126 main_v127 subf,
    nullary main_cst_22 (constant S_ .f32 0x3727C5AC#32),
    unary main_cst_22 main_v128 (broadcastInDim S32 ![] bcast_S_S32),
    binary main_v124 main_v128 main_v129 addf,
    unary main_v129 main_v130 Host.rsqrt,
    unary main_v130 main_v131 (broadcastInDim S1x32 ![1] bcast_S32_S1x32_1),
    unary main_v131 main_v132 (broadcastInDim S50000x32 ![0, 1] bcast_S1x32_S50000x32_0_1),
    binary main_v127 main_v132 main_v133 mulf ]

/-- Statements 160–180: the second convolution's padded input, its zero accumulator, tap 0 and the head of tap 1. -/
abbrev r2b : List (HloOp τ sig (Elt F)) :=
  [ nullary main_cst_23 (constant S_ .f32 0x00000000#32),
    unary main_cst_23 main_v134 (broadcastInDim S1x32 ![] bcast_S_S1x32),
    binary main_v133 main_v134 main_v135 (fun a b => concatenate S50001x32 0 [⟨S50000x32, a⟩, ⟨S1x32, b⟩] concatenates_S50000x32_S1x32_S50001x32_d0),
    nullary main_cst_24 (constant S_ .f32 0x00000000#32),
    unary main_cst_24 main_v136 (broadcastInDim S50000x32 ![] bcast_S_S50000x32),
    unary main_arg11 main_v137 (extractStridedSlice S50000x1 ![0, 0] · slices_S50000x9_S50000x1_0_0),
    reshape main_v137 main_v138 rfl shapeCasts_S50000x1_S50000,
    nullary main_c_25 (constantI S_ 32 0#32),
    unary main_c_25 main_v139 (broadcastInDim S50000 ![] bcast_S_S50000),
    binary main_v138 main_v139 main_v140 (cmpi .slt),
    nullary main_c_26 (constantI S_ 32 50001#32),
    unary main_c_26 main_v141 (broadcastInDim S50000 ![] bcast_S_S50000),
    binary main_v138 main_v141 main_v142 addi,
    ternary main_v140 main_v142 main_v138 main_v143 select,
    unary main_v143 main_v144 (broadcastInDim S50000x1 ![0] bcast_S50000_S50000x1_0),
    binary main_v135 main_v144 main_v145 (fun x i => Host.gather gather_S50001x32_S50000x1_S50000x32_1_0_n_n_0_1_132 x i),
    unary main_arg2 main_v146 (extractStridedSlice S1x32x32 ![0, 0, 0] · slices_S9x32x32_S1x32x32_0_0_0),
    reshape main_v146 main_v147 rfl shapeCasts_S1x32x32_S32x32,
    binary main_v145 main_v147 main_v148 (fun l r => Host.dotGeneral dot_S50000x32_S32x32_S50000x32_1_0_0_1_n_n none l r),
    binary main_v136 main_v148 main_v149 addf,
    unary main_arg11 main_v150 (extractStridedSlice S50000x1 ![0, 1] · slices_S50000x9_S50000x1_0_1) ]

set_option maxRecDepth 2048 in
theorem part2_eq (d : Dev nD) : main_part2 (F := F) d = seq (r2a ++ r2b) := by
  simp only [main_part2, fn_leaky_relu.body, fn_where.body, fn_var.body, fn_where_0.body, seq, bind_assoc, pure_bind, List.cons_append, List.nil_append]
  rfl

end Cert.ReferenceIdeal.Run

end
-- ==== Proof.BridgeKernelGather.lean ====
/-
  The two gathers read at an index.

  Both programs look a voxel's neighbour up in the same way: a neighbour index n is wrapped when negative
  (n + 50001), read as a signed number, and clamped into the 50001 rows of the padded feature table; the gathered
  row is the table's row at that position. The kernel does it for all nine taps at once, on the neighbour table
  transposed to taps × voxels; the reference does it one tap at a time, on one column of the table. Either way
  tap k of voxel i reads row `row (nbr[i, k])`.
-/
import proofs.«141681_j16750372455151_2_alg».proof.Proof.KernelChain0
import Idealize.ShloMosaic.Lib.ValueIdx
import Idealize.ShloMosaic.Lib.ValueLayout
import Idealize.ShloMosaic.Lib.Pipeline.Value

set_option maxRecDepth 16384

noncomputable section

namespace Cert.KernelIdeal.Bridge

open Idealize.ShloMosaic Idealize.ShloMosaic.ValueIdx
open Idealize.ShloMosaic.TcCoe Idealize.SL.Sem
open Cert.KernelIdeal Cert.KernelIdeal.Gen Cert.KernelIdeal.Chain

/-- A negative neighbour index counts from the end of the 50001 rows. -/
def wrap (n : BitVec 32) : BitVec 32 := Scalar.select (IntOp.cmpi .slt n 0#32) (IntOp.addi n 50001#32) n

/-- The row of the padded table a neighbour index names: wrapped, read signed, clamped. -/
def row (n : BitVec 32) : Fin 50001 := ⟨min (wrap n).toInt.toNat 50000, by omega⟩

/-! ## The kernel's gather: all taps at once -/

abbrev GK := gather_S50001x256_S9x50000x1_S9x50000x256_2_0_n_n_0_2_1256

theorem kcoord0 (idx : IVec (⟨3, ![9, 50000, 1]⟩ : Shape) 32) (k : Fin 9) (i : Fin 50000) (c : Fin 256) :
    GK.start (ix3 k i c) idx (0 : Fin 2) + GK.batchCoord (ix3 k i c) (0 : Fin 2) + GK.offCoord (ix3 k i c) (0 : Fin 2)
      = min (idx (ix3 k i (0 : Fin 1))).toInt.toNat 50000 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GK.startIndexMap from List.mem_singleton.mpr rfl)]
  have hsi : GK.siIdx (ix3 k i c) ⟨List.idxOf (0 : Fin 2) GK.startIndexMap,
      List.idxOf_lt_length_iff.2 (List.mem_singleton.mpr rfl)⟩ = ix3 k i (0 : Fin 1) := by
    funext b; refine Fin.ext ?_
    match b with
    | ⟨0, _⟩ => rfl
    | ⟨1, _⟩ => rfl
    | ⟨2, _⟩ => rfl
  rw [hsi]
  rfl

theorem kcoord1 (idx : IVec (⟨3, ![9, 50000, 1]⟩ : Shape) 32) (k : Fin 9) (i : Fin 50000) (c : Fin 256) :
    GK.start (ix3 k i c) idx (1 : Fin 2) + GK.batchCoord (ix3 k i c) (1 : Fin 2) + GK.offCoord (ix3 k i c) (1 : Fin 2) = c.val := by
  rw [GatherDims.batchCoord_eq_zero _ _ _ List.not_mem_nil]
  unfold GatherDims.start
  rw [dif_neg (show (1 : Fin 2) ∉ GK.startIndexMap by decide)]
  unfold GatherDims.offCoord
  rw [dif_pos (show (1 : Fin 2) ∈ GK.sKept by decide)]
  simp only [Nat.zero_add, Nat.add_zero]
  rfl

/-- The kernel's gather at (k, i, c): the table's row at the clamped start index, channel c. -/
theorem kgather {α : Type} (x : (⟨2, ![50001, 256]⟩ : Shape).Idx → α) (idx : IVec (⟨3, ![9, 50000, 1]⟩ : Shape) 32)
    (k : Fin 9) (i : Fin 50000) (c : Fin 256) :
    Host.gather GK x idx (ix3 k i c) = x (ix2 ⟨min (idx (ix3 k i (0 : Fin 1))).toInt.toNat 50000, by omega⟩ c) := by
  unfold Host.gather
  congr 1
  funext a
  refine Fin.ext ?_
  match a with
  | ⟨0, _⟩ => exact kcoord0 idx k i c
  | ⟨1, _⟩ => exact kcoord1 idx k i c

/-- The transposed, wrapped neighbour table at (k, i) is the wrapped entry (i, k). -/
theorem wrapT9_apply (nbr : IVec (⟨2, ![50000, 9]⟩ : Shape) 32) (k : Fin 9) (i : Fin 50000) :
    wrapT9 nbr (ix2 k i) = wrap (nbr (ix2 i k)) := by
  show Scalar.select (IntOp.cmpi .slt (transpose (⟨2, ![9, 50000]⟩ : Shape) [1, 0] nbr transposes_S50000x9_S9x50000_1_0 (ix2 k i)) 0#32)
      (IntOp.addi (transpose (⟨2, ![9, 50000]⟩ : Shape) [1, 0] nbr transposes_S50000x9_S9x50000_1_0 (ix2 k i)) 50001#32)
      (transpose (⟨2, ![9, 50000]⟩ : Shape) [1, 0] nbr transposes_S50000x9_S9x50000_1_0 (ix2 k i)) = _
  rw [transpose_ix2_apply]
  rfl

/-- TAP k OF VOXEL i in the kernel's gathered array: the padded table's row `row (nbr[i, k])`. -/
theorem taps256_apply (x : FVec Ideal (⟨2, ![50000, 256]⟩ : Shape) .f32) (nbr : IVec (⟨2, ![50000, 9]⟩ : Shape) 32)
    (k : Fin 9) (i : Fin 50000) (c : Fin 256) :
    taps256 x nbr (ix3 k i c)
      = concatenate S50001x256 0 [⟨S50000x256, truncf (F := Ideal) .bf16 x bitsLt_bf16_f32⟩,
          ⟨S1x256, broadcastInDim S1x256 ![] bcast_S_S1x256 (constant (F := Ideal) S_ .bf16 0x0000#16)⟩]
          concatenates_S50000x256_S1x256_S50001x256_d0 (ix2 (row (nbr (ix2 i k))) c) := by
  unfold taps256
  refine (kgather _ _ k i c).trans ?_
  have hb : broadcastInDim S9x50000x1 ![0, 1] bcast_S9x50000_S9x50000x1_0_1
      (wrapT9 nbr) (ix3 k i (0 : Fin 1)) = wrapT9 nbr (ix2 k i) :=
    broadcastInDim_apply _ _ _ _ _ (fun a => by
      match a with
      | ⟨0, _⟩ => rfl
      | ⟨1, _⟩ => rfl)
  simp only [hb, wrapT9_apply]
  rfl

end Cert.KernelIdeal.Bridge

end
-- ==== Proof.BridgeRefTap.lean ====
/-
  One tap of the reference's convolution read at an index.

  For tap k the reference takes column k of the neighbour table, wraps its negative entries, gathers the padded
  feature table's rows at those indices (clamped), takes slice k of the weights, and multiplies on the host. At
  voxel i and output channel o this is  Σ_c xpad[row (nbr[i, k]), c] · W[k, c, o]  — the same sum the kernel's
  matrix unit forms for that tap.
-/
import proofs.«141681_j16750372455151_2_alg».proof.Proof.BridgeKernelGather
import proofs.«141681_j16750372455151_2_alg».proof.Proof.Gen.ReferenceIdeal
import Idealize.ShloMosaic.PureOps.Ideal.Laws

set_option maxRecDepth 16384

noncomputable section

namespace Cert.ReferenceIdeal.Bridge

open Idealize.ShloMosaic Idealize.ShloMosaic.ValueIdx Idealize.ShloMosaic.TcCoe Idealize.SL.Sem
open Cert.ReferenceIdeal Cert.ReferenceIdeal.Gen
open Cert.KernelIdeal.Bridge (wrap row)

/-! ## The reference's gather: one tap -/

abbrev GR := gather_S50001x256_S50000x1_S50000x256_1_0_n_n_0_1_1256

theorem rcoord0 (idx : IVec (⟨2, ![50000, 1]⟩ : Shape) 32) (i : Fin 50000) (c : Fin 256) :
    GR.start (ix2 i c) idx (0 : Fin 2) + GR.batchCoord (ix2 i c) (0 : Fin 2) + GR.offCoord (ix2 i c) (0 : Fin 2)
      = min (idx (ix2 i (0 : Fin 1))).toInt.toNat 50000 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GR.startIndexMap from List.mem_singleton.mpr rfl)]
  have hsi : GR.siIdx (ix2 i c) ⟨List.idxOf (0 : Fin 2) GR.startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

theorem rcoord1 (idx : IVec (⟨2, ![50000, 1]⟩ : Shape) 32) (i : Fin 50000) (c : Fin 256) :
    GR.start (ix2 i c) idx (1 : Fin 2) + GR.batchCoord (ix2 i c) (1 : Fin 2) + GR.offCoord (ix2 i c) (1 : Fin 2) = c.val := by
  rw [GatherDims.batchCoord_eq_zero _ _ _ List.not_mem_nil]
  unfold GatherDims.start
  rw [dif_neg (show (1 : Fin 2) ∉ GR.startIndexMap by decide)]
  unfold GatherDims.offCoord
  rw [dif_pos (show (1 : Fin 2) ∈ GR.sKept by decide)]
  simp only [Nat.zero_add, Nat.add_zero]
  rfl

/-- The reference's gather at (i, c): the table's row at the clamped start index, channel c. -/
theorem rgather {α : Type} (x : (⟨2, ![50001, 256]⟩ : Shape).Idx → α) (idx : IVec (⟨2, ![50000, 1]⟩ : Shape) 32)
    (i : Fin 50000) (c : Fin 256) :
    Host.gather GR x idx (ix2 i c) = x (ix2 ⟨min (idx (ix2 i (0 : Fin 1))).toInt.toNat 50000, by omega⟩ c) := by
  unfold Host.gather
  congr 1
  funext a
  refine Fin.ext ?_
  match a with
  | ⟨0, _⟩ => exact rcoord0 idx i c
  | ⟨1, _⟩ => exact rcoord1 idx i c

/-- Column k of the neighbour table, negative entries wrapped, as the gather's index array. -/
def colIdx (k : Fin 9) (hs : S50000x9.Slices ![0, k.val] S50000x1) (nbr : IVec S50000x9 32) : IVec S50000x1 32 :=
  broadcastInDim S50000x1 ![0] bcast_S50000_S50000x1_0
    (select (cmpi .slt (shapeCast S50000 (extractStridedSlice S50000x1 ![0, k.val] nbr hs) shapeCasts_S50000x1_S50000)
        (broadcastInDim S50000 ![] bcast_S_S50000 (constantI S_ 32 0#32)))
      (addi (shapeCast S50000 (extractStridedSlice S50000x1 ![0, k.val] nbr hs) shapeCasts_S50000x1_S50000)
        (broadcastInDim S50000 ![] bcast_S_S50000 (constantI S_ 32 50001#32)))
      (shapeCast S50000 (extractStridedSlice S50000x1 ![0, k.val] nbr hs) shapeCasts_S50000x1_S50000))

/-- Column k at voxel i is the table's entry (i, k). -/
theorem col_apply (k : Fin 9) (hs : S50000x9.Slices ![0, k.val] S50000x1) (nbr : IVec S50000x9 32) (i : Fin 50000) :
    shapeCast S50000 (extractStridedSlice S50000x1 ![0, k.val] nbr hs) shapeCasts_S50000x1_S50000 (ix1 i) = nbr (ix2 i k) := by
  rw [shapeCast_apply _ _ (ix1 i) (ix2 i (0 : Fin 1)) (by
    rw [Shape.rowMajor_val_two, Shape.rowMajor_val_one]
    show i.val * 1 + 0 = i.val
    omega)]
  exact slice2_axis1_apply k.val nbr hs i (0 : Fin 1) k (by show k.val = k.val + 0; omega)

/-- The index array at (i, 0) is the wrapped entry (i, k). -/
theorem colIdx_apply (k : Fin 9) (hs : S50000x9.Slices ![0, k.val] S50000x1) (nbr : IVec S50000x9 32) (i : Fin 50000) :
    colIdx k hs nbr (ix2 i (0 : Fin 1)) = wrap (nbr (ix2 i k)) := by
  unfold colIdx
  rw [broadcastInDim_apply _ _ _ (ix2 i (0 : Fin 1)) (ix1 i) (fun a => by
    match a with
    | ⟨0, _⟩ => rfl)]
  show Scalar.select (IntOp.cmpi .slt (shapeCast S50000 (extractStridedSlice S50000x1 ![0, k.val] nbr hs) shapeCasts_S50000x1_S50000 (ix1 i)) 0#32)
      (IntOp.addi (shapeCast S50000 (extractStridedSlice S50000x1 ![0, k.val] nbr hs) shapeCasts_S50000x1_S50000 (ix1 i)) 50001#32)
      (shapeCast S50000 (extractStridedSlice S50000x1 ![0, k.val] nbr hs) shapeCasts_S50000x1_S50000 (ix1 i)) = _
  rw [col_apply]
  rfl

/-! ## The host's product for one tap -/

abbrev DR := dot_S50000x256_S256x32_S50000x32_1_0_0_1_n_n

theorem dr_lhs_row (j : S50000x32.Idx) (s : DR.contr.Idx) : (DR.lhsIdx j s 0).val = (j 0).val := by
  unfold DotDims.lhsIdx
  rw [dif_neg (show ¬(0 : Fin S50000x256.rank) ∈ DR.lhsBatch by decide), dif_pos (show (0 : Fin S50000x256.rank) ∈ DR.lhsNonContracting by decide)]
  rfl
theorem dr_lhs_contr (j : S50000x32.Idx) (s : DR.contr.Idx) : (DR.lhsIdx j s 1).val = (s ⟨0, by decide⟩).val :=
  DR.lhsIdx_val_of_single rfl j s
theorem dr_rhs_contr (j : S50000x32.Idx) (s : DR.contr.Idx) : (DR.rhsIdx j s 0).val = (s ⟨0, by decide⟩).val :=
  DR.rhsIdx_val_of_single rfl j s
theorem dr_rhs_col (j : S50000x32.Idx) (s : DR.contr.Idx) : (DR.rhsIdx j s 1).val = (j 1).val := by
  unfold DotDims.rhsIdx
  rw [dif_neg (show ¬(1 : Fin S256x32.rank) ∈ DR.rhsBatch by decide), dif_pos (show (1 : Fin S256x32.rank) ∈ DR.rhsNonContracting by decide)]
  rfl

/-- Slice k of the weights, as a 256 × 32 matrix, at (c, o). -/
theorem wslice_apply (k : Fin 9) (hw : S9x256x32.Slices ![k.val, 0, 0] S1x256x32) (W : FVec Ideal S9x256x32 .f32) (c : Fin 256) (o : Fin 32) :
    shapeCast S256x32 (extractStridedSlice S1x256x32 ![k.val, 0, 0] W hw) shapeCasts_S1x256x32_S256x32 (ix2 c o) = W (ix3 k c o) := by
  rw [shapeCast_1ab_ab_apply]
  exact extractStridedSlice_apply _ _ hw _ (ix3 k c o) (fun a => by
    match a with
    | ⟨0, _⟩ => show k.val = k.val + 0; omega
    | ⟨1, _⟩ => show c.val = 0 + c.val; omega
    | ⟨2, _⟩ => show o.val = 0 + o.val; omega)

/-- TAP k OF THE REFERENCE at (i, o): the sum over the 256 input channels of the padded table's row
    `row (nbr[i, k])` times slice k of the weights. -/
theorem refTap_apply (k : Fin 9) (hs : S50000x9.Slices ![0, k.val] S50000x1) (hw : S9x256x32.Slices ![k.val, 0, 0] S1x256x32)
    (xp : FVec Ideal S50001x256 .f32) (nbr : IVec S50000x9 32) (W : FVec Ideal S9x256x32 .f32) (i : Fin 50000) (o : Fin 32) :
    (Host.dotGeneral (F := Ideal) DR none (Host.gather GR xp (colIdx k hs nbr))
      (shapeCast S256x32 (extractStridedSlice S1x256x32 ![k.val, 0, 0] W hw) shapeCasts_S1x256x32_S256x32) (ix2 i o) : EReal)
    = ∑ c : Fin 256, (xp (ix2 (row (nbr (ix2 i k))) c) : EReal) * (W (ix3 k c o) : EReal) := by
  simp only [Host.dotGeneral]
  rw [Ideal.dotGeneral_apply, ← Equiv.sum_comp (contrEquiv1 DR 256 rfl rfl).symm]
  refine Finset.sum_congr rfl fun c _ => ?_
  have hc := contrEquiv1_symm_val DR 256 rfl rfl c
  have el : DR.lhsIdx (ix2 i o) ((contrEquiv1 DR 256 rfl rfl).symm c) = ix2 i c := funext fun a => Fin.ext (by
    match a with
    | ⟨0, _⟩ => exact dr_lhs_row _ _
    | ⟨1, _⟩ => exact (dr_lhs_contr _ _).trans hc)
  have er : DR.rhsIdx (ix2 i o) ((contrEquiv1 DR 256 rfl rfl).symm c) = ix2 c o := funext fun a => Fin.ext (by
    match a with
    | ⟨0, _⟩ => exact (dr_rhs_contr _ _).trans hc
    | ⟨1, _⟩ => exact dr_rhs_col _ _)
  rw [el, er, wslice_apply, rgather]
  simp only [colIdx_apply]
  rfl

end Cert.ReferenceIdeal.Bridge

end
-- ==== Proof.RefLayerA.lean ====
/-
  The reference's 256 → 32 convolution as one term, read at an index, and its agreement with the kernel's.

  The reference adds nine host products onto a zero array, tap after tap. Tap k at (i, o) is
  Σ_c xpad[row (nbr[i, k]), c] · W[k, c, o]; the kernel's region computes, at (i, o), the leaky rectifier of the same
  nine sums added in the same order, from its gathered array, whose entry (k, i, c) is xpad[row (nbr[i, k]), c]. The
  two padded tables agree: narrowing to bf16 is the identity over the extended reals and both zero rows are 0.
-/
import proofs.«141681_j16750372455151_2_alg».proof.Proof.BridgeRefTap
import proofs.«141681_j16750372455151_2_alg».proof.Proof.HostFns

set_option maxRecDepth 16384

noncomputable section

namespace Cert.ReferenceIdeal.Bridge

open Idealize.ShloMosaic Idealize.ShloMosaic.ValueIdx Idealize.ShloMosaic.TcCoe Idealize.SL.Sem
open Cert.ReferenceIdeal Cert.ReferenceIdeal.Gen Cert.ReferenceIdeal.Fns Cert.SparseConv
open Cert.KernelIdeal.Bridge (wrap row)

theorem slicesN : ∀ k : Fin 9, S50000x9.Slices ![0, k.val] S50000x1 := by decide
theorem slicesW : ∀ k : Fin 9, S9x256x32.Slices ![k.val, 0, 0] S1x256x32 := by decide

/-- The reference's padded feature table: the features with one all-zero row appended. -/
def xpadR (x : FVec Ideal S50000x256 .f32) : FVec Ideal S50001x256 .f32 :=
  concatenate S50001x256 0 [⟨S50000x256, x⟩, ⟨S1x256, broadcastInDim S1x256 ![] bcast_S_S1x256 (constant (F := Ideal) S_ .f32 0x00000000#32)⟩]
    concatenates_S50000x256_S1x256_S50001x256_d0

/-- Tap k of the reference, as an array. -/
def refTapArr (k : Fin 9) (x : FVec Ideal S50000x256 .f32) (nbr : IVec S50000x9 32) (W : FVec Ideal S9x256x32 .f32) : FVec Ideal S50000x32 .f32 :=
  Host.dotGeneral (F := Ideal) DR none (Host.gather GR (xpadR x) (colIdx k (slicesN k) nbr))
    (shapeCast S256x32 (extractStridedSlice S1x256x32 ![k.val, 0, 0] W (slicesW k)) shapeCasts_S1x256x32_S256x32)

/-- The reference's convolution: the nine taps added in order onto a zero array. -/
def refConv (x : FVec Ideal S50000x256 .f32) (nbr : IVec S50000x9 32) (W : FVec Ideal S9x256x32 .f32) : FVec Ideal S50000x32 .f32 :=
  addf (addf (addf (addf (addf (addf (addf (addf (addf
    (broadcastInDim S50000x32 ![] bcast_S_S50000x32 (constant (F := Ideal) S_ .f32 0x00000000#32))
    (refTapArr 0 x nbr W)) (refTapArr 1 x nbr W)) (refTapArr 2 x nbr W)) (refTapArr 3 x nbr W)) (refTapArr 4 x nbr W))
    (refTapArr 5 x nbr W)) (refTapArr 6 x nbr W)) (refTapArr 7 x nbr W)) (refTapArr 8 x nbr W)

/-- The reference's convolution at (i, o). -/
theorem refConv_apply (x : FVec Ideal S50000x256 .f32) (nbr : IVec S50000x9 32) (W : FVec Ideal S9x256x32 .f32) (i : Fin 50000) (o : Fin 32) :
    (refConv x nbr W (ix2 i o) : EReal)
      = acc9 fun k => ∑ c : Fin 256, (xpadR x (ix2 (row (nbr (ix2 i k))) c) : EReal) * (W (ix3 k c o) : EReal) := by
  show acc9 ![refTapArr 0 x nbr W (ix2 i o), refTapArr 1 x nbr W (ix2 i o), refTapArr 2 x nbr W (ix2 i o), refTapArr 3 x nbr W (ix2 i o),
    refTapArr 4 x nbr W (ix2 i o), refTapArr 5 x nbr W (ix2 i o), refTapArr 6 x nbr W (ix2 i o), refTapArr 7 x nbr W (ix2 i o),
    refTapArr 8 x nbr W (ix2 i o)] = _
  refine congrArg acc9 (funext fun k => ?_)
  fin_cases k
  · exact refTap_apply 0 _ _ (xpadR x) nbr W i o
  · exact refTap_apply 1 _ _ (xpadR x) nbr W i o
  · exact refTap_apply 2 _ _ (xpadR x) nbr W i o
  · exact refTap_apply 3 _ _ (xpadR x) nbr W i o
  · exact refTap_apply 4 _ _ (xpadR x) nbr W i o
  · exact refTap_apply 5 _ _ (xpadR x) nbr W i o
  · exact refTap_apply 6 _ _ (xpadR x) nbr W i o
  · exact refTap_apply 7 _ _ (xpadR x) nbr W i o
  · exact refTap_apply 8 _ _ (xpadR x) nbr W i o

/-- The two padded tables are one: narrowing is the identity and both zero words read 0. -/
theorem xpad_eq (x : FVec Ideal S50000x256 .f32) :
    (concatenate Cert.KernelIdeal.S50001x256 0 [⟨Cert.KernelIdeal.S50000x256, truncf (F := Ideal) .bf16 x (by decide)⟩,
        ⟨Cert.KernelIdeal.S1x256, broadcastInDim Cert.KernelIdeal.S1x256 ![] Cert.KernelIdeal.Gen.bcast_S_S1x256 (constant (F := Ideal) Cert.KernelIdeal.S_ .bf16 0x0000#16)⟩]
        Cert.KernelIdeal.Gen.concatenates_S50000x256_S1x256_S50001x256_d0 : S50001x256.Idx → EReal) = xpadR x := by
  have hz : (constant (F := Ideal) Cert.KernelIdeal.S_ .bf16 0x0000#16 : S_.Idx → EReal) = constant (F := Ideal) S_ .f32 0x00000000#32 := by
    funext j
    show Ideal.ofBits .bf16 0x0000#16 = Ideal.ofBits .f32 0x00000000#32
    simp [Ideal.ofBits, Ideal.ieee]
  unfold xpadR
  rw [← hz]
  rfl

/-- THE LAYER: the kernel's region value on its gathered taps is the leaky rectifier of the reference's convolution. -/
theorem layer_eq (x : FVec Ideal S50000x256 .f32) (nbr : IVec S50000x9 32) (W : FVec Ideal S9x256x32 .f32) :
    (Cert.KernelIdeal.Conv0.conv (Cert.KernelIdeal.Chain.taps256 x nbr) (truncf (F := Ideal) .bf16 W (by decide)) : S50000x32.Idx → EReal)
      = lrelu32 (refConv x nbr W) := by
  funext j
  obtain ⟨i, o, rfl⟩ : ∃ (i : Fin 50000) (o : Fin 32), j = ix2 i o := ⟨j 0, j 1, eq_ix2 j⟩
  show lrelu (acc9 fun k => ∑ c : Fin 256, (Cert.KernelIdeal.Chain.taps256 x nbr (ix3 k i c) : EReal) * (W (ix3 k c o) : EReal))
    = lrelu (refConv x nbr W (ix2 i o))
  rw [refConv_apply]
  refine congrArg lrelu (congrArg acc9 (funext fun k => Finset.sum_congr rfl fun c _ => ?_))
  rw [Cert.KernelIdeal.Bridge.taps256_apply, ← xpad_eq]

end Cert.ReferenceIdeal.Bridge

end
-- ==== Proof.RefEval1.lean ====
/-
  What one convolution block of the reference computes, from ANY contents V of the buffers before it: the operations'
  composed term is the batch normalisation of the leaky rectifier of the convolution of its input, neighbour table and
  weights as V holds them.
-/
import proofs.«141681_j16750372455151_2_alg».proof.Proof.RefRunA
import proofs.«141681_j16750372455151_2_alg».proof.Proof.RefLayerA

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.ReferenceIdeal.Fns

set_option maxHeartbeats 8000000 in
theorem E1 (V : Valuation τ sig (Elt Ideal)) :
    (after (r2a (F := Ideal)) (after (r1 (F := Ideal)) (after (r0 (F := Ideal)) V)) (Proc.devRef .tc main_v133) : S50000x32.Idx → EReal)
      = bn32 (lrelu32 (Cert.ReferenceIdeal.Bridge.refConv (V (Proc.devRef .tc main_arg0)) (V (Proc.devRef .tc main_arg10)) (V (Proc.devRef .tc main_arg1)))) := by
  after_results_simp <;> rfl

end Cert.ReferenceIdeal.Run

end
-- ==== Proof.RefRunB.lean ====
/-
  The reference's run, continued: the second convolution (32 → 32) and the third (256 → 32), as lists of host operations window by window (the outlined functions
  unfolded over their calls' buffers); each printed window is the sequencing of its lists, by definition.
-/
import proofs.«141681_j16750372455151_2_alg».proof.Proof.RefRunA

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Statements 181–240 (second convolution: the rest of tap 1, taps 2–4, the head of tap 5). -/
abbrev r3 : List (HloOp τ sig (Elt F)) :=
  [ reshape main_v150 main_v151 rfl shapeCasts_S50000x1_S50000,
    nullary main_c_27 (constantI S_ 32 0#32),
    unary main_c_27 main_v152 (broadcastInDim S50000 ![] bcast_S_S50000),
    binary main_v151 main_v152 main_v153 (cmpi .slt),
    nullary main_c_28 (constantI S_ 32 50001#32),
    unary main_c_28 main_v154 (broadcastInDim S50000 ![] bcast_S_S50000),
    binary main_v151 main_v154 main_v155 addi,
    ternary main_v153 main_v155 main_v151 main_v156 select,
    unary main_v156 main_v157 (broadcastInDim S50000x1 ![0] bcast_S50000_S50000x1_0),
    binary main_v135 main_v157 main_v158 (fun x i => Host.gather gather_S50001x32_S50000x1_S50000x32_1_0_n_n_0_1_132 x i),
    unary main_arg2 main_v159 (extractStridedSlice S1x32x32 ![1, 0, 0] · slices_S9x32x32_S1x32x32_1_0_0),
    reshape main_v159 main_v160 rfl shapeCasts_S1x32x32_S32x32,
    binary main_v158 main_v160 main_v161 (fun l r => Host.dotGeneral dot_S50000x32_S32x32_S50000x32_1_0_0_1_n_n none l r),
    binary main_v149 main_v161 main_v162 addf,
    -- tap 2
    unary main_arg11 main_v163 (extractStridedSlice S50000x1 ![0, 2] · slices_S50000x9_S50000x1_0_2),
    reshape main_v163 main_v164 rfl shapeCasts_S50000x1_S50000,
    nullary main_c_29 (constantI S_ 32 0#32),
    unary main_c_29 main_v165 (broadcastInDim S50000 ![] bcast_S_S50000),
    binary main_v164 main_v165 main_v166 (cmpi .slt),
    nullary main_c_30 (constantI S_ 32 50001#32),
    unary main_c_30 main_v167 (broadcastInDim S50000 ![] bcast_S_S50000),
    binary main_v164 main_v167 main_v168 addi,
    ternary main_v166 main_v168 main_v164 main_v169 select,
    unary main_v169 main_v170 (broadcastInDim S50000x1 ![0] bcast_S50000_S50000x1_0),
    binary main_v135 main_v170 main_v171 (fun x i => Host.gather gather_S50001x32_S50000x1_S50000x32_1_0_n_n_0_1_132 x i),
    unary main_arg2 main_v172 (extractStridedSlice S1x32x32 ![2, 0, 0] · slices_S9x32x32_S1x32x32_2_0_0),
    reshape main_v172 main_v173 rfl shapeCasts_S1x32x32_S32x32,
    binary main_v171 main_v173 main_v174 (fun l r => Host.dotGeneral dot_S50000x32_S32x32_S50000x32_1_0_0_1_n_n none l r),
    binary main_v162 main_v174 main_v175 addf,
    -- tap 3
    unary main_arg11 main_v176 (extractStridedSlice S50000x1 ![0, 3] · slices_S50000x9_S50000x1_0_3),
    reshape main_v176 main_v177 rfl shapeCasts_S50000x1_S50000,
    nullary main_c_31 (constantI S_ 32 0#32),
    unary main_c_31 main_v178 (broadcastInDim S50000 ![] bcast_S_S50000),
    binary main_v177 main_v178 main_v179 (cmpi .slt),
    nullary main_c_32 (constantI S_ 32 50001#32),
    unary main_c_32 main_v180 (broadcastInDim S50000 ![] bcast_S_S50000),
    binary main_v177 main_v180 main_v181 addi,
    ternary main_v179 main_v181 main_v177 main_v182 select,
    unary main_v182 main_v183 (broadcastInDim S50000x1 ![0] bcast_S50000_S50000x1_0),
    binary main_v135 main_v183 main_v184 (fun x i => Host.gather gather_S50001x32_S50000x1_S50000x32_1_0_n_n_0_1_132 x i),
    unary main_arg2 main_v185 (extractStridedSlice S1x32x32 ![3, 0, 0] · slices_S9x32x32_S1x32x32_3_0_0),
    reshape main_v185 main_v186 rfl shapeCasts_S1x32x32_S32x32,
    binary main_v184 main_v186 main_v187 (fun l r => Host.dotGeneral dot_S50000x32_S32x32_S50000x32_1_0_0_1_n_n none l r),
    binary main_v175 main_v187 main_v188 addf,
    -- tap 4
    unary main_arg11 main_v189 (extractStridedSlice S50000x1 ![0, 4] · slices_S50000x9_S50000x1_0_4),
    reshape main_v189 main_v190 rfl shapeCasts_S50000x1_S50000,
    nullary main_c_33 (constantI S_ 32 0#32),
    unary main_c_33 main_v191 (broadcastInDim S50000 ![] bcast_S_S50000),
    binary main_v190 main_v191 main_v192 (cmpi .slt),
    nullary main_c_34 (constantI S_ 32 50001#32),
    unary main_c_34 main_v193 (broadcastInDim S50000 ![] bcast_S_S50000),
    binary main_v190 main_v193 main_v194 addi,
    ternary main_v192 main_v194 main_v190 main_v195 select,
    unary main_v195 main_v196 (broadcastInDim S50000x1 ![0] bcast_S50000_S50000x1_0),
    binary main_v135 main_v196 main_v197 (fun x i => Host.gather gather_S50001x32_S50000x1_S50000x32_1_0_n_n_0_1_132 x i),
    unary main_arg2 main_v198 (extractStridedSlice S1x32x32 ![4, 0, 0] · slices_S9x32x32_S1x32x32_4_0_0),
    reshape main_v198 main_v199 rfl shapeCasts_S1x32x32_S32x32,
    binary main_v197 main_v199 main_v200 (fun l r => Host.dotGeneral dot_S50000x32_S32x32_S50000x32_1_0_0_1_n_n none l r),
    binary main_v188 main_v200 main_v201 addf,
    -- tap 5, its first statement
    unary main_arg11 main_v202 (extractStridedSlice S50000x1 ![0, 5] · slices_S50000x9_S50000x1_0_5) ]

theorem part3_eq (d : Dev nD) : main_part3 (F := F) d = seq r3 := rfl

/-- Statements 241–300 (second convolution: the rest of tap 5, taps 6–8, the slope constant). -/
abbrev r4 : List (HloOp τ sig (Elt F)) :=
  [ reshape main_v202 main_v203 rfl shapeCasts_S50000x1_S50000,
    nullary main_c_35 (constantI S_ 32 0#32),
    unary main_c_35 main_v204 (broadcastInDim S50000 ![] bcast_S_S50000),
    binary main_v203 main_v204 main_v205 (cmpi .slt),
    nullary main_c_36 (constantI S_ 32 50001#32),
    unary main_c_36 main_v206 (broadcastInDim S50000 ![] bcast_S_S50000),
    binary main_v203 main_v206 main_v207 addi,
    ternary main_v205 main_v207 main_v203 main_v208 select,
    unary main_v208 main_v209 (broadcastInDim S50000x1 ![0] bcast_S50000_S50000x1_0),
    binary main_v135 main_v209 main_v210 (fun x i => Host.gather gather_S50001x32_S50000x1_S50000x32_1_0_n_n_0_1_132 x i),
    unary main_arg2 main_v211 (extractStridedSlice S1x32x32 ![5, 0, 0] · slices_S9x32x32_S1x32x32_5_0_0),
    reshape main_v211 main_v212 rfl shapeCasts_S1x32x32_S32x32,
    binary main_v210 main_v212 main_v213 (fun l r => Host.dotGeneral dot_S50000x32_S32x32_S50000x32_1_0_0_1_n_n none l r),
    binary main_v201 main_v213 main_v214 addf,
    -- tap 6
    unary main_arg11 main_v215 (extractStridedSlice S50000x1 ![0, 6] · slices_S50000x9_S50000x1_0_6),
    reshape main_v215 main_v216 rfl shapeCasts_S50000x1_S50000,
    nullary main_c_37 (constantI S_ 32 0#32),
    unary main_c_37 main_v217 (broadcastInDim S50000 ![] bcast_S_S50000),
    binary main_v216 main_v217 main_v218 (cmpi .slt),
    nullary main_c_38 (constantI S_ 32 50001#32),
    unary main_c_38 main_v219 (broadcastInDim S50000 ![] bcast_S_S50000),
    binary main_v216 main_v219 main_v220 addi,
    ternary main_v218 main_v220 main_v216 main_v221 select,
    unary main_v221 main_v222 (broadcastInDim S50000x1 ![0] bcast_S50000_S50000x1_0),
    binary main_v135 main_v222 main_v223 (fun x i => Host.gather gather_S50001x32_S50000x1_S50000x32_1_0_n_n_0_1_132 x i),
    unary main_arg2 main_v224 (extractStridedSlice S1x32x32 ![6, 0, 0] · slices_S9x32x32_S1x32x32_6_0_0),
    reshape main_v224 main_v225 rfl shapeCasts_S1x32x32_S32x32,
    binary main_v223 main_v225 main_v226 (fun l r => Host.dotGeneral dot_S50000x32_S32x32_S50000x32_1_0_0_1_n_n none l r),
    binary main_v214 main_v226 main_v227 addf,
    -- tap 7
    unary main_arg11 main_v228 (extractStridedSlice S50000x1 ![0, 7] · slices_S50000x9_S50000x1_0_7),
    reshape main_v228 main_v229 rfl shapeCasts_S50000x1_S50000,
    nullary main_c_39 (constantI S_ 32 0#32),
    unary main_c_39 main_v230 (broadcastInDim S50000 ![] bcast_S_S50000),
    binary main_v229 main_v230 main_v231 (cmpi .slt),
    nullary main_c_40 (constantI S_ 32 50001#32),
    unary main_c_40 main_v232 (broadcastInDim S50000 ![] bcast_S_S50000),
    binary main_v229 main_v232 main_v233 addi,
    ternary main_v231 main_v233 main_v229 main_v234 select,
    unary main_v234 main_v235 (broadcastInDim S50000x1 ![0] bcast_S50000_S50000x1_0),
    binary main_v135 main_v235 main_v236 (fun x i => Host.gather gather_S50001x32_S50000x1_S50000x32_1_0_n_n_0_1_132 x i),
    unary main_arg2 main_v237 (extractStridedSlice S1x32x32 ![7, 0, 0] · slices_S9x32x32_S1x32x32_7_0_0),
    reshape main_v237 main_v238 rfl shapeCasts_S1x32x32_S32x32,
    binary main_v236 main_v238 main_v239 (fun l r => Host.dotGeneral dot_S50000x32_S32x32_S50000x32_1_0_0_1_n_n none l r),
    binary main_v227 main_v239 main_v240 addf,
    -- tap 8
    unary main_arg11 main_v241 (extractStridedSlice S50000x1 ![0, 8] · slices_S50000x9_S50000x1_0_8),
    reshape main_v241 main_v242 rfl shapeCasts_S50000x1_S50000,
    nullary main_c_41 (constantI S_ 32 0#32),
    unary main_c_41 main_v243 (broadcastInDim S50000 ![] bcast_S_S50000),
    binary main_v242 main_v243 main_v244 (cmpi .slt),
    nullary main_c_42 (constantI S_ 32 50001#32),
    unary main_c_42 main_v245 (broadcastInDim S50000 ![] bcast_S_S50000),
    binary main_v242 main_v245 main_v246 addi,
    ternary main_v244 main_v246 main_v242 main_v247 select,
    unary main_v247 main_v248 (broadcastInDim S50000x1 ![0] bcast_S50000_S50000x1_0),
    binary main_v135 main_v248 main_v249 (fun x i => Host.gather gather_S50001x32_S50000x1_S50000x32_1_0_n_n_0_1_132 x i),
    unary main_arg2 main_v250 (extractStridedSlice S1x32x32 ![8, 0, 0] · slices_S9x32x32_S1x32x32_8_0_0),
    reshape main_v250 main_v251 rfl shapeCasts_S1x32x32_S32x32,
    binary main_v249 main_v251 main_v252 (fun l r => Host.dotGeneral dot_S50000x32_S32x32_S50000x32_1_0_0_1_n_n none l r),
    binary main_v240 main_v252 main_v253 addf,
    nullary main_cst_43 (constant S_ .f32 0x3C23D70A#32) ]

theorem part4_eq (d : Dev nD) : main_part4 (F := F) d = seq r4 := rfl
/-- Statements 301–318: convolution 2, its statements 142–159 of 159. -/
abbrev r5a : List (HloOp τ sig (Elt F)) :=
  [ TRef.nullary main_call2.cst (constant S_ .f32 0x00000000#32),
    TRef.unary main_call2.cst main_call2.v0 (broadcastInDim S50000x32 ![] bcast_S_S50000x32),
    TRef.binary (.of main_v253) main_call2.v0 main_call2.v1 (cmpf .oge),
    TRef.unary (.of main_cst_43) main_call2.v2 id,
    TRef.unary main_call2.v2 main_call2.v3 (broadcastInDim S50000x32 ![] bcast_S_S50000x32),
    TRef.binary main_call2.v3 (.of main_v253) main_call2.v4 mulf,
    TRef.ternary main_call2.v1 (.of main_v253) main_call2.v4 main_call2.call0.v0 select,
    nullary main_cst_44 (constant S_ .f32 0x00000000#32),
    binary main_v254 main_cst_44 main_v255 (fun x v => Host.reduceAdd x v reducesTo_S50000x32_S32_d0 h_S_),
    nullary main_cst_45 (constant S_ .f32 0x47435000#32),
    unary main_cst_45 main_v256 (broadcastInDim S32 ![] bcast_S_S32),
    binary main_v255 main_v256 main_v257 Host.divf,
    nullary main_c_46 (constantI S_ 32 0#32),
    TRef.nullary main_call3.cst (constant S_ .f32 0x00000000#32),
    TRef.binary (.of main_v254) main_call3.cst main_call3.v0 (fun x v => Host.reduceAdd x v reducesTo_S50000x32_S32_d0 h_S_),
    TRef.unary main_call3.v0 main_call3.v1 (broadcastInDim S1x32 ![1] bcast_S32_S1x32_1),
    TRef.nullary main_call3.cst_0 (constant S_ .f32 0x47435000#32),
    TRef.unary main_call3.cst_0 main_call3.v2 (broadcastInDim S1x32 ![] bcast_S_S1x32),
    TRef.binary main_call3.v1 main_call3.v2 main_call3.v3 Host.divf,
    TRef.unary main_call3.v3 main_call3.v4 (broadcastInDim S50000x32 ![0, 1] bcast_S1x32_S50000x32_0_1),
    TRef.binary (.of main_v254) main_call3.v4 main_call3.v5 subf,
    TRef.binary main_call3.v5 main_call3.v5 main_call3.v6 mulf,
    TRef.unary (.of main_c_46) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x32_S32_d0 h_S_),
    TRef.unary main_call3.v8 main_call3.v10 (broadcastInDim S32 ![] bcast_S_S32),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S32 ![] bcast_S_S32),
    TRef.ternary main_call3.v12 main_call3.v11 main_call3.call0.v1 main_call3.call0.v2 (fun p a b => select (broadcastInDim S32 ![] bcast_S_S32 p) a b),
    unary main_v257 main_v259 (broadcastInDim S1x32 ![1] bcast_S32_S1x32_1),
    unary main_v259 main_v260 (broadcastInDim S50000x32 ![0, 1] bcast_S1x32_S50000x32_0_1),
    binary main_v254 main_v260 main_v261 subf,
    nullary main_cst_47 (constant S_ .f32 0x3727C5AC#32),
    unary main_cst_47 main_v262 (broadcastInDim S32 ![] bcast_S_S32),
    binary main_v258 main_v262 main_v263 addf,
    unary main_v263 main_v264 Host.rsqrt,
    unary main_v264 main_v265 (broadcastInDim S1x32 ![1] bcast_S32_S1x32_1),
    unary main_v265 main_v266 (broadcastInDim S50000x32 ![0, 1] bcast_S1x32_S50000x32_0_1),
    binary main_v261 main_v266 main_v267 mulf ]
/-- Statements 319–360: convolution 3, its statements 1–42 of 159. -/
abbrev r5b : List (HloOp τ sig (Elt F)) :=
  [ nullary main_cst_48 (constant S_ .f32 0x00000000#32),
    unary main_cst_48 main_v268 (broadcastInDim S1x256 ![] bcast_S_S1x256),
    binary main_arg0 main_v268 main_v269 (fun a b => concatenate S50001x256 0 [⟨S50000x256, a⟩, ⟨S1x256, b⟩] concatenates_S50000x256_S1x256_S50001x256_d0),
    nullary main_cst_49 (constant S_ .f32 0x00000000#32),
    unary main_cst_49 main_v270 (broadcastInDim S50000x32 ![] bcast_S_S50000x32),
    unary main_arg11 main_v271 (extractStridedSlice S50000x1 ![0, 0] · slices_S50000x9_S50000x1_0_0),
    reshape main_v271 main_v272 rfl shapeCasts_S50000x1_S50000,
    nullary main_c_50 (constantI S_ 32 0#32),
    unary main_c_50 main_v273 (broadcastInDim S50000 ![] bcast_S_S50000),
    binary main_v272 main_v273 main_v274 (cmpi .slt),
    nullary main_c_51 (constantI S_ 32 50001#32),
    unary main_c_51 main_v275 (broadcastInDim S50000 ![] bcast_S_S50000),
    binary main_v272 main_v275 main_v276 addi,
    ternary main_v274 main_v276 main_v272 main_v277 select,
    unary main_v277 main_v278 (broadcastInDim S50000x1 ![0] bcast_S50000_S50000x1_0),
    binary main_v269 main_v278 main_v279 (fun x i => Host.gather gather_S50001x256_S50000x1_S50000x256_1_0_n_n_0_1_1256 x i),
    unary main_arg3 main_v280 (extractStridedSlice S1x256x32 ![0, 0, 0] · slices_S9x256x32_S1x256x32_0_0_0),
    reshape main_v280 main_v281 rfl shapeCasts_S1x256x32_S256x32,
    binary main_v279 main_v281 main_v282 (fun l r => Host.dotGeneral dot_S50000x256_S256x32_S50000x32_1_0_0_1_n_n none l r),
    binary main_v270 main_v282 main_v283 addf,
    unary main_arg11 main_v284 (extractStridedSlice S50000x1 ![0, 1] · slices_S50000x9_S50000x1_0_1),
    reshape main_v284 main_v285 rfl shapeCasts_S50000x1_S50000,
    nullary main_c_52 (constantI S_ 32 0#32),
    unary main_c_52 main_v286 (broadcastInDim S50000 ![] bcast_S_S50000),
    binary main_v285 main_v286 main_v287 (cmpi .slt),
    nullary main_c_53 (constantI S_ 32 50001#32),
    unary main_c_53 main_v288 (broadcastInDim S50000 ![] bcast_S_S50000),
    binary main_v285 main_v288 main_v289 addi,
    ternary main_v287 main_v289 main_v285 main_v290 select,
    unary main_v290 main_v291 (broadcastInDim S50000x1 ![0] bcast_S50000_S50000x1_0),
    binary main_v269 main_v291 main_v292 (fun x i => Host.gather gather_S50001x256_S50000x1_S50000x256_1_0_n_n_0_1_1256 x i),
    unary main_arg3 main_v293 (extractStridedSlice S1x256x32 ![1, 0, 0] · slices_S9x256x32_S1x256x32_1_0_0),
    reshape main_v293 main_v294 rfl shapeCasts_S1x256x32_S256x32,
    binary main_v292 main_v294 main_v295 (fun l r => Host.dotGeneral dot_S50000x256_S256x32_S50000x32_1_0_0_1_n_n none l r),
    binary main_v283 main_v295 main_v296 addf,
    unary main_arg11 main_v297 (extractStridedSlice S50000x1 ![0, 2] · slices_S50000x9_S50000x1_0_2),
    reshape main_v297 main_v298 rfl shapeCasts_S50000x1_S50000,
    nullary main_c_54 (constantI S_ 32 0#32),
    unary main_c_54 main_v299 (broadcastInDim S50000 ![] bcast_S_S50000),
    binary main_v298 main_v299 main_v300 (cmpi .slt),
    nullary main_c_55 (constantI S_ 32 50001#32),
    unary main_c_55 main_v301 (broadcastInDim S50000 ![] bcast_S_S50000) ]
set_option maxRecDepth 4096 in
theorem part5_eq (d : Dev nD) : main_part5 (F := F) d = seq (r5a ++ r5b) := by
  simp only [main_part5, fn_leaky_relu.body, fn_where.body, fn_var.body, fn_where_0.body, fn_leaky_relu_1.body, fn_where_2.body, fn_var_3.body, fn_where_4.body, seq, bind_assoc, pure_bind, List.cons_append, List.nil_append, List.append_assoc]
  rfl
/-- Statements 361–420: convolution 3, its statements 43–102 of 159. -/
abbrev r6 : List (HloOp τ sig (Elt F)) :=
  [ binary main_v298 main_v301 main_v302 addi,
    ternary main_v300 main_v302 main_v298 main_v303 select,
    unary main_v303 main_v304 (broadcastInDim S50000x1 ![0] bcast_S50000_S50000x1_0),
    binary main_v269 main_v304 main_v305 (fun x i => Host.gather gather_S50001x256_S50000x1_S50000x256_1_0_n_n_0_1_1256 x i),
    unary main_arg3 main_v306 (extractStridedSlice S1x256x32 ![2, 0, 0] · slices_S9x256x32_S1x256x32_2_0_0),
    reshape main_v306 main_v307 rfl shapeCasts_S1x256x32_S256x32,
    binary main_v305 main_v307 main_v308 (fun l r => Host.dotGeneral dot_S50000x256_S256x32_S50000x32_1_0_0_1_n_n none l r),
    binary main_v296 main_v308 main_v309 addf,
    unary main_arg11 main_v310 (extractStridedSlice S50000x1 ![0, 3] · slices_S50000x9_S50000x1_0_3),
    reshape main_v310 main_v311 rfl shapeCasts_S50000x1_S50000,
    nullary main_c_56 (constantI S_ 32 0#32),
    unary main_c_56 main_v312 (broadcastInDim S50000 ![] bcast_S_S50000),
    binary main_v311 main_v312 main_v313 (cmpi .slt),
    nullary main_c_57 (constantI S_ 32 50001#32),
    unary main_c_57 main_v314 (broadcastInDim S50000 ![] bcast_S_S50000),
    binary main_v311 main_v314 main_v315 addi,
    ternary main_v313 main_v315 main_v311 main_v316 select,
    unary main_v316 main_v317 (broadcastInDim S50000x1 ![0] bcast_S50000_S50000x1_0),
    binary main_v269 main_v317 main_v318 (fun x i => Host.gather gather_S50001x256_S50000x1_S50000x256_1_0_n_n_0_1_1256 x i),
    unary main_arg3 main_v319 (extractStridedSlice S1x256x32 ![3, 0, 0] · slices_S9x256x32_S1x256x32_3_0_0),
    reshape main_v319 main_v320 rfl shapeCasts_S1x256x32_S256x32,
    binary main_v318 main_v320 main_v321 (fun l r => Host.dotGeneral dot_S50000x256_S256x32_S50000x32_1_0_0_1_n_n none l r),
    binary main_v309 main_v321 main_v322 addf,
    unary main_arg11 main_v323 (extractStridedSlice S50000x1 ![0, 4] · slices_S50000x9_S50000x1_0_4),
    reshape main_v323 main_v324 rfl shapeCasts_S50000x1_S50000,
    nullary main_c_58 (constantI S_ 32 0#32),
    unary main_c_58 main_v325 (broadcastInDim S50000 ![] bcast_S_S50000),
    binary main_v324 main_v325 main_v326 (cmpi .slt),
    nullary main_c_59 (constantI S_ 32 50001#32),
    unary main_c_59 main_v327 (broadcastInDim S50000 ![] bcast_S_S50000),
    binary main_v324 main_v327 main_v328 addi,
    ternary main_v326 main_v328 main_v324 main_v329 select,
    unary main_v329 main_v330 (broadcastInDim S50000x1 ![0] bcast_S50000_S50000x1_0),
    binary main_v269 main_v330 main_v331 (fun x i => Host.gather gather_S50001x256_S50000x1_S50000x256_1_0_n_n_0_1_1256 x i),
    unary main_arg3 main_v332 (extractStridedSlice S1x256x32 ![4, 0, 0] · slices_S9x256x32_S1x256x32_4_0_0),
    reshape main_v332 main_v333 rfl shapeCasts_S1x256x32_S256x32,
    binary main_v331 main_v333 main_v334 (fun l r => Host.dotGeneral dot_S50000x256_S256x32_S50000x32_1_0_0_1_n_n none l r),
    binary main_v322 main_v334 main_v335 addf,
    unary main_arg11 main_v336 (extractStridedSlice S50000x1 ![0, 5] · slices_S50000x9_S50000x1_0_5),
    reshape main_v336 main_v337 rfl shapeCasts_S50000x1_S50000,
    nullary main_c_60 (constantI S_ 32 0#32),
    unary main_c_60 main_v338 (broadcastInDim S50000 ![] bcast_S_S50000),
    binary main_v337 main_v338 main_v339 (cmpi .slt),
    nullary main_c_61 (constantI S_ 32 50001#32),
    unary main_c_61 main_v340 (broadcastInDim S50000 ![] bcast_S_S50000),
    binary main_v337 main_v340 main_v341 addi,
    ternary main_v339 main_v341 main_v337 main_v342 select,
    unary main_v342 main_v343 (broadcastInDim S50000x1 ![0] bcast_S50000_S50000x1_0),
    binary main_v269 main_v343 main_v344 (fun x i => Host.gather gather_S50001x256_S50000x1_S50000x256_1_0_n_n_0_1_1256 x i),
    unary main_arg3 main_v345 (extractStridedSlice S1x256x32 ![5, 0, 0] · slices_S9x256x32_S1x256x32_5_0_0),
    reshape main_v345 main_v346 rfl shapeCasts_S1x256x32_S256x32,
    binary main_v344 main_v346 main_v347 (fun l r => Host.dotGeneral dot_S50000x256_S256x32_S50000x32_1_0_0_1_n_n none l r),
    binary main_v335 main_v347 main_v348 addf,
    unary main_arg11 main_v349 (extractStridedSlice S50000x1 ![0, 6] · slices_S50000x9_S50000x1_0_6),
    reshape main_v349 main_v350 rfl shapeCasts_S50000x1_S50000,
    nullary main_c_62 (constantI S_ 32 0#32),
    unary main_c_62 main_v351 (broadcastInDim S50000 ![] bcast_S_S50000),
    binary main_v350 main_v351 main_v352 (cmpi .slt),
    nullary main_c_63 (constantI S_ 32 50001#32),
    unary main_c_63 main_v353 (broadcastInDim S50000 ![] bcast_S_S50000) ]
theorem part6_eq (d : Dev nD) : main_part6 (F := F) d = seq (r6) := rfl
/-- Statements 421–477: convolution 3, its statements 103–159 of 159. -/
abbrev r7a : List (HloOp τ sig (Elt F)) :=
  [ binary main_v350 main_v353 main_v354 addi,
    ternary main_v352 main_v354 main_v350 main_v355 select,
    unary main_v355 main_v356 (broadcastInDim S50000x1 ![0] bcast_S50000_S50000x1_0),
    binary main_v269 main_v356 main_v357 (fun x i => Host.gather gather_S50001x256_S50000x1_S50000x256_1_0_n_n_0_1_1256 x i),
    unary main_arg3 main_v358 (extractStridedSlice S1x256x32 ![6, 0, 0] · slices_S9x256x32_S1x256x32_6_0_0),
    reshape main_v358 main_v359 rfl shapeCasts_S1x256x32_S256x32,
    binary main_v357 main_v359 main_v360 (fun l r => Host.dotGeneral dot_S50000x256_S256x32_S50000x32_1_0_0_1_n_n none l r),
    binary main_v348 main_v360 main_v361 addf,
    unary main_arg11 main_v362 (extractStridedSlice S50000x1 ![0, 7] · slices_S50000x9_S50000x1_0_7),
    reshape main_v362 main_v363 rfl shapeCasts_S50000x1_S50000,
    nullary main_c_64 (constantI S_ 32 0#32),
    unary main_c_64 main_v364 (broadcastInDim S50000 ![] bcast_S_S50000),
    binary main_v363 main_v364 main_v365 (cmpi .slt),
    nullary main_c_65 (constantI S_ 32 50001#32),
    unary main_c_65 main_v366 (broadcastInDim S50000 ![] bcast_S_S50000),
    binary main_v363 main_v366 main_v367 addi,
    ternary main_v365 main_v367 main_v363 main_v368 select,
    unary main_v368 main_v369 (broadcastInDim S50000x1 ![0] bcast_S50000_S50000x1_0),
    binary main_v269 main_v369 main_v370 (fun x i => Host.gather gather_S50001x256_S50000x1_S50000x256_1_0_n_n_0_1_1256 x i),
    unary main_arg3 main_v371 (extractStridedSlice S1x256x32 ![7, 0, 0] · slices_S9x256x32_S1x256x32_7_0_0),
    reshape main_v371 main_v372 rfl shapeCasts_S1x256x32_S256x32,
    binary main_v370 main_v372 main_v373 (fun l r => Host.dotGeneral dot_S50000x256_S256x32_S50000x32_1_0_0_1_n_n none l r),
    binary main_v361 main_v373 main_v374 addf,
    unary main_arg11 main_v375 (extractStridedSlice S50000x1 ![0, 8] · slices_S50000x9_S50000x1_0_8),
    reshape main_v375 main_v376 rfl shapeCasts_S50000x1_S50000,
    nullary main_c_66 (constantI S_ 32 0#32),
    unary main_c_66 main_v377 (broadcastInDim S50000 ![] bcast_S_S50000),
    binary main_v376 main_v377 main_v378 (cmpi .slt),
    nullary main_c_67 (constantI S_ 32 50001#32),
    unary main_c_67 main_v379 (broadcastInDim S50000 ![] bcast_S_S50000),
    binary main_v376 main_v379 main_v380 addi,
    ternary main_v378 main_v380 main_v376 main_v381 select,
    unary main_v381 main_v382 (broadcastInDim S50000x1 ![0] bcast_S50000_S50000x1_0),
    binary main_v269 main_v382 main_v383 (fun x i => Host.gather gather_S50001x256_S50000x1_S50000x256_1_0_n_n_0_1_1256 x i),
    unary main_arg3 main_v384 (extractStridedSlice S1x256x32 ![8, 0, 0] · slices_S9x256x32_S1x256x32_8_0_0),
    reshape main_v384 main_v385 rfl shapeCasts_S1x256x32_S256x32,
    binary main_v383 main_v385 main_v386 (fun l r => Host.dotGeneral dot_S50000x256_S256x32_S50000x32_1_0_0_1_n_n none l r),
    binary main_v374 main_v386 main_v387 addf,
    nullary main_cst_68 (constant S_ .f32 0x3C23D70A#32),
    TRef.nullary main_call4.cst (constant S_ .f32 0x00000000#32),
    TRef.unary main_call4.cst main_call4.v0 (broadcastInDim S50000x32 ![] bcast_S_S50000x32),
    TRef.binary (.of main_v387) main_call4.v0 main_call4.v1 (cmpf .oge),
    TRef.unary (.of main_cst_68) main_call4.v2 id,
    TRef.unary main_call4.v2 main_call4.v3 (broadcastInDim S50000x32 ![] bcast_S_S50000x32),
    TRef.binary main_call4.v3 (.of main_v387) main_call4.v4 mulf,
    TRef.ternary main_call4.v1 (.of main_v387) main_call4.v4 main_call4.call0.v0 select,
    nullary main_cst_69 (constant S_ .f32 0x00000000#32),
    binary main_v388 main_cst_69 main_v389 (fun x v => Host.reduceAdd x v reducesTo_S50000x32_S32_d0 h_S_),
    nullary main_cst_70 (constant S_ .f32 0x47435000#32),
    unary main_cst_70 main_v390 (broadcastInDim S32 ![] bcast_S_S32),
    binary main_v389 main_v390 main_v391 Host.divf,
    nullary main_c_71 (constantI S_ 32 0#32),
    TRef.nullary main_call5.cst (constant S_ .f32 0x00000000#32),
    TRef.binary (.of main_v388) main_call5.cst main_call5.v0 (fun x v => Host.reduceAdd x v reducesTo_S50000x32_S32_d0 h_S_),
    TRef.unary main_call5.v0 main_call5.v1 (broadcastInDim S1x32 ![1] bcast_S32_S1x32_1),
    TRef.nullary main_call5.cst_0 (constant S_ .f32 0x47435000#32),
    TRef.unary main_call5.cst_0 main_call5.v2 (broadcastInDim S1x32 ![] bcast_S_S1x32),
    TRef.binary main_call5.v1 main_call5.v2 main_call5.v3 Host.divf,
    TRef.unary main_call5.v3 main_call5.v4 (broadcastInDim S50000x32 ![0, 1] bcast_S1x32_S50000x32_0_1),
    TRef.binary (.of main_v388) main_call5.v4 main_call5.v5 subf,
    TRef.binary main_call5.v5 main_call5.v5 main_call5.v6 mulf,
    TRef.unary (.of main_c_71) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x32_S32_d0 h_S_),
    TRef.unary main_call5.v8 main_call5.v10 (broadcastInDim S32 ![] bcast_S_S32),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S32 ![] bcast_S_S32),
    TRef.ternary main_call5.v12 main_call5.v11 main_call5.call0.v1 main_call5.call0.v2 (fun p a b => select (broadcastInDim S32 ![] bcast_S_S32 p) a b),
    unary main_v391 main_v393 (broadcastInDim S1x32 ![1] bcast_S32_S1x32_1),
    unary main_v393 main_v394 (broadcastInDim S50000x32 ![0, 1] bcast_S1x32_S50000x32_0_1),
    binary main_v388 main_v394 main_v395 subf,
    nullary main_cst_72 (constant S_ .f32 0x3727C5AC#32),
    unary main_cst_72 main_v396 (broadcastInDim S32 ![] bcast_S_S32),
    binary main_v392 main_v396 main_v397 addf,
    unary main_v397 main_v398 Host.rsqrt,
    unary main_v398 main_v399 (broadcastInDim S1x32 ![1] bcast_S32_S1x32_1),
    unary main_v399 main_v400 (broadcastInDim S50000x32 ![0, 1] bcast_S1x32_S50000x32_0_1),
    binary main_v395 main_v400 main_v401 mulf ]

end Cert.ReferenceIdeal.Run

end
-- ==== Proof.BK32.lean ====
/-
  The kernel's gather on a 32-channel table, read at an index: entry (k, i, c) of the gathered array is the padded
  table's row `row (nbr[i, k])`, channel c.
-/
import proofs.«141681_j16750372455151_2_alg».proof.Proof.BridgeKernelGather
import proofs.«141681_j16750372455151_2_alg».proof.Proof.KDefs

set_option maxRecDepth 16384

noncomputable section

namespace Cert.KernelIdeal.BK32

open Idealize.ShloMosaic Idealize.ShloMosaic.ValueIdx
open Idealize.ShloMosaic.TcCoe Idealize.SL.Sem
open Cert.KernelIdeal Cert.KernelIdeal.Gen Cert.KernelIdeal.Chain
open Cert.KernelIdeal.Bridge (wrap row wrapT9_apply)

/-! ## The kernel's gather: all taps at once -/

abbrev GK := gather_S50001x32_S9x50000x1_S9x50000x32_2_0_n_n_0_2_132

theorem kcoord0 (idx : IVec (⟨3, ![9, 50000, 1]⟩ : Shape) 32) (k : Fin 9) (i : Fin 50000) (c : Fin 32) :
    GK.start (ix3 k i c) idx (0 : Fin 2) + GK.batchCoord (ix3 k i c) (0 : Fin 2) + GK.offCoord (ix3 k i c) (0 : Fin 2)
      = min (idx (ix3 k i (0 : Fin 1))).toInt.toNat 50000 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GK.startIndexMap from List.mem_singleton.mpr rfl)]
  have hsi : GK.siIdx (ix3 k i c) ⟨List.idxOf (0 : Fin 2) GK.startIndexMap,
      List.idxOf_lt_length_iff.2 (List.mem_singleton.mpr rfl)⟩ = ix3 k i (0 : Fin 1) := by
    funext b; refine Fin.ext ?_
    match b with
    | ⟨0, _⟩ => rfl
    | ⟨1, _⟩ => rfl
    | ⟨2, _⟩ => rfl
  rw [hsi]
  rfl

theorem kcoord1 (idx : IVec (⟨3, ![9, 50000, 1]⟩ : Shape) 32) (k : Fin 9) (i : Fin 50000) (c : Fin 32) :
    GK.start (ix3 k i c) idx (1 : Fin 2) + GK.batchCoord (ix3 k i c) (1 : Fin 2) + GK.offCoord (ix3 k i c) (1 : Fin 2) = c.val := by
  rw [GatherDims.batchCoord_eq_zero _ _ _ List.not_mem_nil]
  unfold GatherDims.start
  rw [dif_neg (show (1 : Fin 2) ∉ GK.startIndexMap by decide)]
  unfold GatherDims.offCoord
  rw [dif_pos (show (1 : Fin 2) ∈ GK.sKept by decide)]
  simp only [Nat.zero_add, Nat.add_zero]
  rfl

/-- The kernel's gather at (k, i, c): the table's row at the clamped start index, channel c. -/
theorem kgather {α : Type} (x : (⟨2, ![50001, 32]⟩ : Shape).Idx → α) (idx : IVec (⟨3, ![9, 50000, 1]⟩ : Shape) 32)
    (k : Fin 9) (i : Fin 50000) (c : Fin 32) :
    Host.gather GK x idx (ix3 k i c) = x (ix2 ⟨min (idx (ix3 k i (0 : Fin 1))).toInt.toNat 50000, by omega⟩ c) := by
  unfold Host.gather
  congr 1
  funext a
  refine Fin.ext ?_
  match a with
  | ⟨0, _⟩ => exact kcoord0 idx k i c
  | ⟨1, _⟩ => exact kcoord1 idx k i c

/-- TAP k OF VOXEL i in the kernel's gathered array: the padded table's row `row (nbr[i, k])`. -/
theorem tapsB_apply (xb : FVec Ideal (⟨2, ![50000, 32]⟩ : Shape) .bf16) (nbr : IVec (⟨2, ![50000, 9]⟩ : Shape) 32)
    (k : Fin 9) (i : Fin 50000) (c : Fin 32) :
    tapsB32 xb nbr (ix3 k i c)
      = concatenate S50001x32 0 [⟨S50000x32, xb⟩,
          ⟨S1x32, broadcastInDim S1x32 ![] bcast_S_S1x32 (constant (F := Ideal) S_ .bf16 0x0000#16)⟩]
          concatenates_S50000x32_S1x32_S50001x32_d0 (ix2 (row (nbr (ix2 i k))) c) := by
  unfold tapsB32
  refine (kgather _ _ k i c).trans ?_
  have hb : broadcastInDim S9x50000x1 ![0, 1] bcast_S9x50000_S9x50000x1_0_1
      (wrapT9 nbr) (ix3 k i (0 : Fin 1)) = wrapT9 nbr (ix2 k i) :=
    broadcastInDim_apply _ _ _ _ _ (fun a => by
      match a with
      | ⟨0, _⟩ => rfl
      | ⟨1, _⟩ => rfl)
  simp only [hb, wrapT9_apply]
  rfl

end Cert.KernelIdeal.BK32

end
-- ==== Proof.BRB.lean ====
/-
  The 32 → 32 convolutions: the reference's tap and whole convolution read at an index, and the agreement with the
  kernel's region value on its gathered taps (the same nine sums, added in the same order, under the leaky rectifier).
-/
import proofs.«141681_j16750372455151_2_alg».proof.Proof.BridgeRefTap
import proofs.«141681_j16750372455151_2_alg».proof.Proof.HostFns
import proofs.«141681_j16750372455151_2_alg».proof.Proof.BK32
import proofs.«141681_j16750372455151_2_alg».proof.Proof.Region1Array

set_option maxRecDepth 16384

noncomputable section

namespace Cert.ReferenceIdeal.BRB

open Idealize.ShloMosaic Idealize.ShloMosaic.ValueIdx Idealize.ShloMosaic.TcCoe Idealize.SL.Sem
open Cert.ReferenceIdeal Cert.ReferenceIdeal.Gen Cert.ReferenceIdeal.Fns Cert.SparseConv
open Cert.KernelIdeal.Bridge (wrap row)
open Cert.ReferenceIdeal.Bridge (colIdx col_apply colIdx_apply)

/-! ## The reference's gather: one tap -/

abbrev GR := gather_S50001x32_S50000x1_S50000x32_1_0_n_n_0_1_132

theorem rcoord0 (idx : IVec (⟨2, ![50000, 1]⟩ : Shape) 32) (i : Fin 50000) (c : Fin 32) :
    GR.start (ix2 i c) idx (0 : Fin 2) + GR.batchCoord (ix2 i c) (0 : Fin 2) + GR.offCoord (ix2 i c) (0 : Fin 2)
      = min (idx (ix2 i (0 : Fin 1))).toInt.toNat 50000 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GR.startIndexMap from List.mem_singleton.mpr rfl)]
  have hsi : GR.siIdx (ix2 i c) ⟨List.idxOf (0 : Fin 2) GR.startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

theorem rcoord1 (idx : IVec (⟨2, ![50000, 1]⟩ : Shape) 32) (i : Fin 50000) (c : Fin 32) :
    GR.start (ix2 i c) idx (1 : Fin 2) + GR.batchCoord (ix2 i c) (1 : Fin 2) + GR.offCoord (ix2 i c) (1 : Fin 2) = c.val := by
  rw [GatherDims.batchCoord_eq_zero _ _ _ List.not_mem_nil]
  unfold GatherDims.start
  rw [dif_neg (show (1 : Fin 2) ∉ GR.startIndexMap by decide)]
  unfold GatherDims.offCoord
  rw [dif_pos (show (1 : Fin 2) ∈ GR.sKept by decide)]
  simp only [Nat.zero_add, Nat.add_zero]
  rfl

/-- The reference's gather at (i, c): the table's row at the clamped start index, channel c. -/
theorem rgather {α : Type} (x : (⟨2, ![50001, 32]⟩ : Shape).Idx → α) (idx : IVec (⟨2, ![50000, 1]⟩ : Shape) 32)
    (i : Fin 50000) (c : Fin 32) :
    Host.gather GR x idx (ix2 i c) = x (ix2 ⟨min (idx (ix2 i (0 : Fin 1))).toInt.toNat 50000, by omega⟩ c) := by
  unfold Host.gather
  congr 1
  funext a
  refine Fin.ext ?_
  match a with
  | ⟨0, _⟩ => exact rcoord0 idx i c
  | ⟨1, _⟩ => exact rcoord1 idx i c

/-! ## The host's product for one tap -/

abbrev DR := dot_S50000x32_S32x32_S50000x32_1_0_0_1_n_n

theorem dr_lhs_row (j : S50000x32.Idx) (s : DR.contr.Idx) : (DR.lhsIdx j s 0).val = (j 0).val := by
  unfold DotDims.lhsIdx
  rw [dif_neg (show ¬(0 : Fin S50000x32.rank) ∈ DR.lhsBatch by decide), dif_pos (show (0 : Fin S50000x32.rank) ∈ DR.lhsNonContracting by decide)]
  rfl
theorem dr_lhs_contr (j : S50000x32.Idx) (s : DR.contr.Idx) : (DR.lhsIdx j s 1).val = (s ⟨0, by decide⟩).val :=
  DR.lhsIdx_val_of_single rfl j s
theorem dr_rhs_contr (j : S50000x32.Idx) (s : DR.contr.Idx) : (DR.rhsIdx j s 0).val = (s ⟨0, by decide⟩).val :=
  DR.rhsIdx_val_of_single rfl j s
theorem dr_rhs_col (j : S50000x32.Idx) (s : DR.contr.Idx) : (DR.rhsIdx j s 1).val = (j 1).val := by
  unfold DotDims.rhsIdx
  rw [dif_neg (show ¬(1 : Fin S32x32.rank) ∈ DR.rhsBatch by decide), dif_pos (show (1 : Fin S32x32.rank) ∈ DR.rhsNonContracting by decide)]
  rfl

/-- Slice k of the weights, as a 32 × 32 matrix, at (c, o). -/
theorem wslice_apply (k : Fin 9) (hw : S9x32x32.Slices ![k.val, 0, 0] S1x32x32) (W : FVec Ideal S9x32x32 .f32) (c : Fin 32) (o : Fin 32) :
    shapeCast S32x32 (extractStridedSlice S1x32x32 ![k.val, 0, 0] W hw) shapeCasts_S1x32x32_S32x32 (ix2 c o) = W (ix3 k c o) := by
  rw [shapeCast_1ab_ab_apply]
  exact extractStridedSlice_apply _ _ hw _ (ix3 k c o) (fun a => by
    match a with
    | ⟨0, _⟩ => show k.val = k.val + 0; omega
    | ⟨1, _⟩ => show c.val = 0 + c.val; omega
    | ⟨2, _⟩ => show o.val = 0 + o.val; omega)

/-- TAP k OF THE REFERENCE at (i, o): the sum over the 32 input channels of the padded table's row
    `row (nbr[i, k])` times slice k of the weights. -/
theorem refTap_apply (k : Fin 9) (hs : S50000x9.Slices ![0, k.val] S50000x1) (hw : S9x32x32.Slices ![k.val, 0, 0] S1x32x32)
    (xp : FVec Ideal S50001x32 .f32) (nbr : IVec S50000x9 32) (W : FVec Ideal S9x32x32 .f32) (i : Fin 50000) (o : Fin 32) :
    (Host.dotGeneral (F := Ideal) DR none (Host.gather GR xp (colIdx k hs nbr))
      (shapeCast S32x32 (extractStridedSlice S1x32x32 ![k.val, 0, 0] W hw) shapeCasts_S1x32x32_S32x32) (ix2 i o) : EReal)
    = ∑ c : Fin 32, (xp (ix2 (row (nbr (ix2 i k))) c) : EReal) * (W (ix3 k c o) : EReal) := by
  simp only [Host.dotGeneral]
  rw [Ideal.dotGeneral_apply, ← Equiv.sum_comp (contrEquiv1 DR 32 rfl rfl).symm]
  refine Finset.sum_congr rfl fun c _ => ?_
  have hc := contrEquiv1_symm_val DR 32 rfl rfl c
  have el : DR.lhsIdx (ix2 i o) ((contrEquiv1 DR 32 rfl rfl).symm c) = ix2 i c := funext fun a => Fin.ext (by
    match a with
    | ⟨0, _⟩ => exact dr_lhs_row _ _
    | ⟨1, _⟩ => exact (dr_lhs_contr _ _).trans hc)
  have er : DR.rhsIdx (ix2 i o) ((contrEquiv1 DR 32 rfl rfl).symm c) = ix2 c o := funext fun a => Fin.ext (by
    match a with
    | ⟨0, _⟩ => exact (dr_rhs_contr _ _).trans hc
    | ⟨1, _⟩ => exact dr_rhs_col _ _)
  rw [el, er, wslice_apply, rgather]
  simp only [colIdx_apply]
  rfl

theorem slicesN : ∀ k : Fin 9, S50000x9.Slices ![0, k.val] S50000x1 := by decide
theorem slicesW : ∀ k : Fin 9, S9x32x32.Slices ![k.val, 0, 0] S1x32x32 := by decide

/-- The reference's padded feature table: the features with one all-zero row appended. -/
def xpadR (x : FVec Ideal S50000x32 .f32) : FVec Ideal S50001x32 .f32 :=
  concatenate S50001x32 0 [⟨S50000x32, x⟩, ⟨S1x32, broadcastInDim S1x32 ![] bcast_S_S1x32 (constant (F := Ideal) S_ .f32 0x00000000#32)⟩]
    concatenates_S50000x32_S1x32_S50001x32_d0

/-- Tap k of the reference, as an array. -/
def refTapArr (k : Fin 9) (x : FVec Ideal S50000x32 .f32) (nbr : IVec S50000x9 32) (W : FVec Ideal S9x32x32 .f32) : FVec Ideal S50000x32 .f32 :=
  Host.dotGeneral (F := Ideal) DR none (Host.gather GR (xpadR x) (colIdx k (slicesN k) nbr))
    (shapeCast S32x32 (extractStridedSlice S1x32x32 ![k.val, 0, 0] W (slicesW k)) shapeCasts_S1x32x32_S32x32)

/-- The reference's convolution: the nine taps added in order onto a zero array. -/
def refConv (x : FVec Ideal S50000x32 .f32) (nbr : IVec S50000x9 32) (W : FVec Ideal S9x32x32 .f32) : FVec Ideal S50000x32 .f32 :=
  addf (addf (addf (addf (addf (addf (addf (addf (addf
    (broadcastInDim S50000x32 ![] bcast_S_S50000x32 (constant (F := Ideal) S_ .f32 0x00000000#32))
    (refTapArr 0 x nbr W)) (refTapArr 1 x nbr W)) (refTapArr 2 x nbr W)) (refTapArr 3 x nbr W)) (refTapArr 4 x nbr W))
    (refTapArr 5 x nbr W)) (refTapArr 6 x nbr W)) (refTapArr 7 x nbr W)) (refTapArr 8 x nbr W)

/-- The reference's convolution at (i, o). -/
theorem refConv_apply (x : FVec Ideal S50000x32 .f32) (nbr : IVec S50000x9 32) (W : FVec Ideal S9x32x32 .f32) (i : Fin 50000) (o : Fin 32) :
    (refConv x nbr W (ix2 i o) : EReal)
      = acc9 fun k => ∑ c : Fin 32, (xpadR x (ix2 (row (nbr (ix2 i k))) c) : EReal) * (W (ix3 k c o) : EReal) := by
  show acc9 ![refTapArr 0 x nbr W (ix2 i o), refTapArr 1 x nbr W (ix2 i o), refTapArr 2 x nbr W (ix2 i o), refTapArr 3 x nbr W (ix2 i o),
    refTapArr 4 x nbr W (ix2 i o), refTapArr 5 x nbr W (ix2 i o), refTapArr 6 x nbr W (ix2 i o), refTapArr 7 x nbr W (ix2 i o),
    refTapArr 8 x nbr W (ix2 i o)] = _
  refine congrArg acc9 (funext fun k => ?_)
  fin_cases k
  · exact refTap_apply 0 _ _ (xpadR x) nbr W i o
  · exact refTap_apply 1 _ _ (xpadR x) nbr W i o
  · exact refTap_apply 2 _ _ (xpadR x) nbr W i o
  · exact refTap_apply 3 _ _ (xpadR x) nbr W i o
  · exact refTap_apply 4 _ _ (xpadR x) nbr W i o
  · exact refTap_apply 5 _ _ (xpadR x) nbr W i o
  · exact refTap_apply 6 _ _ (xpadR x) nbr W i o
  · exact refTap_apply 7 _ _ (xpadR x) nbr W i o
  · exact refTap_apply 8 _ _ (xpadR x) nbr W i o

/-- The two padded tables are one: narrowing is the identity and both zero words read 0. -/
theorem xpad_eq (x : FVec Ideal S50000x32 .f32) :
    (concatenate Cert.KernelIdeal.S50001x32 0 [⟨Cert.KernelIdeal.S50000x32, truncf (F := Ideal) .bf16 x (by decide)⟩,
        ⟨Cert.KernelIdeal.S1x32, broadcastInDim Cert.KernelIdeal.S1x32 ![] Cert.KernelIdeal.Gen.bcast_S_S1x32 (constant (F := Ideal) Cert.KernelIdeal.S_ .bf16 0x0000#16)⟩]
        Cert.KernelIdeal.Gen.concatenates_S50000x32_S1x32_S50001x32_d0 : S50001x32.Idx → EReal) = xpadR x := by
  have hz : (constant (F := Ideal) Cert.KernelIdeal.S_ .bf16 0x0000#16 : S_.Idx → EReal) = constant (F := Ideal) S_ .f32 0x00000000#32 := by
    funext j
    show Ideal.ofBits .bf16 0x0000#16 = Ideal.ofBits .f32 0x00000000#32
    simp [Ideal.ofBits, Ideal.ieee]
  unfold xpadR
  rw [← hz]
  rfl

/-- THE LAYER: the kernel's region value on its gathered taps is the leaky rectifier of the reference's convolution. -/
theorem layer_eq (x : FVec Ideal S50000x32 .f32) (nbr : IVec S50000x9 32) (W : FVec Ideal S9x32x32 .f32) :
    (Cert.KernelIdeal.Conv1.conv (Cert.KernelIdeal.Chain.tapsB32 (truncf (F := Ideal) .bf16 x (by decide)) nbr) (truncf (F := Ideal) .bf16 W (by decide)) : S50000x32.Idx → EReal)
      = lrelu32 (refConv x nbr W) := by
  funext j
  obtain ⟨i, o, rfl⟩ : ∃ (i : Fin 50000) (o : Fin 32), j = ix2 i o := ⟨j 0, j 1, eq_ix2 j⟩
  show lrelu (acc9 fun k => ∑ c : Fin 32, (Cert.KernelIdeal.Chain.tapsB32 (truncf (F := Ideal) .bf16 x (by decide)) nbr (ix3 k i c) : EReal) * (W (ix3 k c o) : EReal))
    = lrelu (refConv x nbr W (ix2 i o))
  rw [refConv_apply]
  refine congrArg lrelu (congrArg acc9 (funext fun k => Finset.sum_congr rfl fun c _ => ?_))
  rw [Cert.KernelIdeal.BK32.tapsB_apply, ← xpad_eq]

end Cert.ReferenceIdeal.BRB

end
-- ==== Proof.RefEval2.lean ====
/-
  What one convolution block of the reference computes, from ANY contents V of the buffers before it: the operations'
  composed term is the batch normalisation of the leaky rectifier of the convolution of its input, neighbour table and
  weights as V holds them.
-/
import proofs.«141681_j16750372455151_2_alg».proof.Proof.RefRunB
import proofs.«141681_j16750372455151_2_alg».proof.Proof.BRB

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.ReferenceIdeal.Fns

set_option maxHeartbeats 8000000 in
theorem E2 (V : Valuation τ sig (Elt Ideal)) :
    (after (r5a (F := Ideal)) (after (r4 (F := Ideal)) (after (r3 (F := Ideal)) (after (r2b (F := Ideal)) V))) (Proc.devRef .tc main_v267) : S50000x32.Idx → EReal)
      = bn32 (lrelu32 (Cert.ReferenceIdeal.BRB.refConv (V (Proc.devRef .tc main_v133)) (V (Proc.devRef .tc main_arg11)) (V (Proc.devRef .tc main_arg2)))) := by
  after_results_simp <;> rfl

end Cert.ReferenceIdeal.Run

end
-- ==== Proof.RefEval3.lean ====
/-
  What one convolution block of the reference computes, from ANY contents V of the buffers before it: the operations'
  composed term is the batch normalisation of the leaky rectifier of the convolution of its input, neighbour table and
  weights as V holds them.
-/
import proofs.«141681_j16750372455151_2_alg».proof.Proof.RefRunB
import proofs.«141681_j16750372455151_2_alg».proof.Proof.RefLayerA

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.ReferenceIdeal.Fns

set_option maxHeartbeats 8000000 in
theorem E3 (V : Valuation τ sig (Elt Ideal)) :
    (after (r7a (F := Ideal)) (after (r6 (F := Ideal)) (after (r5b (F := Ideal)) V)) (Proc.devRef .tc main_v401) : S50000x32.Idx → EReal)
      = bn32 (lrelu32 (Cert.ReferenceIdeal.Bridge.refConv (V (Proc.devRef .tc main_arg0)) (V (Proc.devRef .tc main_arg11)) (V (Proc.devRef .tc main_arg3)))) := by
  after_results_simp <;> rfl

end Cert.ReferenceIdeal.Run

end
-- ==== Proof.RefRunC.lean ====
/-
  The reference's run, continued: the fourth convolution (32 → 32) and the first residual sum, as lists of host operations window by window (the outlined functions
  unfolded over their calls' buffers); each printed window is the sequencing of its lists, by definition.
-/
import proofs.«141681_j16750372455151_2_alg».proof.Proof.RefRunB

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Statements 478–480: convolution 4, its statements 1–3 of 159. -/
abbrev r7b : List (HloOp τ sig (Elt F)) :=
  [ nullary main_cst_73 (constant S_ .f32 0x00000000#32),
    unary main_cst_73 main_v402 (broadcastInDim S1x32 ![] bcast_S_S1x32),
    binary main_v401 main_v402 main_v403 (fun a b => concatenate S50001x32 0 [⟨S50000x32, a⟩, ⟨S1x32, b⟩] concatenates_S50000x32_S1x32_S50001x32_d0) ]
set_option maxRecDepth 4096 in
theorem part7_eq (d : Dev nD) : main_part7 (F := F) d = seq (r7a ++ r7b) := by
  simp only [main_part7, fn_leaky_relu.body, fn_where.body, fn_var.body, fn_where_0.body, fn_leaky_relu_1.body, fn_where_2.body, fn_var_3.body, fn_where_4.body, seq, bind_assoc, pure_bind, List.cons_append, List.nil_append, List.append_assoc]
  rfl
/-- Statements 481–540: convolution 4, its statements 4–63 of 159. -/
abbrev r8 : List (HloOp τ sig (Elt F)) :=
  [ nullary main_cst_74 (constant S_ .f32 0x00000000#32),
    unary main_cst_74 main_v404 (broadcastInDim S50000x32 ![] bcast_S_S50000x32),
    unary main_arg10 main_v405 (extractStridedSlice S50000x1 ![0, 0] · slices_S50000x9_S50000x1_0_0),
    reshape main_v405 main_v406 rfl shapeCasts_S50000x1_S50000,
    nullary main_c_75 (constantI S_ 32 0#32),
    unary main_c_75 main_v407 (broadcastInDim S50000 ![] bcast_S_S50000),
    binary main_v406 main_v407 main_v408 (cmpi .slt),
    nullary main_c_76 (constantI S_ 32 50001#32),
    unary main_c_76 main_v409 (broadcastInDim S50000 ![] bcast_S_S50000),
    binary main_v406 main_v409 main_v410 addi,
    ternary main_v408 main_v410 main_v406 main_v411 select,
    unary main_v411 main_v412 (broadcastInDim S50000x1 ![0] bcast_S50000_S50000x1_0),
    binary main_v403 main_v412 main_v413 (fun x i => Host.gather gather_S50001x32_S50000x1_S50000x32_1_0_n_n_0_1_132 x i),
    unary main_arg4 main_v414 (extractStridedSlice S1x32x32 ![0, 0, 0] · slices_S9x32x32_S1x32x32_0_0_0),
    reshape main_v414 main_v415 rfl shapeCasts_S1x32x32_S32x32,
    binary main_v413 main_v415 main_v416 (fun l r => Host.dotGeneral dot_S50000x32_S32x32_S50000x32_1_0_0_1_n_n none l r),
    binary main_v404 main_v416 main_v417 addf,
    unary main_arg10 main_v418 (extractStridedSlice S50000x1 ![0, 1] · slices_S50000x9_S50000x1_0_1),
    reshape main_v418 main_v419 rfl shapeCasts_S50000x1_S50000,
    nullary main_c_77 (constantI S_ 32 0#32),
    unary main_c_77 main_v420 (broadcastInDim S50000 ![] bcast_S_S50000),
    binary main_v419 main_v420 main_v421 (cmpi .slt),
    nullary main_c_78 (constantI S_ 32 50001#32),
    unary main_c_78 main_v422 (broadcastInDim S50000 ![] bcast_S_S50000),
    binary main_v419 main_v422 main_v423 addi,
    ternary main_v421 main_v423 main_v419 main_v424 select,
    unary main_v424 main_v425 (broadcastInDim S50000x1 ![0] bcast_S50000_S50000x1_0),
    binary main_v403 main_v425 main_v426 (fun x i => Host.gather gather_S50001x32_S50000x1_S50000x32_1_0_n_n_0_1_132 x i),
    unary main_arg4 main_v427 (extractStridedSlice S1x32x32 ![1, 0, 0] · slices_S9x32x32_S1x32x32_1_0_0),
    reshape main_v427 main_v428 rfl shapeCasts_S1x32x32_S32x32,
    binary main_v426 main_v428 main_v429 (fun l r => Host.dotGeneral dot_S50000x32_S32x32_S50000x32_1_0_0_1_n_n none l r),
    binary main_v417 main_v429 main_v430 addf,
    unary main_arg10 main_v431 (extractStridedSlice S50000x1 ![0, 2] · slices_S50000x9_S50000x1_0_2),
    reshape main_v431 main_v432 rfl shapeCasts_S50000x1_S50000,
    nullary main_c_79 (constantI S_ 32 0#32),
    unary main_c_79 main_v433 (broadcastInDim S50000 ![] bcast_S_S50000),
    binary main_v432 main_v433 main_v434 (cmpi .slt),
    nullary main_c_80 (constantI S_ 32 50001#32),
    unary main_c_80 main_v435 (broadcastInDim S50000 ![] bcast_S_S50000),
    binary main_v432 main_v435 main_v436 addi,
    ternary main_v434 main_v436 main_v432 main_v437 select,
    unary main_v437 main_v438 (broadcastInDim S50000x1 ![0] bcast_S50000_S50000x1_0),
    binary main_v403 main_v438 main_v439 (fun x i => Host.gather gather_S50001x32_S50000x1_S50000x32_1_0_n_n_0_1_132 x i),
    unary main_arg4 main_v440 (extractStridedSlice S1x32x32 ![2, 0, 0] · slices_S9x32x32_S1x32x32_2_0_0),
    reshape main_v440 main_v441 rfl shapeCasts_S1x32x32_S32x32,
    binary main_v439 main_v441 main_v442 (fun l r => Host.dotGeneral dot_S50000x32_S32x32_S50000x32_1_0_0_1_n_n none l r),
    binary main_v430 main_v442 main_v443 addf,
    unary main_arg10 main_v444 (extractStridedSlice S50000x1 ![0, 3] · slices_S50000x9_S50000x1_0_3),
    reshape main_v444 main_v445 rfl shapeCasts_S50000x1_S50000,
    nullary main_c_81 (constantI S_ 32 0#32),
    unary main_c_81 main_v446 (broadcastInDim S50000 ![] bcast_S_S50000),
    binary main_v445 main_v446 main_v447 (cmpi .slt),
    nullary main_c_82 (constantI S_ 32 50001#32),
    unary main_c_82 main_v448 (broadcastInDim S50000 ![] bcast_S_S50000),
    binary main_v445 main_v448 main_v449 addi,
    ternary main_v447 main_v449 main_v445 main_v450 select,
    unary main_v450 main_v451 (broadcastInDim S50000x1 ![0] bcast_S50000_S50000x1_0),
    binary main_v403 main_v451 main_v452 (fun x i => Host.gather gather_S50001x32_S50000x1_S50000x32_1_0_n_n_0_1_132 x i),
    unary main_arg4 main_v453 (extractStridedSlice S1x32x32 ![3, 0, 0] · slices_S9x32x32_S1x32x32_3_0_0),
    reshape main_v453 main_v454 rfl shapeCasts_S1x32x32_S32x32 ]
theorem part8_eq (d : Dev nD) : main_part8 (F := F) d = seq (r8) := rfl
/-- Statements 541–600: convolution 4, its statements 64–123 of 159. -/
abbrev r9 : List (HloOp τ sig (Elt F)) :=
  [ binary main_v452 main_v454 main_v455 (fun l r => Host.dotGeneral dot_S50000x32_S32x32_S50000x32_1_0_0_1_n_n none l r),
    binary main_v443 main_v455 main_v456 addf,
    unary main_arg10 main_v457 (extractStridedSlice S50000x1 ![0, 4] · slices_S50000x9_S50000x1_0_4),
    reshape main_v457 main_v458 rfl shapeCasts_S50000x1_S50000,
    nullary main_c_83 (constantI S_ 32 0#32),
    unary main_c_83 main_v459 (broadcastInDim S50000 ![] bcast_S_S50000),
    binary main_v458 main_v459 main_v460 (cmpi .slt),
    nullary main_c_84 (constantI S_ 32 50001#32),
    unary main_c_84 main_v461 (broadcastInDim S50000 ![] bcast_S_S50000),
    binary main_v458 main_v461 main_v462 addi,
    ternary main_v460 main_v462 main_v458 main_v463 select,
    unary main_v463 main_v464 (broadcastInDim S50000x1 ![0] bcast_S50000_S50000x1_0),
    binary main_v403 main_v464 main_v465 (fun x i => Host.gather gather_S50001x32_S50000x1_S50000x32_1_0_n_n_0_1_132 x i),
    unary main_arg4 main_v466 (extractStridedSlice S1x32x32 ![4, 0, 0] · slices_S9x32x32_S1x32x32_4_0_0),
    reshape main_v466 main_v467 rfl shapeCasts_S1x32x32_S32x32,
    binary main_v465 main_v467 main_v468 (fun l r => Host.dotGeneral dot_S50000x32_S32x32_S50000x32_1_0_0_1_n_n none l r),
    binary main_v456 main_v468 main_v469 addf,
    unary main_arg10 main_v470 (extractStridedSlice S50000x1 ![0, 5] · slices_S50000x9_S50000x1_0_5),
    reshape main_v470 main_v471 rfl shapeCasts_S50000x1_S50000,
    nullary main_c_85 (constantI S_ 32 0#32),
    unary main_c_85 main_v472 (broadcastInDim S50000 ![] bcast_S_S50000),
    binary main_v471 main_v472 main_v473 (cmpi .slt),
    nullary main_c_86 (constantI S_ 32 50001#32),
    unary main_c_86 main_v474 (broadcastInDim S50000 ![] bcast_S_S50000),
    binary main_v471 main_v474 main_v475 addi,
    ternary main_v473 main_v475 main_v471 main_v476 select,
    unary main_v476 main_v477 (broadcastInDim S50000x1 ![0] bcast_S50000_S50000x1_0),
    binary main_v403 main_v477 main_v478 (fun x i => Host.gather gather_S50001x32_S50000x1_S50000x32_1_0_n_n_0_1_132 x i),
    unary main_arg4 main_v479 (extractStridedSlice S1x32x32 ![5, 0, 0] · slices_S9x32x32_S1x32x32_5_0_0),
    reshape main_v479 main_v480 rfl shapeCasts_S1x32x32_S32x32,
    binary main_v478 main_v480 main_v481 (fun l r => Host.dotGeneral dot_S50000x32_S32x32_S50000x32_1_0_0_1_n_n none l r),
    binary main_v469 main_v481 main_v482 addf,
    unary main_arg10 main_v483 (extractStridedSlice S50000x1 ![0, 6] · slices_S50000x9_S50000x1_0_6),
    reshape main_v483 main_v484 rfl shapeCasts_S50000x1_S50000,
    nullary main_c_87 (constantI S_ 32 0#32),
    unary main_c_87 main_v485 (broadcastInDim S50000 ![] bcast_S_S50000),
    binary main_v484 main_v485 main_v486 (cmpi .slt),
    nullary main_c_88 (constantI S_ 32 50001#32),
    unary main_c_88 main_v487 (broadcastInDim S50000 ![] bcast_S_S50000),
    binary main_v484 main_v487 main_v488 addi,
    ternary main_v486 main_v488 main_v484 main_v489 select,
    unary main_v489 main_v490 (broadcastInDim S50000x1 ![0] bcast_S50000_S50000x1_0),
    binary main_v403 main_v490 main_v491 (fun x i => Host.gather gather_S50001x32_S50000x1_S50000x32_1_0_n_n_0_1_132 x i),
    unary main_arg4 main_v492 (extractStridedSlice S1x32x32 ![6, 0, 0] · slices_S9x32x32_S1x32x32_6_0_0),
    reshape main_v492 main_v493 rfl shapeCasts_S1x32x32_S32x32,
    binary main_v491 main_v493 main_v494 (fun l r => Host.dotGeneral dot_S50000x32_S32x32_S50000x32_1_0_0_1_n_n none l r),
    binary main_v482 main_v494 main_v495 addf,
    unary main_arg10 main_v496 (extractStridedSlice S50000x1 ![0, 7] · slices_S50000x9_S50000x1_0_7),
    reshape main_v496 main_v497 rfl shapeCasts_S50000x1_S50000,
    nullary main_c_89 (constantI S_ 32 0#32),
    unary main_c_89 main_v498 (broadcastInDim S50000 ![] bcast_S_S50000),
    binary main_v497 main_v498 main_v499 (cmpi .slt),
    nullary main_c_90 (constantI S_ 32 50001#32),
    unary main_c_90 main_v500 (broadcastInDim S50000 ![] bcast_S_S50000),
    binary main_v497 main_v500 main_v501 addi,
    ternary main_v499 main_v501 main_v497 main_v502 select,
    unary main_v502 main_v503 (broadcastInDim S50000x1 ![0] bcast_S50000_S50000x1_0),
    binary main_v403 main_v503 main_v504 (fun x i => Host.gather gather_S50001x32_S50000x1_S50000x32_1_0_n_n_0_1_132 x i),
    unary main_arg4 main_v505 (extractStridedSlice S1x32x32 ![7, 0, 0] · slices_S9x32x32_S1x32x32_7_0_0),
    reshape main_v505 main_v506 rfl shapeCasts_S1x32x32_S32x32 ]
theorem part9_eq (d : Dev nD) : main_part9 (F := F) d = seq (r9) := rfl
/-- Statements 601–636: convolution 4, its statements 124–159 of 159. -/
abbrev r10a : List (HloOp τ sig (Elt F)) :=
  [ binary main_v504 main_v506 main_v507 (fun l r => Host.dotGeneral dot_S50000x32_S32x32_S50000x32_1_0_0_1_n_n none l r),
    binary main_v495 main_v507 main_v508 addf,
    unary main_arg10 main_v509 (extractStridedSlice S50000x1 ![0, 8] · slices_S50000x9_S50000x1_0_8),
    reshape main_v509 main_v510 rfl shapeCasts_S50000x1_S50000,
    nullary main_c_91 (constantI S_ 32 0#32),
    unary main_c_91 main_v511 (broadcastInDim S50000 ![] bcast_S_S50000),
    binary main_v510 main_v511 main_v512 (cmpi .slt),
    nullary main_c_92 (constantI S_ 32 50001#32),
    unary main_c_92 main_v513 (broadcastInDim S50000 ![] bcast_S_S50000),
    binary main_v510 main_v513 main_v514 addi,
    ternary main_v512 main_v514 main_v510 main_v515 select,
    unary main_v515 main_v516 (broadcastInDim S50000x1 ![0] bcast_S50000_S50000x1_0),
    binary main_v403 main_v516 main_v517 (fun x i => Host.gather gather_S50001x32_S50000x1_S50000x32_1_0_n_n_0_1_132 x i),
    unary main_arg4 main_v518 (extractStridedSlice S1x32x32 ![8, 0, 0] · slices_S9x32x32_S1x32x32_8_0_0),
    reshape main_v518 main_v519 rfl shapeCasts_S1x32x32_S32x32,
    binary main_v517 main_v519 main_v520 (fun l r => Host.dotGeneral dot_S50000x32_S32x32_S50000x32_1_0_0_1_n_n none l r),
    binary main_v508 main_v520 main_v521 addf,
    nullary main_cst_93 (constant S_ .f32 0x3C23D70A#32),
    TRef.nullary main_call6.cst (constant S_ .f32 0x00000000#32),
    TRef.unary main_call6.cst main_call6.v0 (broadcastInDim S50000x32 ![] bcast_S_S50000x32),
    TRef.binary (.of main_v521) main_call6.v0 main_call6.v1 (cmpf .oge),
    TRef.unary (.of main_cst_93) main_call6.v2 id,
    TRef.unary main_call6.v2 main_call6.v3 (broadcastInDim S50000x32 ![] bcast_S_S50000x32),
    TRef.binary main_call6.v3 (.of main_v521) main_call6.v4 mulf,
    TRef.ternary main_call6.v1 (.of main_v521) main_call6.v4 main_call6.call0.v0 select,
    nullary main_cst_94 (constant S_ .f32 0x00000000#32),
    binary main_v522 main_cst_94 main_v523 (fun x v => Host.reduceAdd x v reducesTo_S50000x32_S32_d0 h_S_),
    nullary main_cst_95 (constant S_ .f32 0x47435000#32),
    unary main_cst_95 main_v524 (broadcastInDim S32 ![] bcast_S_S32),
    binary main_v523 main_v524 main_v525 Host.divf,
    nullary main_c_96 (constantI S_ 32 0#32),
    TRef.nullary main_call7.cst (constant S_ .f32 0x00000000#32),
    TRef.binary (.of main_v522) main_call7.cst main_call7.v0 (fun x v => Host.reduceAdd x v reducesTo_S50000x32_S32_d0 h_S_),
    TRef.unary main_call7.v0 main_call7.v1 (broadcastInDim S1x32 ![1] bcast_S32_S1x32_1),
    TRef.nullary main_call7.cst_0 (constant S_ .f32 0x47435000#32),
    TRef.unary main_call7.cst_0 main_call7.v2 (broadcastInDim S1x32 ![] bcast_S_S1x32),
    TRef.binary main_call7.v1 main_call7.v2 main_call7.v3 Host.divf,
    TRef.unary main_call7.v3 main_call7.v4 (broadcastInDim S50000x32 ![0, 1] bcast_S1x32_S50000x32_0_1),
    TRef.binary (.of main_v522) main_call7.v4 main_call7.v5 subf,
    TRef.binary main_call7.v5 main_call7.v5 main_call7.v6 mulf,
    TRef.unary (.of main_c_96) main_call7.v7 (sitofp .f32),
    TRef.nullary main_call7.cst_1 (constant S_ .f32 0x47435000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S50000x32_S32_d0 h_S_),
    TRef.unary main_call7.v8 main_call7.v10 (broadcastInDim S32 ![] bcast_S_S32),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S32 ![] bcast_S_S32),
    TRef.ternary main_call7.v12 main_call7.v11 main_call7.call0.v1 main_call7.call0.v2 (fun p a b => select (broadcastInDim S32 ![] bcast_S_S32 p) a b),
    unary main_v525 main_v527 (broadcastInDim S1x32 ![1] bcast_S32_S1x32_1),
    unary main_v527 main_v528 (broadcastInDim S50000x32 ![0, 1] bcast_S1x32_S50000x32_0_1),
    binary main_v522 main_v528 main_v529 subf,
    nullary main_cst_97 (constant S_ .f32 0x3727C5AC#32),
    unary main_cst_97 main_v530 (broadcastInDim S32 ![] bcast_S_S32),
    binary main_v526 main_v530 main_v531 addf,
    unary main_v531 main_v532 Host.rsqrt,
    unary main_v532 main_v533 (broadcastInDim S1x32 ![1] bcast_S32_S1x32_1),
    unary main_v533 main_v534 (broadcastInDim S50000x32 ![0, 1] bcast_S1x32_S50000x32_0_1),
    binary main_v529 main_v534 main_v535 mulf ]
/-- Statement 637: the first residual sum, the fourth block's output plus the second's. -/
abbrev r10b : List (HloOp τ sig (Elt F)) :=
  [ binary main_v535 main_v267 main_v536 addf ]
/-- Statements 638–660: convolution 5, its statements 1–23 of 159. -/
abbrev r10c : List (HloOp τ sig (Elt F)) :=
  [ nullary main_cst_98 (constant S_ .f32 0x00000000#32),
    unary main_cst_98 main_v537 (broadcastInDim S1x32 ![] bcast_S_S1x32),
    binary main_v536 main_v537 main_v538 (fun a b => concatenate S50001x32 0 [⟨S50000x32, a⟩, ⟨S1x32, b⟩] concatenates_S50000x32_S1x32_S50001x32_d0),
    nullary main_cst_99 (constant S_ .f32 0x00000000#32),
    unary main_cst_99 main_v539 (broadcastInDim S50000x64 ![] bcast_S_S50000x64),
    unary main_arg11 main_v540 (extractStridedSlice S50000x1 ![0, 0] · slices_S50000x9_S50000x1_0_0),
    reshape main_v540 main_v541 rfl shapeCasts_S50000x1_S50000,
    nullary main_c_100 (constantI S_ 32 0#32),
    unary main_c_100 main_v542 (broadcastInDim S50000 ![] bcast_S_S50000),
    binary main_v541 main_v542 main_v543 (cmpi .slt),
    nullary main_c_101 (constantI S_ 32 50001#32),
    unary main_c_101 main_v544 (broadcastInDim S50000 ![] bcast_S_S50000),
    binary main_v541 main_v544 main_v545 addi,
    ternary main_v543 main_v545 main_v541 main_v546 select,
    unary main_v546 main_v547 (broadcastInDim S50000x1 ![0] bcast_S50000_S50000x1_0),
    binary main_v538 main_v547 main_v548 (fun x i => Host.gather gather_S50001x32_S50000x1_S50000x32_1_0_n_n_0_1_132 x i),
    unary main_arg5 main_v549 (extractStridedSlice S1x32x64 ![0, 0, 0] · slices_S9x32x64_S1x32x64_0_0_0),
    reshape main_v549 main_v550 rfl shapeCasts_S1x32x64_S32x64,
    binary main_v548 main_v550 main_v551 (fun l r => Host.dotGeneral dot_S50000x32_S32x64_S50000x64_1_0_0_1_n_n none l r),
    binary main_v539 main_v551 main_v552 addf,
    unary main_arg11 main_v553 (extractStridedSlice S50000x1 ![0, 1] · slices_S50000x9_S50000x1_0_1),
    reshape main_v553 main_v554 rfl shapeCasts_S50000x1_S50000,
    nullary main_c_102 (constantI S_ 32 0#32) ]
set_option maxRecDepth 4096 in
theorem part10_eq (d : Dev nD) : main_part10 (F := F) d = seq (r10a ++ r10b ++ r10c) := by
  simp only [main_part10, fn_leaky_relu.body, fn_where.body, fn_var.body, fn_where_0.body, fn_leaky_relu_1.body, fn_where_2.body, fn_var_3.body, fn_where_4.body, seq, bind_assoc, pure_bind, List.cons_append, List.nil_append, List.append_assoc]
  rfl

end Cert.ReferenceIdeal.Run

end
-- ==== Proof.RefEval4.lean ====
/-
  What one convolution block of the reference computes, from ANY contents V of the buffers before it: the operations'
  composed term is the batch normalisation of the leaky rectifier of the convolution of its input, neighbour table and
  weights as V holds them.
-/
import proofs.«141681_j16750372455151_2_alg».proof.Proof.RefRunC
import proofs.«141681_j16750372455151_2_alg».proof.Proof.BRB

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.ReferenceIdeal.Fns

set_option maxHeartbeats 8000000 in
theorem E4 (V : Valuation τ sig (Elt Ideal)) :
    (after (r10a (F := Ideal)) (after (r9 (F := Ideal)) (after (r8 (F := Ideal)) (after (r7b (F := Ideal)) V))) (Proc.devRef .tc main_v535) : S50000x32.Idx → EReal)
      = bn32 (lrelu32 (Cert.ReferenceIdeal.BRB.refConv (V (Proc.devRef .tc main_v401)) (V (Proc.devRef .tc main_arg10)) (V (Proc.devRef .tc main_arg4)))) := by
  after_results_simp <;> rfl
set_option maxHeartbeats 8000000 in
theorem EX1 (V : Valuation τ sig (Elt Ideal)) :
    (after (r10b (F := Ideal)) V (Proc.devRef .tc main_v536) : S50000x32.Idx → EReal)
      = addf (F := Ideal) (s := S50000x32) (φ := .f32) (V (Proc.devRef .tc main_v535)) (V (Proc.devRef .tc main_v267)) := by
  after_results_simp <;> rfl

end Cert.ReferenceIdeal.Run

end
-- ==== Proof.RefRunD.lean ====
/-
  The reference's run, continued: the fifth convolution (32 → 64) and the sixth (64 → 64), as lists of host operations window by window (the outlined functions
  unfolded over their calls' buffers); each printed window is the sequencing of its lists, by definition.
-/
import proofs.«141681_j16750372455151_2_alg».proof.Proof.RefRunC

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Statements 661–720: convolution 5, its statements 24–83 of 159. -/
abbrev r11 : List (HloOp τ sig (Elt F)) :=
  [ unary main_c_102 main_v555 (broadcastInDim S50000 ![] bcast_S_S50000),
    binary main_v554 main_v555 main_v556 (cmpi .slt),
    nullary main_c_103 (constantI S_ 32 50001#32),
    unary main_c_103 main_v557 (broadcastInDim S50000 ![] bcast_S_S50000),
    binary main_v554 main_v557 main_v558 addi,
    ternary main_v556 main_v558 main_v554 main_v559 select,
    unary main_v559 main_v560 (broadcastInDim S50000x1 ![0] bcast_S50000_S50000x1_0),
    binary main_v538 main_v560 main_v561 (fun x i => Host.gather gather_S50001x32_S50000x1_S50000x32_1_0_n_n_0_1_132 x i),
    unary main_arg5 main_v562 (extractStridedSlice S1x32x64 ![1, 0, 0] · slices_S9x32x64_S1x32x64_1_0_0),
    reshape main_v562 main_v563 rfl shapeCasts_S1x32x64_S32x64,
    binary main_v561 main_v563 main_v564 (fun l r => Host.dotGeneral dot_S50000x32_S32x64_S50000x64_1_0_0_1_n_n none l r),
    binary main_v552 main_v564 main_v565 addf,
    unary main_arg11 main_v566 (extractStridedSlice S50000x1 ![0, 2] · slices_S50000x9_S50000x1_0_2),
    reshape main_v566 main_v567 rfl shapeCasts_S50000x1_S50000,
    nullary main_c_104 (constantI S_ 32 0#32),
    unary main_c_104 main_v568 (broadcastInDim S50000 ![] bcast_S_S50000),
    binary main_v567 main_v568 main_v569 (cmpi .slt),
    nullary main_c_105 (constantI S_ 32 50001#32),
    unary main_c_105 main_v570 (broadcastInDim S50000 ![] bcast_S_S50000),
    binary main_v567 main_v570 main_v571 addi,
    ternary main_v569 main_v571 main_v567 main_v572 select,
    unary main_v572 main_v573 (broadcastInDim S50000x1 ![0] bcast_S50000_S50000x1_0),
    binary main_v538 main_v573 main_v574 (fun x i => Host.gather gather_S50001x32_S50000x1_S50000x32_1_0_n_n_0_1_132 x i),
    unary main_arg5 main_v575 (extractStridedSlice S1x32x64 ![2, 0, 0] · slices_S9x32x64_S1x32x64_2_0_0),
    reshape main_v575 main_v576 rfl shapeCasts_S1x32x64_S32x64,
    binary main_v574 main_v576 main_v577 (fun l r => Host.dotGeneral dot_S50000x32_S32x64_S50000x64_1_0_0_1_n_n none l r),
    binary main_v565 main_v577 main_v578 addf,
    unary main_arg11 main_v579 (extractStridedSlice S50000x1 ![0, 3] · slices_S50000x9_S50000x1_0_3),
    reshape main_v579 main_v580 rfl shapeCasts_S50000x1_S50000,
    nullary main_c_106 (constantI S_ 32 0#32),
    unary main_c_106 main_v581 (broadcastInDim S50000 ![] bcast_S_S50000),
    binary main_v580 main_v581 main_v582 (cmpi .slt),
    nullary main_c_107 (constantI S_ 32 50001#32),
    unary main_c_107 main_v583 (broadcastInDim S50000 ![] bcast_S_S50000),
    binary main_v580 main_v583 main_v584 addi,
    ternary main_v582 main_v584 main_v580 main_v585 select,
    unary main_v585 main_v586 (broadcastInDim S50000x1 ![0] bcast_S50000_S50000x1_0),
    binary main_v538 main_v586 main_v587 (fun x i => Host.gather gather_S50001x32_S50000x1_S50000x32_1_0_n_n_0_1_132 x i),
    unary main_arg5 main_v588 (extractStridedSlice S1x32x64 ![3, 0, 0] · slices_S9x32x64_S1x32x64_3_0_0),
    reshape main_v588 main_v589 rfl shapeCasts_S1x32x64_S32x64,
    binary main_v587 main_v589 main_v590 (fun l r => Host.dotGeneral dot_S50000x32_S32x64_S50000x64_1_0_0_1_n_n none l r),
    binary main_v578 main_v590 main_v591 addf,
    unary main_arg11 main_v592 (extractStridedSlice S50000x1 ![0, 4] · slices_S50000x9_S50000x1_0_4),
    reshape main_v592 main_v593 rfl shapeCasts_S50000x1_S50000,
    nullary main_c_108 (constantI S_ 32 0#32),
    unary main_c_108 main_v594 (broadcastInDim S50000 ![] bcast_S_S50000),
    binary main_v593 main_v594 main_v595 (cmpi .slt),
    nullary main_c_109 (constantI S_ 32 50001#32),
    unary main_c_109 main_v596 (broadcastInDim S50000 ![] bcast_S_S50000),
    binary main_v593 main_v596 main_v597 addi,
    ternary main_v595 main_v597 main_v593 main_v598 select,
    unary main_v598 main_v599 (broadcastInDim S50000x1 ![0] bcast_S50000_S50000x1_0),
    binary main_v538 main_v599 main_v600 (fun x i => Host.gather gather_S50001x32_S50000x1_S50000x32_1_0_n_n_0_1_132 x i),
    unary main_arg5 main_v601 (extractStridedSlice S1x32x64 ![4, 0, 0] · slices_S9x32x64_S1x32x64_4_0_0),
    reshape main_v601 main_v602 rfl shapeCasts_S1x32x64_S32x64,
    binary main_v600 main_v602 main_v603 (fun l r => Host.dotGeneral dot_S50000x32_S32x64_S50000x64_1_0_0_1_n_n none l r),
    binary main_v591 main_v603 main_v604 addf,
    unary main_arg11 main_v605 (extractStridedSlice S50000x1 ![0, 5] · slices_S50000x9_S50000x1_0_5),
    reshape main_v605 main_v606 rfl shapeCasts_S50000x1_S50000,
    nullary main_c_110 (constantI S_ 32 0#32) ]
theorem part11_eq (d : Dev nD) : main_part11 (F := F) d = seq (r11) := rfl
/-- Statements 721–780: convolution 5, its statements 84–143 of 159. -/
abbrev r12 : List (HloOp τ sig (Elt F)) :=
  [ unary main_c_110 main_v607 (broadcastInDim S50000 ![] bcast_S_S50000),
    binary main_v606 main_v607 main_v608 (cmpi .slt),
    nullary main_c_111 (constantI S_ 32 50001#32),
    unary main_c_111 main_v609 (broadcastInDim S50000 ![] bcast_S_S50000),
    binary main_v606 main_v609 main_v610 addi,
    ternary main_v608 main_v610 main_v606 main_v611 select,
    unary main_v611 main_v612 (broadcastInDim S50000x1 ![0] bcast_S50000_S50000x1_0),
    binary main_v538 main_v612 main_v613 (fun x i => Host.gather gather_S50001x32_S50000x1_S50000x32_1_0_n_n_0_1_132 x i),
    unary main_arg5 main_v614 (extractStridedSlice S1x32x64 ![5, 0, 0] · slices_S9x32x64_S1x32x64_5_0_0),
    reshape main_v614 main_v615 rfl shapeCasts_S1x32x64_S32x64,
    binary main_v613 main_v615 main_v616 (fun l r => Host.dotGeneral dot_S50000x32_S32x64_S50000x64_1_0_0_1_n_n none l r),
    binary main_v604 main_v616 main_v617 addf,
    unary main_arg11 main_v618 (extractStridedSlice S50000x1 ![0, 6] · slices_S50000x9_S50000x1_0_6),
    reshape main_v618 main_v619 rfl shapeCasts_S50000x1_S50000,
    nullary main_c_112 (constantI S_ 32 0#32),
    unary main_c_112 main_v620 (broadcastInDim S50000 ![] bcast_S_S50000),
    binary main_v619 main_v620 main_v621 (cmpi .slt),
    nullary main_c_113 (constantI S_ 32 50001#32),
    unary main_c_113 main_v622 (broadcastInDim S50000 ![] bcast_S_S50000),
    binary main_v619 main_v622 main_v623 addi,
    ternary main_v621 main_v623 main_v619 main_v624 select,
    unary main_v624 main_v625 (broadcastInDim S50000x1 ![0] bcast_S50000_S50000x1_0),
    binary main_v538 main_v625 main_v626 (fun x i => Host.gather gather_S50001x32_S50000x1_S50000x32_1_0_n_n_0_1_132 x i),
    unary main_arg5 main_v627 (extractStridedSlice S1x32x64 ![6, 0, 0] · slices_S9x32x64_S1x32x64_6_0_0),
    reshape main_v627 main_v628 rfl shapeCasts_S1x32x64_S32x64,
    binary main_v626 main_v628 main_v629 (fun l r => Host.dotGeneral dot_S50000x32_S32x64_S50000x64_1_0_0_1_n_n none l r),
    binary main_v617 main_v629 main_v630 addf,
    unary main_arg11 main_v631 (extractStridedSlice S50000x1 ![0, 7] · slices_S50000x9_S50000x1_0_7),
    reshape main_v631 main_v632 rfl shapeCasts_S50000x1_S50000,
    nullary main_c_114 (constantI S_ 32 0#32),
    unary main_c_114 main_v633 (broadcastInDim S50000 ![] bcast_S_S50000),
    binary main_v632 main_v633 main_v634 (cmpi .slt),
    nullary main_c_115 (constantI S_ 32 50001#32),
    unary main_c_115 main_v635 (broadcastInDim S50000 ![] bcast_S_S50000),
    binary main_v632 main_v635 main_v636 addi,
    ternary main_v634 main_v636 main_v632 main_v637 select,
    unary main_v637 main_v638 (broadcastInDim S50000x1 ![0] bcast_S50000_S50000x1_0),
    binary main_v538 main_v638 main_v639 (fun x i => Host.gather gather_S50001x32_S50000x1_S50000x32_1_0_n_n_0_1_132 x i),
    unary main_arg5 main_v640 (extractStridedSlice S1x32x64 ![7, 0, 0] · slices_S9x32x64_S1x32x64_7_0_0),
    reshape main_v640 main_v641 rfl shapeCasts_S1x32x64_S32x64,
    binary main_v639 main_v641 main_v642 (fun l r => Host.dotGeneral dot_S50000x32_S32x64_S50000x64_1_0_0_1_n_n none l r),
    binary main_v630 main_v642 main_v643 addf,
    unary main_arg11 main_v644 (extractStridedSlice S50000x1 ![0, 8] · slices_S50000x9_S50000x1_0_8),
    reshape main_v644 main_v645 rfl shapeCasts_S50000x1_S50000,
    nullary main_c_116 (constantI S_ 32 0#32),
    unary main_c_116 main_v646 (broadcastInDim S50000 ![] bcast_S_S50000),
    binary main_v645 main_v646 main_v647 (cmpi .slt),
    nullary main_c_117 (constantI S_ 32 50001#32),
    unary main_c_117 main_v648 (broadcastInDim S50000 ![] bcast_S_S50000),
    binary main_v645 main_v648 main_v649 addi,
    ternary main_v647 main_v649 main_v645 main_v650 select,
    unary main_v650 main_v651 (broadcastInDim S50000x1 ![0] bcast_S50000_S50000x1_0),
    binary main_v538 main_v651 main_v652 (fun x i => Host.gather gather_S50001x32_S50000x1_S50000x32_1_0_n_n_0_1_132 x i),
    unary main_arg5 main_v653 (extractStridedSlice S1x32x64 ![8, 0, 0] · slices_S9x32x64_S1x32x64_8_0_0),
    reshape main_v653 main_v654 rfl shapeCasts_S1x32x64_S32x64,
    binary main_v652 main_v654 main_v655 (fun l r => Host.dotGeneral dot_S50000x32_S32x64_S50000x64_1_0_0_1_n_n none l r),
    binary main_v643 main_v655 main_v656 addf,
    nullary main_cst_118 (constant S_ .f32 0x3C23D70A#32),
    TRef.nullary main_call8.cst (constant S_ .f32 0x00000000#32),
    TRef.unary main_call8.cst main_call8.v0 (broadcastInDim S50000x64 ![] bcast_S_S50000x64),
    TRef.binary (.of main_v656) main_call8.v0 main_call8.v1 (cmpf .oge),
    TRef.unary (.of main_cst_118) main_call8.v2 id,
    TRef.unary main_call8.v2 main_call8.v3 (broadcastInDim S50000x64 ![] bcast_S_S50000x64),
    TRef.binary main_call8.v3 (.of main_v656) main_call8.v4 mulf,
    TRef.ternary main_call8.v1 (.of main_v656) main_call8.v4 main_call8.call0.v0 select,
    nullary main_cst_119 (constant S_ .f32 0x00000000#32) ]
set_option maxRecDepth 4096 in
theorem part12_eq (d : Dev nD) : main_part12 (F := F) d = seq (r12) := by
  simp only [main_part12, fn_leaky_relu.body, fn_where.body, fn_var.body, fn_where_0.body, fn_leaky_relu_1.body, fn_where_2.body, fn_var_3.body, fn_where_4.body, seq, bind_assoc, pure_bind, List.cons_append, List.nil_append, List.append_assoc]
  rfl
/-- Statements 781–796: convolution 5, its statements 144–159 of 159. -/
abbrev r13a : List (HloOp τ sig (Elt F)) :=
  [ binary main_v657 main_cst_119 main_v658 (fun x v => Host.reduceAdd x v reducesTo_S50000x64_S64_d0 h_S_),
    nullary main_cst_120 (constant S_ .f32 0x47435000#32),
    unary main_cst_120 main_v659 (broadcastInDim S64 ![] bcast_S_S64),
    binary main_v658 main_v659 main_v660 Host.divf,
    nullary main_c_121 (constantI S_ 32 0#32),
    TRef.nullary main_call9.cst (constant S_ .f32 0x00000000#32),
    TRef.binary (.of main_v657) main_call9.cst main_call9.v0 (fun x v => Host.reduceAdd x v reducesTo_S50000x64_S64_d0 h_S_),
    TRef.unary main_call9.v0 main_call9.v1 (broadcastInDim S1x64 ![1] bcast_S64_S1x64_1),
    TRef.nullary main_call9.cst_0 (constant S_ .f32 0x47435000#32),
    TRef.unary main_call9.cst_0 main_call9.v2 (broadcastInDim S1x64 ![] bcast_S_S1x64),
    TRef.binary main_call9.v1 main_call9.v2 main_call9.v3 Host.divf,
    TRef.unary main_call9.v3 main_call9.v4 (broadcastInDim S50000x64 ![0, 1] bcast_S1x64_S50000x64_0_1),
    TRef.binary (.of main_v657) main_call9.v4 main_call9.v5 subf,
    TRef.binary main_call9.v5 main_call9.v5 main_call9.v6 mulf,
    TRef.unary (.of main_c_121) main_call9.v7 (sitofp .f32),
    TRef.nullary main_call9.cst_1 (constant S_ .f32 0x47435000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S50000x64_S64_d0 h_S_),
    TRef.unary main_call9.v8 main_call9.v10 (broadcastInDim S64 ![] bcast_S_S64),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S64 ![] bcast_S_S64),
    TRef.ternary main_call9.v12 main_call9.v11 main_call9.call0.v1 main_call9.call0.v2 (fun p a b => select (broadcastInDim S64 ![] bcast_S_S64 p) a b),
    unary main_v660 main_v662 (broadcastInDim S1x64 ![1] bcast_S64_S1x64_1),
    unary main_v662 main_v663 (broadcastInDim S50000x64 ![0, 1] bcast_S1x64_S50000x64_0_1),
    binary main_v657 main_v663 main_v664 subf,
    nullary main_cst_122 (constant S_ .f32 0x3727C5AC#32),
    unary main_cst_122 main_v665 (broadcastInDim S64 ![] bcast_S_S64),
    binary main_v661 main_v665 main_v666 addf,
    unary main_v666 main_v667 Host.rsqrt,
    unary main_v667 main_v668 (broadcastInDim S1x64 ![1] bcast_S64_S1x64_1),
    unary main_v668 main_v669 (broadcastInDim S50000x64 ![0, 1] bcast_S1x64_S50000x64_0_1),
    binary main_v664 main_v669 main_v670 mulf ]
/-- Statements 797–840: convolution 6, its statements 1–44 of 159. -/
abbrev r13b : List (HloOp τ sig (Elt F)) :=
  [ nullary main_cst_123 (constant S_ .f32 0x00000000#32),
    unary main_cst_123 main_v671 (broadcastInDim S1x64 ![] bcast_S_S1x64),
    binary main_v670 main_v671 main_v672 (fun a b => concatenate S50001x64 0 [⟨S50000x64, a⟩, ⟨S1x64, b⟩] concatenates_S50000x64_S1x64_S50001x64_d0),
    nullary main_cst_124 (constant S_ .f32 0x00000000#32),
    unary main_cst_124 main_v673 (broadcastInDim S50000x64 ![] bcast_S_S50000x64),
    unary main_arg10 main_v674 (extractStridedSlice S50000x1 ![0, 0] · slices_S50000x9_S50000x1_0_0),
    reshape main_v674 main_v675 rfl shapeCasts_S50000x1_S50000,
    nullary main_c_125 (constantI S_ 32 0#32),
    unary main_c_125 main_v676 (broadcastInDim S50000 ![] bcast_S_S50000),
    binary main_v675 main_v676 main_v677 (cmpi .slt),
    nullary main_c_126 (constantI S_ 32 50001#32),
    unary main_c_126 main_v678 (broadcastInDim S50000 ![] bcast_S_S50000),
    binary main_v675 main_v678 main_v679 addi,
    ternary main_v677 main_v679 main_v675 main_v680 select,
    unary main_v680 main_v681 (broadcastInDim S50000x1 ![0] bcast_S50000_S50000x1_0),
    binary main_v672 main_v681 main_v682 (fun x i => Host.gather gather_S50001x64_S50000x1_S50000x64_1_0_n_n_0_1_164 x i),
    unary main_arg6 main_v683 (extractStridedSlice S1x64x64 ![0, 0, 0] · slices_S9x64x64_S1x64x64_0_0_0),
    reshape main_v683 main_v684 rfl shapeCasts_S1x64x64_S64x64,
    binary main_v682 main_v684 main_v685 (fun l r => Host.dotGeneral dot_S50000x64_S64x64_S50000x64_1_0_0_1_n_n none l r),
    binary main_v673 main_v685 main_v686 addf,
    unary main_arg10 main_v687 (extractStridedSlice S50000x1 ![0, 1] · slices_S50000x9_S50000x1_0_1),
    reshape main_v687 main_v688 rfl shapeCasts_S50000x1_S50000,
    nullary main_c_127 (constantI S_ 32 0#32),
    unary main_c_127 main_v689 (broadcastInDim S50000 ![] bcast_S_S50000),
    binary main_v688 main_v689 main_v690 (cmpi .slt),
    nullary main_c_128 (constantI S_ 32 50001#32),
    unary main_c_128 main_v691 (broadcastInDim S50000 ![] bcast_S_S50000),
    binary main_v688 main_v691 main_v692 addi,
    ternary main_v690 main_v692 main_v688 main_v693 select,
    unary main_v693 main_v694 (broadcastInDim S50000x1 ![0] bcast_S50000_S50000x1_0),
    binary main_v672 main_v694 main_v695 (fun x i => Host.gather gather_S50001x64_S50000x1_S50000x64_1_0_n_n_0_1_164 x i),
    unary main_arg6 main_v696 (extractStridedSlice S1x64x64 ![1, 0, 0] · slices_S9x64x64_S1x64x64_1_0_0),
    reshape main_v696 main_v697 rfl shapeCasts_S1x64x64_S64x64,
    binary main_v695 main_v697 main_v698 (fun l r => Host.dotGeneral dot_S50000x64_S64x64_S50000x64_1_0_0_1_n_n none l r),
    binary main_v686 main_v698 main_v699 addf,
    unary main_arg10 main_v700 (extractStridedSlice S50000x1 ![0, 2] · slices_S50000x9_S50000x1_0_2),
    reshape main_v700 main_v701 rfl shapeCasts_S50000x1_S50000,
    nullary main_c_129 (constantI S_ 32 0#32),
    unary main_c_129 main_v702 (broadcastInDim S50000 ![] bcast_S_S50000),
    binary main_v701 main_v702 main_v703 (cmpi .slt),
    nullary main_c_130 (constantI S_ 32 50001#32),
    unary main_c_130 main_v704 (broadcastInDim S50000 ![] bcast_S_S50000),
    binary main_v701 main_v704 main_v705 addi,
    ternary main_v703 main_v705 main_v701 main_v706 select ]
set_option maxRecDepth 4096 in
theorem part13_eq (d : Dev nD) : main_part13 (F := F) d = seq (r13a ++ r13b) := by
  simp only [main_part13, fn_leaky_relu.body, fn_where.body, fn_var.body, fn_where_0.body, fn_leaky_relu_1.body, fn_where_2.body, fn_var_3.body, fn_where_4.body, seq, bind_assoc, pure_bind, List.cons_append, List.nil_append, List.append_assoc]
  rfl
/-- Statements 841–900: convolution 6, its statements 45–104 of 159. -/
abbrev r14 : List (HloOp τ sig (Elt F)) :=
  [ unary main_v706 main_v707 (broadcastInDim S50000x1 ![0] bcast_S50000_S50000x1_0),
    binary main_v672 main_v707 main_v708 (fun x i => Host.gather gather_S50001x64_S50000x1_S50000x64_1_0_n_n_0_1_164 x i),
    unary main_arg6 main_v709 (extractStridedSlice S1x64x64 ![2, 0, 0] · slices_S9x64x64_S1x64x64_2_0_0),
    reshape main_v709 main_v710 rfl shapeCasts_S1x64x64_S64x64,
    binary main_v708 main_v710 main_v711 (fun l r => Host.dotGeneral dot_S50000x64_S64x64_S50000x64_1_0_0_1_n_n none l r),
    binary main_v699 main_v711 main_v712 addf,
    unary main_arg10 main_v713 (extractStridedSlice S50000x1 ![0, 3] · slices_S50000x9_S50000x1_0_3),
    reshape main_v713 main_v714 rfl shapeCasts_S50000x1_S50000,
    nullary main_c_131 (constantI S_ 32 0#32),
    unary main_c_131 main_v715 (broadcastInDim S50000 ![] bcast_S_S50000),
    binary main_v714 main_v715 main_v716 (cmpi .slt),
    nullary main_c_132 (constantI S_ 32 50001#32),
    unary main_c_132 main_v717 (broadcastInDim S50000 ![] bcast_S_S50000),
    binary main_v714 main_v717 main_v718 addi,
    ternary main_v716 main_v718 main_v714 main_v719 select,
    unary main_v719 main_v720 (broadcastInDim S50000x1 ![0] bcast_S50000_S50000x1_0),
    binary main_v672 main_v720 main_v721 (fun x i => Host.gather gather_S50001x64_S50000x1_S50000x64_1_0_n_n_0_1_164 x i),
    unary main_arg6 main_v722 (extractStridedSlice S1x64x64 ![3, 0, 0] · slices_S9x64x64_S1x64x64_3_0_0),
    reshape main_v722 main_v723 rfl shapeCasts_S1x64x64_S64x64,
    binary main_v721 main_v723 main_v724 (fun l r => Host.dotGeneral dot_S50000x64_S64x64_S50000x64_1_0_0_1_n_n none l r),
    binary main_v712 main_v724 main_v725 addf,
    unary main_arg10 main_v726 (extractStridedSlice S50000x1 ![0, 4] · slices_S50000x9_S50000x1_0_4),
    reshape main_v726 main_v727 rfl shapeCasts_S50000x1_S50000,
    nullary main_c_133 (constantI S_ 32 0#32),
    unary main_c_133 main_v728 (broadcastInDim S50000 ![] bcast_S_S50000),
    binary main_v727 main_v728 main_v729 (cmpi .slt),
    nullary main_c_134 (constantI S_ 32 50001#32),
    unary main_c_134 main_v730 (broadcastInDim S50000 ![] bcast_S_S50000),
    binary main_v727 main_v730 main_v731 addi,
    ternary main_v729 main_v731 main_v727 main_v732 select,
    unary main_v732 main_v733 (broadcastInDim S50000x1 ![0] bcast_S50000_S50000x1_0),
    binary main_v672 main_v733 main_v734 (fun x i => Host.gather gather_S50001x64_S50000x1_S50000x64_1_0_n_n_0_1_164 x i),
    unary main_arg6 main_v735 (extractStridedSlice S1x64x64 ![4, 0, 0] · slices_S9x64x64_S1x64x64_4_0_0),
    reshape main_v735 main_v736 rfl shapeCasts_S1x64x64_S64x64,
    binary main_v734 main_v736 main_v737 (fun l r => Host.dotGeneral dot_S50000x64_S64x64_S50000x64_1_0_0_1_n_n none l r),
    binary main_v725 main_v737 main_v738 addf,
    unary main_arg10 main_v739 (extractStridedSlice S50000x1 ![0, 5] · slices_S50000x9_S50000x1_0_5),
    reshape main_v739 main_v740 rfl shapeCasts_S50000x1_S50000,
    nullary main_c_135 (constantI S_ 32 0#32),
    unary main_c_135 main_v741 (broadcastInDim S50000 ![] bcast_S_S50000),
    binary main_v740 main_v741 main_v742 (cmpi .slt),
    nullary main_c_136 (constantI S_ 32 50001#32),
    unary main_c_136 main_v743 (broadcastInDim S50000 ![] bcast_S_S50000),
    binary main_v740 main_v743 main_v744 addi,
    ternary main_v742 main_v744 main_v740 main_v745 select,
    unary main_v745 main_v746 (broadcastInDim S50000x1 ![0] bcast_S50000_S50000x1_0),
    binary main_v672 main_v746 main_v747 (fun x i => Host.gather gather_S50001x64_S50000x1_S50000x64_1_0_n_n_0_1_164 x i),
    unary main_arg6 main_v748 (extractStridedSlice S1x64x64 ![5, 0, 0] · slices_S9x64x64_S1x64x64_5_0_0),
    reshape main_v748 main_v749 rfl shapeCasts_S1x64x64_S64x64,
    binary main_v747 main_v749 main_v750 (fun l r => Host.dotGeneral dot_S50000x64_S64x64_S50000x64_1_0_0_1_n_n none l r),
    binary main_v738 main_v750 main_v751 addf,
    unary main_arg10 main_v752 (extractStridedSlice S50000x1 ![0, 6] · slices_S50000x9_S50000x1_0_6),
    reshape main_v752 main_v753 rfl shapeCasts_S50000x1_S50000,
    nullary main_c_137 (constantI S_ 32 0#32),
    unary main_c_137 main_v754 (broadcastInDim S50000 ![] bcast_S_S50000),
    binary main_v753 main_v754 main_v755 (cmpi .slt),
    nullary main_c_138 (constantI S_ 32 50001#32),
    unary main_c_138 main_v756 (broadcastInDim S50000 ![] bcast_S_S50000),
    binary main_v753 main_v756 main_v757 addi,
    ternary main_v755 main_v757 main_v753 main_v758 select ]
theorem part14_eq (d : Dev nD) : main_part14 (F := F) d = seq (r14) := rfl
/-- Statements 901–955: convolution 6, its statements 105–159 of 159. -/
abbrev r15a : List (HloOp τ sig (Elt F)) :=
  [ unary main_v758 main_v759 (broadcastInDim S50000x1 ![0] bcast_S50000_S50000x1_0),
    binary main_v672 main_v759 main_v760 (fun x i => Host.gather gather_S50001x64_S50000x1_S50000x64_1_0_n_n_0_1_164 x i),
    unary main_arg6 main_v761 (extractStridedSlice S1x64x64 ![6, 0, 0] · slices_S9x64x64_S1x64x64_6_0_0),
    reshape main_v761 main_v762 rfl shapeCasts_S1x64x64_S64x64,
    binary main_v760 main_v762 main_v763 (fun l r => Host.dotGeneral dot_S50000x64_S64x64_S50000x64_1_0_0_1_n_n none l r),
    binary main_v751 main_v763 main_v764 addf,
    unary main_arg10 main_v765 (extractStridedSlice S50000x1 ![0, 7] · slices_S50000x9_S50000x1_0_7),
    reshape main_v765 main_v766 rfl shapeCasts_S50000x1_S50000,
    nullary main_c_139 (constantI S_ 32 0#32),
    unary main_c_139 main_v767 (broadcastInDim S50000 ![] bcast_S_S50000),
    binary main_v766 main_v767 main_v768 (cmpi .slt),
    nullary main_c_140 (constantI S_ 32 50001#32),
    unary main_c_140 main_v769 (broadcastInDim S50000 ![] bcast_S_S50000),
    binary main_v766 main_v769 main_v770 addi,
    ternary main_v768 main_v770 main_v766 main_v771 select,
    unary main_v771 main_v772 (broadcastInDim S50000x1 ![0] bcast_S50000_S50000x1_0),
    binary main_v672 main_v772 main_v773 (fun x i => Host.gather gather_S50001x64_S50000x1_S50000x64_1_0_n_n_0_1_164 x i),
    unary main_arg6 main_v774 (extractStridedSlice S1x64x64 ![7, 0, 0] · slices_S9x64x64_S1x64x64_7_0_0),
    reshape main_v774 main_v775 rfl shapeCasts_S1x64x64_S64x64,
    binary main_v773 main_v775 main_v776 (fun l r => Host.dotGeneral dot_S50000x64_S64x64_S50000x64_1_0_0_1_n_n none l r),
    binary main_v764 main_v776 main_v777 addf,
    unary main_arg10 main_v778 (extractStridedSlice S50000x1 ![0, 8] · slices_S50000x9_S50000x1_0_8),
    reshape main_v778 main_v779 rfl shapeCasts_S50000x1_S50000,
    nullary main_c_141 (constantI S_ 32 0#32),
    unary main_c_141 main_v780 (broadcastInDim S50000 ![] bcast_S_S50000),
    binary main_v779 main_v780 main_v781 (cmpi .slt),
    nullary main_c_142 (constantI S_ 32 50001#32),
    unary main_c_142 main_v782 (broadcastInDim S50000 ![] bcast_S_S50000),
    binary main_v779 main_v782 main_v783 addi,
    ternary main_v781 main_v783 main_v779 main_v784 select,
    unary main_v784 main_v785 (broadcastInDim S50000x1 ![0] bcast_S50000_S50000x1_0),
    binary main_v672 main_v785 main_v786 (fun x i => Host.gather gather_S50001x64_S50000x1_S50000x64_1_0_n_n_0_1_164 x i),
    unary main_arg6 main_v787 (extractStridedSlice S1x64x64 ![8, 0, 0] · slices_S9x64x64_S1x64x64_8_0_0),
    reshape main_v787 main_v788 rfl shapeCasts_S1x64x64_S64x64,
    binary main_v786 main_v788 main_v789 (fun l r => Host.dotGeneral dot_S50000x64_S64x64_S50000x64_1_0_0_1_n_n none l r),
    binary main_v777 main_v789 main_v790 addf,
    nullary main_cst_143 (constant S_ .f32 0x3C23D70A#32),
    TRef.nullary main_call10.cst (constant S_ .f32 0x00000000#32),
    TRef.unary main_call10.cst main_call10.v0 (broadcastInDim S50000x64 ![] bcast_S_S50000x64),
    TRef.binary (.of main_v790) main_call10.v0 main_call10.v1 (cmpf .oge),
    TRef.unary (.of main_cst_143) main_call10.v2 id,
    TRef.unary main_call10.v2 main_call10.v3 (broadcastInDim S50000x64 ![] bcast_S_S50000x64),
    TRef.binary main_call10.v3 (.of main_v790) main_call10.v4 mulf,
    TRef.ternary main_call10.v1 (.of main_v790) main_call10.v4 main_call10.call0.v0 select,
    nullary main_cst_144 (constant S_ .f32 0x00000000#32),
    binary main_v791 main_cst_144 main_v792 (fun x v => Host.reduceAdd x v reducesTo_S50000x64_S64_d0 h_S_),
    nullary main_cst_145 (constant S_ .f32 0x47435000#32),
    unary main_cst_145 main_v793 (broadcastInDim S64 ![] bcast_S_S64),
    binary main_v792 main_v793 main_v794 Host.divf,
    nullary main_c_146 (constantI S_ 32 0#32),
    TRef.nullary main_call11.cst (constant S_ .f32 0x00000000#32),
    TRef.binary (.of main_v791) main_call11.cst main_call11.v0 (fun x v => Host.reduceAdd x v reducesTo_S50000x64_S64_d0 h_S_),
    TRef.unary main_call11.v0 main_call11.v1 (broadcastInDim S1x64 ![1] bcast_S64_S1x64_1),
    TRef.nullary main_call11.cst_0 (constant S_ .f32 0x47435000#32),
    TRef.unary main_call11.cst_0 main_call11.v2 (broadcastInDim S1x64 ![] bcast_S_S1x64),
    TRef.binary main_call11.v1 main_call11.v2 main_call11.v3 Host.divf,
    TRef.unary main_call11.v3 main_call11.v4 (broadcastInDim S50000x64 ![0, 1] bcast_S1x64_S50000x64_0_1),
    TRef.binary (.of main_v791) main_call11.v4 main_call11.v5 subf,
    TRef.binary main_call11.v5 main_call11.v5 main_call11.v6 mulf,
    TRef.unary (.of main_c_146) main_call11.v7 (sitofp .f32),
    TRef.nullary main_call11.cst_1 (constant S_ .f32 0x47435000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S50000x64_S64_d0 h_S_),
    TRef.unary main_call11.v8 main_call11.v10 (broadcastInDim S64 ![] bcast_S_S64),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S64 ![] bcast_S_S64),
    TRef.ternary main_call11.v12 main_call11.v11 main_call11.call0.v1 main_call11.call0.v2 (fun p a b => select (broadcastInDim S64 ![] bcast_S_S64 p) a b),
    unary main_v794 main_v796 (broadcastInDim S1x64 ![1] bcast_S64_S1x64_1),
    unary main_v796 main_v797 (broadcastInDim S50000x64 ![0, 1] bcast_S1x64_S50000x64_0_1),
    binary main_v791 main_v797 main_v798 subf,
    nullary main_cst_147 (constant S_ .f32 0x3727C5AC#32),
    unary main_cst_147 main_v799 (broadcastInDim S64 ![] bcast_S_S64),
    binary main_v795 main_v799 main_v800 addf,
    unary main_v800 main_v801 Host.rsqrt,
    unary main_v801 main_v802 (broadcastInDim S1x64 ![1] bcast_S64_S1x64_1),
    unary main_v802 main_v803 (broadcastInDim S50000x64 ![0, 1] bcast_S1x64_S50000x64_0_1),
    binary main_v798 main_v803 main_v804 mulf ]

end Cert.ReferenceIdeal.Run

end
-- ==== Proof.BRC.lean ====
/-
  The 32 → 64 convolutions: the reference's tap and whole convolution read at an index, and the agreement with the
  kernel's region value on its gathered taps (the same nine sums, added in the same order, under the leaky rectifier).
-/
import proofs.«141681_j16750372455151_2_alg».proof.Proof.BridgeRefTap
import proofs.«141681_j16750372455151_2_alg».proof.Proof.HostFns
import proofs.«141681_j16750372455151_2_alg».proof.Proof.BK32
import proofs.«141681_j16750372455151_2_alg».proof.Proof.Region4Array

set_option maxRecDepth 16384

noncomputable section

namespace Cert.ReferenceIdeal.BRC

open Idealize.ShloMosaic Idealize.ShloMosaic.ValueIdx Idealize.ShloMosaic.TcCoe Idealize.SL.Sem
open Cert.ReferenceIdeal Cert.ReferenceIdeal.Gen Cert.ReferenceIdeal.Fns Cert.SparseConv
open Cert.KernelIdeal.Bridge (wrap row)
open Cert.ReferenceIdeal.Bridge (colIdx col_apply colIdx_apply)

/-! ## The reference's gather: one tap -/

abbrev GR := gather_S50001x32_S50000x1_S50000x32_1_0_n_n_0_1_132

theorem rcoord0 (idx : IVec (⟨2, ![50000, 1]⟩ : Shape) 32) (i : Fin 50000) (c : Fin 32) :
    GR.start (ix2 i c) idx (0 : Fin 2) + GR.batchCoord (ix2 i c) (0 : Fin 2) + GR.offCoord (ix2 i c) (0 : Fin 2)
      = min (idx (ix2 i (0 : Fin 1))).toInt.toNat 50000 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GR.startIndexMap from List.mem_singleton.mpr rfl)]
  have hsi : GR.siIdx (ix2 i c) ⟨List.idxOf (0 : Fin 2) GR.startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

theorem rcoord1 (idx : IVec (⟨2, ![50000, 1]⟩ : Shape) 32) (i : Fin 50000) (c : Fin 32) :
    GR.start (ix2 i c) idx (1 : Fin 2) + GR.batchCoord (ix2 i c) (1 : Fin 2) + GR.offCoord (ix2 i c) (1 : Fin 2) = c.val := by
  rw [GatherDims.batchCoord_eq_zero _ _ _ List.not_mem_nil]
  unfold GatherDims.start
  rw [dif_neg (show (1 : Fin 2) ∉ GR.startIndexMap by decide)]
  unfold GatherDims.offCoord
  rw [dif_pos (show (1 : Fin 2) ∈ GR.sKept by decide)]
  simp only [Nat.zero_add, Nat.add_zero]
  rfl

/-- The reference's gather at (i, c): the table's row at the clamped start index, channel c. -/
theorem rgather {α : Type} (x : (⟨2, ![50001, 32]⟩ : Shape).Idx → α) (idx : IVec (⟨2, ![50000, 1]⟩ : Shape) 32)
    (i : Fin 50000) (c : Fin 32) :
    Host.gather GR x idx (ix2 i c) = x (ix2 ⟨min (idx (ix2 i (0 : Fin 1))).toInt.toNat 50000, by omega⟩ c) := by
  unfold Host.gather
  congr 1
  funext a
  refine Fin.ext ?_
  match a with
  | ⟨0, _⟩ => exact rcoord0 idx i c
  | ⟨1, _⟩ => exact rcoord1 idx i c

/-! ## The host's product for one tap -/

abbrev DR := dot_S50000x32_S32x64_S50000x64_1_0_0_1_n_n

theorem dr_lhs_row (j : S50000x64.Idx) (s : DR.contr.Idx) : (DR.lhsIdx j s 0).val = (j 0).val := by
  unfold DotDims.lhsIdx
  rw [dif_neg (show ¬(0 : Fin S50000x32.rank) ∈ DR.lhsBatch by decide), dif_pos (show (0 : Fin S50000x32.rank) ∈ DR.lhsNonContracting by decide)]
  rfl
theorem dr_lhs_contr (j : S50000x64.Idx) (s : DR.contr.Idx) : (DR.lhsIdx j s 1).val = (s ⟨0, by decide⟩).val :=
  DR.lhsIdx_val_of_single rfl j s
theorem dr_rhs_contr (j : S50000x64.Idx) (s : DR.contr.Idx) : (DR.rhsIdx j s 0).val = (s ⟨0, by decide⟩).val :=
  DR.rhsIdx_val_of_single rfl j s
theorem dr_rhs_col (j : S50000x64.Idx) (s : DR.contr.Idx) : (DR.rhsIdx j s 1).val = (j 1).val := by
  unfold DotDims.rhsIdx
  rw [dif_neg (show ¬(1 : Fin S32x64.rank) ∈ DR.rhsBatch by decide), dif_pos (show (1 : Fin S32x64.rank) ∈ DR.rhsNonContracting by decide)]
  rfl

/-- Slice k of the weights, as a 32 × 32 matrix, at (c, o). -/
theorem wslice_apply (k : Fin 9) (hw : S9x32x64.Slices ![k.val, 0, 0] S1x32x64) (W : FVec Ideal S9x32x64 .f32) (c : Fin 32) (o : Fin 64) :
    shapeCast S32x64 (extractStridedSlice S1x32x64 ![k.val, 0, 0] W hw) shapeCasts_S1x32x64_S32x64 (ix2 c o) = W (ix3 k c o) := by
  rw [shapeCast_1ab_ab_apply]
  exact extractStridedSlice_apply _ _ hw _ (ix3 k c o) (fun a => by
    match a with
    | ⟨0, _⟩ => show k.val = k.val + 0; omega
    | ⟨1, _⟩ => show c.val = 0 + c.val; omega
    | ⟨2, _⟩ => show o.val = 0 + o.val; omega)

/-- TAP k OF THE REFERENCE at (i, o): the sum over the 32 input channels of the padded table's row
    `row (nbr[i, k])` times slice k of the weights. -/
theorem refTap_apply (k : Fin 9) (hs : S50000x9.Slices ![0, k.val] S50000x1) (hw : S9x32x64.Slices ![k.val, 0, 0] S1x32x64)
    (xp : FVec Ideal S50001x32 .f32) (nbr : IVec S50000x9 32) (W : FVec Ideal S9x32x64 .f32) (i : Fin 50000) (o : Fin 64) :
    (Host.dotGeneral (F := Ideal) DR none (Host.gather GR xp (colIdx k hs nbr))
      (shapeCast S32x64 (extractStridedSlice S1x32x64 ![k.val, 0, 0] W hw) shapeCasts_S1x32x64_S32x64) (ix2 i o) : EReal)
    = ∑ c : Fin 32, (xp (ix2 (row (nbr (ix2 i k))) c) : EReal) * (W (ix3 k c o) : EReal) := by
  simp only [Host.dotGeneral]
  rw [Ideal.dotGeneral_apply, ← Equiv.sum_comp (contrEquiv1 DR 32 rfl rfl).symm]
  refine Finset.sum_congr rfl fun c _ => ?_
  have hc := contrEquiv1_symm_val DR 32 rfl rfl c
  have el : DR.lhsIdx (ix2 i o) ((contrEquiv1 DR 32 rfl rfl).symm c) = ix2 i c := funext fun a => Fin.ext (by
    match a with
    | ⟨0, _⟩ => exact dr_lhs_row _ _
    | ⟨1, _⟩ => exact (dr_lhs_contr _ _).trans hc)
  have er : DR.rhsIdx (ix2 i o) ((contrEquiv1 DR 32 rfl rfl).symm c) = ix2 c o := funext fun a => Fin.ext (by
    match a with
    | ⟨0, _⟩ => exact (dr_rhs_contr _ _).trans hc
    | ⟨1, _⟩ => exact dr_rhs_col _ _)
  rw [el, er, wslice_apply, rgather]
  simp only [colIdx_apply]
  rfl

theorem slicesN : ∀ k : Fin 9, S50000x9.Slices ![0, k.val] S50000x1 := by decide
theorem slicesW : ∀ k : Fin 9, S9x32x64.Slices ![k.val, 0, 0] S1x32x64 := by decide

/-- The reference's padded feature table: the features with one all-zero row appended. -/
def xpadR (x : FVec Ideal S50000x32 .f32) : FVec Ideal S50001x32 .f32 :=
  concatenate S50001x32 0 [⟨S50000x32, x⟩, ⟨S1x32, broadcastInDim S1x32 ![] bcast_S_S1x32 (constant (F := Ideal) S_ .f32 0x00000000#32)⟩]
    concatenates_S50000x32_S1x32_S50001x32_d0

/-- Tap k of the reference, as an array. -/
def refTapArr (k : Fin 9) (x : FVec Ideal S50000x32 .f32) (nbr : IVec S50000x9 32) (W : FVec Ideal S9x32x64 .f32) : FVec Ideal S50000x64 .f32 :=
  Host.dotGeneral (F := Ideal) DR none (Host.gather GR (xpadR x) (colIdx k (slicesN k) nbr))
    (shapeCast S32x64 (extractStridedSlice S1x32x64 ![k.val, 0, 0] W (slicesW k)) shapeCasts_S1x32x64_S32x64)

/-- The reference's convolution: the nine taps added in order onto a zero array. -/
def refConv (x : FVec Ideal S50000x32 .f32) (nbr : IVec S50000x9 32) (W : FVec Ideal S9x32x64 .f32) : FVec Ideal S50000x64 .f32 :=
  addf (addf (addf (addf (addf (addf (addf (addf (addf
    (broadcastInDim S50000x64 ![] bcast_S_S50000x64 (constant (F := Ideal) S_ .f32 0x00000000#32))
    (refTapArr 0 x nbr W)) (refTapArr 1 x nbr W)) (refTapArr 2 x nbr W)) (refTapArr 3 x nbr W)) (refTapArr 4 x nbr W))
    (refTapArr 5 x nbr W)) (refTapArr 6 x nbr W)) (refTapArr 7 x nbr W)) (refTapArr 8 x nbr W)

/-- The reference's convolution at (i, o). -/
theorem refConv_apply (x : FVec Ideal S50000x32 .f32) (nbr : IVec S50000x9 32) (W : FVec Ideal S9x32x64 .f32) (i : Fin 50000) (o : Fin 64) :
    (refConv x nbr W (ix2 i o) : EReal)
      = acc9 fun k => ∑ c : Fin 32, (xpadR x (ix2 (row (nbr (ix2 i k))) c) : EReal) * (W (ix3 k c o) : EReal) := by
  show acc9 ![refTapArr 0 x nbr W (ix2 i o), refTapArr 1 x nbr W (ix2 i o), refTapArr 2 x nbr W (ix2 i o), refTapArr 3 x nbr W (ix2 i o),
    refTapArr 4 x nbr W (ix2 i o), refTapArr 5 x nbr W (ix2 i o), refTapArr 6 x nbr W (ix2 i o), refTapArr 7 x nbr W (ix2 i o),
    refTapArr 8 x nbr W (ix2 i o)] = _
  refine congrArg acc9 (funext fun k => ?_)
  fin_cases k
  · exact refTap_apply 0 _ _ (xpadR x) nbr W i o
  · exact refTap_apply 1 _ _ (xpadR x) nbr W i o
  · exact refTap_apply 2 _ _ (xpadR x) nbr W i o
  · exact refTap_apply 3 _ _ (xpadR x) nbr W i o
  · exact refTap_apply 4 _ _ (xpadR x) nbr W i o
  · exact refTap_apply 5 _ _ (xpadR x) nbr W i o
  · exact refTap_apply 6 _ _ (xpadR x) nbr W i o
  · exact refTap_apply 7 _ _ (xpadR x) nbr W i o
  · exact refTap_apply 8 _ _ (xpadR x) nbr W i o

/-- The two padded tables are one: narrowing is the identity and both zero words read 0. -/
theorem xpad_eq (x : FVec Ideal S50000x32 .f32) :
    (concatenate Cert.KernelIdeal.S50001x32 0 [⟨Cert.KernelIdeal.S50000x32, truncf (F := Ideal) .bf16 x (by decide)⟩,
        ⟨Cert.KernelIdeal.S1x32, broadcastInDim Cert.KernelIdeal.S1x32 ![] Cert.KernelIdeal.Gen.bcast_S_S1x32 (constant (F := Ideal) Cert.KernelIdeal.S_ .bf16 0x0000#16)⟩]
        Cert.KernelIdeal.Gen.concatenates_S50000x32_S1x32_S50001x32_d0 : S50001x32.Idx → EReal) = xpadR x := by
  have hz : (constant (F := Ideal) Cert.KernelIdeal.S_ .bf16 0x0000#16 : S_.Idx → EReal) = constant (F := Ideal) S_ .f32 0x00000000#32 := by
    funext j
    show Ideal.ofBits .bf16 0x0000#16 = Ideal.ofBits .f32 0x00000000#32
    simp [Ideal.ofBits, Ideal.ieee]
  unfold xpadR
  rw [← hz]
  rfl

/-- THE LAYER: the kernel's region value on its gathered taps is the leaky rectifier of the reference's convolution. -/
theorem layer_eq (x : FVec Ideal S50000x32 .f32) (nbr : IVec S50000x9 32) (W : FVec Ideal S9x32x64 .f32) :
    (Cert.KernelIdeal.Conv4.conv (Cert.KernelIdeal.Chain.tapsB32 (truncf (F := Ideal) .bf16 x (by decide)) nbr) (truncf (F := Ideal) .bf16 W (by decide)) : S50000x64.Idx → EReal)
      = lrelu64 (refConv x nbr W) := by
  funext j
  obtain ⟨i, o, rfl⟩ : ∃ (i : Fin 50000) (o : Fin 64), j = ix2 i o := ⟨j 0, j 1, eq_ix2 j⟩
  show lrelu (acc9 fun k => ∑ c : Fin 32, (Cert.KernelIdeal.Chain.tapsB32 (truncf (F := Ideal) .bf16 x (by decide)) nbr (ix3 k i c) : EReal) * (W (ix3 k c o) : EReal))
    = lrelu (refConv x nbr W (ix2 i o))
  rw [refConv_apply]
  refine congrArg lrelu (congrArg acc9 (funext fun k => Finset.sum_congr rfl fun c _ => ?_))
  rw [Cert.KernelIdeal.BK32.tapsB_apply, ← xpad_eq]

end Cert.ReferenceIdeal.BRC

end
-- ==== Proof.RefEval5.lean ====
/-
  What one convolution block of the reference computes, from ANY contents V of the buffers before it: the operations'
  composed term is the batch normalisation of the leaky rectifier of the convolution of its input, neighbour table and
  weights as V holds them.
-/
import proofs.«141681_j16750372455151_2_alg».proof.Proof.RefRunD
import proofs.«141681_j16750372455151_2_alg».proof.Proof.BRC

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.ReferenceIdeal.Fns

set_option maxHeartbeats 8000000 in
theorem E5 (V : Valuation τ sig (Elt Ideal)) :
    (after (r13a (F := Ideal)) (after (r12 (F := Ideal)) (after (r11 (F := Ideal)) (after (r10c (F := Ideal)) V))) (Proc.devRef .tc main_v670) : S50000x64.Idx → EReal)
      = bn64 (lrelu64 (Cert.ReferenceIdeal.BRC.refConv (V (Proc.devRef .tc main_v536)) (V (Proc.devRef .tc main_arg11)) (V (Proc.devRef .tc main_arg5)))) := by
  after_results_simp <;> rfl

end Cert.ReferenceIdeal.Run

end
-- ==== Proof.BK64.lean ====
/-
  The kernel's gather on a 64-channel table, read at an index: entry (k, i, c) of the gathered array is the padded
  table's row `row (nbr[i, k])`, channel c.
-/
import proofs.«141681_j16750372455151_2_alg».proof.Proof.BridgeKernelGather
import proofs.«141681_j16750372455151_2_alg».proof.Proof.KDefs

set_option maxRecDepth 16384

noncomputable section

namespace Cert.KernelIdeal.BK64

open Idealize.ShloMosaic Idealize.ShloMosaic.ValueIdx
open Idealize.ShloMosaic.TcCoe Idealize.SL.Sem
open Cert.KernelIdeal Cert.KernelIdeal.Gen Cert.KernelIdeal.Chain
open Cert.KernelIdeal.Bridge (wrap row wrapT9_apply)

/-! ## The kernel's gather: all taps at once -/

abbrev GK := gather_S50001x64_S9x50000x1_S9x50000x64_2_0_n_n_0_2_164

theorem kcoord0 (idx : IVec (⟨3, ![9, 50000, 1]⟩ : Shape) 32) (k : Fin 9) (i : Fin 50000) (c : Fin 64) :
    GK.start (ix3 k i c) idx (0 : Fin 2) + GK.batchCoord (ix3 k i c) (0 : Fin 2) + GK.offCoord (ix3 k i c) (0 : Fin 2)
      = min (idx (ix3 k i (0 : Fin 1))).toInt.toNat 50000 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GK.startIndexMap from List.mem_singleton.mpr rfl)]
  have hsi : GK.siIdx (ix3 k i c) ⟨List.idxOf (0 : Fin 2) GK.startIndexMap,
      List.idxOf_lt_length_iff.2 (List.mem_singleton.mpr rfl)⟩ = ix3 k i (0 : Fin 1) := by
    funext b; refine Fin.ext ?_
    match b with
    | ⟨0, _⟩ => rfl
    | ⟨1, _⟩ => rfl
    | ⟨2, _⟩ => rfl
  rw [hsi]
  rfl

theorem kcoord1 (idx : IVec (⟨3, ![9, 50000, 1]⟩ : Shape) 32) (k : Fin 9) (i : Fin 50000) (c : Fin 64) :
    GK.start (ix3 k i c) idx (1 : Fin 2) + GK.batchCoord (ix3 k i c) (1 : Fin 2) + GK.offCoord (ix3 k i c) (1 : Fin 2) = c.val := by
  rw [GatherDims.batchCoord_eq_zero _ _ _ List.not_mem_nil]
  unfold GatherDims.start
  rw [dif_neg (show (1 : Fin 2) ∉ GK.startIndexMap by decide)]
  unfold GatherDims.offCoord
  rw [dif_pos (show (1 : Fin 2) ∈ GK.sKept by decide)]
  simp only [Nat.zero_add, Nat.add_zero]
  rfl

/-- The kernel's gather at (k, i, c): the table's row at the clamped start index, channel c. -/
theorem kgather {α : Type} (x : (⟨2, ![50001, 64]⟩ : Shape).Idx → α) (idx : IVec (⟨3, ![9, 50000, 1]⟩ : Shape) 32)
    (k : Fin 9) (i : Fin 50000) (c : Fin 64) :
    Host.gather GK x idx (ix3 k i c) = x (ix2 ⟨min (idx (ix3 k i (0 : Fin 1))).toInt.toNat 50000, by omega⟩ c) := by
  unfold Host.gather
  congr 1
  funext a
  refine Fin.ext ?_
  match a with
  | ⟨0, _⟩ => exact kcoord0 idx k i c
  | ⟨1, _⟩ => exact kcoord1 idx k i c

/-- TAP k OF VOXEL i in the kernel's gathered array: the padded table's row `row (nbr[i, k])`. -/
theorem tapsB_apply (xb : FVec Ideal (⟨2, ![50000, 64]⟩ : Shape) .bf16) (nbr : IVec (⟨2, ![50000, 9]⟩ : Shape) 32)
    (k : Fin 9) (i : Fin 50000) (c : Fin 64) :
    tapsB64 xb nbr (ix3 k i c)
      = concatenate S50001x64 0 [⟨S50000x64, xb⟩,
          ⟨S1x64, broadcastInDim S1x64 ![] bcast_S_S1x64 (constant (F := Ideal) S_ .bf16 0x0000#16)⟩]
          concatenates_S50000x64_S1x64_S50001x64_d0 (ix2 (row (nbr (ix2 i k))) c) := by
  unfold tapsB64
  refine (kgather _ _ k i c).trans ?_
  have hb : broadcastInDim S9x50000x1 ![0, 1] bcast_S9x50000_S9x50000x1_0_1
      (wrapT9 nbr) (ix3 k i (0 : Fin 1)) = wrapT9 nbr (ix2 k i) :=
    broadcastInDim_apply _ _ _ _ _ (fun a => by
      match a with
      | ⟨0, _⟩ => rfl
      | ⟨1, _⟩ => rfl)
  simp only [hb, wrapT9_apply]
  rfl

end Cert.KernelIdeal.BK64

end
-- ==== Proof.BRD.lean ====
/-
  The 64 → 64 convolutions: the reference's tap and whole convolution read at an index, and the agreement with the
  kernel's region value on its gathered taps (the same nine sums, added in the same order, under the leaky rectifier).
-/
import proofs.«141681_j16750372455151_2_alg».proof.Proof.BridgeRefTap
import proofs.«141681_j16750372455151_2_alg».proof.Proof.HostFns
import proofs.«141681_j16750372455151_2_alg».proof.Proof.BK64
import proofs.«141681_j16750372455151_2_alg».proof.Proof.Region5Array

set_option maxRecDepth 16384

noncomputable section

namespace Cert.ReferenceIdeal.BRD

open Idealize.ShloMosaic Idealize.ShloMosaic.ValueIdx Idealize.ShloMosaic.TcCoe Idealize.SL.Sem
open Cert.ReferenceIdeal Cert.ReferenceIdeal.Gen Cert.ReferenceIdeal.Fns Cert.SparseConv
open Cert.KernelIdeal.Bridge (wrap row)
open Cert.ReferenceIdeal.Bridge (colIdx col_apply colIdx_apply)

/-! ## The reference's gather: one tap -/

abbrev GR := gather_S50001x64_S50000x1_S50000x64_1_0_n_n_0_1_164

theorem rcoord0 (idx : IVec (⟨2, ![50000, 1]⟩ : Shape) 32) (i : Fin 50000) (c : Fin 64) :
    GR.start (ix2 i c) idx (0 : Fin 2) + GR.batchCoord (ix2 i c) (0 : Fin 2) + GR.offCoord (ix2 i c) (0 : Fin 2)
      = min (idx (ix2 i (0 : Fin 1))).toInt.toNat 50000 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GR.startIndexMap from List.mem_singleton.mpr rfl)]
  have hsi : GR.siIdx (ix2 i c) ⟨List.idxOf (0 : Fin 2) GR.startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

theorem rcoord1 (idx : IVec (⟨2, ![50000, 1]⟩ : Shape) 32) (i : Fin 50000) (c : Fin 64) :
    GR.start (ix2 i c) idx (1 : Fin 2) + GR.batchCoord (ix2 i c) (1 : Fin 2) + GR.offCoord (ix2 i c) (1 : Fin 2) = c.val := by
  rw [GatherDims.batchCoord_eq_zero _ _ _ List.not_mem_nil]
  unfold GatherDims.start
  rw [dif_neg (show (1 : Fin 2) ∉ GR.startIndexMap by decide)]
  unfold GatherDims.offCoord
  rw [dif_pos (show (1 : Fin 2) ∈ GR.sKept by decide)]
  simp only [Nat.zero_add, Nat.add_zero]
  rfl

/-- The reference's gather at (i, c): the table's row at the clamped start index, channel c. -/
theorem rgather {α : Type} (x : (⟨2, ![50001, 64]⟩ : Shape).Idx → α) (idx : IVec (⟨2, ![50000, 1]⟩ : Shape) 32)
    (i : Fin 50000) (c : Fin 64) :
    Host.gather GR x idx (ix2 i c) = x (ix2 ⟨min (idx (ix2 i (0 : Fin 1))).toInt.toNat 50000, by omega⟩ c) := by
  unfold Host.gather
  congr 1
  funext a
  refine Fin.ext ?_
  match a with
  | ⟨0, _⟩ => exact rcoord0 idx i c
  | ⟨1, _⟩ => exact rcoord1 idx i c

/-! ## The host's product for one tap -/

abbrev DR := dot_S50000x64_S64x64_S50000x64_1_0_0_1_n_n

theorem dr_lhs_row (j : S50000x64.Idx) (s : DR.contr.Idx) : (DR.lhsIdx j s 0).val = (j 0).val := by
  unfold DotDims.lhsIdx
  rw [dif_neg (show ¬(0 : Fin S50000x64.rank) ∈ DR.lhsBatch by decide), dif_pos (show (0 : Fin S50000x64.rank) ∈ DR.lhsNonContracting by decide)]
  rfl
theorem dr_lhs_contr (j : S50000x64.Idx) (s : DR.contr.Idx) : (DR.lhsIdx j s 1).val = (s ⟨0, by decide⟩).val :=
  DR.lhsIdx_val_of_single rfl j s
theorem dr_rhs_contr (j : S50000x64.Idx) (s : DR.contr.Idx) : (DR.rhsIdx j s 0).val = (s ⟨0, by decide⟩).val :=
  DR.rhsIdx_val_of_single rfl j s
theorem dr_rhs_col (j : S50000x64.Idx) (s : DR.contr.Idx) : (DR.rhsIdx j s 1).val = (j 1).val := by
  unfold DotDims.rhsIdx
  rw [dif_neg (show ¬(1 : Fin S64x64.rank) ∈ DR.rhsBatch by decide), dif_pos (show (1 : Fin S64x64.rank) ∈ DR.rhsNonContracting by decide)]
  rfl

/-- Slice k of the weights, as a 64 × 32 matrix, at (c, o). -/
theorem wslice_apply (k : Fin 9) (hw : S9x64x64.Slices ![k.val, 0, 0] S1x64x64) (W : FVec Ideal S9x64x64 .f32) (c : Fin 64) (o : Fin 64) :
    shapeCast S64x64 (extractStridedSlice S1x64x64 ![k.val, 0, 0] W hw) shapeCasts_S1x64x64_S64x64 (ix2 c o) = W (ix3 k c o) := by
  rw [shapeCast_1ab_ab_apply]
  exact extractStridedSlice_apply _ _ hw _ (ix3 k c o) (fun a => by
    match a with
    | ⟨0, _⟩ => show k.val = k.val + 0; omega
    | ⟨1, _⟩ => show c.val = 0 + c.val; omega
    | ⟨2, _⟩ => show o.val = 0 + o.val; omega)

/-- TAP k OF THE REFERENCE at (i, o): the sum over the 64 input channels of the padded table's row
    `row (nbr[i, k])` times slice k of the weights. -/
theorem refTap_apply (k : Fin 9) (hs : S50000x9.Slices ![0, k.val] S50000x1) (hw : S9x64x64.Slices ![k.val, 0, 0] S1x64x64)
    (xp : FVec Ideal S50001x64 .f32) (nbr : IVec S50000x9 32) (W : FVec Ideal S9x64x64 .f32) (i : Fin 50000) (o : Fin 64) :
    (Host.dotGeneral (F := Ideal) DR none (Host.gather GR xp (colIdx k hs nbr))
      (shapeCast S64x64 (extractStridedSlice S1x64x64 ![k.val, 0, 0] W hw) shapeCasts_S1x64x64_S64x64) (ix2 i o) : EReal)
    = ∑ c : Fin 64, (xp (ix2 (row (nbr (ix2 i k))) c) : EReal) * (W (ix3 k c o) : EReal) := by
  simp only [Host.dotGeneral]
  rw [Ideal.dotGeneral_apply, ← Equiv.sum_comp (contrEquiv1 DR 64 rfl rfl).symm]
  refine Finset.sum_congr rfl fun c _ => ?_
  have hc := contrEquiv1_symm_val DR 64 rfl rfl c
  have el : DR.lhsIdx (ix2 i o) ((contrEquiv1 DR 64 rfl rfl).symm c) = ix2 i c := funext fun a => Fin.ext (by
    match a with
    | ⟨0, _⟩ => exact dr_lhs_row _ _
    | ⟨1, _⟩ => exact (dr_lhs_contr _ _).trans hc)
  have er : DR.rhsIdx (ix2 i o) ((contrEquiv1 DR 64 rfl rfl).symm c) = ix2 c o := funext fun a => Fin.ext (by
    match a with
    | ⟨0, _⟩ => exact (dr_rhs_contr _ _).trans hc
    | ⟨1, _⟩ => exact dr_rhs_col _ _)
  rw [el, er, wslice_apply, rgather]
  simp only [colIdx_apply]
  rfl

theorem slicesN : ∀ k : Fin 9, S50000x9.Slices ![0, k.val] S50000x1 := by decide
theorem slicesW : ∀ k : Fin 9, S9x64x64.Slices ![k.val, 0, 0] S1x64x64 := by decide

/-- The reference's padded feature table: the features with one all-zero row appended. -/
def xpadR (x : FVec Ideal S50000x64 .f32) : FVec Ideal S50001x64 .f32 :=
  concatenate S50001x64 0 [⟨S50000x64, x⟩, ⟨S1x64, broadcastInDim S1x64 ![] bcast_S_S1x64 (constant (F := Ideal) S_ .f32 0x00000000#32)⟩]
    concatenates_S50000x64_S1x64_S50001x64_d0

/-- Tap k of the reference, as an array. -/
def refTapArr (k : Fin 9) (x : FVec Ideal S50000x64 .f32) (nbr : IVec S50000x9 32) (W : FVec Ideal S9x64x64 .f32) : FVec Ideal S50000x64 .f32 :=
  Host.dotGeneral (F := Ideal) DR none (Host.gather GR (xpadR x) (colIdx k (slicesN k) nbr))
    (shapeCast S64x64 (extractStridedSlice S1x64x64 ![k.val, 0, 0] W (slicesW k)) shapeCasts_S1x64x64_S64x64)

/-- The reference's convolution: the nine taps added in order onto a zero array. -/
def refConv (x : FVec Ideal S50000x64 .f32) (nbr : IVec S50000x9 32) (W : FVec Ideal S9x64x64 .f32) : FVec Ideal S50000x64 .f32 :=
  addf (addf (addf (addf (addf (addf (addf (addf (addf
    (broadcastInDim S50000x64 ![] bcast_S_S50000x64 (constant (F := Ideal) S_ .f32 0x00000000#32))
    (refTapArr 0 x nbr W)) (refTapArr 1 x nbr W)) (refTapArr 2 x nbr W)) (refTapArr 3 x nbr W)) (refTapArr 4 x nbr W))
    (refTapArr 5 x nbr W)) (refTapArr 6 x nbr W)) (refTapArr 7 x nbr W)) (refTapArr 8 x nbr W)

/-- The reference's convolution at (i, o). -/
theorem refConv_apply (x : FVec Ideal S50000x64 .f32) (nbr : IVec S50000x9 32) (W : FVec Ideal S9x64x64 .f32) (i : Fin 50000) (o : Fin 64) :
    (refConv x nbr W (ix2 i o) : EReal)
      = acc9 fun k => ∑ c : Fin 64, (xpadR x (ix2 (row (nbr (ix2 i k))) c) : EReal) * (W (ix3 k c o) : EReal) := by
  show acc9 ![refTapArr 0 x nbr W (ix2 i o), refTapArr 1 x nbr W (ix2 i o), refTapArr 2 x nbr W (ix2 i o), refTapArr 3 x nbr W (ix2 i o),
    refTapArr 4 x nbr W (ix2 i o), refTapArr 5 x nbr W (ix2 i o), refTapArr 6 x nbr W (ix2 i o), refTapArr 7 x nbr W (ix2 i o),
    refTapArr 8 x nbr W (ix2 i o)] = _
  refine congrArg acc9 (funext fun k => ?_)
  fin_cases k
  · exact refTap_apply 0 _ _ (xpadR x) nbr W i o
  · exact refTap_apply 1 _ _ (xpadR x) nbr W i o
  · exact refTap_apply 2 _ _ (xpadR x) nbr W i o
  · exact refTap_apply 3 _ _ (xpadR x) nbr W i o
  · exact refTap_apply 4 _ _ (xpadR x) nbr W i o
  · exact refTap_apply 5 _ _ (xpadR x) nbr W i o
  · exact refTap_apply 6 _ _ (xpadR x) nbr W i o
  · exact refTap_apply 7 _ _ (xpadR x) nbr W i o
  · exact refTap_apply 8 _ _ (xpadR x) nbr W i o

/-- The two padded tables are one: narrowing is the identity and both zero words read 0. -/
theorem xpad_eq (x : FVec Ideal S50000x64 .f32) :
    (concatenate Cert.KernelIdeal.S50001x64 0 [⟨Cert.KernelIdeal.S50000x64, truncf (F := Ideal) .bf16 x (by decide)⟩,
        ⟨Cert.KernelIdeal.S1x64, broadcastInDim Cert.KernelIdeal.S1x64 ![] Cert.KernelIdeal.Gen.bcast_S_S1x64 (constant (F := Ideal) Cert.KernelIdeal.S_ .bf16 0x0000#16)⟩]
        Cert.KernelIdeal.Gen.concatenates_S50000x64_S1x64_S50001x64_d0 : S50001x64.Idx → EReal) = xpadR x := by
  have hz : (constant (F := Ideal) Cert.KernelIdeal.S_ .bf16 0x0000#16 : S_.Idx → EReal) = constant (F := Ideal) S_ .f32 0x00000000#32 := by
    funext j
    show Ideal.ofBits .bf16 0x0000#16 = Ideal.ofBits .f32 0x00000000#32
    simp [Ideal.ofBits, Ideal.ieee]
  unfold xpadR
  rw [← hz]
  rfl

/-- THE LAYER: the kernel's region value on its gathered taps is the leaky rectifier of the reference's convolution. -/
theorem layer_eq (x : FVec Ideal S50000x64 .f32) (nbr : IVec S50000x9 32) (W : FVec Ideal S9x64x64 .f32) :
    (Cert.KernelIdeal.Conv5.conv (Cert.KernelIdeal.Chain.tapsB64 (truncf (F := Ideal) .bf16 x (by decide)) nbr) (truncf (F := Ideal) .bf16 W (by decide)) : S50000x64.Idx → EReal)
      = lrelu64 (refConv x nbr W) := by
  funext j
  obtain ⟨i, o, rfl⟩ : ∃ (i : Fin 50000) (o : Fin 64), j = ix2 i o := ⟨j 0, j 1, eq_ix2 j⟩
  show lrelu (acc9 fun k => ∑ c : Fin 64, (Cert.KernelIdeal.Chain.tapsB64 (truncf (F := Ideal) .bf16 x (by decide)) nbr (ix3 k i c) : EReal) * (W (ix3 k c o) : EReal))
    = lrelu (refConv x nbr W (ix2 i o))
  rw [refConv_apply]
  refine congrArg lrelu (congrArg acc9 (funext fun k => Finset.sum_congr rfl fun c _ => ?_))
  rw [Cert.KernelIdeal.BK64.tapsB_apply, ← xpad_eq]

end Cert.ReferenceIdeal.BRD

end
-- ==== Proof.RefEval6.lean ====
/-
  What one convolution block of the reference computes, from ANY contents V of the buffers before it: the operations'
  composed term is the batch normalisation of the leaky rectifier of the convolution of its input, neighbour table and
  weights as V holds them.
-/
import proofs.«141681_j16750372455151_2_alg».proof.Proof.RefRunD
import proofs.«141681_j16750372455151_2_alg».proof.Proof.BRD

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.ReferenceIdeal.Fns

set_option maxHeartbeats 8000000 in
theorem E6 (V : Valuation τ sig (Elt Ideal)) :
    (after (r15a (F := Ideal)) (after (r14 (F := Ideal)) (after (r13b (F := Ideal)) V)) (Proc.devRef .tc main_v804) : S50000x64.Idx → EReal)
      = bn64 (lrelu64 (Cert.ReferenceIdeal.BRD.refConv (V (Proc.devRef .tc main_v670)) (V (Proc.devRef .tc main_arg10)) (V (Proc.devRef .tc main_arg6)))) := by
  after_results_simp <;> rfl

end Cert.ReferenceIdeal.Run

end
-- ==== Proof.RefRunE.lean ====
/-
  The reference's run, continued: the seventh convolution (32 → 64), the eighth (64 → 64) and the second residual sum, as lists of host operations window by window (the outlined functions
  unfolded over their calls' buffers); each printed window is the sequencing of its lists, by definition.
-/
import proofs.«141681_j16750372455151_2_alg».proof.Proof.RefRunD

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Statements 956–960: convolution 7, its statements 1–5 of 159. -/
abbrev r15b : List (HloOp τ sig (Elt F)) :=
  [ nullary main_cst_148 (constant S_ .f32 0x00000000#32),
    unary main_cst_148 main_v805 (broadcastInDim S1x32 ![] bcast_S_S1x32),
    binary main_v536 main_v805 main_v806 (fun a b => concatenate S50001x32 0 [⟨S50000x32, a⟩, ⟨S1x32, b⟩] concatenates_S50000x32_S1x32_S50001x32_d0),
    nullary main_cst_149 (constant S_ .f32 0x00000000#32),
    unary main_cst_149 main_v807 (broadcastInDim S50000x64 ![] bcast_S_S50000x64) ]
set_option maxRecDepth 4096 in
theorem part15_eq (d : Dev nD) : main_part15 (F := F) d = seq (r15a ++ r15b) := by
  simp only [main_part15, fn_leaky_relu.body, fn_where.body, fn_var.body, fn_where_0.body, fn_leaky_relu_1.body, fn_where_2.body, fn_var_3.body, fn_where_4.body, seq, bind_assoc, pure_bind, List.cons_append, List.nil_append, List.append_assoc]
  rfl
/-- Statements 961–1020: convolution 7, its statements 6–65 of 159. -/
abbrev r16 : List (HloOp τ sig (Elt F)) :=
  [ unary main_arg10 main_v808 (extractStridedSlice S50000x1 ![0, 0] · slices_S50000x9_S50000x1_0_0),
    reshape main_v808 main_v809 rfl shapeCasts_S50000x1_S50000,
    nullary main_c_150 (constantI S_ 32 0#32),
    unary main_c_150 main_v810 (broadcastInDim S50000 ![] bcast_S_S50000),
    binary main_v809 main_v810 main_v811 (cmpi .slt),
    nullary main_c_151 (constantI S_ 32 50001#32),
    unary main_c_151 main_v812 (broadcastInDim S50000 ![] bcast_S_S50000),
    binary main_v809 main_v812 main_v813 addi,
    ternary main_v811 main_v813 main_v809 main_v814 select,
    unary main_v814 main_v815 (broadcastInDim S50000x1 ![0] bcast_S50000_S50000x1_0),
    binary main_v806 main_v815 main_v816 (fun x i => Host.gather gather_S50001x32_S50000x1_S50000x32_1_0_n_n_0_1_132 x i),
    unary main_arg7 main_v817 (extractStridedSlice S1x32x64 ![0, 0, 0] · slices_S9x32x64_S1x32x64_0_0_0),
    reshape main_v817 main_v818 rfl shapeCasts_S1x32x64_S32x64,
    binary main_v816 main_v818 main_v819 (fun l r => Host.dotGeneral dot_S50000x32_S32x64_S50000x64_1_0_0_1_n_n none l r),
    binary main_v807 main_v819 main_v820 addf,
    unary main_arg10 main_v821 (extractStridedSlice S50000x1 ![0, 1] · slices_S50000x9_S50000x1_0_1),
    reshape main_v821 main_v822 rfl shapeCasts_S50000x1_S50000,
    nullary main_c_152 (constantI S_ 32 0#32),
    unary main_c_152 main_v823 (broadcastInDim S50000 ![] bcast_S_S50000),
    binary main_v822 main_v823 main_v824 (cmpi .slt),
    nullary main_c_153 (constantI S_ 32 50001#32),
    unary main_c_153 main_v825 (broadcastInDim S50000 ![] bcast_S_S50000),
    binary main_v822 main_v825 main_v826 addi,
    ternary main_v824 main_v826 main_v822 main_v827 select,
    unary main_v827 main_v828 (broadcastInDim S50000x1 ![0] bcast_S50000_S50000x1_0),
    binary main_v806 main_v828 main_v829 (fun x i => Host.gather gather_S50001x32_S50000x1_S50000x32_1_0_n_n_0_1_132 x i),
    unary main_arg7 main_v830 (extractStridedSlice S1x32x64 ![1, 0, 0] · slices_S9x32x64_S1x32x64_1_0_0),
    reshape main_v830 main_v831 rfl shapeCasts_S1x32x64_S32x64,
    binary main_v829 main_v831 main_v832 (fun l r => Host.dotGeneral dot_S50000x32_S32x64_S50000x64_1_0_0_1_n_n none l r),
    binary main_v820 main_v832 main_v833 addf,
    unary main_arg10 main_v834 (extractStridedSlice S50000x1 ![0, 2] · slices_S50000x9_S50000x1_0_2),
    reshape main_v834 main_v835 rfl shapeCasts_S50000x1_S50000,
    nullary main_c_154 (constantI S_ 32 0#32),
    unary main_c_154 main_v836 (broadcastInDim S50000 ![] bcast_S_S50000),
    binary main_v835 main_v836 main_v837 (cmpi .slt),
    nullary main_c_155 (constantI S_ 32 50001#32),
    unary main_c_155 main_v838 (broadcastInDim S50000 ![] bcast_S_S50000),
    binary main_v835 main_v838 main_v839 addi,
    ternary main_v837 main_v839 main_v835 main_v840 select,
    unary main_v840 main_v841 (broadcastInDim S50000x1 ![0] bcast_S50000_S50000x1_0),
    binary main_v806 main_v841 main_v842 (fun x i => Host.gather gather_S50001x32_S50000x1_S50000x32_1_0_n_n_0_1_132 x i),
    unary main_arg7 main_v843 (extractStridedSlice S1x32x64 ![2, 0, 0] · slices_S9x32x64_S1x32x64_2_0_0),
    reshape main_v843 main_v844 rfl shapeCasts_S1x32x64_S32x64,
    binary main_v842 main_v844 main_v845 (fun l r => Host.dotGeneral dot_S50000x32_S32x64_S50000x64_1_0_0_1_n_n none l r),
    binary main_v833 main_v845 main_v846 addf,
    unary main_arg10 main_v847 (extractStridedSlice S50000x1 ![0, 3] · slices_S50000x9_S50000x1_0_3),
    reshape main_v847 main_v848 rfl shapeCasts_S50000x1_S50000,
    nullary main_c_156 (constantI S_ 32 0#32),
    unary main_c_156 main_v849 (broadcastInDim S50000 ![] bcast_S_S50000),
    binary main_v848 main_v849 main_v850 (cmpi .slt),
    nullary main_c_157 (constantI S_ 32 50001#32),
    unary main_c_157 main_v851 (broadcastInDim S50000 ![] bcast_S_S50000),
    binary main_v848 main_v851 main_v852 addi,
    ternary main_v850 main_v852 main_v848 main_v853 select,
    unary main_v853 main_v854 (broadcastInDim S50000x1 ![0] bcast_S50000_S50000x1_0),
    binary main_v806 main_v854 main_v855 (fun x i => Host.gather gather_S50001x32_S50000x1_S50000x32_1_0_n_n_0_1_132 x i),
    unary main_arg7 main_v856 (extractStridedSlice S1x32x64 ![3, 0, 0] · slices_S9x32x64_S1x32x64_3_0_0),
    reshape main_v856 main_v857 rfl shapeCasts_S1x32x64_S32x64,
    binary main_v855 main_v857 main_v858 (fun l r => Host.dotGeneral dot_S50000x32_S32x64_S50000x64_1_0_0_1_n_n none l r),
    binary main_v846 main_v858 main_v859 addf ]
theorem part16_eq (d : Dev nD) : main_part16 (F := F) d = seq (r16) := rfl
/-- Statements 1021–1080: convolution 7, its statements 66–125 of 159. -/
abbrev r17 : List (HloOp τ sig (Elt F)) :=
  [ unary main_arg10 main_v860 (extractStridedSlice S50000x1 ![0, 4] · slices_S50000x9_S50000x1_0_4),
    reshape main_v860 main_v861 rfl shapeCasts_S50000x1_S50000,
    nullary main_c_158 (constantI S_ 32 0#32),
    unary main_c_158 main_v862 (broadcastInDim S50000 ![] bcast_S_S50000),
    binary main_v861 main_v862 main_v863 (cmpi .slt),
    nullary main_c_159 (constantI S_ 32 50001#32),
    unary main_c_159 main_v864 (broadcastInDim S50000 ![] bcast_S_S50000),
    binary main_v861 main_v864 main_v865 addi,
    ternary main_v863 main_v865 main_v861 main_v866 select,
    unary main_v866 main_v867 (broadcastInDim S50000x1 ![0] bcast_S50000_S50000x1_0),
    binary main_v806 main_v867 main_v868 (fun x i => Host.gather gather_S50001x32_S50000x1_S50000x32_1_0_n_n_0_1_132 x i),
    unary main_arg7 main_v869 (extractStridedSlice S1x32x64 ![4, 0, 0] · slices_S9x32x64_S1x32x64_4_0_0),
    reshape main_v869 main_v870 rfl shapeCasts_S1x32x64_S32x64,
    binary main_v868 main_v870 main_v871 (fun l r => Host.dotGeneral dot_S50000x32_S32x64_S50000x64_1_0_0_1_n_n none l r),
    binary main_v859 main_v871 main_v872 addf,
    unary main_arg10 main_v873 (extractStridedSlice S50000x1 ![0, 5] · slices_S50000x9_S50000x1_0_5),
    reshape main_v873 main_v874 rfl shapeCasts_S50000x1_S50000,
    nullary main_c_160 (constantI S_ 32 0#32),
    unary main_c_160 main_v875 (broadcastInDim S50000 ![] bcast_S_S50000),
    binary main_v874 main_v875 main_v876 (cmpi .slt),
    nullary main_c_161 (constantI S_ 32 50001#32),
    unary main_c_161 main_v877 (broadcastInDim S50000 ![] bcast_S_S50000),
    binary main_v874 main_v877 main_v878 addi,
    ternary main_v876 main_v878 main_v874 main_v879 select,
    unary main_v879 main_v880 (broadcastInDim S50000x1 ![0] bcast_S50000_S50000x1_0),
    binary main_v806 main_v880 main_v881 (fun x i => Host.gather gather_S50001x32_S50000x1_S50000x32_1_0_n_n_0_1_132 x i),
    unary main_arg7 main_v882 (extractStridedSlice S1x32x64 ![5, 0, 0] · slices_S9x32x64_S1x32x64_5_0_0),
    reshape main_v882 main_v883 rfl shapeCasts_S1x32x64_S32x64,
    binary main_v881 main_v883 main_v884 (fun l r => Host.dotGeneral dot_S50000x32_S32x64_S50000x64_1_0_0_1_n_n none l r),
    binary main_v872 main_v884 main_v885 addf,
    unary main_arg10 main_v886 (extractStridedSlice S50000x1 ![0, 6] · slices_S50000x9_S50000x1_0_6),
    reshape main_v886 main_v887 rfl shapeCasts_S50000x1_S50000,
    nullary main_c_162 (constantI S_ 32 0#32),
    unary main_c_162 main_v888 (broadcastInDim S50000 ![] bcast_S_S50000),
    binary main_v887 main_v888 main_v889 (cmpi .slt),
    nullary main_c_163 (constantI S_ 32 50001#32),
    unary main_c_163 main_v890 (broadcastInDim S50000 ![] bcast_S_S50000),
    binary main_v887 main_v890 main_v891 addi,
    ternary main_v889 main_v891 main_v887 main_v892 select,
    unary main_v892 main_v893 (broadcastInDim S50000x1 ![0] bcast_S50000_S50000x1_0),
    binary main_v806 main_v893 main_v894 (fun x i => Host.gather gather_S50001x32_S50000x1_S50000x32_1_0_n_n_0_1_132 x i),
    unary main_arg7 main_v895 (extractStridedSlice S1x32x64 ![6, 0, 0] · slices_S9x32x64_S1x32x64_6_0_0),
    reshape main_v895 main_v896 rfl shapeCasts_S1x32x64_S32x64,
    binary main_v894 main_v896 main_v897 (fun l r => Host.dotGeneral dot_S50000x32_S32x64_S50000x64_1_0_0_1_n_n none l r),
    binary main_v885 main_v897 main_v898 addf,
    unary main_arg10 main_v899 (extractStridedSlice S50000x1 ![0, 7] · slices_S50000x9_S50000x1_0_7),
    reshape main_v899 main_v900 rfl shapeCasts_S50000x1_S50000,
    nullary main_c_164 (constantI S_ 32 0#32),
    unary main_c_164 main_v901 (broadcastInDim S50000 ![] bcast_S_S50000),
    binary main_v900 main_v901 main_v902 (cmpi .slt),
    nullary main_c_165 (constantI S_ 32 50001#32),
    unary main_c_165 main_v903 (broadcastInDim S50000 ![] bcast_S_S50000),
    binary main_v900 main_v903 main_v904 addi,
    ternary main_v902 main_v904 main_v900 main_v905 select,
    unary main_v905 main_v906 (broadcastInDim S50000x1 ![0] bcast_S50000_S50000x1_0),
    binary main_v806 main_v906 main_v907 (fun x i => Host.gather gather_S50001x32_S50000x1_S50000x32_1_0_n_n_0_1_132 x i),
    unary main_arg7 main_v908 (extractStridedSlice S1x32x64 ![7, 0, 0] · slices_S9x32x64_S1x32x64_7_0_0),
    reshape main_v908 main_v909 rfl shapeCasts_S1x32x64_S32x64,
    binary main_v907 main_v909 main_v910 (fun l r => Host.dotGeneral dot_S50000x32_S32x64_S50000x64_1_0_0_1_n_n none l r),
    binary main_v898 main_v910 main_v911 addf ]
theorem part17_eq (d : Dev nD) : main_part17 (F := F) d = seq (r17) := rfl
/-- Statements 1081–1114: convolution 7, its statements 126–159 of 159. -/
abbrev r18a : List (HloOp τ sig (Elt F)) :=
  [ unary main_arg10 main_v912 (extractStridedSlice S50000x1 ![0, 8] · slices_S50000x9_S50000x1_0_8),
    reshape main_v912 main_v913 rfl shapeCasts_S50000x1_S50000,
    nullary main_c_166 (constantI S_ 32 0#32),
    unary main_c_166 main_v914 (broadcastInDim S50000 ![] bcast_S_S50000),
    binary main_v913 main_v914 main_v915 (cmpi .slt),
    nullary main_c_167 (constantI S_ 32 50001#32),
    unary main_c_167 main_v916 (broadcastInDim S50000 ![] bcast_S_S50000),
    binary main_v913 main_v916 main_v917 addi,
    ternary main_v915 main_v917 main_v913 main_v918 select,
    unary main_v918 main_v919 (broadcastInDim S50000x1 ![0] bcast_S50000_S50000x1_0),
    binary main_v806 main_v919 main_v920 (fun x i => Host.gather gather_S50001x32_S50000x1_S50000x32_1_0_n_n_0_1_132 x i),
    unary main_arg7 main_v921 (extractStridedSlice S1x32x64 ![8, 0, 0] · slices_S9x32x64_S1x32x64_8_0_0),
    reshape main_v921 main_v922 rfl shapeCasts_S1x32x64_S32x64,
    binary main_v920 main_v922 main_v923 (fun l r => Host.dotGeneral dot_S50000x32_S32x64_S50000x64_1_0_0_1_n_n none l r),
    binary main_v911 main_v923 main_v924 addf,
    nullary main_cst_168 (constant S_ .f32 0x3C23D70A#32),
    TRef.nullary main_call12.cst (constant S_ .f32 0x00000000#32),
    TRef.unary main_call12.cst main_call12.v0 (broadcastInDim S50000x64 ![] bcast_S_S50000x64),
    TRef.binary (.of main_v924) main_call12.v0 main_call12.v1 (cmpf .oge),
    TRef.unary (.of main_cst_168) main_call12.v2 id,
    TRef.unary main_call12.v2 main_call12.v3 (broadcastInDim S50000x64 ![] bcast_S_S50000x64),
    TRef.binary main_call12.v3 (.of main_v924) main_call12.v4 mulf,
    TRef.ternary main_call12.v1 (.of main_v924) main_call12.v4 main_call12.call0.v0 select,
    nullary main_cst_169 (constant S_ .f32 0x00000000#32),
    binary main_v925 main_cst_169 main_v926 (fun x v => Host.reduceAdd x v reducesTo_S50000x64_S64_d0 h_S_),
    nullary main_cst_170 (constant S_ .f32 0x47435000#32),
    unary main_cst_170 main_v927 (broadcastInDim S64 ![] bcast_S_S64),
    binary main_v926 main_v927 main_v928 Host.divf,
    nullary main_c_171 (constantI S_ 32 0#32),
    TRef.nullary main_call13.cst (constant S_ .f32 0x00000000#32),
    TRef.binary (.of main_v925) main_call13.cst main_call13.v0 (fun x v => Host.reduceAdd x v reducesTo_S50000x64_S64_d0 h_S_),
    TRef.unary main_call13.v0 main_call13.v1 (broadcastInDim S1x64 ![1] bcast_S64_S1x64_1),
    TRef.nullary main_call13.cst_0 (constant S_ .f32 0x47435000#32),
    TRef.unary main_call13.cst_0 main_call13.v2 (broadcastInDim S1x64 ![] bcast_S_S1x64),
    TRef.binary main_call13.v1 main_call13.v2 main_call13.v3 Host.divf,
    TRef.unary main_call13.v3 main_call13.v4 (broadcastInDim S50000x64 ![0, 1] bcast_S1x64_S50000x64_0_1),
    TRef.binary (.of main_v925) main_call13.v4 main_call13.v5 subf,
    TRef.binary main_call13.v5 main_call13.v5 main_call13.v6 mulf,
    TRef.unary (.of main_c_171) main_call13.v7 (sitofp .f32),
    TRef.nullary main_call13.cst_1 (constant S_ .f32 0x47435000#32),
    TRef.binary main_call13.cst_1 main_call13.v7 main_call13.v8 subf,
    TRef.nullary main_call13.cst_2 (constant S_ .f32 0x00000000#32),
    TRef.binary main_call13.v6 main_call13.cst_2 main_call13.v9 (fun x v => Host.reduceAdd x v reducesTo_S50000x64_S64_d0 h_S_),
    TRef.unary main_call13.v8 main_call13.v10 (broadcastInDim S64 ![] bcast_S_S64),
    TRef.binary main_call13.v9 main_call13.v10 main_call13.v11 Host.divf,
    TRef.nullary main_call13.cst_3 (constant S_ .f32 0x00000000#32),
    TRef.binary main_call13.v8 main_call13.cst_3 main_call13.v12 (cmpf .ogt),
    TRef.nullary main_call13.cst_4 (constant S_ .f32 0x7FC00000#32),
    TRef.unary main_call13.cst_4 main_call13.call0.v0 id,
    TRef.unary main_call13.call0.v0 main_call13.call0.v1 (broadcastInDim S64 ![] bcast_S_S64),
    TRef.ternary main_call13.v12 main_call13.v11 main_call13.call0.v1 main_call13.call0.v2 (fun p a b => select (broadcastInDim S64 ![] bcast_S_S64 p) a b),
    unary main_v928 main_v930 (broadcastInDim S1x64 ![1] bcast_S64_S1x64_1),
    unary main_v930 main_v931 (broadcastInDim S50000x64 ![0, 1] bcast_S1x64_S50000x64_0_1),
    binary main_v925 main_v931 main_v932 subf,
    nullary main_cst_172 (constant S_ .f32 0x3727C5AC#32),
    unary main_cst_172 main_v933 (broadcastInDim S64 ![] bcast_S_S64),
    binary main_v929 main_v933 main_v934 addf,
    unary main_v934 main_v935 Host.rsqrt,
    unary main_v935 main_v936 (broadcastInDim S1x64 ![1] bcast_S64_S1x64_1),
    unary main_v936 main_v937 (broadcastInDim S50000x64 ![0, 1] bcast_S1x64_S50000x64_0_1),
    binary main_v932 main_v937 main_v938 mulf ]
/-- Statements 1115–1140: convolution 8, its statements 1–26 of 159. -/
abbrev r18b : List (HloOp τ sig (Elt F)) :=
  [ nullary main_cst_173 (constant S_ .f32 0x00000000#32),
    unary main_cst_173 main_v939 (broadcastInDim S1x64 ![] bcast_S_S1x64),
    binary main_v938 main_v939 main_v940 (fun a b => concatenate S50001x64 0 [⟨S50000x64, a⟩, ⟨S1x64, b⟩] concatenates_S50000x64_S1x64_S50001x64_d0),
    nullary main_cst_174 (constant S_ .f32 0x00000000#32),
    unary main_cst_174 main_v941 (broadcastInDim S50000x64 ![] bcast_S_S50000x64),
    unary main_arg11 main_v942 (extractStridedSlice S50000x1 ![0, 0] · slices_S50000x9_S50000x1_0_0),
    reshape main_v942 main_v943 rfl shapeCasts_S50000x1_S50000,
    nullary main_c_175 (constantI S_ 32 0#32),
    unary main_c_175 main_v944 (broadcastInDim S50000 ![] bcast_S_S50000),
    binary main_v943 main_v944 main_v945 (cmpi .slt),
    nullary main_c_176 (constantI S_ 32 50001#32),
    unary main_c_176 main_v946 (broadcastInDim S50000 ![] bcast_S_S50000),
    binary main_v943 main_v946 main_v947 addi,
    ternary main_v945 main_v947 main_v943 main_v948 select,
    unary main_v948 main_v949 (broadcastInDim S50000x1 ![0] bcast_S50000_S50000x1_0),
    binary main_v940 main_v949 main_v950 (fun x i => Host.gather gather_S50001x64_S50000x1_S50000x64_1_0_n_n_0_1_164 x i),
    unary main_arg8 main_v951 (extractStridedSlice S1x64x64 ![0, 0, 0] · slices_S9x64x64_S1x64x64_0_0_0),
    reshape main_v951 main_v952 rfl shapeCasts_S1x64x64_S64x64,
    binary main_v950 main_v952 main_v953 (fun l r => Host.dotGeneral dot_S50000x64_S64x64_S50000x64_1_0_0_1_n_n none l r),
    binary main_v941 main_v953 main_v954 addf,
    unary main_arg11 main_v955 (extractStridedSlice S50000x1 ![0, 1] · slices_S50000x9_S50000x1_0_1),
    reshape main_v955 main_v956 rfl shapeCasts_S50000x1_S50000,
    nullary main_c_177 (constantI S_ 32 0#32),
    unary main_c_177 main_v957 (broadcastInDim S50000 ![] bcast_S_S50000),
    binary main_v956 main_v957 main_v958 (cmpi .slt),
    nullary main_c_178 (constantI S_ 32 50001#32) ]
set_option maxRecDepth 4096 in
theorem part18_eq (d : Dev nD) : main_part18 (F := F) d = seq (r18a ++ r18b) := by
  simp only [main_part18, fn_leaky_relu.body, fn_where.body, fn_var.body, fn_where_0.body, fn_leaky_relu_1.body, fn_where_2.body, fn_var_3.body, fn_where_4.body, seq, bind_assoc, pure_bind, List.cons_append, List.nil_append, List.append_assoc]
  rfl
/-- Statements 1141–1200: convolution 8, its statements 27–86 of 159. -/
abbrev r19 : List (HloOp τ sig (Elt F)) :=
  [ unary main_c_178 main_v959 (broadcastInDim S50000 ![] bcast_S_S50000),
    binary main_v956 main_v959 main_v960 addi,
    ternary main_v958 main_v960 main_v956 main_v961 select,
    unary main_v961 main_v962 (broadcastInDim S50000x1 ![0] bcast_S50000_S50000x1_0),
    binary main_v940 main_v962 main_v963 (fun x i => Host.gather gather_S50001x64_S50000x1_S50000x64_1_0_n_n_0_1_164 x i),
    unary main_arg8 main_v964 (extractStridedSlice S1x64x64 ![1, 0, 0] · slices_S9x64x64_S1x64x64_1_0_0),
    reshape main_v964 main_v965 rfl shapeCasts_S1x64x64_S64x64,
    binary main_v963 main_v965 main_v966 (fun l r => Host.dotGeneral dot_S50000x64_S64x64_S50000x64_1_0_0_1_n_n none l r),
    binary main_v954 main_v966 main_v967 addf,
    unary main_arg11 main_v968 (extractStridedSlice S50000x1 ![0, 2] · slices_S50000x9_S50000x1_0_2),
    reshape main_v968 main_v969 rfl shapeCasts_S50000x1_S50000,
    nullary main_c_179 (constantI S_ 32 0#32),
    unary main_c_179 main_v970 (broadcastInDim S50000 ![] bcast_S_S50000),
    binary main_v969 main_v970 main_v971 (cmpi .slt),
    nullary main_c_180 (constantI S_ 32 50001#32),
    unary main_c_180 main_v972 (broadcastInDim S50000 ![] bcast_S_S50000),
    binary main_v969 main_v972 main_v973 addi,
    ternary main_v971 main_v973 main_v969 main_v974 select,
    unary main_v974 main_v975 (broadcastInDim S50000x1 ![0] bcast_S50000_S50000x1_0),
    binary main_v940 main_v975 main_v976 (fun x i => Host.gather gather_S50001x64_S50000x1_S50000x64_1_0_n_n_0_1_164 x i),
    unary main_arg8 main_v977 (extractStridedSlice S1x64x64 ![2, 0, 0] · slices_S9x64x64_S1x64x64_2_0_0),
    reshape main_v977 main_v978 rfl shapeCasts_S1x64x64_S64x64,
    binary main_v976 main_v978 main_v979 (fun l r => Host.dotGeneral dot_S50000x64_S64x64_S50000x64_1_0_0_1_n_n none l r),
    binary main_v967 main_v979 main_v980 addf,
    unary main_arg11 main_v981 (extractStridedSlice S50000x1 ![0, 3] · slices_S50000x9_S50000x1_0_3),
    reshape main_v981 main_v982 rfl shapeCasts_S50000x1_S50000,
    nullary main_c_181 (constantI S_ 32 0#32),
    unary main_c_181 main_v983 (broadcastInDim S50000 ![] bcast_S_S50000),
    binary main_v982 main_v983 main_v984 (cmpi .slt),
    nullary main_c_182 (constantI S_ 32 50001#32),
    unary main_c_182 main_v985 (broadcastInDim S50000 ![] bcast_S_S50000),
    binary main_v982 main_v985 main_v986 addi,
    ternary main_v984 main_v986 main_v982 main_v987 select,
    unary main_v987 main_v988 (broadcastInDim S50000x1 ![0] bcast_S50000_S50000x1_0),
    binary main_v940 main_v988 main_v989 (fun x i => Host.gather gather_S50001x64_S50000x1_S50000x64_1_0_n_n_0_1_164 x i),
    unary main_arg8 main_v990 (extractStridedSlice S1x64x64 ![3, 0, 0] · slices_S9x64x64_S1x64x64_3_0_0),
    reshape main_v990 main_v991 rfl shapeCasts_S1x64x64_S64x64,
    binary main_v989 main_v991 main_v992 (fun l r => Host.dotGeneral dot_S50000x64_S64x64_S50000x64_1_0_0_1_n_n none l r),
    binary main_v980 main_v992 main_v993 addf,
    unary main_arg11 main_v994 (extractStridedSlice S50000x1 ![0, 4] · slices_S50000x9_S50000x1_0_4),
    reshape main_v994 main_v995 rfl shapeCasts_S50000x1_S50000,
    nullary main_c_183 (constantI S_ 32 0#32),
    unary main_c_183 main_v996 (broadcastInDim S50000 ![] bcast_S_S50000),
    binary main_v995 main_v996 main_v997 (cmpi .slt),
    nullary main_c_184 (constantI S_ 32 50001#32),
    unary main_c_184 main_v998 (broadcastInDim S50000 ![] bcast_S_S50000),
    binary main_v995 main_v998 main_v999 addi,
    ternary main_v997 main_v999 main_v995 main_v1000 select,
    unary main_v1000 main_v1001 (broadcastInDim S50000x1 ![0] bcast_S50000_S50000x1_0),
    binary main_v940 main_v1001 main_v1002 (fun x i => Host.gather gather_S50001x64_S50000x1_S50000x64_1_0_n_n_0_1_164 x i),
    unary main_arg8 main_v1003 (extractStridedSlice S1x64x64 ![4, 0, 0] · slices_S9x64x64_S1x64x64_4_0_0),
    reshape main_v1003 main_v1004 rfl shapeCasts_S1x64x64_S64x64,
    binary main_v1002 main_v1004 main_v1005 (fun l r => Host.dotGeneral dot_S50000x64_S64x64_S50000x64_1_0_0_1_n_n none l r),
    binary main_v993 main_v1005 main_v1006 addf,
    unary main_arg11 main_v1007 (extractStridedSlice S50000x1 ![0, 5] · slices_S50000x9_S50000x1_0_5),
    reshape main_v1007 main_v1008 rfl shapeCasts_S50000x1_S50000,
    nullary main_c_185 (constantI S_ 32 0#32),
    unary main_c_185 main_v1009 (broadcastInDim S50000 ![] bcast_S_S50000),
    binary main_v1008 main_v1009 main_v1010 (cmpi .slt),
    nullary main_c_186 (constantI S_ 32 50001#32) ]
theorem part19_eq (d : Dev nD) : main_part19 (F := F) d = seq (r19) := rfl
/-- Statements 1201–1260: convolution 8, its statements 87–146 of 159. -/
abbrev r20 : List (HloOp τ sig (Elt F)) :=
  [ unary main_c_186 main_v1011 (broadcastInDim S50000 ![] bcast_S_S50000),
    binary main_v1008 main_v1011 main_v1012 addi,
    ternary main_v1010 main_v1012 main_v1008 main_v1013 select,
    unary main_v1013 main_v1014 (broadcastInDim S50000x1 ![0] bcast_S50000_S50000x1_0),
    binary main_v940 main_v1014 main_v1015 (fun x i => Host.gather gather_S50001x64_S50000x1_S50000x64_1_0_n_n_0_1_164 x i),
    unary main_arg8 main_v1016 (extractStridedSlice S1x64x64 ![5, 0, 0] · slices_S9x64x64_S1x64x64_5_0_0),
    reshape main_v1016 main_v1017 rfl shapeCasts_S1x64x64_S64x64,
    binary main_v1015 main_v1017 main_v1018 (fun l r => Host.dotGeneral dot_S50000x64_S64x64_S50000x64_1_0_0_1_n_n none l r),
    binary main_v1006 main_v1018 main_v1019 addf,
    unary main_arg11 main_v1020 (extractStridedSlice S50000x1 ![0, 6] · slices_S50000x9_S50000x1_0_6),
    reshape main_v1020 main_v1021 rfl shapeCasts_S50000x1_S50000,
    nullary main_c_187 (constantI S_ 32 0#32),
    unary main_c_187 main_v1022 (broadcastInDim S50000 ![] bcast_S_S50000),
    binary main_v1021 main_v1022 main_v1023 (cmpi .slt),
    nullary main_c_188 (constantI S_ 32 50001#32),
    unary main_c_188 main_v1024 (broadcastInDim S50000 ![] bcast_S_S50000),
    binary main_v1021 main_v1024 main_v1025 addi,
    ternary main_v1023 main_v1025 main_v1021 main_v1026 select,
    unary main_v1026 main_v1027 (broadcastInDim S50000x1 ![0] bcast_S50000_S50000x1_0),
    binary main_v940 main_v1027 main_v1028 (fun x i => Host.gather gather_S50001x64_S50000x1_S50000x64_1_0_n_n_0_1_164 x i),
    unary main_arg8 main_v1029 (extractStridedSlice S1x64x64 ![6, 0, 0] · slices_S9x64x64_S1x64x64_6_0_0),
    reshape main_v1029 main_v1030 rfl shapeCasts_S1x64x64_S64x64,
    binary main_v1028 main_v1030 main_v1031 (fun l r => Host.dotGeneral dot_S50000x64_S64x64_S50000x64_1_0_0_1_n_n none l r),
    binary main_v1019 main_v1031 main_v1032 addf,
    unary main_arg11 main_v1033 (extractStridedSlice S50000x1 ![0, 7] · slices_S50000x9_S50000x1_0_7),
    reshape main_v1033 main_v1034 rfl shapeCasts_S50000x1_S50000,
    nullary main_c_189 (constantI S_ 32 0#32),
    unary main_c_189 main_v1035 (broadcastInDim S50000 ![] bcast_S_S50000),
    binary main_v1034 main_v1035 main_v1036 (cmpi .slt),
    nullary main_c_190 (constantI S_ 32 50001#32),
    unary main_c_190 main_v1037 (broadcastInDim S50000 ![] bcast_S_S50000),
    binary main_v1034 main_v1037 main_v1038 addi,
    ternary main_v1036 main_v1038 main_v1034 main_v1039 select,
    unary main_v1039 main_v1040 (broadcastInDim S50000x1 ![0] bcast_S50000_S50000x1_0),
    binary main_v940 main_v1040 main_v1041 (fun x i => Host.gather gather_S50001x64_S50000x1_S50000x64_1_0_n_n_0_1_164 x i),
    unary main_arg8 main_v1042 (extractStridedSlice S1x64x64 ![7, 0, 0] · slices_S9x64x64_S1x64x64_7_0_0),
    reshape main_v1042 main_v1043 rfl shapeCasts_S1x64x64_S64x64,
    binary main_v1041 main_v1043 main_v1044 (fun l r => Host.dotGeneral dot_S50000x64_S64x64_S50000x64_1_0_0_1_n_n none l r),
    binary main_v1032 main_v1044 main_v1045 addf,
    unary main_arg11 main_v1046 (extractStridedSlice S50000x1 ![0, 8] · slices_S50000x9_S50000x1_0_8),
    reshape main_v1046 main_v1047 rfl shapeCasts_S50000x1_S50000,
    nullary main_c_191 (constantI S_ 32 0#32),
    unary main_c_191 main_v1048 (broadcastInDim S50000 ![] bcast_S_S50000),
    binary main_v1047 main_v1048 main_v1049 (cmpi .slt),
    nullary main_c_192 (constantI S_ 32 50001#32),
    unary main_c_192 main_v1050 (broadcastInDim S50000 ![] bcast_S_S50000),
    binary main_v1047 main_v1050 main_v1051 addi,
    ternary main_v1049 main_v1051 main_v1047 main_v1052 select,
    unary main_v1052 main_v1053 (broadcastInDim S50000x1 ![0] bcast_S50000_S50000x1_0),
    binary main_v940 main_v1053 main_v1054 (fun x i => Host.gather gather_S50001x64_S50000x1_S50000x64_1_0_n_n_0_1_164 x i),
    unary main_arg8 main_v1055 (extractStridedSlice S1x64x64 ![8, 0, 0] · slices_S9x64x64_S1x64x64_8_0_0),
    reshape main_v1055 main_v1056 rfl shapeCasts_S1x64x64_S64x64,
    binary main_v1054 main_v1056 main_v1057 (fun l r => Host.dotGeneral dot_S50000x64_S64x64_S50000x64_1_0_0_1_n_n none l r),
    binary main_v1045 main_v1057 main_v1058 addf,
    nullary main_cst_193 (constant S_ .f32 0x3C23D70A#32),
    TRef.nullary main_call14.cst (constant S_ .f32 0x00000000#32),
    TRef.unary main_call14.cst main_call14.v0 (broadcastInDim S50000x64 ![] bcast_S_S50000x64),
    TRef.binary (.of main_v1058) main_call14.v0 main_call14.v1 (cmpf .oge),
    TRef.unary (.of main_cst_193) main_call14.v2 id,
    TRef.unary main_call14.v2 main_call14.v3 (broadcastInDim S50000x64 ![] bcast_S_S50000x64),
    TRef.binary main_call14.v3 (.of main_v1058) main_call14.v4 mulf,
    TRef.ternary main_call14.v1 (.of main_v1058) main_call14.v4 main_call14.call0.v0 select,
    nullary main_cst_194 (constant S_ .f32 0x00000000#32),
    binary main_v1059 main_cst_194 main_v1060 (fun x v => Host.reduceAdd x v reducesTo_S50000x64_S64_d0 h_S_),
    nullary main_cst_195 (constant S_ .f32 0x47435000#32),
    unary main_cst_195 main_v1061 (broadcastInDim S64 ![] bcast_S_S64) ]
set_option maxRecDepth 4096 in
theorem part20_eq (d : Dev nD) : main_part20 (F := F) d = seq (r20) := by
  simp only [main_part20, fn_leaky_relu.body, fn_where.body, fn_var.body, fn_where_0.body, fn_leaky_relu_1.body, fn_where_2.body, fn_var_3.body, fn_where_4.body, seq, bind_assoc, pure_bind, List.cons_append, List.nil_append, List.append_assoc]
  rfl
/-- Statements 1261–1273: convolution 8, its statements 147–159 of 159. -/
abbrev r21a : List (HloOp τ sig (Elt F)) :=
  [ binary main_v1060 main_v1061 main_v1062 Host.divf,
    nullary main_c_196 (constantI S_ 32 0#32),
    TRef.nullary main_call15.cst (constant S_ .f32 0x00000000#32),
    TRef.binary (.of main_v1059) main_call15.cst main_call15.v0 (fun x v => Host.reduceAdd x v reducesTo_S50000x64_S64_d0 h_S_),
    TRef.unary main_call15.v0 main_call15.v1 (broadcastInDim S1x64 ![1] bcast_S64_S1x64_1),
    TRef.nullary main_call15.cst_0 (constant S_ .f32 0x47435000#32),
    TRef.unary main_call15.cst_0 main_call15.v2 (broadcastInDim S1x64 ![] bcast_S_S1x64),
    TRef.binary main_call15.v1 main_call15.v2 main_call15.v3 Host.divf,
    TRef.unary main_call15.v3 main_call15.v4 (broadcastInDim S50000x64 ![0, 1] bcast_S1x64_S50000x64_0_1),
    TRef.binary (.of main_v1059) main_call15.v4 main_call15.v5 subf,
    TRef.binary main_call15.v5 main_call15.v5 main_call15.v6 mulf,
    TRef.unary (.of main_c_196) main_call15.v7 (sitofp .f32),
    TRef.nullary main_call15.cst_1 (constant S_ .f32 0x47435000#32),
    TRef.binary main_call15.cst_1 main_call15.v7 main_call15.v8 subf,
    TRef.nullary main_call15.cst_2 (constant S_ .f32 0x00000000#32),
    TRef.binary main_call15.v6 main_call15.cst_2 main_call15.v9 (fun x v => Host.reduceAdd x v reducesTo_S50000x64_S64_d0 h_S_),
    TRef.unary main_call15.v8 main_call15.v10 (broadcastInDim S64 ![] bcast_S_S64),
    TRef.binary main_call15.v9 main_call15.v10 main_call15.v11 Host.divf,
    TRef.nullary main_call15.cst_3 (constant S_ .f32 0x00000000#32),
    TRef.binary main_call15.v8 main_call15.cst_3 main_call15.v12 (cmpf .ogt),
    TRef.nullary main_call15.cst_4 (constant S_ .f32 0x7FC00000#32),
    TRef.unary main_call15.cst_4 main_call15.call0.v0 id,
    TRef.unary main_call15.call0.v0 main_call15.call0.v1 (broadcastInDim S64 ![] bcast_S_S64),
    TRef.ternary main_call15.v12 main_call15.v11 main_call15.call0.v1 main_call15.call0.v2 (fun p a b => select (broadcastInDim S64 ![] bcast_S_S64 p) a b),
    unary main_v1062 main_v1064 (broadcastInDim S1x64 ![1] bcast_S64_S1x64_1),
    unary main_v1064 main_v1065 (broadcastInDim S50000x64 ![0, 1] bcast_S1x64_S50000x64_0_1),
    binary main_v1059 main_v1065 main_v1066 subf,
    nullary main_cst_197 (constant S_ .f32 0x3727C5AC#32),
    unary main_cst_197 main_v1067 (broadcastInDim S64 ![] bcast_S_S64),
    binary main_v1063 main_v1067 main_v1068 addf,
    unary main_v1068 main_v1069 Host.rsqrt,
    unary main_v1069 main_v1070 (broadcastInDim S1x64 ![1] bcast_S64_S1x64_1),
    unary main_v1070 main_v1071 (broadcastInDim S50000x64 ![0, 1] bcast_S1x64_S50000x64_0_1),
    binary main_v1066 main_v1071 main_v1072 mulf ]
/-- Statement 1274: the second residual sum, the eighth block's output plus the sixth's. -/
abbrev r21b : List (HloOp τ sig (Elt F)) :=
  [ binary main_v1072 main_v804 main_v1073 addf ]

end Cert.ReferenceIdeal.Run

end
-- ==== Proof.RefEval7.lean ====
/-
  What one convolution block of the reference computes, from ANY contents V of the buffers before it: the operations'
  composed term is the batch normalisation of the leaky rectifier of the convolution of its input, neighbour table and
  weights as V holds them.
-/
import proofs.«141681_j16750372455151_2_alg».proof.Proof.RefRunE
import proofs.«141681_j16750372455151_2_alg».proof.Proof.BRC

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.ReferenceIdeal.Fns

set_option maxHeartbeats 8000000 in
theorem E7 (V : Valuation τ sig (Elt Ideal)) :
    (after (r18a (F := Ideal)) (after (r17 (F := Ideal)) (after (r16 (F := Ideal)) (after (r15b (F := Ideal)) V))) (Proc.devRef .tc main_v938) : S50000x64.Idx → EReal)
      = bn64 (lrelu64 (Cert.ReferenceIdeal.BRC.refConv (V (Proc.devRef .tc main_v536)) (V (Proc.devRef .tc main_arg10)) (V (Proc.devRef .tc main_arg7)))) := by
  after_results_simp <;> rfl

end Cert.ReferenceIdeal.Run

end
-- ==== Proof.RefEval8.lean ====
/-
  What one convolution block of the reference computes, from ANY contents V of the buffers before it: the operations'
  composed term is the batch normalisation of the leaky rectifier of the convolution of its input, neighbour table and
  weights as V holds them.
-/
import proofs.«141681_j16750372455151_2_alg».proof.Proof.RefRunE
import proofs.«141681_j16750372455151_2_alg».proof.Proof.BRD

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.ReferenceIdeal.Fns

set_option maxHeartbeats 8000000 in
theorem E8 (V : Valuation τ sig (Elt Ideal)) :
    (after (r21a (F := Ideal)) (after (r20 (F := Ideal)) (after (r19 (F := Ideal)) (after (r18b (F := Ideal)) V))) (Proc.devRef .tc main_v1072) : S50000x64.Idx → EReal)
      = bn64 (lrelu64 (Cert.ReferenceIdeal.BRD.refConv (V (Proc.devRef .tc main_v938)) (V (Proc.devRef .tc main_arg11)) (V (Proc.devRef .tc main_arg8)))) := by
  after_results_simp <;> rfl
set_option maxHeartbeats 8000000 in
theorem EXA (V : Valuation τ sig (Elt Ideal)) :
    (after (r21b (F := Ideal)) V (Proc.devRef .tc main_v1073) : S50000x64.Idx → EReal)
      = addf (F := Ideal) (s := S50000x64) (φ := .f32) (V (Proc.devRef .tc main_v1072)) (V (Proc.devRef .tc main_v804)) := by
  after_results_simp <;> rfl

end Cert.ReferenceIdeal.Run

end
-- ==== Proof.RefRunP.lean ====
/-
  The reference's run, continued: the pooling convolution (27 taps over the 122811 output voxels), as lists of host operations window by window (the outlined functions
  unfolded over their calls' buffers); each printed window is the sequencing of its lists, by definition.
-/
import proofs.«141681_j16750372455151_2_alg».proof.Proof.RefRunE

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Statements 1275–1320: the pooling convolution (27 taps, 64 → 64), its statements 1–46 of 410. -/
abbrev r21c : List (HloOp τ sig (Elt F)) :=
  [ nullary main_cst_198 (constant S_ .f32 0x00000000#32),
    unary main_cst_198 main_v1074 (broadcastInDim S1x64 ![] bcast_S_S1x64),
    binary main_v1073 main_v1074 main_v1075 (fun a b => concatenate S50001x64 0 [⟨S50000x64, a⟩, ⟨S1x64, b⟩] concatenates_S50000x64_S1x64_S50001x64_d0),
    nullary main_cst_199 (constant S_ .f32 0x00000000#32),
    unary main_cst_199 main_v1076 (broadcastInDim S122811x64 ![] bcast_S_S122811x64),
    unary main_arg12 main_v1077 (extractStridedSlice S122811x1 ![0, 0] · slices_S122811x27_S122811x1_0_0),
    reshape main_v1077 main_v1078 rfl shapeCasts_S122811x1_S122811,
    nullary main_c_200 (constantI S_ 32 0#32),
    unary main_c_200 main_v1079 (broadcastInDim S122811 ![] bcast_S_S122811),
    binary main_v1078 main_v1079 main_v1080 (cmpi .slt),
    nullary main_c_201 (constantI S_ 32 50001#32),
    unary main_c_201 main_v1081 (broadcastInDim S122811 ![] bcast_S_S122811),
    binary main_v1078 main_v1081 main_v1082 addi,
    ternary main_v1080 main_v1082 main_v1078 main_v1083 select,
    unary main_v1083 main_v1084 (broadcastInDim S122811x1 ![0] bcast_S122811_S122811x1_0),
    binary main_v1075 main_v1084 main_v1085 (fun x i => Host.gather gather_S50001x64_S122811x1_S122811x64_1_0_n_n_0_1_164 x i),
    unary main_arg9 main_v1086 (extractStridedSlice S1x64x64 ![0, 0, 0] · slices_S27x64x64_S1x64x64_0_0_0),
    reshape main_v1086 main_v1087 rfl shapeCasts_S1x64x64_S64x64,
    binary main_v1085 main_v1087 main_v1088 (fun l r => Host.dotGeneral dot_S122811x64_S64x64_S122811x64_1_0_0_1_n_n none l r),
    binary main_v1076 main_v1088 main_v1089 addf,
    unary main_arg12 main_v1090 (extractStridedSlice S122811x1 ![0, 1] · slices_S122811x27_S122811x1_0_1),
    reshape main_v1090 main_v1091 rfl shapeCasts_S122811x1_S122811,
    nullary main_c_202 (constantI S_ 32 0#32),
    unary main_c_202 main_v1092 (broadcastInDim S122811 ![] bcast_S_S122811),
    binary main_v1091 main_v1092 main_v1093 (cmpi .slt),
    nullary main_c_203 (constantI S_ 32 50001#32),
    unary main_c_203 main_v1094 (broadcastInDim S122811 ![] bcast_S_S122811),
    binary main_v1091 main_v1094 main_v1095 addi,
    ternary main_v1093 main_v1095 main_v1091 main_v1096 select,
    unary main_v1096 main_v1097 (broadcastInDim S122811x1 ![0] bcast_S122811_S122811x1_0),
    binary main_v1075 main_v1097 main_v1098 (fun x i => Host.gather gather_S50001x64_S122811x1_S122811x64_1_0_n_n_0_1_164 x i),
    unary main_arg9 main_v1099 (extractStridedSlice S1x64x64 ![1, 0, 0] · slices_S27x64x64_S1x64x64_1_0_0),
    reshape main_v1099 main_v1100 rfl shapeCasts_S1x64x64_S64x64,
    binary main_v1098 main_v1100 main_v1101 (fun l r => Host.dotGeneral dot_S122811x64_S64x64_S122811x64_1_0_0_1_n_n none l r),
    binary main_v1089 main_v1101 main_v1102 addf,
    unary main_arg12 main_v1103 (extractStridedSlice S122811x1 ![0, 2] · slices_S122811x27_S122811x1_0_2),
    reshape main_v1103 main_v1104 rfl shapeCasts_S122811x1_S122811,
    nullary main_c_204 (constantI S_ 32 0#32),
    unary main_c_204 main_v1105 (broadcastInDim S122811 ![] bcast_S_S122811),
    binary main_v1104 main_v1105 main_v1106 (cmpi .slt),
    nullary main_c_205 (constantI S_ 32 50001#32),
    unary main_c_205 main_v1107 (broadcastInDim S122811 ![] bcast_S_S122811),
    binary main_v1104 main_v1107 main_v1108 addi,
    ternary main_v1106 main_v1108 main_v1104 main_v1109 select,
    unary main_v1109 main_v1110 (broadcastInDim S122811x1 ![0] bcast_S122811_S122811x1_0),
    binary main_v1075 main_v1110 main_v1111 (fun x i => Host.gather gather_S50001x64_S122811x1_S122811x64_1_0_n_n_0_1_164 x i) ]
set_option maxRecDepth 4096 in
theorem part21_eq (d : Dev nD) : main_part21 (F := F) d = seq (r21a ++ r21b ++ r21c) := by
  simp only [main_part21, fn_leaky_relu.body, fn_where.body, fn_var.body, fn_where_0.body, fn_leaky_relu_1.body, fn_where_2.body, fn_var_3.body, fn_where_4.body, seq, bind_assoc, pure_bind, List.cons_append, List.nil_append, List.append_assoc]
  rfl
/-- Statements 1321–1380: the pooling convolution (27 taps, 64 → 64), its statements 47–106 of 410. -/
abbrev r22 : List (HloOp τ sig (Elt F)) :=
  [ unary main_arg9 main_v1112 (extractStridedSlice S1x64x64 ![2, 0, 0] · slices_S27x64x64_S1x64x64_2_0_0),
    reshape main_v1112 main_v1113 rfl shapeCasts_S1x64x64_S64x64,
    binary main_v1111 main_v1113 main_v1114 (fun l r => Host.dotGeneral dot_S122811x64_S64x64_S122811x64_1_0_0_1_n_n none l r),
    binary main_v1102 main_v1114 main_v1115 addf,
    unary main_arg12 main_v1116 (extractStridedSlice S122811x1 ![0, 3] · slices_S122811x27_S122811x1_0_3),
    reshape main_v1116 main_v1117 rfl shapeCasts_S122811x1_S122811,
    nullary main_c_206 (constantI S_ 32 0#32),
    unary main_c_206 main_v1118 (broadcastInDim S122811 ![] bcast_S_S122811),
    binary main_v1117 main_v1118 main_v1119 (cmpi .slt),
    nullary main_c_207 (constantI S_ 32 50001#32),
    unary main_c_207 main_v1120 (broadcastInDim S122811 ![] bcast_S_S122811),
    binary main_v1117 main_v1120 main_v1121 addi,
    ternary main_v1119 main_v1121 main_v1117 main_v1122 select,
    unary main_v1122 main_v1123 (broadcastInDim S122811x1 ![0] bcast_S122811_S122811x1_0),
    binary main_v1075 main_v1123 main_v1124 (fun x i => Host.gather gather_S50001x64_S122811x1_S122811x64_1_0_n_n_0_1_164 x i),
    unary main_arg9 main_v1125 (extractStridedSlice S1x64x64 ![3, 0, 0] · slices_S27x64x64_S1x64x64_3_0_0),
    reshape main_v1125 main_v1126 rfl shapeCasts_S1x64x64_S64x64,
    binary main_v1124 main_v1126 main_v1127 (fun l r => Host.dotGeneral dot_S122811x64_S64x64_S122811x64_1_0_0_1_n_n none l r),
    binary main_v1115 main_v1127 main_v1128 addf,
    unary main_arg12 main_v1129 (extractStridedSlice S122811x1 ![0, 4] · slices_S122811x27_S122811x1_0_4),
    reshape main_v1129 main_v1130 rfl shapeCasts_S122811x1_S122811,
    nullary main_c_208 (constantI S_ 32 0#32),
    unary main_c_208 main_v1131 (broadcastInDim S122811 ![] bcast_S_S122811),
    binary main_v1130 main_v1131 main_v1132 (cmpi .slt),
    nullary main_c_209 (constantI S_ 32 50001#32),
    unary main_c_209 main_v1133 (broadcastInDim S122811 ![] bcast_S_S122811),
    binary main_v1130 main_v1133 main_v1134 addi,
    ternary main_v1132 main_v1134 main_v1130 main_v1135 select,
    unary main_v1135 main_v1136 (broadcastInDim S122811x1 ![0] bcast_S122811_S122811x1_0),
    binary main_v1075 main_v1136 main_v1137 (fun x i => Host.gather gather_S50001x64_S122811x1_S122811x64_1_0_n_n_0_1_164 x i),
    unary main_arg9 main_v1138 (extractStridedSlice S1x64x64 ![4, 0, 0] · slices_S27x64x64_S1x64x64_4_0_0),
    reshape main_v1138 main_v1139 rfl shapeCasts_S1x64x64_S64x64,
    binary main_v1137 main_v1139 main_v1140 (fun l r => Host.dotGeneral dot_S122811x64_S64x64_S122811x64_1_0_0_1_n_n none l r),
    binary main_v1128 main_v1140 main_v1141 addf,
    unary main_arg12 main_v1142 (extractStridedSlice S122811x1 ![0, 5] · slices_S122811x27_S122811x1_0_5),
    reshape main_v1142 main_v1143 rfl shapeCasts_S122811x1_S122811,
    nullary main_c_210 (constantI S_ 32 0#32),
    unary main_c_210 main_v1144 (broadcastInDim S122811 ![] bcast_S_S122811),
    binary main_v1143 main_v1144 main_v1145 (cmpi .slt),
    nullary main_c_211 (constantI S_ 32 50001#32),
    unary main_c_211 main_v1146 (broadcastInDim S122811 ![] bcast_S_S122811),
    binary main_v1143 main_v1146 main_v1147 addi,
    ternary main_v1145 main_v1147 main_v1143 main_v1148 select,
    unary main_v1148 main_v1149 (broadcastInDim S122811x1 ![0] bcast_S122811_S122811x1_0),
    binary main_v1075 main_v1149 main_v1150 (fun x i => Host.gather gather_S50001x64_S122811x1_S122811x64_1_0_n_n_0_1_164 x i),
    unary main_arg9 main_v1151 (extractStridedSlice S1x64x64 ![5, 0, 0] · slices_S27x64x64_S1x64x64_5_0_0),
    reshape main_v1151 main_v1152 rfl shapeCasts_S1x64x64_S64x64,
    binary main_v1150 main_v1152 main_v1153 (fun l r => Host.dotGeneral dot_S122811x64_S64x64_S122811x64_1_0_0_1_n_n none l r),
    binary main_v1141 main_v1153 main_v1154 addf,
    unary main_arg12 main_v1155 (extractStridedSlice S122811x1 ![0, 6] · slices_S122811x27_S122811x1_0_6),
    reshape main_v1155 main_v1156 rfl shapeCasts_S122811x1_S122811,
    nullary main_c_212 (constantI S_ 32 0#32),
    unary main_c_212 main_v1157 (broadcastInDim S122811 ![] bcast_S_S122811),
    binary main_v1156 main_v1157 main_v1158 (cmpi .slt),
    nullary main_c_213 (constantI S_ 32 50001#32),
    unary main_c_213 main_v1159 (broadcastInDim S122811 ![] bcast_S_S122811),
    binary main_v1156 main_v1159 main_v1160 addi,
    ternary main_v1158 main_v1160 main_v1156 main_v1161 select,
    unary main_v1161 main_v1162 (broadcastInDim S122811x1 ![0] bcast_S122811_S122811x1_0),
    binary main_v1075 main_v1162 main_v1163 (fun x i => Host.gather gather_S50001x64_S122811x1_S122811x64_1_0_n_n_0_1_164 x i) ]
theorem part22_eq (d : Dev nD) : main_part22 (F := F) d = seq (r22) := rfl
/-- Statements 1381–1440: the pooling convolution (27 taps, 64 → 64), its statements 107–166 of 410. -/
abbrev r23 : List (HloOp τ sig (Elt F)) :=
  [ unary main_arg9 main_v1164 (extractStridedSlice S1x64x64 ![6, 0, 0] · slices_S27x64x64_S1x64x64_6_0_0),
    reshape main_v1164 main_v1165 rfl shapeCasts_S1x64x64_S64x64,
    binary main_v1163 main_v1165 main_v1166 (fun l r => Host.dotGeneral dot_S122811x64_S64x64_S122811x64_1_0_0_1_n_n none l r),
    binary main_v1154 main_v1166 main_v1167 addf,
    unary main_arg12 main_v1168 (extractStridedSlice S122811x1 ![0, 7] · slices_S122811x27_S122811x1_0_7),
    reshape main_v1168 main_v1169 rfl shapeCasts_S122811x1_S122811,
    nullary main_c_214 (constantI S_ 32 0#32),
    unary main_c_214 main_v1170 (broadcastInDim S122811 ![] bcast_S_S122811),
    binary main_v1169 main_v1170 main_v1171 (cmpi .slt),
    nullary main_c_215 (constantI S_ 32 50001#32),
    unary main_c_215 main_v1172 (broadcastInDim S122811 ![] bcast_S_S122811),
    binary main_v1169 main_v1172 main_v1173 addi,
    ternary main_v1171 main_v1173 main_v1169 main_v1174 select,
    unary main_v1174 main_v1175 (broadcastInDim S122811x1 ![0] bcast_S122811_S122811x1_0),
    binary main_v1075 main_v1175 main_v1176 (fun x i => Host.gather gather_S50001x64_S122811x1_S122811x64_1_0_n_n_0_1_164 x i),
    unary main_arg9 main_v1177 (extractStridedSlice S1x64x64 ![7, 0, 0] · slices_S27x64x64_S1x64x64_7_0_0),
    reshape main_v1177 main_v1178 rfl shapeCasts_S1x64x64_S64x64,
    binary main_v1176 main_v1178 main_v1179 (fun l r => Host.dotGeneral dot_S122811x64_S64x64_S122811x64_1_0_0_1_n_n none l r),
    binary main_v1167 main_v1179 main_v1180 addf,
    unary main_arg12 main_v1181 (extractStridedSlice S122811x1 ![0, 8] · slices_S122811x27_S122811x1_0_8),
    reshape main_v1181 main_v1182 rfl shapeCasts_S122811x1_S122811,
    nullary main_c_216 (constantI S_ 32 0#32),
    unary main_c_216 main_v1183 (broadcastInDim S122811 ![] bcast_S_S122811),
    binary main_v1182 main_v1183 main_v1184 (cmpi .slt),
    nullary main_c_217 (constantI S_ 32 50001#32),
    unary main_c_217 main_v1185 (broadcastInDim S122811 ![] bcast_S_S122811),
    binary main_v1182 main_v1185 main_v1186 addi,
    ternary main_v1184 main_v1186 main_v1182 main_v1187 select,
    unary main_v1187 main_v1188 (broadcastInDim S122811x1 ![0] bcast_S122811_S122811x1_0),
    binary main_v1075 main_v1188 main_v1189 (fun x i => Host.gather gather_S50001x64_S122811x1_S122811x64_1_0_n_n_0_1_164 x i),
    unary main_arg9 main_v1190 (extractStridedSlice S1x64x64 ![8, 0, 0] · slices_S27x64x64_S1x64x64_8_0_0),
    reshape main_v1190 main_v1191 rfl shapeCasts_S1x64x64_S64x64,
    binary main_v1189 main_v1191 main_v1192 (fun l r => Host.dotGeneral dot_S122811x64_S64x64_S122811x64_1_0_0_1_n_n none l r),
    binary main_v1180 main_v1192 main_v1193 addf,
    unary main_arg12 main_v1194 (extractStridedSlice S122811x1 ![0, 9] · slices_S122811x27_S122811x1_0_9),
    reshape main_v1194 main_v1195 rfl shapeCasts_S122811x1_S122811,
    nullary main_c_218 (constantI S_ 32 0#32),
    unary main_c_218 main_v1196 (broadcastInDim S122811 ![] bcast_S_S122811),
    binary main_v1195 main_v1196 main_v1197 (cmpi .slt),
    nullary main_c_219 (constantI S_ 32 50001#32),
    unary main_c_219 main_v1198 (broadcastInDim S122811 ![] bcast_S_S122811),
    binary main_v1195 main_v1198 main_v1199 addi,
    ternary main_v1197 main_v1199 main_v1195 main_v1200 select,
    unary main_v1200 main_v1201 (broadcastInDim S122811x1 ![0] bcast_S122811_S122811x1_0),
    binary main_v1075 main_v1201 main_v1202 (fun x i => Host.gather gather_S50001x64_S122811x1_S122811x64_1_0_n_n_0_1_164 x i),
    unary main_arg9 main_v1203 (extractStridedSlice S1x64x64 ![9, 0, 0] · slices_S27x64x64_S1x64x64_9_0_0),
    reshape main_v1203 main_v1204 rfl shapeCasts_S1x64x64_S64x64,
    binary main_v1202 main_v1204 main_v1205 (fun l r => Host.dotGeneral dot_S122811x64_S64x64_S122811x64_1_0_0_1_n_n none l r),
    binary main_v1193 main_v1205 main_v1206 addf,
    unary main_arg12 main_v1207 (extractStridedSlice S122811x1 ![0, 10] · slices_S122811x27_S122811x1_0_10),
    reshape main_v1207 main_v1208 rfl shapeCasts_S122811x1_S122811,
    nullary main_c_220 (constantI S_ 32 0#32),
    unary main_c_220 main_v1209 (broadcastInDim S122811 ![] bcast_S_S122811),
    binary main_v1208 main_v1209 main_v1210 (cmpi .slt),
    nullary main_c_221 (constantI S_ 32 50001#32),
    unary main_c_221 main_v1211 (broadcastInDim S122811 ![] bcast_S_S122811),
    binary main_v1208 main_v1211 main_v1212 addi,
    ternary main_v1210 main_v1212 main_v1208 main_v1213 select,
    unary main_v1213 main_v1214 (broadcastInDim S122811x1 ![0] bcast_S122811_S122811x1_0),
    binary main_v1075 main_v1214 main_v1215 (fun x i => Host.gather gather_S50001x64_S122811x1_S122811x64_1_0_n_n_0_1_164 x i) ]
theorem part23_eq (d : Dev nD) : main_part23 (F := F) d = seq (r23) := rfl
/-- Statements 1441–1500: the pooling convolution (27 taps, 64 → 64), its statements 167–226 of 410. -/
abbrev r24 : List (HloOp τ sig (Elt F)) :=
  [ unary main_arg9 main_v1216 (extractStridedSlice S1x64x64 ![10, 0, 0] · slices_S27x64x64_S1x64x64_10_0_0),
    reshape main_v1216 main_v1217 rfl shapeCasts_S1x64x64_S64x64,
    binary main_v1215 main_v1217 main_v1218 (fun l r => Host.dotGeneral dot_S122811x64_S64x64_S122811x64_1_0_0_1_n_n none l r),
    binary main_v1206 main_v1218 main_v1219 addf,
    unary main_arg12 main_v1220 (extractStridedSlice S122811x1 ![0, 11] · slices_S122811x27_S122811x1_0_11),
    reshape main_v1220 main_v1221 rfl shapeCasts_S122811x1_S122811,
    nullary main_c_222 (constantI S_ 32 0#32),
    unary main_c_222 main_v1222 (broadcastInDim S122811 ![] bcast_S_S122811),
    binary main_v1221 main_v1222 main_v1223 (cmpi .slt),
    nullary main_c_223 (constantI S_ 32 50001#32),
    unary main_c_223 main_v1224 (broadcastInDim S122811 ![] bcast_S_S122811),
    binary main_v1221 main_v1224 main_v1225 addi,
    ternary main_v1223 main_v1225 main_v1221 main_v1226 select,
    unary main_v1226 main_v1227 (broadcastInDim S122811x1 ![0] bcast_S122811_S122811x1_0),
    binary main_v1075 main_v1227 main_v1228 (fun x i => Host.gather gather_S50001x64_S122811x1_S122811x64_1_0_n_n_0_1_164 x i),
    unary main_arg9 main_v1229 (extractStridedSlice S1x64x64 ![11, 0, 0] · slices_S27x64x64_S1x64x64_11_0_0),
    reshape main_v1229 main_v1230 rfl shapeCasts_S1x64x64_S64x64,
    binary main_v1228 main_v1230 main_v1231 (fun l r => Host.dotGeneral dot_S122811x64_S64x64_S122811x64_1_0_0_1_n_n none l r),
    binary main_v1219 main_v1231 main_v1232 addf,
    unary main_arg12 main_v1233 (extractStridedSlice S122811x1 ![0, 12] · slices_S122811x27_S122811x1_0_12),
    reshape main_v1233 main_v1234 rfl shapeCasts_S122811x1_S122811,
    nullary main_c_224 (constantI S_ 32 0#32),
    unary main_c_224 main_v1235 (broadcastInDim S122811 ![] bcast_S_S122811),
    binary main_v1234 main_v1235 main_v1236 (cmpi .slt),
    nullary main_c_225 (constantI S_ 32 50001#32),
    unary main_c_225 main_v1237 (broadcastInDim S122811 ![] bcast_S_S122811),
    binary main_v1234 main_v1237 main_v1238 addi,
    ternary main_v1236 main_v1238 main_v1234 main_v1239 select,
    unary main_v1239 main_v1240 (broadcastInDim S122811x1 ![0] bcast_S122811_S122811x1_0),
    binary main_v1075 main_v1240 main_v1241 (fun x i => Host.gather gather_S50001x64_S122811x1_S122811x64_1_0_n_n_0_1_164 x i),
    unary main_arg9 main_v1242 (extractStridedSlice S1x64x64 ![12, 0, 0] · slices_S27x64x64_S1x64x64_12_0_0),
    reshape main_v1242 main_v1243 rfl shapeCasts_S1x64x64_S64x64,
    binary main_v1241 main_v1243 main_v1244 (fun l r => Host.dotGeneral dot_S122811x64_S64x64_S122811x64_1_0_0_1_n_n none l r),
    binary main_v1232 main_v1244 main_v1245 addf,
    unary main_arg12 main_v1246 (extractStridedSlice S122811x1 ![0, 13] · slices_S122811x27_S122811x1_0_13),
    reshape main_v1246 main_v1247 rfl shapeCasts_S122811x1_S122811,
    nullary main_c_226 (constantI S_ 32 0#32),
    unary main_c_226 main_v1248 (broadcastInDim S122811 ![] bcast_S_S122811),
    binary main_v1247 main_v1248 main_v1249 (cmpi .slt),
    nullary main_c_227 (constantI S_ 32 50001#32),
    unary main_c_227 main_v1250 (broadcastInDim S122811 ![] bcast_S_S122811),
    binary main_v1247 main_v1250 main_v1251 addi,
    ternary main_v1249 main_v1251 main_v1247 main_v1252 select,
    unary main_v1252 main_v1253 (broadcastInDim S122811x1 ![0] bcast_S122811_S122811x1_0),
    binary main_v1075 main_v1253 main_v1254 (fun x i => Host.gather gather_S50001x64_S122811x1_S122811x64_1_0_n_n_0_1_164 x i),
    unary main_arg9 main_v1255 (extractStridedSlice S1x64x64 ![13, 0, 0] · slices_S27x64x64_S1x64x64_13_0_0),
    reshape main_v1255 main_v1256 rfl shapeCasts_S1x64x64_S64x64,
    binary main_v1254 main_v1256 main_v1257 (fun l r => Host.dotGeneral dot_S122811x64_S64x64_S122811x64_1_0_0_1_n_n none l r),
    binary main_v1245 main_v1257 main_v1258 addf,
    unary main_arg12 main_v1259 (extractStridedSlice S122811x1 ![0, 14] · slices_S122811x27_S122811x1_0_14),
    reshape main_v1259 main_v1260 rfl shapeCasts_S122811x1_S122811,
    nullary main_c_228 (constantI S_ 32 0#32),
    unary main_c_228 main_v1261 (broadcastInDim S122811 ![] bcast_S_S122811),
    binary main_v1260 main_v1261 main_v1262 (cmpi .slt),
    nullary main_c_229 (constantI S_ 32 50001#32),
    unary main_c_229 main_v1263 (broadcastInDim S122811 ![] bcast_S_S122811),
    binary main_v1260 main_v1263 main_v1264 addi,
    ternary main_v1262 main_v1264 main_v1260 main_v1265 select,
    unary main_v1265 main_v1266 (broadcastInDim S122811x1 ![0] bcast_S122811_S122811x1_0),
    binary main_v1075 main_v1266 main_v1267 (fun x i => Host.gather gather_S50001x64_S122811x1_S122811x64_1_0_n_n_0_1_164 x i) ]
theorem part24_eq (d : Dev nD) : main_part24 (F := F) d = seq (r24) := rfl
/-- Statements 1501–1560: the pooling convolution (27 taps, 64 → 64), its statements 227–286 of 410. -/
abbrev r25 : List (HloOp τ sig (Elt F)) :=
  [ unary main_arg9 main_v1268 (extractStridedSlice S1x64x64 ![14, 0, 0] · slices_S27x64x64_S1x64x64_14_0_0),
    reshape main_v1268 main_v1269 rfl shapeCasts_S1x64x64_S64x64,
    binary main_v1267 main_v1269 main_v1270 (fun l r => Host.dotGeneral dot_S122811x64_S64x64_S122811x64_1_0_0_1_n_n none l r),
    binary main_v1258 main_v1270 main_v1271 addf,
    unary main_arg12 main_v1272 (extractStridedSlice S122811x1 ![0, 15] · slices_S122811x27_S122811x1_0_15),
    reshape main_v1272 main_v1273 rfl shapeCasts_S122811x1_S122811,
    nullary main_c_230 (constantI S_ 32 0#32),
    unary main_c_230 main_v1274 (broadcastInDim S122811 ![] bcast_S_S122811),
    binary main_v1273 main_v1274 main_v1275 (cmpi .slt),
    nullary main_c_231 (constantI S_ 32 50001#32),
    unary main_c_231 main_v1276 (broadcastInDim S122811 ![] bcast_S_S122811),
    binary main_v1273 main_v1276 main_v1277 addi,
    ternary main_v1275 main_v1277 main_v1273 main_v1278 select,
    unary main_v1278 main_v1279 (broadcastInDim S122811x1 ![0] bcast_S122811_S122811x1_0),
    binary main_v1075 main_v1279 main_v1280 (fun x i => Host.gather gather_S50001x64_S122811x1_S122811x64_1_0_n_n_0_1_164 x i),
    unary main_arg9 main_v1281 (extractStridedSlice S1x64x64 ![15, 0, 0] · slices_S27x64x64_S1x64x64_15_0_0),
    reshape main_v1281 main_v1282 rfl shapeCasts_S1x64x64_S64x64,
    binary main_v1280 main_v1282 main_v1283 (fun l r => Host.dotGeneral dot_S122811x64_S64x64_S122811x64_1_0_0_1_n_n none l r),
    binary main_v1271 main_v1283 main_v1284 addf,
    unary main_arg12 main_v1285 (extractStridedSlice S122811x1 ![0, 16] · slices_S122811x27_S122811x1_0_16),
    reshape main_v1285 main_v1286 rfl shapeCasts_S122811x1_S122811,
    nullary main_c_232 (constantI S_ 32 0#32),
    unary main_c_232 main_v1287 (broadcastInDim S122811 ![] bcast_S_S122811),
    binary main_v1286 main_v1287 main_v1288 (cmpi .slt),
    nullary main_c_233 (constantI S_ 32 50001#32),
    unary main_c_233 main_v1289 (broadcastInDim S122811 ![] bcast_S_S122811),
    binary main_v1286 main_v1289 main_v1290 addi,
    ternary main_v1288 main_v1290 main_v1286 main_v1291 select,
    unary main_v1291 main_v1292 (broadcastInDim S122811x1 ![0] bcast_S122811_S122811x1_0),
    binary main_v1075 main_v1292 main_v1293 (fun x i => Host.gather gather_S50001x64_S122811x1_S122811x64_1_0_n_n_0_1_164 x i),
    unary main_arg9 main_v1294 (extractStridedSlice S1x64x64 ![16, 0, 0] · slices_S27x64x64_S1x64x64_16_0_0),
    reshape main_v1294 main_v1295 rfl shapeCasts_S1x64x64_S64x64,
    binary main_v1293 main_v1295 main_v1296 (fun l r => Host.dotGeneral dot_S122811x64_S64x64_S122811x64_1_0_0_1_n_n none l r),
    binary main_v1284 main_v1296 main_v1297 addf,
    unary main_arg12 main_v1298 (extractStridedSlice S122811x1 ![0, 17] · slices_S122811x27_S122811x1_0_17),
    reshape main_v1298 main_v1299 rfl shapeCasts_S122811x1_S122811,
    nullary main_c_234 (constantI S_ 32 0#32),
    unary main_c_234 main_v1300 (broadcastInDim S122811 ![] bcast_S_S122811),
    binary main_v1299 main_v1300 main_v1301 (cmpi .slt),
    nullary main_c_235 (constantI S_ 32 50001#32),
    unary main_c_235 main_v1302 (broadcastInDim S122811 ![] bcast_S_S122811),
    binary main_v1299 main_v1302 main_v1303 addi,
    ternary main_v1301 main_v1303 main_v1299 main_v1304 select,
    unary main_v1304 main_v1305 (broadcastInDim S122811x1 ![0] bcast_S122811_S122811x1_0),
    binary main_v1075 main_v1305 main_v1306 (fun x i => Host.gather gather_S50001x64_S122811x1_S122811x64_1_0_n_n_0_1_164 x i),
    unary main_arg9 main_v1307 (extractStridedSlice S1x64x64 ![17, 0, 0] · slices_S27x64x64_S1x64x64_17_0_0),
    reshape main_v1307 main_v1308 rfl shapeCasts_S1x64x64_S64x64,
    binary main_v1306 main_v1308 main_v1309 (fun l r => Host.dotGeneral dot_S122811x64_S64x64_S122811x64_1_0_0_1_n_n none l r),
    binary main_v1297 main_v1309 main_v1310 addf,
    unary main_arg12 main_v1311 (extractStridedSlice S122811x1 ![0, 18] · slices_S122811x27_S122811x1_0_18),
    reshape main_v1311 main_v1312 rfl shapeCasts_S122811x1_S122811,
    nullary main_c_236 (constantI S_ 32 0#32),
    unary main_c_236 main_v1313 (broadcastInDim S122811 ![] bcast_S_S122811),
    binary main_v1312 main_v1313 main_v1314 (cmpi .slt),
    nullary main_c_237 (constantI S_ 32 50001#32),
    unary main_c_237 main_v1315 (broadcastInDim S122811 ![] bcast_S_S122811),
    binary main_v1312 main_v1315 main_v1316 addi,
    ternary main_v1314 main_v1316 main_v1312 main_v1317 select,
    unary main_v1317 main_v1318 (broadcastInDim S122811x1 ![0] bcast_S122811_S122811x1_0),
    binary main_v1075 main_v1318 main_v1319 (fun x i => Host.gather gather_S50001x64_S122811x1_S122811x64_1_0_n_n_0_1_164 x i) ]
theorem part25_eq (d : Dev nD) : main_part25 (F := F) d = seq (r25) := rfl
/-- Statements 1561–1620: the pooling convolution (27 taps, 64 → 64), its statements 287–346 of 410. -/
abbrev r26 : List (HloOp τ sig (Elt F)) :=
  [ unary main_arg9 main_v1320 (extractStridedSlice S1x64x64 ![18, 0, 0] · slices_S27x64x64_S1x64x64_18_0_0),
    reshape main_v1320 main_v1321 rfl shapeCasts_S1x64x64_S64x64,
    binary main_v1319 main_v1321 main_v1322 (fun l r => Host.dotGeneral dot_S122811x64_S64x64_S122811x64_1_0_0_1_n_n none l r),
    binary main_v1310 main_v1322 main_v1323 addf,
    unary main_arg12 main_v1324 (extractStridedSlice S122811x1 ![0, 19] · slices_S122811x27_S122811x1_0_19),
    reshape main_v1324 main_v1325 rfl shapeCasts_S122811x1_S122811,
    nullary main_c_238 (constantI S_ 32 0#32),
    unary main_c_238 main_v1326 (broadcastInDim S122811 ![] bcast_S_S122811),
    binary main_v1325 main_v1326 main_v1327 (cmpi .slt),
    nullary main_c_239 (constantI S_ 32 50001#32),
    unary main_c_239 main_v1328 (broadcastInDim S122811 ![] bcast_S_S122811),
    binary main_v1325 main_v1328 main_v1329 addi,
    ternary main_v1327 main_v1329 main_v1325 main_v1330 select,
    unary main_v1330 main_v1331 (broadcastInDim S122811x1 ![0] bcast_S122811_S122811x1_0),
    binary main_v1075 main_v1331 main_v1332 (fun x i => Host.gather gather_S50001x64_S122811x1_S122811x64_1_0_n_n_0_1_164 x i),
    unary main_arg9 main_v1333 (extractStridedSlice S1x64x64 ![19, 0, 0] · slices_S27x64x64_S1x64x64_19_0_0),
    reshape main_v1333 main_v1334 rfl shapeCasts_S1x64x64_S64x64,
    binary main_v1332 main_v1334 main_v1335 (fun l r => Host.dotGeneral dot_S122811x64_S64x64_S122811x64_1_0_0_1_n_n none l r),
    binary main_v1323 main_v1335 main_v1336 addf,
    unary main_arg12 main_v1337 (extractStridedSlice S122811x1 ![0, 20] · slices_S122811x27_S122811x1_0_20),
    reshape main_v1337 main_v1338 rfl shapeCasts_S122811x1_S122811,
    nullary main_c_240 (constantI S_ 32 0#32),
    unary main_c_240 main_v1339 (broadcastInDim S122811 ![] bcast_S_S122811),
    binary main_v1338 main_v1339 main_v1340 (cmpi .slt),
    nullary main_c_241 (constantI S_ 32 50001#32),
    unary main_c_241 main_v1341 (broadcastInDim S122811 ![] bcast_S_S122811),
    binary main_v1338 main_v1341 main_v1342 addi,
    ternary main_v1340 main_v1342 main_v1338 main_v1343 select,
    unary main_v1343 main_v1344 (broadcastInDim S122811x1 ![0] bcast_S122811_S122811x1_0),
    binary main_v1075 main_v1344 main_v1345 (fun x i => Host.gather gather_S50001x64_S122811x1_S122811x64_1_0_n_n_0_1_164 x i),
    unary main_arg9 main_v1346 (extractStridedSlice S1x64x64 ![20, 0, 0] · slices_S27x64x64_S1x64x64_20_0_0),
    reshape main_v1346 main_v1347 rfl shapeCasts_S1x64x64_S64x64,
    binary main_v1345 main_v1347 main_v1348 (fun l r => Host.dotGeneral dot_S122811x64_S64x64_S122811x64_1_0_0_1_n_n none l r),
    binary main_v1336 main_v1348 main_v1349 addf,
    unary main_arg12 main_v1350 (extractStridedSlice S122811x1 ![0, 21] · slices_S122811x27_S122811x1_0_21),
    reshape main_v1350 main_v1351 rfl shapeCasts_S122811x1_S122811,
    nullary main_c_242 (constantI S_ 32 0#32),
    unary main_c_242 main_v1352 (broadcastInDim S122811 ![] bcast_S_S122811),
    binary main_v1351 main_v1352 main_v1353 (cmpi .slt),
    nullary main_c_243 (constantI S_ 32 50001#32),
    unary main_c_243 main_v1354 (broadcastInDim S122811 ![] bcast_S_S122811),
    binary main_v1351 main_v1354 main_v1355 addi,
    ternary main_v1353 main_v1355 main_v1351 main_v1356 select,
    unary main_v1356 main_v1357 (broadcastInDim S122811x1 ![0] bcast_S122811_S122811x1_0),
    binary main_v1075 main_v1357 main_v1358 (fun x i => Host.gather gather_S50001x64_S122811x1_S122811x64_1_0_n_n_0_1_164 x i),
    unary main_arg9 main_v1359 (extractStridedSlice S1x64x64 ![21, 0, 0] · slices_S27x64x64_S1x64x64_21_0_0),
    reshape main_v1359 main_v1360 rfl shapeCasts_S1x64x64_S64x64,
    binary main_v1358 main_v1360 main_v1361 (fun l r => Host.dotGeneral dot_S122811x64_S64x64_S122811x64_1_0_0_1_n_n none l r),
    binary main_v1349 main_v1361 main_v1362 addf,
    unary main_arg12 main_v1363 (extractStridedSlice S122811x1 ![0, 22] · slices_S122811x27_S122811x1_0_22),
    reshape main_v1363 main_v1364 rfl shapeCasts_S122811x1_S122811,
    nullary main_c_244 (constantI S_ 32 0#32),
    unary main_c_244 main_v1365 (broadcastInDim S122811 ![] bcast_S_S122811),
    binary main_v1364 main_v1365 main_v1366 (cmpi .slt),
    nullary main_c_245 (constantI S_ 32 50001#32),
    unary main_c_245 main_v1367 (broadcastInDim S122811 ![] bcast_S_S122811),
    binary main_v1364 main_v1367 main_v1368 addi,
    ternary main_v1366 main_v1368 main_v1364 main_v1369 select,
    unary main_v1369 main_v1370 (broadcastInDim S122811x1 ![0] bcast_S122811_S122811x1_0),
    binary main_v1075 main_v1370 main_v1371 (fun x i => Host.gather gather_S50001x64_S122811x1_S122811x64_1_0_n_n_0_1_164 x i) ]
theorem part26_eq (d : Dev nD) : main_part26 (F := F) d = seq (r26) := rfl
/-- Statements 1621–1680: the pooling convolution (27 taps, 64 → 64), its statements 347–406 of 410. -/
abbrev r27 : List (HloOp τ sig (Elt F)) :=
  [ unary main_arg9 main_v1372 (extractStridedSlice S1x64x64 ![22, 0, 0] · slices_S27x64x64_S1x64x64_22_0_0),
    reshape main_v1372 main_v1373 rfl shapeCasts_S1x64x64_S64x64,
    binary main_v1371 main_v1373 main_v1374 (fun l r => Host.dotGeneral dot_S122811x64_S64x64_S122811x64_1_0_0_1_n_n none l r),
    binary main_v1362 main_v1374 main_v1375 addf,
    unary main_arg12 main_v1376 (extractStridedSlice S122811x1 ![0, 23] · slices_S122811x27_S122811x1_0_23),
    reshape main_v1376 main_v1377 rfl shapeCasts_S122811x1_S122811,
    nullary main_c_246 (constantI S_ 32 0#32),
    unary main_c_246 main_v1378 (broadcastInDim S122811 ![] bcast_S_S122811),
    binary main_v1377 main_v1378 main_v1379 (cmpi .slt),
    nullary main_c_247 (constantI S_ 32 50001#32),
    unary main_c_247 main_v1380 (broadcastInDim S122811 ![] bcast_S_S122811),
    binary main_v1377 main_v1380 main_v1381 addi,
    ternary main_v1379 main_v1381 main_v1377 main_v1382 select,
    unary main_v1382 main_v1383 (broadcastInDim S122811x1 ![0] bcast_S122811_S122811x1_0),
    binary main_v1075 main_v1383 main_v1384 (fun x i => Host.gather gather_S50001x64_S122811x1_S122811x64_1_0_n_n_0_1_164 x i),
    unary main_arg9 main_v1385 (extractStridedSlice S1x64x64 ![23, 0, 0] · slices_S27x64x64_S1x64x64_23_0_0),
    reshape main_v1385 main_v1386 rfl shapeCasts_S1x64x64_S64x64,
    binary main_v1384 main_v1386 main_v1387 (fun l r => Host.dotGeneral dot_S122811x64_S64x64_S122811x64_1_0_0_1_n_n none l r),
    binary main_v1375 main_v1387 main_v1388 addf,
    unary main_arg12 main_v1389 (extractStridedSlice S122811x1 ![0, 24] · slices_S122811x27_S122811x1_0_24),
    reshape main_v1389 main_v1390 rfl shapeCasts_S122811x1_S122811,
    nullary main_c_248 (constantI S_ 32 0#32),
    unary main_c_248 main_v1391 (broadcastInDim S122811 ![] bcast_S_S122811),
    binary main_v1390 main_v1391 main_v1392 (cmpi .slt),
    nullary main_c_249 (constantI S_ 32 50001#32),
    unary main_c_249 main_v1393 (broadcastInDim S122811 ![] bcast_S_S122811),
    binary main_v1390 main_v1393 main_v1394 addi,
    ternary main_v1392 main_v1394 main_v1390 main_v1395 select,
    unary main_v1395 main_v1396 (broadcastInDim S122811x1 ![0] bcast_S122811_S122811x1_0),
    binary main_v1075 main_v1396 main_v1397 (fun x i => Host.gather gather_S50001x64_S122811x1_S122811x64_1_0_n_n_0_1_164 x i),
    unary main_arg9 main_v1398 (extractStridedSlice S1x64x64 ![24, 0, 0] · slices_S27x64x64_S1x64x64_24_0_0),
    reshape main_v1398 main_v1399 rfl shapeCasts_S1x64x64_S64x64,
    binary main_v1397 main_v1399 main_v1400 (fun l r => Host.dotGeneral dot_S122811x64_S64x64_S122811x64_1_0_0_1_n_n none l r),
    binary main_v1388 main_v1400 main_v1401 addf,
    unary main_arg12 main_v1402 (extractStridedSlice S122811x1 ![0, 25] · slices_S122811x27_S122811x1_0_25),
    reshape main_v1402 main_v1403 rfl shapeCasts_S122811x1_S122811,
    nullary main_c_250 (constantI S_ 32 0#32),
    unary main_c_250 main_v1404 (broadcastInDim S122811 ![] bcast_S_S122811),
    binary main_v1403 main_v1404 main_v1405 (cmpi .slt),
    nullary main_c_251 (constantI S_ 32 50001#32),
    unary main_c_251 main_v1406 (broadcastInDim S122811 ![] bcast_S_S122811),
    binary main_v1403 main_v1406 main_v1407 addi,
    ternary main_v1405 main_v1407 main_v1403 main_v1408 select,
    unary main_v1408 main_v1409 (broadcastInDim S122811x1 ![0] bcast_S122811_S122811x1_0),
    binary main_v1075 main_v1409 main_v1410 (fun x i => Host.gather gather_S50001x64_S122811x1_S122811x64_1_0_n_n_0_1_164 x i),
    unary main_arg9 main_v1411 (extractStridedSlice S1x64x64 ![25, 0, 0] · slices_S27x64x64_S1x64x64_25_0_0),
    reshape main_v1411 main_v1412 rfl shapeCasts_S1x64x64_S64x64,
    binary main_v1410 main_v1412 main_v1413 (fun l r => Host.dotGeneral dot_S122811x64_S64x64_S122811x64_1_0_0_1_n_n none l r),
    binary main_v1401 main_v1413 main_v1414 addf,
    unary main_arg12 main_v1415 (extractStridedSlice S122811x1 ![0, 26] · slices_S122811x27_S122811x1_0_26),
    reshape main_v1415 main_v1416 rfl shapeCasts_S122811x1_S122811,
    nullary main_c_252 (constantI S_ 32 0#32),
    unary main_c_252 main_v1417 (broadcastInDim S122811 ![] bcast_S_S122811),
    binary main_v1416 main_v1417 main_v1418 (cmpi .slt),
    nullary main_c_253 (constantI S_ 32 50001#32),
    unary main_c_253 main_v1419 (broadcastInDim S122811 ![] bcast_S_S122811),
    binary main_v1416 main_v1419 main_v1420 addi,
    ternary main_v1418 main_v1420 main_v1416 main_v1421 select,
    unary main_v1421 main_v1422 (broadcastInDim S122811x1 ![0] bcast_S122811_S122811x1_0),
    binary main_v1075 main_v1422 main_v1423 (fun x i => Host.gather gather_S50001x64_S122811x1_S122811x64_1_0_n_n_0_1_164 x i) ]
theorem part27_eq (d : Dev nD) : main_part27 (F := F) d = seq (r27) := rfl
/-- Statements 1681–1684: the pooling convolution (27 taps, 64 → 64), its statements 407–410 of 410. -/
abbrev r28 : List (HloOp τ sig (Elt F)) :=
  [ unary main_arg9 main_v1424 (extractStridedSlice S1x64x64 ![26, 0, 0] · slices_S27x64x64_S1x64x64_26_0_0),
    reshape main_v1424 main_v1425 rfl shapeCasts_S1x64x64_S64x64,
    binary main_v1423 main_v1425 main_v1426 (fun l r => Host.dotGeneral dot_S122811x64_S64x64_S122811x64_1_0_0_1_n_n none l r),
    binary main_v1414 main_v1426 main_v1427 addf ]
theorem part28_eq (d : Dev nD) : main_part28 (F := F) d = seq (r28) := rfl

end Cert.ReferenceIdeal.Run

end
-- ==== Proof.BKP.lean ====
/-
  The pooling stage's gather read at an index: entry (k, i, c) of the padded gathered array, for i among the 122811
  output voxels, is the padded table's row `row (nbr[i, k])`, channel c (the 1389 padding rows per tap lie beyond).
-/
import proofs.«141681_j16750372455151_2_alg».proof.Proof.BridgeKernelGather
import proofs.«141681_j16750372455151_2_alg».proof.Proof.KDefsP
import Idealize.ShloMosaic.Lib.KernelVsHost

set_option maxRecDepth 16384

noncomputable section

namespace Cert.KernelIdeal.BKP

open Idealize.ShloMosaic Idealize.ShloMosaic.ValueIdx
open Idealize.ShloMosaic.TcCoe Idealize.SL.Sem
open Cert.KernelIdeal Cert.KernelIdeal.Gen Cert.KernelIdeal.Chain
open Cert.KernelIdeal.Bridge (wrap row)

/-! ## The kernel's gather: all taps at once -/

abbrev GK := gather_S50001x64_S27x122811x1_S27x122811x64_2_0_n_n_0_2_164

theorem kcoord0 (idx : IVec (⟨3, ![27, 122811, 1]⟩ : Shape) 32) (k : Fin 27) (i : Fin 122811) (c : Fin 64) :
    GK.start (ix3 k i c) idx (0 : Fin 2) + GK.batchCoord (ix3 k i c) (0 : Fin 2) + GK.offCoord (ix3 k i c) (0 : Fin 2)
      = min (idx (ix3 k i (0 : Fin 1))).toInt.toNat 50000 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GK.startIndexMap from List.mem_singleton.mpr rfl)]
  have hsi : GK.siIdx (ix3 k i c) ⟨List.idxOf (0 : Fin 2) GK.startIndexMap,
      List.idxOf_lt_length_iff.2 (List.mem_singleton.mpr rfl)⟩ = ix3 k i (0 : Fin 1) := by
    funext b; refine Fin.ext ?_
    match b with
    | ⟨0, _⟩ => rfl
    | ⟨1, _⟩ => rfl
    | ⟨2, _⟩ => rfl
  rw [hsi]
  rfl

theorem kcoord1 (idx : IVec (⟨3, ![27, 122811, 1]⟩ : Shape) 32) (k : Fin 27) (i : Fin 122811) (c : Fin 64) :
    GK.start (ix3 k i c) idx (1 : Fin 2) + GK.batchCoord (ix3 k i c) (1 : Fin 2) + GK.offCoord (ix3 k i c) (1 : Fin 2) = c.val := by
  rw [GatherDims.batchCoord_eq_zero _ _ _ List.not_mem_nil]
  unfold GatherDims.start
  rw [dif_neg (show (1 : Fin 2) ∉ GK.startIndexMap by decide)]
  unfold GatherDims.offCoord
  rw [dif_pos (show (1 : Fin 2) ∈ GK.sKept by decide)]
  simp only [Nat.zero_add, Nat.add_zero]
  rfl

/-- The kernel's gather at (k, i, c): the table's row at the clamped start index, channel c. -/
theorem kgather {α : Type} (x : (⟨2, ![50001, 64]⟩ : Shape).Idx → α) (idx : IVec (⟨3, ![27, 122811, 1]⟩ : Shape) 32)
    (k : Fin 27) (i : Fin 122811) (c : Fin 64) :
    Host.gather GK x idx (ix3 k i c) = x (ix2 ⟨min (idx (ix3 k i (0 : Fin 1))).toInt.toNat 50000, by omega⟩ c) := by
  unfold Host.gather
  congr 1
  funext a
  refine Fin.ext ?_
  match a with
  | ⟨0, _⟩ => exact kcoord0 idx k i c
  | ⟨1, _⟩ => exact kcoord1 idx k i c

/-- The transposed, wrapped neighbour table at (k, i) is the wrapped entry (i, k). -/
theorem wrapT27_apply (nbr : IVec (⟨2, ![122811, 27]⟩ : Shape) 32) (k : Fin 27) (i : Fin 122811) :
    wrapT27 nbr (ix2 k i) = wrap (nbr (ix2 i k)) := by
  show Scalar.select (IntOp.cmpi .slt (transpose (⟨2, ![27, 122811]⟩ : Shape) [1, 0] nbr transposes_S122811x27_S27x122811_1_0 (ix2 k i)) 0#32)
      (IntOp.addi (transpose (⟨2, ![27, 122811]⟩ : Shape) [1, 0] nbr transposes_S122811x27_S27x122811_1_0 (ix2 k i)) 50001#32)
      (transpose (⟨2, ![27, 122811]⟩ : Shape) [1, 0] nbr transposes_S122811x27_S27x122811_1_0 (ix2 k i)) = _
  rw [transpose_ix2_apply]
  rfl

/-- TAP k OF OUTPUT VOXEL i in the pooling stage's padded gathered array. -/
theorem tapsPad_apply (xb : FVec Ideal (⟨2, ![50000, 64]⟩ : Shape) .bf16) (nbr : IVec (⟨2, ![122811, 27]⟩ : Shape) 32)
    (k : Fin 27) (i : Fin 122811) (c : Fin 64) :
    tapsPad xb nbr (ix3 k (⟨i.val, by omega⟩ : Fin 124200) c)
      = concatenate S50001x64 0 [⟨S50000x64, xb⟩,
          ⟨S1x64, broadcastInDim S1x64 ![] bcast_S_S1x64 (constant (F := Ideal) S_ .bf16 0x0000#16)⟩]
          concatenates_S50000x64_S1x64_S50001x64_d0 (ix2 (row (nbr (ix2 i k))) c) := by
  unfold tapsPad gP
  rw [pad_apply_of_inside _ _ _ _ _ _ _ _ (ix3 k i c) (fun a => by
    match a with
    | ⟨0, _⟩ => show k.val = 0 + k.val * (0 + 1); omega
    | ⟨1, _⟩ => show i.val = 0 + i.val * (0 + 1); omega
    | ⟨2, _⟩ => show c.val = 0 + c.val * (0 + 1); omega)]
  refine (kgather _ _ k i c).trans ?_
  have hb : broadcastInDim S27x122811x1 ![0, 1] bcast_S27x122811_S27x122811x1_0_1
      (wrapT27 nbr) (ix3 k i (0 : Fin 1)) = wrapT27 nbr (ix2 k i) :=
    broadcastInDim_apply _ _ _ _ _ (fun a => by
      match a with
      | ⟨0, _⟩ => rfl
      | ⟨1, _⟩ => rfl)
  simp only [hb, wrapT27_apply]
  rfl

end Cert.KernelIdeal.BKP

end
-- ==== Proof.BRP.lean ====
/-
  The pooling convolution (27 taps over 122811 output voxels, 64 → 64): the reference's tap and whole convolution
  read at an index, and the agreement with the kernel's region value — the region runs on the gathered taps padded
  with zero rows up to a whole number of tiles, and the rows beyond the 122811th are cut away afterwards.
-/
import proofs.«141681_j16750372455151_2_alg».proof.Proof.BridgeRefTap
import proofs.«141681_j16750372455151_2_alg».proof.Proof.HostFns
import proofs.«141681_j16750372455151_2_alg».proof.Proof.BKP
import proofs.«141681_j16750372455151_2_alg».proof.Proof.Region8Array

set_option maxRecDepth 16384

noncomputable section

namespace Cert.ReferenceIdeal.BRP

open Idealize.ShloMosaic Idealize.ShloMosaic.ValueIdx Idealize.ShloMosaic.TcCoe Idealize.SL.Sem
open Cert.ReferenceIdeal Cert.ReferenceIdeal.Gen Cert.ReferenceIdeal.Fns Cert.SparseConv
open Cert.KernelIdeal.Bridge (wrap row)

/-! ## The reference's gather: one tap -/

abbrev GR := gather_S50001x64_S122811x1_S122811x64_1_0_n_n_0_1_164

theorem rcoord0 (idx : IVec (⟨2, ![122811, 1]⟩ : Shape) 32) (i : Fin 122811) (c : Fin 64) :
    GR.start (ix2 i c) idx (0 : Fin 2) + GR.batchCoord (ix2 i c) (0 : Fin 2) + GR.offCoord (ix2 i c) (0 : Fin 2)
      = min (idx (ix2 i (0 : Fin 1))).toInt.toNat 50000 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GR.startIndexMap from List.mem_singleton.mpr rfl)]
  have hsi : GR.siIdx (ix2 i c) ⟨List.idxOf (0 : Fin 2) GR.startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

theorem rcoord1 (idx : IVec (⟨2, ![122811, 1]⟩ : Shape) 32) (i : Fin 122811) (c : Fin 64) :
    GR.start (ix2 i c) idx (1 : Fin 2) + GR.batchCoord (ix2 i c) (1 : Fin 2) + GR.offCoord (ix2 i c) (1 : Fin 2) = c.val := by
  rw [GatherDims.batchCoord_eq_zero _ _ _ List.not_mem_nil]
  unfold GatherDims.start
  rw [dif_neg (show (1 : Fin 2) ∉ GR.startIndexMap by decide)]
  unfold GatherDims.offCoord
  rw [dif_pos (show (1 : Fin 2) ∈ GR.sKept by decide)]
  simp only [Nat.zero_add, Nat.add_zero]
  rfl

/-- The reference's gather at (i, c): the table's row at the clamped start index, channel c. -/
theorem rgather {α : Type} (x : (⟨2, ![50001, 64]⟩ : Shape).Idx → α) (idx : IVec (⟨2, ![122811, 1]⟩ : Shape) 32)
    (i : Fin 122811) (c : Fin 64) :
    Host.gather GR x idx (ix2 i c) = x (ix2 ⟨min (idx (ix2 i (0 : Fin 1))).toInt.toNat 50000, by omega⟩ c) := by
  unfold Host.gather
  congr 1
  funext a
  refine Fin.ext ?_
  match a with
  | ⟨0, _⟩ => exact rcoord0 idx i c
  | ⟨1, _⟩ => exact rcoord1 idx i c

/-- Column k of the neighbour table, negative entries wrapped, as the gather's index array. -/
def colIdx (k : Fin 27) (hs : S122811x27.Slices ![0, k.val] S122811x1) (nbr : IVec S122811x27 32) : IVec S122811x1 32 :=
  broadcastInDim S122811x1 ![0] bcast_S122811_S122811x1_0
    (select (cmpi .slt (shapeCast S122811 (extractStridedSlice S122811x1 ![0, k.val] nbr hs) shapeCasts_S122811x1_S122811)
        (broadcastInDim S122811 ![] bcast_S_S122811 (constantI S_ 32 0#32)))
      (addi (shapeCast S122811 (extractStridedSlice S122811x1 ![0, k.val] nbr hs) shapeCasts_S122811x1_S122811)
        (broadcastInDim S122811 ![] bcast_S_S122811 (constantI S_ 32 50001#32)))
      (shapeCast S122811 (extractStridedSlice S122811x1 ![0, k.val] nbr hs) shapeCasts_S122811x1_S122811))

/-- Column k at voxel i is the table's entry (i, k). -/
theorem col_apply (k : Fin 27) (hs : S122811x27.Slices ![0, k.val] S122811x1) (nbr : IVec S122811x27 32) (i : Fin 122811) :
    shapeCast S122811 (extractStridedSlice S122811x1 ![0, k.val] nbr hs) shapeCasts_S122811x1_S122811 (ix1 i) = nbr (ix2 i k) := by
  rw [shapeCast_apply _ _ (ix1 i) (ix2 i (0 : Fin 1)) (by
    rw [Shape.rowMajor_val_two, Shape.rowMajor_val_one]
    show i.val * 1 + 0 = i.val
    omega)]
  exact slice2_axis1_apply k.val nbr hs i (0 : Fin 1) k (by show k.val = k.val + 0; omega)

/-- The index array at (i, 0) is the wrapped entry (i, k). -/
theorem colIdx_apply (k : Fin 27) (hs : S122811x27.Slices ![0, k.val] S122811x1) (nbr : IVec S122811x27 32) (i : Fin 122811) :
    colIdx k hs nbr (ix2 i (0 : Fin 1)) = wrap (nbr (ix2 i k)) := by
  unfold colIdx
  rw [broadcastInDim_apply _ _ _ (ix2 i (0 : Fin 1)) (ix1 i) (fun a => by
    match a with
    | ⟨0, _⟩ => rfl)]
  show Scalar.select (IntOp.cmpi .slt (shapeCast S122811 (extractStridedSlice S122811x1 ![0, k.val] nbr hs) shapeCasts_S122811x1_S122811 (ix1 i)) 0#32)
      (IntOp.addi (shapeCast S122811 (extractStridedSlice S122811x1 ![0, k.val] nbr hs) shapeCasts_S122811x1_S122811 (ix1 i)) 50001#32)
      (shapeCast S122811 (extractStridedSlice S122811x1 ![0, k.val] nbr hs) shapeCasts_S122811x1_S122811 (ix1 i)) = _
  rw [col_apply]
  rfl

/-! ## The host's product for one tap -/

abbrev DR := dot_S122811x64_S64x64_S122811x64_1_0_0_1_n_n

theorem dr_lhs_row (j : S122811x64.Idx) (s : DR.contr.Idx) : (DR.lhsIdx j s 0).val = (j 0).val := by
  unfold DotDims.lhsIdx
  rw [dif_neg (show ¬(0 : Fin S122811x64.rank) ∈ DR.lhsBatch by decide), dif_pos (show (0 : Fin S122811x64.rank) ∈ DR.lhsNonContracting by decide)]
  rfl
theorem dr_lhs_contr (j : S122811x64.Idx) (s : DR.contr.Idx) : (DR.lhsIdx j s 1).val = (s ⟨0, by decide⟩).val :=
  DR.lhsIdx_val_of_single rfl j s
theorem dr_rhs_contr (j : S122811x64.Idx) (s : DR.contr.Idx) : (DR.rhsIdx j s 0).val = (s ⟨0, by decide⟩).val :=
  DR.rhsIdx_val_of_single rfl j s
theorem dr_rhs_col (j : S122811x64.Idx) (s : DR.contr.Idx) : (DR.rhsIdx j s 1).val = (j 1).val := by
  unfold DotDims.rhsIdx
  rw [dif_neg (show ¬(1 : Fin S64x64.rank) ∈ DR.rhsBatch by decide), dif_pos (show (1 : Fin S64x64.rank) ∈ DR.rhsNonContracting by decide)]
  rfl

/-- Slice k of the weights, as a 64 × 32 matrix, at (c, o). -/
theorem wslice_apply (k : Fin 27) (hw : S27x64x64.Slices ![k.val, 0, 0] S1x64x64) (W : FVec Ideal S27x64x64 .f32) (c : Fin 64) (o : Fin 64) :
    shapeCast S64x64 (extractStridedSlice S1x64x64 ![k.val, 0, 0] W hw) shapeCasts_S1x64x64_S64x64 (ix2 c o) = W (ix3 k c o) := by
  rw [shapeCast_1ab_ab_apply]
  exact extractStridedSlice_apply _ _ hw _ (ix3 k c o) (fun a => by
    match a with
    | ⟨0, _⟩ => show k.val = k.val + 0; omega
    | ⟨1, _⟩ => show c.val = 0 + c.val; omega
    | ⟨2, _⟩ => show o.val = 0 + o.val; omega)

/-- TAP k OF THE REFERENCE at (i, o): the sum over the 64 input channels of the padded table's row
    `row (nbr[i, k])` times slice k of the weights. -/
theorem refTap_apply (k : Fin 27) (hs : S122811x27.Slices ![0, k.val] S122811x1) (hw : S27x64x64.Slices ![k.val, 0, 0] S1x64x64)
    (xp : FVec Ideal S50001x64 .f32) (nbr : IVec S122811x27 32) (W : FVec Ideal S27x64x64 .f32) (i : Fin 122811) (o : Fin 64) :
    (Host.dotGeneral (F := Ideal) DR none (Host.gather GR xp (colIdx k hs nbr))
      (shapeCast S64x64 (extractStridedSlice S1x64x64 ![k.val, 0, 0] W hw) shapeCasts_S1x64x64_S64x64) (ix2 i o) : EReal)
    = ∑ c : Fin 64, (xp (ix2 (row (nbr (ix2 i k))) c) : EReal) * (W (ix3 k c o) : EReal) := by
  simp only [Host.dotGeneral]
  rw [Ideal.dotGeneral_apply, ← Equiv.sum_comp (contrEquiv1 DR 64 rfl rfl).symm]
  refine Finset.sum_congr rfl fun c _ => ?_
  have hc := contrEquiv1_symm_val DR 64 rfl rfl c
  have el : DR.lhsIdx (ix2 i o) ((contrEquiv1 DR 64 rfl rfl).symm c) = ix2 i c := funext fun a => Fin.ext (by
    match a with
    | ⟨0, _⟩ => exact dr_lhs_row _ _
    | ⟨1, _⟩ => exact (dr_lhs_contr _ _).trans hc)
  have er : DR.rhsIdx (ix2 i o) ((contrEquiv1 DR 64 rfl rfl).symm c) = ix2 c o := funext fun a => Fin.ext (by
    match a with
    | ⟨0, _⟩ => exact (dr_rhs_contr _ _).trans hc
    | ⟨1, _⟩ => exact dr_rhs_col _ _)
  rw [el, er, wslice_apply, rgather]
  simp only [colIdx_apply]
  rfl

theorem slicesN : ∀ k : Fin 27, S122811x27.Slices ![0, k.val] S122811x1 := by decide
theorem slicesW : ∀ k : Fin 27, S27x64x64.Slices ![k.val, 0, 0] S1x64x64 := by decide

/-- The reference's padded feature table: the features with one all-zero row appended. -/
def xpadR (x : FVec Ideal S50000x64 .f32) : FVec Ideal S50001x64 .f32 :=
  concatenate S50001x64 0 [⟨S50000x64, x⟩, ⟨S1x64, broadcastInDim S1x64 ![] bcast_S_S1x64 (constant (F := Ideal) S_ .f32 0x00000000#32)⟩]
    concatenates_S50000x64_S1x64_S50001x64_d0

/-- Tap k of the reference, as an array. -/
def refTapArr (k : Fin 27) (x : FVec Ideal S50000x64 .f32) (nbr : IVec S122811x27 32) (W : FVec Ideal S27x64x64 .f32) : FVec Ideal S122811x64 .f32 :=
  Host.dotGeneral (F := Ideal) DR none (Host.gather GR (xpadR x) (colIdx k (slicesN k) nbr))
    (shapeCast S64x64 (extractStridedSlice S1x64x64 ![k.val, 0, 0] W (slicesW k)) shapeCasts_S1x64x64_S64x64)

/-- The reference's pooling convolution: the twenty-seven taps added in order onto a zero array. -/
def refConv (x : FVec Ideal S50000x64 .f32) (nbr : IVec S122811x27 32) (W : FVec Ideal S27x64x64 .f32) : FVec Ideal S122811x64 .f32 :=
  addf (addf (addf (addf (addf (addf (addf (addf (addf (addf (addf (addf (addf (addf (addf (addf (addf (addf (addf (addf (addf (addf (addf (addf (addf (addf (addf (broadcastInDim S122811x64 ![] bcast_S_S122811x64 (constant (F := Ideal) S_ .f32 0x00000000#32))
    (refTapArr 0 x nbr W)) (refTapArr 1 x nbr W)) (refTapArr 2 x nbr W)) (refTapArr 3 x nbr W)) (refTapArr 4 x nbr W)) (refTapArr 5 x nbr W)) (refTapArr 6 x nbr W)) (refTapArr 7 x nbr W)) (refTapArr 8 x nbr W)) (refTapArr 9 x nbr W)) (refTapArr 10 x nbr W)) (refTapArr 11 x nbr W)) (refTapArr 12 x nbr W)) (refTapArr 13 x nbr W)) (refTapArr 14 x nbr W)) (refTapArr 15 x nbr W)) (refTapArr 16 x nbr W)) (refTapArr 17 x nbr W)) (refTapArr 18 x nbr W)) (refTapArr 19 x nbr W)) (refTapArr 20 x nbr W)) (refTapArr 21 x nbr W)) (refTapArr 22 x nbr W)) (refTapArr 23 x nbr W)) (refTapArr 24 x nbr W)) (refTapArr 25 x nbr W)) (refTapArr 26 x nbr W)

/-- The reference's pooling convolution at (i, o). -/
theorem refConv_apply (x : FVec Ideal S50000x64 .f32) (nbr : IVec S122811x27 32) (W : FVec Ideal S27x64x64 .f32) (i : Fin 122811) (o : Fin 64) :
    (refConv x nbr W (ix2 i o) : EReal)
      = acc27 fun k => ∑ c : Fin 64, (xpadR x (ix2 (row (nbr (ix2 i k))) c) : EReal) * (W (ix3 k c o) : EReal) := by
  show acc27 ![refTapArr 0 x nbr W (ix2 i o), refTapArr 1 x nbr W (ix2 i o), refTapArr 2 x nbr W (ix2 i o), refTapArr 3 x nbr W (ix2 i o), refTapArr 4 x nbr W (ix2 i o), refTapArr 5 x nbr W (ix2 i o), refTapArr 6 x nbr W (ix2 i o), refTapArr 7 x nbr W (ix2 i o), refTapArr 8 x nbr W (ix2 i o), refTapArr 9 x nbr W (ix2 i o), refTapArr 10 x nbr W (ix2 i o), refTapArr 11 x nbr W (ix2 i o), refTapArr 12 x nbr W (ix2 i o), refTapArr 13 x nbr W (ix2 i o), refTapArr 14 x nbr W (ix2 i o), refTapArr 15 x nbr W (ix2 i o), refTapArr 16 x nbr W (ix2 i o), refTapArr 17 x nbr W (ix2 i o), refTapArr 18 x nbr W (ix2 i o), refTapArr 19 x nbr W (ix2 i o), refTapArr 20 x nbr W (ix2 i o), refTapArr 21 x nbr W (ix2 i o), refTapArr 22 x nbr W (ix2 i o), refTapArr 23 x nbr W (ix2 i o), refTapArr 24 x nbr W (ix2 i o), refTapArr 25 x nbr W (ix2 i o), refTapArr 26 x nbr W (ix2 i o)] = _
  refine congrArg acc27 (funext fun k => ?_)
  fin_cases k
  · exact refTap_apply 0 _ _ (xpadR x) nbr W i o
  · exact refTap_apply 1 _ _ (xpadR x) nbr W i o
  · exact refTap_apply 2 _ _ (xpadR x) nbr W i o
  · exact refTap_apply 3 _ _ (xpadR x) nbr W i o
  · exact refTap_apply 4 _ _ (xpadR x) nbr W i o
  · exact refTap_apply 5 _ _ (xpadR x) nbr W i o
  · exact refTap_apply 6 _ _ (xpadR x) nbr W i o
  · exact refTap_apply 7 _ _ (xpadR x) nbr W i o
  · exact refTap_apply 8 _ _ (xpadR x) nbr W i o
  · exact refTap_apply 9 _ _ (xpadR x) nbr W i o
  · exact refTap_apply 10 _ _ (xpadR x) nbr W i o
  · exact refTap_apply 11 _ _ (xpadR x) nbr W i o
  · exact refTap_apply 12 _ _ (xpadR x) nbr W i o
  · exact refTap_apply 13 _ _ (xpadR x) nbr W i o
  · exact refTap_apply 14 _ _ (xpadR x) nbr W i o
  · exact refTap_apply 15 _ _ (xpadR x) nbr W i o
  · exact refTap_apply 16 _ _ (xpadR x) nbr W i o
  · exact refTap_apply 17 _ _ (xpadR x) nbr W i o
  · exact refTap_apply 18 _ _ (xpadR x) nbr W i o
  · exact refTap_apply 19 _ _ (xpadR x) nbr W i o
  · exact refTap_apply 20 _ _ (xpadR x) nbr W i o
  · exact refTap_apply 21 _ _ (xpadR x) nbr W i o
  · exact refTap_apply 22 _ _ (xpadR x) nbr W i o
  · exact refTap_apply 23 _ _ (xpadR x) nbr W i o
  · exact refTap_apply 24 _ _ (xpadR x) nbr W i o
  · exact refTap_apply 25 _ _ (xpadR x) nbr W i o
  · exact refTap_apply 26 _ _ (xpadR x) nbr W i o

/-- The two padded tables are one: narrowing is the identity and both zero words read 0. -/
theorem xpad_eq (x : FVec Ideal S50000x64 .f32) :
    (concatenate Cert.KernelIdeal.S50001x64 0 [⟨Cert.KernelIdeal.S50000x64, truncf (F := Ideal) .bf16 x (by decide)⟩,
        ⟨Cert.KernelIdeal.S1x64, broadcastInDim Cert.KernelIdeal.S1x64 ![] Cert.KernelIdeal.Gen.bcast_S_S1x64 (constant (F := Ideal) Cert.KernelIdeal.S_ .bf16 0x0000#16)⟩]
        Cert.KernelIdeal.Gen.concatenates_S50000x64_S1x64_S50001x64_d0 : S50001x64.Idx → EReal) = xpadR x := by
  have hz : (constant (F := Ideal) Cert.KernelIdeal.S_ .bf16 0x0000#16 : S_.Idx → EReal) = constant (F := Ideal) S_ .f32 0x00000000#32 := by
    funext j
    show Ideal.ofBits .bf16 0x0000#16 = Ideal.ofBits .f32 0x00000000#32
    simp [Ideal.ofBits, Ideal.ieee]
  unfold xpadR
  rw [← hz]
  rfl

/-- THE POOLING STAGE: the first 122811 rows of the kernel's region output on its padded gathered taps are the
    reference's convolution. -/
theorem layer_eq (x : FVec Ideal S50000x64 .f32) (nbr : IVec S122811x27 32) (W : FVec Ideal S27x64x64 .f32) :
    (extractStridedSlice Cert.KernelIdeal.S122811x64 ![0, 0]
        (Cert.KernelIdeal.Conv8.conv (Cert.KernelIdeal.Chain.tapsPad (truncf (F := Ideal) .bf16 x (by decide)) nbr) (truncf (F := Ideal) .bf16 W (by decide)))
        Cert.KernelIdeal.Gen.slices_S124200x64_S122811x64_0_0 : S122811x64.Idx → EReal)
      = refConv x nbr W := by
  funext j
  obtain ⟨i, o, rfl⟩ : ∃ (i : Fin 122811) (o : Fin 64), j = ix2 i o := ⟨j 0, j 1, eq_ix2 j⟩
  rw [extractStridedSlice_apply _ _ _ (ix2 i o) (ix2 (⟨i.val, by omega⟩ : Fin 124200) o) (fun a => by
    match a with
    | ⟨0, _⟩ => show i.val = 0 + i.val; omega
    | ⟨1, _⟩ => show o.val = 0 + o.val; omega)]
  show (acc27 fun k => ∑ c : Fin 64, (Cert.KernelIdeal.Chain.tapsPad (truncf (F := Ideal) .bf16 x (by decide)) nbr (ix3 k (⟨i.val, by omega⟩ : Fin 124200) c) : EReal) * (W (ix3 k c o) : EReal))
    = refConv x nbr W (ix2 i o)
  rw [refConv_apply]
  refine congrArg acc27 (funext fun k => Finset.sum_congr rfl fun c _ => ?_)
  rw [Cert.KernelIdeal.BKP.tapsPad_apply, ← xpad_eq]

end Cert.ReferenceIdeal.BRP

end
-- ==== Proof.RefEvalP.lean ====
/-
  The pooling convolution of the reference, window by window, from ANY contents U of the buffers before the window: each
  window finishes the tap it found half done (its gather already made), adds three whole taps, and makes the next
  tap's gather; the first window also pads the input and starts the accumulator, the last only finishes tap 26.
-/
import proofs.«141681_j16750372455151_2_alg».proof.Proof.RefRunP
import proofs.«141681_j16750372455151_2_alg».proof.Proof.BRP

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.ReferenceIdeal.Fns

set_option maxHeartbeats 2000000 in
theorem r21c_acc (U : Valuation τ sig (Elt Ideal)) :
    (after (r21c (F := Ideal)) U (Proc.devRef .tc main_v1102) : S122811x64.Idx → EReal)
      = addf (addf (broadcastInDim S122811x64 ![] bcast_S_S122811x64 (constant (F := Ideal) S_ .f32 0x00000000#32)) (Host.dotGeneral (F := Ideal) (φ₁ := .f32) (φ₂ := .f32) Cert.ReferenceIdeal.BRP.DR none (Host.gather (α := EReal) Cert.ReferenceIdeal.BRP.GR (Cert.ReferenceIdeal.BRP.xpadR (U (Proc.devRef .tc main_v1073))) (Cert.ReferenceIdeal.BRP.colIdx 0 (Cert.ReferenceIdeal.BRP.slicesN 0) (U (Proc.devRef .tc main_arg12)))) (shapeCast (α := EReal) S64x64 (extractStridedSlice (α := EReal) S1x64x64 ![(0 : Fin 27).val, 0, 0] (U (Proc.devRef .tc main_arg9)) (Cert.ReferenceIdeal.BRP.slicesW 0)) shapeCasts_S1x64x64_S64x64))) (Host.dotGeneral (F := Ideal) (φ₁ := .f32) (φ₂ := .f32) Cert.ReferenceIdeal.BRP.DR none (Host.gather (α := EReal) Cert.ReferenceIdeal.BRP.GR (Cert.ReferenceIdeal.BRP.xpadR (U (Proc.devRef .tc main_v1073))) (Cert.ReferenceIdeal.BRP.colIdx 1 (Cert.ReferenceIdeal.BRP.slicesN 1) (U (Proc.devRef .tc main_arg12)))) (shapeCast (α := EReal) S64x64 (extractStridedSlice (α := EReal) S1x64x64 ![(1 : Fin 27).val, 0, 0] (U (Proc.devRef .tc main_arg9)) (Cert.ReferenceIdeal.BRP.slicesW 1)) shapeCasts_S1x64x64_S64x64)) := by
  after_results_simp <;> rfl
set_option maxHeartbeats 2000000 in
theorem r21c_g (U : Valuation τ sig (Elt Ideal)) :
    (after (r21c (F := Ideal)) U (Proc.devRef .tc main_v1111) : S122811x64.Idx → EReal)
      = (Host.gather (α := EReal) Cert.ReferenceIdeal.BRP.GR (Cert.ReferenceIdeal.BRP.xpadR (U (Proc.devRef .tc main_v1073))) (Cert.ReferenceIdeal.BRP.colIdx 2 (Cert.ReferenceIdeal.BRP.slicesN 2) (U (Proc.devRef .tc main_arg12)))) := by
  after_results_simp <;> rfl
theorem r21c_xp (U : Valuation τ sig (Elt Ideal)) :
    (after (r21c (F := Ideal)) U (Proc.devRef .tc main_v1075) : S50001x64.Idx → EReal) = Cert.ReferenceIdeal.BRP.xpadR (U (Proc.devRef .tc main_v1073)) := by
  after_results_simp <;> rfl
set_option maxHeartbeats 2000000 in
theorem r22_acc (U : Valuation τ sig (Elt Ideal)) :
    (after (r22 (F := Ideal)) U (Proc.devRef .tc main_v1154) : S122811x64.Idx → EReal)
      = addf (addf (addf (addf (U (Proc.devRef .tc main_v1102)) (Host.dotGeneral (F := Ideal) (φ₁ := .f32) (φ₂ := .f32) Cert.ReferenceIdeal.BRP.DR none (U (Proc.devRef .tc main_v1111)) (shapeCast (α := EReal) S64x64 (extractStridedSlice (α := EReal) S1x64x64 ![(2 : Fin 27).val, 0, 0] (U (Proc.devRef .tc main_arg9)) (Cert.ReferenceIdeal.BRP.slicesW 2)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 3 (Cert.ReferenceIdeal.BRP.slicesN 3) (U (Proc.devRef .tc main_arg12)))) (shapeCast (α := EReal) S64x64 (extractStridedSlice (α := EReal) S1x64x64 ![(3 : Fin 27).val, 0, 0] (U (Proc.devRef .tc main_arg9)) (Cert.ReferenceIdeal.BRP.slicesW 3)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 4 (Cert.ReferenceIdeal.BRP.slicesN 4) (U (Proc.devRef .tc main_arg12)))) (shapeCast (α := EReal) S64x64 (extractStridedSlice (α := EReal) S1x64x64 ![(4 : Fin 27).val, 0, 0] (U (Proc.devRef .tc main_arg9)) (Cert.ReferenceIdeal.BRP.slicesW 4)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 5 (Cert.ReferenceIdeal.BRP.slicesN 5) (U (Proc.devRef .tc main_arg12)))) (shapeCast (α := EReal) S64x64 (extractStridedSlice (α := EReal) S1x64x64 ![(5 : Fin 27).val, 0, 0] (U (Proc.devRef .tc main_arg9)) (Cert.ReferenceIdeal.BRP.slicesW 5)) shapeCasts_S1x64x64_S64x64)) := by
  after_results_simp <;> rfl
set_option maxHeartbeats 2000000 in
theorem r22_g (U : Valuation τ sig (Elt Ideal)) :
    (after (r22 (F := Ideal)) U (Proc.devRef .tc main_v1163) : S122811x64.Idx → EReal)
      = (Host.gather (α := EReal) Cert.ReferenceIdeal.BRP.GR (U (Proc.devRef .tc main_v1075)) (Cert.ReferenceIdeal.BRP.colIdx 6 (Cert.ReferenceIdeal.BRP.slicesN 6) (U (Proc.devRef .tc main_arg12)))) := by
  after_results_simp <;> rfl
theorem r22_xp (U : Valuation τ sig (Elt Ideal)) : after (r22 (F := Ideal)) U (Proc.devRef .tc main_v1075) = U (Proc.devRef .tc main_v1075) := by
  after_results_simp <;> rfl
set_option maxHeartbeats 2000000 in
theorem r23_acc (U : Valuation τ sig (Elt Ideal)) :
    (after (r23 (F := Ideal)) U (Proc.devRef .tc main_v1206) : S122811x64.Idx → EReal)
      = addf (addf (addf (addf (U (Proc.devRef .tc main_v1154)) (Host.dotGeneral (F := Ideal) (φ₁ := .f32) (φ₂ := .f32) Cert.ReferenceIdeal.BRP.DR none (U (Proc.devRef .tc main_v1163)) (shapeCast (α := EReal) S64x64 (extractStridedSlice (α := EReal) S1x64x64 ![(6 : Fin 27).val, 0, 0] (U (Proc.devRef .tc main_arg9)) (Cert.ReferenceIdeal.BRP.slicesW 6)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 7 (Cert.ReferenceIdeal.BRP.slicesN 7) (U (Proc.devRef .tc main_arg12)))) (shapeCast (α := EReal) S64x64 (extractStridedSlice (α := EReal) S1x64x64 ![(7 : Fin 27).val, 0, 0] (U (Proc.devRef .tc main_arg9)) (Cert.ReferenceIdeal.BRP.slicesW 7)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 8 (Cert.ReferenceIdeal.BRP.slicesN 8) (U (Proc.devRef .tc main_arg12)))) (shapeCast (α := EReal) S64x64 (extractStridedSlice (α := EReal) S1x64x64 ![(8 : Fin 27).val, 0, 0] (U (Proc.devRef .tc main_arg9)) (Cert.ReferenceIdeal.BRP.slicesW 8)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 9 (Cert.ReferenceIdeal.BRP.slicesN 9) (U (Proc.devRef .tc main_arg12)))) (shapeCast (α := EReal) S64x64 (extractStridedSlice (α := EReal) S1x64x64 ![(9 : Fin 27).val, 0, 0] (U (Proc.devRef .tc main_arg9)) (Cert.ReferenceIdeal.BRP.slicesW 9)) shapeCasts_S1x64x64_S64x64)) := by
  after_results_simp <;> rfl
set_option maxHeartbeats 2000000 in
theorem r23_g (U : Valuation τ sig (Elt Ideal)) :
    (after (r23 (F := Ideal)) U (Proc.devRef .tc main_v1215) : S122811x64.Idx → EReal)
      = (Host.gather (α := EReal) Cert.ReferenceIdeal.BRP.GR (U (Proc.devRef .tc main_v1075)) (Cert.ReferenceIdeal.BRP.colIdx 10 (Cert.ReferenceIdeal.BRP.slicesN 10) (U (Proc.devRef .tc main_arg12)))) := by
  after_results_simp <;> rfl
theorem r23_xp (U : Valuation τ sig (Elt Ideal)) : after (r23 (F := Ideal)) U (Proc.devRef .tc main_v1075) = U (Proc.devRef .tc main_v1075) := by
  after_results_simp <;> rfl
set_option maxHeartbeats 2000000 in
theorem r24_acc (U : Valuation τ sig (Elt Ideal)) :
    (after (r24 (F := Ideal)) U (Proc.devRef .tc main_v1258) : S122811x64.Idx → EReal)
      = addf (addf (addf (addf (U (Proc.devRef .tc main_v1206)) (Host.dotGeneral (F := Ideal) (φ₁ := .f32) (φ₂ := .f32) Cert.ReferenceIdeal.BRP.DR none (U (Proc.devRef .tc main_v1215)) (shapeCast (α := EReal) S64x64 (extractStridedSlice (α := EReal) S1x64x64 ![(10 : Fin 27).val, 0, 0] (U (Proc.devRef .tc main_arg9)) (Cert.ReferenceIdeal.BRP.slicesW 10)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 11 (Cert.ReferenceIdeal.BRP.slicesN 11) (U (Proc.devRef .tc main_arg12)))) (shapeCast (α := EReal) S64x64 (extractStridedSlice (α := EReal) S1x64x64 ![(11 : Fin 27).val, 0, 0] (U (Proc.devRef .tc main_arg9)) (Cert.ReferenceIdeal.BRP.slicesW 11)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 12 (Cert.ReferenceIdeal.BRP.slicesN 12) (U (Proc.devRef .tc main_arg12)))) (shapeCast (α := EReal) S64x64 (extractStridedSlice (α := EReal) S1x64x64 ![(12 : Fin 27).val, 0, 0] (U (Proc.devRef .tc main_arg9)) (Cert.ReferenceIdeal.BRP.slicesW 12)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 13 (Cert.ReferenceIdeal.BRP.slicesN 13) (U (Proc.devRef .tc main_arg12)))) (shapeCast (α := EReal) S64x64 (extractStridedSlice (α := EReal) S1x64x64 ![(13 : Fin 27).val, 0, 0] (U (Proc.devRef .tc main_arg9)) (Cert.ReferenceIdeal.BRP.slicesW 13)) shapeCasts_S1x64x64_S64x64)) := by
  after_results_simp <;> rfl
set_option maxHeartbeats 2000000 in
theorem r24_g (U : Valuation τ sig (Elt Ideal)) :
    (after (r24 (F := Ideal)) U (Proc.devRef .tc main_v1267) : S122811x64.Idx → EReal)
      = (Host.gather (α := EReal) Cert.ReferenceIdeal.BRP.GR (U (Proc.devRef .tc main_v1075)) (Cert.ReferenceIdeal.BRP.colIdx 14 (Cert.ReferenceIdeal.BRP.slicesN 14) (U (Proc.devRef .tc main_arg12)))) := by
  after_results_simp <;> rfl
theorem r24_xp (U : Valuation τ sig (Elt Ideal)) : after (r24 (F := Ideal)) U (Proc.devRef .tc main_v1075) = U (Proc.devRef .tc main_v1075) := by
  after_results_simp <;> rfl
set_option maxHeartbeats 2000000 in
theorem r25_acc (U : Valuation τ sig (Elt Ideal)) :
    (after (r25 (F := Ideal)) U (Proc.devRef .tc main_v1310) : S122811x64.Idx → EReal)
      = addf (addf (addf (addf (U (Proc.devRef .tc main_v1258)) (Host.dotGeneral (F := Ideal) (φ₁ := .f32) (φ₂ := .f32) Cert.ReferenceIdeal.BRP.DR none (U (Proc.devRef .tc main_v1267)) (shapeCast (α := EReal) S64x64 (extractStridedSlice (α := EReal) S1x64x64 ![(14 : Fin 27).val, 0, 0] (U (Proc.devRef .tc main_arg9)) (Cert.ReferenceIdeal.BRP.slicesW 14)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 15 (Cert.ReferenceIdeal.BRP.slicesN 15) (U (Proc.devRef .tc main_arg12)))) (shapeCast (α := EReal) S64x64 (extractStridedSlice (α := EReal) S1x64x64 ![(15 : Fin 27).val, 0, 0] (U (Proc.devRef .tc main_arg9)) (Cert.ReferenceIdeal.BRP.slicesW 15)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 16 (Cert.ReferenceIdeal.BRP.slicesN 16) (U (Proc.devRef .tc main_arg12)))) (shapeCast (α := EReal) S64x64 (extractStridedSlice (α := EReal) S1x64x64 ![(16 : Fin 27).val, 0, 0] (U (Proc.devRef .tc main_arg9)) (Cert.ReferenceIdeal.BRP.slicesW 16)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 17 (Cert.ReferenceIdeal.BRP.slicesN 17) (U (Proc.devRef .tc main_arg12)))) (shapeCast (α := EReal) S64x64 (extractStridedSlice (α := EReal) S1x64x64 ![(17 : Fin 27).val, 0, 0] (U (Proc.devRef .tc main_arg9)) (Cert.ReferenceIdeal.BRP.slicesW 17)) shapeCasts_S1x64x64_S64x64)) := by
  after_results_simp <;> rfl
set_option maxHeartbeats 2000000 in
theorem r25_g (U : Valuation τ sig (Elt Ideal)) :
    (after (r25 (F := Ideal)) U (Proc.devRef .tc main_v1319) : S122811x64.Idx → EReal)
      = (Host.gather (α := EReal) Cert.ReferenceIdeal.BRP.GR (U (Proc.devRef .tc main_v1075)) (Cert.ReferenceIdeal.BRP.colIdx 18 (Cert.ReferenceIdeal.BRP.slicesN 18) (U (Proc.devRef .tc main_arg12)))) := by
  after_results_simp <;> rfl
theorem r25_xp (U : Valuation τ sig (Elt Ideal)) : after (r25 (F := Ideal)) U (Proc.devRef .tc main_v1075) = U (Proc.devRef .tc main_v1075) := by
  after_results_simp <;> rfl
set_option maxHeartbeats 2000000 in
theorem r26_acc (U : Valuation τ sig (Elt Ideal)) :
    (after (r26 (F := Ideal)) U (Proc.devRef .tc main_v1362) : S122811x64.Idx → EReal)
      = addf (addf (addf (addf (U (Proc.devRef .tc main_v1310)) (Host.dotGeneral (F := Ideal) (φ₁ := .f32) (φ₂ := .f32) Cert.ReferenceIdeal.BRP.DR none (U (Proc.devRef .tc main_v1319)) (shapeCast (α := EReal) S64x64 (extractStridedSlice (α := EReal) S1x64x64 ![(18 : Fin 27).val, 0, 0] (U (Proc.devRef .tc main_arg9)) (Cert.ReferenceIdeal.BRP.slicesW 18)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 19 (Cert.ReferenceIdeal.BRP.slicesN 19) (U (Proc.devRef .tc main_arg12)))) (shapeCast (α := EReal) S64x64 (extractStridedSlice (α := EReal) S1x64x64 ![(19 : Fin 27).val, 0, 0] (U (Proc.devRef .tc main_arg9)) (Cert.ReferenceIdeal.BRP.slicesW 19)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 20 (Cert.ReferenceIdeal.BRP.slicesN 20) (U (Proc.devRef .tc main_arg12)))) (shapeCast (α := EReal) S64x64 (extractStridedSlice (α := EReal) S1x64x64 ![(20 : Fin 27).val, 0, 0] (U (Proc.devRef .tc main_arg9)) (Cert.ReferenceIdeal.BRP.slicesW 20)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 21 (Cert.ReferenceIdeal.BRP.slicesN 21) (U (Proc.devRef .tc main_arg12)))) (shapeCast (α := EReal) S64x64 (extractStridedSlice (α := EReal) S1x64x64 ![(21 : Fin 27).val, 0, 0] (U (Proc.devRef .tc main_arg9)) (Cert.ReferenceIdeal.BRP.slicesW 21)) shapeCasts_S1x64x64_S64x64)) := by
  after_results_simp <;> rfl
set_option maxHeartbeats 2000000 in
theorem r26_g (U : Valuation τ sig (Elt Ideal)) :
    (after (r26 (F := Ideal)) U (Proc.devRef .tc main_v1371) : S122811x64.Idx → EReal)
      = (Host.gather (α := EReal) Cert.ReferenceIdeal.BRP.GR (U (Proc.devRef .tc main_v1075)) (Cert.ReferenceIdeal.BRP.colIdx 22 (Cert.ReferenceIdeal.BRP.slicesN 22) (U (Proc.devRef .tc main_arg12)))) := by
  after_results_simp <;> rfl
theorem r26_xp (U : Valuation τ sig (Elt Ideal)) : after (r26 (F := Ideal)) U (Proc.devRef .tc main_v1075) = U (Proc.devRef .tc main_v1075) := by
  after_results_simp <;> rfl
set_option maxHeartbeats 2000000 in
theorem r27_acc (U : Valuation τ sig (Elt Ideal)) :
    (after (r27 (F := Ideal)) U (Proc.devRef .tc main_v1414) : S122811x64.Idx → EReal)
      = addf (addf (addf (addf (U (Proc.devRef .tc main_v1362)) (Host.dotGeneral (F := Ideal) (φ₁ := .f32) (φ₂ := .f32) Cert.ReferenceIdeal.BRP.DR none (U (Proc.devRef .tc main_v1371)) (shapeCast (α := EReal) S64x64 (extractStridedSlice (α := EReal) S1x64x64 ![(22 : Fin 27).val, 0, 0] (U (Proc.devRef .tc main_arg9)) (Cert.ReferenceIdeal.BRP.slicesW 22)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 23 (Cert.ReferenceIdeal.BRP.slicesN 23) (U (Proc.devRef .tc main_arg12)))) (shapeCast (α := EReal) S64x64 (extractStridedSlice (α := EReal) S1x64x64 ![(23 : Fin 27).val, 0, 0] (U (Proc.devRef .tc main_arg9)) (Cert.ReferenceIdeal.BRP.slicesW 23)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 24 (Cert.ReferenceIdeal.BRP.slicesN 24) (U (Proc.devRef .tc main_arg12)))) (shapeCast (α := EReal) S64x64 (extractStridedSlice (α := EReal) S1x64x64 ![(24 : Fin 27).val, 0, 0] (U (Proc.devRef .tc main_arg9)) (Cert.ReferenceIdeal.BRP.slicesW 24)) shapeCasts_S1x64x64_S64x64))) (Host.dotGeneral (F := Ideal) (φ₁ := .f32) (φ₂ := .f32) Cert.ReferenceIdeal.BRP.DR none (Host.gather (α := EReal) Cert.ReferenceIdeal.BRP.GR (U (Proc.devRef .tc main_v1075)) (Cert.ReferenceIdeal.BRP.colIdx 25 (Cert.ReferenceIdeal.BRP.slicesN 25) (U (Proc.devRef .tc main_arg12)))) (shapeCast (α := EReal) S64x64 (extractStridedSlice (α := EReal) S1x64x64 ![(25 : Fin 27).val, 0, 0] (U (Proc.devRef .tc main_arg9)) (Cert.ReferenceIdeal.BRP.slicesW 25)) shapeCasts_S1x64x64_S64x64)) := by
  after_results_simp <;> rfl
set_option maxHeartbeats 2000000 in
theorem r27_g (U : Valuation τ sig (Elt Ideal)) :
    (after (r27 (F := Ideal)) U (Proc.devRef .tc main_v1423) : S122811x64.Idx → EReal)
      = (Host.gather (α := EReal) Cert.ReferenceIdeal.BRP.GR (U (Proc.devRef .tc main_v1075)) (Cert.ReferenceIdeal.BRP.colIdx 26 (Cert.ReferenceIdeal.BRP.slicesN 26) (U (Proc.devRef .tc main_arg12)))) := by
  after_results_simp <;> rfl
theorem r27_xp (U : Valuation τ sig (Elt Ideal)) : after (r27 (F := Ideal)) U (Proc.devRef .tc main_v1075) = U (Proc.devRef .tc main_v1075) := by
  after_results_simp <;> rfl

theorem r28_acc (U : Valuation τ sig (Elt Ideal)) :
    (after (r28 (F := Ideal)) U (Proc.devRef .tc main_v1427) : S122811x64.Idx → EReal)
      = addf (U (Proc.devRef .tc main_v1414)) (Host.dotGeneral (F := Ideal) (φ₁ := .f32) (φ₂ := .f32) Cert.ReferenceIdeal.BRP.DR none (U (Proc.devRef .tc main_v1423)) (shapeCast (α := EReal) S64x64 (extractStridedSlice (α := EReal) S1x64x64 ![(26 : Fin 27).val, 0, 0] (U (Proc.devRef .tc main_arg9)) (Cert.ReferenceIdeal.BRP.slicesW 26)) shapeCasts_S1x64x64_S64x64)) := by
  after_results_simp <;> rfl

end Cert.ReferenceIdeal.Run

end
-- ==== Proof.RefKeepBase.lean ====
/-
  Buffers a line of host operations leaves alone.

  A buffer that no operation of a line writes holds after the line what it held before. For a list of buffers this is
  checked operation by operation: the one buffer the operation writes is none of them.
-/
import proofs.«141681_j16750372455151_2_alg».proof.Proof.Gen.ReferenceIdeal
import Idealize.ShloMosaic.Lib.StableHlo.Run
import Idealize.ShloMosaic.PureOps.Ideal

noncomputable section

namespace Cert.ReferenceIdeal.Run

open Cert.ReferenceIdeal Cert.ReferenceIdeal.Gen Idealize.ShloMosaic Idealize.ShloMosaic.TcCoe Idealize.SL.Sem Idealize.ShloMosaic.StableHlo

/-- The thirteen argument buffers. -/
abbrev argRefs : List (Ref sig .tc) :=
  [main_arg0, main_arg1, main_arg2, main_arg3, main_arg4, main_arg5, main_arg6, main_arg7, main_arg8, main_arg9,
    main_arg10, main_arg11, main_arg12]

/-- Two lines one after the other: the second runs from what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- If no operation of the line writes any buffer of the list, every buffer of the list keeps its contents. -/
theorem after_keeps {Val : EltTy → Type} {ops : List (HloOp τ sig Val)} {bs : List (Ref sig .tc)}
    (h : ops.Forall fun op => ∀ b ∈ bs, (Proc.devRef .tc b : DevRef τ sig) ∉ op.writes) (V : Valuation τ sig Val) :
    ∀ b ∈ bs, after ops V (Proc.devRef .tc b) = V (Proc.devRef .tc b) :=
  fun b hb => after_of_forall_not_mem ops V fun op hop => (List.forall_iff_forall_mem.mp h op hop) b hb

/-- The argument buffers are the first thirteen of the device's buffers. -/
theorem arg_idx_lt : ∀ b ∈ argRefs, b.idx.val < 13 := by
  intro b hb
  simp only [argRefs, List.mem_cons, List.mem_singleton, List.not_mem_nil, or_false] at hb
  rcases hb with rfl | rfl | rfl | rfl | rfl | rfl | rfl | rfl | rfl | rfl | rfl | rfl | rfl <;> decide

/-- A buffer among the first thirteen is none of the later ones. -/
theorem ne_of_idx_ge {b y : Ref sig .tc} (hb : b.idx.val < 13) (hy : 13 ≤ y.idx.val) :
    (Proc.devRef .tc b : DevRef τ sig) ≠ Proc.devRef .tc y :=
  devRef_ne_of_ne (fun e => by subst e; omega)

end Cert.ReferenceIdeal.Run

end
-- ==== Proof.RefKeepA.lean ====
/-
  The argument buffers through the reference's run: no operation of these windows writes one of the thirteen
  arguments (each writes a buffer that comes after them), so each window leaves them as it found them.
-/
import proofs.«141681_j16750372455151_2_alg».proof.Proof.RefKeepBase
import proofs.«141681_j16750372455151_2_alg».proof.Proof.RefRunA

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

theorem keeps_r0 (V : Valuation τ sig (Elt Ideal)) :
    ∀ b ∈ argRefs, after (r0 (F := Ideal)) V (Proc.devRef .tc b) = V (Proc.devRef .tc b) :=
  after_keeps (by
    simp only [r0, List.Forall, nullary_writes, unary_writes, binary_writes, ternary_writes, quaternary_writes, reshape_writes, Finset.mem_singleton]
    repeat' apply And.intro
    all_goals exact fun b hb => ne_of_idx_ge (arg_idx_lt b hb) (by decide)) V

theorem keeps_r1 (V : Valuation τ sig (Elt Ideal)) :
    ∀ b ∈ argRefs, after (r1 (F := Ideal)) V (Proc.devRef .tc b) = V (Proc.devRef .tc b) :=
  after_keeps (by
    simp only [r1, List.Forall, nullary_writes, unary_writes, binary_writes, ternary_writes, quaternary_writes, reshape_writes, Finset.mem_singleton]
    repeat' apply And.intro
    all_goals exact fun b hb => ne_of_idx_ge (arg_idx_lt b hb) (by decide)) V

theorem keeps_r2a (V : Valuation τ sig (Elt Ideal)) :
    ∀ b ∈ argRefs, after (r2a (F := Ideal)) V (Proc.devRef .tc b) = V (Proc.devRef .tc b) :=
  after_keeps (by
    simp only [r2a, List.Forall, nullary_writes, unary_writes, binary_writes, ternary_writes, quaternary_writes, reshape_writes, Finset.mem_singleton]
    repeat' apply And.intro
    all_goals exact fun b hb => ne_of_idx_ge (arg_idx_lt b hb) (by decide)) V

theorem keeps_r2b (V : Valuation τ sig (Elt Ideal)) :
    ∀ b ∈ argRefs, after (r2b (F := Ideal)) V (Proc.devRef .tc b) = V (Proc.devRef .tc b) :=
  after_keeps (by
    simp only [r2b, List.Forall, nullary_writes, unary_writes, binary_writes, ternary_writes, quaternary_writes, reshape_writes, Finset.mem_singleton]
    repeat' apply And.intro
    all_goals exact fun b hb => ne_of_idx_ge (arg_idx_lt b hb) (by decide)) V

/-! ## Every operation touches TensorCore buffers only, and allocates none -/

theorem sub_r0 : (r0 (F := Ideal)).Forall fun op => op.bufs ⊆ tcRefs τ sig :=
  ⟨nullary_bufs_sub .., unary_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩
theorem fresh_r0 : ∀ op ∈ (r0 (F := Ideal)), op.fresh = ∅ := by
  intro _ h
  repeat (cases h with | head => rfl | tail _ h => ?_)
  exact nomatch h

theorem sub_r1 : (r1 (F := Ideal)).Forall fun op => op.bufs ⊆ tcRefs τ sig :=
  ⟨binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩
theorem fresh_r1 : ∀ op ∈ (r1 (F := Ideal)), op.fresh = ∅ := by
  intro _ h
  repeat (cases h with | head => rfl | tail _ h => ?_)
  exact nomatch h

theorem sub_r2a : (r2a (F := Ideal)).Forall fun op => op.bufs ⊆ tcRefs τ sig :=
  ⟨binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
theorem fresh_r2a : ∀ op ∈ (r2a (F := Ideal)), op.fresh = ∅ := by
  intro _ h
  repeat (cases h with | head => rfl | tail _ h => ?_)
  exact nomatch h

theorem sub_r2b : (r2b (F := Ideal)).Forall fun op => op.bufs ⊆ tcRefs τ sig :=
  ⟨nullary_bufs_sub .., unary_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub ..⟩
theorem fresh_r2b : ∀ op ∈ (r2b (F := Ideal)), op.fresh = ∅ := by
  intro _ h
  repeat (cases h with | head => rfl | tail _ h => ?_)
  exact nomatch h

end Cert.ReferenceIdeal.Run

end
-- ==== Proof.RefKeepB.lean ====
/-
  The argument buffers through the reference's run: no operation of these windows writes one of the thirteen
  arguments (each writes a buffer that comes after them), so each window leaves them as it found them.
-/
import proofs.«141681_j16750372455151_2_alg».proof.Proof.RefKeepBase
import proofs.«141681_j16750372455151_2_alg».proof.Proof.RefRunB

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

theorem keeps_r3 (V : Valuation τ sig (Elt Ideal)) :
    ∀ b ∈ argRefs, after (r3 (F := Ideal)) V (Proc.devRef .tc b) = V (Proc.devRef .tc b) :=
  after_keeps (by
    simp only [r3, List.Forall, nullary_writes, unary_writes, binary_writes, ternary_writes, quaternary_writes, reshape_writes, Finset.mem_singleton]
    repeat' apply And.intro
    all_goals exact fun b hb => ne_of_idx_ge (arg_idx_lt b hb) (by decide)) V

theorem keeps_r4 (V : Valuation τ sig (Elt Ideal)) :
    ∀ b ∈ argRefs, after (r4 (F := Ideal)) V (Proc.devRef .tc b) = V (Proc.devRef .tc b) :=
  after_keeps (by
    simp only [r4, List.Forall, nullary_writes, unary_writes, binary_writes, ternary_writes, quaternary_writes, reshape_writes, Finset.mem_singleton]
    repeat' apply And.intro
    all_goals exact fun b hb => ne_of_idx_ge (arg_idx_lt b hb) (by decide)) V

theorem keeps_r5a (V : Valuation τ sig (Elt Ideal)) :
    ∀ b ∈ argRefs, after (r5a (F := Ideal)) V (Proc.devRef .tc b) = V (Proc.devRef .tc b) :=
  after_keeps (by
    simp only [r5a, List.Forall, nullary_writes, unary_writes, binary_writes, ternary_writes, quaternary_writes, reshape_writes, Finset.mem_singleton]
    repeat' apply And.intro
    all_goals exact fun b hb => ne_of_idx_ge (arg_idx_lt b hb) (by decide)) V

theorem keeps_r5b (V : Valuation τ sig (Elt Ideal)) :
    ∀ b ∈ argRefs, after (r5b (F := Ideal)) V (Proc.devRef .tc b) = V (Proc.devRef .tc b) :=
  after_keeps (by
    simp only [r5b, List.Forall, nullary_writes, unary_writes, binary_writes, ternary_writes, quaternary_writes, reshape_writes, Finset.mem_singleton]
    repeat' apply And.intro
    all_goals exact fun b hb => ne_of_idx_ge (arg_idx_lt b hb) (by decide)) V

theorem keeps_r6 (V : Valuation τ sig (Elt Ideal)) :
    ∀ b ∈ argRefs, after (r6 (F := Ideal)) V (Proc.devRef .tc b) = V (Proc.devRef .tc b) :=
  after_keeps (by
    simp only [r6, List.Forall, nullary_writes, unary_writes, binary_writes, ternary_writes, quaternary_writes, reshape_writes, Finset.mem_singleton]
    repeat' apply And.intro
    all_goals exact fun b hb => ne_of_idx_ge (arg_idx_lt b hb) (by decide)) V

theorem keeps_r7a (V : Valuation τ sig (Elt Ideal)) :
    ∀ b ∈ argRefs, after (r7a (F := Ideal)) V (Proc.devRef .tc b) = V (Proc.devRef .tc b) :=
  after_keeps (by
    simp only [r7a, List.Forall, nullary_writes, unary_writes, binary_writes, ternary_writes, quaternary_writes, reshape_writes, Finset.mem_singleton]
    repeat' apply And.intro
    all_goals exact fun b hb => ne_of_idx_ge (arg_idx_lt b hb) (by decide)) V

/-! ## A longer-lived intermediate through the windows that do not write it -/

theorem keep_r5b_v267 (V : Valuation τ sig (Elt Ideal)) :
    after (r5b (F := Ideal)) V (Proc.devRef .tc main_v267) = V (Proc.devRef .tc main_v267) :=
  after_of_forall_not_mem (b := Proc.devRef .tc main_v267) _ _ (List.forall_iff_forall_mem.mp (by
    simp only [r5b, List.Forall, nullary_writes, unary_writes, binary_writes, ternary_writes, quaternary_writes, reshape_writes, Finset.mem_singleton]
    repeat' apply And.intro
    all_goals exact devRef_ne_of_ne (by decide)))

theorem keep_r6_v267 (V : Valuation τ sig (Elt Ideal)) :
    after (r6 (F := Ideal)) V (Proc.devRef .tc main_v267) = V (Proc.devRef .tc main_v267) :=
  after_of_forall_not_mem (b := Proc.devRef .tc main_v267) _ _ (List.forall_iff_forall_mem.mp (by
    simp only [r6, List.Forall, nullary_writes, unary_writes, binary_writes, ternary_writes, quaternary_writes, reshape_writes, Finset.mem_singleton]
    repeat' apply And.intro
    all_goals exact devRef_ne_of_ne (by decide)))

theorem keep_r7a_v267 (V : Valuation τ sig (Elt Ideal)) :
    after (r7a (F := Ideal)) V (Proc.devRef .tc main_v267) = V (Proc.devRef .tc main_v267) :=
  after_of_forall_not_mem (b := Proc.devRef .tc main_v267) _ _ (List.forall_iff_forall_mem.mp (by
    simp only [r7a, List.Forall, nullary_writes, unary_writes, binary_writes, ternary_writes, quaternary_writes, reshape_writes, Finset.mem_singleton]
    repeat' apply And.intro
    all_goals exact devRef_ne_of_ne (by decide)))

/-! ## Every operation touches TensorCore buffers only, and allocates none -/

theorem sub_r3 : (r3 (F := Ideal)).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub ..⟩
theorem fresh_r3 : ∀ op ∈ (r3 (F := Ideal)), op.fresh = ∅ := by
  intro _ h
  repeat (cases h with | head => rfl | tail _ h => ?_)
  exact nomatch h

theorem sub_r4 : (r4 (F := Ideal)).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub ..⟩
theorem fresh_r4 : ∀ op ∈ (r4 (F := Ideal)), op.fresh = ∅ := by
  intro _ h
  repeat (cases h with | head => rfl | tail _ h => ?_)
  exact nomatch h

theorem sub_r5a : (r5a (F := Ideal)).Forall fun op => op.bufs ⊆ tcRefs τ sig :=
  ⟨nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
theorem fresh_r5a : ∀ op ∈ (r5a (F := Ideal)), op.fresh = ∅ := by
  intro _ h
  repeat (cases h with | head => rfl | tail _ h => ?_)
  exact nomatch h

theorem sub_r5b : (r5b (F := Ideal)).Forall fun op => op.bufs ⊆ tcRefs τ sig :=
  ⟨nullary_bufs_sub .., unary_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub ..⟩
theorem fresh_r5b : ∀ op ∈ (r5b (F := Ideal)), op.fresh = ∅ := by
  intro _ h
  repeat (cases h with | head => rfl | tail _ h => ?_)
  exact nomatch h

theorem sub_r6 : (r6 (F := Ideal)).Forall fun op => op.bufs ⊆ tcRefs τ sig :=
  ⟨binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub ..⟩
theorem fresh_r6 : ∀ op ∈ (r6 (F := Ideal)), op.fresh = ∅ := by
  intro _ h
  repeat (cases h with | head => rfl | tail _ h => ?_)
  exact nomatch h

theorem sub_r7a : (r7a (F := Ideal)).Forall fun op => op.bufs ⊆ tcRefs τ sig :=
  ⟨binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
theorem fresh_r7a : ∀ op ∈ (r7a (F := Ideal)), op.fresh = ∅ := by
  intro _ h
  repeat (cases h with | head => rfl | tail _ h => ?_)
  exact nomatch h

end Cert.ReferenceIdeal.Run

end
-- ==== Proof.RefKeepC.lean ====
/-
  The argument buffers through the reference's run: no operation of these windows writes one of the thirteen
  arguments (each writes a buffer that comes after them), so each window leaves them as it found them.
-/
import proofs.«141681_j16750372455151_2_alg».proof.Proof.RefKeepBase
import proofs.«141681_j16750372455151_2_alg».proof.Proof.RefRunC

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

theorem keeps_r7b (V : Valuation τ sig (Elt Ideal)) :
    ∀ b ∈ argRefs, after (r7b (F := Ideal)) V (Proc.devRef .tc b) = V (Proc.devRef .tc b) :=
  after_keeps (by
    simp only [r7b, List.Forall, nullary_writes, unary_writes, binary_writes, ternary_writes, quaternary_writes, reshape_writes, Finset.mem_singleton]
    repeat' apply And.intro
    all_goals exact fun b hb => ne_of_idx_ge (arg_idx_lt b hb) (by decide)) V

theorem keeps_r8 (V : Valuation τ sig (Elt Ideal)) :
    ∀ b ∈ argRefs, after (r8 (F := Ideal)) V (Proc.devRef .tc b) = V (Proc.devRef .tc b) :=
  after_keeps (by
    simp only [r8, List.Forall, nullary_writes, unary_writes, binary_writes, ternary_writes, quaternary_writes, reshape_writes, Finset.mem_singleton]
    repeat' apply And.intro
    all_goals exact fun b hb => ne_of_idx_ge (arg_idx_lt b hb) (by decide)) V

theorem keeps_r9 (V : Valuation τ sig (Elt Ideal)) :
    ∀ b ∈ argRefs, after (r9 (F := Ideal)) V (Proc.devRef .tc b) = V (Proc.devRef .tc b) :=
  after_keeps (by
    simp only [r9, List.Forall, nullary_writes, unary_writes, binary_writes, ternary_writes, quaternary_writes, reshape_writes, Finset.mem_singleton]
    repeat' apply And.intro
    all_goals exact fun b hb => ne_of_idx_ge (arg_idx_lt b hb) (by decide)) V

theorem keeps_r10a (V : Valuation τ sig (Elt Ideal)) :
    ∀ b ∈ argRefs, after (r10a (F := Ideal)) V (Proc.devRef .tc b) = V (Proc.devRef .tc b) :=
  after_keeps (by
    simp only [r10a, List.Forall, nullary_writes, unary_writes, binary_writes, ternary_writes, quaternary_writes, reshape_writes, Finset.mem_singleton]
    repeat' apply And.intro
    all_goals exact fun b hb => ne_of_idx_ge (arg_idx_lt b hb) (by decide)) V

theorem keeps_r10b (V : Valuation τ sig (Elt Ideal)) :
    ∀ b ∈ argRefs, after (r10b (F := Ideal)) V (Proc.devRef .tc b) = V (Proc.devRef .tc b) :=
  after_keeps (by
    simp only [r10b, List.Forall, nullary_writes, unary_writes, binary_writes, ternary_writes, quaternary_writes, reshape_writes, Finset.mem_singleton]
    repeat' apply And.intro
    all_goals exact fun b hb => ne_of_idx_ge (arg_idx_lt b hb) (by decide)) V

theorem keeps_r10c (V : Valuation τ sig (Elt Ideal)) :
    ∀ b ∈ argRefs, after (r10c (F := Ideal)) V (Proc.devRef .tc b) = V (Proc.devRef .tc b) :=
  after_keeps (by
    simp only [r10c, List.Forall, nullary_writes, unary_writes, binary_writes, ternary_writes, quaternary_writes, reshape_writes, Finset.mem_singleton]
    repeat' apply And.intro
    all_goals exact fun b hb => ne_of_idx_ge (arg_idx_lt b hb) (by decide)) V

/-! ## A longer-lived intermediate through the windows that do not write it -/

theorem keep_r7b_v267 (V : Valuation τ sig (Elt Ideal)) :
    after (r7b (F := Ideal)) V (Proc.devRef .tc main_v267) = V (Proc.devRef .tc main_v267) :=
  after_of_forall_not_mem (b := Proc.devRef .tc main_v267) _ _ (List.forall_iff_forall_mem.mp (by
    simp only [r7b, List.Forall, nullary_writes, unary_writes, binary_writes, ternary_writes, quaternary_writes, reshape_writes, Finset.mem_singleton]
    repeat' apply And.intro
    all_goals exact devRef_ne_of_ne (by decide)))

theorem keep_r8_v267 (V : Valuation τ sig (Elt Ideal)) :
    after (r8 (F := Ideal)) V (Proc.devRef .tc main_v267) = V (Proc.devRef .tc main_v267) :=
  after_of_forall_not_mem (b := Proc.devRef .tc main_v267) _ _ (List.forall_iff_forall_mem.mp (by
    simp only [r8, List.Forall, nullary_writes, unary_writes, binary_writes, ternary_writes, quaternary_writes, reshape_writes, Finset.mem_singleton]
    repeat' apply And.intro
    all_goals exact devRef_ne_of_ne (by decide)))

theorem keep_r9_v267 (V : Valuation τ sig (Elt Ideal)) :
    after (r9 (F := Ideal)) V (Proc.devRef .tc main_v267) = V (Proc.devRef .tc main_v267) :=
  after_of_forall_not_mem (b := Proc.devRef .tc main_v267) _ _ (List.forall_iff_forall_mem.mp (by
    simp only [r9, List.Forall, nullary_writes, unary_writes, binary_writes, ternary_writes, quaternary_writes, reshape_writes, Finset.mem_singleton]
    repeat' apply And.intro
    all_goals exact devRef_ne_of_ne (by decide)))

theorem keep_r10a_v267 (V : Valuation τ sig (Elt Ideal)) :
    after (r10a (F := Ideal)) V (Proc.devRef .tc main_v267) = V (Proc.devRef .tc main_v267) :=
  after_of_forall_not_mem (b := Proc.devRef .tc main_v267) _ _ (List.forall_iff_forall_mem.mp (by
    simp only [r10a, List.Forall, nullary_writes, unary_writes, binary_writes, ternary_writes, quaternary_writes, reshape_writes, Finset.mem_singleton]
    repeat' apply And.intro
    all_goals exact devRef_ne_of_ne (by decide)))

theorem keep_r10c_v536 (V : Valuation τ sig (Elt Ideal)) :
    after (r10c (F := Ideal)) V (Proc.devRef .tc main_v536) = V (Proc.devRef .tc main_v536) :=
  after_of_forall_not_mem (b := Proc.devRef .tc main_v536) _ _ (List.forall_iff_forall_mem.mp (by
    simp only [r10c, List.Forall, nullary_writes, unary_writes, binary_writes, ternary_writes, quaternary_writes, reshape_writes, Finset.mem_singleton]
    repeat' apply And.intro
    all_goals exact devRef_ne_of_ne (by decide)))

/-! ## Every operation touches TensorCore buffers only, and allocates none -/

theorem sub_r7b : (r7b (F := Ideal)).Forall fun op => op.bufs ⊆ tcRefs τ sig :=
  ⟨nullary_bufs_sub .., unary_bufs_sub .., binary_bufs_sub ..⟩
theorem fresh_r7b : ∀ op ∈ (r7b (F := Ideal)), op.fresh = ∅ := by
  intro _ h
  repeat (cases h with | head => rfl | tail _ h => ?_)
  exact nomatch h

theorem sub_r8 : (r8 (F := Ideal)).Forall fun op => op.bufs ⊆ tcRefs τ sig :=
  ⟨nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩
theorem fresh_r8 : ∀ op ∈ (r8 (F := Ideal)), op.fresh = ∅ := by
  intro _ h
  repeat (cases h with | head => rfl | tail _ h => ?_)
  exact nomatch h

theorem sub_r9 : (r9 (F := Ideal)).Forall fun op => op.bufs ⊆ tcRefs τ sig :=
  ⟨binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩
theorem fresh_r9 : ∀ op ∈ (r9 (F := Ideal)), op.fresh = ∅ := by
  intro _ h
  repeat (cases h with | head => rfl | tail _ h => ?_)
  exact nomatch h

theorem sub_r10a : (r10a (F := Ideal)).Forall fun op => op.bufs ⊆ tcRefs τ sig :=
  ⟨binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
theorem fresh_r10a : ∀ op ∈ (r10a (F := Ideal)), op.fresh = ∅ := by
  intro _ h
  repeat (cases h with | head => rfl | tail _ h => ?_)
  exact nomatch h

theorem sub_r10b : (r10b (F := Ideal)).Forall fun op => op.bufs ⊆ tcRefs τ sig :=
  binary_bufs_sub ..
theorem fresh_r10b : ∀ op ∈ (r10b (F := Ideal)), op.fresh = ∅ := by
  intro _ h
  repeat (cases h with | head => rfl | tail _ h => ?_)
  exact nomatch h

theorem sub_r10c : (r10c (F := Ideal)).Forall fun op => op.bufs ⊆ tcRefs τ sig :=
  ⟨nullary_bufs_sub .., unary_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub ..⟩
theorem fresh_r10c : ∀ op ∈ (r10c (F := Ideal)), op.fresh = ∅ := by
  intro _ h
  repeat (cases h with | head => rfl | tail _ h => ?_)
  exact nomatch h

end Cert.ReferenceIdeal.Run

end
-- ==== Proof.RefKeepD.lean ====
/-
  The argument buffers through the reference's run: no operation of these windows writes one of the thirteen
  arguments (each writes a buffer that comes after them), so each window leaves them as it found them.
-/
import proofs.«141681_j16750372455151_2_alg».proof.Proof.RefKeepBase
import proofs.«141681_j16750372455151_2_alg».proof.Proof.RefRunD

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

theorem keeps_r11 (V : Valuation τ sig (Elt Ideal)) :
    ∀ b ∈ argRefs, after (r11 (F := Ideal)) V (Proc.devRef .tc b) = V (Proc.devRef .tc b) :=
  after_keeps (by
    simp only [r11, List.Forall, nullary_writes, unary_writes, binary_writes, ternary_writes, quaternary_writes, reshape_writes, Finset.mem_singleton]
    repeat' apply And.intro
    all_goals exact fun b hb => ne_of_idx_ge (arg_idx_lt b hb) (by decide)) V

theorem keeps_r12 (V : Valuation τ sig (Elt Ideal)) :
    ∀ b ∈ argRefs, after (r12 (F := Ideal)) V (Proc.devRef .tc b) = V (Proc.devRef .tc b) :=
  after_keeps (by
    simp only [r12, List.Forall, nullary_writes, unary_writes, binary_writes, ternary_writes, quaternary_writes, reshape_writes, Finset.mem_singleton]
    repeat' apply And.intro
    all_goals exact fun b hb => ne_of_idx_ge (arg_idx_lt b hb) (by decide)) V

theorem keeps_r13a (V : Valuation τ sig (Elt Ideal)) :
    ∀ b ∈ argRefs, after (r13a (F := Ideal)) V (Proc.devRef .tc b) = V (Proc.devRef .tc b) :=
  after_keeps (by
    simp only [r13a, List.Forall, nullary_writes, unary_writes, binary_writes, ternary_writes, quaternary_writes, reshape_writes, Finset.mem_singleton]
    repeat' apply And.intro
    all_goals exact fun b hb => ne_of_idx_ge (arg_idx_lt b hb) (by decide)) V

theorem keeps_r13b (V : Valuation τ sig (Elt Ideal)) :
    ∀ b ∈ argRefs, after (r13b (F := Ideal)) V (Proc.devRef .tc b) = V (Proc.devRef .tc b) :=
  after_keeps (by
    simp only [r13b, List.Forall, nullary_writes, unary_writes, binary_writes, ternary_writes, quaternary_writes, reshape_writes, Finset.mem_singleton]
    repeat' apply And.intro
    all_goals exact fun b hb => ne_of_idx_ge (arg_idx_lt b hb) (by decide)) V

theorem keeps_r14 (V : Valuation τ sig (Elt Ideal)) :
    ∀ b ∈ argRefs, after (r14 (F := Ideal)) V (Proc.devRef .tc b) = V (Proc.devRef .tc b) :=
  after_keeps (by
    simp only [r14, List.Forall, nullary_writes, unary_writes, binary_writes, ternary_writes, quaternary_writes, reshape_writes, Finset.mem_singleton]
    repeat' apply And.intro
    all_goals exact fun b hb => ne_of_idx_ge (arg_idx_lt b hb) (by decide)) V

theorem keeps_r15a (V : Valuation τ sig (Elt Ideal)) :
    ∀ b ∈ argRefs, after (r15a (F := Ideal)) V (Proc.devRef .tc b) = V (Proc.devRef .tc b) :=
  after_keeps (by
    simp only [r15a, List.Forall, nullary_writes, unary_writes, binary_writes, ternary_writes, quaternary_writes, reshape_writes, Finset.mem_singleton]
    repeat' apply And.intro
    all_goals exact fun b hb => ne_of_idx_ge (arg_idx_lt b hb) (by decide)) V

/-! ## A longer-lived intermediate through the windows that do not write it -/

theorem keep_r11_v536 (V : Valuation τ sig (Elt Ideal)) :
    after (r11 (F := Ideal)) V (Proc.devRef .tc main_v536) = V (Proc.devRef .tc main_v536) :=
  after_of_forall_not_mem (b := Proc.devRef .tc main_v536) _ _ (List.forall_iff_forall_mem.mp (by
    simp only [r11, List.Forall, nullary_writes, unary_writes, binary_writes, ternary_writes, quaternary_writes, reshape_writes, Finset.mem_singleton]
    repeat' apply And.intro
    all_goals exact devRef_ne_of_ne (by decide)))

theorem keep_r12_v536 (V : Valuation τ sig (Elt Ideal)) :
    after (r12 (F := Ideal)) V (Proc.devRef .tc main_v536) = V (Proc.devRef .tc main_v536) :=
  after_of_forall_not_mem (b := Proc.devRef .tc main_v536) _ _ (List.forall_iff_forall_mem.mp (by
    simp only [r12, List.Forall, nullary_writes, unary_writes, binary_writes, ternary_writes, quaternary_writes, reshape_writes, Finset.mem_singleton]
    repeat' apply And.intro
    all_goals exact devRef_ne_of_ne (by decide)))

theorem keep_r13a_v536 (V : Valuation τ sig (Elt Ideal)) :
    after (r13a (F := Ideal)) V (Proc.devRef .tc main_v536) = V (Proc.devRef .tc main_v536) :=
  after_of_forall_not_mem (b := Proc.devRef .tc main_v536) _ _ (List.forall_iff_forall_mem.mp (by
    simp only [r13a, List.Forall, nullary_writes, unary_writes, binary_writes, ternary_writes, quaternary_writes, reshape_writes, Finset.mem_singleton]
    repeat' apply And.intro
    all_goals exact devRef_ne_of_ne (by decide)))

theorem keep_r13b_v536 (V : Valuation τ sig (Elt Ideal)) :
    after (r13b (F := Ideal)) V (Proc.devRef .tc main_v536) = V (Proc.devRef .tc main_v536) :=
  after_of_forall_not_mem (b := Proc.devRef .tc main_v536) _ _ (List.forall_iff_forall_mem.mp (by
    simp only [r13b, List.Forall, nullary_writes, unary_writes, binary_writes, ternary_writes, quaternary_writes, reshape_writes, Finset.mem_singleton]
    repeat' apply And.intro
    all_goals exact devRef_ne_of_ne (by decide)))

theorem keep_r14_v536 (V : Valuation τ sig (Elt Ideal)) :
    after (r14 (F := Ideal)) V (Proc.devRef .tc main_v536) = V (Proc.devRef .tc main_v536) :=
  after_of_forall_not_mem (b := Proc.devRef .tc main_v536) _ _ (List.forall_iff_forall_mem.mp (by
    simp only [r14, List.Forall, nullary_writes, unary_writes, binary_writes, ternary_writes, quaternary_writes, reshape_writes, Finset.mem_singleton]
    repeat' apply And.intro
    all_goals exact devRef_ne_of_ne (by decide)))

theorem keep_r15a_v536 (V : Valuation τ sig (Elt Ideal)) :
    after (r15a (F := Ideal)) V (Proc.devRef .tc main_v536) = V (Proc.devRef .tc main_v536) :=
  after_of_forall_not_mem (b := Proc.devRef .tc main_v536) _ _ (List.forall_iff_forall_mem.mp (by
    simp only [r15a, List.Forall, nullary_writes, unary_writes, binary_writes, ternary_writes, quaternary_writes, reshape_writes, Finset.mem_singleton]
    repeat' apply And.intro
    all_goals exact devRef_ne_of_ne (by decide)))

/-! ## Every operation touches TensorCore buffers only, and allocates none -/

theorem sub_r11 : (r11 (F := Ideal)).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub ..⟩
theorem fresh_r11 : ∀ op ∈ (r11 (F := Ideal)), op.fresh = ∅ := by
  intro _ h
  repeat (cases h with | head => rfl | tail _ h => ?_)
  exact nomatch h

theorem sub_r12 : (r12 (F := Ideal)).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub ..⟩
theorem fresh_r12 : ∀ op ∈ (r12 (F := Ideal)), op.fresh = ∅ := by
  intro _ h
  repeat (cases h with | head => rfl | tail _ h => ?_)
  exact nomatch h

theorem sub_r13a : (r13a (F := Ideal)).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
theorem fresh_r13a : ∀ op ∈ (r13a (F := Ideal)), op.fresh = ∅ := by
  intro _ h
  repeat (cases h with | head => rfl | tail _ h => ?_)
  exact nomatch h

theorem sub_r13b : (r13b (F := Ideal)).Forall fun op => op.bufs ⊆ tcRefs τ sig :=
  ⟨nullary_bufs_sub .., unary_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub ..⟩
theorem fresh_r13b : ∀ op ∈ (r13b (F := Ideal)), op.fresh = ∅ := by
  intro _ h
  repeat (cases h with | head => rfl | tail _ h => ?_)
  exact nomatch h

theorem sub_r14 : (r14 (F := Ideal)).Forall fun op => op.bufs ⊆ tcRefs τ sig :=
  ⟨unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub ..⟩
theorem fresh_r14 : ∀ op ∈ (r14 (F := Ideal)), op.fresh = ∅ := by
  intro _ h
  repeat (cases h with | head => rfl | tail _ h => ?_)
  exact nomatch h

theorem sub_r15a : (r15a (F := Ideal)).Forall fun op => op.bufs ⊆ tcRefs τ sig :=
  ⟨unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
theorem fresh_r15a : ∀ op ∈ (r15a (F := Ideal)), op.fresh = ∅ := by
  intro _ h
  repeat (cases h with | head => rfl | tail _ h => ?_)
  exact nomatch h

end Cert.ReferenceIdeal.Run

end
-- ==== Proof.RefKeepE.lean ====
/-
  The argument buffers through the reference's run: no operation of these windows writes one of the thirteen
  arguments (each writes a buffer that comes after them), so each window leaves them as it found them.
-/
import proofs.«141681_j16750372455151_2_alg».proof.Proof.RefKeepBase
import proofs.«141681_j16750372455151_2_alg».proof.Proof.RefRunE

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

theorem keeps_r15b (V : Valuation τ sig (Elt Ideal)) :
    ∀ b ∈ argRefs, after (r15b (F := Ideal)) V (Proc.devRef .tc b) = V (Proc.devRef .tc b) :=
  after_keeps (by
    simp only [r15b, List.Forall, nullary_writes, unary_writes, binary_writes, ternary_writes, quaternary_writes, reshape_writes, Finset.mem_singleton]
    repeat' apply And.intro
    all_goals exact fun b hb => ne_of_idx_ge (arg_idx_lt b hb) (by decide)) V

theorem keeps_r16 (V : Valuation τ sig (Elt Ideal)) :
    ∀ b ∈ argRefs, after (r16 (F := Ideal)) V (Proc.devRef .tc b) = V (Proc.devRef .tc b) :=
  after_keeps (by
    simp only [r16, List.Forall, nullary_writes, unary_writes, binary_writes, ternary_writes, quaternary_writes, reshape_writes, Finset.mem_singleton]
    repeat' apply And.intro
    all_goals exact fun b hb => ne_of_idx_ge (arg_idx_lt b hb) (by decide)) V

theorem keeps_r17 (V : Valuation τ sig (Elt Ideal)) :
    ∀ b ∈ argRefs, after (r17 (F := Ideal)) V (Proc.devRef .tc b) = V (Proc.devRef .tc b) :=
  after_keeps (by
    simp only [r17, List.Forall, nullary_writes, unary_writes, binary_writes, ternary_writes, quaternary_writes, reshape_writes, Finset.mem_singleton]
    repeat' apply And.intro
    all_goals exact fun b hb => ne_of_idx_ge (arg_idx_lt b hb) (by decide)) V

theorem keeps_r18a (V : Valuation τ sig (Elt Ideal)) :
    ∀ b ∈ argRefs, after (r18a (F := Ideal)) V (Proc.devRef .tc b) = V (Proc.devRef .tc b) :=
  after_keeps (by
    simp only [r18a, List.Forall, nullary_writes, unary_writes, binary_writes, ternary_writes, quaternary_writes, reshape_writes, Finset.mem_singleton]
    repeat' apply And.intro
    all_goals exact fun b hb => ne_of_idx_ge (arg_idx_lt b hb) (by decide)) V

theorem keeps_r18b (V : Valuation τ sig (Elt Ideal)) :
    ∀ b ∈ argRefs, after (r18b (F := Ideal)) V (Proc.devRef .tc b) = V (Proc.devRef .tc b) :=
  after_keeps (by
    simp only [r18b, List.Forall, nullary_writes, unary_writes, binary_writes, ternary_writes, quaternary_writes, reshape_writes, Finset.mem_singleton]
    repeat' apply And.intro
    all_goals exact fun b hb => ne_of_idx_ge (arg_idx_lt b hb) (by decide)) V

theorem keeps_r19 (V : Valuation τ sig (Elt Ideal)) :
    ∀ b ∈ argRefs, after (r19 (F := Ideal)) V (Proc.devRef .tc b) = V (Proc.devRef .tc b) :=
  after_keeps (by
    simp only [r19, List.Forall, nullary_writes, unary_writes, binary_writes, ternary_writes, quaternary_writes, reshape_writes, Finset.mem_singleton]
    repeat' apply And.intro
    all_goals exact fun b hb => ne_of_idx_ge (arg_idx_lt b hb) (by decide)) V

theorem keeps_r20 (V : Valuation τ sig (Elt Ideal)) :
    ∀ b ∈ argRefs, after (r20 (F := Ideal)) V (Proc.devRef .tc b) = V (Proc.devRef .tc b) :=
  after_keeps (by
    simp only [r20, List.Forall, nullary_writes, unary_writes, binary_writes, ternary_writes, quaternary_writes, reshape_writes, Finset.mem_singleton]
    repeat' apply And.intro
    all_goals exact fun b hb => ne_of_idx_ge (arg_idx_lt b hb) (by decide)) V

theorem keeps_r21a (V : Valuation τ sig (Elt Ideal)) :
    ∀ b ∈ argRefs, after (r21a (F := Ideal)) V (Proc.devRef .tc b) = V (Proc.devRef .tc b) :=
  after_keeps (by
    simp only [r21a, List.Forall, nullary_writes, unary_writes, binary_writes, ternary_writes, quaternary_writes, reshape_writes, Finset.mem_singleton]
    repeat' apply And.intro
    all_goals exact fun b hb => ne_of_idx_ge (arg_idx_lt b hb) (by decide)) V

theorem keeps_r21b (V : Valuation τ sig (Elt Ideal)) :
    ∀ b ∈ argRefs, after (r21b (F := Ideal)) V (Proc.devRef .tc b) = V (Proc.devRef .tc b) :=
  after_keeps (by
    simp only [r21b, List.Forall, nullary_writes, unary_writes, binary_writes, ternary_writes, quaternary_writes, reshape_writes, Finset.mem_singleton]
    repeat' apply And.intro
    all_goals exact fun b hb => ne_of_idx_ge (arg_idx_lt b hb) (by decide)) V

/-! ## A longer-lived intermediate through the windows that do not write it -/

theorem keep_r15b_v804 (V : Valuation τ sig (Elt Ideal)) :
    after (r15b (F := Ideal)) V (Proc.devRef .tc main_v804) = V (Proc.devRef .tc main_v804) :=
  after_of_forall_not_mem (b := Proc.devRef .tc main_v804) _ _ (List.forall_iff_forall_mem.mp (by
    simp only [r15b, List.Forall, nullary_writes, unary_writes, binary_writes, ternary_writes, quaternary_writes, reshape_writes, Finset.mem_singleton]
    repeat' apply And.intro
    all_goals exact devRef_ne_of_ne (by decide)))

theorem keep_r16_v804 (V : Valuation τ sig (Elt Ideal)) :
    after (r16 (F := Ideal)) V (Proc.devRef .tc main_v804) = V (Proc.devRef .tc main_v804) :=
  after_of_forall_not_mem (b := Proc.devRef .tc main_v804) _ _ (List.forall_iff_forall_mem.mp (by
    simp only [r16, List.Forall, nullary_writes, unary_writes, binary_writes, ternary_writes, quaternary_writes, reshape_writes, Finset.mem_singleton]
    repeat' apply And.intro
    all_goals exact devRef_ne_of_ne (by decide)))

theorem keep_r17_v804 (V : Valuation τ sig (Elt Ideal)) :
    after (r17 (F := Ideal)) V (Proc.devRef .tc main_v804) = V (Proc.devRef .tc main_v804) :=
  after_of_forall_not_mem (b := Proc.devRef .tc main_v804) _ _ (List.forall_iff_forall_mem.mp (by
    simp only [r17, List.Forall, nullary_writes, unary_writes, binary_writes, ternary_writes, quaternary_writes, reshape_writes, Finset.mem_singleton]
    repeat' apply And.intro
    all_goals exact devRef_ne_of_ne (by decide)))

theorem keep_r18a_v804 (V : Valuation τ sig (Elt Ideal)) :
    after (r18a (F := Ideal)) V (Proc.devRef .tc main_v804) = V (Proc.devRef .tc main_v804) :=
  after_of_forall_not_mem (b := Proc.devRef .tc main_v804) _ _ (List.forall_iff_forall_mem.mp (by
    simp only [r18a, List.Forall, nullary_writes, unary_writes, binary_writes, ternary_writes, quaternary_writes, reshape_writes, Finset.mem_singleton]
    repeat' apply And.intro
    all_goals exact devRef_ne_of_ne (by decide)))

theorem keep_r18b_v804 (V : Valuation τ sig (Elt Ideal)) :
    after (r18b (F := Ideal)) V (Proc.devRef .tc main_v804) = V (Proc.devRef .tc main_v804) :=
  after_of_forall_not_mem (b := Proc.devRef .tc main_v804) _ _ (List.forall_iff_forall_mem.mp (by
    simp only [r18b, List.Forall, nullary_writes, unary_writes, binary_writes, ternary_writes, quaternary_writes, reshape_writes, Finset.mem_singleton]
    repeat' apply And.intro
    all_goals exact devRef_ne_of_ne (by decide)))

theorem keep_r19_v804 (V : Valuation τ sig (Elt Ideal)) :
    after (r19 (F := Ideal)) V (Proc.devRef .tc main_v804) = V (Proc.devRef .tc main_v804) :=
  after_of_forall_not_mem (b := Proc.devRef .tc main_v804) _ _ (List.forall_iff_forall_mem.mp (by
    simp only [r19, List.Forall, nullary_writes, unary_writes, binary_writes, ternary_writes, quaternary_writes, reshape_writes, Finset.mem_singleton]
    repeat' apply And.intro
    all_goals exact devRef_ne_of_ne (by decide)))

theorem keep_r20_v804 (V : Valuation τ sig (Elt Ideal)) :
    after (r20 (F := Ideal)) V (Proc.devRef .tc main_v804) = V (Proc.devRef .tc main_v804) :=
  after_of_forall_not_mem (b := Proc.devRef .tc main_v804) _ _ (List.forall_iff_forall_mem.mp (by
    simp only [r20, List.Forall, nullary_writes, unary_writes, binary_writes, ternary_writes, quaternary_writes, reshape_writes, Finset.mem_singleton]
    repeat' apply And.intro
    all_goals exact devRef_ne_of_ne (by decide)))

theorem keep_r21a_v804 (V : Valuation τ sig (Elt Ideal)) :
    after (r21a (F := Ideal)) V (Proc.devRef .tc main_v804) = V (Proc.devRef .tc main_v804) :=
  after_of_forall_not_mem (b := Proc.devRef .tc main_v804) _ _ (List.forall_iff_forall_mem.mp (by
    simp only [r21a, List.Forall, nullary_writes, unary_writes, binary_writes, ternary_writes, quaternary_writes, reshape_writes, Finset.mem_singleton]
    repeat' apply And.intro
    all_goals exact devRef_ne_of_ne (by decide)))

/-! ## Every operation touches TensorCore buffers only, and allocates none -/

theorem sub_r15b : (r15b (F := Ideal)).Forall fun op => op.bufs ⊆ tcRefs τ sig :=
  ⟨nullary_bufs_sub .., unary_bufs_sub .., binary_bufs_sub .., nullary_bufs_sub .., unary_bufs_sub ..⟩
theorem fresh_r15b : ∀ op ∈ (r15b (F := Ideal)), op.fresh = ∅ := by
  intro _ h
  repeat (cases h with | head => rfl | tail _ h => ?_)
  exact nomatch h

theorem sub_r16 : (r16 (F := Ideal)).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem fresh_r16 : ∀ op ∈ (r16 (F := Ideal)), op.fresh = ∅ := by
  intro _ h
  repeat (cases h with | head => rfl | tail _ h => ?_)
  exact nomatch h

theorem sub_r17 : (r17 (F := Ideal)).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem fresh_r17 : ∀ op ∈ (r17 (F := Ideal)), op.fresh = ∅ := by
  intro _ h
  repeat (cases h with | head => rfl | tail _ h => ?_)
  exact nomatch h

theorem sub_r18a : (r18a (F := Ideal)).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
theorem fresh_r18a : ∀ op ∈ (r18a (F := Ideal)), op.fresh = ∅ := by
  intro _ h
  repeat (cases h with | head => rfl | tail _ h => ?_)
  exact nomatch h

theorem sub_r18b : (r18b (F := Ideal)).Forall fun op => op.bufs ⊆ tcRefs τ sig :=
  ⟨nullary_bufs_sub .., unary_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub ..⟩
theorem fresh_r18b : ∀ op ∈ (r18b (F := Ideal)), op.fresh = ∅ := by
  intro _ h
  repeat (cases h with | head => rfl | tail _ h => ?_)
  exact nomatch h

theorem sub_r19 : (r19 (F := Ideal)).Forall fun op => op.bufs ⊆ tcRefs τ sig :=
  ⟨unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub ..⟩
theorem fresh_r19 : ∀ op ∈ (r19 (F := Ideal)), op.fresh = ∅ := by
  intro _ h
  repeat (cases h with | head => rfl | tail _ h => ?_)
  exact nomatch h

theorem sub_r20 : (r20 (F := Ideal)).Forall fun op => op.bufs ⊆ tcRefs τ sig :=
  ⟨unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub ..⟩
theorem fresh_r20 : ∀ op ∈ (r20 (F := Ideal)), op.fresh = ∅ := by
  intro _ h
  repeat (cases h with | head => rfl | tail _ h => ?_)
  exact nomatch h

theorem sub_r21a : (r21a (F := Ideal)).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
theorem fresh_r21a : ∀ op ∈ (r21a (F := Ideal)), op.fresh = ∅ := by
  intro _ h
  repeat (cases h with | head => rfl | tail _ h => ?_)
  exact nomatch h

theorem sub_r21b : (r21b (F := Ideal)).Forall fun op => op.bufs ⊆ tcRefs τ sig :=
  binary_bufs_sub ..
theorem fresh_r21b : ∀ op ∈ (r21b (F := Ideal)), op.fresh = ∅ := by
  intro _ h
  repeat (cases h with | head => rfl | tail _ h => ?_)
  exact nomatch h

end Cert.ReferenceIdeal.Run

end
-- ==== Proof.RefKeepP.lean ====
/-
  The argument buffers through the reference's run: no operation of these windows writes one of the thirteen
  arguments (each writes a buffer that comes after them), so each window leaves them as it found them.
-/
import proofs.«141681_j16750372455151_2_alg».proof.Proof.RefKeepBase
import proofs.«141681_j16750372455151_2_alg».proof.Proof.RefRunP

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

theorem keeps_r21c (V : Valuation τ sig (Elt Ideal)) :
    ∀ b ∈ argRefs, after (r21c (F := Ideal)) V (Proc.devRef .tc b) = V (Proc.devRef .tc b) :=
  after_keeps (by
    simp only [r21c, List.Forall, nullary_writes, unary_writes, binary_writes, ternary_writes, quaternary_writes, reshape_writes, Finset.mem_singleton]
    repeat' apply And.intro
    all_goals exact fun b hb => ne_of_idx_ge (arg_idx_lt b hb) (by decide)) V

theorem keeps_r22 (V : Valuation τ sig (Elt Ideal)) :
    ∀ b ∈ argRefs, after (r22 (F := Ideal)) V (Proc.devRef .tc b) = V (Proc.devRef .tc b) :=
  after_keeps (by
    simp only [r22, List.Forall, nullary_writes, unary_writes, binary_writes, ternary_writes, quaternary_writes, reshape_writes, Finset.mem_singleton]
    repeat' apply And.intro
    all_goals exact fun b hb => ne_of_idx_ge (arg_idx_lt b hb) (by decide)) V

theorem keeps_r23 (V : Valuation τ sig (Elt Ideal)) :
    ∀ b ∈ argRefs, after (r23 (F := Ideal)) V (Proc.devRef .tc b) = V (Proc.devRef .tc b) :=
  after_keeps (by
    simp only [r23, List.Forall, nullary_writes, unary_writes, binary_writes, ternary_writes, quaternary_writes, reshape_writes, Finset.mem_singleton]
    repeat' apply And.intro
    all_goals exact fun b hb => ne_of_idx_ge (arg_idx_lt b hb) (by decide)) V

theorem keeps_r24 (V : Valuation τ sig (Elt Ideal)) :
    ∀ b ∈ argRefs, after (r24 (F := Ideal)) V (Proc.devRef .tc b) = V (Proc.devRef .tc b) :=
  after_keeps (by
    simp only [r24, List.Forall, nullary_writes, unary_writes, binary_writes, ternary_writes, quaternary_writes, reshape_writes, Finset.mem_singleton]
    repeat' apply And.intro
    all_goals exact fun b hb => ne_of_idx_ge (arg_idx_lt b hb) (by decide)) V

theorem keeps_r25 (V : Valuation τ sig (Elt Ideal)) :
    ∀ b ∈ argRefs, after (r25 (F := Ideal)) V (Proc.devRef .tc b) = V (Proc.devRef .tc b) :=
  after_keeps (by
    simp only [r25, List.Forall, nullary_writes, unary_writes, binary_writes, ternary_writes, quaternary_writes, reshape_writes, Finset.mem_singleton]
    repeat' apply And.intro
    all_goals exact fun b hb => ne_of_idx_ge (arg_idx_lt b hb) (by decide)) V

theorem keeps_r26 (V : Valuation τ sig (Elt Ideal)) :
    ∀ b ∈ argRefs, after (r26 (F := Ideal)) V (Proc.devRef .tc b) = V (Proc.devRef .tc b) :=
  after_keeps (by
    simp only [r26, List.Forall, nullary_writes, unary_writes, binary_writes, ternary_writes, quaternary_writes, reshape_writes, Finset.mem_singleton]
    repeat' apply And.intro
    all_goals exact fun b hb => ne_of_idx_ge (arg_idx_lt b hb) (by decide)) V

theorem keeps_r27 (V : Valuation τ sig (Elt Ideal)) :
    ∀ b ∈ argRefs, after (r27 (F := Ideal)) V (Proc.devRef .tc b) = V (Proc.devRef .tc b) :=
  after_keeps (by
    simp only [r27, List.Forall, nullary_writes, unary_writes, binary_writes, ternary_writes, quaternary_writes, reshape_writes, Finset.mem_singleton]
    repeat' apply And.intro
    all_goals exact fun b hb => ne_of_idx_ge (arg_idx_lt b hb) (by decide)) V

theorem keeps_r28 (V : Valuation τ sig (Elt Ideal)) :
    ∀ b ∈ argRefs, after (r28 (F := Ideal)) V (Proc.devRef .tc b) = V (Proc.devRef .tc b) :=
  after_keeps (by
    simp only [r28, List.Forall, nullary_writes, unary_writes, binary_writes, ternary_writes, quaternary_writes, reshape_writes, Finset.mem_singleton]
    repeat' apply And.intro
    all_goals exact fun b hb => ne_of_idx_ge (arg_idx_lt b hb) (by decide)) V

/-! ## A longer-lived intermediate through the windows that do not write it -/

theorem keep_r21c_v1073 (V : Valuation τ sig (Elt Ideal)) :
    after (r21c (F := Ideal)) V (Proc.devRef .tc main_v1073) = V (Proc.devRef .tc main_v1073) :=
  after_of_forall_not_mem (b := Proc.devRef .tc main_v1073) _ _ (List.forall_iff_forall_mem.mp (by
    simp only [r21c, List.Forall, nullary_writes, unary_writes, binary_writes, ternary_writes, quaternary_writes, reshape_writes, Finset.mem_singleton]
    repeat' apply And.intro
    all_goals exact devRef_ne_of_ne (by decide)))

theorem keep_r22_v1073 (V : Valuation τ sig (Elt Ideal)) :
    after (r22 (F := Ideal)) V (Proc.devRef .tc main_v1073) = V (Proc.devRef .tc main_v1073) :=
  after_of_forall_not_mem (b := Proc.devRef .tc main_v1073) _ _ (List.forall_iff_forall_mem.mp (by
    simp only [r22, List.Forall, nullary_writes, unary_writes, binary_writes, ternary_writes, quaternary_writes, reshape_writes, Finset.mem_singleton]
    repeat' apply And.intro
    all_goals exact devRef_ne_of_ne (by decide)))

theorem keep_r23_v1073 (V : Valuation τ sig (Elt Ideal)) :
    after (r23 (F := Ideal)) V (Proc.devRef .tc main_v1073) = V (Proc.devRef .tc main_v1073) :=
  after_of_forall_not_mem (b := Proc.devRef .tc main_v1073) _ _ (List.forall_iff_forall_mem.mp (by
    simp only [r23, List.Forall, nullary_writes, unary_writes, binary_writes, ternary_writes, quaternary_writes, reshape_writes, Finset.mem_singleton]
    repeat' apply And.intro
    all_goals exact devRef_ne_of_ne (by decide)))

theorem keep_r24_v1073 (V : Valuation τ sig (Elt Ideal)) :
    after (r24 (F := Ideal)) V (Proc.devRef .tc main_v1073) = V (Proc.devRef .tc main_v1073) :=
  after_of_forall_not_mem (b := Proc.devRef .tc main_v1073) _ _ (List.forall_iff_forall_mem.mp (by
    simp only [r24, List.Forall, nullary_writes, unary_writes, binary_writes, ternary_writes, quaternary_writes, reshape_writes, Finset.mem_singleton]
    repeat' apply And.intro
    all_goals exact devRef_ne_of_ne (by decide)))

theorem keep_r25_v1073 (V : Valuation τ sig (Elt Ideal)) :
    after (r25 (F := Ideal)) V (Proc.devRef .tc main_v1073) = V (Proc.devRef .tc main_v1073) :=
  after_of_forall_not_mem (b := Proc.devRef .tc main_v1073) _ _ (List.forall_iff_forall_mem.mp (by
    simp only [r25, List.Forall, nullary_writes, unary_writes, binary_writes, ternary_writes, quaternary_writes, reshape_writes, Finset.mem_singleton]
    repeat' apply And.intro
    all_goals exact devRef_ne_of_ne (by decide)))

theorem keep_r26_v1073 (V : Valuation τ sig (Elt Ideal)) :
    after (r26 (F := Ideal)) V (Proc.devRef .tc main_v1073) = V (Proc.devRef .tc main_v1073) :=
  after_of_forall_not_mem (b := Proc.devRef .tc main_v1073) _ _ (List.forall_iff_forall_mem.mp (by
    simp only [r26, List.Forall, nullary_writes, unary_writes, binary_writes, ternary_writes, quaternary_writes, reshape_writes, Finset.mem_singleton]
    repeat' apply And.intro
    all_goals exact devRef_ne_of_ne (by decide)))

theorem keep_r27_v1073 (V : Valuation τ sig (Elt Ideal)) :
    after (r27 (F := Ideal)) V (Proc.devRef .tc main_v1073) = V (Proc.devRef .tc main_v1073) :=
  after_of_forall_not_mem (b := Proc.devRef .tc main_v1073) _ _ (List.forall_iff_forall_mem.mp (by
    simp only [r27, List.Forall, nullary_writes, unary_writes, binary_writes, ternary_writes, quaternary_writes, reshape_writes, Finset.mem_singleton]
    repeat' apply And.intro
    all_goals exact devRef_ne_of_ne (by decide)))

theorem keep_r28_v1073 (V : Valuation τ sig (Elt Ideal)) :
    after (r28 (F := Ideal)) V (Proc.devRef .tc main_v1073) = V (Proc.devRef .tc main_v1073) :=
  after_of_forall_not_mem (b := Proc.devRef .tc main_v1073) _ _ (List.forall_iff_forall_mem.mp (by
    simp only [r28, List.Forall, nullary_writes, unary_writes, binary_writes, ternary_writes, quaternary_writes, reshape_writes, Finset.mem_singleton]
    repeat' apply And.intro
    all_goals exact devRef_ne_of_ne (by decide)))

/-! ## Every operation touches TensorCore buffers only, and allocates none -/

theorem sub_r21c : (r21c (F := Ideal)).Forall fun op => op.bufs ⊆ tcRefs τ sig :=
  ⟨nullary_bufs_sub .., unary_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem fresh_r21c : ∀ op ∈ (r21c (F := Ideal)), op.fresh = ∅ := by
  intro _ h
  repeat (cases h with | head => rfl | tail _ h => ?_)
  exact nomatch h

theorem sub_r22 : (r22 (F := Ideal)).Forall fun op => op.bufs ⊆ tcRefs τ sig :=
  ⟨unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem fresh_r22 : ∀ op ∈ (r22 (F := Ideal)), op.fresh = ∅ := by
  intro _ h
  repeat (cases h with | head => rfl | tail _ h => ?_)
  exact nomatch h

theorem sub_r23 : (r23 (F := Ideal)).Forall fun op => op.bufs ⊆ tcRefs τ sig :=
  ⟨unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem fresh_r23 : ∀ op ∈ (r23 (F := Ideal)), op.fresh = ∅ := by
  intro _ h
  repeat (cases h with | head => rfl | tail _ h => ?_)
  exact nomatch h

theorem sub_r24 : (r24 (F := Ideal)).Forall fun op => op.bufs ⊆ tcRefs τ sig :=
  ⟨unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem fresh_r24 : ∀ op ∈ (r24 (F := Ideal)), op.fresh = ∅ := by
  intro _ h
  repeat (cases h with | head => rfl | tail _ h => ?_)
  exact nomatch h

theorem sub_r25 : (r25 (F := Ideal)).Forall fun op => op.bufs ⊆ tcRefs τ sig :=
  ⟨unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem fresh_r25 : ∀ op ∈ (r25 (F := Ideal)), op.fresh = ∅ := by
  intro _ h
  repeat (cases h with | head => rfl | tail _ h => ?_)
  exact nomatch h

theorem sub_r26 : (r26 (F := Ideal)).Forall fun op => op.bufs ⊆ tcRefs τ sig :=
  ⟨unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem fresh_r26 : ∀ op ∈ (r26 (F := Ideal)), op.fresh = ∅ := by
  intro _ h
  repeat (cases h with | head => rfl | tail _ h => ?_)
  exact nomatch h

theorem sub_r27 : (r27 (F := Ideal)).Forall fun op => op.bufs ⊆ tcRefs τ sig :=
  ⟨unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem fresh_r27 : ∀ op ∈ (r27 (F := Ideal)), op.fresh = ∅ := by
  intro _ h
  repeat (cases h with | head => rfl | tail _ h => ?_)
  exact nomatch h

theorem sub_r28 : (r28 (F := Ideal)).Forall fun op => op.bufs ⊆ tcRefs τ sig :=
  ⟨unary_bufs_sub .., reshape_bufs_sub .., binary_bufs_sub .., binary_bufs_sub ..⟩
theorem fresh_r28 : ∀ op ∈ (r28 (F := Ideal)), op.fresh = ∅ := by
  intro _ h
  repeat (cases h with | head => rfl | tail _ h => ?_)
  exact nomatch h

end Cert.ReferenceIdeal.Run

end
-- ==== Proof.RefChain.lean ====
/-
  The reference's values along its run: block after block, each convolution block's output as a term of the
  arguments (the outputs of the blocks before it substituted), the residual sums, the pooling convolution; the
  arguments untouched throughout.
-/
import proofs.«141681_j16750372455151_2_alg».proof.Proof.RefEval1
import proofs.«141681_j16750372455151_2_alg».proof.Proof.RefEval2
import proofs.«141681_j16750372455151_2_alg».proof.Proof.RefEval3
import proofs.«141681_j16750372455151_2_alg».proof.Proof.RefEval4
import proofs.«141681_j16750372455151_2_alg».proof.Proof.RefEval5
import proofs.«141681_j16750372455151_2_alg».proof.Proof.RefEval6
import proofs.«141681_j16750372455151_2_alg».proof.Proof.RefEval7
import proofs.«141681_j16750372455151_2_alg».proof.Proof.RefEval8
import proofs.«141681_j16750372455151_2_alg».proof.Proof.RefEvalP
import proofs.«141681_j16750372455151_2_alg».proof.Proof.RefKeepA
import proofs.«141681_j16750372455151_2_alg».proof.Proof.RefKeepB
import proofs.«141681_j16750372455151_2_alg».proof.Proof.RefKeepC
import proofs.«141681_j16750372455151_2_alg».proof.Proof.RefKeepD
import proofs.«141681_j16750372455151_2_alg».proof.Proof.RefKeepE
import proofs.«141681_j16750372455151_2_alg».proof.Proof.RefKeepP

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.ReferenceIdeal.Fns

/-! ## The values, as terms of the arguments a valuation holds -/

def rs1 (V : Valuation τ sig (Elt Ideal)) : FVec Ideal S50000x32 .f32 := bn32 (lrelu32 (Cert.ReferenceIdeal.Bridge.refConv (V (Proc.devRef .tc main_arg0)) (V (Proc.devRef .tc main_arg10)) (V (Proc.devRef .tc main_arg1))))
def rs2 (V : Valuation τ sig (Elt Ideal)) : FVec Ideal S50000x32 .f32 := bn32 (lrelu32 (Cert.ReferenceIdeal.BRB.refConv (rs1 V) (V (Proc.devRef .tc main_arg11)) (V (Proc.devRef .tc main_arg2))))
def rr1 (V : Valuation τ sig (Elt Ideal)) : FVec Ideal S50000x32 .f32 := bn32 (lrelu32 (Cert.ReferenceIdeal.Bridge.refConv (V (Proc.devRef .tc main_arg0)) (V (Proc.devRef .tc main_arg11)) (V (Proc.devRef .tc main_arg3))))
def rr2 (V : Valuation τ sig (Elt Ideal)) : FVec Ideal S50000x32 .f32 := bn32 (lrelu32 (Cert.ReferenceIdeal.BRB.refConv (rr1 V) (V (Proc.devRef .tc main_arg10)) (V (Proc.devRef .tc main_arg4))))
def rx1 (V : Valuation τ sig (Elt Ideal)) : FVec Ideal S50000x32 .f32 := addf (rr2 V) (rs2 V)
def rs3 (V : Valuation τ sig (Elt Ideal)) : FVec Ideal S50000x64 .f32 := bn64 (lrelu64 (Cert.ReferenceIdeal.BRC.refConv (rx1 V) (V (Proc.devRef .tc main_arg11)) (V (Proc.devRef .tc main_arg5))))
def rs4 (V : Valuation τ sig (Elt Ideal)) : FVec Ideal S50000x64 .f32 := bn64 (lrelu64 (Cert.ReferenceIdeal.BRD.refConv (rs3 V) (V (Proc.devRef .tc main_arg10)) (V (Proc.devRef .tc main_arg6))))
def rr3 (V : Valuation τ sig (Elt Ideal)) : FVec Ideal S50000x64 .f32 := bn64 (lrelu64 (Cert.ReferenceIdeal.BRC.refConv (rx1 V) (V (Proc.devRef .tc main_arg10)) (V (Proc.devRef .tc main_arg7))))
def rr4 (V : Valuation τ sig (Elt Ideal)) : FVec Ideal S50000x64 .f32 := bn64 (lrelu64 (Cert.ReferenceIdeal.BRD.refConv (rr3 V) (V (Proc.devRef .tc main_arg11)) (V (Proc.devRef .tc main_arg8))))
def rA (V : Valuation τ sig (Elt Ideal)) : FVec Ideal S50000x64 .f32 := addf (rr4 V) (rs4 V)
def rB (V : Valuation τ sig (Elt Ideal)) : FVec Ideal S122811x64 .f32 := Cert.ReferenceIdeal.BRP.refConv (rA V) (V (Proc.devRef .tc main_arg12)) (V (Proc.devRef .tc main_arg9))

/-! ## The buffer contents after each block -/

abbrev U1 (V : Valuation τ sig (Elt Ideal)) : Valuation τ sig (Elt Ideal) :=
  after (r2a (F := Ideal)) (after (r1 (F := Ideal)) (after (r0 (F := Ideal)) (V)))
abbrev U2 (V : Valuation τ sig (Elt Ideal)) : Valuation τ sig (Elt Ideal) :=
  after (r5a (F := Ideal)) (after (r4 (F := Ideal)) (after (r3 (F := Ideal)) (after (r2b (F := Ideal)) (U1 V))))
abbrev U3 (V : Valuation τ sig (Elt Ideal)) : Valuation τ sig (Elt Ideal) :=
  after (r7a (F := Ideal)) (after (r6 (F := Ideal)) (after (r5b (F := Ideal)) (U2 V)))
abbrev U4 (V : Valuation τ sig (Elt Ideal)) : Valuation τ sig (Elt Ideal) :=
  after (r10a (F := Ideal)) (after (r9 (F := Ideal)) (after (r8 (F := Ideal)) (after (r7b (F := Ideal)) (U3 V))))
abbrev U4x (V : Valuation τ sig (Elt Ideal)) : Valuation τ sig (Elt Ideal) :=
  after (r10b (F := Ideal)) (U4 V)
abbrev U5 (V : Valuation τ sig (Elt Ideal)) : Valuation τ sig (Elt Ideal) :=
  after (r13a (F := Ideal)) (after (r12 (F := Ideal)) (after (r11 (F := Ideal)) (after (r10c (F := Ideal)) (U4x V))))
abbrev U6 (V : Valuation τ sig (Elt Ideal)) : Valuation τ sig (Elt Ideal) :=
  after (r15a (F := Ideal)) (after (r14 (F := Ideal)) (after (r13b (F := Ideal)) (U5 V)))
abbrev U7 (V : Valuation τ sig (Elt Ideal)) : Valuation τ sig (Elt Ideal) :=
  after (r18a (F := Ideal)) (after (r17 (F := Ideal)) (after (r16 (F := Ideal)) (after (r15b (F := Ideal)) (U6 V))))
abbrev U8 (V : Valuation τ sig (Elt Ideal)) : Valuation τ sig (Elt Ideal) :=
  after (r21a (F := Ideal)) (after (r20 (F := Ideal)) (after (r19 (F := Ideal)) (after (r18b (F := Ideal)) (U7 V))))
abbrev U8x (V : Valuation τ sig (Elt Ideal)) : Valuation τ sig (Elt Ideal) :=
  after (r21b (F := Ideal)) (U8 V)

/-! ## The arguments after each block -/

theorem K1 (V : Valuation τ sig (Elt Ideal)) : ∀ b ∈ argRefs, U1 V (Proc.devRef .tc b) = V (Proc.devRef .tc b) :=
  fun b hb => (keeps_r2a _ b hb).trans ((keeps_r1 _ b hb).trans ((keeps_r0 _ b hb).trans (rfl)))
theorem K2 (V : Valuation τ sig (Elt Ideal)) : ∀ b ∈ argRefs, U2 V (Proc.devRef .tc b) = V (Proc.devRef .tc b) :=
  fun b hb => (keeps_r5a _ b hb).trans ((keeps_r4 _ b hb).trans ((keeps_r3 _ b hb).trans ((keeps_r2b _ b hb).trans (K1 V b hb))))
theorem K3 (V : Valuation τ sig (Elt Ideal)) : ∀ b ∈ argRefs, U3 V (Proc.devRef .tc b) = V (Proc.devRef .tc b) :=
  fun b hb => (keeps_r7a _ b hb).trans ((keeps_r6 _ b hb).trans ((keeps_r5b _ b hb).trans (K2 V b hb)))
theorem K4 (V : Valuation τ sig (Elt Ideal)) : ∀ b ∈ argRefs, U4 V (Proc.devRef .tc b) = V (Proc.devRef .tc b) :=
  fun b hb => (keeps_r10a _ b hb).trans ((keeps_r9 _ b hb).trans ((keeps_r8 _ b hb).trans ((keeps_r7b _ b hb).trans (K3 V b hb))))
theorem K4x (V : Valuation τ sig (Elt Ideal)) : ∀ b ∈ argRefs, U4x V (Proc.devRef .tc b) = V (Proc.devRef .tc b) :=
  fun b hb => (keeps_r10b _ b hb).trans (K4 V b hb)
theorem K5 (V : Valuation τ sig (Elt Ideal)) : ∀ b ∈ argRefs, U5 V (Proc.devRef .tc b) = V (Proc.devRef .tc b) :=
  fun b hb => (keeps_r13a _ b hb).trans ((keeps_r12 _ b hb).trans ((keeps_r11 _ b hb).trans ((keeps_r10c _ b hb).trans (K4x V b hb))))
theorem K6 (V : Valuation τ sig (Elt Ideal)) : ∀ b ∈ argRefs, U6 V (Proc.devRef .tc b) = V (Proc.devRef .tc b) :=
  fun b hb => (keeps_r15a _ b hb).trans ((keeps_r14 _ b hb).trans ((keeps_r13b _ b hb).trans (K5 V b hb)))
theorem K7 (V : Valuation τ sig (Elt Ideal)) : ∀ b ∈ argRefs, U7 V (Proc.devRef .tc b) = V (Proc.devRef .tc b) :=
  fun b hb => (keeps_r18a _ b hb).trans ((keeps_r17 _ b hb).trans ((keeps_r16 _ b hb).trans ((keeps_r15b _ b hb).trans (K6 V b hb))))
theorem K8 (V : Valuation τ sig (Elt Ideal)) : ∀ b ∈ argRefs, U8 V (Proc.devRef .tc b) = V (Proc.devRef .tc b) :=
  fun b hb => (keeps_r21a _ b hb).trans ((keeps_r20 _ b hb).trans ((keeps_r19 _ b hb).trans ((keeps_r18b _ b hb).trans (K7 V b hb))))
theorem K8x (V : Valuation τ sig (Elt Ideal)) : ∀ b ∈ argRefs, U8x V (Proc.devRef .tc b) = V (Proc.devRef .tc b) :=
  fun b hb => (keeps_r21b _ b hb).trans (K8 V b hb)

/-! ## Each block's output -/

theorem F1 (V : Valuation τ sig (Elt Ideal)) : (U1 V (Proc.devRef .tc main_v133) : S50000x32.Idx → EReal) = rs1 V := E1 V
theorem F2 (V : Valuation τ sig (Elt Ideal)) : (U2 V (Proc.devRef .tc main_v267) : S50000x32.Idx → EReal) = rs2 V := by
  refine (E2 (U1 V)).trans ?_
  rw [F1 V, K1 V main_arg11 (by simp [argRefs]), K1 V main_arg2 (by simp [argRefs])]
  rfl
theorem F3 (V : Valuation τ sig (Elt Ideal)) : (U3 V (Proc.devRef .tc main_v401) : S50000x32.Idx → EReal) = rr1 V := by
  refine (E3 (U2 V)).trans ?_
  rw [K2 V main_arg0 (by simp [argRefs]), K2 V main_arg11 (by simp [argRefs]), K2 V main_arg3 (by simp [argRefs])]
  rfl
theorem F3s (V : Valuation τ sig (Elt Ideal)) : (U3 V (Proc.devRef .tc main_v267) : S50000x32.Idx → EReal) = rs2 V :=
  (keep_r7a_v267 _).trans ((keep_r6_v267 _).trans ((keep_r5b_v267 _).trans (F2 V)))
theorem F4 (V : Valuation τ sig (Elt Ideal)) : (U4 V (Proc.devRef .tc main_v535) : S50000x32.Idx → EReal) = rr2 V := by
  refine (E4 (U3 V)).trans ?_
  rw [F3 V, K3 V main_arg10 (by simp [argRefs]), K3 V main_arg4 (by simp [argRefs])]
  rfl
theorem F4s (V : Valuation τ sig (Elt Ideal)) : (U4 V (Proc.devRef .tc main_v267) : S50000x32.Idx → EReal) = rs2 V :=
  (keep_r10a_v267 _).trans ((keep_r9_v267 _).trans ((keep_r8_v267 _).trans ((keep_r7b_v267 _).trans (F3s V))))
theorem F4x (V : Valuation τ sig (Elt Ideal)) : (U4x V (Proc.devRef .tc main_v536) : S50000x32.Idx → EReal) = rx1 V := by
  refine (EX1 (U4 V)).trans ?_
  rw [F4 V, F4s V]
  rfl
theorem F5 (V : Valuation τ sig (Elt Ideal)) : (U5 V (Proc.devRef .tc main_v670) : S50000x64.Idx → EReal) = rs3 V := by
  refine (E5 (U4x V)).trans ?_
  rw [F4x V, K4x V main_arg11 (by simp [argRefs]), K4x V main_arg5 (by simp [argRefs])]
  rfl
theorem F5x (V : Valuation τ sig (Elt Ideal)) : (U5 V (Proc.devRef .tc main_v536) : S50000x32.Idx → EReal) = rx1 V :=
  (keep_r13a_v536 _).trans ((keep_r12_v536 _).trans ((keep_r11_v536 _).trans ((keep_r10c_v536 _).trans (F4x V))))
theorem F6 (V : Valuation τ sig (Elt Ideal)) : (U6 V (Proc.devRef .tc main_v804) : S50000x64.Idx → EReal) = rs4 V := by
  refine (E6 (U5 V)).trans ?_
  rw [F5 V, K5 V main_arg10 (by simp [argRefs]), K5 V main_arg6 (by simp [argRefs])]
  rfl
theorem F6x (V : Valuation τ sig (Elt Ideal)) : (U6 V (Proc.devRef .tc main_v536) : S50000x32.Idx → EReal) = rx1 V :=
  (keep_r15a_v536 _).trans ((keep_r14_v536 _).trans ((keep_r13b_v536 _).trans (F5x V)))
theorem F7 (V : Valuation τ sig (Elt Ideal)) : (U7 V (Proc.devRef .tc main_v938) : S50000x64.Idx → EReal) = rr3 V := by
  refine (E7 (U6 V)).trans ?_
  rw [F6x V, K6 V main_arg10 (by simp [argRefs]), K6 V main_arg7 (by simp [argRefs])]
  rfl
theorem F7s (V : Valuation τ sig (Elt Ideal)) : (U7 V (Proc.devRef .tc main_v804) : S50000x64.Idx → EReal) = rs4 V :=
  (keep_r18a_v804 _).trans ((keep_r17_v804 _).trans ((keep_r16_v804 _).trans ((keep_r15b_v804 _).trans (F6 V))))
theorem F8 (V : Valuation τ sig (Elt Ideal)) : (U8 V (Proc.devRef .tc main_v1072) : S50000x64.Idx → EReal) = rr4 V := by
  refine (E8 (U7 V)).trans ?_
  rw [F7 V, K7 V main_arg11 (by simp [argRefs]), K7 V main_arg8 (by simp [argRefs])]
  rfl
theorem F8s (V : Valuation τ sig (Elt Ideal)) : (U8 V (Proc.devRef .tc main_v804) : S50000x64.Idx → EReal) = rs4 V :=
  (keep_r21a_v804 _).trans ((keep_r20_v804 _).trans ((keep_r19_v804 _).trans ((keep_r18b_v804 _).trans (F7s V))))
theorem F8x (V : Valuation τ sig (Elt Ideal)) : (U8x V (Proc.devRef .tc main_v1073) : S50000x64.Idx → EReal) = rA V := by
  refine (EXA (U8 V)).trans ?_
  rw [F8 V, F8s V]
  rfl

/-! ## The pooling convolution, window by window -/

/-- The pooling convolution's partial sums: the zero array plus taps 0 … n, added in order. -/
def part (x : FVec Ideal S50000x64 .f32) (nbr : IVec S122811x27 32) (W : FVec Ideal S27x64x64 .f32) : (n : Nat) → n < 27 → FVec Ideal S122811x64 .f32
  | 0, h => addf (broadcastInDim S122811x64 ![] bcast_S_S122811x64 (constant (F := Ideal) S_ .f32 0x00000000#32)) (Cert.ReferenceIdeal.BRP.refTapArr ⟨0, h⟩ x nbr W)
  | n + 1, h => addf (part x nbr W n (by omega)) (Cert.ReferenceIdeal.BRP.refTapArr ⟨n + 1, h⟩ x nbr W)

theorem part_last (x : FVec Ideal S50000x64 .f32) (nbr : IVec S122811x27 32) (W : FVec Ideal S27x64x64 .f32) :
    part x nbr W 26 (by decide) = Cert.ReferenceIdeal.BRP.refConv x nbr W := rfl

abbrev Q0 (U : Valuation τ sig (Elt Ideal)) : Valuation τ sig (Elt Ideal) := after (r21c (F := Ideal)) U
abbrev Q1 (U : Valuation τ sig (Elt Ideal)) : Valuation τ sig (Elt Ideal) := after (r22 (F := Ideal)) (Q0 U)
abbrev Q2 (U : Valuation τ sig (Elt Ideal)) : Valuation τ sig (Elt Ideal) := after (r23 (F := Ideal)) (Q1 U)
abbrev Q3 (U : Valuation τ sig (Elt Ideal)) : Valuation τ sig (Elt Ideal) := after (r24 (F := Ideal)) (Q2 U)
abbrev Q4 (U : Valuation τ sig (Elt Ideal)) : Valuation τ sig (Elt Ideal) := after (r25 (F := Ideal)) (Q3 U)
abbrev Q5 (U : Valuation τ sig (Elt Ideal)) : Valuation τ sig (Elt Ideal) := after (r26 (F := Ideal)) (Q4 U)
abbrev Q6 (U : Valuation τ sig (Elt Ideal)) : Valuation τ sig (Elt Ideal) := after (r27 (F := Ideal)) (Q5 U)
abbrev Q7 (U : Valuation τ sig (Elt Ideal)) : Valuation τ sig (Elt Ideal) := after (r28 (F := Ideal)) (Q6 U)

theorem q0_args (U : Valuation τ sig (Elt Ideal)) : ∀ b ∈ argRefs, Q0 U (Proc.devRef .tc b) = U (Proc.devRef .tc b) := keeps_r21c U
theorem q0_xp (U : Valuation τ sig (Elt Ideal)) : (Q0 U (Proc.devRef .tc main_v1075) : S50001x64.Idx → EReal) = Cert.ReferenceIdeal.BRP.xpadR (U (Proc.devRef .tc main_v1073)) := r21c_xp U
theorem q0_g (U : Valuation τ sig (Elt Ideal)) :
    (Q0 U (Proc.devRef .tc main_v1111) : S122811x64.Idx → EReal)
      = Host.gather (α := EReal) Cert.ReferenceIdeal.BRP.GR (Cert.ReferenceIdeal.BRP.xpadR (U (Proc.devRef .tc main_v1073))) (Cert.ReferenceIdeal.BRP.colIdx 2 (Cert.ReferenceIdeal.BRP.slicesN 2) (U (Proc.devRef .tc main_arg12))) := r21c_g U
theorem q0_acc (U : Valuation τ sig (Elt Ideal)) :
    (Q0 U (Proc.devRef .tc main_v1102) : S122811x64.Idx → EReal)
      = part (U (Proc.devRef .tc main_v1073)) (U (Proc.devRef .tc main_arg12)) (U (Proc.devRef .tc main_arg9)) 1 (by decide) := r21c_acc U

theorem q1_args (U : Valuation τ sig (Elt Ideal)) : ∀ b ∈ argRefs, Q1 U (Proc.devRef .tc b) = U (Proc.devRef .tc b) :=
  fun b hb => (keeps_r22 _ b hb).trans (q0_args U b hb)
theorem q1_xp (U : Valuation τ sig (Elt Ideal)) : (Q1 U (Proc.devRef .tc main_v1075) : S50001x64.Idx → EReal) = Cert.ReferenceIdeal.BRP.xpadR (U (Proc.devRef .tc main_v1073)) :=
  (r22_xp (Q0 U)).trans (q0_xp U)
theorem q1_g (U : Valuation τ sig (Elt Ideal)) :
    (Q1 U (Proc.devRef .tc main_v1163) : S122811x64.Idx → EReal)
      = Host.gather (α := EReal) Cert.ReferenceIdeal.BRP.GR (Cert.ReferenceIdeal.BRP.xpadR (U (Proc.devRef .tc main_v1073))) (Cert.ReferenceIdeal.BRP.colIdx 6 (Cert.ReferenceIdeal.BRP.slicesN 6) (U (Proc.devRef .tc main_arg12))) := by
  refine (r22_g (Q0 U)).trans ?_
  rw [q0_xp U, q0_args U main_arg12 (by simp [argRefs])]
theorem q1_acc (U : Valuation τ sig (Elt Ideal)) :
    (Q1 U (Proc.devRef .tc main_v1154) : S122811x64.Idx → EReal)
      = part (U (Proc.devRef .tc main_v1073)) (U (Proc.devRef .tc main_arg12)) (U (Proc.devRef .tc main_arg9)) 5 (by decide) := by
  refine (r22_acc (Q0 U)).trans ?_
  rw [q0_acc U, q0_g U, q0_xp U, q0_args U main_arg12 (by simp [argRefs]), q0_args U main_arg9 (by simp [argRefs])]
  rfl

theorem q2_args (U : Valuation τ sig (Elt Ideal)) : ∀ b ∈ argRefs, Q2 U (Proc.devRef .tc b) = U (Proc.devRef .tc b) :=
  fun b hb => (keeps_r23 _ b hb).trans (q1_args U b hb)
theorem q2_xp (U : Valuation τ sig (Elt Ideal)) : (Q2 U (Proc.devRef .tc main_v1075) : S50001x64.Idx → EReal) = Cert.ReferenceIdeal.BRP.xpadR (U (Proc.devRef .tc main_v1073)) :=
  (r23_xp (Q1 U)).trans (q1_xp U)
theorem q2_g (U : Valuation τ sig (Elt Ideal)) :
    (Q2 U (Proc.devRef .tc main_v1215) : S122811x64.Idx → EReal)
      = Host.gather (α := EReal) Cert.ReferenceIdeal.BRP.GR (Cert.ReferenceIdeal.BRP.xpadR (U (Proc.devRef .tc main_v1073))) (Cert.ReferenceIdeal.BRP.colIdx 10 (Cert.ReferenceIdeal.BRP.slicesN 10) (U (Proc.devRef .tc main_arg12))) := by
  refine (r23_g (Q1 U)).trans ?_
  rw [q1_xp U, q1_args U main_arg12 (by simp [argRefs])]
theorem q2_acc (U : Valuation τ sig (Elt Ideal)) :
    (Q2 U (Proc.devRef .tc main_v1206) : S122811x64.Idx → EReal)
      = part (U (Proc.devRef .tc main_v1073)) (U (Proc.devRef .tc main_arg12)) (U (Proc.devRef .tc main_arg9)) 9 (by decide) := by
  refine (r23_acc (Q1 U)).trans ?_
  rw [q1_acc U, q1_g U, q1_xp U, q1_args U main_arg12 (by simp [argRefs]), q1_args U main_arg9 (by simp [argRefs])]
  rfl

theorem q3_args (U : Valuation τ sig (Elt Ideal)) : ∀ b ∈ argRefs, Q3 U (Proc.devRef .tc b) = U (Proc.devRef .tc b) :=
  fun b hb => (keeps_r24 _ b hb).trans (q2_args U b hb)
theorem q3_xp (U : Valuation τ sig (Elt Ideal)) : (Q3 U (Proc.devRef .tc main_v1075) : S50001x64.Idx → EReal) = Cert.ReferenceIdeal.BRP.xpadR (U (Proc.devRef .tc main_v1073)) :=
  (r24_xp (Q2 U)).trans (q2_xp U)
theorem q3_g (U : Valuation τ sig (Elt Ideal)) :
    (Q3 U (Proc.devRef .tc main_v1267) : S122811x64.Idx → EReal)
      = Host.gather (α := EReal) Cert.ReferenceIdeal.BRP.GR (Cert.ReferenceIdeal.BRP.xpadR (U (Proc.devRef .tc main_v1073))) (Cert.ReferenceIdeal.BRP.colIdx 14 (Cert.ReferenceIdeal.BRP.slicesN 14) (U (Proc.devRef .tc main_arg12))) := by
  refine (r24_g (Q2 U)).trans ?_
  rw [q2_xp U, q2_args U main_arg12 (by simp [argRefs])]
theorem q3_acc (U : Valuation τ sig (Elt Ideal)) :
    (Q3 U (Proc.devRef .tc main_v1258) : S122811x64.Idx → EReal)
      = part (U (Proc.devRef .tc main_v1073)) (U (Proc.devRef .tc main_arg12)) (U (Proc.devRef .tc main_arg9)) 13 (by decide) := by
  refine (r24_acc (Q2 U)).trans ?_
  rw [q2_acc U, q2_g U, q2_xp U, q2_args U main_arg12 (by simp [argRefs]), q2_args U main_arg9 (by simp [argRefs])]
  rfl

theorem q4_args (U : Valuation τ sig (Elt Ideal)) : ∀ b ∈ argRefs, Q4 U (Proc.devRef .tc b) = U (Proc.devRef .tc b) :=
  fun b hb => (keeps_r25 _ b hb).trans (q3_args U b hb)
theorem q4_xp (U : Valuation τ sig (Elt Ideal)) : (Q4 U (Proc.devRef .tc main_v1075) : S50001x64.Idx → EReal) = Cert.ReferenceIdeal.BRP.xpadR (U (Proc.devRef .tc main_v1073)) :=
  (r25_xp (Q3 U)).trans (q3_xp U)
theorem q4_g (U : Valuation τ sig (Elt Ideal)) :
    (Q4 U (Proc.devRef .tc main_v1319) : S122811x64.Idx → EReal)
      = Host.gather (α := EReal) Cert.ReferenceIdeal.BRP.GR (Cert.ReferenceIdeal.BRP.xpadR (U (Proc.devRef .tc main_v1073))) (Cert.ReferenceIdeal.BRP.colIdx 18 (Cert.ReferenceIdeal.BRP.slicesN 18) (U (Proc.devRef .tc main_arg12))) := by
  refine (r25_g (Q3 U)).trans ?_
  rw [q3_xp U, q3_args U main_arg12 (by simp [argRefs])]
theorem q4_acc (U : Valuation τ sig (Elt Ideal)) :
    (Q4 U (Proc.devRef .tc main_v1310) : S122811x64.Idx → EReal)
      = part (U (Proc.devRef .tc main_v1073)) (U (Proc.devRef .tc main_arg12)) (U (Proc.devRef .tc main_arg9)) 17 (by decide) := by
  refine (r25_acc (Q3 U)).trans ?_
  rw [q3_acc U, q3_g U, q3_xp U, q3_args U main_arg12 (by simp [argRefs]), q3_args U main_arg9 (by simp [argRefs])]
  rfl

theorem q5_args (U : Valuation τ sig (Elt Ideal)) : ∀ b ∈ argRefs, Q5 U (Proc.devRef .tc b) = U (Proc.devRef .tc b) :=
  fun b hb => (keeps_r26 _ b hb).trans (q4_args U b hb)
theorem q5_xp (U : Valuation τ sig (Elt Ideal)) : (Q5 U (Proc.devRef .tc main_v1075) : S50001x64.Idx → EReal) = Cert.ReferenceIdeal.BRP.xpadR (U (Proc.devRef .tc main_v1073)) :=
  (r26_xp (Q4 U)).trans (q4_xp U)
theorem q5_g (U : Valuation τ sig (Elt Ideal)) :
    (Q5 U (Proc.devRef .tc main_v1371) : S122811x64.Idx → EReal)
      = Host.gather (α := EReal) Cert.ReferenceIdeal.BRP.GR (Cert.ReferenceIdeal.BRP.xpadR (U (Proc.devRef .tc main_v1073))) (Cert.ReferenceIdeal.BRP.colIdx 22 (Cert.ReferenceIdeal.BRP.slicesN 22) (U (Proc.devRef .tc main_arg12))) := by
  refine (r26_g (Q4 U)).trans ?_
  rw [q4_xp U, q4_args U main_arg12 (by simp [argRefs])]
theorem q5_acc (U : Valuation τ sig (Elt Ideal)) :
    (Q5 U (Proc.devRef .tc main_v1362) : S122811x64.Idx → EReal)
      = part (U (Proc.devRef .tc main_v1073)) (U (Proc.devRef .tc main_arg12)) (U (Proc.devRef .tc main_arg9)) 21 (by decide) := by
  refine (r26_acc (Q4 U)).trans ?_
  rw [q4_acc U, q4_g U, q4_xp U, q4_args U main_arg12 (by simp [argRefs]), q4_args U main_arg9 (by simp [argRefs])]
  rfl

theorem q6_args (U : Valuation τ sig (Elt Ideal)) : ∀ b ∈ argRefs, Q6 U (Proc.devRef .tc b) = U (Proc.devRef .tc b) :=
  fun b hb => (keeps_r27 _ b hb).trans (q5_args U b hb)
theorem q6_xp (U : Valuation τ sig (Elt Ideal)) : (Q6 U (Proc.devRef .tc main_v1075) : S50001x64.Idx → EReal) = Cert.ReferenceIdeal.BRP.xpadR (U (Proc.devRef .tc main_v1073)) :=
  (r27_xp (Q5 U)).trans (q5_xp U)
theorem q6_g (U : Valuation τ sig (Elt Ideal)) :
    (Q6 U (Proc.devRef .tc main_v1423) : S122811x64.Idx → EReal)
      = Host.gather (α := EReal) Cert.ReferenceIdeal.BRP.GR (Cert.ReferenceIdeal.BRP.xpadR (U (Proc.devRef .tc main_v1073))) (Cert.ReferenceIdeal.BRP.colIdx 26 (Cert.ReferenceIdeal.BRP.slicesN 26) (U (Proc.devRef .tc main_arg12))) := by
  refine (r27_g (Q5 U)).trans ?_
  rw [q5_xp U, q5_args U main_arg12 (by simp [argRefs])]
theorem q6_acc (U : Valuation τ sig (Elt Ideal)) :
    (Q6 U (Proc.devRef .tc main_v1414) : S122811x64.Idx → EReal)
      = part (U (Proc.devRef .tc main_v1073)) (U (Proc.devRef .tc main_arg12)) (U (Proc.devRef .tc main_arg9)) 25 (by decide) := by
  refine (r27_acc (Q5 U)).trans ?_
  rw [q5_acc U, q5_g U, q5_xp U, q5_args U main_arg12 (by simp [argRefs]), q5_args U main_arg9 (by simp [argRefs])]
  rfl

theorem q7_args (U : Valuation τ sig (Elt Ideal)) : ∀ b ∈ argRefs, Q7 U (Proc.devRef .tc b) = U (Proc.devRef .tc b) :=
  fun b hb => (keeps_r28 _ b hb).trans (q6_args U b hb)
/-- THE POOLING CONVOLUTION of the reference, from any contents before it. -/
theorem EP (U : Valuation τ sig (Elt Ideal)) :
    (Q7 U (Proc.devRef .tc main_v1427) : S122811x64.Idx → EReal)
      = Cert.ReferenceIdeal.BRP.refConv (U (Proc.devRef .tc main_v1073)) (U (Proc.devRef .tc main_arg12)) (U (Proc.devRef .tc main_arg9)) := by
  refine (r28_acc (Q6 U)).trans ?_
  rw [q6_acc U, q6_g U, q6_args U main_arg9 (by simp [argRefs])]
  exact part_last _ _ _
theorem EPa (U : Valuation τ sig (Elt Ideal)) : Q7 U (Proc.devRef .tc main_v1073) = U (Proc.devRef .tc main_v1073) :=
  (keep_r28_v1073 _).trans ((keep_r27_v1073 _).trans ((keep_r26_v1073 _).trans ((keep_r25_v1073 _).trans ((keep_r24_v1073 _).trans ((keep_r23_v1073 _).trans ((keep_r22_v1073 _).trans ((keep_r21c_v1073 _).trans (rfl))))))))

/-! ## The whole run -/

abbrev U9 (V : Valuation τ sig (Elt Ideal)) : Valuation τ sig (Elt Ideal) := Q7 (U8x V)

theorem K9 (V : Valuation τ sig (Elt Ideal)) : ∀ b ∈ argRefs, U9 V (Proc.devRef .tc b) = V (Proc.devRef .tc b) :=
  fun b hb => (q7_args (U8x V) b hb).trans (K8x V b hb)
/-- THE REFERENCE'S FIRST RESULT: the pooled features. -/
theorem F9 (V : Valuation τ sig (Elt Ideal)) : (U9 V (Proc.devRef .tc main_v1427) : S122811x64.Idx → EReal) = rB V := by
  refine (EP (U8x V)).trans ?_
  rw [F8x V, K8x V main_arg12 (by simp [argRefs]), K8x V main_arg9 (by simp [argRefs])]
  rfl
/-- THE REFERENCE'S SECOND RESULT: the second residual sum. -/
theorem F9a (V : Valuation τ sig (Elt Ideal)) : (U9 V (Proc.devRef .tc main_v1073) : S50000x64.Idx → EReal) = rA V :=
  (EPa (U8x V)).trans (F8x V)

/-- @main's operations, in order: the windows' lists one after the other. -/
abbrev allOps : List (HloOp τ sig (Elt Ideal)) :=
  r0 ++ r1 ++ (r2a ++ r2b) ++ r3 ++ r4 ++ (r5a ++ r5b) ++ r6 ++ (r7a ++ r7b) ++ r8 ++ r9 ++ (r10a ++ r10b ++ r10c) ++ r11 ++ r12
    ++ (r13a ++ r13b) ++ r14 ++ (r15a ++ r15b) ++ r16 ++ r17 ++ (r18a ++ r18b) ++ r19 ++ r20 ++ (r21a ++ r21b ++ r21c)
    ++ r22 ++ r23 ++ r24 ++ r25 ++ r26 ++ r27 ++ r28

theorem after_all (V : Valuation τ sig (Elt Ideal)) : after allOps V = U9 V := by
  simp only [allOps, after_append]

end Cert.ReferenceIdeal.Run

end
-- ==== Proof.RefMain.lean ====
/-
  The reference runs: its @main is the sequencing of its operations, a straight line of host operations over buffers
  of the TensorCore, none scoped, none allocated on the way; every weakly fair execution terminates with each buffer
  at the operations' fold over the launch contents.
-/
import proofs.«141681_j16750372455151_2_alg».proof.Proof.RefChain

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

theorem main_eq (d : Dev nD) : main (F := Ideal) d = seq allOps := by
  simp only [main, part0_eq, part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, allOps, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of their concatenation. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)
theorem mem_app {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

theorem ops_sub : allOps.Forall fun op => op.bufs ⊆ tcRefs τ sig :=
  forall_app (forall_app (forall_app (forall_app (forall_app (forall_app (forall_app (forall_app (forall_app (forall_app (forall_app (forall_app (forall_app (forall_app (forall_app (forall_app (forall_app (forall_app (forall_app (forall_app (forall_app (forall_app (forall_app (forall_app (forall_app (forall_app (forall_app (forall_app (sub_r0) (sub_r1)) (forall_app (sub_r2a) (sub_r2b))) (sub_r3)) (sub_r4)) (forall_app (sub_r5a) (sub_r5b))) (sub_r6)) (forall_app (sub_r7a) (sub_r7b))) (sub_r8)) (sub_r9)) (forall_app (forall_app (sub_r10a) (sub_r10b)) (sub_r10c))) (sub_r11)) (sub_r12)) (forall_app (sub_r13a) (sub_r13b))) (sub_r14)) (forall_app (sub_r15a) (sub_r15b))) (sub_r16)) (sub_r17)) (forall_app (sub_r18a) (sub_r18b))) (sub_r19)) (sub_r20)) (forall_app (forall_app (sub_r21a) (sub_r21b)) (sub_r21c))) (sub_r22)) (sub_r23)) (sub_r24)) (sub_r25)) (sub_r26)) (sub_r27)) (sub_r28)

theorem ops_fresh : ∀ op ∈ allOps, op.fresh = ∅ :=
  mem_app (mem_app (mem_app (mem_app (mem_app (mem_app (mem_app (mem_app (mem_app (mem_app (mem_app (mem_app (mem_app (mem_app (mem_app (mem_app (mem_app (mem_app (mem_app (mem_app (mem_app (mem_app (mem_app (mem_app (mem_app (mem_app (mem_app (mem_app (fresh_r0) (fresh_r1)) (mem_app (fresh_r2a) (fresh_r2b))) (fresh_r3)) (fresh_r4)) (mem_app (fresh_r5a) (fresh_r5b))) (fresh_r6)) (mem_app (fresh_r7a) (fresh_r7b))) (fresh_r8)) (fresh_r9)) (mem_app (mem_app (fresh_r10a) (fresh_r10b)) (fresh_r10c))) (fresh_r11)) (fresh_r12)) (mem_app (fresh_r13a) (fresh_r13b))) (fresh_r14)) (mem_app (fresh_r15a) (fresh_r15b))) (fresh_r16)) (fresh_r17)) (mem_app (fresh_r18a) (fresh_r18b))) (fresh_r19)) (fresh_r20)) (mem_app (mem_app (fresh_r21a) (fresh_r21b)) (fresh_r21c))) (fresh_r22)) (fresh_r23)) (fresh_r24)) (fresh_r25)) (fresh_r26)) (fresh_r27)) (fresh_r28)

/-- THE REFERENCE'S RUN. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b) = U9 (launchContents m d) (Proc.devRef .tc b) :=
  (θ_run defs _ _).mono (fun r h d b => (h d b).trans (congrFun (after_all (launchContents m d)) _))
    (run_seq scopedRefs_eq scopedSems_eq defs main (fun _ => allOps) main_eq (fun _ => ops_sub) m ρ (fun _ => ops_fresh))

end Cert.ReferenceIdeal.Run

end
-- ==== Proof.Equal.lean ====
/-
  The two programs compute one function of the arguments.

  With the thirteen argument arrays equal on both sides: each of the kernel's convolutions (its region's value on the
  gathered taps) is the leaky rectifier of the reference's convolution of the same inputs, the batch normalisations
  are the same host functions, the residual sums are the same sums, and the pooling stage's first 122811 rows are the
  reference's pooling convolution. So block by block the kernel's values are the reference's.
-/
import proofs.«141681_j16750372455151_2_alg».proof.Proof.KChainC
import proofs.«141681_j16750372455151_2_alg».proof.Proof.RefChain
import proofs.«141681_j16750372455151_2_alg».proof.Proof.BRP

set_option maxRecDepth 16384

noncomputable section

namespace Cert.Equal

open Idealize.ShloMosaic Idealize.ShloMosaic.TcCoe Idealize.SL.Sem Idealize.ShloMosaic.StableHlo
open Cert.ReferenceIdeal.Fns

variable (m : (ℓ : Loc Cert.KernelIdeal.nD Cert.KernelIdeal.τ Cert.KernelIdeal.sig) → Buf (Elt Ideal) ℓ) (c : Dev Cert.KernelIdeal.nD)
variable (V : Valuation Cert.ReferenceIdeal.τ Cert.ReferenceIdeal.sig (Elt Ideal))

set_option maxHeartbeats 4000000 in
/-- The reference's valuation holds the kernel's arguments. -/
structure Agree : Prop where
  h0 : (V (Proc.devRef .tc Cert.ReferenceIdeal.main_arg0) : Cert.ReferenceIdeal.S50000x256.Idx → EReal) = m ((c : Thread Cert.KernelIdeal.nD Cert.KernelIdeal.τ).loc Cert.KernelIdeal.main_arg0)
  h1 : (V (Proc.devRef .tc Cert.ReferenceIdeal.main_arg1) : Cert.ReferenceIdeal.S9x256x32.Idx → EReal) = m ((c : Thread Cert.KernelIdeal.nD Cert.KernelIdeal.τ).loc Cert.KernelIdeal.main_arg1)
  h2 : (V (Proc.devRef .tc Cert.ReferenceIdeal.main_arg2) : Cert.ReferenceIdeal.S9x32x32.Idx → EReal) = m ((c : Thread Cert.KernelIdeal.nD Cert.KernelIdeal.τ).loc Cert.KernelIdeal.main_arg2)
  h3 : (V (Proc.devRef .tc Cert.ReferenceIdeal.main_arg3) : Cert.ReferenceIdeal.S9x256x32.Idx → EReal) = m ((c : Thread Cert.KernelIdeal.nD Cert.KernelIdeal.τ).loc Cert.KernelIdeal.main_arg3)
  h4 : (V (Proc.devRef .tc Cert.ReferenceIdeal.main_arg4) : Cert.ReferenceIdeal.S9x32x32.Idx → EReal) = m ((c : Thread Cert.KernelIdeal.nD Cert.KernelIdeal.τ).loc Cert.KernelIdeal.main_arg4)
  h5 : (V (Proc.devRef .tc Cert.ReferenceIdeal.main_arg5) : Cert.ReferenceIdeal.S9x32x64.Idx → EReal) = m ((c : Thread Cert.KernelIdeal.nD Cert.KernelIdeal.τ).loc Cert.KernelIdeal.main_arg5)
  h6 : (V (Proc.devRef .tc Cert.ReferenceIdeal.main_arg6) : Cert.ReferenceIdeal.S9x64x64.Idx → EReal) = m ((c : Thread Cert.KernelIdeal.nD Cert.KernelIdeal.τ).loc Cert.KernelIdeal.main_arg6)
  h7 : (V (Proc.devRef .tc Cert.ReferenceIdeal.main_arg7) : Cert.ReferenceIdeal.S9x32x64.Idx → EReal) = m ((c : Thread Cert.KernelIdeal.nD Cert.KernelIdeal.τ).loc Cert.KernelIdeal.main_arg7)
  h8 : (V (Proc.devRef .tc Cert.ReferenceIdeal.main_arg8) : Cert.ReferenceIdeal.S9x64x64.Idx → EReal) = m ((c : Thread Cert.KernelIdeal.nD Cert.KernelIdeal.τ).loc Cert.KernelIdeal.main_arg8)
  h9 : (V (Proc.devRef .tc Cert.ReferenceIdeal.main_arg9) : Cert.ReferenceIdeal.S27x64x64.Idx → EReal) = m ((c : Thread Cert.KernelIdeal.nD Cert.KernelIdeal.τ).loc Cert.KernelIdeal.main_arg9)
  h10 : (V (Proc.devRef .tc Cert.ReferenceIdeal.main_arg10) : Cert.ReferenceIdeal.S50000x9.Idx → BitVec 32) = m ((c : Thread Cert.KernelIdeal.nD Cert.KernelIdeal.τ).loc Cert.KernelIdeal.main_arg10)
  h11 : (V (Proc.devRef .tc Cert.ReferenceIdeal.main_arg11) : Cert.ReferenceIdeal.S50000x9.Idx → BitVec 32) = m ((c : Thread Cert.KernelIdeal.nD Cert.KernelIdeal.τ).loc Cert.KernelIdeal.main_arg11)
  h12 : (V (Proc.devRef .tc Cert.ReferenceIdeal.main_arg12) : Cert.ReferenceIdeal.S122811x27.Idx → BitVec 32) = m ((c : Thread Cert.KernelIdeal.nD Cert.KernelIdeal.τ).loc Cert.KernelIdeal.main_arg12)

variable {m c V}

open Cert.KernelIdeal.Chain Cert.ReferenceIdeal.Run in
theorem s1_eq (H : Agree m c V) : rs1 V = ks1 m c := by
  unfold rs1 ks1 kc1
  rw [H.h0, H.h10, H.h1]
  exact congrArg bn32 (Cert.ReferenceIdeal.Bridge.layer_eq _ _ _).symm

open Cert.KernelIdeal.Chain Cert.ReferenceIdeal.Run in
theorem s2_eq (H : Agree m c V) : rs2 V = ks2 m c := by
  unfold rs2 ks2 kc2
  rw [s1_eq H, H.h11, H.h2]
  exact congrArg bn32 (Cert.ReferenceIdeal.BRB.layer_eq _ _ _).symm

open Cert.KernelIdeal.Chain Cert.ReferenceIdeal.Run in
theorem r1_eq (H : Agree m c V) : rr1 V = kr1 m c := by
  unfold rr1 kr1 kc3
  rw [H.h0, H.h11, H.h3]
  exact congrArg bn32 (Cert.ReferenceIdeal.Bridge.layer_eq _ _ _).symm

open Cert.KernelIdeal.Chain Cert.ReferenceIdeal.Run in
theorem r2_eq (H : Agree m c V) : rr2 V = kr2 m c := by
  unfold rr2 kr2 kc4
  rw [r1_eq H, H.h10, H.h4]
  exact congrArg bn32 (Cert.ReferenceIdeal.BRB.layer_eq _ _ _).symm

open Cert.KernelIdeal.Chain Cert.ReferenceIdeal.Run in
theorem x1_eq (H : Agree m c V) : rx1 V = kx1 m c := by
  unfold rx1 kx1
  rw [r2_eq H, s2_eq H]

open Cert.KernelIdeal.Chain Cert.ReferenceIdeal.Run in
theorem s3_eq (H : Agree m c V) : rs3 V = ks3 m c := by
  unfold rs3 ks3 kc5
  rw [x1_eq H, H.h11, H.h5]
  exact congrArg bn64 (Cert.ReferenceIdeal.BRC.layer_eq _ _ _).symm

open Cert.KernelIdeal.Chain Cert.ReferenceIdeal.Run in
theorem s4_eq (H : Agree m c V) : rs4 V = ks4 m c := by
  unfold rs4 ks4 kc6
  rw [s3_eq H, H.h10, H.h6]
  exact congrArg bn64 (Cert.ReferenceIdeal.BRD.layer_eq _ _ _).symm

open Cert.KernelIdeal.Chain Cert.ReferenceIdeal.Run in
theorem r3_eq (H : Agree m c V) : rr3 V = kr3 m c := by
  unfold rr3 kr3 kc7
  rw [x1_eq H, H.h10, H.h7]
  exact congrArg bn64 (Cert.ReferenceIdeal.BRC.layer_eq _ _ _).symm

open Cert.KernelIdeal.Chain Cert.ReferenceIdeal.Run in
theorem r4_eq (H : Agree m c V) : rr4 V = kr4 m c := by
  unfold rr4 kr4 kc8
  rw [r3_eq H, H.h11, H.h8]
  exact congrArg bn64 (Cert.ReferenceIdeal.BRD.layer_eq _ _ _).symm

open Cert.KernelIdeal.Chain Cert.ReferenceIdeal.Run in
/-- THE SECOND RESULT agrees. -/
theorem A_eq (H : Agree m c V) : rA V = kA m c := by
  unfold rA kA
  rw [r4_eq H, s4_eq H]

open Cert.KernelIdeal.Chain Cert.ReferenceIdeal.Run in
/-- THE FIRST RESULT agrees. -/
theorem B_eq (H : Agree m c V) : rB V = kB m c := by
  unfold rB kB kc9
  rw [A_eq H, H.h12, H.h9]
  exact (Cert.ReferenceIdeal.BRP.layer_eq _ _ _).symm

end Cert.Equal

end
-- ==== Proof.lean ====
/-
  The certificate of a sparse-convolution block (two residual stages of 9-tap submanifold convolutions with a
  leaky rectifier and batch normalisation, then a 27-tap strided pooling convolution) against its jnp reference.

  Over the extended reals both programs compute, for every convolution,
      out[i, o] = lrelu (z + Σ_k Σ_c xpad[row (nbr(i, k)), c] · W[k, c, o]),
  the taps added in the same order and association: the kernel gathers all taps at once (the neighbour table
  transposed) and multiplies tile by tile on the matrix unit, the reference gathers and multiplies tap by tap on the
  host; narrowing to bf16 is the identity, a matrix product into a zero accumulator is the host's dot product, and
  the batch normalisation around the convolutions is the same sequence of host operations in both. No law of
  addition and no finiteness of the inputs is needed: the two sides are one formula.

  The kernel's frames (word level and idealized) are the generated ones; the idealization rewrote nothing, so
  `preserves` is trivial; the reference's frame is its run with the results dropped.
-/
import proofs.«141681_j16750372455151_2_alg».proof.Defs
import proofs.«141681_j16750372455151_2_alg».proof.Proof.Gen.Kernel
import proofs.«141681_j16750372455151_2_alg».proof.Proof.Gen.Kernel.Skeleton
import proofs.«141681_j16750372455151_2_alg».proof.Proof.Gen.Kernel.Launch
import proofs.«141681_j16750372455151_2_alg».proof.Proof.Gen.Kernel.Points
import proofs.«141681_j16750372455151_2_alg».proof.Proof.Gen.Kernel.Frame
import proofs.«141681_j16750372455151_2_alg».proof.Proof.Gen.KernelIdeal
import proofs.«141681_j16750372455151_2_alg».proof.Proof.Gen.KernelIdeal.Skeleton
import proofs.«141681_j16750372455151_2_alg».proof.Proof.Gen.KernelIdeal.Launch
import proofs.«141681_j16750372455151_2_alg».proof.Proof.Gen.KernelIdeal.Points
import proofs.«141681_j16750372455151_2_alg».proof.Proof.Gen.KernelIdeal.Frame
import proofs.«141681_j16750372455151_2_alg».proof.Proof.Gen.ReferenceIdeal
import proofs.«141681_j16750372455151_2_alg».proof.Proof.Gen.Pre_finite_inputs
import proofs.«141681_j16750372455151_2_alg».proof.Proof.KernelRun
import proofs.«141681_j16750372455151_2_alg».proof.Proof.KChainC
import proofs.«141681_j16750372455151_2_alg».proof.Proof.RefMain
import proofs.«141681_j16750372455151_2_alg».proof.Proof.Equal
import Idealize.ShloMosaic.Adequacy
import Idealize.ShloMosaic.Init

set_option maxRecDepth 16384

noncomputable section

namespace Cert.Proof

open Idealize.ShloMosaic Idealize.SL.Sem Idealize.ShloMosaic.StableHlo

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

/-- A reference argument among the thirteen. -/
theorem inArgs (n : Fin 13) : (![Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12] n) ∈ Cert.ReferenceIdeal.Run.argRefs := by
  fin_cases n <;> simp [Cert.ReferenceIdeal.Run.argRefs]

/-- The reference runs, and no operation of it writes an argument. -/
theorem frame_reference : @Cert.frame_ReferenceIdeal Cert.ReferenceIdeal.Gen.facts Cert.Pre_finite_inputs.Gen.facts :=
  fun m ρ _ => (θ_run Cert.ReferenceIdeal.defs _ _).mono (fun r h c =>
    ⟨(h c Cert.ReferenceIdeal.main_arg0).trans (Cert.ReferenceIdeal.Run.K9 _ Cert.ReferenceIdeal.main_arg0 (inArgs 0)),
     (h c Cert.ReferenceIdeal.main_arg1).trans (Cert.ReferenceIdeal.Run.K9 _ Cert.ReferenceIdeal.main_arg1 (inArgs 1)),
     (h c Cert.ReferenceIdeal.main_arg2).trans (Cert.ReferenceIdeal.Run.K9 _ Cert.ReferenceIdeal.main_arg2 (inArgs 2)),
     (h c Cert.ReferenceIdeal.main_arg3).trans (Cert.ReferenceIdeal.Run.K9 _ Cert.ReferenceIdeal.main_arg3 (inArgs 3)),
     (h c Cert.ReferenceIdeal.main_arg4).trans (Cert.ReferenceIdeal.Run.K9 _ Cert.ReferenceIdeal.main_arg4 (inArgs 4)),
     (h c Cert.ReferenceIdeal.main_arg5).trans (Cert.ReferenceIdeal.Run.K9 _ Cert.ReferenceIdeal.main_arg5 (inArgs 5)),
     (h c Cert.ReferenceIdeal.main_arg6).trans (Cert.ReferenceIdeal.Run.K9 _ Cert.ReferenceIdeal.main_arg6 (inArgs 6)),
     (h c Cert.ReferenceIdeal.main_arg7).trans (Cert.ReferenceIdeal.Run.K9 _ Cert.ReferenceIdeal.main_arg7 (inArgs 7)),
     (h c Cert.ReferenceIdeal.main_arg8).trans (Cert.ReferenceIdeal.Run.K9 _ Cert.ReferenceIdeal.main_arg8 (inArgs 8)),
     (h c Cert.ReferenceIdeal.main_arg9).trans (Cert.ReferenceIdeal.Run.K9 _ Cert.ReferenceIdeal.main_arg9 (inArgs 9)),
     (h c Cert.ReferenceIdeal.main_arg10).trans (Cert.ReferenceIdeal.Run.K9 _ Cert.ReferenceIdeal.main_arg10 (inArgs 10)),
     (h c Cert.ReferenceIdeal.main_arg11).trans (Cert.ReferenceIdeal.Run.K9 _ Cert.ReferenceIdeal.main_arg11 (inArgs 11)),
     (h c Cert.ReferenceIdeal.main_arg12).trans (Cert.ReferenceIdeal.Run.K9 _ Cert.ReferenceIdeal.main_arg12 (inArgs 12))⟩)
    (Cert.ReferenceIdeal.Run.run m ρ)

/-- Both idealized programs end with equal results: the kernel's values along its run and the reference's are the
    same terms of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  have H : ∀ c : Dev Cert.KernelIdeal.nD, Cert.Equal.Agree m c (launchContents m' c) := fun c =>
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2⟩
  refine ⟨fun c => Cert.KernelIdeal.Chain.kB m c, fun c => Cert.KernelIdeal.Chain.kA m c, ?_, ?_⟩
  · exact (θ_run Cert.KernelIdeal.defs _ _).mono (fun r h c =>
      ⟨(h c _ (Cert.KernelIdeal.Gen.mem_uc Cert.KernelIdeal.main_v222 (by decide))).trans (Cert.KernelIdeal.Chain.result0 m ρ c),
       (h c _ (Cert.KernelIdeal.Gen.mem_uc Cert.KernelIdeal.main_v207 (by decide))).trans (Cert.KernelIdeal.Chain.result1 m ρ c),
       (h c _ (Cert.KernelIdeal.Gen.mem_uc Cert.KernelIdeal.main_arg0 (by decide))).trans (Cert.KernelIdeal.Gen.W36_main_arg0 m ρ c),
       (h c _ (Cert.KernelIdeal.Gen.mem_uc Cert.KernelIdeal.main_arg1 (by decide))).trans (Cert.KernelIdeal.Gen.W36_main_arg1 m ρ c),
       (h c _ (Cert.KernelIdeal.Gen.mem_uc Cert.KernelIdeal.main_arg2 (by decide))).trans (Cert.KernelIdeal.Gen.W36_main_arg2 m ρ c),
       (h c _ (Cert.KernelIdeal.Gen.mem_uc Cert.KernelIdeal.main_arg3 (by decide))).trans (Cert.KernelIdeal.Gen.W36_main_arg3 m ρ c),
       (h c _ (Cert.KernelIdeal.Gen.mem_uc Cert.KernelIdeal.main_arg4 (by decide))).trans (Cert.KernelIdeal.Gen.W36_main_arg4 m ρ c),
       (h c _ (Cert.KernelIdeal.Gen.mem_uc Cert.KernelIdeal.main_arg5 (by decide))).trans (Cert.KernelIdeal.Gen.W36_main_arg5 m ρ c),
       (h c _ (Cert.KernelIdeal.Gen.mem_uc Cert.KernelIdeal.main_arg6 (by decide))).trans (Cert.KernelIdeal.Gen.W36_main_arg6 m ρ c),
       (h c _ (Cert.KernelIdeal.Gen.mem_uc Cert.KernelIdeal.main_arg7 (by decide))).trans (Cert.KernelIdeal.Gen.W36_main_arg7 m ρ c),
       (h c _ (Cert.KernelIdeal.Gen.mem_uc Cert.KernelIdeal.main_arg8 (by decide))).trans (Cert.KernelIdeal.Gen.W36_main_arg8 m ρ c),
       (h c _ (Cert.KernelIdeal.Gen.mem_uc Cert.KernelIdeal.main_arg9 (by decide))).trans (Cert.KernelIdeal.Gen.W36_main_arg9 m ρ c),
       (h c _ (Cert.KernelIdeal.Gen.mem_uc Cert.KernelIdeal.main_arg10 (by decide))).trans (Cert.KernelIdeal.Gen.W36_main_arg10 m ρ c),
       (h c _ (Cert.KernelIdeal.Gen.mem_uc Cert.KernelIdeal.main_arg11 (by decide))).trans (Cert.KernelIdeal.Gen.W36_main_arg11 m ρ c),
       (h c _ (Cert.KernelIdeal.Gen.mem_uc Cert.KernelIdeal.main_arg12 (by decide))).trans (Cert.KernelIdeal.Gen.W36_main_arg12 m ρ c)⟩)
      (Cert.KernelIdeal.RunAll.run_all m ρ)
  · exact (θ_run Cert.ReferenceIdeal.defs _ _).mono (fun r h c =>
      ⟨(h c Cert.ReferenceIdeal.main_v1427).trans ((Cert.ReferenceIdeal.Run.F9 _).trans (Cert.Equal.B_eq (H c))),
       (h c Cert.ReferenceIdeal.main_v1073).trans ((Cert.ReferenceIdeal.Run.F9a _).trans (Cert.Equal.A_eq (H c))),
       (h c Cert.ReferenceIdeal.main_arg0).trans (Cert.ReferenceIdeal.Run.K9 _ Cert.ReferenceIdeal.main_arg0 (inArgs 0)),
       (h c Cert.ReferenceIdeal.main_arg1).trans (Cert.ReferenceIdeal.Run.K9 _ Cert.ReferenceIdeal.main_arg1 (inArgs 1)),
       (h c Cert.ReferenceIdeal.main_arg2).trans (Cert.ReferenceIdeal.Run.K9 _ Cert.ReferenceIdeal.main_arg2 (inArgs 2)),
       (h c Cert.ReferenceIdeal.main_arg3).trans (Cert.ReferenceIdeal.Run.K9 _ Cert.ReferenceIdeal.main_arg3 (inArgs 3)),
       (h c Cert.ReferenceIdeal.main_arg4).trans (Cert.ReferenceIdeal.Run.K9 _ Cert.ReferenceIdeal.main_arg4 (inArgs 4)),
       (h c Cert.ReferenceIdeal.main_arg5).trans (Cert.ReferenceIdeal.Run.K9 _ Cert.ReferenceIdeal.main_arg5 (inArgs 5)),
       (h c Cert.ReferenceIdeal.main_arg6).trans (Cert.ReferenceIdeal.Run.K9 _ Cert.ReferenceIdeal.main_arg6 (inArgs 6)),
       (h c Cert.ReferenceIdeal.main_arg7).trans (Cert.ReferenceIdeal.Run.K9 _ Cert.ReferenceIdeal.main_arg7 (inArgs 7)),
       (h c Cert.ReferenceIdeal.main_arg8).trans (Cert.ReferenceIdeal.Run.K9 _ Cert.ReferenceIdeal.main_arg8 (inArgs 8)),
       (h c Cert.ReferenceIdeal.main_arg9).trans (Cert.ReferenceIdeal.Run.K9 _ Cert.ReferenceIdeal.main_arg9 (inArgs 9)),
       (h c Cert.ReferenceIdeal.main_arg10).trans (Cert.ReferenceIdeal.Run.K9 _ Cert.ReferenceIdeal.main_arg10 (inArgs 10)),
       (h c Cert.ReferenceIdeal.main_arg11).trans (Cert.ReferenceIdeal.Run.K9 _ Cert.ReferenceIdeal.main_arg11 (inArgs 11)),
       (h c Cert.ReferenceIdeal.main_arg12).trans (Cert.ReferenceIdeal.Run.K9 _ Cert.ReferenceIdeal.main_arg12 (inArgs 12))⟩)
      (Cert.ReferenceIdeal.Run.run m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
